-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_20" .f32 0x3D4CCCCD#32 ((1 / 20 : ℝ) : EReal)
  ∧ IdealRules.named_const.Statement Cert.KernelIdeal.κ "inv_20" .f32 0x3D4CCCCD#32 ((1 / 20 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x20 : Shape := ⟨2, ![1024, 20]⟩
abbrev S100000x64 : Shape := ⟨2, ![100000, 64]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000 : S_.BroadcastsInDim S100000 (![] : Fin 0 → Fin S100000.rank)
  reducesTo_S100000_S_d0 : S100000.ReducesTo [0] S_
  bcast_S_S1024x20 : S_.BroadcastsInDim S1024x20 (![] : Fin 0 → Fin S1024x20.rank)
  reducesTo_S1024x20_S_d0_1 : S1024x20.ReducesTo [0, 1] S_

variable [Facts]

def fn_part1 {F : FTy → Type} [FloatOps F] (main_arg0 : IVec S1024x20 32) (main_v13 : IVec S_ 1) (main_v15 : IVec S1024x20 1) (main_c_5 : IVec S_ 32) : IVec S_ 1 :=
  let main_v16 : IVec S1024x20 32 := broadcastInDim S1024x20 ![] bcast_S_S1024x20 main_c_5
  let main_v17 : IVec S1024x20 1 := cmpi .sle main_arg0 main_v16
  let main_v18 : IVec S1024x20 1 := andi main_v15 main_v17
  let main_c_6 : IVec S_ 1 := constantI S_ 1 1#1
  let main_v19 : IVec S_ 1 := (fun x v => Host.reduce IntOp.andi x v reducesTo_S1024x20_S_d0_1 h_S_) main_v18 main_c_6
  let main_v20 : IVec S_ 1 := andi main_v13 main_v19
  main_v20

def fn {F : FTy → Type} [FloatOps F] (main_arg0 : IVec S1024x20 32) (main_arg1 : FVec F S100000x64 .f32) (main_arg2 : FVec F S100000x64 .f32) (main_arg3 : FVec F S100000 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_c_4 : IVec S_ 32 := constantI S_ 32 0#32
  let main_v14 : IVec S1024x20 32 := broadcastInDim S1024x20 ![] bcast_S_S1024x20 main_c_4
  let main_v15 : IVec S1024x20 1 := cmpi .sge main_arg0 main_v14
  let main_c_5 : IVec S_ 32 := constantI S_ 32 99999#32
  fn_part1 (F := F) main_arg0 main_v13 main_v15 main_c_5
-- ==== Kernel.lean ====
abbrev S1024x20 : Shape := ⟨2, ![1024, 20]⟩
abbrev S100000x64 : Shape := ⟨2, ![100000, 64]⟩
abbrev S100000 : Shape := ⟨1, ![100000]⟩
abbrev S20x1024 : Shape := ⟨2, ![20, 1024]⟩
abbrev S64x100000 : Shape := ⟨2, ![64, 100000]⟩
abbrev S64x1024 : Shape := ⟨2, ![64, 1024]⟩
abbrev S2x1024 : Shape := ⟨2, ![2, 1024]⟩
abbrev S_ : Shape := ⟨0, ![]⟩
abbrev S1x100000 : Shape := ⟨2, ![1, 100000]⟩
abbrev S16 : Shape := ⟨1, ![16]⟩
abbrev S1x16 : Shape := ⟨2, ![1, 16]⟩
abbrev S100000x1024 : Shape := ⟨2, ![100000, 1024]⟩
abbrev S64x3072 : Shape := ⟨2, ![64, 3072]⟩
abbrev S3072 : Shape := ⟨1, ![3072]⟩
abbrev S2x3072x1024 : Shape := ⟨3, ![2, 3072, 1024]⟩
abbrev S2x6 : Shape := ⟨2, ![2, 6]⟩
abbrev S1x1 : Shape := ⟨2, ![1, 1]⟩
abbrev S512x1024 : Shape := ⟨2, ![512, 1024]⟩
abbrev S1x512x1024 : Shape := ⟨3, ![1, 512, 1024]⟩
abbrev S3072x1024 : Shape := ⟨2, ![3072, 1024]⟩
abbrev S3072x1 : Shape := ⟨2, ![3072, 1]⟩
abbrev S1x3072x1024 : Shape := ⟨3, ![1, 3072, 1024]⟩
abbrev S160x1024 : Shape := ⟨2, ![160, 1024]⟩
abbrev S1x160x1024 : Shape := ⟨3, ![1, 160, 1024]⟩
abbrev S1024x100000 : Shape := ⟨2, ![1024, 100000]⟩

abbrev nBuf : Table → Nat
  | .hbm => 10
  | .local .tc .vmem => 6
  | .local .scVector .vmem => 3
  | _ => 0

abbrev bufTy : (tb : Table) → Fin (nBuf tb) → BufTy
  | .hbm, ⟨0, _⟩ => ⟨S1024x20, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S20x1024, .i32⟩
  | .hbm, ⟨5, _⟩ => ⟨S64x100000, .f32⟩
  | .hbm, ⟨6, _⟩ => ⟨S64x1024, .f32⟩
  | .hbm, ⟨7, _⟩ => ⟨S64x100000, .f32⟩
  | .hbm, ⟨8, _⟩ => ⟨S100000x1024, .f32⟩
  | .hbm, ⟨9, _⟩ => ⟨S1024x100000, .f32⟩
  | .local .tc .vmem, ⟨0, _⟩ => ⟨S64x1024, .f32⟩
  | .local .tc .vmem, ⟨1, _⟩ => ⟨S64x3072, .f32⟩
  | .local .tc .vmem, ⟨2, _⟩ => ⟨S64x3072, .f32⟩
  | .local .tc .vmem, ⟨3, _⟩ => ⟨S3072, .f32⟩
  | .local .tc .vmem, ⟨4, _⟩ => ⟨S3072, .f32⟩
  | .local .tc .vmem, ⟨5, _⟩ => ⟨S2x3072x1024, .f32⟩
  | .local .scVector .vmem, ⟨0, _⟩ => ⟨S100000, .f32⟩
  | .local .scVector .vmem, ⟨1, _⟩ => ⟨S20x1024, .i32⟩
  | .local .scVector .vmem, ⟨2, _⟩ => ⟨S2x1024, .f32⟩
  | _, _ => ⟨S1024x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc1_scratch0 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let v3 : BitVec 32 := Scalar.addi v2 c0_i32
  let c0_i32_1 : BitVec 32 := 0#32
  ![v3.toNat, 0]
@[reducible] def k0_t1_loop : Scf.Loop 32 :=
  let c0_i32_6 : BitVec 32 := 0#32
  let c64_i32 : BitVec 32 := 64#32
  let v12 : BitVec 32 := Scalar.addi c0_i32_6 c64_i32
  let c1_i32 : BitVec 32 := 1#32
  ⟨c0_i32_6, v12, c1_i32⟩
def k0_off2 (k0_t1 : Fin k0_t1_loop.trips) : Fin 2 → Nat :=
  let c0_i32_20 : BitVec 32 := 0#32
  let v26 : Index := Scalar.indexCast c0_i32_20
  let c0_i32_6 : BitVec 32 := 0#32
  let c1_i32 : BitVec 32 := 1#32
  let arg9 : BitVec 32 := Scf.iv c0_i32_6 c1_i32 k0_t1
  let c16_i32 : BitVec 32 := 16#32
  let v25 : BitVec 32 := Scalar.muli arg9 c16_i32
  let v27 : Index := Scalar.indexCast v25
  ![0, v27.toNat]

def k0_chk1 (v28 : IVec S16 32) : Prop :=
  (∀ a x, ((![v28] : Fin 1 → IVec S16 32) a x).toNat < S100000.size a)
instance k0_chk1.dec : ∀ (v28 : IVec S16 32), Decidable (k0_chk1 v28) := fun v28 => decidable_of_iff' _ (Iff.of_eq (k0_chk1.eq_1 v28))
theorem k0_idx1_inb : ∀ (v28 : IVec S16 32) (k0_hw1 : k0_chk1 v28), ∀ a x, ((![v28] : Fin 1 → IVec S16 32) a x).toNat < S100000.size a := fun v28 k0_hw1 => k0_hw1
def k0_off3 (k0_t1 : Fin k0_t1_loop.trips) : Fin 2 → Nat :=
  let c1_i32_21 : BitVec 32 := 1#32
  let v30 : Index := Scalar.indexCast c1_i32_21
  let c0_i32_6 : BitVec 32 := 0#32
  let c1_i32 : BitVec 32 := 1#32
  let arg9 : BitVec 32 := Scf.iv c0_i32_6 c1_i32 k0_t1
  let c16_i32 : BitVec 32 := 16#32
  let v25 : BitVec 32 := Scalar.muli arg9 c16_i32
  let v31 : Index := Scalar.indexCast v25
  ![1, v31.toNat]

def k0_chk2 (v32 : IVec S16 32) : Prop :=
  (∀ a x, ((![v32] : Fin 1 → IVec S16 32) a x).toNat < S100000.size a)
instance k0_chk2.dec : ∀ (v32 : IVec S16 32), Decidable (k0_chk2 v32) := fun v32 => decidable_of_iff' _ (Iff.of_eq (k0_chk2.eq_1 v32))
theorem k0_idx2_inb : ∀ (v32 : IVec S16 32) (k0_hw2 : k0_chk2 v32), ∀ a x, ((![v32] : Fin 1 → IVec S16 32) a x).toNat < S100000.size a := fun v32 k0_hw2 => k0_hw2
def k0_off4 (k0_t1 : Fin k0_t1_loop.trips) : Fin 2 → Nat :=
  let c2_i32_22 : BitVec 32 := 2#32
  let v35 : Index := Scalar.indexCast c2_i32_22
  let c0_i32_6 : BitVec 32 := 0#32
  let c1_i32 : BitVec 32 := 1#32
  let arg9 : BitVec 32 := Scf.iv c0_i32_6 c1_i32 k0_t1
  let c16_i32 : BitVec 32 := 16#32
  let v25 : BitVec 32 := Scalar.muli arg9 c16_i32
  let v36 : Index := Scalar.indexCast v25
  ![2, v36.toNat]

def k0_chk3 (v37 : IVec S16 32) : Prop :=
  (∀ a x, ((![v37] : Fin 1 → IVec S16 32) a x).toNat < S100000.size a)
instance k0_chk3.dec : ∀ (v37 : IVec S16 32), Decidable (k0_chk3 v37) := fun v37 => decidable_of_iff' _ (Iff.of_eq (k0_chk3.eq_1 v37))
theorem k0_idx3_inb : ∀ (v37 : IVec S16 32) (k0_hw3 : k0_chk3 v37), ∀ a x, ((![v37] : Fin 1 → IVec S16 32) a x).toNat < S100000.size a := fun v37 k0_hw3 => k0_hw3
def k0_off5 (k0_t1 : Fin k0_t1_loop.trips) : Fin 2 → Nat :=
  let c3_i32 : BitVec 32 := 3#32
  let v40 : Index := Scalar.indexCast c3_i32
  let c0_i32_6 : BitVec 32 := 0#32
  let c1_i32 : BitVec 32 := 1#32
  let arg9 : BitVec 32 := Scf.iv c0_i32_6 c1_i32 k0_t1
  let c16_i32 : BitVec 32 := 16#32
  let v25 : BitVec 32 := Scalar.muli arg9 c16_i32
  let v41 : Index := Scalar.indexCast v25
  ![3, v41.toNat]

def k0_chk4 (v42 : IVec S16 32) : Prop :=
  (∀ a x, ((![v42] : Fin 1 → IVec S16 32) a x).toNat < S100000.size a)
instance k0_chk4.dec : ∀ (v42 : IVec S16 32), Decidable (k0_chk4 v42) := fun v42 => decidable_of_iff' _ (Iff.of_eq (k0_chk4.eq_1 v42))
theorem k0_idx4_inb : ∀ (v42 : IVec S16 32) (k0_hw4 : k0_chk4 v42), ∀ a x, ((![v42] : Fin 1 → IVec S16 32) a x).toNat < S100000.size a := fun v42 k0_hw4 => k0_hw4
def k0_off6 (k0_t1 : Fin k0_t1_loop.trips) : Fin 2 → Nat :=
  let c4_i32 : BitVec 32 := 4#32
  let v45 : Index := Scalar.indexCast c4_i32
  let c0_i32_6 : BitVec 32 := 0#32
  let c1_i32 : BitVec 32 := 1#32
  let arg9 : BitVec 32 := Scf.iv c0_i32_6 c1_i32 k0_t1
  let c16_i32 : BitVec 32 := 16#32
  let v25 : BitVec 32 := Scalar.muli arg9 c16_i32
  let v46 : Index := Scalar.indexCast v25
  ![4, v46.toNat]

def k0_chk5 (v47 : IVec S16 32) : Prop :=
  (∀ a x, ((![v47] : Fin 1 → IVec S16 32) a x).toNat < S100000.size a)
instance k0_chk5.dec : ∀ (v47 : IVec S16 32), Decidable (k0_chk5 v47) := fun v47 => decidable_of_iff' _ (Iff.of_eq (k0_chk5.eq_1 v47))
theorem k0_idx5_inb : ∀ (v47 : IVec S16 32) (k0_hw5 : k0_chk5 v47), ∀ a x, ((![v47] : Fin 1 → IVec S16 32) a x).toNat < S100000.size a := fun v47 k0_hw5 => k0_hw5
def k0_off7 (k0_t1 : Fin k0_t1_loop.trips) : Fin 2 → Nat :=
  let c5_i32 : BitVec 32 := 5#32
  let v50 : Index := Scalar.indexCast c5_i32
  let c0_i32_6 : BitVec 32 := 0#32
  let c1_i32 : BitVec 32 := 1#32
  let arg9 : BitVec 32 := Scf.iv c0_i32_6 c1_i32 k0_t1
  let c16_i32 : BitVec 32 := 16#32
  let v25 : BitVec 32 := Scalar.muli arg9 c16_i32
  let v51 : Index := Scalar.indexCast v25
  ![5, v51.toNat]

def k0_chk6 (v52 : IVec S16 32) : Prop :=
  (∀ a x, ((![v52] : Fin 1 → IVec S16 32) a x).toNat < S100000.size a)
instance k0_chk6.dec : ∀ (v52 : IVec S16 32), Decidable (k0_chk6 v52) := fun v52 => decidable_of_iff' _ (Iff.of_eq (k0_chk6.eq_1 v52))
theorem k0_idx6_inb : ∀ (v52 : IVec S16 32) (k0_hw6 : k0_chk6 v52), ∀ a x, ((![v52] : Fin 1 → IVec S16 32) a x).toNat < S100000.size a := fun v52 k0_hw6 => k0_hw6
def k0_off8 (k0_t1 : Fin k0_t1_loop.trips) : Fin 2 → Nat :=
  let c6_i32 : BitVec 32 := 6#32
  let v55 : Index := Scalar.indexCast c6_i32
  let c0_i32_6 : BitVec 32 := 0#32
  let c1_i32 : BitVec 32 := 1#32
  let arg9 : BitVec 32 := Scf.iv c0_i32_6 c1_i32 k0_t1
  let c16_i32 : BitVec 32 := 16#32
  let v25 : BitVec 32 := Scalar.muli arg9 c16_i32
  let v56 : Index := Scalar.indexCast v25
  ![6, v56.toNat]

def k0_chk7 (v57 : IVec S16 32) : Prop :=
  (∀ a x, ((![v57] : Fin 1 → IVec S16 32) a x).toNat < S100000.size a)
instance k0_chk7.dec : ∀ (v57 : IVec S16 32), Decidable (k0_chk7 v57) := fun v57 => decidable_of_iff' _ (Iff.of_eq (k0_chk7.eq_1 v57))
theorem k0_idx7_inb : ∀ (v57 : IVec S16 32) (k0_hw7 : k0_chk7 v57), ∀ a x, ((![v57] : Fin 1 → IVec S16 32) a x).toNat < S100000.size a := fun v57 k0_hw7 => k0_hw7
def k0_off9 (k0_t1 : Fin k0_t1_loop.trips) : Fin 2 → Nat :=
  let c7_i32 : BitVec 32 := 7#32
  let v60 : Index := Scalar.indexCast c7_i32
  let c0_i32_6 : BitVec 32 := 0#32
  let c1_i32 : BitVec 32 := 1#32
  let arg9 : BitVec 32 := Scf.iv c0_i32_6 c1_i32 k0_t1
  let c16_i32 : BitVec 32 := 16#32
  let v25 : BitVec 32 := Scalar.muli arg9 c16_i32
  let v61 : Index := Scalar.indexCast v25
  ![7, v61.toNat]

def k0_chk8 (v62 : IVec S16 32) : Prop :=
  (∀ a x, ((![v62] : Fin 1 → IVec S16 32) a x).toNat < S100000.size a)
instance k0_chk8.dec : ∀ (v62 : IVec S16 32), Decidable (k0_chk8 v62) := fun v62 => decidable_of_iff' _ (Iff.of_eq (k0_chk8.eq_1 v62))
theorem k0_idx8_inb : ∀ (v62 : IVec S16 32) (k0_hw8 : k0_chk8 v62), ∀ a x, ((![v62] : Fin 1 → IVec S16 32) a x).toNat < S100000.size a := fun v62 k0_hw8 => k0_hw8
def k0_off10 (k0_t1 : Fin k0_t1_loop.trips) : Fin 2 → Nat :=
  let c8_i32 : BitVec 32 := 8#32
  let v65 : Index := Scalar.indexCast c8_i32
  let c0_i32_6 : BitVec 32 := 0#32
  let c1_i32 : BitVec 32 := 1#32
  let arg9 : BitVec 32 := Scf.iv c0_i32_6 c1_i32 k0_t1
  let c16_i32 : BitVec 32 := 16#32
  let v25 : BitVec 32 := Scalar.muli arg9 c16_i32
  let v66 : Index := Scalar.indexCast v25
  ![8, v66.toNat]

def k0_chk9 (v67 : IVec S16 32) : Prop :=
  (∀ a x, ((![v67] : Fin 1 → IVec S16 32) a x).toNat < S100000.size a)
instance k0_chk9.dec : ∀ (v67 : IVec S16 32), Decidable (k0_chk9 v67) := fun v67 => decidable_of_iff' _ (Iff.of_eq (k0_chk9.eq_1 v67))
theorem k0_idx9_inb : ∀ (v67 : IVec S16 32) (k0_hw9 : k0_chk9 v67), ∀ a x, ((![v67] : Fin 1 → IVec S16 32) a x).toNat < S100000.size a := fun v67 k0_hw9 => k0_hw9
def k0_off11 (k0_t1 : Fin k0_t1_loop.trips) : Fin 2 → Nat :=
  let c9_i32 : BitVec 32 := 9#32
  let v70 : Index := Scalar.indexCast c9_i32
  let c0_i32_6 : BitVec 32 := 0#32
  let c1_i32 : BitVec 32 := 1#32
  let arg9 : BitVec 32 := Scf.iv c0_i32_6 c1_i32 k0_t1
  let c16_i32 : BitVec 32 := 16#32
  let v25 : BitVec 32 := Scalar.muli arg9 c16_i32
  let v71 : Index := Scalar.indexCast v25
  ![9, v71.toNat]

def k0_chk10 (v72 : IVec S16 32) : Prop :=
  (∀ a x, ((![v72] : Fin 1 → IVec S16 32) a x).toNat < S100000.size a)
instance k0_chk10.dec : ∀ (v72 : IVec S16 32), Decidable (k0_chk10 v72) := fun v72 => decidable_of_iff' _ (Iff.of_eq (k0_chk10.eq_1 v72))
theorem k0_idx10_inb : ∀ (v72 : IVec S16 32) (k0_hw10 : k0_chk10 v72), ∀ a x, ((![v72] : Fin 1 → IVec S16 32) a x).toNat < S100000.size a := fun v72 k0_hw10 => k0_hw10
def k0_off12 (k0_t1 : Fin k0_t1_loop.trips) : Fin 2 → Nat :=
  let c10_i32 : BitVec 32 := 10#32
  let v75 : Index := Scalar.indexCast c10_i32
  let c0_i32_6 : BitVec 32 := 0#32
  let c1_i32 : BitVec 32 := 1#32
  let arg9 : BitVec 32 := Scf.iv c0_i32_6 c1_i32 k0_t1
  let c16_i32 : BitVec 32 := 16#32
  let v25 : BitVec 32 := Scalar.muli arg9 c16_i32
  let v76 : Index := Scalar.indexCast v25
  ![10, v76.toNat]

def k0_chk11 (v77 : IVec S16 32) : Prop :=
  (∀ a x, ((![v77] : Fin 1 → IVec S16 32) a x).toNat < S100000.size a)
instance k0_chk11.dec : ∀ (v77 : IVec S16 32), Decidable (k0_chk11 v77) := fun v77 => decidable_of_iff' _ (Iff.of_eq (k0_chk11.eq_1 v77))
theorem k0_idx11_inb : ∀ (v77 : IVec S16 32) (k0_hw11 : k0_chk11 v77), ∀ a x, ((![v77] : Fin 1 → IVec S16 32) a x).toNat < S100000.size a := fun v77 k0_hw11 => k0_hw11
def k0_off13 (k0_t1 : Fin k0_t1_loop.trips) : Fin 2 → Nat :=
  let c11_i32 : BitVec 32 := 11#32
  let v80 : Index := Scalar.indexCast c11_i32
  let c0_i32_6 : BitVec 32 := 0#32
  let c1_i32 : BitVec 32 := 1#32
  let arg9 : BitVec 32 := Scf.iv c0_i32_6 c1_i32 k0_t1
  let c16_i32 : BitVec 32 := 16#32
  let v25 : BitVec 32 := Scalar.muli arg9 c16_i32
  let v81 : Index := Scalar.indexCast v25
  ![11, v81.toNat]

def k0_chk12 (v82 : IVec S16 32) : Prop :=
  (∀ a x, ((![v82] : Fin 1 → IVec S16 32) a x).toNat < S100000.size a)
instance k0_chk12.dec : ∀ (v82 : IVec S16 32), Decidable (k0_chk12 v82) := fun v82 => decidable_of_iff' _ (Iff.of_eq (k0_chk12.eq_1 v82))
theorem k0_idx12_inb : ∀ (v82 : IVec S16 32) (k0_hw12 : k0_chk12 v82), ∀ a x, ((![v82] : Fin 1 → IVec S16 32) a x).toNat < S100000.size a := fun v82 k0_hw12 => k0_hw12
def k0_off14 (k0_t1 : Fin k0_t1_loop.trips) : Fin 2 → Nat :=
  let c12_i32 : BitVec 32 := 12#32
  let v85 : Index := Scalar.indexCast c12_i32
  let c0_i32_6 : BitVec 32 := 0#32
  let c1_i32 : BitVec 32 := 1#32
  let arg9 : BitVec 32 := Scf.iv c0_i32_6 c1_i32 k0_t1
  let c16_i32 : BitVec 32 := 16#32
  let v25 : BitVec 32 := Scalar.muli arg9 c16_i32
  let v86 : Index := Scalar.indexCast v25
  ![12, v86.toNat]

def k0_chk13 (v87 : IVec S16 32) : Prop :=
  (∀ a x, ((![v87] : Fin 1 → IVec S16 32) a x).toNat < S100000.size a)
instance k0_chk13.dec : ∀ (v87 : IVec S16 32), Decidable (k0_chk13 v87) := fun v87 => decidable_of_iff' _ (Iff.of_eq (k0_chk13.eq_1 v87))
theorem k0_idx13_inb : ∀ (v87 : IVec S16 32) (k0_hw13 : k0_chk13 v87), ∀ a x, ((![v87] : Fin 1 → IVec S16 32) a x).toNat < S100000.size a := fun v87 k0_hw13 => k0_hw13
def k0_off15 (k0_t1 : Fin k0_t1_loop.trips) : Fin 2 → Nat :=
  let c13_i32 : BitVec 32 := 13#32
  let v90 : Index := Scalar.indexCast c13_i32
  let c0_i32_6 : BitVec 32 := 0#32
  let c1_i32 : BitVec 32 := 1#32
  let arg9 : BitVec 32 := Scf.iv c0_i32_6 c1_i32 k0_t1
  let c16_i32 : BitVec 32 := 16#32
  let v25 : BitVec 32 := Scalar.muli arg9 c16_i32
  let v91 : Index := Scalar.indexCast v25
  ![13, v91.toNat]

def k0_chk14 (v92 : IVec S16 32) : Prop :=
  (∀ a x, ((![v92] : Fin 1 → IVec S16 32) a x).toNat < S100000.size a)
instance k0_chk14.dec : ∀ (v92 : IVec S16 32), Decidable (k0_chk14 v92) := fun v92 => decidable_of_iff' _ (Iff.of_eq (k0_chk14.eq_1 v92))
theorem k0_idx14_inb : ∀ (v92 : IVec S16 32) (k0_hw14 : k0_chk14 v92), ∀ a x, ((![v92] : Fin 1 → IVec S16 32) a x).toNat < S100000.size a := fun v92 k0_hw14 => k0_hw14
def k0_off16 (k0_t1 : Fin k0_t1_loop.trips) : Fin 2 → Nat :=
  let c14_i32 : BitVec 32 := 14#32
  let v95 : Index := Scalar.indexCast c14_i32
  let c0_i32_6 : BitVec 32 := 0#32
  let c1_i32 : BitVec 32 := 1#32
  let arg9 : BitVec 32 := Scf.iv c0_i32_6 c1_i32 k0_t1
  let c16_i32 : BitVec 32 := 16#32
  let v25 : BitVec 32 := Scalar.muli arg9 c16_i32
  let v96 : Index := Scalar.indexCast v25
  ![14, v96.toNat]

def k0_chk15 (v97 : IVec S16 32) : Prop :=
  (∀ a x, ((![v97] : Fin 1 → IVec S16 32) a x).toNat < S100000.size a)
instance k0_chk15.dec : ∀ (v97 : IVec S16 32), Decidable (k0_chk15 v97) := fun v97 => decidable_of_iff' _ (Iff.of_eq (k0_chk15.eq_1 v97))
theorem k0_idx15_inb : ∀ (v97 : IVec S16 32) (k0_hw15 : k0_chk15 v97), ∀ a x, ((![v97] : Fin 1 → IVec S16 32) a x).toNat < S100000.size a := fun v97 k0_hw15 => k0_hw15
def k0_off17 (k0_t1 : Fin k0_t1_loop.trips) : Fin 2 → Nat :=
  let c15_i32 : BitVec 32 := 15#32
  let v100 : Index := Scalar.indexCast c15_i32
  let c0_i32_6 : BitVec 32 := 0#32
  let c1_i32 : BitVec 32 := 1#32
  let arg9 : BitVec 32 := Scf.iv c0_i32_6 c1_i32 k0_t1
  let c16_i32 : BitVec 32 := 16#32
  let v25 : BitVec 32 := Scalar.muli arg9 c16_i32
  let v101 : Index := Scalar.indexCast v25
  ![15, v101.toNat]

def k0_chk16 (v102 : IVec S16 32) : Prop :=
  (∀ a x, ((![v102] : Fin 1 → IVec S16 32) a x).toNat < S100000.size a)
instance k0_chk16.dec : ∀ (v102 : IVec S16 32), Decidable (k0_chk16 v102) := fun v102 => decidable_of_iff' _ (Iff.of_eq (k0_chk16.eq_1 v102))
theorem k0_idx16_inb : ∀ (v102 : IVec S16 32) (k0_hw16 : k0_chk16 v102), ∀ a x, ((![v102] : Fin 1 → IVec S16 32) a x).toNat < S100000.size a := fun v102 k0_hw16 => k0_hw16
def k0_off18 (k0_t1 : Fin k0_t1_loop.trips) : Fin 2 → Nat :=
  let c16_i32_23 : BitVec 32 := 16#32
  let v105 : Index := Scalar.indexCast c16_i32_23
  let c0_i32_6 : BitVec 32 := 0#32
  let c1_i32 : BitVec 32 := 1#32
  let arg9 : BitVec 32 := Scf.iv c0_i32_6 c1_i32 k0_t1
  let c16_i32 : BitVec 32 := 16#32
  let v25 : BitVec 32 := Scalar.muli arg9 c16_i32
  let v106 : Index := Scalar.indexCast v25
  ![16, v106.toNat]

def k0_chk17 (v107 : IVec S16 32) : Prop :=
  (∀ a x, ((![v107] : Fin 1 → IVec S16 32) a x).toNat < S100000.size a)
instance k0_chk17.dec : ∀ (v107 : IVec S16 32), Decidable (k0_chk17 v107) := fun v107 => decidable_of_iff' _ (Iff.of_eq (k0_chk17.eq_1 v107))
theorem k0_idx17_inb : ∀ (v107 : IVec S16 32) (k0_hw17 : k0_chk17 v107), ∀ a x, ((![v107] : Fin 1 → IVec S16 32) a x).toNat < S100000.size a := fun v107 k0_hw17 => k0_hw17
def k0_off19 (k0_t1 : Fin k0_t1_loop.trips) : Fin 2 → Nat :=
  let c17_i32 : BitVec 32 := 17#32
  let v110 : Index := Scalar.indexCast c17_i32
  let c0_i32_6 : BitVec 32 := 0#32
  let c1_i32 : BitVec 32 := 1#32
  let arg9 : BitVec 32 := Scf.iv c0_i32_6 c1_i32 k0_t1
  let c16_i32 : BitVec 32 := 16#32
  let v25 : BitVec 32 := Scalar.muli arg9 c16_i32
  let v111 : Index := Scalar.indexCast v25
  ![17, v111.toNat]

def k0_chk18 (v112 : IVec S16 32) : Prop :=
  (∀ a x, ((![v112] : Fin 1 → IVec S16 32) a x).toNat < S100000.size a)
instance k0_chk18.dec : ∀ (v112 : IVec S16 32), Decidable (k0_chk18 v112) := fun v112 => decidable_of_iff' _ (Iff.of_eq (k0_chk18.eq_1 v112))
theorem k0_idx18_inb : ∀ (v112 : IVec S16 32) (k0_hw18 : k0_chk18 v112), ∀ a x, ((![v112] : Fin 1 → IVec S16 32) a x).toNat < S100000.size a := fun v112 k0_hw18 => k0_hw18
def k0_off20 (k0_t1 : Fin k0_t1_loop.trips) : Fin 2 → Nat :=
  let c18_i32 : BitVec 32 := 18#32
  let v115 : Index := Scalar.indexCast c18_i32
  let c0_i32_6 : BitVec 32 := 0#32
  let c1_i32 : BitVec 32 := 1#32
  let arg9 : BitVec 32 := Scf.iv c0_i32_6 c1_i32 k0_t1
  let c16_i32 : BitVec 32 := 16#32
  let v25 : BitVec 32 := Scalar.muli arg9 c16_i32
  let v116 : Index := Scalar.indexCast v25
  ![18, v116.toNat]

def k0_chk19 (v117 : IVec S16 32) : Prop :=
  (∀ a x, ((![v117] : Fin 1 → IVec S16 32) a x).toNat < S100000.size a)
instance k0_chk19.dec : ∀ (v117 : IVec S16 32), Decidable (k0_chk19 v117) := fun v117 => decidable_of_iff' _ (Iff.of_eq (k0_chk19.eq_1 v117))
theorem k0_idx19_inb : ∀ (v117 : IVec S16 32) (k0_hw19 : k0_chk19 v117), ∀ a x, ((![v117] : Fin 1 → IVec S16 32) a x).toNat < S100000.size a := fun v117 k0_hw19 => k0_hw19
def k0_off21 (k0_t1 : Fin k0_t1_loop.trips) : Fin 2 → Nat :=
  let c19_i32 : BitVec 32 := 19#32
  let v120 : Index := Scalar.indexCast c19_i32
  let c0_i32_6 : BitVec 32 := 0#32
  let c1_i32 : BitVec 32 := 1#32
  let arg9 : BitVec 32 := Scf.iv c0_i32_6 c1_i32 k0_t1
  let c16_i32 : BitVec 32 := 16#32
  let v25 : BitVec 32 := Scalar.muli arg9 c16_i32
  let v121 : Index := Scalar.indexCast v25
  ![19, v121.toNat]

def k0_chk20 (v122 : IVec S16 32) : Prop :=
  (∀ a x, ((![v122] : Fin 1 → IVec S16 32) a x).toNat < S100000.size a)
instance k0_chk20.dec : ∀ (v122 : IVec S16 32), Decidable (k0_chk20 v122) := fun v122 => decidable_of_iff' _ (Iff.of_eq (k0_chk20.eq_1 v122))
theorem k0_idx20_inb : ∀ (v122 : IVec S16 32) (k0_hw20 : k0_chk20 v122), ∀ a x, ((![v122] : Fin 1 → IVec S16 32) a x).toNat < S100000.size a := fun v122 k0_hw20 => k0_hw20
def k0_off22 (k0_t1 : Fin k0_t1_loop.trips) : Fin 2 → Nat :=
  let c0_i32_24 : BitVec 32 := 0#32
  let v127 : Index := Scalar.indexCast c0_i32_24
  let c0_i32_6 : BitVec 32 := 0#32
  let c1_i32 : BitVec 32 := 1#32
  let arg9 : BitVec 32 := Scf.iv c0_i32_6 c1_i32 k0_t1
  let c16_i32 : BitVec 32 := 16#32
  let v25 : BitVec 32 := Scalar.muli arg9 c16_i32
  let v128 : Index := Scalar.indexCast v25
  ![0, v128.toNat]
@[reducible] def k0_t2_loop : Scf.Loop 32 :=
  let c0_i32_15 : BitVec 32 := 0#32
  let c64_i32_16 : BitVec 32 := 64#32
  let v23 : BitVec 32 := Scalar.addi c0_i32_15 c64_i32_16
  let c1_i32_17 : BitVec 32 := 1#32
  ⟨c0_i32_15, v23, c1_i32_17⟩
def k0_off23 (k0_t2 : Fin k0_t2_loop.trips) : Fin 2 → Nat :=
  let c0_i32_20 : BitVec 32 := 0#32
  let v26 : Index := Scalar.indexCast c0_i32_20
  let c0_i32_15 : BitVec 32 := 0#32
  let c1_i32_17 : BitVec 32 := 1#32
  let arg9 : BitVec 32 := Scf.iv c0_i32_15 c1_i32_17 k0_t2
  let c16_i32 : BitVec 32 := 16#32
  let v25 : BitVec 32 := Scalar.muli arg9 c16_i32
  let v27 : Index := Scalar.indexCast v25
  ![0, v27.toNat]

def k0_chk21 (v28 : IVec S16 32) : Prop :=
  (∀ a x, ((![v28] : Fin 1 → IVec S16 32) a x).toNat < S100000.size a)
instance k0_chk21.dec : ∀ (v28 : IVec S16 32), Decidable (k0_chk21 v28) := fun v28 => decidable_of_iff' _ (Iff.of_eq (k0_chk21.eq_1 v28))
theorem k0_idx21_inb : ∀ (v28 : IVec S16 32) (k0_hw21 : k0_chk21 v28), ∀ a x, ((![v28] : Fin 1 → IVec S16 32) a x).toNat < S100000.size a := fun v28 k0_hw21 => k0_hw21
def k0_off24 (k0_t2 : Fin k0_t2_loop.trips) : Fin 2 → Nat :=
  let c1_i32_21 : BitVec 32 := 1#32
  let v30 : Index := Scalar.indexCast c1_i32_21
  let c0_i32_15 : BitVec 32 := 0#32
  let c1_i32_17 : BitVec 32 := 1#32
  let arg9 : BitVec 32 := Scf.iv c0_i32_15 c1_i32_17 k0_t2
  let c16_i32 : BitVec 32 := 16#32
  let v25 : BitVec 32 := Scalar.muli arg9 c16_i32
  let v31 : Index := Scalar.indexCast v25
  ![1, v31.toNat]

def k0_chk22 (v32 : IVec S16 32) : Prop :=
  (∀ a x, ((![v32] : Fin 1 → IVec S16 32) a x).toNat < S100000.size a)
instance k0_chk22.dec : ∀ (v32 : IVec S16 32), Decidable (k0_chk22 v32) := fun v32 => decidable_of_iff' _ (Iff.of_eq (k0_chk22.eq_1 v32))
theorem k0_idx22_inb : ∀ (v32 : IVec S16 32) (k0_hw22 : k0_chk22 v32), ∀ a x, ((![v32] : Fin 1 → IVec S16 32) a x).toNat < S100000.size a := fun v32 k0_hw22 => k0_hw22
def k0_off25 (k0_t2 : Fin k0_t2_loop.trips) : Fin 2 → Nat :=
  let c2_i32_22 : BitVec 32 := 2#32
  let v35 : Index := Scalar.indexCast c2_i32_22
  let c0_i32_15 : BitVec 32 := 0#32
  let c1_i32_17 : BitVec 32 := 1#32
  let arg9 : BitVec 32 := Scf.iv c0_i32_15 c1_i32_17 k0_t2
  let c16_i32 : BitVec 32 := 16#32
  let v25 : BitVec 32 := Scalar.muli arg9 c16_i32
  let v36 : Index := Scalar.indexCast v25
  ![2, v36.toNat]

def k0_chk23 (v37 : IVec S16 32) : Prop :=
  (∀ a x, ((![v37] : Fin 1 → IVec S16 32) a x).toNat < S100000.size a)
instance k0_chk23.dec : ∀ (v37 : IVec S16 32), Decidable (k0_chk23 v37) := fun v37 => decidable_of_iff' _ (Iff.of_eq (k0_chk23.eq_1 v37))
theorem k0_idx23_inb : ∀ (v37 : IVec S16 32) (k0_hw23 : k0_chk23 v37), ∀ a x, ((![v37] : Fin 1 → IVec S16 32) a x).toNat < S100000.size a := fun v37 k0_hw23 => k0_hw23
def k0_off26 (k0_t2 : Fin k0_t2_loop.trips) : Fin 2 → Nat :=
  let c3_i32 : BitVec 32 := 3#32
  let v40 : Index := Scalar.indexCast c3_i32
  let c0_i32_15 : BitVec 32 := 0#32
  let c1_i32_17 : BitVec 32 := 1#32
  let arg9 : BitVec 32 := Scf.iv c0_i32_15 c1_i32_17 k0_t2
  let c16_i32 : BitVec 32 := 16#32
  let v25 : BitVec 32 := Scalar.muli arg9 c16_i32
  let v41 : Index := Scalar.indexCast v25
  ![3, v41.toNat]

def k0_chk24 (v42 : IVec S16 32) : Prop :=
  (∀ a x, ((![v42] : Fin 1 → IVec S16 32) a x).toNat < S100000.size a)
instance k0_chk24.dec : ∀ (v42 : IVec S16 32), Decidable (k0_chk24 v42) := fun v42 => decidable_of_iff' _ (Iff.of_eq (k0_chk24.eq_1 v42))
theorem k0_idx24_inb : ∀ (v42 : IVec S16 32) (k0_hw24 : k0_chk24 v42), ∀ a x, ((![v42] : Fin 1 → IVec S16 32) a x).toNat < S100000.size a := fun v42 k0_hw24 => k0_hw24
def k0_off27 (k0_t2 : Fin k0_t2_loop.trips) : Fin 2 → Nat :=
  let c4_i32 : BitVec 32 := 4#32
  let v45 : Index := Scalar.indexCast c4_i32
  let c0_i32_15 : BitVec 32 := 0#32
  let c1_i32_17 : BitVec 32 := 1#32
  let arg9 : BitVec 32 := Scf.iv c0_i32_15 c1_i32_17 k0_t2
  let c16_i32 : BitVec 32 := 16#32
  let v25 : BitVec 32 := Scalar.muli arg9 c16_i32
  let v46 : Index := Scalar.indexCast v25
  ![4, v46.toNat]

def k0_chk25 (v47 : IVec S16 32) : Prop :=
  (∀ a x, ((![v47] : Fin 1 → IVec S16 32) a x).toNat < S100000.size a)
instance k0_chk25.dec : ∀ (v47 : IVec S16 32), Decidable (k0_chk25 v47) := fun v47 => decidable_of_iff' _ (Iff.of_eq (k0_chk25.eq_1 v47))
theorem k0_idx25_inb : ∀ (v47 : IVec S16 32) (k0_hw25 : k0_chk25 v47), ∀ a x, ((![v47] : Fin 1 → IVec S16 32) a x).toNat < S100000.size a := fun v47 k0_hw25 => k0_hw25
def k0_off28 (k0_t2 : Fin k0_t2_loop.trips) : Fin 2 → Nat :=
  let c5_i32 : BitVec 32 := 5#32
  let v50 : Index := Scalar.indexCast c5_i32
  let c0_i32_15 : BitVec 32 := 0#32
  let c1_i32_17 : BitVec 32 := 1#32
  let arg9 : BitVec 32 := Scf.iv c0_i32_15 c1_i32_17 k0_t2
  let c16_i32 : BitVec 32 := 16#32
  let v25 : BitVec 32 := Scalar.muli arg9 c16_i32
  let v51 : Index := Scalar.indexCast v25
  ![5, v51.toNat]

def k0_chk26 (v52 : IVec S16 32) : Prop :=
  (∀ a x, ((![v52] : Fin 1 → IVec S16 32) a x).toNat < S100000.size a)
instance k0_chk26.dec : ∀ (v52 : IVec S16 32), Decidable (k0_chk26 v52) := fun v52 => decidable_of_iff' _ (Iff.of_eq (k0_chk26.eq_1 v52))
theorem k0_idx26_inb : ∀ (v52 : IVec S16 32) (k0_hw26 : k0_chk26 v52), ∀ a x, ((![v52] : Fin 1 → IVec S16 32) a x).toNat < S100000.size a := fun v52 k0_hw26 => k0_hw26
def k0_off29 (k0_t2 : Fin k0_t2_loop.trips) : Fin 2 → Nat :=
  let c6_i32 : BitVec 32 := 6#32
  let v55 : Index := Scalar.indexCast c6_i32
  let c0_i32_15 : BitVec 32 := 0#32
  let c1_i32_17 : BitVec 32 := 1#32
  let arg9 : BitVec 32 := Scf.iv c0_i32_15 c1_i32_17 k0_t2
  let c16_i32 : BitVec 32 := 16#32
  let v25 : BitVec 32 := Scalar.muli arg9 c16_i32
  let v56 : Index := Scalar.indexCast v25
  ![6, v56.toNat]

def k0_chk27 (v57 : IVec S16 32) : Prop :=
  (∀ a x, ((![v57] : Fin 1 → IVec S16 32) a x).toNat < S100000.size a)
instance k0_chk27.dec : ∀ (v57 : IVec S16 32), Decidable (k0_chk27 v57) := fun v57 => decidable_of_iff' _ (Iff.of_eq (k0_chk27.eq_1 v57))
theorem k0_idx27_inb : ∀ (v57 : IVec S16 32) (k0_hw27 : k0_chk27 v57), ∀ a x, ((![v57] : Fin 1 → IVec S16 32) a x).toNat < S100000.size a := fun v57 k0_hw27 => k0_hw27
def k0_off30 (k0_t2 : Fin k0_t2_loop.trips) : Fin 2 → Nat :=
  let c7_i32 : BitVec 32 := 7#32
  let v60 : Index := Scalar.indexCast c7_i32
  let c0_i32_15 : BitVec 32 := 0#32
  let c1_i32_17 : BitVec 32 := 1#32
  let arg9 : BitVec 32 := Scf.iv c0_i32_15 c1_i32_17 k0_t2
  let c16_i32 : BitVec 32 := 16#32
  let v25 : BitVec 32 := Scalar.muli arg9 c16_i32
  let v61 : Index := Scalar.indexCast v25
  ![7, v61.toNat]

def k0_chk28 (v62 : IVec S16 32) : Prop :=
  (∀ a x, ((![v62] : Fin 1 → IVec S16 32) a x).toNat < S100000.size a)
instance k0_chk28.dec : ∀ (v62 : IVec S16 32), Decidable (k0_chk28 v62) := fun v62 => decidable_of_iff' _ (Iff.of_eq (k0_chk28.eq_1 v62))
theorem k0_idx28_inb : ∀ (v62 : IVec S16 32) (k0_hw28 : k0_chk28 v62), ∀ a x, ((![v62] : Fin 1 → IVec S16 32) a x).toNat < S100000.size a := fun v62 k0_hw28 => k0_hw28
def k0_off31 (k0_t2 : Fin k0_t2_loop.trips) : Fin 2 → Nat :=
  let c8_i32 : BitVec 32 := 8#32
  let v65 : Index := Scalar.indexCast c8_i32
  let c0_i32_15 : BitVec 32 := 0#32
  let c1_i32_17 : BitVec 32 := 1#32
  let arg9 : BitVec 32 := Scf.iv c0_i32_15 c1_i32_17 k0_t2
  let c16_i32 : BitVec 32 := 16#32
  let v25 : BitVec 32 := Scalar.muli arg9 c16_i32
  let v66 : Index := Scalar.indexCast v25
  ![8, v66.toNat]

def k0_chk29 (v67 : IVec S16 32) : Prop :=
  (∀ a x, ((![v67] : Fin 1 → IVec S16 32) a x).toNat < S100000.size a)
instance k0_chk29.dec : ∀ (v67 : IVec S16 32), Decidable (k0_chk29 v67) := fun v67 => decidable_of_iff' _ (Iff.of_eq (k0_chk29.eq_1 v67))
theorem k0_idx29_inb : ∀ (v67 : IVec S16 32) (k0_hw29 : k0_chk29 v67), ∀ a x, ((![v67] : Fin 1 → IVec S16 32) a x).toNat < S100000.size a := fun v67 k0_hw29 => k0_hw29
def k0_off32 (k0_t2 : Fin k0_t2_loop.trips) : Fin 2 → Nat :=
  let c9_i32 : BitVec 32 := 9#32
  let v70 : Index := Scalar.indexCast c9_i32
  let c0_i32_15 : BitVec 32 := 0#32
  let c1_i32_17 : BitVec 32 := 1#32
  let arg9 : BitVec 32 := Scf.iv c0_i32_15 c1_i32_17 k0_t2
  let c16_i32 : BitVec 32 := 16#32
  let v25 : BitVec 32 := Scalar.muli arg9 c16_i32
  let v71 : Index := Scalar.indexCast v25
  ![9, v71.toNat]

def k0_chk30 (v72 : IVec S16 32) : Prop :=
  (∀ a x, ((![v72] : Fin 1 → IVec S16 32) a x).toNat < S100000.size a)
instance k0_chk30.dec : ∀ (v72 : IVec S16 32), Decidable (k0_chk30 v72) := fun v72 => decidable_of_iff' _ (Iff.of_eq (k0_chk30.eq_1 v72))
theorem k0_idx30_inb : ∀ (v72 : IVec S16 32) (k0_hw30 : k0_chk30 v72), ∀ a x, ((![v72] : Fin 1 → IVec S16 32) a x).toNat < S100000.size a := fun v72 k0_hw30 => k0_hw30
def k0_off33 (k0_t2 : Fin k0_t2_loop.trips) : Fin 2 → Nat :=
  let c10_i32 : BitVec 32 := 10#32
  let v75 : Index := Scalar.indexCast c10_i32
  let c0_i32_15 : BitVec 32 := 0#32
  let c1_i32_17 : BitVec 32 := 1#32
  let arg9 : BitVec 32 := Scf.iv c0_i32_15 c1_i32_17 k0_t2
  let c16_i32 : BitVec 32 := 16#32
  let v25 : BitVec 32 := Scalar.muli arg9 c16_i32
  let v76 : Index := Scalar.indexCast v25
  ![10, v76.toNat]

def k0_chk31 (v77 : IVec S16 32) : Prop :=
  (∀ a x, ((![v77] : Fin 1 → IVec S16 32) a x).toNat < S100000.size a)
instance k0_chk31.dec : ∀ (v77 : IVec S16 32), Decidable (k0_chk31 v77) := fun v77 => decidable_of_iff' _ (Iff.of_eq (k0_chk31.eq_1 v77))
theorem k0_idx31_inb : ∀ (v77 : IVec S16 32) (k0_hw31 : k0_chk31 v77), ∀ a x, ((![v77] : Fin 1 → IVec S16 32) a x).toNat < S100000.size a := fun v77 k0_hw31 => k0_hw31
def k0_off34 (k0_t2 : Fin k0_t2_loop.trips) : Fin 2 → Nat :=
  let c11_i32 : BitVec 32 := 11#32
  let v80 : Index := Scalar.indexCast c11_i32
  let c0_i32_15 : BitVec 32 := 0#32
  let c1_i32_17 : BitVec 32 := 1#32
  let arg9 : BitVec 32 := Scf.iv c0_i32_15 c1_i32_17 k0_t2
  let c16_i32 : BitVec 32 := 16#32
  let v25 : BitVec 32 := Scalar.muli arg9 c16_i32
  let v81 : Index := Scalar.indexCast v25
  ![11, v81.toNat]

def k0_chk32 (v82 : IVec S16 32) : Prop :=
  (∀ a x, ((![v82] : Fin 1 → IVec S16 32) a x).toNat < S100000.size a)
instance k0_chk32.dec : ∀ (v82 : IVec S16 32), Decidable (k0_chk32 v82) := fun v82 => decidable_of_iff' _ (Iff.of_eq (k0_chk32.eq_1 v82))
theorem k0_idx32_inb : ∀ (v82 : IVec S16 32) (k0_hw32 : k0_chk32 v82), ∀ a x, ((![v82] : Fin 1 → IVec S16 32) a x).toNat < S100000.size a := fun v82 k0_hw32 => k0_hw32
def k0_off35 (k0_t2 : Fin k0_t2_loop.trips) : Fin 2 → Nat :=
  let c12_i32 : BitVec 32 := 12#32
  let v85 : Index := Scalar.indexCast c12_i32
  let c0_i32_15 : BitVec 32 := 0#32
  let c1_i32_17 : BitVec 32 := 1#32
  let arg9 : BitVec 32 := Scf.iv c0_i32_15 c1_i32_17 k0_t2
  let c16_i32 : BitVec 32 := 16#32
  let v25 : BitVec 32 := Scalar.muli arg9 c16_i32
  let v86 : Index := Scalar.indexCast v25
  ![12, v86.toNat]

def k0_chk33 (v87 : IVec S16 32) : Prop :=
  (∀ a x, ((![v87] : Fin 1 → IVec S16 32) a x).toNat < S100000.size a)
instance k0_chk33.dec : ∀ (v87 : IVec S16 32), Decidable (k0_chk33 v87) := fun v87 => decidable_of_iff' _ (Iff.of_eq (k0_chk33.eq_1 v87))
theorem k0_idx33_inb : ∀ (v87 : IVec S16 32) (k0_hw33 : k0_chk33 v87), ∀ a x, ((![v87] : Fin 1 → IVec S16 32) a x).toNat < S100000.size a := fun v87 k0_hw33 => k0_hw33
def k0_off36 (k0_t2 : Fin k0_t2_loop.trips) : Fin 2 → Nat :=
  let c13_i32 : BitVec 32 := 13#32
  let v90 : Index := Scalar.indexCast c13_i32
  let c0_i32_15 : BitVec 32 := 0#32
  let c1_i32_17 : BitVec 32 := 1#32
  let arg9 : BitVec 32 := Scf.iv c0_i32_15 c1_i32_17 k0_t2
  let c16_i32 : BitVec 32 := 16#32
  let v25 : BitVec 32 := Scalar.muli arg9 c16_i32
  let v91 : Index := Scalar.indexCast v25
  ![13, v91.toNat]

def k0_chk34 (v92 : IVec S16 32) : Prop :=
  (∀ a x, ((![v92] : Fin 1 → IVec S16 32) a x).toNat < S100000.size a)
instance k0_chk34.dec : ∀ (v92 : IVec S16 32), Decidable (k0_chk34 v92) := fun v92 => decidable_of_iff' _ (Iff.of_eq (k0_chk34.eq_1 v92))
theorem k0_idx34_inb : ∀ (v92 : IVec S16 32) (k0_hw34 : k0_chk34 v92), ∀ a x, ((![v92] : Fin 1 → IVec S16 32) a x).toNat < S100000.size a := fun v92 k0_hw34 => k0_hw34
def k0_off37 (k0_t2 : Fin k0_t2_loop.trips) : Fin 2 → Nat :=
  let c14_i32 : BitVec 32 := 14#32
  let v95 : Index := Scalar.indexCast c14_i32
  let c0_i32_15 : BitVec 32 := 0#32
  let c1_i32_17 : BitVec 32 := 1#32
  let arg9 : BitVec 32 := Scf.iv c0_i32_15 c1_i32_17 k0_t2
  let c16_i32 : BitVec 32 := 16#32
  let v25 : BitVec 32 := Scalar.muli arg9 c16_i32
  let v96 : Index := Scalar.indexCast v25
  ![14, v96.toNat]

def k0_chk35 (v97 : IVec S16 32) : Prop :=
  (∀ a x, ((![v97] : Fin 1 → IVec S16 32) a x).toNat < S100000.size a)
instance k0_chk35.dec : ∀ (v97 : IVec S16 32), Decidable (k0_chk35 v97) := fun v97 => decidable_of_iff' _ (Iff.of_eq (k0_chk35.eq_1 v97))
theorem k0_idx35_inb : ∀ (v97 : IVec S16 32) (k0_hw35 : k0_chk35 v97), ∀ a x, ((![v97] : Fin 1 → IVec S16 32) a x).toNat < S100000.size a := fun v97 k0_hw35 => k0_hw35
def k0_off38 (k0_t2 : Fin k0_t2_loop.trips) : Fin 2 → Nat :=
  let c15_i32 : BitVec 32 := 15#32
  let v100 : Index := Scalar.indexCast c15_i32
  let c0_i32_15 : BitVec 32 := 0#32
  let c1_i32_17 : BitVec 32 := 1#32
  let arg9 : BitVec 32 := Scf.iv c0_i32_15 c1_i32_17 k0_t2
  let c16_i32 : BitVec 32 := 16#32
  let v25 : BitVec 32 := Scalar.muli arg9 c16_i32
  let v101 : Index := Scalar.indexCast v25
  ![15, v101.toNat]

def k0_chk36 (v102 : IVec S16 32) : Prop :=
  (∀ a x, ((![v102] : Fin 1 → IVec S16 32) a x).toNat < S100000.size a)
instance k0_chk36.dec : ∀ (v102 : IVec S16 32), Decidable (k0_chk36 v102) := fun v102 => decidable_of_iff' _ (Iff.of_eq (k0_chk36.eq_1 v102))
theorem k0_idx36_inb : ∀ (v102 : IVec S16 32) (k0_hw36 : k0_chk36 v102), ∀ a x, ((![v102] : Fin 1 → IVec S16 32) a x).toNat < S100000.size a := fun v102 k0_hw36 => k0_hw36
def k0_off39 (k0_t2 : Fin k0_t2_loop.trips) : Fin 2 → Nat :=
  let c16_i32_23 : BitVec 32 := 16#32
  let v105 : Index := Scalar.indexCast c16_i32_23
  let c0_i32_15 : BitVec 32 := 0#32
  let c1_i32_17 : BitVec 32 := 1#32
  let arg9 : BitVec 32 := Scf.iv c0_i32_15 c1_i32_17 k0_t2
  let c16_i32 : BitVec 32 := 16#32
  let v25 : BitVec 32 := Scalar.muli arg9 c16_i32
  let v106 : Index := Scalar.indexCast v25
  ![16, v106.toNat]

def k0_chk37 (v107 : IVec S16 32) : Prop :=
  (∀ a x, ((![v107] : Fin 1 → IVec S16 32) a x).toNat < S100000.size a)
instance k0_chk37.dec : ∀ (v107 : IVec S16 32), Decidable (k0_chk37 v107) := fun v107 => decidable_of_iff' _ (Iff.of_eq (k0_chk37.eq_1 v107))
theorem k0_idx37_inb : ∀ (v107 : IVec S16 32) (k0_hw37 : k0_chk37 v107), ∀ a x, ((![v107] : Fin 1 → IVec S16 32) a x).toNat < S100000.size a := fun v107 k0_hw37 => k0_hw37
def k0_off40 (k0_t2 : Fin k0_t2_loop.trips) : Fin 2 → Nat :=
  let c17_i32 : BitVec 32 := 17#32
  let v110 : Index := Scalar.indexCast c17_i32
  let c0_i32_15 : BitVec 32 := 0#32
  let c1_i32_17 : BitVec 32 := 1#32
  let arg9 : BitVec 32 := Scf.iv c0_i32_15 c1_i32_17 k0_t2
  let c16_i32 : BitVec 32 := 16#32
  let v25 : BitVec 32 := Scalar.muli arg9 c16_i32
  let v111 : Index := Scalar.indexCast v25
  ![17, v111.toNat]

def k0_chk38 (v112 : IVec S16 32) : Prop :=
  (∀ a x, ((![v112] : Fin 1 → IVec S16 32) a x).toNat < S100000.size a)
instance k0_chk38.dec : ∀ (v112 : IVec S16 32), Decidable (k0_chk38 v112) := fun v112 => decidable_of_iff' _ (Iff.of_eq (k0_chk38.eq_1 v112))
theorem k0_idx38_inb : ∀ (v112 : IVec S16 32) (k0_hw38 : k0_chk38 v112), ∀ a x, ((![v112] : Fin 1 → IVec S16 32) a x).toNat < S100000.size a := fun v112 k0_hw38 => k0_hw38
def k0_off41 (k0_t2 : Fin k0_t2_loop.trips) : Fin 2 → Nat :=
  let c18_i32 : BitVec 32 := 18#32
  let v115 : Index := Scalar.indexCast c18_i32
  let c0_i32_15 : BitVec 32 := 0#32
  let c1_i32_17 : BitVec 32 := 1#32
  let arg9 : BitVec 32 := Scf.iv c0_i32_15 c1_i32_17 k0_t2
  let c16_i32 : BitVec 32 := 16#32
  let v25 : BitVec 32 := Scalar.muli arg9 c16_i32
  let v116 : Index := Scalar.indexCast v25
  ![18, v116.toNat]

def k0_chk39 (v117 : IVec S16 32) : Prop :=
  (∀ a x, ((![v117] : Fin 1 → IVec S16 32) a x).toNat < S100000.size a)
instance k0_chk39.dec : ∀ (v117 : IVec S16 32), Decidable (k0_chk39 v117) := fun v117 => decidable_of_iff' _ (Iff.of_eq (k0_chk39.eq_1 v117))
theorem k0_idx39_inb : ∀ (v117 : IVec S16 32) (k0_hw39 : k0_chk39 v117), ∀ a x, ((![v117] : Fin 1 → IVec S16 32) a x).toNat < S100000.size a := fun v117 k0_hw39 => k0_hw39
def k0_off42 (k0_t2 : Fin k0_t2_loop.trips) : Fin 2 → Nat :=
  let c19_i32 : BitVec 32 := 19#32
  let v120 : Index := Scalar.indexCast c19_i32
  let c0_i32_15 : BitVec 32 := 0#32
  let c1_i32_17 : BitVec 32 := 1#32
  let arg9 : BitVec 32 := Scf.iv c0_i32_15 c1_i32_17 k0_t2
  let c16_i32 : BitVec 32 := 16#32
  let v25 : BitVec 32 := Scalar.muli arg9 c16_i32
  let v121 : Index := Scalar.indexCast v25
  ![19, v121.toNat]

def k0_chk40 (v122 : IVec S16 32) : Prop :=
  (∀ a x, ((![v122] : Fin 1 → IVec S16 32) a x).toNat < S100000.size a)
instance k0_chk40.dec : ∀ (v122 : IVec S16 32), Decidable (k0_chk40 v122) := fun v122 => decidable_of_iff' _ (Iff.of_eq (k0_chk40.eq_1 v122))
theorem k0_idx40_inb : ∀ (v122 : IVec S16 32) (k0_hw40 : k0_chk40 v122), ∀ a x, ((![v122] : Fin 1 → IVec S16 32) a x).toNat < S100000.size a := fun v122 k0_hw40 => k0_hw40
def k0_off43 (k0_t2 : Fin k0_t2_loop.trips) : Fin 2 → Nat :=
  let c1_i32_24 : BitVec 32 := 1#32
  let v127 : Index := Scalar.indexCast c1_i32_24
  let c0_i32_15 : BitVec 32 := 0#32
  let c1_i32_17 : BitVec 32 := 1#32
  let arg9 : BitVec 32 := Scf.iv c0_i32_15 c1_i32_17 k0_t2
  let c16_i32 : BitVec 32 := 16#32
  let v25 : BitVec 32 := Scalar.muli arg9 c16_i32
  let v128 : Index := Scalar.indexCast v25
  ![1, v128.toNat]
def k0_off44 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_19 : BitVec 32 := 2#32
  let v24 : BitVec 32 := Scalar.muli v1 c2_i32_19
  let c0_i32_20_r1 : BitVec 32 := 0#32
  ![v24.toNat, 0]
abbrev grid1 : Pipeline.Grid := ⟨1, ![33], ![false]⟩

def k1_cond1 (i : grid1.Coords) : BitVec 1 :=
  let arg0 : BitVec 32 := BitVec.ofNat 32 (i 0).val
  let c2_i32_0 : BitVec 32 := 2#32
  let v1 : BitVec 1 := Scalar.cmpi .sge arg0 c2_i32_0
  let v2 : BitVec 32 := Scalar.extui v1
  let c0_i32 : BitVec 32 := 0#32
  let v3 : BitVec 1 := Scalar.cmpi .ne v2 c0_i32
  v3

def k1_off1 (i : grid1.Coords) : Fin 2 → Nat :=
  let arg0 : BitVec 32 := BitVec.ofNat 32 (i 0).val
  let c2_i32 : BitVec 32 := 2#32
  let v0 : BitVec 32 := Scalar.remsi arg0 c2_i32
  let c0_i32_12 : BitVec 32 := 0#32
  ![v0.toNat, 0]
def k1_off2 (i : grid1.Coords) (c0_i32_11 : BitVec 32) : Fin 2 → Nat :=
  let arg0 : BitVec 32 := BitVec.ofNat 32 (i 0).val
  let c2_i32_10 : BitVec 32 := 2#32
  let v23 : BitVec 32 := Scalar.subi arg0 c2_i32_10
  let c3072_i32 : BitVec 32 := 3072#32
  let v24 : BitVec 32 := Scalar.muli v23 c3072_i32
  let v25 : BitVec 32 := Scalar.addi v24 c0_i32_11
  let c0_i32_13 : BitVec 32 := 0#32
  ![v25.toNat, 0]
def k1_off3 (i : grid1.Coords) : Fin 3 → Nat :=
  let arg0 : BitVec 32 := BitVec.ofNat 32 (i 0).val
  let c2_i32 : BitVec 32 := 2#32
  let v0 : BitVec 32 := Scalar.remsi arg0 c2_i32
  let c0_i32_14 : BitVec 32 := 0#32
  let c0_i32_15 : BitVec 32 := 0#32
  ![v0.toNat, 0, 0]
def k1_off4 (i : grid1.Coords) : Fin 2 → Nat :=
  let arg0 : BitVec 32 := BitVec.ofNat 32 (i 0).val
  let c2_i32 : BitVec 32 := 2#32
  let v0 : BitVec 32 := Scalar.remsi arg0 c2_i32
  let c1_i32 : BitVec 32 := 1#32
  ![v0.toNat, 1]
def k1_off5 (i : grid1.Coords) : Fin 3 → Nat :=
  let arg0 : BitVec 32 := BitVec.ofNat 32 (i 0).val
  let c2_i32 : BitVec 32 := 2#32
  let v0 : BitVec 32 := Scalar.remsi arg0 c2_i32
  let c512_i32_17 : BitVec 32 := 512#32
  let c0_i32_18 : BitVec 32 := 0#32
  ![v0.toNat, 512, 0]
def k1_off6 (i : grid1.Coords) : Fin 2 → Nat :=
  let arg0 : BitVec 32 := BitVec.ofNat 32 (i 0).val
  let c2_i32 : BitVec 32 := 2#32
  let v0 : BitVec 32 := Scalar.remsi arg0 c2_i32
  let c2_i32_19 : BitVec 32 := 2#32
  ![v0.toNat, 2]
def k1_off7 (i : grid1.Coords) : Fin 3 → Nat :=
  let arg0 : BitVec 32 := BitVec.ofNat 32 (i 0).val
  let c2_i32 : BitVec 32 := 2#32
  let v0 : BitVec 32 := Scalar.remsi arg0 c2_i32
  let c1024_i32_21 : BitVec 32 := 1024#32
  let c0_i32_22 : BitVec 32 := 0#32
  ![v0.toNat, 1024, 0]
def k1_off8 (i : grid1.Coords) : Fin 2 → Nat :=
  let arg0 : BitVec 32 := BitVec.ofNat 32 (i 0).val
  let c2_i32 : BitVec 32 := 2#32
  let v0 : BitVec 32 := Scalar.remsi arg0 c2_i32
  let c3_i32 : BitVec 32 := 3#32
  ![v0.toNat, 3]
def k1_off9 (i : grid1.Coords) : Fin 3 → Nat :=
  let arg0 : BitVec 32 := BitVec.ofNat 32 (i 0).val
  let c2_i32 : BitVec 32 := 2#32
  let v0 : BitVec 32 := Scalar.remsi arg0 c2_i32
  let c1536_i32_24 : BitVec 32 := 1536#32
  let c0_i32_25 : BitVec 32 := 0#32
  ![v0.toNat, 1536, 0]
def k1_off10 (i : grid1.Coords) : Fin 2 → Nat :=
  let arg0 : BitVec 32 := BitVec.ofNat 32 (i 0).val
  let c2_i32 : BitVec 32 := 2#32
  let v0 : BitVec 32 := Scalar.remsi arg0 c2_i32
  let c4_i32 : BitVec 32 := 4#32
  ![v0.toNat, 4]
def k1_off11 (i : grid1.Coords) : Fin 3 → Nat :=
  let arg0 : BitVec 32 := BitVec.ofNat 32 (i 0).val
  let c2_i32 : BitVec 32 := 2#32
  let v0 : BitVec 32 := Scalar.remsi arg0 c2_i32
  let c2048_i32_27 : BitVec 32 := 2048#32
  let c0_i32_28 : BitVec 32 := 0#32
  ![v0.toNat, 2048, 0]
def k1_off12 (i : grid1.Coords) : Fin 2 → Nat :=
  let arg0 : BitVec 32 := BitVec.ofNat 32 (i 0).val
  let c2_i32 : BitVec 32 := 2#32
  let v0 : BitVec 32 := Scalar.remsi arg0 c2_i32
  let c5_i32 : BitVec 32 := 5#32
  ![v0.toNat, 5]
def k1_off13 (i : grid1.Coords) : Fin 3 → Nat :=
  let arg0 : BitVec 32 := BitVec.ofNat 32 (i 0).val
  let c2_i32 : BitVec 32 := 2#32
  let v0 : BitVec 32 := Scalar.remsi arg0 c2_i32
  let c2560_i32_30 : BitVec 32 := 2560#32
  let c0_i32_31 : BitVec 32 := 0#32
  ![v0.toNat, 2560, 0]
def k1_off14 (i : grid1.Coords) : Fin 3 → Nat :=
  let arg0 : BitVec 32 := BitVec.ofNat 32 (i 0).val
  let c2_i32 : BitVec 32 := 2#32
  let v0 : BitVec 32 := Scalar.remsi arg0 c2_i32
  let v13 : Index := Scalar.indexCast v0
  let c0_5 : Index := 0#32
  let c0_6 : Index := 0#32
  ![v13.toNat, 0, 0]
def k1_cond2 (i : grid1.Coords) : BitVec 1 :=
  let arg0 : BitVec 32 := BitVec.ofNat 32 (i 0).val
  let c32_i32 : BitVec 32 := 32#32
  let v17 : BitVec 1 := Scalar.cmpi .slt arg0 c32_i32
  let v18 : BitVec 32 := Scalar.extui v17
  let c0_i32_7 : BitVec 32 := 0#32
  let v19 : BitVec 1 := Scalar.cmpi .ne v18 c0_i32_7
  v19

def k1_off15 (i : grid1.Coords) : Fin 2 → Nat :=
  let arg0 : BitVec 32 := BitVec.ofNat 32 (i 0).val
  let c2_i32 : BitVec 32 := 2#32
  let v0 : BitVec 32 := Scalar.remsi arg0 c2_i32
  let c0_i32_11 : BitVec 32 := 0#32
  ![v0.toNat, 0]
def k1_off16 (i : grid1.Coords) (c0_i32_10 : BitVec 32) : Fin 2 → Nat :=
  let arg0 : BitVec 32 := BitVec.ofNat 32 (i 0).val
  let c3072_i32 : BitVec 32 := 3072#32
  let v23 : BitVec 32 := Scalar.muli arg0 c3072_i32
  let v24 : BitVec 32 := Scalar.addi v23 c0_i32_10
  let c0_i32_12 : BitVec 32 := 0#32
  ![v24.toNat, 0]
def k1_off17 (i : grid1.Coords) : Fin 3 → Nat :=
  let arg0 : BitVec 32 := BitVec.ofNat 32 (i 0).val
  let c2_i32 : BitVec 32 := 2#32
  let v0 : BitVec 32 := Scalar.remsi arg0 c2_i32
  let c0_i32_13 : BitVec 32 := 0#32
  let c0_i32_14 : BitVec 32 := 0#32
  ![v0.toNat, 0, 0]
def k1_off18 (i : grid1.Coords) : Fin 2 → Nat :=
  let arg0 : BitVec 32 := BitVec.ofNat 32 (i 0).val
  let c2_i32 : BitVec 32 := 2#32
  let v0 : BitVec 32 := Scalar.remsi arg0 c2_i32
  let c1_i32 : BitVec 32 := 1#32
  ![v0.toNat, 1]
def k1_off19 (i : grid1.Coords) : Fin 3 → Nat :=
  let arg0 : BitVec 32 := BitVec.ofNat 32 (i 0).val
  let c2_i32 : BitVec 32 := 2#32
  let v0 : BitVec 32 := Scalar.remsi arg0 c2_i32
  let c512_i32_16 : BitVec 32 := 512#32
  let c0_i32_17 : BitVec 32 := 0#32
  ![v0.toNat, 512, 0]
def k1_off20 (i : grid1.Coords) : Fin 2 → Nat :=
  let arg0 : BitVec 32 := BitVec.ofNat 32 (i 0).val
  let c2_i32 : BitVec 32 := 2#32
  let v0 : BitVec 32 := Scalar.remsi arg0 c2_i32
  let c2_i32_18 : BitVec 32 := 2#32
  ![v0.toNat, 2]
def k1_off21 (i : grid1.Coords) : Fin 3 → Nat :=
  let arg0 : BitVec 32 := BitVec.ofNat 32 (i 0).val
  let c2_i32 : BitVec 32 := 2#32
  let v0 : BitVec 32 := Scalar.remsi arg0 c2_i32
  let c1024_i32_20 : BitVec 32 := 1024#32
  let c0_i32_21 : BitVec 32 := 0#32
  ![v0.toNat, 1024, 0]
def k1_off22 (i : grid1.Coords) : Fin 2 → Nat :=
  let arg0 : BitVec 32 := BitVec.ofNat 32 (i 0).val
  let c2_i32 : BitVec 32 := 2#32
  let v0 : BitVec 32 := Scalar.remsi arg0 c2_i32
  let c3_i32 : BitVec 32 := 3#32
  ![v0.toNat, 3]
def k1_off23 (i : grid1.Coords) : Fin 3 → Nat :=
  let arg0 : BitVec 32 := BitVec.ofNat 32 (i 0).val
  let c2_i32 : BitVec 32 := 2#32
  let v0 : BitVec 32 := Scalar.remsi arg0 c2_i32
  let c1536_i32_23 : BitVec 32 := 1536#32
  let c0_i32_24 : BitVec 32 := 0#32
  ![v0.toNat, 1536, 0]
def k1_off24 (i : grid1.Coords) : Fin 2 → Nat :=
  let arg0 : BitVec 32 := BitVec.ofNat 32 (i 0).val
  let c2_i32 : BitVec 32 := 2#32
  let v0 : BitVec 32 := Scalar.remsi arg0 c2_i32
  let c4_i32 : BitVec 32 := 4#32
  ![v0.toNat, 4]
def k1_off25 (i : grid1.Coords) : Fin 3 → Nat :=
  let arg0 : BitVec 32 := BitVec.ofNat 32 (i 0).val
  let c2_i32 : BitVec 32 := 2#32
  let v0 : BitVec 32 := Scalar.remsi arg0 c2_i32
  let c2048_i32_26 : BitVec 32 := 2048#32
  let c0_i32_27 : BitVec 32 := 0#32
  ![v0.toNat, 2048, 0]
def k1_off26 (i : grid1.Coords) : Fin 2 → Nat :=
  let arg0 : BitVec 32 := BitVec.ofNat 32 (i 0).val
  let c2_i32 : BitVec 32 := 2#32
  let v0 : BitVec 32 := Scalar.remsi arg0 c2_i32
  let c5_i32 : BitVec 32 := 5#32
  ![v0.toNat, 5]
def k1_off27 (i : grid1.Coords) : Fin 3 → Nat :=
  let arg0 : BitVec 32 := BitVec.ofNat 32 (i 0).val
  let c2_i32 : BitVec 32 := 2#32
  let v0 : BitVec 32 := Scalar.remsi arg0 c2_i32
  let c2560_i32_29 : BitVec 32 := 2560#32
  let c0_i32_30 : BitVec 32 := 0#32
  ![v0.toNat, 2560, 0]
def k1_cond3 (i : grid1.Coords) : BitVec 1 :=
  let arg0 : BitVec 32 := BitVec.ofNat 32 (i 0).val
  let c32_i32_8 : BitVec 32 := 32#32
  let v20 : BitVec 1 := Scalar.cmpi .eq arg0 c32_i32_8
  let v21 : BitVec 32 := Scalar.extui v20
  let c0_i32_9 : BitVec 32 := 0#32
  let v22 : BitVec 1 := Scalar.cmpi .ne v21 c0_i32_9
  v22

def k1_off28 (i : grid1.Coords) : Fin 2 → Nat :=
  let arg0 : BitVec 32 := BitVec.ofNat 32 (i 0).val
  let c2_i32 : BitVec 32 := 2#32
  let v0 : BitVec 32 := Scalar.remsi arg0 c2_i32
  let c0_i32_10 : BitVec 32 := 0#32
  ![v0.toNat, 0]
def k1_off29 (i : grid1.Coords) : Fin 3 → Nat :=
  let arg0 : BitVec 32 := BitVec.ofNat 32 (i 0).val
  let c2_i32 : BitVec 32 := 2#32
  let v0 : BitVec 32 := Scalar.remsi arg0 c2_i32
  let c0_i32_12 : BitVec 32 := 0#32
  let c0_i32_13 : BitVec 32 := 0#32
  ![v0.toNat, 0, 0]
def k1_off30 (i : grid1.Coords) : Fin 2 → Nat :=
  let arg0 : BitVec 32 := BitVec.ofNat 32 (i 0).val
  let c2_i32 : BitVec 32 := 2#32
  let v0 : BitVec 32 := Scalar.remsi arg0 c2_i32
  let c1_i32 : BitVec 32 := 1#32
  ![v0.toNat, 1]
def k1_off31 (i : grid1.Coords) : Fin 3 → Nat :=
  let arg0 : BitVec 32 := BitVec.ofNat 32 (i 0).val
  let c2_i32 : BitVec 32 := 2#32
  let v0 : BitVec 32 := Scalar.remsi arg0 c2_i32
  let c512_i32 : BitVec 32 := 512#32
  let c0_i32_15 : BitVec 32 := 0#32
  ![v0.toNat, 512, 0]
def k1_off32 (i : grid1.Coords) : Fin 2 → Nat :=
  let arg0 : BitVec 32 := BitVec.ofNat 32 (i 0).val
  let c2_i32 : BitVec 32 := 2#32
  let v0 : BitVec 32 := Scalar.remsi arg0 c2_i32
  let c2_i32_16 : BitVec 32 := 2#32
  ![v0.toNat, 2]
def k1_off33 (i : grid1.Coords) : Fin 3 → Nat :=
  let arg0 : BitVec 32 := BitVec.ofNat 32 (i 0).val
  let c2_i32 : BitVec 32 := 2#32
  let v0 : BitVec 32 := Scalar.remsi arg0 c2_i32
  let c1024_i32 : BitVec 32 := 1024#32
  let c0_i32_18 : BitVec 32 := 0#32
  ![v0.toNat, 1024, 0]
def k1_off34 (i : grid1.Coords) : Fin 2 → Nat :=
  let arg0 : BitVec 32 := BitVec.ofNat 32 (i 0).val
  let c2_i32 : BitVec 32 := 2#32
  let v0 : BitVec 32 := Scalar.remsi arg0 c2_i32
  let c3_i32 : BitVec 32 := 3#32
  ![v0.toNat, 3]
def k1_off35 (i : grid1.Coords) : Fin 3 → Nat :=
  let arg0 : BitVec 32 := BitVec.ofNat 32 (i 0).val
  let c2_i32 : BitVec 32 := 2#32
  let v0 : BitVec 32 := Scalar.remsi arg0 c2_i32
  let c1536_i32 : BitVec 32 := 1536#32
  let c0_i32_20 : BitVec 32 := 0#32
  ![v0.toNat, 1536, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 1 → Nat :=
  let arg0 : BitVec 32 := BitVec.ofNat 32 (i 0).val
  let c0_i32 : BitVec 32 := 0#32
  ![arg0.toNat]

abbrev stage1_0 : Fin 1 → Memref sig .tc .vmem S64x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S64x3072 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1024x20_S20x1024_1_0 : S1024x20.Transposes [1, 0] S20x1024
  transposes_S100000x64_S64x100000_1_0 : S100000x64.Transposes [1, 0] S64x100000
  squeezes_S1x100000_S100000 : S1x100000.Squeezes S100000
  h_S1x16 : 0 < S1x16.numel
  shapeCasts_S1x16_S16 : S1x16.ShapeCasts S16
  h_S100000 : 0 < S100000.numel
  shapeCasts_S16_S1x16 : S16.ShapeCasts S1x16
  squeezes_S1x1_S_ : S1x1.Squeezes S_
  squeezes_S1x512x1024_S512x1024 : S1x512x1024.Squeezes S512x1024
  inb_S64x3072_S64x3072_0_0 : ∀ a, (![0, 0] : Fin 2 → Nat) a + S64x3072.size a ≤ S64x3072.size a
  h_S64x3072 : 0 < S64x3072.numel
  shapeCasts_S64x3072_S64x3072 : S64x3072.ShapeCasts S64x3072
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S3072_S3072_0 : ∀ a, (![0] : Fin 1 → Nat) a + S3072.size a ≤ S3072.size a
  h_S3072 : 0 < S3072.numel
  shapeCasts_S3072_S3072x1 : S3072.ShapeCasts S3072x1
  broadcasts_S3072x1_S3072x1024 : S3072x1.Broadcasts S3072x1024
  h_S1x3072x1024 : 0 < S1x3072x1024.numel
  shapeCasts_S1x3072x1024_S3072x1024 : S1x3072x1024.ShapeCasts S3072x1024
  shapeCasts_S3072x1024_S1x3072x1024 : S3072x1024.ShapeCasts S1x3072x1024
  inb_S100000x1024_S512x1024_98304_0 : ∀ a, (![98304, 0] : Fin 2 → Nat) a + S512x1024.size a ≤ S100000x1024.size a
  inb_S100000x1024_S512x1024_98816_0 : ∀ a, (![98816, 0] : Fin 2 → Nat) a + S512x1024.size a ≤ S100000x1024.size a
  inb_S100000x1024_S512x1024_99328_0 : ∀ a, (![99328, 0] : Fin 2 → Nat) a + S512x1024.size a ≤ S100000x1024.size a
  inb_S100000x1024_S160x1024_99840_0 : ∀ a, (![99840, 0] : Fin 2 → Nat) a + S160x1024.size a ≤ S100000x1024.size a
  squeezes_S1x160x1024_S160x1024 : S1x160x1024.Squeezes S160x1024
  inb_S2x6_S1x1_1_0 : ∀ a, (![1, 0] : Fin 2 → Nat) a + S1x1.size a ≤ S2x6.size a
  inb_S100000x1024_S512x1024_95232_0 : ∀ a, (![95232, 0] : Fin 2 → Nat) a + S512x1024.size a ≤ S100000x1024.size a
  inb_S2x3072x1024_S1x512x1024_1_0_0 : ∀ a, (![1, 0, 0] : Fin 3 → Nat) a + S1x512x1024.size a ≤ S2x3072x1024.size a
  inb_S2x6_S1x1_1_1 : ∀ a, (![1, 1] : Fin 2 → Nat) a + S1x1.size a ≤ S2x6.size a
  inb_S100000x1024_S512x1024_95744_0 : ∀ a, (![95744, 0] : Fin 2 → Nat) a + S512x1024.size a ≤ S100000x1024.size a
  inb_S2x3072x1024_S1x512x1024_1_512_0 : ∀ a, (![1, 512, 0] : Fin 3 → Nat) a + S1x512x1024.size a ≤ S2x3072x1024.size a
  inb_S2x6_S1x1_1_2 : ∀ a, (![1, 2] : Fin 2 → Nat) a + S1x1.size a ≤ S2x6.size a
  inb_S100000x1024_S512x1024_96256_0 : ∀ a, (![96256, 0] : Fin 2 → Nat) a + S512x1024.size a ≤ S100000x1024.size a
  inb_S2x3072x1024_S1x512x1024_1_1024_0 : ∀ a, (![1, 1024, 0] : Fin 3 → Nat) a + S1x512x1024.size a ≤ S2x3072x1024.size a
  inb_S2x6_S1x1_1_3 : ∀ a, (![1, 3] : Fin 2 → Nat) a + S1x1.size a ≤ S2x6.size a
  inb_S100000x1024_S512x1024_96768_0 : ∀ a, (![96768, 0] : Fin 2 → Nat) a + S512x1024.size a ≤ S100000x1024.size a
  inb_S2x3072x1024_S1x512x1024_1_1536_0 : ∀ a, (![1, 1536, 0] : Fin 3 → Nat) a + S1x512x1024.size a ≤ S2x3072x1024.size a
  inb_S2x6_S1x1_1_4 : ∀ a, (![1, 4] : Fin 2 → Nat) a + S1x1.size a ≤ S2x6.size a
  inb_S100000x1024_S512x1024_97280_0 : ∀ a, (![97280, 0] : Fin 2 → Nat) a + S512x1024.size a ≤ S100000x1024.size a
  inb_S2x3072x1024_S1x512x1024_1_2048_0 : ∀ a, (![1, 2048, 0] : Fin 3 → Nat) a + S1x512x1024.size a ≤ S2x3072x1024.size a
  inb_S2x6_S1x1_1_5 : ∀ a, (![1, 5] : Fin 2 → Nat) a + S1x1.size a ≤ S2x6.size a
  inb_S100000x1024_S512x1024_97792_0 : ∀ a, (![97792, 0] : Fin 2 → Nat) a + S512x1024.size a ≤ S100000x1024.size a
  inb_S2x3072x1024_S1x512x1024_1_2560_0 : ∀ a, (![1, 2560, 0] : Fin 3 → Nat) a + S1x512x1024.size a ≤ S2x3072x1024.size a
  transposes_S100000x1024_S1024x100000_1_0 : S100000x1024.Transposes [1, 0] S1024x100000
  dot_S64x3072_S64x1024_S3072x1024_0_0_1_1_n_n_wf : DotDims.WF S64x3072 S64x1024 S3072x1024 [0] [0] [1] [1] [] []
  hcc0_scratch3 : 0 + S_.numel ≤ 20
  hcc0_scoped0 : 1 + S_.numel ≤ 20
  hcc0_scoped1 : 2 + S_.numel ≤ 20
  hcc1_scratch1 : 8 + S2x6.numel ≤ 20
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 r.val)) a + S1x100000.size a ≤ S64x100000.size a
  k0_t1_ok : k0_t1_loop.OK
  k0_off2_inb : ∀ k0_t1 : Fin k0_t1_loop.trips, ∀ a, (k0_off2 k0_t1) a + S1x16.size a ≤ S20x1024.size a
  k0_off3_inb : ∀ k0_t1 : Fin k0_t1_loop.trips, ∀ a, (k0_off3 k0_t1) a + S1x16.size a ≤ S20x1024.size a
  k0_off4_inb : ∀ k0_t1 : Fin k0_t1_loop.trips, ∀ a, (k0_off4 k0_t1) a + S1x16.size a ≤ S20x1024.size a
  k0_off5_inb : ∀ k0_t1 : Fin k0_t1_loop.trips, ∀ a, (k0_off5 k0_t1) a + S1x16.size a ≤ S20x1024.size a
  k0_off6_inb : ∀ k0_t1 : Fin k0_t1_loop.trips, ∀ a, (k0_off6 k0_t1) a + S1x16.size a ≤ S20x1024.size a
  k0_off7_inb : ∀ k0_t1 : Fin k0_t1_loop.trips, ∀ a, (k0_off7 k0_t1) a + S1x16.size a ≤ S20x1024.size a
  k0_off8_inb : ∀ k0_t1 : Fin k0_t1_loop.trips, ∀ a, (k0_off8 k0_t1) a + S1x16.size a ≤ S20x1024.size a
  k0_off9_inb : ∀ k0_t1 : Fin k0_t1_loop.trips, ∀ a, (k0_off9 k0_t1) a + S1x16.size a ≤ S20x1024.size a
  k0_off10_inb : ∀ k0_t1 : Fin k0_t1_loop.trips, ∀ a, (k0_off10 k0_t1) a + S1x16.size a ≤ S20x1024.size a
  k0_off11_inb : ∀ k0_t1 : Fin k0_t1_loop.trips, ∀ a, (k0_off11 k0_t1) a + S1x16.size a ≤ S20x1024.size a
  k0_off12_inb : ∀ k0_t1 : Fin k0_t1_loop.trips, ∀ a, (k0_off12 k0_t1) a + S1x16.size a ≤ S20x1024.size a
  k0_off13_inb : ∀ k0_t1 : Fin k0_t1_loop.trips, ∀ a, (k0_off13 k0_t1) a + S1x16.size a ≤ S20x1024.size a
  k0_off14_inb : ∀ k0_t1 : Fin k0_t1_loop.trips, ∀ a, (k0_off14 k0_t1) a + S1x16.size a ≤ S20x1024.size a
  k0_off15_inb : ∀ k0_t1 : Fin k0_t1_loop.trips, ∀ a, (k0_off15 k0_t1) a + S1x16.size a ≤ S20x1024.size a
  k0_off16_inb : ∀ k0_t1 : Fin k0_t1_loop.trips, ∀ a, (k0_off16 k0_t1) a + S1x16.size a ≤ S20x1024.size a
  k0_off17_inb : ∀ k0_t1 : Fin k0_t1_loop.trips, ∀ a, (k0_off17 k0_t1) a + S1x16.size a ≤ S20x1024.size a
  k0_off18_inb : ∀ k0_t1 : Fin k0_t1_loop.trips, ∀ a, (k0_off18 k0_t1) a + S1x16.size a ≤ S20x1024.size a
  k0_off19_inb : ∀ k0_t1 : Fin k0_t1_loop.trips, ∀ a, (k0_off19 k0_t1) a + S1x16.size a ≤ S20x1024.size a
  k0_off20_inb : ∀ k0_t1 : Fin k0_t1_loop.trips, ∀ a, (k0_off20 k0_t1) a + S1x16.size a ≤ S20x1024.size a
  k0_off21_inb : ∀ k0_t1 : Fin k0_t1_loop.trips, ∀ a, (k0_off21 k0_t1) a + S1x16.size a ≤ S20x1024.size a
  k0_off22_inb : ∀ k0_t1 : Fin k0_t1_loop.trips, ∀ a, (k0_off22 k0_t1) a + S1x16.size a ≤ S2x1024.size a
  k0_t2_ok : k0_t2_loop.OK
  k0_off23_inb : ∀ k0_t2 : Fin k0_t2_loop.trips, ∀ a, (k0_off23 k0_t2) a + S1x16.size a ≤ S20x1024.size a
  k0_off24_inb : ∀ k0_t2 : Fin k0_t2_loop.trips, ∀ a, (k0_off24 k0_t2) a + S1x16.size a ≤ S20x1024.size a
  k0_off25_inb : ∀ k0_t2 : Fin k0_t2_loop.trips, ∀ a, (k0_off25 k0_t2) a + S1x16.size a ≤ S20x1024.size a
  k0_off26_inb : ∀ k0_t2 : Fin k0_t2_loop.trips, ∀ a, (k0_off26 k0_t2) a + S1x16.size a ≤ S20x1024.size a
  k0_off27_inb : ∀ k0_t2 : Fin k0_t2_loop.trips, ∀ a, (k0_off27 k0_t2) a + S1x16.size a ≤ S20x1024.size a
  k0_off28_inb : ∀ k0_t2 : Fin k0_t2_loop.trips, ∀ a, (k0_off28 k0_t2) a + S1x16.size a ≤ S20x1024.size a
  k0_off29_inb : ∀ k0_t2 : Fin k0_t2_loop.trips, ∀ a, (k0_off29 k0_t2) a + S1x16.size a ≤ S20x1024.size a
  k0_off30_inb : ∀ k0_t2 : Fin k0_t2_loop.trips, ∀ a, (k0_off30 k0_t2) a + S1x16.size a ≤ S20x1024.size a
  k0_off31_inb : ∀ k0_t2 : Fin k0_t2_loop.trips, ∀ a, (k0_off31 k0_t2) a + S1x16.size a ≤ S20x1024.size a
  k0_off32_inb : ∀ k0_t2 : Fin k0_t2_loop.trips, ∀ a, (k0_off32 k0_t2) a + S1x16.size a ≤ S20x1024.size a
  k0_off33_inb : ∀ k0_t2 : Fin k0_t2_loop.trips, ∀ a, (k0_off33 k0_t2) a + S1x16.size a ≤ S20x1024.size a
  k0_off34_inb : ∀ k0_t2 : Fin k0_t2_loop.trips, ∀ a, (k0_off34 k0_t2) a + S1x16.size a ≤ S20x1024.size a
  k0_off35_inb : ∀ k0_t2 : Fin k0_t2_loop.trips, ∀ a, (k0_off35 k0_t2) a + S1x16.size a ≤ S20x1024.size a
  k0_off36_inb : ∀ k0_t2 : Fin k0_t2_loop.trips, ∀ a, (k0_off36 k0_t2) a + S1x16.size a ≤ S20x1024.size a
  k0_off37_inb : ∀ k0_t2 : Fin k0_t2_loop.trips, ∀ a, (k0_off37 k0_t2) a + S1x16.size a ≤ S20x1024.size a
  k0_off38_inb : ∀ k0_t2 : Fin k0_t2_loop.trips, ∀ a, (k0_off38 k0_t2) a + S1x16.size a ≤ S20x1024.size a
  k0_off39_inb : ∀ k0_t2 : Fin k0_t2_loop.trips, ∀ a, (k0_off39 k0_t2) a + S1x16.size a ≤ S20x1024.size a
  k0_off40_inb : ∀ k0_t2 : Fin k0_t2_loop.trips, ∀ a, (k0_off40 k0_t2) a + S1x16.size a ≤ S20x1024.size a
  k0_off41_inb : ∀ k0_t2 : Fin k0_t2_loop.trips, ∀ a, (k0_off41 k0_t2) a + S1x16.size a ≤ S20x1024.size a
  k0_off42_inb : ∀ k0_t2 : Fin k0_t2_loop.trips, ∀ a, (k0_off42 k0_t2) a + S1x16.size a ≤ S20x1024.size a
  k0_off43_inb : ∀ k0_t2 : Fin k0_t2_loop.trips, ∀ a, (k0_off43 k0_t2) a + S1x16.size a ≤ S2x1024.size a
  k0_off44_inb : ∀ i : grid0.Coords, ∀ a, (k0_off44 i) a + S2x1024.size a ≤ S64x1024.size a
  hrank1 : 0 < grid1.rank
  k1_off1_inb : ∀ i : grid1.Coords, ∀ (k1_h1 : k1_cond1 i = 1#1), ∀ a, (k1_off1 i) a + S1x1.size a ≤ S2x6.size a
  k1_off2_inb : ∀ i : grid1.Coords, ∀ (k1_h1 : k1_cond1 i = 1#1), ∀ (r : Fin 6), ∀ a, (k1_off2 i (BitVec.ofNat 32 (512 * r.val))) a + S512x1024.size a ≤ S100000x1024.size a
  k1_off3_inb : ∀ i : grid1.Coords, ∀ (k1_h1 : k1_cond1 i = 1#1), ∀ a, (k1_off3 i) a + S1x512x1024.size a ≤ S2x3072x1024.size a
  k1_off4_inb : ∀ i : grid1.Coords, ∀ (k1_h1 : k1_cond1 i = 1#1), ∀ a, (k1_off4 i) a + S1x1.size a ≤ S2x6.size a
  k1_off5_inb : ∀ i : grid1.Coords, ∀ (k1_h1 : k1_cond1 i = 1#1), ∀ a, (k1_off5 i) a + S1x512x1024.size a ≤ S2x3072x1024.size a
  k1_off6_inb : ∀ i : grid1.Coords, ∀ (k1_h1 : k1_cond1 i = 1#1), ∀ a, (k1_off6 i) a + S1x1.size a ≤ S2x6.size a
  k1_off7_inb : ∀ i : grid1.Coords, ∀ (k1_h1 : k1_cond1 i = 1#1), ∀ a, (k1_off7 i) a + S1x512x1024.size a ≤ S2x3072x1024.size a
  k1_off8_inb : ∀ i : grid1.Coords, ∀ (k1_h1 : k1_cond1 i = 1#1), ∀ a, (k1_off8 i) a + S1x1.size a ≤ S2x6.size a
  k1_off9_inb : ∀ i : grid1.Coords, ∀ (k1_h1 : k1_cond1 i = 1#1), ∀ a, (k1_off9 i) a + S1x512x1024.size a ≤ S2x3072x1024.size a
  k1_off10_inb : ∀ i : grid1.Coords, ∀ (k1_h1 : k1_cond1 i = 1#1), ∀ a, (k1_off10 i) a + S1x1.size a ≤ S2x6.size a
  k1_off11_inb : ∀ i : grid1.Coords, ∀ (k1_h1 : k1_cond1 i = 1#1), ∀ a, (k1_off11 i) a + S1x512x1024.size a ≤ S2x3072x1024.size a
  k1_off12_inb : ∀ i : grid1.Coords, ∀ (k1_h1 : k1_cond1 i = 1#1), ∀ a, (k1_off12 i) a + S1x1.size a ≤ S2x6.size a
  k1_off13_inb : ∀ i : grid1.Coords, ∀ (k1_h1 : k1_cond1 i = 1#1), ∀ a, (k1_off13 i) a + S1x512x1024.size a ≤ S2x3072x1024.size a
  k1_off14_inb : ∀ i : grid1.Coords, ∀ a, (k1_off14 i) a + S1x3072x1024.size a ≤ S2x3072x1024.size a
  k1_off15_inb : ∀ i : grid1.Coords, ∀ (k1_h2 : k1_cond2 i = 1#1), ∀ a, (k1_off15 i) a + S1x1.size a ≤ S2x6.size a
  k1_off16_inb : ∀ i : grid1.Coords, ∀ (k1_h2 : k1_cond2 i = 1#1), ∀ (r : Fin 6), ∀ a, (k1_off16 i (BitVec.ofNat 32 (512 * r.val))) a + S512x1024.size a ≤ S100000x1024.size a
  k1_off17_inb : ∀ i : grid1.Coords, ∀ (k1_h2 : k1_cond2 i = 1#1), ∀ a, (k1_off17 i) a + S1x512x1024.size a ≤ S2x3072x1024.size a
  k1_off18_inb : ∀ i : grid1.Coords, ∀ (k1_h2 : k1_cond2 i = 1#1), ∀ a, (k1_off18 i) a + S1x1.size a ≤ S2x6.size a
  k1_off19_inb : ∀ i : grid1.Coords, ∀ (k1_h2 : k1_cond2 i = 1#1), ∀ a, (k1_off19 i) a + S1x512x1024.size a ≤ S2x3072x1024.size a
  k1_off20_inb : ∀ i : grid1.Coords, ∀ (k1_h2 : k1_cond2 i = 1#1), ∀ a, (k1_off20 i) a + S1x1.size a ≤ S2x6.size a
  k1_off21_inb : ∀ i : grid1.Coords, ∀ (k1_h2 : k1_cond2 i = 1#1), ∀ a, (k1_off21 i) a + S1x512x1024.size a ≤ S2x3072x1024.size a
  k1_off22_inb : ∀ i : grid1.Coords, ∀ (k1_h2 : k1_cond2 i = 1#1), ∀ a, (k1_off22 i) a + S1x1.size a ≤ S2x6.size a
  k1_off23_inb : ∀ i : grid1.Coords, ∀ (k1_h2 : k1_cond2 i = 1#1), ∀ a, (k1_off23 i) a + S1x512x1024.size a ≤ S2x3072x1024.size a
  k1_off24_inb : ∀ i : grid1.Coords, ∀ (k1_h2 : k1_cond2 i = 1#1), ∀ a, (k1_off24 i) a + S1x1.size a ≤ S2x6.size a
  k1_off25_inb : ∀ i : grid1.Coords, ∀ (k1_h2 : k1_cond2 i = 1#1), ∀ a, (k1_off25 i) a + S1x512x1024.size a ≤ S2x3072x1024.size a
  k1_off26_inb : ∀ i : grid1.Coords, ∀ (k1_h2 : k1_cond2 i = 1#1), ∀ a, (k1_off26 i) a + S1x1.size a ≤ S2x6.size a
  k1_off27_inb : ∀ i : grid1.Coords, ∀ (k1_h2 : k1_cond2 i = 1#1), ∀ a, (k1_off27 i) a + S1x512x1024.size a ≤ S2x3072x1024.size a
  k1_off28_inb : ∀ i : grid1.Coords, ∀ (k1_h3 : k1_cond3 i = 1#1), ∀ a, (k1_off28 i) a + S1x1.size a ≤ S2x6.size a
  k1_off29_inb : ∀ i : grid1.Coords, ∀ (k1_h3 : k1_cond3 i = 1#1), ∀ a, (k1_off29 i) a + S1x512x1024.size a ≤ S2x3072x1024.size a
  k1_off30_inb : ∀ i : grid1.Coords, ∀ (k1_h3 : k1_cond3 i = 1#1), ∀ a, (k1_off30 i) a + S1x1.size a ≤ S2x6.size a
  k1_off31_inb : ∀ i : grid1.Coords, ∀ (k1_h3 : k1_cond3 i = 1#1), ∀ a, (k1_off31 i) a + S1x512x1024.size a ≤ S2x3072x1024.size a
  k1_off32_inb : ∀ i : grid1.Coords, ∀ (k1_h3 : k1_cond3 i = 1#1), ∀ a, (k1_off32 i) a + S1x1.size a ≤ S2x6.size a
  k1_off33_inb : ∀ i : grid1.Coords, ∀ (k1_h3 : k1_cond3 i = 1#1), ∀ a, (k1_off33 i) a + S1x512x1024.size a ≤ S2x3072x1024.size a
  k1_off34_inb : ∀ i : grid1.Coords, ∀ (k1_h3 : k1_cond3 i = 1#1), ∀ a, (k1_off34 i) a + S1x1.size a ≤ S2x6.size a
  k1_off35_inb : ∀ i : grid1.Coords, ∀ (k1_h3 : k1_cond3 i = 1#1), ∀ a, (k1_off35 i) a + S1x160x1024.size a ≤ S2x3072x1024.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x1024.size a ≤ S64x1024.size a
  hwx1_0 : ∀ i : grid1.Coords, EltTy.bits .f32 = 32 ∨ (Rect.block (s := S64x1024) S64x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S64x3072.size a < S64x100000.size a
  hwx1_1 : ∀ i : grid1.Coords, EltTy.bits .f32 = 32 ∨ (Rect.unit (s := S64x100000) (fun a => cc1_transform_1 i a * S64x3072.size a) (fun a => (Pipeline.Clip.of (cc1_transform_1 i a) (S64x3072.size a) (S64x100000.size a)).extent (S64x3072.size a)) fun a => Pipeline.Clip.inb (Pipeline.Clip.ok_of (hstart1_1 i a))).WholeWords (EltTy.packing .f32)
  hwxs1_1 : ∀ i : grid1.Coords, EltTy.bits .f32 = 32 ∨ (Rect.unit (s := S64x3072) (fun _ => 0) (fun a => (Pipeline.Clip.of (cc1_transform_1 i a) (S64x3072.size a) (S64x100000.size a)).extent (S64x3072.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S3072.size a < S100000.size a
  hwx1_2 : ∀ i : grid1.Coords, EltTy.bits .f32 = 32 ∨ (Rect.unit (s := S100000) (fun a => cc1_transform_2 i a * S3072.size a) (fun a => (Pipeline.Clip.of (cc1_transform_2 i a) (S3072.size a) (S100000.size a)).extent (S3072.size a)) fun a => Pipeline.Clip.inb (Pipeline.Clip.ok_of (hstart1_2 i a))).WholeWords (EltTy.packing .f32)
  hwxs1_2 : ∀ i : grid1.Coords, EltTy.bits .f32 = 32 ∨ (Rect.unit (s := S3072) (fun _ => 0) (fun a => (Pipeline.Clip.of (cc1_transform_2 i a) (S3072.size a) (S100000.size a)).extent (S3072.size a)) fun a => (Nat.zero_add _).trans_le (Pipeline.Clip.extent_le (Pipeline.Clip.ok_of (hstart1_2 i a)))).WholeWords (EltTy.packing .f32)

variable [Facts₀]

abbrev cc0_scratch3 : DmaSems sig S_ := SemArray.consecutive 0 S_ hcc0_scratch3
abbrev cc0_scoped0 : DmaSems sig S_ := SemArray.consecutive 1 S_ hcc0_scoped0
abbrev cc0_scoped1 : DmaSems sig S_ := SemArray.consecutive 2 S_ hcc0_scoped1
abbrev cc1_scratch1 : DmaSems sig S2x6 := SemArray.consecutive 8 S2x6 hcc1_scratch1
def dot_S64x3072_S64x1024_S3072x1024_0_0_1_1_n_n : DotDims S64x3072 S64x1024 S3072x1024 where
  lhsContracting := [0]
  rhsContracting := [0]
  lhsNonContracting := [1]
  rhsNonContracting := [1]
  lhsBatch := []
  rhsBatch := []
  wf := dot_S64x3072_S64x1024_S3072x1024_0_0_1_1_n_n_wf

abbrev win1_0 : Pipeline.Window sig grid1 :=
  Pipeline.Window.ofSpec (Memref.whole main_v2) S64x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_v3) S64x3072.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_arg3) S3072.size cc1_transform_2 reads1_2 false false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1024x20 : Shape := ⟨2, ![1024, 20]⟩
abbrev S100000x64 : Shape := ⟨2, ![100000, 64]⟩
abbrev S100000 : Shape := ⟨1, ![100000]⟩
abbrev S_ : Shape := ⟨0, ![]⟩
abbrev S1024x20x1 : Shape := ⟨3, ![1024, 20, 1]⟩
abbrev S1 : Shape := ⟨1, ![1]⟩
abbrev S1x1x1 : Shape := ⟨3, ![1, 1, 1]⟩
abbrev S1024x20x64 : Shape := ⟨3, ![1024, 20, 64]⟩
abbrev S1024x64 : Shape := ⟨2, ![1024, 64]⟩
abbrev S64x100000 : Shape := ⟨2, ![64, 100000]⟩
abbrev S1024x100000 : Shape := ⟨2, ![1024, 100000]⟩
abbrev S1x100000 : Shape := ⟨2, ![1, 100000]⟩

abbrev nBuf : Space → Nat
  | .hbm => 37
  | .vmem => 0
  | .smem => 0
  | _ => 0

abbrev bufTy : (tb : Table) → Fin (tcTables nBuf tb) → BufTy
  | .hbm, ⟨0, _⟩ => ⟨S1024x20, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S_, .i32⟩
  | .hbm, ⟨5, _⟩ => ⟨S1024x20, .i32⟩
  | .hbm, ⟨6, _⟩ => ⟨S1024x20, .i1⟩
  | .hbm, ⟨7, _⟩ => ⟨S_, .i32⟩
  | .hbm, ⟨8, _⟩ => ⟨S1024x20, .i32⟩
  | .hbm, ⟨9, _⟩ => ⟨S1024x20, .i32⟩
  | .hbm, ⟨10, _⟩ => ⟨S1024x20, .i32⟩
  | .hbm, ⟨11, _⟩ => ⟨S1024x20x1, .i32⟩
  | .hbm, ⟨12, _⟩ => ⟨S1, .i32⟩
  | .hbm, ⟨13, _⟩ => ⟨S_, .i32⟩
  | .hbm, ⟨14, _⟩ => ⟨S1024x20x1, .i32⟩
  | .hbm, ⟨15, _⟩ => ⟨S1024x20x1, .i1⟩
  | .hbm, ⟨16, _⟩ => ⟨S1x1x1, .i32⟩
  | .hbm, ⟨17, _⟩ => ⟨S1024x20x1, .i32⟩
  | .hbm, ⟨18, _⟩ => ⟨S1024x20x1, .i1⟩
  | .hbm, ⟨19, _⟩ => ⟨S1024x20x1, .i1⟩
  | .hbm, ⟨20, _⟩ => ⟨S_, .i1⟩
  | .hbm, ⟨21, _⟩ => ⟨S1024x20, .i1⟩
  | .hbm, ⟨22, _⟩ => ⟨S1024x20x64, .f32⟩
  | .hbm, ⟨23, _⟩ => ⟨S1024x20x64, .i1⟩
  | .hbm, ⟨24, _⟩ => ⟨S_, .f32⟩
  | .hbm, ⟨25, _⟩ => ⟨S1024x20x64, .f32⟩
  | .hbm, ⟨26, _⟩ => ⟨S1024x20x64, .f32⟩
  | .hbm, ⟨27, _⟩ => ⟨S_, .f32⟩
  | .hbm, ⟨28, _⟩ => ⟨S1024x64, .f32⟩
  | .hbm, ⟨29, _⟩ => ⟨S_, .f32⟩
  | .hbm, ⟨30, _⟩ => ⟨S1024x64, .f32⟩
  | .hbm, ⟨31, _⟩ => ⟨S1024x64, .f32⟩
  | .hbm, ⟨32, _⟩ => ⟨S64x100000, .f32⟩
  | .hbm, ⟨33, _⟩ => ⟨S1024x100000, .f32⟩
  | .hbm, ⟨34, _⟩ => ⟨S1x100000, .f32⟩
  | .hbm, ⟨35, _⟩ => ⟨S1024x100000, .f32⟩
  | .hbm, ⟨36, _⟩ => ⟨S1024x100000, .f32⟩
  | _, _ => ⟨S1024x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩

abbrev nD : Nat := 1
abbrev τ : Topo := Topo.v7x

variable {F : FTy → Type} [FloatOps F]

class Facts₀ : Prop where
  bcast_S_S1024x20 : S_.BroadcastsInDim S1024x20 (![] : Fin 0 → Fin S1024x20.rank)
  bcast_S1024x20_S1024x20x1_0_1 : S1024x20.BroadcastsInDim S1024x20x1 (![0, 1] : Fin 2 → Fin S1024x20x1.rank)
  bcast_S_S1024x20x1 : S_.BroadcastsInDim S1024x20x1 (![] : Fin 0 → Fin S1024x20x1.rank)
  bcast_S1_S1x1x1_2 : S1.BroadcastsInDim S1x1x1 (![2] : Fin 1 → Fin S1x1x1.rank)
  bcast_S1x1x1_S1024x20x1_0_1_2 : S1x1x1.BroadcastsInDim S1024x20x1 (![0, 1, 2] : Fin 3 → Fin S1024x20x1.rank)
  reducesTo_S1024x20x1_S1024x20_d2 : S1024x20x1.ReducesTo [2] S1024x20
  h_S_ : 0 < S_.numel
  bcast_S1024x20_S1024x20x64_0_1 : S1024x20.BroadcastsInDim S1024x20x64 (![0, 1] : Fin 2 → Fin S1024x20x64.rank)
  bcast_S_S1024x20x64 : S_.BroadcastsInDim S1024x20x64 (![] : Fin 0 → Fin S1024x20x64.rank)
  reducesTo_S1024x20x64_S1024x64_d1 : S1024x20x64.ReducesTo [1] S1024x64
  bcast_S_S1024x64 : S_.BroadcastsInDim S1024x64 (![] : Fin 0 → Fin S1024x64.rank)
  transposes_S100000x64_S64x100000_1_0 : S100000x64.Transposes [1, 0] S64x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  gather_S100000x64_S1024x20x1_S1024x20x64_2_0_n_n_0_2_164_wf : GatherDims.WF S100000x64 S1024x20x1 S1024x20x64 [2] [0] [] [0] [] 2 ![1, 64]
  dot_S1024x64_S64x100000_S1024x100000_1_0_0_1_n_n_wf : DotDims.WF S1024x64 S64x100000 S1024x100000 [1] [0] [0] [1] [] []

variable [Facts₀]

def gather_S100000x64_S1024x20x1_S1024x20x64_2_0_n_n_0_2_164 : GatherDims S100000x64 S1024x20x1 S1024x20x64 where
  offsetDims := [2]
  collapsedSliceDims := [0]
  operandBatchingDims := []
  startIndicesBatchingDims := []
  startIndexMap := [0]
  indexVectorDim := 2
  sliceSizes := ![1, 64]
  wf := gather_S100000x64_S1024x20x1_S1024x20x64_2_0_n_n_0_2_164_wf
def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf

class Facts : Prop extends Facts₀ where

variable [Facts]
-- ==== Proof.Spec.lean ====
/-
  The specification, stated with no program in scope: what the two kernels compute, as functions of their operand
  arrays, at any float instance.

  The first kernel (on the vector subcores) turns the transposed index array `idxT : [20, 1024]` and the transposed
  table `et : [64, 100000]` into `avgT : [64, 1024]`: entry `(d, b)` is the left-to-right sum over the twenty context
  positions `t` of `et[d, idxT[t, b]]`, times the scale. The second kernel (on the TensorCore, thirty-three row tiles of
  3072) turns `avg : [64, 1024]`, the transposed weights `wt : [64, 100000]` and the bias `b : [100000]` into
  `out : [100000, 1024]`: rows `3072 j ‥ 3072 j + 3071` that lie inside the array are the tile's matrix product
  (contracting the leading axis of both operands) plus the tile's bias column. The last tile runs past the arrays'
  end; what its operand blocks hold there is not determined, so the tile's result is stated of SOME blocks that agree
  with the arrays where the arrays have entries.
-/
import Idealize.ShloMosaic.PureOps.Ideal
import Idealize.ShloMosaic.Lib.ValueIdx

noncomputable section

namespace Cert.Spec

open Idealize.ShloMosaic Idealize.ShloMosaic.ValueIdx
open scoped BigOperators

abbrev SIdxT : Shape := ⟨2, ![20, 1024]⟩
abbrev SEt : Shape := ⟨2, ![64, 100000]⟩
abbrev SAvg : Shape := ⟨2, ![64, 1024]⟩
abbrev SBias : Shape := ⟨1, ![100000]⟩
abbrev SOut : Shape := ⟨2, ![100000, 1024]⟩
abbrev SWBlk : Shape := ⟨2, ![64, 3072]⟩
abbrev SBBlk : Shape := ⟨1, ![3072]⟩
abbrev STile : Shape := ⟨2, ![3072, 1024]⟩

variable {F : FTy → Type} [FloatOps F]

/-- Row `d` of the transposed table read at the column a 32-bit word names (column 0 when the word names none). -/
def rowAt (et : FVec F SEt .f32) (d : Fin 64) (w : BitVec 32) : F .f32 :=
  if h : w.toNat < 100000 then et (ix2 d ⟨w.toNat, h⟩) else et (ix2 d ⟨0, by decide⟩)

/-- The sum, from the left, of row `d` of the table at the twenty index words of batch column `b`. -/
def sumCtx (idxT : IVec SIdxT 32) (et : FVec F SEt .f32) (d : Fin 64) (b : Fin 1024) : F .f32 :=
  (List.finRange 19).foldl (fun acc t => FloatOps.addf acc (rowAt et d (idxT (ix2 ⟨t.val + 1, by omega⟩ b))))
    (rowAt et d (idxT (ix2 ⟨0, by decide⟩ b)))

/-- The first kernel's result: the context sums times the scale. -/
def avgT (scale : F .f32) (idxT : IVec SIdxT 32) (et : FVec F SEt .f32) : FVec F SAvg .f32 :=
  fun j => FloatOps.mulf (sumCtx idxT et (j 0) (j 1)) scale

/-- A tile's weight block agrees with the weights on the columns the array has. -/
def WAgrees (wt : FVec F SEt .f32) (j : Fin 33) (wblk : FVec F SWBlk .f32) : Prop :=
  ∀ (d : Fin 64) (r : Fin 3072) (h : 3072 * j.val + r.val < 100000), wblk (ix2 d r) = wt (ix2 d ⟨3072 * j.val + r.val, h⟩)

/-- A tile's bias block agrees with the bias on the entries the array has. -/
def BAgrees (b : FVec F SBias .f32) (j : Fin 33) (bblk : FVec F SBBlk .f32) : Prop :=
  ∀ (r : Fin 3072) (h : 3072 * j.val + r.val < 100000), bblk (ix1 r) = b (ix1 ⟨3072 * j.val + r.val, h⟩)

/-- The second kernel's result, given the function `tile` that a tile's body computes from its three operand blocks:
    every tile's rows inside the array are that function of blocks agreeing with the arrays. -/
def IsOut (tile : FVec F SAvg .f32 → FVec F SWBlk .f32 → FVec F SBBlk .f32 → FVec F STile .f32)
    (avg : FVec F SAvg .f32) (wt : FVec F SEt .f32) (b : FVec F SBias .f32) (out : FVec F SOut .f32) : Prop :=
  ∀ j : Fin 33, ∃ (wblk : FVec F SWBlk .f32) (bblk : FVec F SBBlk .f32), WAgrees wt j wblk ∧ BAgrees b j bblk ∧
    ∀ (r : Fin 3072) (c : Fin 1024) (h : 3072 * j.val + r.val < 100000),
      out (ix2 ⟨3072 * j.val + r.val, h⟩ c) = tile avg wblk bblk (ix2 r c)

/-! ## The whole computation at the ideal instance, in one form both programs are brought to -/

abbrev SIn : Shape := ⟨2, ![1024, 20]⟩
abbrev SEmb : Shape := ⟨2, ![100000, 64]⟩
abbrev SRes : Shape := ⟨2, ![1024, 100000]⟩

/-- The table's row a 32-bit word names (row 0 when it names none), at column `d`. -/
def embAt (emb : FVec F SEmb .f32) (w : BitVec 32) (d : Fin 64) : F .f32 :=
  if h : w.toNat < 100000 then emb (ix2 ⟨w.toNat, h⟩ d) else emb (ix2 ⟨0, by decide⟩ d)

/-- Entry `(b, v)` of the result over the extended reals: the mean over the twenty context positions of the looked-up
    rows, as their sum times 1/20, contracted with row `v` of the weights, plus the bias. -/
def outAt (inputs : IVec SIn 32) (emb w : FVec Ideal SEmb .f32) (bias : FVec Ideal SBias .f32) (b : Fin 1024) (v : Fin 100000) : EReal :=
  (∑ d : Fin 64, w (ix2 v d) * ((∑ t : Fin 20, embAt emb (inputs (ix2 b t)) d) * ((1 / 20 : ℝ) : EReal))) + bias (ix1 v)

def outIdeal (inputs : IVec SIn 32) (emb w : FVec Ideal SEmb .f32) (bias : FVec Ideal SBias .f32) : FVec Ideal SRes .f32 :=
  fun j => outAt inputs emb w bias (j 0) (j 1)

end Cert.Spec

end
-- ==== Proof.Common.lean ====
/-
  The set-up shared by the proof's modules, at any float instance: the program as the SparseCore launch theorem sees
  it (its label signature, launch configuration, body table and variants), and the resource algebra — the launch
  handshakes' rounds, the TensorCore pipeline's staging cells' rounds, and the transfer counters for the kernels'
  own copies, side by side.
-/
import proofs.«204125_g1194000908950_cont_fleet_528_33_alg».proof.Defs
import proofs.«204125_g1194000908950_cont_fleet_528_33_alg».proof.Proof.Spec
import proofs.«204125_g1194000908950_cont_fleet_528_33_alg».proof.Proof.Gen.KernelIdeal
import proofs.«204125_g1194000908950_cont_fleet_528_33_alg».proof.Proof.Gen.KernelIdeal.Skeleton
import proofs.«204125_g1194000908950_cont_fleet_528_33_alg».proof.Proof.Gen.KernelIdeal.Launch
import proofs.«204125_g1194000908950_cont_fleet_528_33_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.Common

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP [FloatOps F] [Named F] : Labels := Pipeline.Sig Λ₀ (Fin 1) fun p => (pcfgs (F := F) p).Adm
abbrev K [FloatOps F] [Named F] : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] [Named F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The pipeline's admissibility witnesses: no prefetched tables. -/
abbrev adm [FloatOps F] [Named F] : (p : Fin 1) → (pcfgs (F := F) p).Adm := fun q => (cfgs q).toPCfg_adm

/-! ## The host transposes, the scale and the tile function -/

abbrev tr0 [FloatOps F] : (⟨S1024x20, .i32⟩ : BufTy).Contents (Elt F) → (⟨S20x1024, .i32⟩ : BufTy).Contents (Elt F) :=
  (transpose S20x1024 [1, 0] · transposes_S1024x20_S20x1024_1_0)
abbrev tr1 [FloatOps F] : (⟨S100000x64, .f32⟩ : BufTy).Contents (Elt F) → (⟨S64x100000, .f32⟩ : BufTy).Contents (Elt F) :=
  (transpose S64x100000 [1, 0] · transposes_S100000x64_S64x100000_1_0)
abbrev tr3 [FloatOps F] : (⟨S100000x1024, .f32⟩ : BufTy).Contents (Elt F) → (⟨S1024x100000, .f32⟩ : BufTy).Contents (Elt F) :=
  (transpose S1024x100000 [1, 0] · transposes_S100000x1024_S1024x100000_1_0)

/-- The scale the first kernel multiplies its sums by. -/
abbrev scale [FloatOps F] [Named F] : F .f32 := Named.named κ "inv_20" (φ := .f32) 0x3D4CCCCD#32

/-- What a tile of the second kernel computes from its three blocks. -/
def tileF [FloatOps F] (avg : FVec F S64x1024 .f32) (wblk : FVec F S64x3072 .f32) (bblk : FVec F S3072 .f32) : FVec F S3072x1024 .f32 :=
  addf (matmul dot_S64x3072_S64x1024_S3072x1024_0_0_1_1_n_n none wblk avg (constant S3072x1024 .f32 0x00000000#32))
    (broadcastTo S3072x1024 (shapeCast S3072x1 bblk shapeCasts_S3072_S3072x1) broadcasts_S3072x1_S3072x1024)

/-! ## The resource algebra -/

/-- The launch handshakes' rounds. -/
abbrev UH : Type := URounds (GSem nD τ sig) ℕ
/-- The pipeline's staging cells' rounds. -/
abbrev UP : Type := URounds (GSem nD τ sig) Unit
/-- Handshakes, staging cells, and the counters of the kernels' own transfers. -/
abbrev UU : Type := UH × (UP × Counters)

/-- The machine's resource algebra for this program at instance `F`. -/
abbrev MM (F : FTy → Type) : Type := MT nD τ sig (HIx 1) (Elt F) ℕ UU ℕ

abbrev EH : Emb UH (MM F) := embL
def EP : Emb UP (MM F) :=
  (Emb.inl : Emb UP (UP × Counters)).trans
    ((Emb.inr : Emb (UP × Counters) UU).trans (uEmb (nD := nD) (sig := sig) (Ix := HIx 1) (Val := Elt F) (Name := ℕ) (U := UU) (Lvl := ℕ)).toEmb)

instance EP_landsIn : (EP : Emb UP (MM F)).LandsIn (upEmb : UEmb _ (MM F)) := by unfold EP; infer_instance

end Cert.KernelIdeal.Common

end
-- ==== Proof.LibScRegion.lean ====
/-
  GENERAL (no kernel's names): a pipelined TensorCore region inside a SparseCore program.

  A program with SparseCore kernels prints a TensorCore pallas_call of its @main as
  `Prog.lift (.customCall (SparseCore.inner (Pipeline.entry p)) ())`: the pipeline's entry label under the SparseCore
  layer of labels, run under the extended body table `K.defs (Pipeline.defs pcs defs₀)`. The region rule of the
  pipeline library speaks of the call `customCall (Pipeline.entry p) ()` under `Pipeline.defs pcs defs₀`. The two
  meet by lifting: a proof about a program in the pipelines' signature is a proof about the lifted program.
  So, from a region record `R` (its layout facts, body obligation, wait evidence and four entailments) at the
  index `none` of the SparseCore launch's index type and the launch's level table, the region's line of @main runs
  from `boundary ∗ R.pre c`, the level facts and the pipeline's staging cells' ghost state and duty tokens to
  `boundary ∗ R.post c` under any postcondition — inside the launch theorem's obligation for @main, whose other
  lines are host operations and the SparseCore calls.
-/
import Idealize.ShloMosaic.Lib.SparseCore.Launch
import Idealize.ShloMosaic.Lib.Pipeline.Regions

noncomputable section

namespace Cert.LibScRegion

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ₀ : Labels} {P : Type} [Fintype P] [DecidableEq P] {Q : ℕ}
  {Name : Type} [DecidableEq Name] [Infinite Name] {U : Type} [URA U] [∀ e, Nonempty (Val e)]

local notation "𝕄" => MT nD τ sig (HIx Q) Val Name U ℕ

/-- The region's line of @main under the SparseCore layer, from the region's record. -/
theorem region_line (pcs : P → Pipeline.PCfg sig Λ₀ Val) (a : (p : P) → (pcs p).Adm)
    (K : SparseCore.Cfg τ sig (Pipeline.Sig Λ₀ P fun p => (pcs p).Adm) Q)
    (rdats : (p : P) → (c : Dev nD) → Pipeline.RDat τ Val (HIx Q) Name U ℕ (Pipeline.pin pcs a p) c)
    (phinj : Function.Injective (Pipeline.cellOf (nD := nD) (τ := τ) (Pipeline.pin pcs a)))
    (EP : Emb (URounds (GSem nD τ sig) Unit) (MT nD τ sig (HIx Q) Val Name U ℕ)) [EP.LandsIn (upEmb : UEmb _ 𝕄)]
    (defs₀ : Defs nD τ sig Val Λ₀) (𝒱₀ : Variants) (lv : GSem nD τ sig → HIx Q → ℕ)
    {p : P} (R : Pipeline.RDat.RegionSeg pcs a rdats (none : HIx Q) defs₀ 𝒱₀ K.L lv p) (c : Dev nD) (Φ : PUnit → sProp 𝕄) :
    iprop((iprop(boundary (SparseCore.T c) ∗ R.post c) -∗ Φ ⟨⟩)
        ∗ boundary (SparseCore.T c) ∗ R.pre c ∗ levAts K.L lv
        ∗ Pipeline.cellsGhost (Pipeline.pin pcs a) EP p c ∗ Pipeline.toksInit (Pipeline.pin pcs a) EP p c)
      ⊢ wp frame (wpE (K.defs (Pipeline.defs pcs defs₀)) 𝒱₀.lift (SparseCore.T c) none) Set.univ
          (Prog.lift (.customCall (SparseCore.inner (Pipeline.entry p)) ())) Φ := by
  have h1 := K.wp_liftProg (Pipeline.defs pcs defs₀) 𝒱₀.lift (SparseCore.T c) Set.univ none
    (Prog.op (TpuEff.customCall (Pipeline.entry p) ()) (fun _ => Prog.ret PUnit.unit)) Φ
  have h2 := Pipeline.RDat.RegionSeg.wp pcs a rdats (none : HIx Q) phinj EP defs₀ 𝒱₀ K.L lv R c none (fun u hu => nomatch hu)
    (fun _ => Prog.ret PUnit.unit) Φ
  have h0 : iprop((iprop(boundary (SparseCore.T c) ∗ R.post c) -∗ Φ ⟨⟩)
        ∗ boundary (SparseCore.T c) ∗ R.pre c ∗ levAts K.L lv
        ∗ Pipeline.cellsGhost (Pipeline.pin pcs a) EP p c ∗ Pipeline.toksInit (Pipeline.pin pcs a) EP p c)
      ⊢ iprop((iprop(boundary (SparseCore.T c) ∗ R.post c) -∗ wp frame (wpE (Pipeline.defs pcs defs₀) 𝒱₀.lift (SparseCore.T c) none) Set.univ (Prog.ret PUnit.unit) Φ)
        ∗ boundary (SparseCore.T c) ∗ R.pre c ∗ levAts K.L lv
        ∗ Pipeline.cellsGhost (Pipeline.pin pcs a) EP p c ∗ Pipeline.toksInit (Pipeline.pin pcs a) EP p c) := by
    iintro ⟨Hk, Hrest⟩
    isplitl [Hk]
    · iintro H
      rw [wp_ret]; imodintro
      iapply Hk; iexact H
    · iexact Hrest
  exact h0.trans (h2.trans h1)

end Cert.LibScRegion

end
-- ==== Proof.Main.lean ====
/-
  @main on the TensorCore, line by line, and the run of the whole program from it.

  @main is: two transposes (the indices to [20, 1024], the table to [64, 100000]); the call of the vector-subcore
  kernel, which takes those two arrays and the [64, 1024] array of context means; a transpose of the weights to
  [64, 100000]; the TensorCore region, which takes the means, the transposed weights and the bias and writes the
  [100000, 1024] result; and the result's transpose to [1024, 100000]. The arrays are tracked as one valuation of
  the TensorCore's ten unscoped buffers; each line moves it on. What the two kernels do enters as their records:
  the call's payloads and the region's entry and exit states.
-/
import proofs.«204125_g1194000908950_cont_fleet_528_33_alg».proof.Proof.Common
import proofs.«204125_g1194000908950_cont_fleet_528_33_alg».proof.Proof.LibScRegion

noncomputable section

namespace Cert.KernelIdeal.Main

open Cert.KernelIdeal Cert.KernelIdeal.Gen Cert.KernelIdeal.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F] [Named F]

local notation "𝕄" => MM F

/-! ## The TensorCore's ten arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev S10 : Finset (DevRef τ sig) := {a0', a1', a2', a3', v0', v1', v2', v3', v4', v5'}

abbrev locOf (d : Dev nD) (b : Ref sig .tc) : Loc nD τ sig := (SparseCore.T d).loc b

omit [FloatOps F] [Named F] in
theorem held_S10 (d : Dev nD) (W : Valuation τ sig (Elt F)) :
    (held (T d) S10 W : sProp 𝕄) = iprop((locOf d main_arg0 ↦{fullShare} W a0') ∗ (locOf d main_arg1 ↦{fullShare} W a1') ∗ (locOf d main_arg2 ↦{fullShare} W a2')
      ∗ (locOf d main_arg3 ↦{fullShare} W a3') ∗ (locOf d main_v0 ↦{fullShare} W v0') ∗ (locOf d main_v1 ↦{fullShare} W v1') ∗ (locOf d main_v2 ↦{fullShare} W v2')
      ∗ (locOf d main_v3 ↦{fullShare} W v3') ∗ (locOf d main_v4 ↦{fullShare} W v4') ∗ (locOf d main_v5 ↦{fullShare} W v5')) := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] [Named F] in
theorem unscopedBufs_eq (d : Dev nD) (W : (b : Ref sig .tc) → Buf (Elt F) ((d.tc : Thread nD τ).loc b)) :
    (unscopedBufs d W : sProp 𝕄) = iprop((locOf d main_arg0 ↦{fullShare} W main_arg0) ∗ (locOf d main_arg1 ↦{fullShare} W main_arg1) ∗ (locOf d main_arg2 ↦{fullShare} W main_arg2)
      ∗ (locOf d main_arg3 ↦{fullShare} W main_arg3) ∗ (locOf d main_v0 ↦{fullShare} W main_v0) ∗ (locOf d main_v1 ↦{fullShare} W main_v1) ∗ (locOf d main_v2 ↦{fullShare} W main_v2)
      ∗ (locOf d main_v3 ↦{fullShare} W main_v3) ∗ (locOf d main_v4 ↦{fullShare} W main_v4) ∗ (locOf d main_v5 ↦{fullShare} W main_v5)) := by
  unfold unscopedBufs
  rw [show (Finset.univ.filter fun b : Ref sig .tc => ¬ b.isScoped) = {main_arg0, main_arg1, main_arg2, main_arg3, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable (m : (ℓ : Loc nD τ sig) → Buf (Elt F) ℓ) (ρ : Dev nD → PrngReg)

/-- The launch valuation. -/
def V0 (d : Dev nD) : Valuation τ sig (Elt F) := fun b => m (d, b)

omit [FloatOps F] [Named F] in
theorem unscoped_held (d : Dev nD) : (unscopedBufs d (fun b => m ((SparseCore.T d).loc b)) : sProp 𝕄) = held (T d) S10 (V0 m d) := by
  rw [unscopedBufs_eq, held_S10]; rfl

/-! ## The host lines and the arrays they make -/

abbrev op0 : HloOp τ sig (Elt F) := StableHlo.unary main_arg0 main_v0 (tr0 (F := F))
abbrev op1 : HloOp τ sig (Elt F) := StableHlo.unary main_arg1 main_v1 (tr1 (F := F))
abbrev op2 : HloOp τ sig (Elt F) := StableHlo.unary main_arg2 main_v3 (tr1 (F := F))
abbrev op3 : HloOp τ sig (Elt F) := StableHlo.unary main_v4 main_v5 (tr3 (F := F))

/-- The transposed indices, the transposed table, the transposed weights, the bias: what the kernels are handed. -/
def vI (d : Dev nD) : Buf (Elt F) (locOf d main_v0) := tr0 (F := F) (m (locOf d main_arg0))
def vE (d : Dev nD) : Buf (Elt F) (locOf d main_v1) := tr1 (F := F) (m (locOf d main_arg1))
def vW (d : Dev nD) : Buf (Elt F) (locOf d main_v3) := tr1 (F := F) (m (locOf d main_arg2))
abbrev vB (d : Dev nD) : Buf (Elt F) (locOf d main_arg3) := m (locOf d main_arg3)

/-- The context means the first kernel leaves. -/
def vA (d : Dev nD) : Buf (Elt F) (locOf d main_v2) := Cert.Spec.avgT (scale (F := F)) (vI m d) (vE m d)

theorem op0_sub : (op0 (F := F)).bufs ⊆ S10 := show ({a0', v0'} : Finset (DevRef τ sig)) ⊆ S10 by decide
theorem op1_sub : (op1 (F := F)).bufs ⊆ S10 := show ({a1', v1'} : Finset (DevRef τ sig)) ⊆ S10 by decide
theorem op2_sub : (op2 (F := F)).bufs ⊆ ({a2', v3'} : Finset (DevRef τ sig)) := show ({a2', v3'} : Finset (DevRef τ sig)) ⊆ {a2', v3'} from subset_rfl
theorem op3_sub : (op3 (F := F)).bufs ⊆ ({v4', v5'} : Finset (DevRef τ sig)) := show ({v4', v5'} : Finset (DevRef τ sig)) ⊆ {v4', v5'} from subset_rfl

/-- The valuations after the two leading transposes. -/
abbrev V1 (d : Dev nD) : Valuation τ sig (Elt F) := (op0 (F := F)).result (V0 m d)
abbrev V2 (d : Dev nD) : Valuation τ sig (Elt F) := (op1 (F := F)).result (V1 m d)

theorem V2_v0 (d : Dev nD) : V2 m d v0' = vI m d := by
  unfold V2 V1
  rw [StableHlo.unary_result_ne (τ := τ) (h := show (main_v0 : Ref sig .tc) ≠ main_v1 by decide), StableHlo.unary_result]; rfl
theorem V2_v1 (d : Dev nD) : V2 m d v1' = vE m d := by
  unfold V2 V1
  rw [StableHlo.unary_result, StableHlo.unary_result_ne (τ := τ) (h := show (main_arg1 : Ref sig .tc) ≠ main_v0 by decide)]; rfl
theorem V2_other (d : Dev nD) {r : Ref sig .tc} (h0 : r ≠ main_v0) (h1 : r ≠ main_v1) : V2 m d (Proc.devRef .tc r) = m (locOf d r) := by
  unfold V2 V1
  rw [StableHlo.unary_result_ne (τ := τ) (h := h1), StableHlo.unary_result_ne (τ := τ) (h := h0)]; rfl

omit [FloatOps F] [Named F] in
theorem held_pair (d : Dev nD) {x y : DevRef τ sig} (h : x ≠ y) (W : Valuation τ sig (Elt F)) :
    (held (T d) {x, y} W : sProp 𝕄) = iprop((((d, x) : Loc nD τ sig) ↦{fullShare} W x) ∗ (((d, y) : Loc nD τ sig) ↦{fullShare} W y)) := by
  unfold held
  rw [SparseCore.bigSep_insert' (by rw [Finset.mem_singleton]; exact h), bigSep_singleton]

theorem held_V2 (d : Dev nD) :
    (held (T d) S10 (V2 m d) : sProp 𝕄) = iprop((locOf d main_arg0 ↦{fullShare} m (locOf d main_arg0)) ∗ (locOf d main_arg1 ↦{fullShare} m (locOf d main_arg1))
      ∗ (locOf d main_arg2 ↦{fullShare} m (locOf d main_arg2)) ∗ (locOf d main_arg3 ↦{fullShare} m (locOf d main_arg3))
      ∗ (locOf d main_v0 ↦{fullShare} vI m d) ∗ (locOf d main_v1 ↦{fullShare} vE m d) ∗ (locOf d main_v2 ↦{fullShare} m (locOf d main_v2))
      ∗ (locOf d main_v3 ↦{fullShare} m (locOf d main_v3)) ∗ (locOf d main_v4 ↦{fullShare} m (locOf d main_v4)) ∗ (locOf d main_v5 ↦{fullShare} m (locOf d main_v5))) := by
  rw [held_S10, V2_v0, V2_v1, V2_other m d (r := main_arg0) (by decide) (by decide), V2_other m d (r := main_arg1) (by decide) (by decide),
    V2_other m d (r := main_arg2) (by decide) (by decide), V2_other m d (r := main_arg3) (by decide) (by decide),
    V2_other m d (r := main_v2) (by decide) (by decide), V2_other m d (r := main_v3) (by decide) (by decide),
    V2_other m d (r := main_v4) (by decide) (by decide), V2_other m d (r := main_v5) (by decide) (by decide)]

/-- The weights' transpose: the line's two arrays before and after. -/
theorem held_op2 (d : Dev nD) :
    (held (T d) {a2', v3'} ((op2 (F := F)).result (V0 m d)) : sProp 𝕄)
      = iprop((locOf d main_arg2 ↦{fullShare} m (locOf d main_arg2)) ∗ (locOf d main_v3 ↦{fullShare} vW m d)) := by
  rw [held_pair d (by decide), StableHlo.unary_result_ne (τ := τ) (h := show (main_arg2 : Ref sig .tc) ≠ main_v3 by decide), StableHlo.unary_result]; rfl

/-- The result's transpose: the line's two arrays before and after, the region's result at `out`. -/
def V5 (d : Dev nD) (out : Buf (Elt F) (locOf d main_v4)) : Valuation τ sig (Elt F) := Function.update (V0 m d) v4' out

theorem held_V5 (d : Dev nD) (out : Buf (Elt F) (locOf d main_v4)) :
    (held (T d) {v4', v5'} (V5 m d out) : sProp 𝕄) = iprop((locOf d main_v4 ↦{fullShare} out) ∗ (locOf d main_v5 ↦{fullShare} m (locOf d main_v5))) := by
  rw [held_pair d (by decide)]; unfold V5
  rw [Function.update_self, Function.update_of_ne (show v5' ≠ v4' by decide)]; rfl

theorem held_op3 (d : Dev nD) (out : Buf (Elt F) (locOf d main_v4)) :
    (held (T d) {v4', v5'} ((op3 (F := F)).result (V5 m d out)) : sProp 𝕄)
      = iprop((locOf d main_v4 ↦{fullShare} out) ∗ (locOf d main_v5 ↦{fullShare} tr3 (F := F) out)) := by
  rw [held_pair d (by decide), StableHlo.unary_result_ne (τ := τ) (h := show (main_v4 : Ref sig .tc) ≠ main_v5 by decide), StableHlo.unary_result]
  unfold V5; rw [Function.update_self]

omit [FloatOps F] [Named F] in
/-- After the one call the TensorCore owes nothing; its `owes` can be taken out of its state and put back. -/
theorem tcSt_owes [FloatOps F] [Named F] (P : (K (F := F)).Pay (nD := nD) (Val := Elt F) (Name := ℕ) (U := UU)) (d : Dev nD) :
    ((K (F := F)).tcSt EH d 1 : sProp 𝕄)
      ⊢ iprop((∃ W, ⌜(K (F := F)).WBelow (SparseCore.T d) W (8 * 1)⌝ ∗ owes (SparseCore.T d) (0 : CellTallies nD τ sig (HIx 1)) W)
        ∗ ((∃ W, ⌜(K (F := F)).WBelow (SparseCore.T d) W (8 * 1)⌝ ∗ owes (SparseCore.T d) (0 : CellTallies nD τ sig (HIx 1)) W)
            -∗ (K (F := F)).tcSt EH d 1)) := by
  unfold SparseCore.Cfg.tcSt
  rw [(K (F := F)).Otc_end d (le_refl 1)]
  iintro ⟨HO, Hrest⟩
  isplitl [HO]; · iexact HO
  iintro HO
  isplitl [HO]; · iexact HO
  iexact Hrest

/-! ## The kernels' records, as @main meets them -/

section MainProof

variable (P : (K (F := F)).Pay (nD := nD) (Val := Elt F) (Name := ℕ) (U := UU))

/-- What the vector-subcore call takes: the transposed indices and table, and the means' array at any contents; -/
abbrev ST (d : Dev nD) : sProp 𝕄 :=
  iprop((locOf d main_v0 ↦{fullShare} vI m d) ∗ (locOf d main_v1 ↦{fullShare} vE m d) ∗ ∃ f, locOf d main_v2 ↦{fullShare} f)
/-- and what it gives back: the same two, and the means. -/
abbrev DN (d : Dev nD) : sProp 𝕄 :=
  iprop((locOf d main_v0 ↦{fullShare} vI m d) ∗ (locOf d main_v1 ↦{fullShare} vE m d) ∗ locOf d main_v2 ↦{fullShare} vA m d)

/-- The region's three operand arrays. -/
abbrev inArrs (d : Dev nD) : sProp 𝕄 :=
  iprop((locOf d main_v2 ↦{fullShare} vA m d) ∗ (locOf d main_v3 ↦{fullShare} vW m d) ∗ (locOf d main_arg3 ↦{fullShare} vB m d))
/-- The TensorCore region is entered from its operands, the result array at any contents, and the core owing nothing; -/
abbrev RPRE (d : Dev nD) (W : Waits sig (HIx 1)) : sProp 𝕄 :=
  iprop(inArrs m d ∗ (∃ f, locOf d main_v4 ↦{fullShare} f) ∗ owes (SparseCore.T d) (0 : CellTallies nD τ sig (HIx 1)) W)
/-- it leaves the operands as they were and the result array at contents that are, tile by tile, the tile function of
    blocks agreeing with the operands. -/
abbrev RPOST (d : Dev nD) (W : Waits sig (HIx 1)) : sProp 𝕄 :=
  iprop(inArrs m d ∗ (∃ out, ⌜Cert.Spec.IsOut (tileF (F := F)) (vA m d) (vW m d) (vB m d) out⌝ ∗ locOf d main_v4 ↦{fullShare} out)
    ∗ ∃ W', ⌜∀ p ∈ W', p ∈ W ∨ p.2 = none⌝ ∗ owes (SparseCore.T d) (0 : CellTallies nD τ sig (HIx 1)) W')

/-- The pipeline's staging cells' ghost state, as the launch deals it. -/
abbrev G (d : Dev nD) : sProp 𝕄 :=
  iprop(Pipeline.cellsGhost (Pipeline.pin (pcfgs (F := F)) (adm (F := F))) EP (0 : Fin 1) d ∗ Pipeline.toksInit (Pipeline.pin (pcfgs (F := F)) (adm (F := F))) EP (0 : Fin 1) d)

/-- What @main leaves the claim: the four arguments at their launch contents, and the result the transpose of a
    region result. -/
abbrev FIN (d : Dev nD) : sProp 𝕄 :=
  iprop((locOf d main_arg0 ↦{fullShare} m (locOf d main_arg0)) ∗ (locOf d main_arg1 ↦{fullShare} m (locOf d main_arg1))
    ∗ (locOf d main_arg2 ↦{fullShare} m (locOf d main_arg2)) ∗ (locOf d main_arg3 ↦{fullShare} m (locOf d main_arg3))
    ∗ ∃ out, ⌜Cert.Spec.IsOut (tileF (F := F)) (vA m d) (vW m d) (vB m d) out⌝ ∗ locOf d main_v5 ↦{fullShare} tr3 (F := F) out)

theorem hmain
    (hst : ∀ d, ST m d ⊢ bigSep Finset.univ fun c : Fin ((K (F := F)).nCore 0) => P.st 0 d c)
    (hdn : ∀ d, (bigSep Finset.univ fun c : Fin ((K (F := F)).nCore 0) => P.dn 0 d c) ⊢ DN m d)
    (hregion : ∀ (d : Dev nD) (W : Waits sig (HIx 1)) (Φ : PUnit → sProp 𝕄),
      iprop((iprop(boundary (SparseCore.T d) ∗ RPOST m d W) -∗ Φ ⟨⟩) ∗ boundary (SparseCore.T d) ∗ RPRE m d W
          ∗ levAts (K (F := F)).L (K (F := F)).lev ∗ G d)
        ⊢ wp frame (wpE ((K (F := F)).defs (Pipeline.defs pcfgs defs₀)) 𝒱₀.lift (SparseCore.T d) none) Set.univ
            (Prog.lift (.customCall (SparseCore.inner (Pipeline.entry (0 : Fin 1))) ())) Φ)
    (κ : GSem nD τ sig → ℕ) (d : Dev nD) :
    iprop((K (F := F)).ctx EH P κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  -- the two leading transposes
  iapply (wp_hlo_within 𝒱 (SparseCore.T d) none Set.univ (op := op0 (F := F)) (S := S10) op0_sub (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1 (F := F)) (S := S10) op1_sub (V := V1 m d)) $$ [Hb Hheld]
  · isplitl [Hb]; · iexact Hb
    iexact Hheld
  iintro ⟨Hb, Hheld⟩
  rw [wp_ret]; imodintro
  ihave Hh := (Entails.of_eq (held_V2 m d)) $$ Hheld
  icases Hh with ⟨Ha0, Ha1, Ha2, Ha3, Hv0, Hv1, Hv2, Hv3, Hv4, Hv5⟩
  -- the call of the vector-subcore kernel
  iapply ((K (F := F)).wp_run (D (F := F)) 𝒱 (EH := EH) (P := P) κ d 0) $$ [Hst Hv0 Hv1 Hv2 Hb Ha0 Ha1 Ha2 Ha3 Hv3 Hv4 Hv5 HG]
  isplitr; · iexact Hctx
  isplitl [Hst]; · iexact Hst
  isplitl [Hv0 Hv1 Hv2]
  · iapply (hst d)
    isplitl [Hv0]; · iexact Hv0
    isplitl [Hv1]; · iexact Hv1
    iexists _; iexact Hv2
  iintro ⟨Hst, Hdn⟩
  ihave Hdn' := (hdn d) $$ Hdn
  icases Hdn' with ⟨Hv0, Hv1, Hv2⟩
  -- the weights' transpose
  iapply (wp_hlo_within 𝒱 (SparseCore.T d) none Set.univ (op := op2 (F := F)) (S := ({a2', v3'} : Finset (DevRef τ sig))) op2_sub (V := V0 m d)) $$ [Hb Ha2 Hv3]
  · isplitl [Hb]; · iexact Hb
    rw [held_pair d (by decide)]
    isplitl [Ha2]; · iexact Ha2
    iexact Hv3
  iintro ⟨Hb, Hheld⟩
  rw [wp_ret]; imodintro
  ihave Hh := (Entails.of_eq (held_op2 m d)) $$ Hheld
  icases Hh with ⟨Ha2, Hv3⟩
  -- the TensorCore region
  ihave Hst1 := (Entails.of_eq (show ((K (F := F)).tcSt EH d ((0 : Fin 1).val + 1) : sProp 𝕄) = (K (F := F)).tcSt EH d 1 from rfl)) $$ Hst
  ihave Hst' := (tcSt_owes (F := F) P d) $$ Hst1
  icases Hst' with ⟨⟨%W, %hW, HO⟩, Hback⟩
  ihave Hlev := (SparseCore.Cfg.ctx_levAts (K := K (F := F)) κ) $$ Hctx
  iapply (hregion d W _) $$ [Hlev Hb Hv2 Hv3 Ha3 Hv4 HO HG Ha0 Ha1 Ha2 Hv0 Hv1 Hv5 Hback]
  isplitl [Ha0 Ha1 Ha2 Hv0 Hv1 Hv5 Hback]
  · iintro ⟨Hb, ⟨Hv2, Hv3, Ha3⟩, ⟨%out, %hout, Hv4⟩, %W', %hW', HO⟩
    -- the result's transpose
    iapply (wp_hlo_within 𝒱 (SparseCore.T d) none Set.univ (op := op3 (F := F)) (S := ({v4', v5'} : Finset (DevRef τ sig))) op3_sub (V := V5 m d out)) $$ [Hb Hv4 Hv5]
    · isplitl [Hb]; · iexact Hb
      rw [held_V5]
      isplitl [Hv4]; · iexact Hv4
      iexact Hv5
    iintro ⟨Hb, Hheld⟩
    rw [wp_ret]; imodintro; imodintro
    ihave Hh := (Entails.of_eq (held_op3 m d out)) $$ Hheld
    icases Hh with ⟨Hv4, Hv5⟩
    isplitl [Hback HO]
    · iapply Hback
      iexists W'; isplitr
      · ipureintro; exact fun p hp => (hW' p hp).elim (hW p) (fun h => by rw [h]; exact Nat.zero_le _)
      · iexact HO
    isplitl [Ha0]; · iexact Ha0
    isplitl [Ha1]; · iexact Ha1
    isplitl [Ha2]; · iexact Ha2
    isplitl [Ha3]; · iexact Ha3
    iexists out; isplitr
    · ipureintro; exact hout
    · iexact Hv5
  isplitl [Hb]; · iexact Hb
  isplitl [Hv2 Hv3 Ha3 Hv4 HO]
  · isplitl [Hv2 Hv3 Ha3]
    · isplitl [Hv2]; · iexact Hv2
      isplitl [Hv3]; · iexact Hv3
      iexact Ha3
    isplitl [Hv4]; · iexists _; iexact Hv4
    iexact HO
  isplitl [Hlev]; · iexact Hlev
  iexact HG

/-! ## The launch element: the handshakes' rounds, the staging cells' rounds, counters at their unit -/

def u₀ : UU :=
  (initOf (K (F := F)).hsCells (K (F := F)).hsToks,
    (initOf (Pipeline.cells (nD := nD) (τ := τ) cfgs Gen.cellOf_inj) (Pipeline.launchToks (nD := nD) (τ := τ) cfgs Gen.cellOf_inj), 1))

omit [FloatOps F] [Named F] in
theorem bigSep_emp' {I : Type} (s : Finset I) : (bigSep s fun _ => iprop(emp)) = (iprop(emp) : sProp 𝕄) := bigSep_emp_const s

omit [FloatOps F] [Named F] in
theorem EP_eq (x : UP) : ((Emb.inl : Emb UP (UP × Counters)).trans (embR : Emb (UP × Counters) (MM F))) x = EP (F := F) x := rfl

theorem ghost_deal :
    iprop((bigSep Finset.univ fun c : Dev nD => bigSep Finset.univ fun p : Fin 1 => Pipeline.cellsGhost cfgs (EP (F := F)) p c)
        ∗ (bigSep Finset.univ fun c : Dev nD => bigSep Finset.univ fun p : Fin 1 => (Pipeline.toksInit cfgs (EP (F := F)) p c : sProp 𝕄)))
      ⊢ bigSep Finset.univ fun d : Dev nD => G (F := F) d := by
  rw [bigSep_congr (fun c _ => bigSep_univ_of_subsingleton (0 : Fin 1)), bigSep_congr (fun c _ => bigSep_univ_of_subsingleton (0 : Fin 1)), ← bigSep_sep']

theorem hu₀ (hx : ∀ q thr, P.x q thr = iprop(emp)) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => P.x q thr) := by
  unfold u₀
  iintro Hu
  ihave H := (ownU_pair _ _) $$ Hu
  icases H with ⟨HH, HR⟩
  ihave HR' := (own_pair_emb embR _ _) $$ HR
  icases HR' with ⟨HP, -⟩
  ihave HP' := (Entails.of_eq (congrArg BI.own (EP_eq (F := F) _))) $$ HP
  imod (Pipeline.fund_ghost (nD := nD) (τ := τ) cfgs (EP (F := F)) Gen.cellOf_inj) $$ HP' with Hg
  imodintro
  isplitl [HH]; · iexact HH
  isplitl [Hg]; · iapply ghost_deal; iexact Hg
  simp only [hx]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What the final memory holds -/

def fq (d : Dev nD) (s' : Phys nD τ sig (Elt F)) : Prop :=
  s'.mem.mem (locOf d main_arg0) = m (locOf d main_arg0) ∧ s'.mem.mem (locOf d main_arg1) = m (locOf d main_arg1)
    ∧ s'.mem.mem (locOf d main_arg2) = m (locOf d main_arg2) ∧ s'.mem.mem (locOf d main_arg3) = m (locOf d main_arg3)
    ∧ ∃ out, Cert.Spec.IsOut (tileF (F := F)) (vA m d) (vW m d) (vB m d) out ∧ s'.mem.mem (locOf d main_v5) = tr3 (F := F) out

theorem hfin (d : Dev nD) (s' : Phys nD τ sig (Elt F)) : iprop(FIN m d ∗ SI s') ⊢ (⌜fq m d s'⌝ : sProp 𝕄) := by
  iintro ⟨⟨Ha0, Ha1, Ha2, Ha3, %out, %hout, Hv5⟩, HSI⟩
  icombine HSI Ha0 gives %h0
  icombine HSI Ha1 gives %h1
  icombine HSI Ha2 gives %h2
  icombine HSI Ha3 gives %h3
  icombine HSI Hv5 gives %h5
  ipureintro
  exact ⟨funext fun i => h0 i (Finset.mem_univ i), funext fun i => h1 i (Finset.mem_univ i), funext fun i => h2 i (Finset.mem_univ i),
    funext fun i => h3 i (Finset.mem_univ i), out, hout, funext fun i => h5 i (Finset.mem_univ i)⟩

/-! ## The program's run -/

/-- The run's postcondition: on every device the four arguments as launched, and the result the transpose of an array that
    is, tile by tile, the tile function of blocks agreeing with the transposed weights and the bias. -/
def QC : PUnit × MemSt nD τ sig (Elt F) → Prop := fun r => ∀ c : Dev nD,
  r.2.mem (locOf c main_arg0) = m (locOf c main_arg0) ∧ r.2.mem (locOf c main_arg1) = m (locOf c main_arg1)
    ∧ r.2.mem (locOf c main_arg2) = m (locOf c main_arg2) ∧ r.2.mem (locOf c main_arg3) = m (locOf c main_arg3)
    ∧ ∃ out, Cert.Spec.IsOut (tileF (F := F)) (vA m c) (vW m c) (vB m c) out ∧ r.2.mem (locOf c main_v5) = tr3 (F := F) out

theorem run_main [∀ e, Nonempty (Elt F e)] [P.IsStorable] (hx : ∀ q thr, P.x q thr = iprop(emp)) (hheld : P.held = ∅)
    (hst : ∀ d, ST m d ⊢ bigSep Finset.univ fun c : Fin ((K (F := F)).nCore 0) => P.st 0 d c)
    (hdn : ∀ d, (bigSep Finset.univ fun c : Fin ((K (F := F)).nCore 0) => P.dn 0 d c) ⊢ DN m d)
    (htile : (K (F := F)).TileObl (D (F := F)) 𝒱 P v₀ 0) (hvec : (K (F := F)).VecSplit' P 0)
    (hregion : ∀ (d : Dev nD) (W : Waits sig (HIx 1)) (Φ : PUnit → sProp 𝕄),
      iprop((iprop(boundary (SparseCore.T d) ∗ RPOST m d W) -∗ Φ ⟨⟩) ∗ boundary (SparseCore.T d) ∗ RPRE m d W
          ∗ levAts (K (F := F)).L (K (F := F)).lev ∗ G d)
        ⊢ wp frame (wpE ((K (F := F)).defs (Pipeline.defs pcfgs defs₀)) 𝒱₀.lift (SparseCore.T d) none) Set.univ
            (Prog.lift (.customCall (SparseCore.inner (Pipeline.entry (0 : Fin 1))) ())) Φ) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => SparseCore.Cfg.VecSplit.of_plain hvec)
    m ρ main (fun d => G (F := F) d) (FIN m) (u₀ (F := F)) (sep_elim_left.trans (hu₀ P hx)) (hmain m ρ P hst hdn hregion) (fq m) (hfin m) (QC m) (fun _ h => h) (hheld := hheld)

end MainProof

end Cert.KernelIdeal.Main

end
-- ==== Proof.ScPay.lean ====
/-
  The SparseCore call's payloads. The call takes the transposed index array `[20, 1024]`, the transposed table
  `[64, 100000]` and the result `[64, 1024]` from the TensorCore and brings them back, the result holding the scaled
  context sums. Vector subcore number `2 s + c` (task `s` of SparseCore `c`) reads the whole index array, and rows `2 (2 s + c)` and
  `2 (2 s + c) + 1` of the table, and writes the same two rows of the result. So the index array goes out as read shares
  (a half to each SparseCore, sixteen read tokens of the half to its tasks), the table as its sixty-four rows, the
  result as its thirty-two row pairs; each task hands its pair back holding the ONE whole-array function at those rows,
  so the pairs join into the whole result at that function.
-/
import proofs.«204125_g1194000908950_cont_fleet_528_33_alg».proof.Proof.Common
import Idealize.ShloMosaic.Lib.Transfers
import Idealize.ShloMosaic.Lib.Writes

noncomputable section

namespace Cert.KernelIdeal.ScCall

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

/-! ## The call's operands and result, as the TensorCore names them -/

abbrev iLoc (d : Dev nD) : Loc nD τ sig := (SparseCore.T d).loc main_v0
abbrev eLoc (d : Dev nD) : Loc nD τ sig := (SparseCore.T d).loc main_v1
abbrev oLoc (d : Dev nD) : Loc nD τ sig := (SparseCore.T d).loc main_v2

/-- The scale the sums are multiplied by: the named constant one twentieth. -/
abbrev scale : F .f32 := Named.named κ "inv_20" (φ := .f32) 0x3D4CCCCD#32

/-- What the call leaves in its result: the scaled context sums of the transposed table's rows. -/
abbrev res (vI : (d : Dev nD) → Buf (Elt F) (iLoc d)) (vE : (d : Dev nD) → Buf (Elt F) (eLoc d)) (d : Dev nD) : Buf (Elt F) (oLoc d) :=
  Cert.Spec.avgT (scale (F := F)) (vI d) (vE d)

/-! ## Which rows go to which task

Task `s` of SparseCore `c` is vector subcore number `2 s + c`; it reads rows `2 (2 s + c)` and `2 (2 s + c) + 1` of the table and writes
the same two rows of the result. -/

theorem hdivO : 32 ∣ S64x1024.size 0 := ⟨2, rfl⟩
theorem hdivE : 64 ∣ S64x100000.size 0 := ⟨1, rfl⟩

def wid (c : Fin 2) (s : Fin 16) : Fin 32 := ⟨2 * s.val + c.val, by omega⟩
def erow (c : Fin 2) (s : Fin 16) (k : Fin 2) : Fin 64 := ⟨2 * (2 * s.val + c.val) + k.val, by omega⟩

/-- The two rows of the result that are vector subcore number `2 s + c`'s. -/
abbrev oSet (c : Fin 2) (s : Fin 16) : Finset S64x1024.Idx := (Rect.part (s := S64x1024) (a₀ := 0) hdivO (wid c s)).set
/-- Row `2 (2 s + c) + k` of the table. -/
abbrev eSet (c : Fin 2) (s : Fin 16) (k : Fin 2) : Finset S64x100000.Idx := (Rect.part (s := S64x100000) (a₀ := 0) hdivE (erow c s k)).set

theorem wid_inj {c c' : Fin 2} {s s' : Fin 16} (h : wid c s = wid c' s') : c = c' ∧ s = s' := by
  have h' : 2 * s.val + c.val = 2 * s'.val + c'.val := congrArg Fin.val h
  exact ⟨Fin.ext (by omega), Fin.ext (by omega)⟩
theorem wid_surj (j : Fin 32) : ∃ (c : Fin 2) (s : Fin 16), wid c s = j :=
  ⟨⟨j.val % 2, by omega⟩, ⟨j.val / 2, by omega⟩, Fin.ext (by show 2 * (j.val / 2) + j.val % 2 = j.val; omega)⟩
theorem erow_inj {c c' : Fin 2} {s s' : Fin 16} {k k' : Fin 2} (h : erow c s k = erow c' s' k') : c = c' ∧ s = s' ∧ k = k' := by
  have h' : 2 * (2 * s.val + c.val) + k.val = 2 * (2 * s'.val + c'.val) + k'.val := congrArg Fin.val h
  exact ⟨Fin.ext (by omega), Fin.ext (by omega), Fin.ext (by omega)⟩
theorem erow_surj (j : Fin 64) : ∃ (c : Fin 2) (s : Fin 16) (k : Fin 2), erow c s k = j :=
  ⟨⟨j.val / 2 % 2, by omega⟩, ⟨j.val / 4, by omega⟩, ⟨j.val % 2, by omega⟩,
    Fin.ext (by show 2 * (2 * (j.val / 4) + j.val / 2 % 2) + j.val % 2 = j.val; omega)⟩

/-! ## The parts of the result and of the table -/

omit [FloatOps F] [Named F] in
theorem oSets_disjoint : ∀ p ∈ (Finset.univ : Finset (Fin 2 × Fin 16)), ∀ p' ∈ (Finset.univ : Finset (Fin 2 × Fin 16)), p ≠ p' →
    Disjoint (oSet p.1 p.2) (oSet p'.1 p'.2) :=
  fun p _ p' _ h => Rect.part_disjoint hdivO fun e => h (Prod.ext (wid_inj e).1 (wid_inj e).2)
omit [FloatOps F] [Named F] in
theorem oSets_cover : (Finset.univ : Finset (Fin 2 × Fin 16)).biUnion (fun p => oSet p.1 p.2) = Finset.univ :=
  Finset.eq_univ_iff_forall.mpr fun i => by
    obtain ⟨j, hj⟩ := Rect.exists_mem_part hdivO i
    obtain ⟨c, s, rfl⟩ := wid_surj j
    exact Finset.mem_biUnion.mpr ⟨(c, s), Finset.mem_univ _, hj⟩
omit [FloatOps F] [Named F] in
theorem eSets_disjoint : ∀ p ∈ (Finset.univ : Finset (Fin 2 × Fin 16 × Fin 2)), ∀ p' ∈ (Finset.univ : Finset (Fin 2 × Fin 16 × Fin 2)), p ≠ p' →
    Disjoint (eSet p.1 p.2.1 p.2.2) (eSet p'.1 p'.2.1 p'.2.2) :=
  fun p _ p' _ h => Rect.part_disjoint hdivE fun e => h (Prod.ext (erow_inj e).1 (Prod.ext (erow_inj e).2.1 (erow_inj e).2.2))
omit [FloatOps F] [Named F] in
theorem eSets_cover : (Finset.univ : Finset (Fin 2 × Fin 16 × Fin 2)).biUnion (fun p => eSet p.1 p.2.1 p.2.2) = Finset.univ :=
  Finset.eq_univ_iff_forall.mpr fun i => by
    obtain ⟨j, hj⟩ := Rect.exists_mem_part hdivE i
    obtain ⟨c, s, k, rfl⟩ := erow_surj j
    exact Finset.mem_biUnion.mpr ⟨(c, s, k), Finset.mem_univ _, hj⟩

omit [FloatOps F] [Named F] in
/-- The result held whole is its thirty-two row pairs, SparseCore by SparseCore and task by task. -/
theorem oPts_parts (d : Dev nD) (q : PosShare TreeShare) (f : Buf (Elt F) (oLoc d)) :
    (oLoc d ↦{q} f : sProp 𝕄) = bigSep Finset.univ fun c : Fin 2 => bigSep Finset.univ fun s : Fin 16 => oLoc d ↦[oSet c s]{q} f := by
  rw [← bigSep_univ_prod (fun p : Fin 2 × Fin 16 => (oLoc d ↦[oSet p.1 p.2]{q} f : sProp 𝕄)),
    ← pointsTo_biUnion Finset.univ (ℓ := oLoc d) (fun p : Fin 2 × Fin 16 => oSet p.1 p.2) oSets_disjoint, oSets_cover]
omit [FloatOps F] [Named F] in
/-- The table held whole is its sixty-four rows, SparseCore by SparseCore, task by task and row by row of the task's two. -/
theorem ePts_parts (d : Dev nD) (q : PosShare TreeShare) (f : Buf (Elt F) (eLoc d)) :
    (eLoc d ↦{q} f : sProp 𝕄)
      = bigSep Finset.univ fun c : Fin 2 => bigSep Finset.univ fun s : Fin 16 => bigSep Finset.univ fun k : Fin 2 => eLoc d ↦[eSet c s k]{q} f := by
  rw [show (bigSep Finset.univ fun c : Fin 2 => bigSep Finset.univ fun s : Fin 16 => bigSep Finset.univ fun k : Fin 2 => (eLoc d ↦[eSet c s k]{q} f : sProp 𝕄))
      = bigSep Finset.univ fun c : Fin 2 => bigSep Finset.univ fun p : Fin 16 × Fin 2 => (eLoc d ↦[eSet c p.1 p.2]{q} f : sProp 𝕄) from
    bigSep_congr fun c _ => (bigSep_univ_prod (fun p : Fin 16 × Fin 2 => (eLoc d ↦[eSet c p.1 p.2]{q} f : sProp 𝕄))).symm,
    ← bigSep_univ_prod (fun p : Fin 2 × Fin 16 × Fin 2 => (eLoc d ↦[eSet p.1 p.2.1 p.2.2]{q} f : sProp 𝕄)),
    ← pointsTo_biUnion Finset.univ (ℓ := eLoc d) (fun p : Fin 2 × Fin 16 × Fin 2 => eSet p.1 p.2.1 p.2.2) eSets_disjoint, eSets_cover]

/-! ## The read shares of the index array -/

/-- SparseCore `c`'s share of the index array: a half each. -/
def coreShare (c : Fin 2) : PosShare TreeShare := if c = 0 then fullShare.left else fullShare.right
/-- Task `s` of SparseCore `c`'s share: one of sixteen read tokens of the SparseCore's half. -/
abbrev tileShare (c : Fin 2) (s : Fin 16) : PosShare TreeShare := Transfers.shareTok (coreShare c) 16 s

omit [FloatOps F] [Named F] in
theorem iPts_cores (d : Dev nD) (f : Buf (Elt F) (iLoc d)) :
    (iLoc d ↦{fullShare} f : sProp 𝕄) ⊣⊢ bigSep Finset.univ fun c : Fin 2 => iLoc d ↦{coreShare c} f := by
  rw [bigSep_univ_two]
  exact pointsTo_share (PosShare.mem_left_op_right fullShare)

/-! ## What the handshakes carry -/

variable (vI : (d : Dev nD) → Buf (Elt F) (iLoc d)) (vE : (d : Dev nD) → Buf (Elt F) (eLoc d))

/-- A task's two rows of the table. -/
abbrev eRows (d : Dev nD) (c : Fin 2) (s : Fin 16) : sProp 𝕄 := bigSep Finset.univ fun k : Fin 2 => eLoc d ↦[eSet c s k]{fullShare} vE d

/-- What a task is handed: a read share of the index array, its two rows of the table, its two rows of the result. -/
def goT (d : Dev nD) (c : Fin 2) (s : Fin 16) : sProp 𝕄 :=
  iprop((iLoc d ↦{tileShare c s} vI d) ∗ eRows vE d c s ∗ ∃ f, oLoc d ↦[oSet c s]{fullShare} f)
/-- What it hands back: the same, its rows of the result at the call's value. -/
def tdT (d : Dev nD) (c : Fin 2) (s : Fin 16) : sProp 𝕄 :=
  iprop((iLoc d ↦{tileShare c s} vI d) ∗ eRows vE d c s ∗ oLoc d ↦[oSet c s]{fullShare} res vI vE d)
/-- What a SparseCore is handed: its half share of the index array, its tasks' rows of the table and of the result. -/
def stC (d : Dev nD) (c : Fin 2) : sProp 𝕄 :=
  iprop((iLoc d ↦{coreShare c} vI d) ∗ (bigSep Finset.univ fun s : Fin 16 => eRows vE d c s) ∗ bigSep Finset.univ fun s : Fin 16 => iprop(∃ f, oLoc d ↦[oSet c s]{fullShare} f))
def dnC (d : Dev nD) (c : Fin 2) : sProp 𝕄 :=
  iprop((iLoc d ↦{coreShare c} vI d) ∗ (bigSep Finset.univ fun s : Fin 16 => eRows vE d c s) ∗ bigSep Finset.univ fun s : Fin 16 => oLoc d ↦[oSet c s]{fullShare} res vI vE d)

/-- The call's payloads; the kernel's proof consumes nothing of the launch's ghost state. -/
def P : (K (F := F)).Pay (nD := nD) (Val := Elt F) (Name := ℕ) (U := UU) where
  st := fun q d c => match q with | 0 => stC vI vE d c
  dn := fun q d c => match q with | 0 => dnC vI vE d c
  go := fun q d c s => match q with | 0 => goT vI vE d c s
  td := fun q d c s => match q with | 0 => tdT vI vE d c s
  x := fun _ _ => iprop(emp)

theorem P_st (d : Dev nD) (c : Fin ((K (F := F)).nCore 0)) : (P vI vE).st 0 d c = stC vI vE d c := rfl
theorem P_dn (d : Dev nD) (c : Fin ((K (F := F)).nCore 0)) : (P vI vE).dn 0 d c = dnC vI vE d c := rfl
theorem P_go (d : Dev nD) (c : Fin ((K (F := F)).nCore 0)) (s : Fin ((K (F := F)).nSub 0)) : (P vI vE).go 0 d c s = goT vI vE d c s := rfl
theorem P_td (d : Dev nD) (c : Fin ((K (F := F)).nCore 0)) (s : Fin ((K (F := F)).nSub 0)) : (P vI vE).td 0 d c s = tdT vI vE d c s := rfl
theorem P_x (q : Fin 1) (thr : Thread nD τ) : (P vI vE).x q thr = iprop(emp) := rfl

instance P_storable : (P (F := F) vI vE).IsStorable where
  st q d c := match q with | 0 => by rw [P_st]; unfold stC; infer_instance
  dn q d c := match q with | 0 => by rw [P_dn]; unfold dnC; infer_instance
  go q d c s := match q with | 0 => by rw [P_go]; unfold goT; infer_instance
  td q d c s := match q with | 0 => by rw [P_td]; unfold tdT; infer_instance

/-! ## The call's operands split among the SparseCores and their tasks, and the result gathered back -/

/-- What @main hands the call, split between the two SparseCores. -/
theorem st_of (d : Dev nD) :
    iprop((iLoc d ↦{fullShare} vI d) ∗ (eLoc d ↦{fullShare} vE d) ∗ ∃ f, oLoc d ↦{fullShare} f)
      ⊢ bigSep Finset.univ fun c : Fin ((K (F := F)).nCore 0) => (P vI vE).st 0 d c := by
  show _ ⊢ bigSep (Finset.univ : Finset (Fin 2)) fun c => stC vI vE d c
  unfold stC
  rw [bigSep_sep', bigSep_sep']
  iintro ⟨Hi, He, %f, Ho⟩
  isplitl [Hi]; · iapply (iPts_cores d (vI d)).1; iexact Hi
  isplitl [He]; · iapply (Entails.of_eq (ePts_parts d fullShare (vE d))); iexact He
  have hone : ∀ (c : Fin 2) (s : Fin 16), (oLoc d ↦[oSet c s]{fullShare} f : sProp 𝕄) ⊢ iprop(∃ f, oLoc d ↦[oSet c s]{fullShare} f) :=
    fun c s => by iintro H; iexists f; iexact H
  have hmono : (bigSep Finset.univ fun c : Fin 2 => bigSep Finset.univ fun s : Fin 16 => (oLoc d ↦[oSet c s]{fullShare} f : sProp 𝕄))
      ⊢ bigSep Finset.univ fun c : Fin 2 => bigSep Finset.univ fun s : Fin 16 => iprop(∃ f, oLoc d ↦[oSet c s]{fullShare} f) :=
    bigSep_mono fun c _ => bigSep_mono fun s _ => hone c s
  iapply hmono
  iapply (Entails.of_eq (oPts_parts d fullShare f)); iexact Ho

/-- What the two SparseCores hand back, joined: the operands whole again and the result whole at the call's value. -/
theorem dn_to (d : Dev nD) :
    (bigSep Finset.univ fun c : Fin ((K (F := F)).nCore 0) => (P vI vE).dn 0 d c)
      ⊢ iprop((iLoc d ↦{fullShare} vI d) ∗ (eLoc d ↦{fullShare} vE d) ∗ oLoc d ↦{fullShare} res vI vE d) := by
  show (bigSep (Finset.univ : Finset (Fin 2)) fun c => dnC vI vE d c) ⊢ _
  unfold dnC
  rw [bigSep_sep', bigSep_sep']
  iintro ⟨Hi, He, Ho⟩
  isplitl [Hi]; · iapply (iPts_cores d (vI d)).2; iexact Hi
  isplitl [He]; · iapply (Entails.of_eq (ePts_parts d fullShare (vE d)).symm); iexact He
  iapply (Entails.of_eq (oPts_parts d fullShare (res vI vE d)).symm); iexact Ho

/-- A SparseCore's operands split among its sixteen tasks (the index array by read tokens, the remainder of the
    SparseCore's share kept aside meanwhile), and their results gathered. -/
theorem vecSplit : (K (F := F)).VecSplit' (P vI vE) 0 := by
  intro d c
  show stC vI vE d c ⊢ |={Set.univ}=> iprop((bigSep (Finset.univ : Finset (Fin 16)) fun s => goT vI vE d c s)
    ∗ ((bigSep (Finset.univ : Finset (Fin 16)) fun s => tdT vI vE d c s) -∗ dnC vI vE d c))
  unfold stC dnC goT tdT
  rw [bigSep_sep', bigSep_sep', bigSep_sep', bigSep_sep']
  iintro ⟨Hi, He, Ho⟩
  ihave Hi' := (Transfers.pointsTo_toks_split (coreShare c) 16) $$ Hi
  icases Hi' with ⟨Hrem, Htoks⟩
  imodintro
  isplitl [Htoks He Ho]
  · isplitl [Htoks]; · iexact Htoks
    isplitl [He]; · iexact He
    iexact Ho
  iintro ⟨Htoks, He, Ho⟩
  isplitl [Hrem Htoks]
  · iapply (Transfers.pointsTo_toks_join (coreShare c) 16)
    isplitl [Hrem]; · iexact Hrem
    iexact Htoks
  isplitl [He]; · iexact He
  iexact Ho

end Cert.KernelIdeal.ScCall
end
-- ==== Proof.PreIdx.lean ====
/-
  What the precondition says of the index words, at any float instance.

  The printed predicate is a conjunction: each float argument finite everywhere, and every index word between 0 and
  99999 as a signed number. Its last conjunct is a reduction by `and`, over every entry, of "0 ≤ word and word ≤ 99999";
  where the whole predicate is 1 that reduction is 1, so every entry's two comparisons are 1. A 32-bit word between 0
  and 99999 as a signed number is below 100000 as an unsigned one.
-/
import proofs.«204125_g1194000908950_cont_fleet_528_33_alg».proof.Pre_input_domain
import Idealize.ShloMosaic.Lib.ReduceAll
import Idealize.ShloMosaic.Lib.ValueIdx

namespace Cert.Pre_input_domain

open Idealize.ShloMosaic

variable [Cert.Pre_input_domain.Facts]

/-- Where the predicate holds, every index word names a row of the table. -/
theorem idx_of_pre {F : FTy → Type} [FloatOps F] (inputs : IVec S1024x20 32) (emb w : FVec F S100000x64 .f32)
    (bias : FVec F S100000 .f32) (h : Cert.Pre_input_domain.fn (F := F) inputs emb w bias = fun _ => 1#1) :
    ∀ i, (inputs i).toNat < 100000 ∧ 0 ≤ (inputs i).toInt := by
  intro i
  haveI : Subsingleton S_.Idx := ⟨fun a b => funext fun d => d.elim0⟩
  obtain ⟨-, hall⟩ := IntOp.andi_eq_one.1 (congrFun h ValueIdx.ix0)
  obtain ⟨hge, hle⟩ := IntOp.andi_eq_one.1 (Host.reduce_andi_all _ _ _ _ _ hall i)
  have h0 : (0#32 : BitVec 32).toInt ≤ (inputs i).toInt := IntOp.cmpi_sge.1 hge
  have h1 : (inputs i).toInt ≤ (99999#32 : BitVec 32).toInt := IntOp.cmpi_sle.1 hle
  rw [show (0#32 : BitVec 32).toInt = 0 from by decide] at h0
  rw [show (99999#32 : BitVec 32).toInt = 99999 from by decide] at h1
  refine ⟨?_, h0⟩
  rw [BitVec.toInt_eq_toNat_cond] at h0 h1
  have := (inputs i).isLt
  split at h1 <;> omega

end Cert.Pre_input_domain
-- ==== Proof.Run.lean ====
/-
  The whole program's run from the two kernels' records: the vector-subcore call's payloads are the ones stated with
  the call, the index words it gathers at are in range by the precondition (a transpose only re-indexes them), and what
  remains open here is named as two hypotheses — the task's obligation and the TensorCore region's line.
-/
import proofs.«204125_g1194000908950_cont_fleet_528_33_alg».proof.Proof.Main
import proofs.«204125_g1194000908950_cont_fleet_528_33_alg».proof.Proof.ScPay
import proofs.«204125_g1194000908950_cont_fleet_528_33_alg».proof.Proof.PreIdx
import proofs.«204125_g1194000908950_cont_fleet_528_33_alg».proof.Proof.Gen.Pre_input_domain

noncomputable section

namespace Cert.KernelIdeal.Run

open Cert.KernelIdeal Cert.KernelIdeal.Gen Cert.KernelIdeal.Common Cert.KernelIdeal.Main

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MM F

variable (m : (ℓ : Loc nD τ sig) → Buf (Elt F) ℓ) (ρ : Dev nD → PrngReg)

/-- The precondition, as a statement about the launch memory at any float instance. -/
def PreOK : Prop := ∀ c : Dev nD,
  Cert.Pre_input_domain.fn (F := F) (m (locOf c main_arg0)) (m (locOf c main_arg1)) (m (locOf c main_arg2)) (m (locOf c main_arg3)) = (fun _ => 1#1)

/-- Every index word the first kernel gathers at names a column of the table: the transposed index array holds the
    argument's words. -/
theorem hin_vI (hpre : PreOK m) : ∀ d i, (vI m d i).toNat < 100000 :=
  fun d _ => (Cert.Pre_input_domain.idx_of_pre (F := F) _ _ _ _ (hpre d) _).1

theorem run_of [∀ e, Nonempty (Elt F e)]
    (htile : (K (F := F)).TileObl (D (F := F)) 𝒱 (ScCall.P (vI m) (vE m)) v₀ 0)
    (hregion : ∀ (d : Dev nD) (W : Waits sig (HIx 1)) (Φ : PUnit → sProp 𝕄),
      iprop((iprop(boundary (SparseCore.T d) ∗ RPOST m d W) -∗ Φ ⟨⟩) ∗ boundary (SparseCore.T d) ∗ RPRE m d W
          ∗ levAts (K (F := F)).L (K (F := F)).lev ∗ G d)
        ⊢ wp frame (wpE ((K (F := F)).defs (Pipeline.defs pcfgs defs₀)) 𝒱₀.lift (SparseCore.T d) none) Set.univ
            (Prog.lift (.customCall (SparseCore.inner (Pipeline.entry (0 : Fin 1))) ())) Φ) :
    θ_run (Cert.KernelIdeal.defs (F := F)) (Cert.KernelIdeal.threads (F := F)) ⟨m, fun _ => 0, ρ⟩ (QC m) :=
  run_main m ρ (ScCall.P (vI m) (vE m)) (fun _ _ => rfl) rfl (fun d => ScCall.st_of (vI m) (vE m) d) (fun d => ScCall.dn_to (vI m) (vE m) d)
    htile (ScCall.vecSplit (vI m) (vE m)) hregion

end Cert.KernelIdeal.Run

end
-- ==== Proof.ScVal.lean ====
/-
  Two readings the vector-subcore kernel's proof uses, with no program run in them.

  The averaged look-ups at an index, on index words inside the table: the twenty table entries added from the left,
  written out, times the scale. And a row of the transposed table read through the kernel's own view of it — the
  one-row slice at the row a subcore's place and the row's number name, its leading unit axis dropped — is that row.
-/
import proofs.«204125_g1194000908950_cont_fleet_528_33_alg».proof.Proof.Common

noncomputable section

namespace Cert.KernelIdeal.ScCall

open Cert.KernelIdeal Cert.KernelIdeal.Gen Idealize.ShloMosaic Idealize.ShloMosaic.ValueIdx

variable {F : FTy → Type} [FloatOps F] [Named F]

/-- The sum of twenty terms, from the left. -/
def sum20 (g : Fin 20 → F .f32) : F .f32 :=
  FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (g 0) (g 1)) (g 2)) (g 3)) (g 4)) (g 5)) (g 6)) (g 7)) (g 8)) (g 9)) (g 10)) (g 11)) (g 12)) (g 13)) (g 14)) (g 15)) (g 16)) (g 17)) (g 18)) (g 19)

/-- The fold over the nineteen later positions from the first term is that sum. -/
theorem foldl_eq_sum20 (g : Fin 20 → F .f32) :
    (List.finRange 19).foldl (fun acc t => FloatOps.addf acc (g ⟨t.val + 1, by omega⟩)) (g ⟨0, by decide⟩) = sum20 g := by
  have hl : List.finRange 19 = [0, 1, 2, 3, 4, 5, 6, 7, 8, 9, 10, 11, 12, 13, 14, 15, 16, 17, 18] := by decide
  rw [hl]
  rfl

/-- The averaged look-ups at an index, on index words inside the table. -/
theorem avgT_apply (sc : F .f32) (idxT : IVec Cert.Spec.SIdxT 32) (et : FVec F Cert.Spec.SEt .f32)
    (hin : ∀ i, (idxT i).toNat < 100000) (row : Fin 64) (b : Fin 1024) :
    Cert.Spec.avgT sc idxT et (ix2 row b)
      = FloatOps.mulf (sum20 fun t => et (ix2 row ⟨(idxT (ix2 t b)).toNat, hin (ix2 t b)⟩)) sc := by
  have hrow : ∀ t : Fin 20, Cert.Spec.rowAt et row (idxT (ix2 t b)) = et (ix2 row ⟨(idxT (ix2 t b)).toNat, hin (ix2 t b)⟩) :=
    fun t => dif_pos (hin (ix2 t b))
  show FloatOps.mulf (Cert.Spec.sumCtx idxT et row b) sc = _
  refine congrArg (fun s => FloatOps.mulf s sc) ?_
  unfold Cert.Spec.sumCtx
  simp only [hrow]
  exact foldl_eq_sum20 fun t => et (ix2 row ⟨(idxT (ix2 t b)).toNat, hin (ix2 t b)⟩)

/-- A one-row slice of a two-axis array at row `row`, its leading unit axis dropped, reads that row. -/
theorem row_read {sig : RefSig} {κ : Kind} {sp : Space} {n m : ℕ} {Val : EltTy → Type} {e : EltTy}
    (M : Memref sig κ sp ⟨2, ![n, m]⟩ e) (off : Fin 2 → ℕ) (row : Fin n) (h : off = ![row.val, 0])
    (inb : ∀ a, off a + (⟨2, ![1, m]⟩ : Shape).size a ≤ (⟨2, ![n, m]⟩ : Shape).size a) (hr)
    (hq : (⟨2, ![1, m]⟩ : Shape).Squeezes ⟨1, ![m]⟩) (f : M.view.ty.Contents Val) (x : Fin m) :
    ((M.slice (Rect.unit (s := ⟨2, ![n, m]⟩) off (⟨2, ![1, m]⟩ : Shape).size inb) hr).squeeze ⟨1, ![m]⟩ hq).view.read Val f (ix1 x)
      = M.view.read Val f (ix2 row x) := by
  subst h
  have h1 : ((M.slice (Rect.unit (s := ⟨2, ![n, m]⟩) ![row.val, 0] (⟨2, ![1, m]⟩ : Shape).size inb) hr).squeeze ⟨1, ![m]⟩ hq).view.read Val f (ix1 x)
      = M.view.read Val f ((Rect.unit (s := ⟨2, ![n, m]⟩) ![row.val, 0] (⟨2, ![1, m]⟩ : Shape).size inb).emb
          (Shape.reshapeEquiv hq.numel_eq (ix1 x))) := rfl
  rw [h1, Shape.reshapeEquiv_cons_one]
  congr 1
  funext a
  apply Fin.ext
  rw [Rect.emb_apply]
  match a with
  | ⟨0, _⟩ => show row.val + 1 * 0 = row.val; omega
  | ⟨1, _⟩ => show 0 + 1 * x.val = x.val; omega

/-- A subcore's place and a row's number name one of the sixty-four rows. -/
theorem row_lt (L : grid0.Coords) (r : Fin 2) : 4 * (L 1).val + 2 * (L 0).val + r.val < 64 := by
  have h1 : (L 1).val < 16 := (L 1).isLt
  have h0 : (L 0).val < 2 := (L 0).isLt
  have := r.isLt
  omega

/-- The kernel's view of row `r` of a subcore's two rows of the transposed table reads that row of the table. -/
theorem eRow_read (L : grid0.Coords) (r : Fin 2) (f : FVec F S64x100000 .f32) (x : Fin 100000) :
    ((((Memref.whole main_v1_scv : Memref sig .scVector .hbm S64x100000 .f32).slice
        (Rect.unit (s := S64x100000) (k0_off1 L (BitVec.ofNat 32 r.val)) S1x100000.size (k0_off1_inb L r)) (fun _ => rfl)).squeeze
        S100000 squeezes_S1x100000_S100000).view.read (Elt F) f) (ix1 x)
      = f (ix2 (⟨4 * (L 1).val + 2 * (L 0).val + r.val, row_lt L r⟩ : Fin 64) x) :=
  (row_read (Val := Elt F) (Memref.whole main_v1_scv : Memref sig .scVector .hbm S64x100000 .f32)
    (k0_off1 L (BitVec.ofNat 32 r.val)) ⟨4 * (L 1).val + 2 * (L 0).val + r.val, row_lt L r⟩ (k0_off1_eq L r) (k0_off1_inb L r)
    (fun _ => rfl) squeezes_S1x100000_S100000 f x).trans rfl

end Cert.KernelIdeal.ScCall

end
-- ==== Proof.ScTile.lean ====
/-
  The vector-subcore task of the SparseCore call, at any place `(c, s)` of its grid. Vector subcore number `2 s + c` copies the whole
  transposed index array into its index scratch; then, for each of its two rows `2 (2 s + c) + r` of the transposed table,
  copies the row into its row scratch and, in sixty-four trips of sixteen columns each, loads the sixteen index words of
  each of the twenty context positions, gathers the row scratch at them, adds the twenty gathered vectors from the left,
  multiplies by the scale and stores the sixteen lanes into row `r` of its result scratch; finally it copies the result
  scratch out to rows `2 (2 s + c)`, `2 (2 s + c) + 1` of the result.

  The index words are below the table's width (the hypothesis `hin`), so every check of a gather's indices passes.
  Each loop's invariant carries the VALUE: before trip `k` the result scratch's row holds, at the columns below `16 k`,
  the scaled left-to-right sum of the row scratch at the column's twenty index words (`laneVal`); a trip's store is read
  back entry by entry (`acc_write`). After both loops the scratch, read through the task's view of its two result rows,
  is the call's value there (`lane_res`: the averaged look-ups written out, the fetched row read through the task's
  one-row view), so the rows go back holding the ONE whole-array function.
-/
import proofs.«204125_g1194000908950_cont_fleet_528_33_alg».proof.Proof.ScPay
import proofs.«204125_g1194000908950_cont_fleet_528_33_alg».proof.Proof.ScVal
import Idealize.ShloMosaic.Lib.ValueLayout
import Idealize.ShloMosaic.Lib.Transfers
import Idealize.ShloMosaic.Lib.Writes

noncomputable section

namespace Cert.KernelIdeal.ScCall

open Cert.KernelIdeal Cert.KernelIdeal.Gen Cert.KernelIdeal.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
open Idealize.ShloMosaic.ValueIdx

local notation "𝕄" => MM F

/-- What a trip leaves at column `b` of the result scratch: the row scratch read at the twenty index words of column `b`,
    summed from the left, times the scale. -/
def laneVal (fI : IVec S20x1024 32) (fR : FVec F S100000 .f32) (hI : ∀ i, (fI i).toNat < 100000) (b : Fin 1024) : F .f32 :=
  FloatOps.mulf (sum20 fun t => fR (ix1 (⟨(fI (ix2 t b)).toNat, hI _⟩ : Fin 100000))) (scale (F := F))

/-! ## The task's thread, memrefs and cells -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

abbrev iV : Memref sig .scVector .hbm S20x1024 .i32 := Memref.whole main_v0_scv
abbrev eV : Memref sig .scVector .hbm S64x100000 .f32 := Memref.whole main_v1_scv
abbrev oV : Memref sig .scVector .hbm S64x1024 .f32 := Memref.whole main_v2_scv
/-- A task's scratch: the fetched table row, the fetched index array, the two result rows. -/
abbrev rowV : Memref sig .scVector .vmem S100000 .f32 := Memref.whole cc0_scratch0
abbrev idxV : Memref sig .scVector .vmem S20x1024 .i32 := Memref.whole cc0_scratch1
abbrev accV : Memref sig .scVector .vmem S2x1024 .f32 := Memref.whole cc0_scratch2

/-- Row `2 (2 s + c) + r` of the table as the task slices it. -/
abbrev eRowK (L : grid0.Coords) (r : Fin 2) : Memref sig .scVector .hbm S100000 .f32 :=
  ((eV : Memref sig .scVector .hbm S64x100000 .f32).slice (Rect.unit (s := S64x100000) (k0_off1 L (BitVec.ofNat 32 r.val)) S1x100000.size (k0_off1_inb L r)) (fun _ => rfl)).squeeze S100000 squeezes_S1x100000_S100000
/-- The task's two rows of the result as it slices them. -/
abbrev oRowK (L : grid0.Coords) : Memref sig .scVector .hbm S2x1024 .f32 :=
  (oV : Memref sig .scVector .hbm S64x1024 .f32).slice (Rect.unit (s := S64x1024) (k0_off44 L) S2x1024.size (k0_off44_inb L)) (fun _ => rfl)

abbrev cell3 (d : Dev nD) (c : Fin τ.nSC) (i : Fin τ.nSub) : GSem nD τ sig := (V d c i, .dma cc0_scratch3.sem)
abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)

/-- One store of sixteen lanes into the result scratch, read back at any entry: the lane under the store, else what
    was there. -/
theorem acc_write (f : FVec F S2x1024 .f32) (off : Fin 2 → ℕ) (r' : Fin 2) (k : ℕ) (hk : k < 64) (hoff : off = ![r'.val, 16 * k])
    (inb : ∀ a, off a + S1x16.size a ≤ S2x1024.size a) (w : S1x16.Idx → F .f32) (a : Fin 2) (b : Fin 1024) :
    (accV : Memref sig .scVector .vmem S2x1024 .f32).view.writes (Elt F) f [⟨Rect.unit (s := S2x1024) off S1x16.size inb, w⟩] (ix2 a b)
      = if h : a = r' ∧ 16 * k ≤ b.val ∧ b.val < 16 * k + 16 then w (ix2 (0 : Fin 1) ⟨b.val - 16 * k, by omega⟩) else f (ix2 a b) := by
  subst hoff
  split
  · next h =>
    obtain ⟨rfl, h1, h2⟩ := h
    have e : ix2 a b = (Rect.unit (s := S2x1024) ![a.val, 16 * k] S1x16.size inb).emb (ix2 (0 : Fin 1) ⟨b.val - 16 * k, by omega⟩) := by
      funext i
      match i with
      | 0 => exact Fin.ext (by simp [ix2])
      | 1 => exact Fin.ext (by simp [ix2]; omega)
    rw [e]
    exact View.read_writes_cons_emb (Val := Elt F) (v := (accV : Memref sig .scVector .vmem S2x1024 .f32).view) f
      (Rect.unit (s := S2x1024) ![a.val, 16 * k] S1x16.size inb) w [] (ix2 (0 : Fin 1) ⟨b.val - 16 * k, by omega⟩)
  · next h =>
    refine View.read_writes_apply_of_forall_not_mem (Val := Elt F) (v := (accV : Memref sig .scVector .vmem S2x1024 .f32).view) f (ix2 a b)
      [⟨Rect.unit (s := S2x1024) ![r'.val, 16 * k] S1x16.size inb, w⟩] ?_
    intro p hp
    rw [List.mem_singleton] at hp; subst hp
    rw [Rect.mem_set_unit]
    intro hm
    have h0 := hm 0
    have h1 := hm 1
    simp [ix2] at h0 h1
    exact h ⟨Fin.ext (by omega), by omega, by omega⟩

/-- A gather of the row scratch at the sixteen index words of context position `t`, columns `16 k ‥ 16 k + 15`, read at
    lane `x`: the row scratch at the word of column `16 k + x`. -/
theorem gather_word (fI : IVec S20x1024 32) (fR : FVec F S100000 .f32) (hI : ∀ i, (fI i).toNat < 100000)
    (off : Fin 2 → ℕ) (t : Fin 20) (k : ℕ) (hk : k < 64) (hoff : off = ![t.val, 16 * k])
    (inb : ∀ a, off a + S1x16.size a ≤ S20x1024.size a)
    (h : ∀ a x, ((![shapeCast S16 ((idxV : Memref sig .scVector .vmem S20x1024 .i32).view.readAt (Elt F) (Rect.unit (s := S20x1024) off S1x16.size inb).toLoadRect fI) shapeCasts_S1x16_S16] : Fin 1 → IVec S16 32) a x).toNat < S100000.size a)
    (x : Fin 16) :
    loadIdx (View.read (Elt F) ((rowV : Memref sig .scVector .vmem S100000 .f32).access (Rect.whole S100000)) fR)
        ![shapeCast S16 ((idxV : Memref sig .scVector .vmem S20x1024 .i32).view.readAt (Elt F) (Rect.unit (s := S20x1024) off S1x16.size inb).toLoadRect fI) shapeCasts_S1x16_S16] h (ix1 x)
      = fR (ix1 (⟨(fI (ix2 t ⟨16 * k + x.val, by have := x.isLt; omega⟩)).toNat, hI _⟩ : Fin 100000)) := by
  subst hoff
  have hw : shapeCast S16 ((idxV : Memref sig .scVector .vmem S20x1024 .i32).view.readAt (Elt F) (Rect.unit (s := S20x1024) ![t.val, 16 * k] S1x16.size inb).toLoadRect fI) shapeCasts_S1x16_S16 (ix1 x)
      = fI (ix2 t ⟨16 * k + x.val, by have := x.isLt; omega⟩) := by
    rw [shapeCast_1a_a_apply]
    show fI ((Rect.unit (s := S20x1024) ![t.val, 16 * k] S1x16.size inb).toLoadRect.idx (ix2 (0 : Fin 1) x)) = _
    congr 1
    funext i
    match i with
    | 0 => exact Fin.ext (by simp [ix2])
    | 1 => exact Fin.ext (by simp [ix2])
  rw [show View.read (Elt F) ((rowV : Memref sig .scVector .vmem S100000 .f32).access (Rect.whole S100000)) fR = fR from
    Memref.read_access_whole (Elt F) cc0_scratch0 fR]
  show fR (idxAt _ h (ix1 x)) = _
  congr 1
  funext a
  obtain rfl : a = 0 := Subsingleton.elim _ _
  refine Fin.ext ?_
  have hw' := congrArg (fun v : BitVec 32 => v.toNat) hw
  exact hw'

/-! ## What the loops have done before trip `k` -/

/-- Before trip `k` of the first loop: row 0 of the result scratch holds the lane values at the columns below `16 k`. -/
def Done1 (fI : IVec S20x1024 32) (fR0 : FVec F S100000 .f32) (hI : ∀ i, (fI i).toNat < 100000) (k : ℕ) (f : FVec F S2x1024 .f32) : Prop :=
  ∀ b : Fin 1024, b.val < 16 * k → f (ix2 (0 : Fin 2) b) = laneVal fI fR0 hI b
/-- Before trip `k` of the second loop: row 0 whole, row 1 at the columns below `16 k`. -/
def Done2 (fI : IVec S20x1024 32) (fR0 fR1 : FVec F S100000 .f32) (hI : ∀ i, (fI i).toNat < 100000) (k : ℕ) (f : FVec F S2x1024 .f32) : Prop :=
  (∀ b : Fin 1024, f (ix2 (0 : Fin 2) b) = laneVal fI fR0 hI b) ∧ ∀ b : Fin 1024, b.val < 16 * k → f (ix2 (1 : Fin 2) b) = laneVal fI fR1 hI b

theorem done1_step (fI : IVec S20x1024 32) (fR0 : FVec F S100000 .f32) (hI : ∀ i, (fI i).toNat < 100000)
    (k : Fin k0_t1_loop.trips) (f : FVec F S2x1024 .f32) (w : S1x16.Idx → F .f32) (hD : Done1 fI fR0 hI k.val f)
    (hw : ∀ x : Fin 16, w (ix2 (0 : Fin 1) x) = laneVal fI fR0 hI ⟨16 * k.val + x.val, by have := k.isLt; have := x.isLt; have := k0_t1_abs.2.1; omega⟩) :
    Done1 fI fR0 hI (k.val + 1) ((accV : Memref sig .scVector .vmem S2x1024 .f32).view.writes (Elt F) f [⟨Rect.unit (s := S2x1024) (k0_off22 k) S1x16.size (k0_off22_inb k), w⟩]) := by
  have hk : k.val < 64 := lt_of_lt_of_le k.isLt k0_t1_abs.2.1
  intro b hb
  rw [acc_write f (k0_off22 k) 0 k.val hk (k0_off22_eq k) (k0_off22_inb k) w 0 b]
  split
  · next h =>
    rw [hw ⟨b.val - 16 * k.val, by omega⟩]
    congr 1
    exact Fin.ext (by show 16 * k.val + (b.val - 16 * k.val) = b.val; omega)
  · next h =>
    exact hD b (by have : ¬(16 * k.val ≤ b.val ∧ b.val < 16 * k.val + 16) := fun h' => h ⟨rfl, h'⟩; omega)

theorem done2_step (fI : IVec S20x1024 32) (fR0 fR1 : FVec F S100000 .f32) (hI : ∀ i, (fI i).toNat < 100000)
    (k : Fin k0_t2_loop.trips) (f : FVec F S2x1024 .f32) (w : S1x16.Idx → F .f32) (hD : Done2 fI fR0 fR1 hI k.val f)
    (hw : ∀ x : Fin 16, w (ix2 (0 : Fin 1) x) = laneVal fI fR1 hI ⟨16 * k.val + x.val, by have := k.isLt; have := x.isLt; have := k0_t2_abs.2.1; omega⟩) :
    Done2 fI fR0 fR1 hI (k.val + 1) ((accV : Memref sig .scVector .vmem S2x1024 .f32).view.writes (Elt F) f [⟨Rect.unit (s := S2x1024) (k0_off43 k) S1x16.size (k0_off43_inb k), w⟩]) := by
  have hk : k.val < 64 := lt_of_lt_of_le k.isLt k0_t2_abs.2.1
  refine ⟨fun b => ?_, fun b hb => ?_⟩
  · rw [acc_write f (k0_off43 k) 1 k.val hk (k0_off43_eq k) (k0_off43_inb k) w 0 b, dif_neg (fun h => absurd h.1 (by decide))]
    exact hD.1 b
  · rw [acc_write f (k0_off43 k) 1 k.val hk (k0_off43_eq k) (k0_off43_inb k) w 1 b]
    split
    · next h =>
      rw [hw ⟨b.val - 16 * k.val, by omega⟩]
      congr 1
      exact Fin.ext (by show 16 * k.val + (b.val - 16 * k.val) = b.val; omega)
    · next h =>
      exact hD.2 b (by have : ¬(16 * k.val ≤ b.val ∧ b.val < 16 * k.val + 16) := fun h' => h ⟨rfl, h'⟩; omega)

section Tile

variable (d : Dev nD) (L : grid0.Coords)

omit [FloatOps F] [Named F] in
theorem ownSems0_V :
    (ownSems0 (V d (cV L) (jV L)) : sProp 𝕄)
      = iprop(semVal (cell3 d (cV L) (jV L)) 0 ∗ semVal (cell0 d (cV L) (jV L)) 0 ∗ semVal (cell1 d (cV L) (jV L)) 0
          ∗ bigSep ((((ownCells (V d (cV L) (jV L))).erase (cell3 d (cV L) (jV L))).erase (cell0 d (cV L) (jV L))).erase (cell1 d (cV L) (jV L)))
              fun g => semVal g 0) := by
  unfold SparseCore.Cfg.ownSems0
  rw [SparseCore.bigSep_erase' ((mem_ownCells (g := cell3 d (cV L) (jV L))).mpr ⟨rfl, by
      show (SemLoc.dma cc0_scratch3.sem : SemLoc sig).isScoped .scVector = true; decide⟩),
    SparseCore.bigSep_erase' (Finset.mem_erase.mpr ⟨by simp [cell3, cell0]; decide, (mem_ownCells (g := cell0 d (cV L) (jV L))).mpr ⟨rfl, by
      show (SemLoc.dma cc0_scoped0.sem : SemLoc sig).isScoped .scVector = true; decide⟩⟩),
    SparseCore.bigSep_erase' (Finset.mem_erase.mpr ⟨by simp [cell0, cell1]; decide, Finset.mem_erase.mpr ⟨by simp [cell3, cell1]; decide,
      (mem_ownCells (g := cell1 d (cV L) (jV L))).mpr ⟨rfl, by show (SemLoc.dma cc0_scoped1.sem : SemLoc sig).isScoped .scVector = true; decide⟩⟩⟩)]

omit [FloatOps F] [Named F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] [Named F] in
theorem rectE_eq (r : Fin 2) : Rect.unit (s := S64x100000) (k0_off1 L (BitVec.ofNat 32 r.val)) S1x100000.size (k0_off1_inb L r)
    = Rect.part (s := S64x100000) (a₀ := 0) hdivE (erow (cL L) (sL L) r) := by
  unfold Rect.part Rect.block
  congr 1 <;> funext a
  · rw [k0_off1_eq]
    match a with
    | 0 => simp [Shape.partIx, Shape.partSize, erow]; omega
    | 1 => simp [Shape.partIx, Shape.partSize]
  · match a with
    | 0 => simp [Shape.partSize]
    | 1 => simp [Shape.partSize]
omit [FloatOps F] [Named F] in
theorem rectO_eq : Rect.unit (s := S64x1024) (k0_off44 L) S2x1024.size (k0_off44_inb L)
    = Rect.part (s := S64x1024) (a₀ := 0) hdivO (wid (cL L) (sL L)) := by
  unfold Rect.part Rect.block
  congr 1 <;> funext a
  · rw [k0_off44_eq]
    match a with
    | 0 => simp [Shape.partIx, Shape.partSize, wid]; omega
    | 1 => simp [Shape.partIx, Shape.partSize]
  · match a with
    | 0 => simp [Shape.partSize]
    | 1 => simp [Shape.partSize]

omit [FloatOps F] [Named F] in
theorem set_eRowK (r : Fin 2) : (eRowK L r).view.set = eSet (cL L) (sL L) r := by
  show (((View.whole (main_v1_scv : Ref sig .scVector)).slice (Rect.unit (s := S64x100000) (k0_off1 L (BitVec.ofNat 32 r.val)) S1x100000.size (k0_off1_inb L r))).reshape S100000 squeezes_S1x100000_S100000.numel_eq).set = _
  rw [View.set_reshape, View.set_slice]
  exact Finset.map_refl.trans (congrArg (fun R : Rect S64x100000 => R.set) (rectE_eq L r))
omit [FloatOps F] [Named F] in
theorem set_oRowK : (oRowK L).view.set = oSet (cL L) (sL L) := by
  show ((View.whole (main_v2_scv : Ref sig .scVector)).slice (Rect.unit (s := S64x1024) (k0_off44 L) S2x1024.size (k0_off44_inb L))).set = _
  rw [View.set_slice]
  exact Finset.map_refl.trans (congrArg (fun R : Rect S64x1024 => R.set) (rectO_eq L))

omit [FloatOps F] [Named F] in
theorem pts_eRowK (r : Fin 2) (q : PosShare TreeShare) (f : Buf (Elt F) (eLoc d)) :
    ((eRowK L r).view.loc (V d (cV L) (jV L)) ↦[(eRowK L r).view.set]{q} f : sProp 𝕄) = eLoc d ↦[eSet (cL L) (sL L) r]{q} f := by
  rw [set_eRowK]
omit [FloatOps F] [Named F] in
theorem pts_oRowK (q : PosShare TreeShare) (f : Buf (Elt F) (oLoc d)) :
    ((oRowK L).view.loc (V d (cV L) (jV L)) ↦[(oRowK L).view.set]{q} f : sProp 𝕄) = oLoc d ↦[oSet (cL L) (sL L)]{q} f := by
  rw [set_oRowK]
omit [FloatOps F] [Named F] in
theorem pts_iV (q : PosShare TreeShare) (f : Buf (Elt F) (iLoc d)) :
    ((iV : Memref sig .scVector .hbm S20x1024 .i32).view.loc (V d (cV L) (jV L)) ↦{q} f : sProp 𝕄) = iLoc d ↦{q} f := rfl
omit [FloatOps F] [Named F] in
theorem pts_rowV (f : Buf (Elt F) ((V d (cV L) (jV L)).loc cc0_scratch0)) :
    ((rowV : Memref sig .scVector .vmem S100000 .f32).view.loc (V d (cV L) (jV L)) ↦{fullShare} f : sProp 𝕄) = (V d (cV L) (jV L)).loc cc0_scratch0 ↦{fullShare} f := rfl
omit [FloatOps F] [Named F] in
theorem pts_idxV (f : Buf (Elt F) ((V d (cV L) (jV L)).loc cc0_scratch1)) :
    ((idxV : Memref sig .scVector .vmem S20x1024 .i32).view.loc (V d (cV L) (jV L)) ↦{fullShare} f : sProp 𝕄) = (V d (cV L) (jV L)).loc cc0_scratch1 ↦{fullShare} f := rfl
omit [FloatOps F] [Named F] in
theorem pts_accV (f : Buf (Elt F) ((V d (cV L) (jV L)).loc cc0_scratch2)) :
    ((accV : Memref sig .scVector .vmem S2x1024 .f32).view.loc (V d (cV L) (jV L)) ↦{fullShare} f : sProp 𝕄) = (V d (cV L) (jV L)).loc cc0_scratch2 ↦{fullShare} f := rfl
omit [FloatOps F] [Named F] in
theorem pts_rowV_access (f : Buf (Elt F) ((V d (cV L) (jV L)).loc cc0_scratch0)) :
    (((rowV : Memref sig .scVector .vmem S100000 .f32).access (.whole S100000)).loc (V d (cV L) (jV L)) ↦{fullShare} f : sProp 𝕄) = (V d (cV L) (jV L)).loc cc0_scratch0 ↦{fullShare} f := rfl

variable (vI : (d : Dev nD) → Buf (Elt F) (iLoc d)) (vE : (d : Dev nD) → Buf (Elt F) (eLoc d))

/-- The thread of the task at grid point `L` of device `d`. -/
abbrev thr : Thread nD τ := V d (cV L) (jV L)

theorem hin_thr (hin : ∀ d i, (vI d i).toNat < 100000) : ∀ i : S20x1024.Idx, ((vI d : IVec S20x1024 32) i).toNat < 100000 := fun i => hin d i

/-- What the first loop holds before trip `k`: the index scratch and the row scratch at fixed contents, the result scratch at some. -/
def inv1 (fI : Buf (Elt F) ((thr d L).loc cc0_scratch1)) (fR : Buf (Elt F) ((thr d L).loc cc0_scratch0))
    (Done : ℕ → Buf (Elt F) ((thr d L).loc cc0_scratch2) → Prop) (k : Nat) (_ : PUnit) : sProp 𝕄 :=
  iprop(((idxV : Memref sig .scVector .vmem S20x1024 .i32).view.loc (thr d L) ↦{fullShare} fI)
    ∗ (((rowV : Memref sig .scVector .vmem S100000 .f32).access (.whole S100000)).loc (thr d L) ↦{fullShare} fR)
    ∗ ∃ f, ((accV : Memref sig .scVector .vmem S2x1024 .f32).view.loc (thr d L) ↦{fullShare} f) ∗ ⌜Done k f⌝)

set_option hygiene false in
/-- One gather of the row scratch at the index words just loaded, then the run on to the next one. -/
local macro "gather_step" : tactic => `(tactic| (
  iapply (SparseCore.wp_vectorLoadIdx 𝒱₀ (thr d L) none Set.univ (base := (rowV : Memref sig .scVector .vmem S100000 .f32)) (S := Finset.univ) (q := fullShare) (Finset.subset_univ _)) $$ Hrow
  iintro Hrow
  sl_exec (disch := (intro a x; obtain rfl : a = 0 := Subsingleton.elim _ _; exact hI _))))

set_option maxHeartbeats 8000000 in
/-- Loop 1's region at trip `k`: twenty index loads, checks and gathers, summed from the left and scaled, stored into the
    result scratch's row 0 at columns `16 k ‥ 16 k + 15`; the invariant's fact about the result scratch goes from `k` to
    `k + 1` by `hstep`. -/
theorem region1 (fI : Buf (Elt F) ((thr d L).loc cc0_scratch1)) (fR : Buf (Elt F) ((thr d L).loc cc0_scratch0))
    (hI : ∀ i, (fI i).toNat < 100000) (Done : ℕ → Buf (Elt F) ((thr d L).loc cc0_scratch2) → Prop)
    (hstep : ∀ (k : Fin k0_t1_loop.trips) (f : Buf (Elt F) ((thr d L).loc cc0_scratch2)) (w : S1x16.Idx → F .f32), Done k.val f →
      (∀ x : Fin 16, w (ix2 (0 : Fin 1) x) = laneVal fI fR hI ⟨16 * k.val + x.val, by have := k.isLt; have := x.isLt; have := (k0_t1_abs).2.1; omega⟩) →
      Done (k.val + 1) ((accV : Memref sig .scVector .vmem S2x1024 .f32).view.writes (Elt F) f [⟨Rect.unit (s := S2x1024) (k0_off22 k) S1x16.size (k0_off22_inb k), w⟩]))
    (k : Fin k0_t1_loop.trips) (acc : Unit) :
    inv1 d L fI fR Done k.val acc
      ⊢ wp frame (wpE (defs₀ (F := F)) 𝒱₀ (thr d L) none) Set.univ
          (k0_t1_body L iV (Memref.isWhole_whole _) eV (Memref.isWhole_whole _) oV (Memref.isWhole_whole _)
            rowV (Memref.isWhole_whole _) idxV (Memref.isWhole_whole _) accV (Memref.isWhole_whole _) cc0_scratch3 cc0_scoped0 cc0_scoped1 k acc)
          (inv1 d L fI fR Done (k.val + 1)) := by
  unfold inv1 k0_t1_body
  iintro ⟨Hidx, Hrow, %f, Hacc, %hD⟩
  sl_exec (disch := (intro a x; obtain rfl : a = 0 := Subsingleton.elim _ _; exact hI _))
  gather_step; gather_step; gather_step; gather_step; gather_step
  gather_step; gather_step; gather_step; gather_step; gather_step
  gather_step; gather_step; gather_step; gather_step; gather_step
  gather_step; gather_step; gather_step; gather_step; gather_step
  sl_step
  isplitl [Hidx]; · iexact Hidx
  isplitl [Hrow]; · iexact Hrow
  iexists _
  isplitl [Hacc]; · iexact Hacc
  ipureintro
  refine hstep k f _ hD fun x => ?_
  have hk : k.val < 64 := lt_of_lt_of_le k.isLt (k0_t1_abs).2.1
  sl_unfold_run_names
  rw [shapeCast_a_1a_apply]
  simp only [k0_pay1, k0_pay2, k0_pay5, laneVal, sum20, Idealize.ShloMosaic.mulf, Idealize.ShloMosaic.addf, broadcast]
  rw [gather_word fI fR hI _ 0 k.val hk (k0_off2_eq k),
    gather_word fI fR hI _ 1 k.val hk (k0_off3_eq k),
    gather_word fI fR hI _ 2 k.val hk (k0_off4_eq k),
    gather_word fI fR hI _ 3 k.val hk (k0_off5_eq k),
    gather_word fI fR hI _ 4 k.val hk (k0_off6_eq k),
    gather_word fI fR hI _ 5 k.val hk (k0_off7_eq k),
    gather_word fI fR hI _ 6 k.val hk (k0_off8_eq k),
    gather_word fI fR hI _ 7 k.val hk (k0_off9_eq k),
    gather_word fI fR hI _ 8 k.val hk (k0_off10_eq k),
    gather_word fI fR hI _ 9 k.val hk (k0_off11_eq k),
    gather_word fI fR hI _ 10 k.val hk (k0_off12_eq k),
    gather_word fI fR hI _ 11 k.val hk (k0_off13_eq k),
    gather_word fI fR hI _ 12 k.val hk (k0_off14_eq k),
    gather_word fI fR hI _ 13 k.val hk (k0_off15_eq k),
    gather_word fI fR hI _ 14 k.val hk (k0_off16_eq k),
    gather_word fI fR hI _ 15 k.val hk (k0_off17_eq k),
    gather_word fI fR hI _ 16 k.val hk (k0_off18_eq k),
    gather_word fI fR hI _ 17 k.val hk (k0_off19_eq k),
    gather_word fI fR hI _ 18 k.val hk (k0_off20_eq k),
    gather_word fI fR hI _ 19 k.val hk (k0_off21_eq k)]

set_option maxHeartbeats 8000000 in
/-- Loop 2's region at trip `k`: twenty index loads, checks and gathers, summed from the left and scaled, stored into the
    result scratch's row 1 at columns `16 k ‥ 16 k + 15`; the invariant's fact about the result scratch goes from `k` to
    `k + 1` by `hstep`. -/
theorem region2 (fI : Buf (Elt F) ((thr d L).loc cc0_scratch1)) (fR : Buf (Elt F) ((thr d L).loc cc0_scratch0))
    (hI : ∀ i, (fI i).toNat < 100000) (Done : ℕ → Buf (Elt F) ((thr d L).loc cc0_scratch2) → Prop)
    (hstep : ∀ (k : Fin k0_t2_loop.trips) (f : Buf (Elt F) ((thr d L).loc cc0_scratch2)) (w : S1x16.Idx → F .f32), Done k.val f →
      (∀ x : Fin 16, w (ix2 (0 : Fin 1) x) = laneVal fI fR hI ⟨16 * k.val + x.val, by have := k.isLt; have := x.isLt; have := (k0_t2_abs).2.1; omega⟩) →
      Done (k.val + 1) ((accV : Memref sig .scVector .vmem S2x1024 .f32).view.writes (Elt F) f [⟨Rect.unit (s := S2x1024) (k0_off43 k) S1x16.size (k0_off43_inb k), w⟩]))
    (k : Fin k0_t2_loop.trips) (acc : Unit) :
    inv1 d L fI fR Done k.val acc
      ⊢ wp frame (wpE (defs₀ (F := F)) 𝒱₀ (thr d L) none) Set.univ
          (k0_t2_body L iV (Memref.isWhole_whole _) eV (Memref.isWhole_whole _) oV (Memref.isWhole_whole _)
            rowV (Memref.isWhole_whole _) idxV (Memref.isWhole_whole _) accV (Memref.isWhole_whole _) cc0_scratch3 cc0_scoped0 cc0_scoped1 k acc)
          (inv1 d L fI fR Done (k.val + 1)) := by
  unfold inv1 k0_t2_body
  iintro ⟨Hidx, Hrow, %f, Hacc, %hD⟩
  sl_exec (disch := (intro a x; obtain rfl : a = 0 := Subsingleton.elim _ _; exact hI _))
  gather_step; gather_step; gather_step; gather_step; gather_step
  gather_step; gather_step; gather_step; gather_step; gather_step
  gather_step; gather_step; gather_step; gather_step; gather_step
  gather_step; gather_step; gather_step; gather_step; gather_step
  sl_step
  isplitl [Hidx]; · iexact Hidx
  isplitl [Hrow]; · iexact Hrow
  iexists _
  isplitl [Hacc]; · iexact Hacc
  ipureintro
  refine hstep k f _ hD fun x => ?_
  have hk : k.val < 64 := lt_of_lt_of_le k.isLt (k0_t2_abs).2.1
  sl_unfold_run_names
  rw [shapeCast_a_1a_apply]
  simp only [k0_pay3, k0_pay4, k0_pay6, laneVal, sum20, Idealize.ShloMosaic.mulf, Idealize.ShloMosaic.addf, broadcast]
  rw [gather_word fI fR hI _ 0 k.val hk (k0_off23_eq k),
    gather_word fI fR hI _ 1 k.val hk (k0_off24_eq k),
    gather_word fI fR hI _ 2 k.val hk (k0_off25_eq k),
    gather_word fI fR hI _ 3 k.val hk (k0_off26_eq k),
    gather_word fI fR hI _ 4 k.val hk (k0_off27_eq k),
    gather_word fI fR hI _ 5 k.val hk (k0_off28_eq k),
    gather_word fI fR hI _ 6 k.val hk (k0_off29_eq k),
    gather_word fI fR hI _ 7 k.val hk (k0_off30_eq k),
    gather_word fI fR hI _ 8 k.val hk (k0_off31_eq k),
    gather_word fI fR hI _ 9 k.val hk (k0_off32_eq k),
    gather_word fI fR hI _ 10 k.val hk (k0_off33_eq k),
    gather_word fI fR hI _ 11 k.val hk (k0_off34_eq k),
    gather_word fI fR hI _ 12 k.val hk (k0_off35_eq k),
    gather_word fI fR hI _ 13 k.val hk (k0_off36_eq k),
    gather_word fI fR hI _ 14 k.val hk (k0_off37_eq k),
    gather_word fI fR hI _ 15 k.val hk (k0_off38_eq k),
    gather_word fI fR hI _ 16 k.val hk (k0_off39_eq k),
    gather_word fI fR hI _ 17 k.val hk (k0_off40_eq k),
    gather_word fI fR hI _ 18 k.val hk (k0_off41_eq k),
    gather_word fI fR hI _ 19 k.val hk (k0_off42_eq k)]

/-- The lane value over the fetched index array and the fetched row `2 (2 s + c) + r` of the table is the call's value
    at that row. -/
theorem lane_res (hin : ∀ d i, (vI d i).toNat < 100000) (r : Fin 2) (b : Fin 1024) :
    laneVal (vI d) ((eRowK L r).view.read (Elt F) (vE d)) (hin_thr d vI hin) b
      = res vI vE d (ix2 (⟨4 * (L 1).val + 2 * (L 0).val + r.val, row_lt L r⟩ : Fin 64) b) := by
  unfold laneVal res
  rw [avgT_apply (scale (F := F)) (vI d) (vE d) (hin_thr d vI hin) _ b]
  refine congrArg (fun z => FloatOps.mulf z (scale (F := F))) (congrArg sum20 (funext fun t => ?_))
  exact eRow_read L r (vE d) _

omit [FloatOps F] [Named F] in
/-- Where the task's view of its two result rows puts entry `(a, b)`. -/
theorem oRowK_emb (a : Fin 2) (b : Fin 1024) :
    (oRowK L).view.emb (ix2 a b) = ix2 (⟨4 * (L 1).val + 2 * (L 0).val + a.val, row_lt L a⟩ : Fin 64) b := by
  show (Rect.unit (s := S64x1024) (k0_off44 L) S2x1024.size (k0_off44_inb L)).emb (ix2 a b) = _
  funext i
  match i with
  | 0 => exact Fin.ext (by simp [ix2, k0_off44_eq])
  | 1 => exact Fin.ext (by simp [ix2, k0_off44_eq])

omit [FloatOps F] [Named F] in
/-- A view's elements after one write of the whole view's shape are the view's elements of any contents that read as
    the payload through the view. -/
theorem pts_writes_whole_congr {sp : Space} {s : Shape} {e : EltTy} (c : Thread nD τ) (v : View sig c.2.kind sp s e) (q : PosShare TreeShare)
    (f g : Buf (Elt F) (v.loc c)) (X : s.Idx → Elt F e) (h : ∀ j, v.read (Elt F) g j = X j) :
    (v.loc c ↦[v.set]{q} v.writes (Elt F) f [⟨Rect.whole s, X⟩] : sProp 𝕄) = v.loc c ↦[v.set]{q} g :=
  pointsTo_congr fun i hi => by
    obtain ⟨j, -, rfl⟩ := Finset.mem_map.mp hi
    have h1 := View.read_writes_cons_emb (Val := Elt F) (v := v) f (Rect.whole s) X [] j
    rw [Rect.emb_whole_apply] at h1
    have h2 := h j
    rw [View.read_apply] at h1 h2
    have key : ∀ {α β : Type} (hh : α = β) (a b : α), cast hh a = cast hh b → a = b := by
      intro α β hh a b hab; subst hh; exact hab
    exact key _ _ _ (h1.trans h2.symm)

/-- The call's value, read through the task's view of its two result rows, is the result scratch after both loops. -/
theorem out_rows (hin : ∀ d i, (vI d i).toNat < 100000) (f2 : FVec F S2x1024 .f32)
    (hD2 : Done2 (vI d) ((eRowK L 0).view.read (Elt F) (vE d)) ((eRowK L 1).view.read (Elt F) (vE d)) (hin_thr d vI hin) 64 f2)
    (X : S2x1024.Idx → F .f32) (hX : X = f2) :
    ∀ j, (oRowK L).view.read (Elt F) (res vI vE d) j = X j := by
  subst hX
  intro j
  obtain ⟨a, b, rfl⟩ : ∃ (a : Fin 2) (b : Fin 1024), j = ix2 a b := ⟨j 0, j 1, ValueIdx.eq_ix2 j⟩
  show res vI vE d ((oRowK L).view.emb (ix2 a b)) = X (ix2 a b)
  rw [oRowK_emb]
  have h01 : a = (0 : Fin 2) ∨ a = (1 : Fin 2) := by
    have := a.isLt
    rcases Nat.lt_or_ge a.val 1 with h | h
    · exact .inl (Fin.ext (by show a.val = 0; omega))
    · exact .inr (Fin.ext (by show a.val = 1; omega))
  rcases h01 with rfl | rfl
  · rw [hD2.1 b]; exact (lane_res d L vI vE hin 0 b).symm
  · rw [hD2.2 b (by have := b.isLt; omega)]; exact (lane_res d L vI vE hin 1 b).symm

set_option pp.maxSteps 20000 in
set_option pp.deepTerms false in
set_option maxHeartbeats 8000000 in
theorem tile_body (hF : (K (F := F)).Facts) (hin : ∀ d i, (vI d i).toNat < 100000) (O : CellTallies nD τ sig (HIx 1)) (W : Waits sig (HIx 1)) (hO : ∀ g, O g none = 0) :
    iprop(levAts (K (F := F)).L (K (F := F)).lev ∗ emp ∗ goT vI vE d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_mean_t L iV (Memref.isWhole_whole _) eV (Memref.isWhole_whole _) oV (Memref.isWhole_whole _)
            rowV (Memref.isWhole_whole _) idxV (Memref.isWhole_whole _) accV (Memref.isWhole_whole _) cc0_scratch3 cc0_scoped0 cc0_scoped1)
          fun _ => iprop(tdT vI vE d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_mean_t_eq_skeleton]; unfold cc0_gather_mean_t_skel
  rw [(K (F := F)).scopedBufs_V hF d (cV L) (jV L), SparseCore.Cfg.scopedSems0_V (Val := Elt F) d (cV L) (jV L), ownSems0_V, ownBufs_V]
  unfold goT
  iintro ⟨#Hlv, -, ⟨Hi, He, %fo, Ho⟩, ⟨⟨%frow, Hrow⟩, ⟨%fidx, Hidx⟩, ⟨%facc, Hacc⟩, Hbufs⟩, ⟨Hs3, Hs0, Hs1, Hsems⟩, HO⟩
  ihave Hmw := ((K (F := F)).mayWaits_none (thr := V d (cV L) (jV L)) hO) $$ Hlv
  ihave He' := (Entails.of_eq (bigSep_univ_two (fun k : Fin 2 => (eLoc d ↦[eSet (cL L) (sL L) k]{fullShare} vE d : sProp 𝕄)))) $$ He
  icases He' with ⟨He0, He1⟩
  ihave He0' := (Entails.of_eq (pts_eRowK (F := F) d L 0 fullShare _).symm) $$ He0
  ihave He1' := (Entails.of_eq (pts_eRowK (F := F) d L 1 fullShare _).symm) $$ He1
  ihave Ho' := (Entails.of_eq (pts_oRowK (F := F) d L fullShare _).symm) $$ Ho
  ihave Hi' := (Entails.of_eq (pts_iV (F := F) d L _ _).symm) $$ Hi
  ihave Hrow' := (Entails.of_eq (pts_rowV (F := F) d L _).symm) $$ Hrow
  ihave Hidx' := (Entails.of_eq (pts_idxV (F := F) d L _).symm) $$ Hidx
  ihave Hacc' := (Entails.of_eq (pts_accV (F := F) d L _).symm) $$ Hacc
  -- the index array and row `2 (2 s + c)` of the table fetched
  sl_exec
  have hfI : View.write (Elt F) (idxV : Memref sig .scVector .vmem S20x1024 .i32).view fidx (tile_body.sl.dma0 d vI) Finset.univ = vI d := by
    sl_unfold_run_names
    exact View.write_whole_univ _ _ _
  have hfR0 : View.write (Elt F) (rowV : Memref sig .scVector .vmem S100000 .f32).view frow (tile_body.sl.dma0_1 d L vE) Finset.univ
      = (eRowK L 0).view.read (Elt F) (vE d) := by
    sl_unfold_run_names
    exact View.write_whole_univ _ _ _
  rw [hfI, hfR0]
  ihave Hrow'' := (Entails.of_eq ((pts_rowV (F := F) d L _).trans (pts_rowV_access (F := F) d L _).symm)) $$ Hrow'
  sl_for (inv1 d L (vI d) ((eRowK L 0).view.read (Elt F) (vE d)) (Done1 (vI d) ((eRowK L 0).view.read (Elt F) (vE d)) (hin_thr d vI hin))) $$ [Hidx' Hrow'' Hacc']
  case region =>
    exact region1 d L (vI d) ((eRowK L 0).view.read (Elt F) (vE d)) (hin_thr d vI hin) _
      (fun k f w hD hw => done1_step (vI d) _ (hin_thr d vI hin) k f w hD hw)
  · unfold inv1
    isplitl [Hidx']; · iexact Hidx'
    isplitl [Hrow'']; · iexact Hrow''
    iexists _
    isplitl [Hacc']; · iexact Hacc'
    ipureintro
    intro b hb
    exact absurd hb (by omega)
  iintro %acc1 HI
  unfold inv1
  icases HI with ⟨Hidx, Hrow, %f1, Hacc, %hD1⟩
  ihave Hrow' := (Entails.of_eq ((pts_rowV_access (F := F) d L _).trans (pts_rowV (F := F) d L _).symm)) $$ Hrow
  -- row `2 (2 s + c) + 1` of the table fetched
  sl_exec
  have hfR1 : View.write (Elt F) (rowV : Memref sig .scVector .vmem S100000 .f32).view ((eRowK L 0).view.read (Elt F) (vE d)) (tile_body.sl.dma0_2 d L vE) Finset.univ
      = (eRowK L 1).view.read (Elt F) (vE d) := by
    sl_unfold_run_names
    exact View.write_whole_univ _ _ _
  rw [hfR1]
  ihave Hrow'' := (Entails.of_eq ((pts_rowV (F := F) d L _).trans (pts_rowV_access (F := F) d L _).symm)) $$ Hrow'
  have ht1 : Scf.trips k0_t1_loop.lb k0_t1_loop.ub k0_t1_loop.st = 64 := by decide
  rw [ht1] at hD1
  sl_for (inv1 d L (vI d) ((eRowK L 1).view.read (Elt F) (vE d))
    (Done2 (vI d) ((eRowK L 0).view.read (Elt F) (vE d)) ((eRowK L 1).view.read (Elt F) (vE d)) (hin_thr d vI hin))) $$ [Hidx Hrow'' Hacc]
  case region =>
    exact region2 d L (vI d) ((eRowK L 1).view.read (Elt F) (vE d)) (hin_thr d vI hin) _
      (fun k f w hD hw => done2_step (vI d) _ _ (hin_thr d vI hin) k f w hD hw)
  · unfold inv1
    isplitl [Hidx]; · iexact Hidx
    isplitl [Hrow'']; · iexact Hrow''
    iexists _
    isplitl [Hacc]; · iexact Hacc
    ipureintro
    exact ⟨fun b => hD1 b (by have := b.isLt; omega), fun b hb => absurd hb (by omega)⟩
  iintro %acc2 HI
  unfold inv1
  icases HI with ⟨Hidx, Hrow, %f2, Hacc, %hD2⟩
  have ht2 : Scf.trips k0_t2_loop.lb k0_t2_loop.ub k0_t2_loop.st = 64 := by decide
  rw [ht2] at hD2
  -- the two result rows written out
  sl_exec
  have hX : tile_body.sl.dma0_3 d L f2 = f2 := by
    sl_unfold_run_names
    rfl
  ihave Ho2 := (Entails.of_eq (pts_writes_whole_congr (F := F) (V d (cV L) (jV L)) (oRowK L).view fullShare fo (res vI vE d) _ (out_rows d L vI vE hin f2 hD2 _ hX))) $$ Ho'
  sl_step
  unfold tdT
  isplitl [Hi' He0' He1' Ho2]
  · isplitl [Hi']; · iapply (Entails.of_eq (pts_iV (F := F) d L _ _)); iexact Hi'
    isplitl [He0' He1']
    · iapply (Entails.of_eq (bigSep_univ_two (fun k : Fin 2 => (eLoc d ↦[eSet (cL L) (sL L) k]{fullShare} vE d : sProp 𝕄))).symm)
      isplitl [He0']
      · iapply (Entails.of_eq (pts_eRowK (F := F) d L 0 fullShare _)); iexact He0'
      · iapply (Entails.of_eq (pts_eRowK (F := F) d L 1 fullShare _)); iexact He1'
    · iapply (Entails.of_eq (pts_oRowK (F := F) d L fullShare _)); iexact Ho2
  isplitl [Hidx Hrow Hacc Hbufs]
  · isplitl [Hrow]; · iexists _; iapply (Entails.of_eq (pts_rowV_access (F := F) d L _)); iexact Hrow
    isplitl [Hidx]; · iexists _; iapply (Entails.of_eq (pts_idxV (F := F) d L _)); iexact Hidx
    isplitl [Hacc]; · iexists _; iapply (Entails.of_eq (pts_accV (F := F) d L _)); iexact Hacc
    iexact Hbufs
  isplitl [Hs3 Hs0 Hs1 Hsems]
  · isplitl [Hs3]; · iexact Hs3
    isplitl [Hs0]; · iexact Hs0
    isplitl [Hs1]; · iexact Hs1
    iexact Hsems
  iexists (insert (SemLoc.dma cc0_scoped1.sem, (default : HIx 1)) (insert (SemLoc.dma cc0_scratch3.sem, (default : HIx 1))
    (insert (SemLoc.dma cc0_scratch3.sem, (default : HIx 1)) (insert (SemLoc.dma cc0_scoped0.sem, (default : HIx 1)) W)))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

/-! ## The launch theorem's obligation for the task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_mean_t (coordsV c s)
          iV (Memref.isWhole_whole _) eV (Memref.isWhole_whole _) oV (Memref.isWhole_whole _)
          rowV (Memref.isWhole_whole _) idxV (Memref.isWhole_whole _) accV (Memref.isWhole_whole _) cc0_scratch3 cc0_scoped0 cc0_scoped1) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (vI : (d : Dev nD) → Buf (Elt F) (iLoc d)) (vE : (d : Dev nD) → Buf (Elt F) (eLoc d))

/-- Every task of the call, at any place of the grid: from its operands to its results, its rows of the result at the
    call's value. -/
theorem tileObl (hin : ∀ d i, (vI d i).toNat < 100000) : (K (F := F)).TileObl (D (F := F)) 𝒱 (P vI vE) v₀ 0 := by
  intro d c i O W hO _ _
  -- this kernel owes nothing for a protocol of its own
  simp only [show (P vI vE).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) vI vE facts hin O W hO).trans (wp_mono frame _ _ fun _ => obl_post)

end Cert.KernelIdeal.ScCall
end
-- ==== Proof.RegionViews.lean ====
/-
  The views the TensorCore kernel's body moves data through, as the body itself spells them, and their geometry in
  closed form. The body at grid point i works on slot i mod 2 of its scratch [2, 3072, 1024]: it stores a whole tile
  there and copies it out to the result's rows 3072 i ‥ in six chunks of 512 rows, chunk r on semaphore (i mod 2, r).
  Each chunk's source, destination and semaphore appears in the body twice, once where the copy is started and once
  (two points later) where it is waited for, through different offset functions with the same closed form: here
  both spellings are named, the semaphores are computed, the chunks' element sets are brought to one rectangle per
  (slot, chunk), and a slot is shown to be the disjoint union of its six chunks.
-/
import proofs.«204125_g1194000908950_cont_fleet_528_33_alg».proof.Proof.Common
import Idealize.ShloMosaic.Lib.Transfers
import Idealize.ShloMosaic.Lib.Writes
import Idealize.ShloMosaic.Lib.Pipeline.FrameBody
import Idealize.ShloMosaic.Lib.Tactic

noncomputable section

namespace Cert.KernelIdeal.Region

open Cert.KernelIdeal Cert.KernelIdeal.Gen Cert.KernelIdeal.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MM F

/-! ## The views the body moves through, as the body spells them -/

abbrev V4 : Memref sig .tc .hbm S100000x1024 .f32 := Memref.whole main_v4
abbrev SCR : Memref sig .tc .vmem S2x3072x1024 .f32 := Memref.whole cc1_scratch0
abbrev thr (c : Dev nD) : Thread nD τ := (c.tc : Thread nD τ)

abbrev semW0 (i : grid1.Coords) (h : k1_cond1 i = 1#1) : DmaSem sig := ((cc1_scratch1.slice (Rect.unit (s := S2x6) (k1_off1 i) S1x1.size (k1_off1_inb i h))).squeeze S_ squeezes_S1x1_S_).sem
abbrev srcW0 (i : grid1.Coords) (h : k1_cond1 i = 1#1) : Memref sig .tc .vmem S512x1024 .f32 := (SCR.slice (Rect.unit (s := S2x3072x1024) (k1_off3 i) S1x512x1024.size (k1_off3_inb i h)) (fun _ => rfl)).squeeze S512x1024 squeezes_S1x512x1024_S512x1024
abbrev dstW0 (i : grid1.Coords) (h : k1_cond1 i = 1#1) : Memref sig .tc .hbm S512x1024 .f32 := V4.slice (Rect.unit (s := S100000x1024) (k1_off2 i 0#32) S512x1024.size (k1_off2_inb i h 0)) (fun _ => rfl)
abbrev semI0 (i : grid1.Coords) (h : k1_cond2 i = 1#1) : DmaSem sig := ((cc1_scratch1.slice (Rect.unit (s := S2x6) (k1_off15 i) S1x1.size (k1_off15_inb i h))).squeeze S_ squeezes_S1x1_S_).sem
abbrev srcI0 (i : grid1.Coords) (h : k1_cond2 i = 1#1) : Memref sig .tc .vmem S512x1024 .f32 := (SCR.slice (Rect.unit (s := S2x3072x1024) (k1_off17 i) S1x512x1024.size (k1_off17_inb i h)) (fun _ => rfl)).squeeze S512x1024 squeezes_S1x512x1024_S512x1024
abbrev dstI0 (i : grid1.Coords) (h : k1_cond2 i = 1#1) : Memref sig .tc .hbm S512x1024 .f32 := V4.slice (Rect.unit (s := S100000x1024) (k1_off16 i 0#32) S512x1024.size (k1_off16_inb i h 0)) (fun _ => rfl)
abbrev semW1 (i : grid1.Coords) (h : k1_cond1 i = 1#1) : DmaSem sig := ((cc1_scratch1.slice (Rect.unit (s := S2x6) (k1_off4 i) S1x1.size (k1_off4_inb i h))).squeeze S_ squeezes_S1x1_S_).sem
abbrev srcW1 (i : grid1.Coords) (h : k1_cond1 i = 1#1) : Memref sig .tc .vmem S512x1024 .f32 := (SCR.slice (Rect.unit (s := S2x3072x1024) (k1_off5 i) S1x512x1024.size (k1_off5_inb i h)) (fun _ => rfl)).squeeze S512x1024 squeezes_S1x512x1024_S512x1024
abbrev dstW1 (i : grid1.Coords) (h : k1_cond1 i = 1#1) : Memref sig .tc .hbm S512x1024 .f32 := V4.slice (Rect.unit (s := S100000x1024) (k1_off2 i 512#32) S512x1024.size (k1_off2_inb i h 1)) (fun _ => rfl)
abbrev semI1 (i : grid1.Coords) (h : k1_cond2 i = 1#1) : DmaSem sig := ((cc1_scratch1.slice (Rect.unit (s := S2x6) (k1_off18 i) S1x1.size (k1_off18_inb i h))).squeeze S_ squeezes_S1x1_S_).sem
abbrev srcI1 (i : grid1.Coords) (h : k1_cond2 i = 1#1) : Memref sig .tc .vmem S512x1024 .f32 := (SCR.slice (Rect.unit (s := S2x3072x1024) (k1_off19 i) S1x512x1024.size (k1_off19_inb i h)) (fun _ => rfl)).squeeze S512x1024 squeezes_S1x512x1024_S512x1024
abbrev dstI1 (i : grid1.Coords) (h : k1_cond2 i = 1#1) : Memref sig .tc .hbm S512x1024 .f32 := V4.slice (Rect.unit (s := S100000x1024) (k1_off16 i 512#32) S512x1024.size (k1_off16_inb i h 1)) (fun _ => rfl)
abbrev semW2 (i : grid1.Coords) (h : k1_cond1 i = 1#1) : DmaSem sig := ((cc1_scratch1.slice (Rect.unit (s := S2x6) (k1_off6 i) S1x1.size (k1_off6_inb i h))).squeeze S_ squeezes_S1x1_S_).sem
abbrev srcW2 (i : grid1.Coords) (h : k1_cond1 i = 1#1) : Memref sig .tc .vmem S512x1024 .f32 := (SCR.slice (Rect.unit (s := S2x3072x1024) (k1_off7 i) S1x512x1024.size (k1_off7_inb i h)) (fun _ => rfl)).squeeze S512x1024 squeezes_S1x512x1024_S512x1024
abbrev dstW2 (i : grid1.Coords) (h : k1_cond1 i = 1#1) : Memref sig .tc .hbm S512x1024 .f32 := V4.slice (Rect.unit (s := S100000x1024) (k1_off2 i 1024#32) S512x1024.size (k1_off2_inb i h 2)) (fun _ => rfl)
abbrev semI2 (i : grid1.Coords) (h : k1_cond2 i = 1#1) : DmaSem sig := ((cc1_scratch1.slice (Rect.unit (s := S2x6) (k1_off20 i) S1x1.size (k1_off20_inb i h))).squeeze S_ squeezes_S1x1_S_).sem
abbrev srcI2 (i : grid1.Coords) (h : k1_cond2 i = 1#1) : Memref sig .tc .vmem S512x1024 .f32 := (SCR.slice (Rect.unit (s := S2x3072x1024) (k1_off21 i) S1x512x1024.size (k1_off21_inb i h)) (fun _ => rfl)).squeeze S512x1024 squeezes_S1x512x1024_S512x1024
abbrev dstI2 (i : grid1.Coords) (h : k1_cond2 i = 1#1) : Memref sig .tc .hbm S512x1024 .f32 := V4.slice (Rect.unit (s := S100000x1024) (k1_off16 i 1024#32) S512x1024.size (k1_off16_inb i h 2)) (fun _ => rfl)
abbrev semW3 (i : grid1.Coords) (h : k1_cond1 i = 1#1) : DmaSem sig := ((cc1_scratch1.slice (Rect.unit (s := S2x6) (k1_off8 i) S1x1.size (k1_off8_inb i h))).squeeze S_ squeezes_S1x1_S_).sem
abbrev srcW3 (i : grid1.Coords) (h : k1_cond1 i = 1#1) : Memref sig .tc .vmem S512x1024 .f32 := (SCR.slice (Rect.unit (s := S2x3072x1024) (k1_off9 i) S1x512x1024.size (k1_off9_inb i h)) (fun _ => rfl)).squeeze S512x1024 squeezes_S1x512x1024_S512x1024
abbrev dstW3 (i : grid1.Coords) (h : k1_cond1 i = 1#1) : Memref sig .tc .hbm S512x1024 .f32 := V4.slice (Rect.unit (s := S100000x1024) (k1_off2 i 1536#32) S512x1024.size (k1_off2_inb i h 3)) (fun _ => rfl)
abbrev semI3 (i : grid1.Coords) (h : k1_cond2 i = 1#1) : DmaSem sig := ((cc1_scratch1.slice (Rect.unit (s := S2x6) (k1_off22 i) S1x1.size (k1_off22_inb i h))).squeeze S_ squeezes_S1x1_S_).sem
abbrev srcI3 (i : grid1.Coords) (h : k1_cond2 i = 1#1) : Memref sig .tc .vmem S512x1024 .f32 := (SCR.slice (Rect.unit (s := S2x3072x1024) (k1_off23 i) S1x512x1024.size (k1_off23_inb i h)) (fun _ => rfl)).squeeze S512x1024 squeezes_S1x512x1024_S512x1024
abbrev dstI3 (i : grid1.Coords) (h : k1_cond2 i = 1#1) : Memref sig .tc .hbm S512x1024 .f32 := V4.slice (Rect.unit (s := S100000x1024) (k1_off16 i 1536#32) S512x1024.size (k1_off16_inb i h 3)) (fun _ => rfl)
abbrev semW4 (i : grid1.Coords) (h : k1_cond1 i = 1#1) : DmaSem sig := ((cc1_scratch1.slice (Rect.unit (s := S2x6) (k1_off10 i) S1x1.size (k1_off10_inb i h))).squeeze S_ squeezes_S1x1_S_).sem
abbrev srcW4 (i : grid1.Coords) (h : k1_cond1 i = 1#1) : Memref sig .tc .vmem S512x1024 .f32 := (SCR.slice (Rect.unit (s := S2x3072x1024) (k1_off11 i) S1x512x1024.size (k1_off11_inb i h)) (fun _ => rfl)).squeeze S512x1024 squeezes_S1x512x1024_S512x1024
abbrev dstW4 (i : grid1.Coords) (h : k1_cond1 i = 1#1) : Memref sig .tc .hbm S512x1024 .f32 := V4.slice (Rect.unit (s := S100000x1024) (k1_off2 i 2048#32) S512x1024.size (k1_off2_inb i h 4)) (fun _ => rfl)
abbrev semI4 (i : grid1.Coords) (h : k1_cond2 i = 1#1) : DmaSem sig := ((cc1_scratch1.slice (Rect.unit (s := S2x6) (k1_off24 i) S1x1.size (k1_off24_inb i h))).squeeze S_ squeezes_S1x1_S_).sem
abbrev srcI4 (i : grid1.Coords) (h : k1_cond2 i = 1#1) : Memref sig .tc .vmem S512x1024 .f32 := (SCR.slice (Rect.unit (s := S2x3072x1024) (k1_off25 i) S1x512x1024.size (k1_off25_inb i h)) (fun _ => rfl)).squeeze S512x1024 squeezes_S1x512x1024_S512x1024
abbrev dstI4 (i : grid1.Coords) (h : k1_cond2 i = 1#1) : Memref sig .tc .hbm S512x1024 .f32 := V4.slice (Rect.unit (s := S100000x1024) (k1_off16 i 2048#32) S512x1024.size (k1_off16_inb i h 4)) (fun _ => rfl)
abbrev semW5 (i : grid1.Coords) (h : k1_cond1 i = 1#1) : DmaSem sig := ((cc1_scratch1.slice (Rect.unit (s := S2x6) (k1_off12 i) S1x1.size (k1_off12_inb i h))).squeeze S_ squeezes_S1x1_S_).sem
abbrev srcW5 (i : grid1.Coords) (h : k1_cond1 i = 1#1) : Memref sig .tc .vmem S512x1024 .f32 := (SCR.slice (Rect.unit (s := S2x3072x1024) (k1_off13 i) S1x512x1024.size (k1_off13_inb i h)) (fun _ => rfl)).squeeze S512x1024 squeezes_S1x512x1024_S512x1024
abbrev dstW5 (i : grid1.Coords) (h : k1_cond1 i = 1#1) : Memref sig .tc .hbm S512x1024 .f32 := V4.slice (Rect.unit (s := S100000x1024) (k1_off2 i 2560#32) S512x1024.size (k1_off2_inb i h 5)) (fun _ => rfl)
abbrev semI5 (i : grid1.Coords) (h : k1_cond2 i = 1#1) : DmaSem sig := ((cc1_scratch1.slice (Rect.unit (s := S2x6) (k1_off26 i) S1x1.size (k1_off26_inb i h))).squeeze S_ squeezes_S1x1_S_).sem
abbrev srcI5 (i : grid1.Coords) (h : k1_cond2 i = 1#1) : Memref sig .tc .vmem S512x1024 .f32 := (SCR.slice (Rect.unit (s := S2x3072x1024) (k1_off27 i) S1x512x1024.size (k1_off27_inb i h)) (fun _ => rfl)).squeeze S512x1024 squeezes_S1x512x1024_S512x1024
abbrev dstI5 (i : grid1.Coords) (h : k1_cond2 i = 1#1) : Memref sig .tc .hbm S512x1024 .f32 := V4.slice (Rect.unit (s := S100000x1024) (k1_off16 i 2560#32) S512x1024.size (k1_off16_inb i h 5)) (fun _ => rfl)

/-- A memref's elements held by themselves. -/
abbrev own (c : Dev nD) {sp : Space} {S : Shape} {e : EltTy} (M : Memref sig .tc sp S e) (f : Buf (Elt F) (M.view.loc (thr c))) : sProp 𝕄 :=
  M.view.loc (thr c) ↦[M.view.set]{fullShare} f

/-- The rectangle of the scratch the body loads and stores at point `i`: its slot, whole. -/
abbrev slotR (i : grid1.Coords) : Rect S2x3072x1024 := Rect.unit (s := S2x3072x1024) (k1_off14 i) S1x3072x1024.size (k1_off14_inb i)

/-! ## The slot, the semaphores and the chunk rectangles in closed form -/

/-- The scratch slot of a grid point. -/
abbrev sOf (i : grid1.Coords) : Fin 2 := ⟨(i 0).val % 2, Nat.mod_lt _ (by decide)⟩

/-- Semaphore `r` of slot `s`. -/
abbrev semC (s : Fin 2) (r : Fin 6) : DmaSem sig := ⟨8 + 6 * s.val + r.val, by have := s.isLt; have := r.isLt; show _ < 20; omega⟩

theorem chunk_inb : ∀ (s : Fin 2) (r : Fin 6) a, (![s.val, 512 * r.val, 0] : Fin 3 → ℕ) a + S1x512x1024.size a ≤ S2x3072x1024.size a := by decide +kernel
theorem slot_inb : ∀ (s : Fin 2) a, (![s.val, 0, 0] : Fin 3 → ℕ) a + S1x3072x1024.size a ≤ S2x3072x1024.size a := by decide +kernel

/-- Rows `512 r ‥ 512 r + 511` of slot `s` of the scratch. -/
abbrev chunkR (s : Fin 2) (r : Fin 6) : Rect S2x3072x1024 := Rect.unit (s := S2x3072x1024) ![s.val, 512 * r.val, 0] S1x512x1024.size (chunk_inb s r)
/-- Slot `s` of the scratch. -/
abbrev slotC (s : Fin 2) : Rect S2x3072x1024 := Rect.unit (s := S2x3072x1024) ![s.val, 0, 0] S1x3072x1024.size (slot_inb s)

theorem unit_set_congr {s : Shape} {off off' size : Fin s.rank → ℕ} {inb inb'} (h : off = off') :
    (Rect.unit (s := s) off size inb).set = (Rect.unit (s := s) off' size inb').set := by subst h; rfl

theorem semW0_eq : ∀ (i : grid1.Coords) (h : k1_cond1 i = 1#1), semW0 i h = semC (sOf i) 0 := by decide +kernel
theorem semI0_eq : ∀ (i : grid1.Coords) (h : k1_cond2 i = 1#1), semI0 i h = semC (sOf i) 0 := by decide +kernel
theorem srcW0_set (i : grid1.Coords) (h : k1_cond1 i = 1#1) : (srcW0 i h).view.set = (chunkR (sOf i) 0).set := by
  show ((View.whole (cc1_scratch0 : Ref sig .tc)).slice _ |>.reshape _ _).set = _
  rw [View.set_reshape, View.set_slice_whole]; exact unit_set_congr (by rw [k1_off3_eq]; rfl)
theorem srcI0_set (i : grid1.Coords) (h : k1_cond2 i = 1#1) : (srcI0 i h).view.set = (chunkR (sOf i) 0).set := by
  show ((View.whole (cc1_scratch0 : Ref sig .tc)).slice _ |>.reshape _ _).set = _
  rw [View.set_reshape, View.set_slice_whole]; exact unit_set_congr (by rw [k1_off17_eq]; rfl)
theorem semW1_eq : ∀ (i : grid1.Coords) (h : k1_cond1 i = 1#1), semW1 i h = semC (sOf i) 1 := by decide +kernel
theorem semI1_eq : ∀ (i : grid1.Coords) (h : k1_cond2 i = 1#1), semI1 i h = semC (sOf i) 1 := by decide +kernel
theorem srcW1_set (i : grid1.Coords) (h : k1_cond1 i = 1#1) : (srcW1 i h).view.set = (chunkR (sOf i) 1).set := by
  show ((View.whole (cc1_scratch0 : Ref sig .tc)).slice _ |>.reshape _ _).set = _
  rw [View.set_reshape, View.set_slice_whole]; exact unit_set_congr (by rw [k1_off5_eq]; rfl)
theorem srcI1_set (i : grid1.Coords) (h : k1_cond2 i = 1#1) : (srcI1 i h).view.set = (chunkR (sOf i) 1).set := by
  show ((View.whole (cc1_scratch0 : Ref sig .tc)).slice _ |>.reshape _ _).set = _
  rw [View.set_reshape, View.set_slice_whole]; exact unit_set_congr (by rw [k1_off19_eq]; rfl)
theorem semW2_eq : ∀ (i : grid1.Coords) (h : k1_cond1 i = 1#1), semW2 i h = semC (sOf i) 2 := by decide +kernel
theorem semI2_eq : ∀ (i : grid1.Coords) (h : k1_cond2 i = 1#1), semI2 i h = semC (sOf i) 2 := by decide +kernel
theorem srcW2_set (i : grid1.Coords) (h : k1_cond1 i = 1#1) : (srcW2 i h).view.set = (chunkR (sOf i) 2).set := by
  show ((View.whole (cc1_scratch0 : Ref sig .tc)).slice _ |>.reshape _ _).set = _
  rw [View.set_reshape, View.set_slice_whole]; exact unit_set_congr (by rw [k1_off7_eq]; rfl)
theorem srcI2_set (i : grid1.Coords) (h : k1_cond2 i = 1#1) : (srcI2 i h).view.set = (chunkR (sOf i) 2).set := by
  show ((View.whole (cc1_scratch0 : Ref sig .tc)).slice _ |>.reshape _ _).set = _
  rw [View.set_reshape, View.set_slice_whole]; exact unit_set_congr (by rw [k1_off21_eq]; rfl)
theorem semW3_eq : ∀ (i : grid1.Coords) (h : k1_cond1 i = 1#1), semW3 i h = semC (sOf i) 3 := by decide +kernel
theorem semI3_eq : ∀ (i : grid1.Coords) (h : k1_cond2 i = 1#1), semI3 i h = semC (sOf i) 3 := by decide +kernel
theorem srcW3_set (i : grid1.Coords) (h : k1_cond1 i = 1#1) : (srcW3 i h).view.set = (chunkR (sOf i) 3).set := by
  show ((View.whole (cc1_scratch0 : Ref sig .tc)).slice _ |>.reshape _ _).set = _
  rw [View.set_reshape, View.set_slice_whole]; exact unit_set_congr (by rw [k1_off9_eq]; rfl)
theorem srcI3_set (i : grid1.Coords) (h : k1_cond2 i = 1#1) : (srcI3 i h).view.set = (chunkR (sOf i) 3).set := by
  show ((View.whole (cc1_scratch0 : Ref sig .tc)).slice _ |>.reshape _ _).set = _
  rw [View.set_reshape, View.set_slice_whole]; exact unit_set_congr (by rw [k1_off23_eq]; rfl)
theorem semW4_eq : ∀ (i : grid1.Coords) (h : k1_cond1 i = 1#1), semW4 i h = semC (sOf i) 4 := by decide +kernel
theorem semI4_eq : ∀ (i : grid1.Coords) (h : k1_cond2 i = 1#1), semI4 i h = semC (sOf i) 4 := by decide +kernel
theorem srcW4_set (i : grid1.Coords) (h : k1_cond1 i = 1#1) : (srcW4 i h).view.set = (chunkR (sOf i) 4).set := by
  show ((View.whole (cc1_scratch0 : Ref sig .tc)).slice _ |>.reshape _ _).set = _
  rw [View.set_reshape, View.set_slice_whole]; exact unit_set_congr (by rw [k1_off11_eq]; rfl)
theorem srcI4_set (i : grid1.Coords) (h : k1_cond2 i = 1#1) : (srcI4 i h).view.set = (chunkR (sOf i) 4).set := by
  show ((View.whole (cc1_scratch0 : Ref sig .tc)).slice _ |>.reshape _ _).set = _
  rw [View.set_reshape, View.set_slice_whole]; exact unit_set_congr (by rw [k1_off25_eq]; rfl)
theorem semW5_eq : ∀ (i : grid1.Coords) (h : k1_cond1 i = 1#1), semW5 i h = semC (sOf i) 5 := by decide +kernel
theorem semI5_eq : ∀ (i : grid1.Coords) (h : k1_cond2 i = 1#1), semI5 i h = semC (sOf i) 5 := by decide +kernel
theorem srcW5_set (i : grid1.Coords) (h : k1_cond1 i = 1#1) : (srcW5 i h).view.set = (chunkR (sOf i) 5).set := by
  show ((View.whole (cc1_scratch0 : Ref sig .tc)).slice _ |>.reshape _ _).set = _
  rw [View.set_reshape, View.set_slice_whole]; exact unit_set_congr (by rw [k1_off13_eq]; rfl)
theorem srcI5_set (i : grid1.Coords) (h : k1_cond2 i = 1#1) : (srcI5 i h).view.set = (chunkR (sOf i) 5).set := by
  show ((View.whole (cc1_scratch0 : Ref sig .tc)).slice _ |>.reshape _ _).set = _
  rw [View.set_reshape, View.set_slice_whole]; exact unit_set_congr (by rw [k1_off27_eq]; rfl)

theorem slotR_set (i : grid1.Coords) : (SCR.access (slotR i)).set = (slotC (sOf i)).set := by
  show ((View.whole (cc1_scratch0 : Ref sig .tc)).slice _).set = _
  rw [View.set_slice_whole]; exact unit_set_congr (by rw [k1_off14_eq])

/-- A slot is its six chunks, -/
theorem slot_cover (s : Fin 2) : (Finset.univ : Finset (Fin 6)).biUnion (fun r => (chunkR s r).set) = (slotC s).set := by
  ext x
  simp only [Finset.mem_biUnion, Finset.mem_univ, true_and, Rect.mem_set_unit]
  constructor
  · rintro ⟨r, hr⟩ a
    have := hr a; have hr' := r.isLt
    fin_cases a <;> simp at this ⊢ <;> omega
  · intro hx
    have h1 := hx 1; simp at h1
    refine ⟨⟨(x 1).val / 512, by omega⟩, fun a => ?_⟩
    have := hx a
    fin_cases a <;> simp at this ⊢ <;> omega
/-- pairwise disjoint. -/
theorem chunk_disjoint (s : Fin 2) (r r' : Fin 6) (h : r ≠ r') : Disjoint (chunkR s r).set (chunkR s r').set := by
  rw [Finset.disjoint_left]
  intro x hx hx'
  have h1 := (Rect.mem_set_unit.mp hx) 1; have h2 := (Rect.mem_set_unit.mp hx') 1
  simp at h1 h2
  have : r.val ≠ r'.val := fun e => h (Fin.ext e)
  omega

theorem bigSep_fin6 {M : Type} [URA M] (Φ : Fin 6 → sProp M) :
    bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ

/-- The slot just stored, dealt out as the six chunks the copies read. -/
theorem slot_split (c : Dev nD) (i : grid1.Coords) (h2 : k1_cond2 i = 1#1) (g : Buf (Elt F) (SCR.view.loc (thr c))) :
    (SCR.view.loc (thr c) ↦[(SCR.access (slotR i)).set]{fullShare} g : sProp 𝕄)
      ⊢ iprop(own c (srcI0 i h2) g ∗ own c (srcI1 i h2) g ∗ own c (srcI2 i h2) g ∗ own c (srcI3 i h2) g ∗ own c (srcI4 i h2) g ∗ own c (srcI5 i h2) g) := by
  rw [slotR_set, ← slot_cover, pointsTo_biUnion Finset.univ _ (fun r _ r' _ h => chunk_disjoint _ r r' h), bigSep_fin6,
    ← srcI0_set i h2, ← srcI1_set i h2, ← srcI2_set i h2, ← srcI3_set i h2, ← srcI4_set i h2, ← srcI5_set i h2]

/-- The six chunks the waits hand back, joined into the slot. -/
theorem slot_join (c : Dev nD) (i : grid1.Coords) (h1 : k1_cond1 i = 1#1) :
    iprop((∃ g, own (F := F) c (srcW0 i h1) g) ∗ (∃ g, own (F := F) c (srcW1 i h1) g) ∗ (∃ g, own (F := F) c (srcW2 i h1) g) ∗ (∃ g, own (F := F) c (srcW3 i h1) g) ∗ (∃ g, own (F := F) c (srcW4 i h1) g) ∗ (∃ g, own (F := F) c (srcW5 i h1) g))
      ⊢ (iprop(∃ g, SCR.view.loc (thr c) ↦[(SCR.access (slotR i)).set]{fullShare} g) : sProp 𝕄) := by
  iintro ⟨⟨%g0, H0⟩, ⟨%g1, H1⟩, ⟨%g2, H2⟩, ⟨%g3, H3⟩, ⟨%g4, H4⟩, ⟨%g5, H5⟩⟩
  ihave H := (pointsTo_biUnion_join (ℓ := SCR.view.loc (thr c)) (q := fullShare) Finset.univ (fun r => (chunkR (sOf i) r).set)
      (![g0, g1, g2, g3, g4, g5] : Fin 6 → Buf (Elt F) (SCR.view.loc (thr c))) g0 (fun r _ r' _ h => chunk_disjoint _ r r' h)) $$ [H0 H1 H2 H3 H4 H5]
  · rw [bigSep_fin6]
    isplitl [H0]; · rw [← srcW0_set i h1]; iexact H0
    isplitl [H1]; · rw [← srcW1_set i h1]; iexact H1
    isplitl [H2]; · rw [← srcW2_set i h1]; iexact H2
    isplitl [H3]; · rw [← srcW3_set i h1]; iexact H3
    isplitl [H4]; · rw [← srcW4_set i h1]; iexact H4
    rw [← srcW5_set i h1]; iexact H5
  icases H with ⟨%g, -, H⟩
  iexists g
  rw [slotR_set, ← slot_cover]; iexact H

end Cert.KernelIdeal.Region

end
-- ==== Proof.RegionSets.lean ====
/-
  The result array [100000, 1024] as the disjoint union of its row ranges by (tile, chunk) — rows 3072 j + 512 r ‥
  + 511, cut off at the array's end, so that the last tile's short and missing chunks need no case of their own —,
  the rows each copy's destination lies in, and the scratch as the disjoint union of its twelve (slot, chunk) pieces.
-/
import proofs.«204125_g1194000908950_cont_fleet_528_33_alg».proof.Proof.RegionViews
import Idealize.ShloMosaic.Lib.Transfers
import Idealize.ShloMosaic.Lib.Writes
import Idealize.ShloMosaic.Lib.Pipeline.FrameBody
import Idealize.ShloMosaic.Lib.Tactic

noncomputable section

namespace Cert.KernelIdeal.Region

open Cert.KernelIdeal Cert.KernelIdeal.Gen Cert.KernelIdeal.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MM F

/-! ## The result's rows by (tile, chunk) -/

/-- The tile of a grid point. -/
abbrev tOf (i : grid1.Coords) : Fin 33 := ⟨(i 0).val, (i 0).isLt⟩

/-- Rows `3072 j + 512 r ‥ 3072 j + 512 r + 511` of the result (those the array has). -/
def dsetC (j : Fin 33) (r : Fin 6) : Finset S100000x1024.Idx :=
  Finset.univ.filter fun x => 3072 * j.val + 512 * r.val ≤ (x 0).val ∧ (x 0).val < 3072 * j.val + 512 * r.val + 512

theorem mem_dsetC {j : Fin 33} {r : Fin 6} {x : S100000x1024.Idx} :
    x ∈ dsetC j r ↔ 3072 * j.val + 512 * r.val ≤ (x 0).val ∧ (x 0).val < 3072 * j.val + 512 * r.val + 512 := by
  simp [dsetC]

theorem dsetC_disjoint (p p' : Fin 33 × Fin 6) (h : p ≠ p') : Disjoint (dsetC p.1 p.2) (dsetC p'.1 p'.2) := by
  rw [Finset.disjoint_left]
  intro x hx hx'
  rw [mem_dsetC] at hx hx'
  have h1 := p.2.isLt; have h2 := p'.2.isLt
  exact h (Prod.ext (Fin.ext (by omega)) (Fin.ext (by omega)))

theorem dsetC_cover : (Finset.univ : Finset (Fin 33 × Fin 6)).biUnion (fun p => dsetC p.1 p.2) = Finset.univ := by
  ext x
  simp only [Finset.mem_biUnion, Finset.mem_univ, true_and, iff_true]
  have hx : (x 0).val < 100000 := (x 0).isLt
  refine ⟨(⟨(x 0).val / 512 / 6, by omega⟩, ⟨(x 0).val / 512 % 6, Nat.mod_lt _ (by decide)⟩), ?_⟩
  rw [mem_dsetC]; simp only; omega

theorem dstI0_sub (i : grid1.Coords) (h2 : k1_cond2 i = 1#1) : (dstI0 i h2).view.set ⊆ dsetC (tOf i) 0 := by
  intro x hx
  have hx' : x ∈ (Rect.unit (s := S100000x1024) (k1_off16 i 0#32) S512x1024.size (k1_off16_inb i h2 0)).set := by
    rw [← View.set_slice_whole (main_v4 : Ref sig .tc)]; exact hx
  have h0 := (Rect.mem_set_unit.mp hx') 0
  rw [show k1_off16 i 0#32 = ![3072 * (i 0).val + 512 * (0 : Fin 6).val, 0] from k1_off16_eq i 0] at h0
  rw [mem_dsetC]
  simpa using h0
theorem dstI1_sub (i : grid1.Coords) (h2 : k1_cond2 i = 1#1) : (dstI1 i h2).view.set ⊆ dsetC (tOf i) 1 := by
  intro x hx
  have hx' : x ∈ (Rect.unit (s := S100000x1024) (k1_off16 i 512#32) S512x1024.size (k1_off16_inb i h2 1)).set := by
    rw [← View.set_slice_whole (main_v4 : Ref sig .tc)]; exact hx
  have h0 := (Rect.mem_set_unit.mp hx') 0
  rw [show k1_off16 i 512#32 = ![3072 * (i 0).val + 512 * (1 : Fin 6).val, 0] from k1_off16_eq i 1] at h0
  rw [mem_dsetC]
  simpa using h0
theorem dstI2_sub (i : grid1.Coords) (h2 : k1_cond2 i = 1#1) : (dstI2 i h2).view.set ⊆ dsetC (tOf i) 2 := by
  intro x hx
  have hx' : x ∈ (Rect.unit (s := S100000x1024) (k1_off16 i 1024#32) S512x1024.size (k1_off16_inb i h2 2)).set := by
    rw [← View.set_slice_whole (main_v4 : Ref sig .tc)]; exact hx
  have h0 := (Rect.mem_set_unit.mp hx') 0
  rw [show k1_off16 i 1024#32 = ![3072 * (i 0).val + 512 * (2 : Fin 6).val, 0] from k1_off16_eq i 2] at h0
  rw [mem_dsetC]
  simpa using h0
theorem dstI3_sub (i : grid1.Coords) (h2 : k1_cond2 i = 1#1) : (dstI3 i h2).view.set ⊆ dsetC (tOf i) 3 := by
  intro x hx
  have hx' : x ∈ (Rect.unit (s := S100000x1024) (k1_off16 i 1536#32) S512x1024.size (k1_off16_inb i h2 3)).set := by
    rw [← View.set_slice_whole (main_v4 : Ref sig .tc)]; exact hx
  have h0 := (Rect.mem_set_unit.mp hx') 0
  rw [show k1_off16 i 1536#32 = ![3072 * (i 0).val + 512 * (3 : Fin 6).val, 0] from k1_off16_eq i 3] at h0
  rw [mem_dsetC]
  simpa using h0
theorem dstI4_sub (i : grid1.Coords) (h2 : k1_cond2 i = 1#1) : (dstI4 i h2).view.set ⊆ dsetC (tOf i) 4 := by
  intro x hx
  have hx' : x ∈ (Rect.unit (s := S100000x1024) (k1_off16 i 2048#32) S512x1024.size (k1_off16_inb i h2 4)).set := by
    rw [← View.set_slice_whole (main_v4 : Ref sig .tc)]; exact hx
  have h0 := (Rect.mem_set_unit.mp hx') 0
  rw [show k1_off16 i 2048#32 = ![3072 * (i 0).val + 512 * (4 : Fin 6).val, 0] from k1_off16_eq i 4] at h0
  rw [mem_dsetC]
  simpa using h0
theorem dstI5_sub (i : grid1.Coords) (h2 : k1_cond2 i = 1#1) : (dstI5 i h2).view.set ⊆ dsetC (tOf i) 5 := by
  intro x hx
  have hx' : x ∈ (Rect.unit (s := S100000x1024) (k1_off16 i 2560#32) S512x1024.size (k1_off16_inb i h2 5)).set := by
    rw [← View.set_slice_whole (main_v4 : Ref sig .tc)]; exact hx
  have h0 := (Rect.mem_set_unit.mp hx') 0
  rw [show k1_off16 i 2560#32 = ![3072 * (i 0).val + 512 * (5 : Fin 6).val, 0] from k1_off16_eq i 5] at h0
  rw [mem_dsetC]
  simpa using h0

/-! ## The scratch by (slot, chunk) -/

theorem chunkR_disjoint (p p' : Fin 2 × Fin 6) (h : p ≠ p') : Disjoint (chunkR p.1 p.2).set (chunkR p'.1 p'.2).set := by
  rw [Finset.disjoint_left]
  intro x hx hx'
  have h0 := (Rect.mem_set_unit.mp hx) 0; have h0' := (Rect.mem_set_unit.mp hx') 0
  have h1 := (Rect.mem_set_unit.mp hx) 1; have h1' := (Rect.mem_set_unit.mp hx') 1
  simp at h0 h0' h1 h1'
  have h2 := p.2.isLt; have h2' := p'.2.isLt; have h3 := p.1.isLt; have h3' := p'.1.isLt
  exact h (Prod.ext (Fin.ext (by omega)) (Fin.ext (by omega)))

theorem chunkR_cover : (Finset.univ : Finset (Fin 2 × Fin 6)).biUnion (fun p => (chunkR p.1 p.2).set) = Finset.univ := by
  ext x
  simp only [Finset.mem_biUnion, Finset.mem_univ, true_and, iff_true]
  have hx0 : (x 0).val < 2 := (x 0).isLt
  have hx1 : (x 1).val < 3072 := (x 1).isLt
  have hx2 : (x 2).val < 1024 := (x 2).isLt
  refine ⟨(⟨(x 0).val, hx0⟩, ⟨(x 1).val / 512, by omega⟩), Rect.mem_set_unit.mpr fun a => ?_⟩
  fin_cases a <;> simp <;> omega

end Cert.KernelIdeal.Region

end
-- ==== Proof.RegionBlocks.lean ====
/-
  What the TensorCore pipeline hands a tile's body, and what the tiles' results make of the result array.

  The weights' window and the bias's window are fetched at every tile: the body finds the array's block where the
  block lies inside the array (the last tile's block runs past the array's end; there nothing is known). The averaged
  look-ups' window is fetched once, whole, and a body that leaves it as found finds it at every tile. Every row of the
  result lies in one tile, in one of the tile's six chunks of 512 rows; if every chunk's rows inside the array are the
  tile function of the tile's blocks, the result array is the specification's.
-/
import proofs.«204125_g1194000908950_cont_fleet_528_33_alg».proof.Proof.Common

noncomputable section

namespace Cert.KernelIdeal.Region

open Cert.KernelIdeal Cert.KernelIdeal.Gen Cert.KernelIdeal.Common
open Idealize.ShloMosaic Idealize.ShloMosaic.ValueIdx Idealize.ShloMosaic.TcCoe
open Idealize.ShloMosaic.SparseCore.Cfg (HIx)
open Idealize.SL.Sem

variable {F : FTy → Type} [FloatOps F] [Named F]

/-! ## A chunk's rows -/

/-- Chunk `r` of tile `j`: its rows that lie inside the array are the tile function of the blocks. -/
def GoodOn (j : Fin 33) (r : Fin 6) (avg : FVec F S64x1024 .f32) (wblk : FVec F S64x3072 .f32) (bblk : FVec F S3072 .f32)
    (f : FVec F S100000x1024 .f32) : Prop :=
  ∀ (ρ : Fin 512) (col : Fin 1024) (h : 3072 * j.val + 512 * r.val + ρ.val < 100000),
    f (ix2 ⟨3072 * j.val + 512 * r.val + ρ.val, h⟩ col)
      = tileF avg wblk bblk (ix2 ⟨512 * r.val + ρ.val, by have := r.isLt; have := ρ.isLt; omega⟩ col)

/-- The property reads the chunk's rows only. -/
theorem GoodOn.local {j : Fin 33} {r : Fin 6} {avg : FVec F S64x1024 .f32} {wblk : FVec F S64x3072 .f32} {bblk : FVec F S3072 .f32}
    {f g : FVec F S100000x1024 .f32}
    (hfg : ∀ (ρ : Fin 512) (col : Fin 1024) (h : 3072 * j.val + 512 * r.val + ρ.val < 100000),
      g (ix2 ⟨3072 * j.val + 512 * r.val + ρ.val, h⟩ col) = f (ix2 ⟨3072 * j.val + 512 * r.val + ρ.val, h⟩ col))
    (hf : GoodOn j r avg wblk bblk f) : GoodOn j r avg wblk bblk g :=
  fun ρ col h => (hfg ρ col h).trans (hf ρ col h)

/-- Every chunk of every tile good, over blocks that agree with the operands: the result array is the specification's. -/
theorem isOut_of_good (avg : FVec F S64x1024 .f32) (wt : FVec F S64x100000 .f32) (b : FVec F S100000 .f32)
    (out : FVec F S100000x1024 .f32) (wb : Fin 33 → FVec F S64x3072 .f32) (bb : Fin 33 → FVec F S3072 .f32)
    (hW : ∀ j, Cert.Spec.WAgrees wt j (wb j)) (hB : ∀ j, Cert.Spec.BAgrees b j (bb j))
    (hG : ∀ (j : Fin 33) (r : Fin 6), GoodOn j r avg (wb j) (bb j) out) :
    Cert.Spec.IsOut (tileF (F := F)) avg wt b out := by
  intro j
  refine ⟨wb j, bb j, hW j, hB j, fun r col h => ?_⟩
  have hq : r.val / 512 < 6 := by have := r.isLt; omega
  have hm : r.val % 512 < 512 := Nat.mod_lt _ (by decide)
  have hr : 512 * (r.val / 512) + r.val % 512 = r.val := Nat.div_add_mod _ _
  have h' : 3072 * j.val + 512 * (⟨r.val / 512, hq⟩ : Fin 6).val + (⟨r.val % 512, hm⟩ : Fin 512).val < 100000 := by
    show 3072 * j.val + 512 * (r.val / 512) + r.val % 512 < 100000
    omega
  have e := hG j ⟨r.val / 512, hq⟩ ⟨r.val % 512, hm⟩ col h'
  have e1 : (⟨3072 * j.val + r.val, h⟩ : Fin 100000)
      = ⟨3072 * j.val + 512 * (⟨r.val / 512, hq⟩ : Fin 6).val + (⟨r.val % 512, hm⟩ : Fin 512).val, h'⟩ :=
    Fin.ext (by show 3072 * j.val + r.val = 3072 * j.val + 512 * (r.val / 512) + r.val % 512; omega)
  have e2 : r = ⟨512 * (⟨r.val / 512, hq⟩ : Fin 6).val + (⟨r.val % 512, hm⟩ : Fin 512).val, by
      show 512 * (r.val / 512) + r.val % 512 < 3072; have := r.isLt; omega⟩ := Fin.ext hr.symm
  rw [e1, e]
  exact congrArg (fun q => tileF avg (wb j) (bb j) (ix2 q col)) e2.symm

/-! ## The pipeline's schedule, in closed form -/

theorem coords1 : ∀ t : Fin grid1.N, (grid1.coords t 0).val = t.val := by decide +kernel
theorem transform1_1 : ∀ i : grid1.Coords, cc1_transform_1 i = ![0, (i 0).val] := by decide +kernel
theorem transform1_2 : ∀ i : grid1.Coords, cc1_transform_2 i = ![(i 0).val] := by decide +kernel
theorem transform1_0 : ∀ i : grid1.Coords, cc1_transform_0 i = ![0, 0] := by decide +kernel
/-- The averaged look-ups' window is never written back. -/
theorem flush1_0 : ∀ t : Fin cfg1.N, (cfg1.win 0).flush t = false :=
  (by decide +kernel : ∀ t : Fin grid1.N, win1_0.flush t = false)

/-- A fetch fills the coordinates below the cut sizes with what it read. -/
theorem fill_apply {G : Pipeline.Grid} (w : Pipeline.Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Pipeline.Window.fill
  rw [dif_pos ((w.moved_iff i j).mpr h)]

/-! ## What the body finds -/

/-- The weights' block a tile's body finds agrees with the transposed weights where they have columns. -/
theorem finds_W (c : Dev nD) (rd : Pipeline.RDat τ (Elt F) (HIx 1) ℕ UU ℕ cfg1 c)
    (vW : Buf (Elt F) ((c.tc : Thread nD τ).loc main_v3)) (hA1 : rd.A 1 = vW) (t : Fin cfg1.N)
    (Y : (cfg1.win 1).block.Idx → Elt F (cfg1.win 1).elt) (hY : rd.Finds 1 t Y) :
    Cert.Spec.WAgrees (F := F) vW ⟨t.val, t.isLt⟩ Y := by
  obtain ⟨d0, rfl⟩ := (rd.finds_of_fetch (fetch1_1 t) Y).mp hY
  intro d r h
  have h' : 3072 * t.val + r.val < 100000 := h
  have hc : (grid1.coords t 0).val = t.val := coords1 t
  have hlt : ∀ a, ((ix2 d r : (cfg1.win 1).block.Idx) a).val < (cfg1.win 1).xsize (cfg1.grid.coords t) a := by
    intro a
    match a with
    | ⟨0, _⟩ =>
      show d.val < (Pipeline.Clip.of (cc1_transform_1 (grid1.coords t) 0) 64 64).extent 64
      rw [transform1_1]
      exact d.isLt
    | ⟨1, _⟩ =>
      show r.val < (Pipeline.Clip.of (cc1_transform_1 (grid1.coords t) 1) 3072 100000).extent 3072
      rw [transform1_1]
      show r.val < (Pipeline.Clip.of (grid1.coords t 0).val 3072 100000).extent 3072
      rw [hc]
      unfold Pipeline.Clip.of
      split
      · exact r.isLt
      · show r.val < 100000 - t.val * 3072
        omega
  have e1 : rd.fetched 1 t d0 (ix2 d r)
      = rd.A 1 (((cfg1.win 1).rect t).emb fun a => ⟨((ix2 d r : (cfg1.win 1).block.Idx) a).val, hlt a⟩) :=
    fill_apply (cfg1.win 1) (cfg1.grid.coords t) d0 (rd.blockOf 1 t) (ix2 d r) hlt
  rw [e1, hA1]
  refine congrArg vW (funext fun a => Fin.ext ?_)
  rw [Rect.emb_apply]
  match a with
  | ⟨0, _⟩ =>
    show cc1_transform_1 (grid1.coords t) 0 * 64 + 1 * d.val = d.val
    rw [transform1_1]
    show 0 * 64 + 1 * d.val = d.val
    omega
  | ⟨1, _⟩ =>
    show cc1_transform_1 (grid1.coords t) 1 * 3072 + 1 * r.val = 3072 * t.val + r.val
    rw [transform1_1]
    show (grid1.coords t 0).val * 3072 + 1 * r.val = 3072 * t.val + r.val
    rw [hc]
    omega

/-- The bias's block a tile's body finds agrees with the bias where it has entries. -/
theorem finds_B (c : Dev nD) (rd : Pipeline.RDat τ (Elt F) (HIx 1) ℕ UU ℕ cfg1 c)
    (vB : Buf (Elt F) ((c.tc : Thread nD τ).loc main_arg3)) (hA2 : rd.A 2 = vB) (t : Fin cfg1.N)
    (Y : (cfg1.win 2).block.Idx → Elt F (cfg1.win 2).elt) (hY : rd.Finds 2 t Y) :
    Cert.Spec.BAgrees (F := F) vB ⟨t.val, t.isLt⟩ Y := by
  obtain ⟨d0, rfl⟩ := (rd.finds_of_fetch (fetch1_2 t) Y).mp hY
  intro r h
  have h' : 3072 * t.val + r.val < 100000 := h
  have hc : (grid1.coords t 0).val = t.val := coords1 t
  have hlt : ∀ a, ((ix1 r : (cfg1.win 2).block.Idx) a).val < (cfg1.win 2).xsize (cfg1.grid.coords t) a := by
    intro a
    match a with
    | ⟨0, _⟩ =>
      show r.val < (Pipeline.Clip.of (cc1_transform_2 (grid1.coords t) 0) 3072 100000).extent 3072
      rw [transform1_2]
      show r.val < (Pipeline.Clip.of (grid1.coords t 0).val 3072 100000).extent 3072
      rw [hc]
      unfold Pipeline.Clip.of
      split
      · exact r.isLt
      · show r.val < 100000 - t.val * 3072
        omega
  have e1 : rd.fetched 2 t d0 (ix1 r)
      = rd.A 2 (((cfg1.win 2).rect t).emb fun a => ⟨((ix1 r : (cfg1.win 2).block.Idx) a).val, hlt a⟩) :=
    fill_apply (cfg1.win 2) (cfg1.grid.coords t) d0 (rd.blockOf 2 t) (ix1 r) hlt
  rw [e1, hA2]
  refine congrArg vB (funext fun a => Fin.ext ?_)
  rw [Rect.emb_apply]
  match a with
  | ⟨0, _⟩ =>
    show cc1_transform_2 (grid1.coords t) 0 * 3072 + 1 * r.val = 3072 * t.val + r.val
    rw [transform1_2]
    show (grid1.coords t 0).val * 3072 + 1 * r.val = 3072 * t.val + r.val
    rw [hc]
    omega

/-- A body that leaves the averaged look-ups' buffer as found finds the whole array there at every tile. -/
theorem finds_A (c : Dev nD) (rd : Pipeline.RDat τ (Elt F) (HIx 1) ℕ UU ℕ cfg1 c)
    (vA : Buf (Elt F) ((c.tc : Thread nD τ).loc main_v2)) (hA0 : rd.A 0 = vA)
    (hafter : ∀ t Y X, rd.after 0 t Y X → X = Y) (t : Fin cfg1.N)
    (Y : (cfg1.win 0).block.Idx → Elt F (cfg1.win 0).elt) (hY : rd.Finds 0 t Y) : Y = vA := by
  obtain ⟨n, hn⟩ := t
  induction n generalizing Y with
  | zero =>
    obtain ⟨d0, rfl⟩ := (rd.finds_of_fetch ((fetch1_0 ⟨0, hn⟩).mpr rfl) Y).mp hY
    funext x
    have hlt : ∀ a, (x a).val < (cfg1.win 0).xsize (cfg1.grid.coords ⟨0, hn⟩) a := fun a => (x a).isLt
    have e1 : rd.fetched 0 ⟨0, hn⟩ d0 x = rd.A 0 (((cfg1.win 0).rect ⟨0, hn⟩).emb fun a => ⟨(x a).val, hlt a⟩) :=
      fill_apply (cfg1.win 0) (cfg1.grid.coords ⟨0, hn⟩) d0 (rd.blockOf 0 ⟨0, hn⟩) x hlt
    rw [e1, hA0]
    refine congrArg vA (funext fun a => Fin.ext ?_)
    rw [Rect.emb_apply]
    match a with
    | ⟨0, _⟩ =>
      show cc1_transform_0 (grid1.coords ⟨0, hn⟩) 0 * 64 + 1 * (x 0).val = (x 0).val
      rw [transform1_0]
      show 0 * 64 + 1 * (x 0).val = (x 0).val
      omega
    | ⟨1, _⟩ =>
      show cc1_transform_0 (grid1.coords ⟨0, hn⟩) 1 * 1024 + 1 * (x 1).val = (x 1).val
      rw [transform1_0]
      show 0 * 1024 + 1 * (x 1).val = (x 1).val
      omega
  | succ n ih =>
    have hn33 : n + 1 < 33 := hn
    have hf : (cfg1.win 0).fetch ⟨n + 1, hn⟩ = false := by
      cases hb : (cfg1.win 0).fetch ⟨n + 1, hn⟩ with
      | false => rfl
      | true =>
        have := (fetch1_0 ⟨n + 1, hn⟩).mp hb
        have : (n + 1) % 33 = 0 := this
        omega
    rcases (rd.finds_of_pos hf (Nat.succ_ne_zero n) Y).mp hY with hfl | ⟨Y', hY', hR⟩
    · rw [flush1_0] at hfl
      exact absurd hfl (by decide)
    · obtain rfl := hafter _ _ _ hR
      exact ih Y (Nat.lt_of_succ_lt hn) hY'

end Cert.KernelIdeal.Region

end
-- ==== Proof.RegionValue.lean ====
/-
  What a chunk's copy leaves in the result array: the tile function's rows.

  At a grid point the body stores the tile's payload into its slot of the scratch, whole, and copies the slot out in
  six chunks of 512 rows. Read at a row of chunk `r`, the result array after that chunk's copy has landed is the
  payload at the same row of the tile; the payload is the tile function of the three blocks behind a leading unit axis.
-/
import proofs.«204125_g1194000908950_cont_fleet_528_33_alg».proof.Proof.RegionViews
import proofs.«204125_g1194000908950_cont_fleet_528_33_alg».proof.Proof.RegionBlocks
import Idealize.ShloMosaic.Lib.ValueLayout

noncomputable section

namespace Cert.KernelIdeal.Region

open Cert.KernelIdeal Cert.KernelIdeal.Gen Cert.KernelIdeal.Common
open Idealize.ShloMosaic Idealize.ShloMosaic.ValueIdx Idealize.ShloMosaic.TcCoe
open Idealize.SL.Sem

variable {F : FTy → Type} [FloatOps F] [Named F] [∀ e, Nonempty (Elt F e)]

/-! ## The payload -/

abbrev rA : Rect S64x1024 := Rect.unit (s := S64x1024) ![0, 0] S64x1024.size inb_S64x1024_S64x1024_0_0
abbrev rW : Rect S64x3072 := Rect.unit (s := S64x3072) ![0, 0] S64x3072.size inb_S64x3072_S64x3072_0_0
abbrev rB : Rect S3072 := Rect.unit (s := S3072) ![0] S3072.size inb_S3072_S3072_0
abbrev pay (x1 : Vec F S64x1024 .f32) (x2 : Vec F S64x3072 .f32) (x3 : Vec F S3072 .f32) : S1x3072x1024.Idx → Elt F .f32 :=
  k1_pay1 (View.ld x2 rW) (View.ld x1 rA) (View.ld x3 rB)

/-- The payload is the tile function behind a leading unit axis. -/
theorem pay_apply (x1 : Vec F S64x1024 .f32) (x2 : Vec F S64x3072 .f32) (x3 : Vec F S3072 .f32) (u : Fin 1) (r : Fin 3072) (col : Fin 1024) :
    pay x1 x2 x3 (ix3 u r col) = tileF x1 x2 x3 (ix2 r col) := by
  have h1 : View.ld x1 rA = x1 := View.ld_unit_zero (by funext a; fin_cases a <;> rfl) _ x1
  have h2 : View.ld x2 rW = x2 := View.ld_unit_zero (by funext a; fin_cases a <;> rfl) _ x2
  have h3 : View.ld x3 rB = x3 := View.ld_unit_zero (by funext a; fin_cases a <;> rfl) _ x3
  show k1_pay1 (View.ld x2 rW) (View.ld x1 rA) (View.ld x3 rB) (ix3 u r col) = _
  rw [h1, h2, h3]
  unfold k1_pay1 tileF
  rw [shapeCast_ab_1ab_apply, shapeCast_self, shapeCast_self]

/-! ## Reading through a view at a named element -/

/-- A store through a view, read at the element a stored index of the view names. -/
theorem write_at {sig : RefSig} {κ : Kind} {sp : Space} {s : Shape} {e : EltTy} {Val : EltTy → Type}
    (v : View sig κ sp s e) {f : v.ty.Contents Val} {w : s.Idx → Val e} {M : Finset s.Idx} (x : s.Idx) {i : v.ty.Idx}
    (h : v.emb x = i) (hx : x ∈ M) :
    v.write Val f w M i = _root_.cast (congrArg Val v.elt_eq.symm) (w x) := by
  subst h; exact View.write_emb_of_mem f w hx

/-- A read through a view at an index is the buffer's element that index names. -/
theorem read_at {sig : RefSig} {κ : Kind} {sp : Space} {s : Shape} {e : EltTy} {Val : EltTy → Type}
    (v : View sig κ sp s e) {f : v.ty.Contents Val} (x : s.Idx) {i : v.ty.Idx} (h : v.emb x = i) :
    v.read Val f x = _root_.cast (congrArg Val v.elt_eq) (f i) := by
  subst h; rfl

/-- Row `ρ` of a chunk of 512 rows of the result that starts at row `R0` is row `R0 + ρ` of the result. -/
theorem dst_emb (R0 : ℕ) (inb16 : ∀ a, (![R0, 0] : Fin 2 → ℕ) a + S512x1024.size a ≤ S100000x1024.size a)
    (ρ : Fin 512) (col : Fin 1024) (hR : R0 + ρ.val < 100000) :
    (V4.slice (Rect.unit (s := S100000x1024) ![R0, 0] S512x1024.size inb16) (fun _ => rfl)).view.emb (ix2 ρ col)
      = ix2 ⟨R0 + ρ.val, hR⟩ col := by
  funext a; apply Fin.ext
  show ((Rect.unit (s := S100000x1024) ![R0, 0] S512x1024.size inb16).emb (ix2 ρ col) a).val = _
  rw [Rect.emb_apply]
  match a with
  | ⟨0, _⟩ => show R0 + 1 * ρ.val = R0 + ρ.val; omega
  | ⟨1, _⟩ => show 0 + 1 * col.val = col.val; omega

/-- Row `ρ` of the chunk of a slot that starts at the slot's row `q`, the chunk's leading unit axis dropped, is row
    `q + ρ` of the slot. -/
theorem src_emb (s q : ℕ) (inb17 : ∀ a, (![s, q, 0] : Fin 3 → ℕ) a + S1x512x1024.size a ≤ S2x3072x1024.size a)
    (inb14 : ∀ a, (![s, 0, 0] : Fin 3 → ℕ) a + S1x3072x1024.size a ≤ S2x3072x1024.size a)
    (ρ : Fin 512) (col : Fin 1024) (hq : q + ρ.val < 3072) :
    ((SCR.slice (Rect.unit (s := S2x3072x1024) ![s, q, 0] S1x512x1024.size inb17) (fun _ => rfl)).squeeze S512x1024
          squeezes_S1x512x1024_S512x1024).view.emb (ix2 ρ col)
      = (SCR.access (Rect.unit (s := S2x3072x1024) ![s, 0, 0] S1x3072x1024.size inb14)).emb (ix3 (0 : Fin 1) ⟨q + ρ.val, hq⟩ col) := by
  have h1 : ((SCR.slice (Rect.unit (s := S2x3072x1024) ![s, q, 0] S1x512x1024.size inb17) (fun _ => rfl)).squeeze S512x1024
        squeezes_S1x512x1024_S512x1024).view.emb (ix2 ρ col)
      = (Rect.unit (s := S2x3072x1024) ![s, q, 0] S1x512x1024.size inb17).emb
          (Shape.reshapeEquiv squeezes_S1x512x1024_S512x1024.numel_eq (ix2 ρ col)) := rfl
  rw [h1, Shape.reshapeEquiv_cons_one]
  funext a; apply Fin.ext
  show _ = ((Rect.unit (s := S2x3072x1024) ![s, 0, 0] S1x3072x1024.size inb14).emb (ix3 (0 : Fin 1) ⟨q + ρ.val, hq⟩ col) a).val
  rw [Rect.emb_apply, Rect.emb_apply]
  match a with
  | ⟨0, _⟩ => show s + 1 * 0 = s + 1 * 0; rfl
  | ⟨1, _⟩ => show q + 1 * ρ.val = 0 + 1 * (q + ρ.val); omega
  | ⟨2, _⟩ => show 0 + 1 * col.val = 0 + 1 * col.val; rfl

/-! ## A chunk's copy, at any offsets of the body's form -/

/-- The result array after: the payload `P` stored over the slot at `off14`, whole; the chunk at `off17` of the scratch
    read; and that written over the rows at `off16` of the result. -/
def landedGen (c : Dev nD) (off16 : Fin 2 → ℕ) (off17 off14 : Fin 3 → ℕ)
    (inb16 : ∀ a, off16 a + S512x1024.size a ≤ S100000x1024.size a)
    (inb17 : ∀ a, off17 a + S1x512x1024.size a ≤ S2x3072x1024.size a)
    (inb14 : ∀ a, off14 a + S1x3072x1024.size a ≤ S2x3072x1024.size a)
    (P : S1x3072x1024.Idx → Elt F .f32) (fd : Buf (Elt F) (V4.view.loc (thr c))) (g : Buf (Elt F) (SCR.view.loc (thr c))) :
    FVec F S100000x1024 .f32 :=
  (V4.slice (Rect.unit (s := S100000x1024) off16 S512x1024.size inb16) (fun _ => rfl)).view.write (Elt F) fd
    ((ReadAs.same : ReadAs (Elt F) S512x1024 .f32 S512x1024 .f32).apply
      (((SCR.slice (Rect.unit (s := S2x3072x1024) off17 S1x512x1024.size inb17) (fun _ => rfl)).squeeze S512x1024
          squeezes_S1x512x1024_S512x1024).view.read (Elt F)
        ((SCR.access (Rect.unit (s := S2x3072x1024) off14 S1x3072x1024.size inb14)).write (Elt F) g P Finset.univ))) Finset.univ

set_option maxHeartbeats 100000 in
/-- The slot stored whole, a chunk of it copied to rows of the result: read at a row of the chunk, the result holds
    the stored payload at the chunk's row. -/
theorem landed_val_gen (c : Dev nD) (off16 : Fin 2 → ℕ) (off17 off14 : Fin 3 → ℕ) (R0 s q : ℕ)
    (h16 : off16 = ![R0, 0]) (h17 : off17 = ![s, q, 0]) (h14 : off14 = ![s, 0, 0])
    (inb16 : ∀ a, off16 a + S512x1024.size a ≤ S100000x1024.size a)
    (inb17 : ∀ a, off17 a + S1x512x1024.size a ≤ S2x3072x1024.size a)
    (inb14 : ∀ a, off14 a + S1x3072x1024.size a ≤ S2x3072x1024.size a)
    (P : S1x3072x1024.Idx → Elt F .f32) (fd : Buf (Elt F) (V4.view.loc (thr c))) (g : Buf (Elt F) (SCR.view.loc (thr c)))
    (ρ : Fin 512) (col : Fin 1024) (hR : R0 + ρ.val < 100000) (hq : q + ρ.val < 3072) :
    landedGen c off16 off17 off14 inb16 inb17 inb14 P fd g (ix2 ⟨R0 + ρ.val, hR⟩ col)
      = P (ix3 (0 : Fin 1) ⟨q + ρ.val, hq⟩ col) := by
  subst h16 h17 h14
  unfold landedGen
  refine (write_at (V4.slice (Rect.unit (s := S100000x1024) ![R0, 0] S512x1024.size inb16) (fun _ => rfl)).view (ix2 ρ col)
    (dst_emb R0 inb16 ρ col hR) (Finset.mem_univ _)).trans ?_
  refine (cast_eq _ _).trans ?_
  refine (read_at ((SCR.slice (Rect.unit (s := S2x3072x1024) ![s, q, 0] S1x512x1024.size inb17) (fun _ => rfl)).squeeze S512x1024
          squeezes_S1x512x1024_S512x1024).view (ix2 ρ col) (src_emb s q inb17 inb14 ρ col hq)).trans ?_
  refine (cast_eq _ _).trans ?_
  refine (write_at (SCR.access (Rect.unit (s := S2x3072x1024) ![s, 0, 0] S1x3072x1024.size inb14)) (ix3 (0 : Fin 1) ⟨q + ρ.val, hq⟩ col) rfl
    (Finset.mem_univ _)).trans ?_
  exact cast_eq _ _

/-! ## The six chunks, as the body spells them -/

/-- The result array once chunk 0's copy of the freshly stored slot has landed. -/
abbrev landed0 (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    Buf (Elt F) (V4.view.loc (thr c)) :=
  (dstI0 i h2).view.write (Elt F) fd (ReadAs.same.apply ((srcI0 i h2).view.read (Elt F)
    ((SCR.access (slotR i)).write (Elt F) g (pay x1 x2 x3) Finset.univ))) Finset.univ

set_option maxHeartbeats 100000 in
/-- Chunk 0's rows inside the array are then the tile function's. -/
theorem landed0_good (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    GoodOn ⟨(i 0).val, (i 0).isLt⟩ (0 : Fin 6) x1 x2 x3 (landed0 c i h2 x1 x2 x3 fd g) := by
  intro ρ col h
  have hq : 0 + ρ.val < 3072 := by have := ρ.isLt; omega
  refine (landed_val_gen c (k1_off16 i 0#32) (k1_off17 i) (k1_off14 i) (3072 * (i 0).val + 512 * (0 : Fin 6).val) ((i 0).val % 2) 0
    (k1_off16_eq i 0) (k1_off17_eq i) (k1_off14_eq i) (k1_off16_inb i h2 0) (k1_off17_inb i h2) (k1_off14_inb i)
    (pay x1 x2 x3) fd g ρ col h hq).trans ?_
  exact pay_apply x1 x2 x3 0 _ col

/-- Off the chunk's rows the array is as it was. -/
theorem landed0_off (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c)))
    (x : (dstI0 i h2).view.ty.Idx) (hx : x ∉ (dstI0 i h2).view.set) : landed0 c i h2 x1 x2 x3 fd g x = fd x :=
  View.write_of_not_mem fd _ Finset.univ hx

/-- The result array once chunk 1's copy of the freshly stored slot has landed. -/
abbrev landed1 (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    Buf (Elt F) (V4.view.loc (thr c)) :=
  (dstI1 i h2).view.write (Elt F) fd (ReadAs.same.apply ((srcI1 i h2).view.read (Elt F)
    ((SCR.access (slotR i)).write (Elt F) g (pay x1 x2 x3) Finset.univ))) Finset.univ

set_option maxHeartbeats 100000 in
/-- Chunk 1's rows inside the array are then the tile function's. -/
theorem landed1_good (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    GoodOn ⟨(i 0).val, (i 0).isLt⟩ (1 : Fin 6) x1 x2 x3 (landed1 c i h2 x1 x2 x3 fd g) := by
  intro ρ col h
  have hq : 512 + ρ.val < 3072 := by have := ρ.isLt; omega
  refine (landed_val_gen c (k1_off16 i 512#32) (k1_off19 i) (k1_off14 i) (3072 * (i 0).val + 512 * (1 : Fin 6).val) ((i 0).val % 2) 512
    (k1_off16_eq i 1) (k1_off19_eq i) (k1_off14_eq i) (k1_off16_inb i h2 1) (k1_off19_inb i h2) (k1_off14_inb i)
    (pay x1 x2 x3) fd g ρ col h hq).trans ?_
  exact pay_apply x1 x2 x3 0 _ col

/-- Off the chunk's rows the array is as it was. -/
theorem landed1_off (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c)))
    (x : (dstI1 i h2).view.ty.Idx) (hx : x ∉ (dstI1 i h2).view.set) : landed1 c i h2 x1 x2 x3 fd g x = fd x :=
  View.write_of_not_mem fd _ Finset.univ hx

/-- The result array once chunk 2's copy of the freshly stored slot has landed. -/
abbrev landed2 (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    Buf (Elt F) (V4.view.loc (thr c)) :=
  (dstI2 i h2).view.write (Elt F) fd (ReadAs.same.apply ((srcI2 i h2).view.read (Elt F)
    ((SCR.access (slotR i)).write (Elt F) g (pay x1 x2 x3) Finset.univ))) Finset.univ

set_option maxHeartbeats 100000 in
/-- Chunk 2's rows inside the array are then the tile function's. -/
theorem landed2_good (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    GoodOn ⟨(i 0).val, (i 0).isLt⟩ (2 : Fin 6) x1 x2 x3 (landed2 c i h2 x1 x2 x3 fd g) := by
  intro ρ col h
  have hq : 1024 + ρ.val < 3072 := by have := ρ.isLt; omega
  refine (landed_val_gen c (k1_off16 i 1024#32) (k1_off21 i) (k1_off14 i) (3072 * (i 0).val + 512 * (2 : Fin 6).val) ((i 0).val % 2) 1024
    (k1_off16_eq i 2) (k1_off21_eq i) (k1_off14_eq i) (k1_off16_inb i h2 2) (k1_off21_inb i h2) (k1_off14_inb i)
    (pay x1 x2 x3) fd g ρ col h hq).trans ?_
  exact pay_apply x1 x2 x3 0 _ col

/-- Off the chunk's rows the array is as it was. -/
theorem landed2_off (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c)))
    (x : (dstI2 i h2).view.ty.Idx) (hx : x ∉ (dstI2 i h2).view.set) : landed2 c i h2 x1 x2 x3 fd g x = fd x :=
  View.write_of_not_mem fd _ Finset.univ hx

/-- The result array once chunk 3's copy of the freshly stored slot has landed. -/
abbrev landed3 (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    Buf (Elt F) (V4.view.loc (thr c)) :=
  (dstI3 i h2).view.write (Elt F) fd (ReadAs.same.apply ((srcI3 i h2).view.read (Elt F)
    ((SCR.access (slotR i)).write (Elt F) g (pay x1 x2 x3) Finset.univ))) Finset.univ

set_option maxHeartbeats 100000 in
/-- Chunk 3's rows inside the array are then the tile function's. -/
theorem landed3_good (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    GoodOn ⟨(i 0).val, (i 0).isLt⟩ (3 : Fin 6) x1 x2 x3 (landed3 c i h2 x1 x2 x3 fd g) := by
  intro ρ col h
  have hq : 1536 + ρ.val < 3072 := by have := ρ.isLt; omega
  refine (landed_val_gen c (k1_off16 i 1536#32) (k1_off23 i) (k1_off14 i) (3072 * (i 0).val + 512 * (3 : Fin 6).val) ((i 0).val % 2) 1536
    (k1_off16_eq i 3) (k1_off23_eq i) (k1_off14_eq i) (k1_off16_inb i h2 3) (k1_off23_inb i h2) (k1_off14_inb i)
    (pay x1 x2 x3) fd g ρ col h hq).trans ?_
  exact pay_apply x1 x2 x3 0 _ col

/-- Off the chunk's rows the array is as it was. -/
theorem landed3_off (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c)))
    (x : (dstI3 i h2).view.ty.Idx) (hx : x ∉ (dstI3 i h2).view.set) : landed3 c i h2 x1 x2 x3 fd g x = fd x :=
  View.write_of_not_mem fd _ Finset.univ hx

/-- The result array once chunk 4's copy of the freshly stored slot has landed. -/
abbrev landed4 (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    Buf (Elt F) (V4.view.loc (thr c)) :=
  (dstI4 i h2).view.write (Elt F) fd (ReadAs.same.apply ((srcI4 i h2).view.read (Elt F)
    ((SCR.access (slotR i)).write (Elt F) g (pay x1 x2 x3) Finset.univ))) Finset.univ

set_option maxHeartbeats 100000 in
/-- Chunk 4's rows inside the array are then the tile function's. -/
theorem landed4_good (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    GoodOn ⟨(i 0).val, (i 0).isLt⟩ (4 : Fin 6) x1 x2 x3 (landed4 c i h2 x1 x2 x3 fd g) := by
  intro ρ col h
  have hq : 2048 + ρ.val < 3072 := by have := ρ.isLt; omega
  refine (landed_val_gen c (k1_off16 i 2048#32) (k1_off25 i) (k1_off14 i) (3072 * (i 0).val + 512 * (4 : Fin 6).val) ((i 0).val % 2) 2048
    (k1_off16_eq i 4) (k1_off25_eq i) (k1_off14_eq i) (k1_off16_inb i h2 4) (k1_off25_inb i h2) (k1_off14_inb i)
    (pay x1 x2 x3) fd g ρ col h hq).trans ?_
  exact pay_apply x1 x2 x3 0 _ col

/-- Off the chunk's rows the array is as it was. -/
theorem landed4_off (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c)))
    (x : (dstI4 i h2).view.ty.Idx) (hx : x ∉ (dstI4 i h2).view.set) : landed4 c i h2 x1 x2 x3 fd g x = fd x :=
  View.write_of_not_mem fd _ Finset.univ hx

/-- The result array once chunk 5's copy of the freshly stored slot has landed. -/
abbrev landed5 (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    Buf (Elt F) (V4.view.loc (thr c)) :=
  (dstI5 i h2).view.write (Elt F) fd (ReadAs.same.apply ((srcI5 i h2).view.read (Elt F)
    ((SCR.access (slotR i)).write (Elt F) g (pay x1 x2 x3) Finset.univ))) Finset.univ

set_option maxHeartbeats 100000 in
/-- Chunk 5's rows inside the array are then the tile function's. -/
theorem landed5_good (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    GoodOn ⟨(i 0).val, (i 0).isLt⟩ (5 : Fin 6) x1 x2 x3 (landed5 c i h2 x1 x2 x3 fd g) := by
  intro ρ col h
  have hq : 2560 + ρ.val < 3072 := by have := ρ.isLt; omega
  refine (landed_val_gen c (k1_off16 i 2560#32) (k1_off27 i) (k1_off14 i) (3072 * (i 0).val + 512 * (5 : Fin 6).val) ((i 0).val % 2) 2560
    (k1_off16_eq i 5) (k1_off27_eq i) (k1_off14_eq i) (k1_off16_inb i h2 5) (k1_off27_inb i h2) (k1_off14_inb i)
    (pay x1 x2 x3) fd g ρ col h hq).trans ?_
  exact pay_apply x1 x2 x3 0 _ col

/-- Off the chunk's rows the array is as it was. -/
theorem landed5_off (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c)))
    (x : (dstI5 i h2).view.ty.Idx) (hx : x ∉ (dstI5 i h2).view.set) : landed5 c i h2 x1 x2 x3 fd g x = fd x :=
  View.write_of_not_mem fd _ Finset.univ hx

end Cert.KernelIdeal.Region

end
-- ==== Proof.RegionInv.lean ====
/-
  The TensorCore kernel's invariant between grid points. The result [100000, 1024] is held by its (tile, chunk)
  row ranges and the scratch by its (slot, chunk) pieces. Before point t: the ranges of tiles t and later are untouched;
  those of tiles t − 2 and t − 1 are lent to the copies in flight from the two slots, each copy's `Flight` delivering
  its range written and its chunk of the scratch; those of earlier tiles are written. A slot whose copies are in
  flight is lent whole with its six semaphores; otherwise its semaphores are at zero in the core's hand. What is
  claimed of a written range is a parameter, stated of the tile's operand blocks as the body found them. The body's
  run at a point is stated by case (points 0 and 1; 2 ‥ 31; the last) over these pieces.
-/
import proofs.«204125_g1194000908950_cont_fleet_528_33_alg».proof.Proof.RegionSets
import proofs.«204125_g1194000908950_cont_fleet_528_33_alg».proof.Proof.RegionValue
import Idealize.ShloMosaic.Lib.Transfers
import Idealize.ShloMosaic.Lib.Writes
import Idealize.ShloMosaic.Lib.Pipeline.FrameBody
import Idealize.ShloMosaic.Lib.Tactic

noncomputable section

namespace Cert.KernelIdeal.Region

open Cert.KernelIdeal Cert.KernelIdeal.Gen Cert.KernelIdeal.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MM F

/-! ## The pieces between points, in one spelling -/

section Pieces

variable (c : Dev nD)

/-- Semaphore `r` of slot `s` at zero in the core's hand. -/
abbrev cellC (s : Fin 2) (r : Fin 6) : sProp 𝕄 := semVal (thr c, SemLoc.dma (semC s r)) 0
/-- Chunk `r` of slot `s` of the scratch, at some contents. -/
abbrev scrC (s : Fin 2) (r : Fin 6) : sProp 𝕄 := iprop(∃ g, SCR.view.loc (thr c) ↦[(chunkR s r).set]{fullShare} g)
/-- Rows (j, r) of the result, at some contents: not yet written. -/
abbrev freshC (j : Fin 33) (r : Fin 6) : sProp 𝕄 := iprop(∃ f, V4.view.loc (thr c) ↦[dsetC j r]{fullShare} f)
/-- Rows (j, r) of the result, at contents `G` holds of: written. -/
abbrev doneC (j : Fin 33) (r : Fin 6) (G : Buf (Elt F) (V4.view.loc (thr c)) → Prop) : sProp 𝕄 :=
  iprop(∃ f, ⌜G f⌝ ∗ V4.view.loc (thr c) ↦[dsetC j r]{fullShare} f)
/-- A copy in flight on semaphore (s, r): it delivers `D` and chunk (s, r) of the scratch. -/
abbrev flightC (s : Fin 2) (r : Fin 6) (D : sProp 𝕄) : sProp 𝕄 :=
  Transfers.Flight countersEmb (thr c) (SemLoc.dma (semC s r)) (none : HIx 1) 65536 iprop(D ∗ scrC c s r)

end Pieces

/-! ## The invariant between points -/

section Inv

variable (c : Dev nD)
  (vA : Buf (Elt F) ((thr c).loc main_v2)) (vW : Buf (Elt F) ((thr c).loc main_v3)) (vB : Buf (Elt F) ((thr c).loc main_arg3))
  /- what is claimed of rows (j, r) of the result once written, of the tile's three operand blocks -/
  (GP : Fin 33 → Fin 6 → Vec F S64x1024 .f32 → Vec F S64x3072 .f32 → Vec F S3072 .f32 → Buf (Elt F) (V4.view.loc (thr c)) → Prop)

/-- The slot of tile `j`. -/
abbrev sN (j : Fin 33) : Fin 2 := ⟨j.val % 2, Nat.mod_lt _ (by decide)⟩

/-- Rows (j, r) of the result before point `t`: untouched up to point j; in flight from slot j mod 2 after points j and
    j + 1 (the last point, 32, drains everything); written from then on. -/
def OutSt (t : ℕ) (j : Fin 33) (r : Fin 6) (G : Buf (Elt F) (V4.view.loc (thr c)) → Prop) : sProp 𝕄 :=
  if t ≤ j.val then freshC c j r
  else if t ≤ j.val + 2 ∧ t ≤ 32 then flightC c (sN j) r (doneC c j r G)
  else doneC c j r G

/-- Tile `j` before point `t`: once its point has run, the two operand blocks the body found there agree with the
    arrays where the arrays have entries, and its six row ranges are in flight or written with what `GP` says of them. -/
def TileSt (t : ℕ) (j : Fin 33) : sProp 𝕄 :=
  iprop(∃ (wblk : Vec F S64x3072 .f32) (bblk : Vec F S3072 .f32), ⌜j.val < t → Cert.Spec.WAgrees vW j wblk ∧ Cert.Spec.BAgrees vB j bblk⌝
    ∗ bigSep Finset.univ fun r : Fin 6 => OutSt c t j r (GP j r vA wblk bblk))

/-- Slot `s` is lent to copies in flight before point `t`. -/
def busy (t : ℕ) (s : Fin 2) : Prop := (1 ≤ t ∧ t ≤ 32 ∧ (t - 1) % 2 = s.val) ∨ (2 ≤ t ∧ t ≤ 32 ∧ (t - 2) % 2 = s.val)
instance (t : ℕ) (s : Fin 2) : Decidable (busy t s) := by unfold busy; infer_instance

/-- Semaphore and chunk (s, r) before point `t`: in the core's hand unless the slot is lent. -/
def SlotSt (t : ℕ) (s : Fin 2) (r : Fin 6) : sProp 𝕄 := if busy t s then iprop(emp) else iprop(cellC c s r ∗ scrC c s r)

/-- The body's invariant before point `t`. -/
def Inv (t : ℕ) : sProp 𝕄 :=
  iprop(levAts (K (F := F)).L (K (F := F)).lev
    ∗ (bigSep Finset.univ fun j : Fin 33 => TileSt c vA vW vB GP t j)
    ∗ bigSep Finset.univ fun s : Fin 2 => bigSep Finset.univ fun r : Fin 6 => SlotSt c t s r)

end Inv

/-! ## The body's run at a point, by case, over the pieces -/

section Steps

variable (c : Dev nD) (O : CellTallies nD τ sig (HIx 1))

/-- The post every case ends in: the staged blocks as found, and the core's `owes` with the body's waits recorded. -/
abbrev stepPost (t : Fin cfg1.N) (x1 : Vec F S64x1024 .f32) (x2 : Vec F S64x3072 .f32) (x3 : Vec F S3072 .f32) (W : Waits sig (HIx 1)) (P : sProp 𝕄) : sProp 𝕄 :=
  iprop(owns (thr c) (st1_0 t) fullShare x1 ∗ owns (thr c) (st1_1 t) fullShare x2 ∗ owns (thr c) (st1_2 t) fullShare x3 ∗ P
    ∗ ∃ W', ⌜∀ p ∈ W', p ∈ W ∨ p.2 = none⌝ ∗ owes (thr c) O W')

/-- Points 0 and 1: the slot is free; store the tile, start its six copies. -/
def StepLo (GP : Fin 33 → Fin 6 → Vec F S64x1024 .f32 → Vec F S64x3072 .f32 → Vec F S3072 .f32 → Buf (Elt F) (V4.view.loc (thr c)) → Prop) : Prop :=
  ∀ (t : Fin cfg1.N) (_ : t.val < 2) x1 x2 x3 (W : Waits sig (HIx 1)),
    iprop(owns (thr c) (st1_0 t) fullShare x1 ∗ owns (thr c) (st1_1 t) fullShare x2 ∗ owns (thr c) (st1_2 t) fullShare x3
      ∗ (bigSep Finset.univ fun r : Fin 6 => iprop(cellC c (sOf (grid1.coords t)) r ∗ scrC c (sOf (grid1.coords t)) r))
      ∗ (bigSep Finset.univ fun r : Fin 6 => freshC c (tOf (grid1.coords t)) r)
      ∗ owes (thr c) O W)
    ⊢ wp frame (wpE (defs₀ (F := F)) Variants.none (thr c) none) Set.univ (bodyAt1 t) fun _ =>
        stepPost c O t x1 x2 x3 W
          (bigSep Finset.univ fun r : Fin 6 => flightC c (sOf (grid1.coords t)) r (doneC c (tOf (grid1.coords t)) r (GP (tOf (grid1.coords t)) r x1 x2 x3)))

/-- Points 2 ‥ 31: wait the slot's six copies of two points ago (delivering `Dd r`), store, start six. -/
def StepMid (GP : Fin 33 → Fin 6 → Vec F S64x1024 .f32 → Vec F S64x3072 .f32 → Vec F S3072 .f32 → Buf (Elt F) (V4.view.loc (thr c)) → Prop) : Prop :=
  ∀ (t : Fin cfg1.N) (_ : 2 ≤ t.val) (_ : t.val < 32) x1 x2 x3 (W : Waits sig (HIx 1)) (Dd : Fin 6 → sProp 𝕄),
    iprop(owns (thr c) (st1_0 t) fullShare x1 ∗ owns (thr c) (st1_1 t) fullShare x2 ∗ owns (thr c) (st1_2 t) fullShare x3
      ∗ (bigSep Finset.univ fun r : Fin 6 => flightC c (sOf (grid1.coords t)) r (Dd r))
      ∗ (bigSep Finset.univ fun r : Fin 6 => freshC c (tOf (grid1.coords t)) r)
      ∗ owes (thr c) O W ∗ Transfers.MayWaits (thr c) (none : HIx 1) O)
    ⊢ wp frame (wpE (defs₀ (F := F)) Variants.none (thr c) none) Set.univ (bodyAt1 t) fun _ =>
        stepPost c O t x1 x2 x3 W
          iprop((bigSep Finset.univ fun r : Fin 6 => Dd r)
            ∗ bigSep Finset.univ fun r : Fin 6 => flightC c (sOf (grid1.coords t)) r (doneC c (tOf (grid1.coords t)) r (GP (tOf (grid1.coords t)) r x1 x2 x3)))

/-- Point 32: wait slot 0's copies of point 30 (`Dd`), store, start the tail's four copies, wait slot 1's of point 31
    (`De`) and the tail's: everything is back. -/
def StepLast (GP : Fin 33 → Fin 6 → Vec F S64x1024 .f32 → Vec F S64x3072 .f32 → Vec F S3072 .f32 → Buf (Elt F) (V4.view.loc (thr c)) → Prop) : Prop :=
  ∀ (t : Fin cfg1.N) (_ : t.val = 32) x1 x2 x3 (W : Waits sig (HIx 1)) (Dd De : Fin 6 → sProp 𝕄),
    iprop(owns (thr c) (st1_0 t) fullShare x1 ∗ owns (thr c) (st1_1 t) fullShare x2 ∗ owns (thr c) (st1_2 t) fullShare x3
      ∗ (bigSep Finset.univ fun r : Fin 6 => flightC c 0 r (Dd r))
      ∗ (bigSep Finset.univ fun r : Fin 6 => flightC c 1 r (De r))
      ∗ (bigSep Finset.univ fun r : Fin 6 => freshC c 32 r)
      ∗ owes (thr c) O W ∗ Transfers.MayWaits (thr c) (none : HIx 1) O)
    ⊢ wp frame (wpE (defs₀ (F := F)) Variants.none (thr c) none) Set.univ (bodyAt1 t) fun _ =>
        stepPost c O t x1 x2 x3 W
          iprop((bigSep Finset.univ fun r : Fin 6 => Dd r) ∗ (bigSep Finset.univ fun r : Fin 6 => De r)
            ∗ (bigSep Finset.univ fun r : Fin 6 => doneC c 32 r (GP 32 r x1 x2 x3))
            ∗ bigSep Finset.univ fun s : Fin 2 => bigSep Finset.univ fun r : Fin 6 => iprop(cellC c s r ∗ scrC c s r))

end Steps

end Cert.KernelIdeal.Region

end
-- ==== Proof.RegionRecord.lean ====
/-
  The TensorCore region's record: the proof data for the pipeline's loop (the three operand arrays as entered and left
  as found; the kernel's invariant between points; nothing owed), the body obligation at every point assembled from
  the body's three cases by sorting the invariant's pieces — which tile's rows are untouched, in flight or written, which
  slot is lent —, and the four entailments around the region: the result array and the kernel's twelve semaphores go
  in as untouched rows and free slots, and come out as rows all written, which say, tile by tile, that the result's
  rows are the tile function of blocks agreeing with the operands.
-/
import proofs.«204125_g1194000908950_cont_fleet_528_33_alg».proof.Proof.RegionInv
import proofs.«204125_g1194000908950_cont_fleet_528_33_alg».proof.Proof.RegionBlocks
import proofs.«204125_g1194000908950_cont_fleet_528_33_alg».proof.Proof.LibScRegion

noncomputable section

namespace Cert.KernelIdeal.Region

open Cert.KernelIdeal Cert.KernelIdeal.Gen Cert.KernelIdeal.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MM F

/-! ## How the invariant's pieces move from one point to the next -/

section Sorting

variable (c : Dev nD) (vA' : Buf (Elt F) ((thr c).loc main_v2)) (vW' : Buf (Elt F) ((thr c).loc main_v3)) (vB' : Buf (Elt F) ((thr c).loc main_arg3))
  (GP : Fin 33 → Fin 6 → Vec F S64x1024 .f32 → Vec F S64x3072 .f32 → Vec F S3072 .f32 → Buf (Elt F) (V4.view.loc (thr c)) → Prop)

theorem OutSt_succ (t : ℕ) (j : Fin 33) (r : Fin 6) (G : Buf (Elt F) (V4.view.loc (thr c)) → Prop) (h1 : j.val ≠ t) (h2 : j.val + 2 ≠ t) (h3 : t < 32) :
    OutSt c (t + 1) j r G = OutSt c t j r G := by
  unfold OutSt; split_ifs <;> first | rfl | (exfalso; omega)
theorem OutSt_fresh {t : ℕ} {j : Fin 33} (r : Fin 6) (G : Buf (Elt F) (V4.view.loc (thr c)) → Prop) (h : t ≤ j.val) : OutSt c t j r G = freshC c j r := by unfold OutSt; exact if_pos h
theorem OutSt_flight {t : ℕ} {j : Fin 33} (r : Fin 6) (G : Buf (Elt F) (V4.view.loc (thr c)) → Prop) (h1 : j.val < t) (h2 : t ≤ j.val + 2) (h3 : t ≤ 32) :
    OutSt c t j r G = flightC c (sN j) r (doneC c j r G) := by
  unfold OutSt; rw [if_neg (by omega), if_pos ⟨h2, h3⟩]
theorem OutSt_done {t : ℕ} {j : Fin 33} (r : Fin 6) (G : Buf (Elt F) (V4.view.loc (thr c)) → Prop) (h1 : j.val < t) (h : j.val + 2 < t ∨ 32 < t) :
    OutSt c t j r G = doneC c j r G := by
  unfold OutSt; rw [if_neg (by omega), if_neg (by omega)]

theorem TileSt_succ (t : ℕ) (j : Fin 33) (h1 : j.val ≠ t) (h2 : j.val + 2 ≠ t) (h3 : t < 32) :
    TileSt c vA' vW' vB' GP (t + 1) j = TileSt c vA' vW' vB' GP t j := by
  unfold TileSt
  have e : (j.val < t + 1) = (j.val < t) := propext ⟨fun h => by omega, fun h => by omega⟩
  simp only [OutSt_succ c t j _ _ h1 h2 h3, e]

omit [FloatOps F] [Named F] [∀ e, Nonempty (Elt F e)] in
theorem busy_succ : ∀ (t : Fin 32) (s : Fin 2), s.val ≠ t.val % 2 → (busy (t.val + 1) s ↔ busy t.val s) := by decide

theorem SlotSt_succ (t : ℕ) (s : Fin 2) (r : Fin 6) (hs : s.val ≠ t % 2) (ht : t < 32) : SlotSt (F := F) c (t + 1) s r = SlotSt (F := F) c t s r := by
  have h := busy_succ ⟨t, ht⟩ s hs
  unfold SlotSt
  by_cases hb : busy t s
  · rw [if_pos hb, if_pos (h.mpr hb)]
  · rw [if_neg hb, if_neg (fun h' => hb (h.mp h'))]
theorem SlotSt_free {t : ℕ} {s : Fin 2} (r : Fin 6) (h : ¬ busy t s) : SlotSt (F := F) c t s r = iprop(cellC (F := F) c s r ∗ scrC (F := F) c s r) := by unfold SlotSt; exact if_neg h
theorem SlotSt_busy {t : ℕ} {s : Fin 2} (r : Fin 6) (h : busy t s) : SlotSt (F := F) c t s r = (iprop(emp) : sProp 𝕄) := by unfold SlotSt; exact if_pos h

omit [FloatOps F] [Named F] [∀ e, Nonempty (Elt F e)] in
theorem bigSep_fin2 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

omit [FloatOps F] [Named F] [∀ e, Nonempty (Elt F e)] in
theorem busy_mid : ∀ (t : Fin 33) (s : Fin 2), 2 ≤ t.val → busy t.val s := by decide
omit [FloatOps F] [Named F] [∀ e, Nonempty (Elt F e)] in
theorem free_lo : ∀ (t : Fin 2), ¬ busy t.val (⟨t.val % 2, Nat.mod_lt _ (by decide)⟩ : Fin 2) := by decide
omit [FloatOps F] [Named F] [∀ e, Nonempty (Elt F e)] in
theorem busy_own : ∀ (t : Fin 32), busy (t.val + 1) (⟨t.val % 2, Nat.mod_lt _ (by decide)⟩ : Fin 2) := by decide
omit [FloatOps F] [Named F] [∀ e, Nonempty (Elt F e)] in
theorem free_end : ∀ (s : Fin 2), ¬ busy 33 s := by decide

/-- A tile whose point has not run: its six row ranges are untouched. -/
theorem tile_fresh {t : ℕ} {j : Fin 33} (h : t ≤ j.val) :
    TileSt c vA' vW' vB' GP t j ⊢ bigSep Finset.univ fun r : Fin 6 => freshC c j r := by
  unfold TileSt
  simp only [OutSt_fresh c _ _ h]
  iintro ⟨%wblk, %bblk, -, H⟩
  iexact H

/-- A tile whose copies are in flight, from the flights and the blocks the body found. -/
theorem tile_flight {t : ℕ} {j : Fin 33} (h1 : j.val < t) (h2 : t ≤ j.val + 2) (h3 : t ≤ 32) (x2 : Vec F S64x3072 .f32) (x3 : Vec F S3072 .f32)
    (hw : Cert.Spec.WAgrees vW' j x2) (hb : Cert.Spec.BAgrees vB' j x3) :
    (bigSep Finset.univ fun r : Fin 6 => flightC c (sN j) r (doneC c j r (GP j r vA' x2 x3))) ⊢ TileSt c vA' vW' vB' GP t j := by
  unfold TileSt
  simp only [OutSt_flight c _ _ h1 h2 h3]
  iintro H; iexists x2, x3; isplitr
  · ipureintro; exact fun _ => ⟨hw, hb⟩
  · iexact H

/-- The same read the other way. -/
theorem tile_flight_elim {t : ℕ} {j : Fin 33} (h1 : j.val < t) (h2 : t ≤ j.val + 2) (h3 : t ≤ 32) :
    TileSt c vA' vW' vB' GP t j ⊢ iprop(∃ (x2 : Vec F S64x3072 .f32) (x3 : Vec F S3072 .f32), ⌜Cert.Spec.WAgrees vW' j x2 ∧ Cert.Spec.BAgrees vB' j x3⌝
      ∗ bigSep Finset.univ fun r : Fin 6 => flightC c (sN j) r (doneC c j r (GP j r vA' x2 x3))) := by
  unfold TileSt
  simp only [OutSt_flight c _ _ h1 h2 h3]
  iintro ⟨%x2, %x3, %h, H⟩
  iexists x2, x3; isplitr
  · ipureintro; exact h h1
  · iexact H

/-- A tile all of whose rows are written. -/
theorem tile_done {t : ℕ} {j : Fin 33} (h1 : j.val < t) (h : j.val + 2 < t ∨ 32 < t) (x2 : Vec F S64x3072 .f32) (x3 : Vec F S3072 .f32)
    (hw : Cert.Spec.WAgrees vW' j x2) (hb : Cert.Spec.BAgrees vB' j x3) :
    (bigSep Finset.univ fun r : Fin 6 => doneC c j r (GP j r vA' x2 x3)) ⊢ TileSt c vA' vW' vB' GP t j := by
  unfold TileSt
  simp only [OutSt_done c _ _ h1 h]
  iintro H; iexists x2, x3; isplitr
  · ipureintro; exact fun _ => ⟨hw, hb⟩
  · iexact H

/-- An early tile is written before the last point and after it alike. -/
theorem TileSt_end (j : Fin 33) (h : j.val < 30) : TileSt c vA' vW' vB' GP 33 j = TileSt c vA' vW' vB' GP 32 j := by
  unfold TileSt
  have e : (j.val < 33) = (j.val < 32) := propext ⟨fun _ => by omega, fun _ => by omega⟩
  simp only [OutSt_done c _ _ (show j.val < 33 by omega) (Or.inr (by omega)), OutSt_done c _ _ (show j.val < 32 by omega) (Or.inl (by omega)), e]

/-! ## The body's three cases, from the invariant before a point to the invariant after it -/

omit [FloatOps F] [Named F] [∀ e, Nonempty (Elt F e)] in
theorem lt33 (t : Fin cfg1.N) : t.val < 33 := t.isLt
/-- The tile of a grid point. -/
abbrev jOf (t : Fin cfg1.N) : Fin 33 := ⟨t.val, lt33 t⟩

omit [FloatOps F] [Named F] [∀ e, Nonempty (Elt F e)] in
theorem tOf_pt (t : Fin cfg1.N) : tOf (grid1.coords t) = jOf t := Fin.ext (coords1 t)
omit [FloatOps F] [Named F] [∀ e, Nonempty (Elt F e)] in
theorem sOf_pt (t : Fin cfg1.N) : sOf (grid1.coords t) = sN (jOf t) :=
  Fin.ext (by show (grid1.coords t 0).val % 2 = t.val % 2; rw [coords1 t])

omit [FloatOps F] [Named F] in
theorem bigSep_emp'' {I : Type} (s : Finset I) : (bigSep s fun _ => iprop(emp)) = (iprop(emp) : sProp 𝕄) := bigSep_emp_const s

/-- Points 0 and 1. -/
theorem inv_step_lo (hlo : StepLo (F := F) c (0 : CellTallies nD τ sig (HIx 1)) GP) (t : Fin cfg1.N) (h2 : t.val < 2)
    (x2 : Vec F S64x3072 .f32) (x3 : Vec F S3072 .f32) (W1 : Waits sig (HIx 1))
    (hw : Cert.Spec.WAgrees vW' (jOf t) x2) (hb : Cert.Spec.BAgrees vB' (jOf t) x3) :
    iprop(Inv c vA' vW' vB' GP t.val ∗ owes (thr c) (0 : CellTallies nD τ sig (HIx 1)) W1
        ∗ owns (thr c) (st1_0 t) fullShare vA' ∗ owns (thr c) (st1_1 t) fullShare x2 ∗ owns (thr c) (st1_2 t) fullShare x3)
      ⊢ wp frame (wpE (defs₀ (F := F)) Variants.none (thr c) none) Set.univ (bodyAt1 t) fun _ =>
          iprop(Inv c vA' vW' vB' GP (t.val + 1) ∗ (∃ W', ⌜∀ p ∈ W', p ∈ W1 ∨ p.2 = none⌝ ∗ owes (thr c) (0 : CellTallies nD τ sig (HIx 1)) W')
            ∗ owns (thr c) (st1_0 t) fullShare vA' ∗ owns (thr c) (st1_1 t) fullShare x2 ∗ owns (thr c) (st1_2 t) fullShare x3) := by
  have hstep := hlo t h2 vA' x2 x3 W1
  rw [tOf_pt, sOf_pt] at hstep
  have k1 : (jOf t).val < t.val + 1 := Nat.lt_succ_self _
  have k2 : t.val + 1 ≤ (jOf t).val + 2 := by show t.val + 1 ≤ t.val + 2; omega
  have k3 : t.val + 1 ≤ 32 := by omega
  have k4 : t.val < 32 := by omega
  have eT : (bigSep (Finset.univ.erase (jOf t)) fun j => TileSt c vA' vW' vB' GP (t.val + 1) j)
      = bigSep (Finset.univ.erase (jOf t)) fun j => TileSt c vA' vW' vB' GP t.val j :=
    bigSep_congr fun j hj => TileSt_succ c vA' vW' vB' GP t.val j (fun e => (Finset.ne_of_mem_erase hj) (Fin.ext e)) (by omega) k4
  have eS : (bigSep (Finset.univ.erase (sN (jOf t))) fun s => bigSep Finset.univ fun r : Fin 6 => SlotSt (F := F) c (t.val + 1) s r)
      = bigSep (Finset.univ.erase (sN (jOf t))) fun s => bigSep Finset.univ fun r : Fin 6 => SlotSt (F := F) c t.val s r :=
    bigSep_congr fun s hs => bigSep_congr fun r _ => SlotSt_succ c t.val s r (fun e => (Finset.ne_of_mem_erase hs) (Fin.ext e)) k4
  have eB : (bigSep Finset.univ fun r : Fin 6 => SlotSt (F := F) c (t.val + 1) (sN (jOf t)) r) = (iprop(emp) : sProp 𝕄) :=
    (bigSep_congr fun r _ => SlotSt_busy (F := F) c r (busy_own ⟨t.val, k4⟩)).trans (bigSep_emp'' _)
  unfold Inv
  iintro ⟨⟨#Hlev, Htiles, Hslots⟩, HO, Hy0, Hy1, Hy2⟩
  ihave Ht := (Entails.of_eq (SparseCore.bigSep_erase' (Finset.mem_univ (jOf t)))) $$ Htiles
  icases Ht with ⟨Htile, Hothers⟩
  ihave Hfresh := (tile_fresh c vA' vW' vB' GP (j := jOf t) (le_refl t.val)) $$ Htile
  ihave Hs := (Entails.of_eq (SparseCore.bigSep_erase' (Finset.mem_univ (sN (jOf t))))) $$ Hslots
  icases Hs with ⟨Hslot, Hsl'⟩
  ihave Hslot' := (Entails.of_eq (bigSep_congr fun r _ => SlotSt_free (F := F) c r (free_lo ⟨t.val, h2⟩))) $$ Hslot
  iapply (wp_wand_r frame _ _) $$ [Hy0 Hy1 Hy2 Hslot' Hfresh HO Hothers Hsl']
  isplitl [Hy0 Hy1 Hy2 Hslot' Hfresh HO]
  · iapply hstep
    isplitl [Hy0]; · iexact Hy0
    isplitl [Hy1]; · iexact Hy1
    isplitl [Hy2]; · iexact Hy2
    isplitl [Hslot']; · iexact Hslot'
    isplitl [Hfresh]; · iexact Hfresh
    iexact HO
  iintro %_ ⟨Hy0, Hy1, Hy2, Hfl, HO⟩
  isplitl [Hfl Hothers Hsl']
  · isplitr; · iexact Hlev
    isplitl [Hfl Hothers]
    · iapply (Entails.of_eq (SparseCore.bigSep_erase' (Finset.mem_univ (jOf t))).symm)
      isplitl [Hfl]
      · iapply (tile_flight c vA' vW' vB' GP (j := jOf t) k1 k2 k3 x2 x3 hw hb)
        iexact Hfl
      · iapply (Entails.of_eq eT.symm); iexact Hothers
    · iapply (Entails.of_eq (SparseCore.bigSep_erase' (Finset.mem_univ (sN (jOf t)))).symm)
      isplitr
      · iapply (Entails.of_eq eB.symm); iempintro
      · iapply (Entails.of_eq eS.symm); iexact Hsl'
  isplitl [HO]; · iexact HO
  isplitl [Hy0]; · iexact Hy0
  isplitl [Hy1]; · iexact Hy1
  iexact Hy2

omit [FloatOps F] [Named F] [∀ e, Nonempty (Elt F e)] in
theorem lt33' (t : Fin cfg1.N) : t.val - 2 < 33 := by have := lt33 t; omega
/-- The tile two points back. -/
abbrev jOf2 (t : Fin cfg1.N) : Fin 33 := ⟨t.val - 2, lt33' t⟩

/-- Points 2 to 31. -/
theorem inv_step_mid (hmid : StepMid (F := F) c (0 : CellTallies nD τ sig (HIx 1)) GP) (t : Fin cfg1.N) (h2 : 2 ≤ t.val) (h32 : t.val < 32)
    (x2 : Vec F S64x3072 .f32) (x3 : Vec F S3072 .f32) (W1 : Waits sig (HIx 1))
    (hw : Cert.Spec.WAgrees vW' (jOf t) x2) (hb : Cert.Spec.BAgrees vB' (jOf t) x3) :
    iprop(Inv c vA' vW' vB' GP t.val ∗ owes (thr c) (0 : CellTallies nD τ sig (HIx 1)) W1
        ∗ owns (thr c) (st1_0 t) fullShare vA' ∗ owns (thr c) (st1_1 t) fullShare x2 ∗ owns (thr c) (st1_2 t) fullShare x3)
      ⊢ wp frame (wpE (defs₀ (F := F)) Variants.none (thr c) none) Set.univ (bodyAt1 t) fun _ =>
          iprop(Inv c vA' vW' vB' GP (t.val + 1) ∗ (∃ W', ⌜∀ p ∈ W', p ∈ W1 ∨ p.2 = none⌝ ∗ owes (thr c) (0 : CellTallies nD τ sig (HIx 1)) W')
            ∗ owns (thr c) (st1_0 t) fullShare vA' ∗ owns (thr c) (st1_1 t) fullShare x2 ∗ owns (thr c) (st1_2 t) fullShare x3) := by
  have k1 : (jOf t).val < t.val + 1 := Nat.lt_succ_self _
  have k2 : t.val + 1 ≤ (jOf t).val + 2 := by show t.val + 1 ≤ t.val + 2; omega
  have k3 : t.val + 1 ≤ 32 := by omega
  have m1 : (jOf2 t).val < t.val := by show t.val - 2 < t.val; omega
  have m2 : t.val ≤ (jOf2 t).val + 2 := by show t.val ≤ t.val - 2 + 2; omega
  have m3 : t.val ≤ 32 := by omega
  have m4 : (jOf2 t).val < t.val + 1 := by show t.val - 2 < t.val + 1; omega
  have m5 : (jOf2 t).val + 2 < t.val + 1 ∨ 32 < t.val + 1 := Or.inl (by show t.val - 2 + 2 < t.val + 1; omega)
  have hne : jOf2 t ≠ jOf t := fun e => by have := congrArg Fin.val e; simp only at this; omega
  have hsl : sN (jOf2 t) = sN (jOf t) := Fin.ext (by show (t.val - 2) % 2 = t.val % 2; omega)
  have eT : (bigSep ((Finset.univ.erase (jOf t)).erase (jOf2 t)) fun j => TileSt c vA' vW' vB' GP (t.val + 1) j)
      = bigSep ((Finset.univ.erase (jOf t)).erase (jOf2 t)) fun j => TileSt c vA' vW' vB' GP t.val j :=
    bigSep_congr fun j hj => TileSt_succ c vA' vW' vB' GP t.val j
      (fun e => (Finset.ne_of_mem_erase (Finset.mem_of_mem_erase hj)) (Fin.ext e))
      (fun e => (Finset.ne_of_mem_erase hj) (Fin.ext (by show j.val = t.val - 2; omega))) h32
  have eS : (bigSep Finset.univ fun s : Fin 2 => bigSep Finset.univ fun r : Fin 6 => SlotSt (F := F) c (t.val + 1) s r) = (iprop(emp) : sProp 𝕄) :=
    (bigSep_congr fun s _ => (bigSep_congr fun r _ => SlotSt_busy (F := F) c r (busy_mid ⟨t.val + 1, by omega⟩ s (by show 2 ≤ t.val + 1; omega))).trans (bigSep_emp'' _)).trans (bigSep_emp'' _)
  have hmem2 : jOf2 t ∈ Finset.univ.erase (jOf t) := Finset.mem_erase.mpr ⟨hne, Finset.mem_univ _⟩
  unfold Inv
  iintro ⟨⟨#Hlev, Htiles, -⟩, HO, Hy0, Hy1, Hy2⟩
  ihave Hmw := ((K (F := F)).mayWaits_none (thr := thr c) (O := (0 : CellTallies nD τ sig (HIx 1))) (fun _ => rfl)) $$ Hlev
  ihave Ht := (Entails.of_eq (SparseCore.bigSep_erase' (Finset.mem_univ (jOf t)))) $$ Htiles
  icases Ht with ⟨Htile, Hrest⟩
  ihave Hfresh := (tile_fresh c vA' vW' vB' GP (j := jOf t) (le_refl t.val)) $$ Htile
  ihave Ht2 := (Entails.of_eq (SparseCore.bigSep_erase' hmem2)) $$ Hrest
  icases Ht2 with ⟨Htile2, Hothers⟩
  ihave Hfl2 := (tile_flight_elim c vA' vW' vB' GP (j := jOf2 t) m1 m2 m3) $$ Htile2
  icases Hfl2 with ⟨%y2, %y3, %hy, Hfl2⟩
  have hstep := hmid t h2 h32 vA' x2 x3 W1 (fun r => doneC c (jOf2 t) r (GP (jOf2 t) r vA' y2 y3))
  rw [tOf_pt, sOf_pt, ← hsl] at hstep
  iapply (wp_wand_r frame _ _) $$ [Hy0 Hy1 Hy2 Hfl2 Hfresh HO Hothers Hmw]
  isplitl [Hy0 Hy1 Hy2 Hfl2 Hfresh HO Hmw]
  · iapply hstep
    isplitl [Hy0]; · iexact Hy0
    isplitl [Hy1]; · iexact Hy1
    isplitl [Hy2]; · iexact Hy2
    isplitl [Hfl2]; · iexact Hfl2
    isplitl [Hfresh]; · iexact Hfresh
    isplitl [HO]; · iexact HO
    iexact Hmw
  iintro %_ ⟨Hy0, Hy1, Hy2, ⟨Hdone, Hfl⟩, HO⟩
  isplitl [Hfl Hdone Hothers]
  · isplitr; · iexact Hlev
    isplitl [Hfl Hdone Hothers]
    · iapply (Entails.of_eq (SparseCore.bigSep_erase' (Finset.mem_univ (jOf t))).symm)
      isplitl [Hfl]
      · iapply (tile_flight c vA' vW' vB' GP (j := jOf t) k1 k2 k3 x2 x3 hw hb)
        rw [hsl]; iexact Hfl
      · iapply (Entails.of_eq (SparseCore.bigSep_erase' hmem2).symm)
        isplitl [Hdone]
        · iapply (tile_done c vA' vW' vB' GP (j := jOf2 t) m4 m5 y2 y3 hy.1 hy.2); iexact Hdone
        · iapply (Entails.of_eq eT.symm); iexact Hothers
    · iapply (Entails.of_eq eS.symm); iempintro
  isplitl [HO]; · iexact HO
  isplitl [Hy0]; · iexact Hy0
  isplitl [Hy1]; · iexact Hy1
  iexact Hy2

/-- The last point. -/
theorem inv_step_last (hlast : StepLast (F := F) c (0 : CellTallies nD τ sig (HIx 1)) GP) (t : Fin cfg1.N) (h32 : t.val = 32)
    (x2 : Vec F S64x3072 .f32) (x3 : Vec F S3072 .f32) (W1 : Waits sig (HIx 1))
    (hw : Cert.Spec.WAgrees vW' (jOf t) x2) (hb : Cert.Spec.BAgrees vB' (jOf t) x3) :
    iprop(Inv c vA' vW' vB' GP t.val ∗ owes (thr c) (0 : CellTallies nD τ sig (HIx 1)) W1
        ∗ owns (thr c) (st1_0 t) fullShare vA' ∗ owns (thr c) (st1_1 t) fullShare x2 ∗ owns (thr c) (st1_2 t) fullShare x3)
      ⊢ wp frame (wpE (defs₀ (F := F)) Variants.none (thr c) none) Set.univ (bodyAt1 t) fun _ =>
          iprop(Inv c vA' vW' vB' GP (t.val + 1) ∗ (∃ W', ⌜∀ p ∈ W', p ∈ W1 ∨ p.2 = none⌝ ∗ owes (thr c) (0 : CellTallies nD τ sig (HIx 1)) W')
            ∗ owns (thr c) (st1_0 t) fullShare vA' ∗ owns (thr c) (st1_1 t) fullShare x2 ∗ owns (thr c) (st1_2 t) fullShare x3) := by
  have hjt : jOf t = (32 : Fin 33) := Fin.ext h32
  rw [hjt] at hw hb
  have e32 : Inv c vA' vW' vB' GP t.val = Inv c vA' vW' vB' GP 32 := by rw [h32]
  have e33 : Inv c vA' vW' vB' GP (t.val + 1) = Inv c vA' vW' vB' GP 33 := by rw [h32]
  rw [e32, e33]
  have m30 : (30 : Fin 33) ∈ (Finset.univ.erase (32 : Fin 33)).erase (31 : Fin 33) := by decide
  have m31 : (31 : Fin 33) ∈ Finset.univ.erase (32 : Fin 33) := by decide
  have eT : (bigSep (((Finset.univ.erase (32 : Fin 33)).erase (31 : Fin 33)).erase (30 : Fin 33)) fun j => TileSt c vA' vW' vB' GP 33 j)
      = bigSep (((Finset.univ.erase (32 : Fin 33)).erase (31 : Fin 33)).erase (30 : Fin 33)) fun j => TileSt c vA' vW' vB' GP 32 j :=
    bigSep_congr fun j hj => TileSt_end c vA' vW' vB' GP j (by
      have h30 : j.val ≠ 30 := fun e => (Finset.ne_of_mem_erase hj) (Fin.ext e)
      have h31 : j.val ≠ 31 := fun e => (Finset.ne_of_mem_erase (Finset.mem_of_mem_erase hj)) (Fin.ext e)
      have h32' : j.val ≠ 32 := fun e => (Finset.ne_of_mem_erase (Finset.mem_of_mem_erase (Finset.mem_of_mem_erase hj))) (Fin.ext e)
      have := j.isLt; omega)
  have eS : (bigSep Finset.univ fun s : Fin 2 => bigSep Finset.univ fun r : Fin 6 => SlotSt (F := F) c 33 s r)
      = bigSep Finset.univ fun s : Fin 2 => bigSep Finset.univ fun r : Fin 6 => iprop(cellC (F := F) c s r ∗ scrC (F := F) c s r) :=
    bigSep_congr fun s _ => bigSep_congr fun r _ => SlotSt_free (F := F) c r (free_end s)
  unfold Inv
  iintro ⟨⟨#Hlev, Htiles, -⟩, HO, Hy0, Hy1, Hy2⟩
  ihave Hmw := ((K (F := F)).mayWaits_none (thr := thr c) (O := (0 : CellTallies nD τ sig (HIx 1))) (fun _ => rfl)) $$ Hlev
  ihave Ht := (Entails.of_eq (SparseCore.bigSep_erase' (Finset.mem_univ (32 : Fin 33)))) $$ Htiles
  icases Ht with ⟨Htile, Hrest⟩
  ihave Hfresh := (tile_fresh c vA' vW' vB' GP (t := 32) (j := (32 : Fin 33)) (le_refl 32)) $$ Htile
  ihave Ht1 := (Entails.of_eq (SparseCore.bigSep_erase' m31)) $$ Hrest
  icases Ht1 with ⟨Htile1, Hrest1⟩
  ihave Hfl1 := (tile_flight_elim c vA' vW' vB' GP (t := 32) (j := (31 : Fin 33)) (by decide) (by decide) (le_refl 32)) $$ Htile1
  icases Hfl1 with ⟨%z2, %z3, %hz, Hfl1⟩
  ihave Ht0 := (Entails.of_eq (SparseCore.bigSep_erase' m30)) $$ Hrest1
  icases Ht0 with ⟨Htile0, Hothers⟩
  ihave Hfl0 := (tile_flight_elim c vA' vW' vB' GP (t := 32) (j := (30 : Fin 33)) (by decide) (by decide) (le_refl 32)) $$ Htile0
  icases Hfl0 with ⟨%y2, %y3, %hy, Hfl0⟩
  have hstep := hlast t h32 vA' x2 x3 W1 (fun r => doneC c (30 : Fin 33) r (GP 30 r vA' y2 y3)) (fun r => doneC c (31 : Fin 33) r (GP 31 r vA' z2 z3))
  iapply (wp_wand_r frame _ _) $$ [Hy0 Hy1 Hy2 Hfl0 Hfl1 Hfresh HO Hothers Hmw]
  isplitl [Hy0 Hy1 Hy2 Hfl0 Hfl1 Hfresh HO Hmw]
  · iapply hstep
    isplitl [Hy0]; · iexact Hy0
    isplitl [Hy1]; · iexact Hy1
    isplitl [Hy2]; · iexact Hy2
    isplitl [Hfl0]; · iexact Hfl0
    isplitl [Hfl1]; · iexact Hfl1
    isplitl [Hfresh]; · iexact Hfresh
    isplitl [HO]; · iexact HO
    iexact Hmw
  iintro %_ ⟨Hy0, Hy1, Hy2, ⟨Hd0, Hd1, Hd2, Hcells⟩, HO⟩
  isplitl [Hd0 Hd1 Hd2 Hcells Hothers]
  · isplitr; · iexact Hlev
    isplitl [Hd0 Hd1 Hd2 Hothers]
    · iapply (Entails.of_eq (SparseCore.bigSep_erase' (Finset.mem_univ (32 : Fin 33))).symm)
      isplitl [Hd2]
      · iapply (tile_done c vA' vW' vB' GP (t := 33) (j := (32 : Fin 33)) (by decide) (Or.inr (by decide)) x2 x3 hw hb); iexact Hd2
      · iapply (Entails.of_eq (SparseCore.bigSep_erase' m31).symm)
        isplitl [Hd1]
        · iapply (tile_done c vA' vW' vB' GP (t := 33) (j := (31 : Fin 33)) (by decide) (Or.inr (by decide)) z2 z3 hz.1 hz.2); iexact Hd1
        · iapply (Entails.of_eq (SparseCore.bigSep_erase' m30).symm)
          isplitl [Hd0]
          · iapply (tile_done c vA' vW' vB' GP (t := 33) (j := (30 : Fin 33)) (by decide) (Or.inr (by decide)) y2 y3 hy.1 hy.2); iexact Hd0
          · iapply (Entails.of_eq eT.symm); iexact Hothers
    · iapply (Entails.of_eq eS.symm); iexact Hcells
  isplitl [HO]; · iexact HO
  isplitl [Hy0]; · iexact Hy0
  isplitl [Hy1]; · iexact Hy1
  iexact Hy2

end Sorting

section Record

variable (vA : (c : Dev nD) → Buf (Elt F) ((thr c).loc main_v2)) (vW : (c : Dev nD) → Buf (Elt F) ((thr c).loc main_v3))
  (vB : (c : Dev nD) → Buf (Elt F) ((thr c).loc main_arg3)) (W : Waits sig (HIx 1))

/-- What is claimed of a written row range: its rows inside the array are the tile function of the three blocks. -/
abbrev GPg (c : Dev nD) : Fin 33 → Fin 6 → Vec F S64x1024 .f32 → Vec F S64x3072 .f32 → Vec F S3072 .f32 → Buf (Elt F) (V4.view.loc (thr c)) → Prop :=
  fun j r a w b f => GoodOn j r a w b f

/-- The pipeline's proof data on core `c`. -/
def rdat (c : Dev nD) : Pipeline.RDat τ (Elt F) (HIx 1) ℕ UU ℕ cfg1 c where
  A := fun | 0 => vA c | 1 => vW c | 2 => vB c | ⟨_ + 3, h⟩ => absurd h (Nat.not_lt.2 (Nat.le_add_left _ _))
  after := fun _ _ Y X => X = Y
  Φ := fun t => Inv c (vA c) (vW c) (vB c) (GPg c) t.val
  q := fun _ => fullShare
  owed := fun _ => 0
  recorded := fun _ => {p | p ∈ W ∨ p.2 = none}

theorem bound_sub (c : Dev nD) (t : Fin (cfg1.N + 1)) : (rdat vA vW vB W c).bound (none : HIx 1) t ⊆ {p | p ∈ W ∨ p.2 = none} := by
  rintro p (hp | ⟨w, s, rfl⟩)
  · exact hp
  · exact Or.inr rfl

theorem hbody (c : Dev nD) (hlo : StepLo (F := F) c (0 : CellTallies nD τ sig (HIx 1)) (GPg c)) (hmid : StepMid (F := F) c (0 : CellTallies nD τ sig (HIx 1)) (GPg c))
    (hlast : StepLast (F := F) c (0 : CellTallies nD τ sig (HIx 1)) (GPg c)) :
    (rdat vA vW vB W c).BodyObligation (defs₀ (F := F)) Variants.none (none : HIx 1) Set.univ := by
  intro t Y hY
  rw [Gen.bigSep_W1, Gen.bigSep_W1]
  have hx1 : Y 0 = vA c := finds_A c _ (vA c) rfl (fun _ _ _ h => h) t (Y 0) (hY 0)
  have hw : Cert.Spec.WAgrees (vW c) (jOf t) (Y 1) := finds_W c _ (vW c) rfl t (Y 1) (hY 1)
  have hb : Cert.Spec.BAgrees (vB c) (jOf t) (Y 2) := finds_B c _ (vB c) rfl t (Y 2) (hY 2)
  have key : ∀ W1 : Waits sig (HIx 1),
      iprop(Inv c (vA c) (vW c) (vB c) (GPg c) t.val ∗ owes (thr c) (0 : CellTallies nD τ sig (HIx 1)) W1
          ∗ owns (thr c) (st1_0 t) fullShare (vA c) ∗ owns (thr c) (st1_1 t) fullShare (Y 1) ∗ owns (thr c) (st1_2 t) fullShare (Y 2))
        ⊢ wp frame (wpE (defs₀ (F := F)) Variants.none (thr c) none) Set.univ (bodyAt1 t) fun _ =>
            iprop(Inv c (vA c) (vW c) (vB c) (GPg c) (t.val + 1) ∗ (∃ W', ⌜∀ p ∈ W', p ∈ W1 ∨ p.2 = none⌝ ∗ owes (thr c) (0 : CellTallies nD τ sig (HIx 1)) W')
              ∗ owns (thr c) (st1_0 t) fullShare (vA c) ∗ owns (thr c) (st1_1 t) fullShare (Y 1) ∗ owns (thr c) (st1_2 t) fullShare (Y 2)) := by
    intro W1
    rcases Nat.lt_or_ge t.val 2 with h | h
    · exact inv_step_lo c (vA c) (vW c) (vB c) (GPg c) hlo t h (Y 1) (Y 2) W1 hw hb
    · rcases Nat.lt_or_ge t.val 32 with h' | h'
      · exact inv_step_mid c (vA c) (vW c) (vB c) (GPg c) hmid t h h' (Y 1) (Y 2) W1 hw hb
      · exact inv_step_last c (vA c) (vW c) (vB c) (GPg c) hlast t (by have := lt33 t; omega) (Y 1) (Y 2) W1 hw hb
  have eΦ0 : (rdat vA vW vB W c).Φ t.castSucc = Inv c (vA c) (vW c) (vB c) (GPg c) t.val :=
    (show (rdat vA vW vB W c).Φ t.castSucc = Inv c (vA c) (vW c) (vB c) (GPg c) t.castSucc.val from rfl).trans
      (congrArg (Inv c (vA c) (vW c) (vB c) (GPg c)) (Fin.coe_castSucc t))
  have eΦ1 : (rdat vA vW vB W c).Φ t.succ = Inv c (vA c) (vW c) (vB c) (GPg c) (t.val + 1) :=
    (show (rdat vA vW vB W c).Φ t.succ = Inv c (vA c) (vW c) (vB c) (GPg c) t.succ.val from rfl).trans
      (congrArg (Inv c (vA c) (vW c) (vB c) (GPg c)) (Fin.val_succ t))
  iintro ⟨HΦ, ⟨%W1, %hW1, HO⟩, Hy0, Hy1, Hy2⟩
  ihave HΦ := (Entails.of_eq eΦ0) $$ HΦ
  iapply (wp_wand_r frame _ _) $$ [HΦ HO Hy0 Hy1 Hy2]
  isplitl [HΦ HO Hy0 Hy1 Hy2]
  · iapply (key W1)
    isplitl [HΦ]; · iexact HΦ
    isplitl [HO]; · iexact HO
    isplitl [Hy0]; · rw [← hx1]; iexact Hy0
    isplitl [Hy1]; · iexact Hy1
    iexact Hy2
  iintro %_ ⟨HΦ, ⟨%W', %hW', HO⟩, Hy0, Hy1, Hy2⟩
  isplitl [HΦ]; · iapply (Entails.of_eq eΦ1.symm); iexact HΦ
  isplitl [HO]
  · iexists W'; isplitr
    · ipureintro
      intro p hp
      exact Or.inl ((hW' p hp).elim (fun h => bound_sub vA vW vB W c _ (hW1 h)) Or.inr)
    · iexact HO
  isplitl [Hy0]
  · iexists (Y 0); isplitr
    · ipureintro; rfl
    · rw [hx1]; iexact Hy0
  isplitl [Hy1]
  · iexists (Y 1); isplitr
    · ipureintro; rfl
    · iexact Hy1
  iexists (Y 2); isplitr
  · ipureintro; rfl
  · iexact Hy2

/-! ## The record -/

/-- The kernel's own semaphores: one per slot and chunk. -/
abbrev KK : Type := Fin 2 × Fin 6
abbrev osem : KK → SemLoc sig := fun k => SemLoc.dma (semC k.1 k.2)

omit [FloatOps F] [Named F] [∀ e, Nonempty (Elt F e)] in
theorem ho : Pipeline.OwnSemFacts spec1 osem := by decide

omit [FloatOps F] [Named F] in
theorem ownSems0_cells (c : Dev nD) :
    (Pipeline.ownSems0 osem c : sProp 𝕄) = bigSep Finset.univ fun s : Fin 2 => bigSep Finset.univ fun r : Fin 6 => cellC (F := F) c s r := by
  unfold Pipeline.ownSems0
  rw [bigSep_univ_prod]

/-- The proof data, per pipeline and core. -/
abbrev rdats : (p : Fin 1) → (c : Dev nD) → Pipeline.RDat τ (Elt F) (HIx 1) ℕ UU ℕ (Pipeline.pin (pcfgs (F := F)) (adm (F := F)) p) c :=
  fun _ c => rdat vA vW vB W c

/-- The region's three operand arrays, held whole. -/
abbrev inArrs (c : Dev nD) : sProp 𝕄 :=
  iprop(((thr c).loc main_v2 ↦{fullShare} vA c) ∗ ((thr c).loc main_v3 ↦{fullShare} vW c) ∗ ((thr c).loc main_arg3 ↦{fullShare} vB c))

theorem share_full (c : Dev nD) (w : Fin cfg1.W) : (rdat vA vW vB W c).share w = fullShare := by
  unfold Pipeline.RDat.share; split <;> rfl

theorem arrays_eq (c : Dev nD) : ((rdat vA vW vB W c).arrays (rdat vA vW vB W c).A : sProp 𝕄) = inArrs vA vW vB c := by
  rw [Pipeline.RDat.arrays_eq (pcfgs (F := F)) (adm (F := F)) (rdats vA vW vB W) 0 c Gen.launch1.arr_whole (share_full vA vW vB W c), Gen.bigSep_W1]
  rfl

theorem pts_arr (c : Dev nD) (b : Ref sig .tc) (q : PosShare TreeShare) (f : Buf (Elt F) ((Memref.whole b).view.loc (thr c))) :
    (((Memref.whole b).view.loc (thr c)) ↦[(Memref.whole b).view.set]{q} f : sProp 𝕄) = ((thr c).loc b ↦{q} f) := by
  simp only [Memref.view_whole, View.set_whole]

/-- At the region's exit the three operand arrays are as they were entered. -/
theorem arraysAt_elim (c : Dev nD) (n : ℕ) : ((rdat vA vW vB W c).arraysAt n : sProp 𝕄) ⊢ inArrs vA vW vB c := by
  unfold Pipeline.RDat.arraysAt
  rw [Gen.bigSep_W1]
  simp only [share_full vA vW vB W c]
  rw [(rdat vA vW vB W c).ArrAt_in 0 rfl n, (rdat vA vW vB W c).ArrAt_in 1 rfl n, (rdat vA vW vB W c).ArrAt_in 2 rfl n]
  iintro ⟨⟨%F0, %h0, H0⟩, ⟨%F1, %h1, H1⟩, ⟨%F2, %h2, H2⟩⟩
  subst h0 h1 h2
  isplitl [H0]; · iapply (Entails.of_eq (pts_arr c main_v2 fullShare _)); iexact H0
  isplitl [H1]; · iapply (Entails.of_eq (pts_arr c main_v3 fullShare _)); iexact H1
  iapply (Entails.of_eq (pts_arr c main_arg3 fullShare _)); iexact H2

/-! ## The record, from the body's three cases and the invariant's two ends -/

section Reg

variable (hlo : ∀ c : Dev nD, StepLo (F := F) c (0 : CellTallies nD τ sig (HIx 1)) (GPg c))
  (hmid : ∀ c : Dev nD, StepMid (F := F) c (0 : CellTallies nD τ sig (HIx 1)) (GPg c))
  (hlast : ∀ c : Dev nD, StepLast (F := F) c (0 : CellTallies nD τ sig (HIx 1)) (GPg c))
  (hzero : ∀ c : Dev nD, iprop(levAts (K (F := F)).L (K (F := F)).lev ∗ (∃ f, V4.view.loc (thr c) ↦{fullShare} f) ∗ (∃ g, SCR.view.loc (thr c) ↦{fullShare} g)
      ∗ bigSep Finset.univ fun s : Fin 2 => bigSep Finset.univ fun r : Fin 6 => cellC (F := F) c s r) ⊢ Inv c (vA c) (vW c) (vB c) (GPg c) 0)
  (hend : ∀ c : Dev nD, Inv c (vA c) (vW c) (vB c) (GPg c) 33 ⊢ iprop(levAts (K (F := F)).L (K (F := F)).lev
      ∗ (∃ out, ⌜∀ j : Fin 33, ∃ (wblk : Vec F S64x3072 .f32) (bblk : Vec F S3072 .f32), Cert.Spec.WAgrees (vW c) j wblk ∧ Cert.Spec.BAgrees (vB c) j bblk ∧ ∀ r : Fin 6, GPg c j r (vA c) wblk bblk out⌝
          ∗ V4.view.loc (thr c) ↦{fullShare} out)
      ∗ (∃ g, SCR.view.loc (thr c) ↦{fullShare} g)
      ∗ bigSep Finset.univ fun s : Fin 2 => bigSep Finset.univ fun r : Fin 6 => cellC (F := F) c s r))

include hzero in
theorem reg_hin (c : Dev nD) :
    iprop((levAts (K (F := F)).L (K (F := F)).lev ∗ (∃ f, (thr c).loc main_v4 ↦{fullShare} f) ∗ Pipeline.ownSems0 osem c)
        ∗ Pipeline.prefHeld (pcfgs (F := F) 0).pre c (fun _ => fullShare) (adm (F := F) 0).1
        ∗ (∃ f : Buf (Elt F) ((c : Thread nD τ).loc cc1_scratch0), ((c : Thread nD τ).loc cc1_scratch0) ↦{fullShare} f))
      ⊢ Inv c (vA c) (vW c) (vB c) (GPg c) 0 := by
  iintro ⟨⟨#Hlev, Hv4, Hsems⟩, -, Hscr⟩
  iapply (hzero c)
  isplitr; · iexact Hlev
  isplitl [Hv4]; · iexact Hv4
  isplitl [Hscr]; · iexact Hscr
  iapply (Entails.of_eq (ownSems0_cells c)); iexact Hsems

include hend in
theorem reg_hout (c : Dev nD) :
    Inv c (vA c) (vW c) (vB c) (GPg c) 33
      ⊢ iprop((∃ out, ⌜Cert.Spec.IsOut (tileF (F := F)) (vA c) (vW c) (vB c) out⌝ ∗ (thr c).loc main_v4 ↦{fullShare} out) ∗ Pipeline.ownSems0 osem c
        ∗ (∃ f : Buf (Elt F) ((c : Thread nD τ).loc cc1_scratch0), ((c : Thread nD τ).loc cc1_scratch0) ↦{fullShare} f)) := by
  have h1 : iprop(levAts (K (F := F)).L (K (F := F)).lev
      ∗ (∃ out, ⌜∀ j : Fin 33, ∃ (wblk : Vec F S64x3072 .f32) (bblk : Vec F S3072 .f32), Cert.Spec.WAgrees (vW c) j wblk ∧ Cert.Spec.BAgrees (vB c) j bblk ∧ ∀ r : Fin 6, GPg c j r (vA c) wblk bblk out⌝
          ∗ V4.view.loc (thr c) ↦{fullShare} out)
      ∗ (∃ g, SCR.view.loc (thr c) ↦{fullShare} g)
      ∗ bigSep Finset.univ fun s : Fin 2 => bigSep Finset.univ fun r : Fin 6 => cellC (F := F) c s r)
      ⊢ iprop((∃ out, ⌜Cert.Spec.IsOut (tileF (F := F)) (vA c) (vW c) (vB c) out⌝ ∗ (thr c).loc main_v4 ↦{fullShare} out) ∗ Pipeline.ownSems0 osem c
        ∗ (∃ f : Buf (Elt F) ((c : Thread nD τ).loc cc1_scratch0), ((c : Thread nD τ).loc cc1_scratch0) ↦{fullShare} f)) := by
    iintro ⟨-, ⟨%out, %hout, Hv4⟩, Hscr, Hcells⟩
    choose wb bb h using hout
    isplitl [Hv4]
    · iexists out; isplitr
      · ipureintro
        exact isOut_of_good (vA c) (vW c) (vB c) out wb bb (fun j => (h j).1) (fun j => (h j).2.1) (fun j r => (h j).2.2 r)
      · iexact Hv4
    isplitl [Hcells]; · iapply (Entails.of_eq (ownSems0_cells c).symm); iexact Hcells
    iexact Hscr
  exact (hend c).trans h1

/-- The region's record. -/
def reg : Pipeline.RDat.RegionSeg (pcfgs (F := F)) (adm (F := F)) (rdats vA vW vB W) (none : HIx 1) (defs₀ (F := F)) Variants.none
    (K (F := F)).L (K (F := F)).lev (0 : Fin 1) where
  win := Gen.launch1.win.to₀
  block_pos := Gen.launch1.block_pos
  stage_whole := Gen.launch1.stage_whole
  K := KK
  osem := osem
  ho := ho
  hbody c := hbody vA vW vB W c (hlo c) (hmid c) (hlast c)
  hwaits c := (show (levAts (K (F := F)).L (K (F := F)).lev : sProp 𝕄) ⊢ BI.emp from by iintro -; iempintro).trans
    (Pipeline.RDat.cellsWaits_of_owed_zero (Pipeline.pin (pcfgs (F := F)) (adm (F := F))) (rdats vA vW vB W) (none : HIx 1) 0 c (fun _ => rfl))
  pre c := iprop(inArrs vA vW vB c ∗ (∃ f, (thr c).loc main_v4 ↦{fullShare} f) ∗ owes (thr c) (0 : CellTallies nD τ sig (HIx 1)) W)
  post c := iprop(inArrs vA vW vB c ∗ (∃ out, ⌜Cert.Spec.IsOut (tileF (F := F)) (vA c) (vW c) (vB c) out⌝ ∗ (thr c).loc main_v4 ↦{fullShare} out)
    ∗ ∃ W', ⌜∀ p ∈ W', p ∈ W ∨ p.2 = none⌝ ∗ owes (thr c) (0 : CellTallies nD τ sig (HIx 1)) W')
  X c := iprop(levAts (K (F := F)).L (K (F := F)).lev ∗ (∃ f, (thr c).loc main_v4 ↦{fullShare} f) ∗ Pipeline.ownSems0 osem c)
  Y c := iprop(∃ out, ⌜Cert.Spec.IsOut (tileF (F := F)) (vA c) (vW c) (vB c) out⌝ ∗ (thr c).loc main_v4 ↦{fullShare} out)
  Z _ := iprop(emp)
  hentry c := by
    rw [show ((rdats vA vW vB W 0 c).arrays (rdats vA vW vB W 0 c).A : sProp 𝕄) = inArrs vA vW vB c from arrays_eq vA vW vB W c]
    iintro ⟨⟨Ha, Hv4, HO⟩, Hsems, #Hlev⟩
    imodintro
    isplitl [Ha]; · iexact Ha
    isplitr
    · unfold Pipeline.prefHeld; rw [show (Finset.univ : Finset (Fin 0)) = ∅ from rfl, BI.bigSep_empty]; iempintro
    isplitl [HO]
    · iexists W; isplitr
      · ipureintro; exact fun p hp => Or.inl (Or.inl hp)
      · iexact HO
    isplitl [Hv4 Hsems]
    · isplitr; · iexact Hlev
      isplitl [Hv4]; · iexact Hv4
      iexact Hsems
    iempintro
  hin c := by
    rw [Gen.scopedRest1_eq]
    exact (reg_hin vA vW vB hzero c).trans (Entails.of_eq (show Inv c (vA c) (vW c) (vB c) (GPg c) 0 = (rdats vA vW vB W 0 c).Φ 0 from rfl))
  hout c := by
    rw [Gen.scopedRest1_eq]
    exact (Entails.of_eq (show (rdats vA vW vB W 0 c).Φ (Fin.last (Pipeline.pin (pcfgs (F := F)) (adm (F := F)) 0).N) = Inv c (vA c) (vW c) (vB c) (GPg c) 33 from rfl)).trans
      (reg_hout vA vW vB hend c)
  hexit c := by
    iintro ⟨Harr, ⟨%W', %hW', HO⟩, Hy, -⟩
    imodintro
    isplitl [Harr]; · iapply (arraysAt_elim vA vW vB W c _); iexact Harr
    isplitl [Hy]; · iexact Hy
    iexists W'; isplitr
    · ipureintro; exact fun p hp => bound_sub vA vW vB W c _ (hW' (Finset.mem_coe.mpr hp))
    · iexact HO

/-- The region's line of @main. -/
theorem region_wp_of (d : Dev nD) (Φ : PUnit → sProp 𝕄) :
    iprop((iprop(boundary (SparseCore.T d) ∗ (reg vA vW vB W hlo hmid hlast hzero hend).post d) -∗ Φ ⟨⟩) ∗ boundary (SparseCore.T d)
        ∗ (reg vA vW vB W hlo hmid hlast hzero hend).pre d ∗ levAts (K (F := F)).L (K (F := F)).lev
        ∗ Pipeline.cellsGhost (Pipeline.pin (pcfgs (F := F)) (adm (F := F))) EP (0 : Fin 1) d ∗ Pipeline.toksInit (Pipeline.pin (pcfgs (F := F)) (adm (F := F))) EP (0 : Fin 1) d)
      ⊢ wp frame (wpE ((K (F := F)).defs (Pipeline.defs pcfgs defs₀)) Variants.none.lift (SparseCore.T d) none) Set.univ
          (Prog.lift (.customCall (SparseCore.inner (Pipeline.entry (0 : Fin 1))) ())) Φ :=
  Cert.LibScRegion.region_line (pcfgs (F := F)) (adm (F := F)) (K (F := F)) (rdats vA vW vB W) Gen.cellOf_inj EP (defs₀ (F := F)) Variants.none
    (K (F := F)).lev (reg vA vW vB W hlo hmid hlast hzero hend) d Φ

end Reg

end Record

end Cert.KernelIdeal.Region

end
-- ==== Proof.RegionTail.lean ====
/-
  The last grid point's views. The tail tile has 1696 rows: three copies of 512 rows and one of 160 leave slot 0 for
  the result's last rows, at literal offsets, on the slot's first four semaphores; slot 1's six copies of the point
  before are waited for through literal slices. The tail's sources are brought to the slot's chunks: three chunks
  whole, and the first 160 rows of the fourth.
-/
import proofs.«204125_g1194000908950_cont_fleet_528_33_alg».proof.Proof.RegionInv
import Idealize.ShloMosaic.Lib.Transfers
import Idealize.ShloMosaic.Lib.Writes
import Idealize.ShloMosaic.Lib.Pipeline.FrameBody
import Idealize.ShloMosaic.Lib.Tactic

noncomputable section

namespace Cert.KernelIdeal.Region

open Cert.KernelIdeal Cert.KernelIdeal.Gen Cert.KernelIdeal.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MM F

/-! ## The last point's views: the tail's four copies from slot 0, and slot 1's six waits, at literal places -/

abbrev semT0 (i : grid1.Coords) (h : k1_cond3 i = 1#1) : DmaSem sig := ((cc1_scratch1.slice (Rect.unit (s := S2x6) (k1_off28 i) S1x1.size (k1_off28_inb i h))).squeeze S_ squeezes_S1x1_S_).sem
theorem semT0_eq : ∀ (i : grid1.Coords) (h : k1_cond3 i = 1#1), semT0 i h = semC (sOf i) 0 := by decide +kernel
abbrev semT1 (i : grid1.Coords) (h : k1_cond3 i = 1#1) : DmaSem sig := ((cc1_scratch1.slice (Rect.unit (s := S2x6) (k1_off30 i) S1x1.size (k1_off30_inb i h))).squeeze S_ squeezes_S1x1_S_).sem
theorem semT1_eq : ∀ (i : grid1.Coords) (h : k1_cond3 i = 1#1), semT1 i h = semC (sOf i) 1 := by decide +kernel
abbrev semT2 (i : grid1.Coords) (h : k1_cond3 i = 1#1) : DmaSem sig := ((cc1_scratch1.slice (Rect.unit (s := S2x6) (k1_off32 i) S1x1.size (k1_off32_inb i h))).squeeze S_ squeezes_S1x1_S_).sem
theorem semT2_eq : ∀ (i : grid1.Coords) (h : k1_cond3 i = 1#1), semT2 i h = semC (sOf i) 2 := by decide +kernel
abbrev semT3 (i : grid1.Coords) (h : k1_cond3 i = 1#1) : DmaSem sig := ((cc1_scratch1.slice (Rect.unit (s := S2x6) (k1_off34 i) S1x1.size (k1_off34_inb i h))).squeeze S_ squeezes_S1x1_S_).sem
theorem semT3_eq : ∀ (i : grid1.Coords) (h : k1_cond3 i = 1#1), semT3 i h = semC (sOf i) 3 := by decide +kernel
abbrev srcT0 (i : grid1.Coords) (h : k1_cond3 i = 1#1) : Memref sig .tc .vmem S512x1024 .f32 := (SCR.slice (Rect.unit (s := S2x3072x1024) (k1_off29 i) S1x512x1024.size (k1_off29_inb i h)) (fun _ => rfl)).squeeze S512x1024 squeezes_S1x512x1024_S512x1024
abbrev dstT0 : Memref sig .tc .hbm S512x1024 .f32 := V4.slice (Rect.unit (s := S100000x1024) ![98304, 0] S512x1024.size inb_S100000x1024_S512x1024_98304_0) (fun _ => rfl)
theorem srcT0_set (i : grid1.Coords) (h : k1_cond3 i = 1#1) : (srcT0 i h).view.set = (chunkR (sOf i) 0).set := by
  show ((View.whole (cc1_scratch0 : Ref sig .tc)).slice _ |>.reshape _ _).set = _
  rw [View.set_reshape, View.set_slice_whole]; exact unit_set_congr (by rw [k1_off29_eq]; rfl)
theorem dstT0_sub : (dstT0).view.set ⊆ dsetC 32 0 := by
  intro x hx
  have hx' : x ∈ (Rect.unit (s := S100000x1024) ![98304, 0] S512x1024.size inb_S100000x1024_S512x1024_98304_0).set := by
    rw [← View.set_slice_whole (main_v4 : Ref sig .tc)]; exact hx
  have h0 := (Rect.mem_set_unit.mp hx') 0
  rw [mem_dsetC]
  simpa using h0
abbrev srcT1 (i : grid1.Coords) (h : k1_cond3 i = 1#1) : Memref sig .tc .vmem S512x1024 .f32 := (SCR.slice (Rect.unit (s := S2x3072x1024) (k1_off31 i) S1x512x1024.size (k1_off31_inb i h)) (fun _ => rfl)).squeeze S512x1024 squeezes_S1x512x1024_S512x1024
abbrev dstT1 : Memref sig .tc .hbm S512x1024 .f32 := V4.slice (Rect.unit (s := S100000x1024) ![98816, 0] S512x1024.size inb_S100000x1024_S512x1024_98816_0) (fun _ => rfl)
theorem srcT1_set (i : grid1.Coords) (h : k1_cond3 i = 1#1) : (srcT1 i h).view.set = (chunkR (sOf i) 1).set := by
  show ((View.whole (cc1_scratch0 : Ref sig .tc)).slice _ |>.reshape _ _).set = _
  rw [View.set_reshape, View.set_slice_whole]; exact unit_set_congr (by rw [k1_off31_eq]; rfl)
theorem dstT1_sub : (dstT1).view.set ⊆ dsetC 32 1 := by
  intro x hx
  have hx' : x ∈ (Rect.unit (s := S100000x1024) ![98816, 0] S512x1024.size inb_S100000x1024_S512x1024_98816_0).set := by
    rw [← View.set_slice_whole (main_v4 : Ref sig .tc)]; exact hx
  have h0 := (Rect.mem_set_unit.mp hx') 0
  rw [mem_dsetC]
  simpa using h0
abbrev srcT2 (i : grid1.Coords) (h : k1_cond3 i = 1#1) : Memref sig .tc .vmem S512x1024 .f32 := (SCR.slice (Rect.unit (s := S2x3072x1024) (k1_off33 i) S1x512x1024.size (k1_off33_inb i h)) (fun _ => rfl)).squeeze S512x1024 squeezes_S1x512x1024_S512x1024
abbrev dstT2 : Memref sig .tc .hbm S512x1024 .f32 := V4.slice (Rect.unit (s := S100000x1024) ![99328, 0] S512x1024.size inb_S100000x1024_S512x1024_99328_0) (fun _ => rfl)
theorem srcT2_set (i : grid1.Coords) (h : k1_cond3 i = 1#1) : (srcT2 i h).view.set = (chunkR (sOf i) 2).set := by
  show ((View.whole (cc1_scratch0 : Ref sig .tc)).slice _ |>.reshape _ _).set = _
  rw [View.set_reshape, View.set_slice_whole]; exact unit_set_congr (by rw [k1_off33_eq]; rfl)
theorem dstT2_sub : (dstT2).view.set ⊆ dsetC 32 2 := by
  intro x hx
  have hx' : x ∈ (Rect.unit (s := S100000x1024) ![99328, 0] S512x1024.size inb_S100000x1024_S512x1024_99328_0).set := by
    rw [← View.set_slice_whole (main_v4 : Ref sig .tc)]; exact hx
  have h0 := (Rect.mem_set_unit.mp hx') 0
  rw [mem_dsetC]
  simpa using h0
abbrev srcT3 (i : grid1.Coords) (h : k1_cond3 i = 1#1) : Memref sig .tc .vmem S160x1024 .f32 := (SCR.slice (Rect.unit (s := S2x3072x1024) (k1_off35 i) S1x160x1024.size (k1_off35_inb i h)) (fun _ => rfl)).squeeze S160x1024 squeezes_S1x160x1024_S160x1024
abbrev dstT3 : Memref sig .tc .hbm S160x1024 .f32 := V4.slice (Rect.unit (s := S100000x1024) ![99840, 0] S160x1024.size inb_S100000x1024_S160x1024_99840_0) (fun _ => rfl)
theorem srcT3_sub (i : grid1.Coords) (h : k1_cond3 i = 1#1) : (srcT3 i h).view.set ⊆ (chunkR (sOf i) 3).set := by
  intro x hx
  have hx' : x ∈ (Rect.unit (s := S2x3072x1024) (k1_off35 i) S1x160x1024.size (k1_off35_inb i h)).set := by
    rw [← View.set_slice_whole (cc1_scratch0 : Ref sig .tc), ← View.set_reshape (h := (squeezes_S1x160x1024_S160x1024).numel_eq)]; exact hx
  refine Rect.mem_set_unit.mpr fun a => ?_
  have ha := (Rect.mem_set_unit.mp hx') a
  rw [k1_off35_eq] at ha
  fin_cases a <;> simp at ha ⊢ <;> omega
theorem dstT3_sub : (dstT3).view.set ⊆ dsetC 32 3 := by
  intro x hx
  have hx' : x ∈ (Rect.unit (s := S100000x1024) ![99840, 0] S160x1024.size inb_S100000x1024_S160x1024_99840_0).set := by
    rw [← View.set_slice_whole (main_v4 : Ref sig .tc)]; exact hx
  have h0 := (Rect.mem_set_unit.mp hx') 0
  rw [mem_dsetC]
  simp at h0 ⊢; omega

abbrev semL0 : DmaSem sig := ((cc1_scratch1.slice (Rect.unit (s := S2x6) ![1, 0] S1x1.size inb_S2x6_S1x1_1_0)).squeeze S_ squeezes_S1x1_S_).sem
theorem semL0_eq : semL0 = semC 1 0 := by decide +kernel
abbrev semL1 : DmaSem sig := ((cc1_scratch1.slice (Rect.unit (s := S2x6) ![1, 1] S1x1.size inb_S2x6_S1x1_1_1)).squeeze S_ squeezes_S1x1_S_).sem
theorem semL1_eq : semL1 = semC 1 1 := by decide +kernel
abbrev semL2 : DmaSem sig := ((cc1_scratch1.slice (Rect.unit (s := S2x6) ![1, 2] S1x1.size inb_S2x6_S1x1_1_2)).squeeze S_ squeezes_S1x1_S_).sem
theorem semL2_eq : semL2 = semC 1 2 := by decide +kernel
abbrev semL3 : DmaSem sig := ((cc1_scratch1.slice (Rect.unit (s := S2x6) ![1, 3] S1x1.size inb_S2x6_S1x1_1_3)).squeeze S_ squeezes_S1x1_S_).sem
theorem semL3_eq : semL3 = semC 1 3 := by decide +kernel
abbrev semL4 : DmaSem sig := ((cc1_scratch1.slice (Rect.unit (s := S2x6) ![1, 4] S1x1.size inb_S2x6_S1x1_1_4)).squeeze S_ squeezes_S1x1_S_).sem
theorem semL4_eq : semL4 = semC 1 4 := by decide +kernel
abbrev semL5 : DmaSem sig := ((cc1_scratch1.slice (Rect.unit (s := S2x6) ![1, 5] S1x1.size inb_S2x6_S1x1_1_5)).squeeze S_ squeezes_S1x1_S_).sem
theorem semL5_eq : semL5 = semC 1 5 := by decide +kernel

/-- The slot, dealt out as the last point's copies read it: three whole chunks, the first 160 rows of the fourth and
    that chunk's rest, and the two chunks no copy reads. -/
theorem tail_split (c : Dev nD) (i : grid1.Coords) (h3 : k1_cond3 i = 1#1) (g : Buf (Elt F) (SCR.view.loc (thr c))) :
    (SCR.view.loc (thr c) ↦[(SCR.access (slotR i)).set]{fullShare} g : sProp 𝕄)
      ⊢ iprop(own c (srcT0 i h3) g ∗ own c (srcT1 i h3) g ∗ own c (srcT2 i h3) g ∗ own c (srcT3 i h3) g
          ∗ (SCR.view.loc (thr c) ↦[(chunkR (sOf i) 3).set \ (srcT3 i h3).view.set]{fullShare} g)
          ∗ (SCR.view.loc (thr c) ↦[(chunkR (sOf i) 4).set]{fullShare} g) ∗ (SCR.view.loc (thr c) ↦[(chunkR (sOf i) 5).set]{fullShare} g)) := by
  rw [slotR_set, ← slot_cover, pointsTo_biUnion Finset.univ _ (fun r _ r' _ h => chunk_disjoint _ r r' h), bigSep_fin6,
    ← srcT0_set i h3, ← srcT1_set i h3, ← srcT2_set i h3]
  iintro ⟨H0, H1, H2, H3, H4, H5⟩
  isplitl [H0]; · iexact H0
  isplitl [H1]; · iexact H1
  isplitl [H2]; · iexact H2
  ihave H3' := (pointsTo_split_subset (ℓ := SCR.view.loc (thr c)) (q := fullShare) (f := g) (srcT3_sub i h3)).1 $$ H3
  icases H3' with ⟨H3a, H3b⟩
  isplitl [H3a]; · iexact H3a
  isplitl [H3b]; · iexact H3b
  isplitl [H4] <;> iassumption

/-- and back: the pieces, at whatever contents, make the six chunks. -/
theorem tail_join (c : Dev nD) (i : grid1.Coords) (h3 : k1_cond3 i = 1#1) (g0 g1 g2 g3 gR g4 g5 : Buf (Elt F) (SCR.view.loc (thr c))) :
    iprop(own c (srcT0 i h3) g0 ∗ own c (srcT1 i h3) g1 ∗ own c (srcT2 i h3) g2 ∗ own c (srcT3 i h3) g3
          ∗ (SCR.view.loc (thr c) ↦[(chunkR (sOf i) 3).set \ (srcT3 i h3).view.set]{fullShare} gR)
          ∗ (SCR.view.loc (thr c) ↦[(chunkR (sOf i) 4).set]{fullShare} g4) ∗ (SCR.view.loc (thr c) ↦[(chunkR (sOf i) 5).set]{fullShare} g5))
      ⊢ (bigSep Finset.univ fun r : Fin 6 => scrC c (sOf i) r : sProp 𝕄) := by
  rw [bigSep_fin6]
  iintro ⟨H0, H1, H2, H3, H3', H4, H5⟩
  isplitl [H0]; · iexists g0; rw [← srcT0_set i h3]; iexact H0
  isplitl [H1]; · iexists g1; rw [← srcT1_set i h3]; iexact H1
  isplitl [H2]; · iexists g2; rw [← srcT2_set i h3]; iexact H2
  isplitl [H3 H3']
  · iexists _; iapply (pointsTo_join_subset (ℓ := SCR.view.loc (thr c)) (q := fullShare) (srcT3_sub i h3)); isplitl [H3] <;> iassumption
  isplitl [H4]; · iexists g4; iexact H4
  iexists g5; iexact H5

/-- What the tail's copy `r` lands in the result, over prior contents `fd`, the slot holding `g` with the tile stored. -/
abbrev landedT0 (c : Dev nD) (i : grid1.Coords) (h3 : k1_cond3 i = 1#1) (x1 : Vec F S64x1024 .f32) (x2 : Vec F S64x3072 .f32) (x3 : Vec F S3072 .f32)
    (fd : Buf (Elt F) (V4.view.loc (thr c))) (g : Buf (Elt F) (SCR.view.loc (thr c))) : Buf (Elt F) (V4.view.loc (thr c)) :=
  (dstT0).view.write (Elt F) fd (ReadAs.same.apply ((srcT0 i h3).view.read (Elt F) ((SCR.access (slotR i)).write (Elt F) g (pay x1 x2 x3) Finset.univ))) Finset.univ
abbrev landedT1 (c : Dev nD) (i : grid1.Coords) (h3 : k1_cond3 i = 1#1) (x1 : Vec F S64x1024 .f32) (x2 : Vec F S64x3072 .f32) (x3 : Vec F S3072 .f32)
    (fd : Buf (Elt F) (V4.view.loc (thr c))) (g : Buf (Elt F) (SCR.view.loc (thr c))) : Buf (Elt F) (V4.view.loc (thr c)) :=
  (dstT1).view.write (Elt F) fd (ReadAs.same.apply ((srcT1 i h3).view.read (Elt F) ((SCR.access (slotR i)).write (Elt F) g (pay x1 x2 x3) Finset.univ))) Finset.univ
abbrev landedT2 (c : Dev nD) (i : grid1.Coords) (h3 : k1_cond3 i = 1#1) (x1 : Vec F S64x1024 .f32) (x2 : Vec F S64x3072 .f32) (x3 : Vec F S3072 .f32)
    (fd : Buf (Elt F) (V4.view.loc (thr c))) (g : Buf (Elt F) (SCR.view.loc (thr c))) : Buf (Elt F) (V4.view.loc (thr c)) :=
  (dstT2).view.write (Elt F) fd (ReadAs.same.apply ((srcT2 i h3).view.read (Elt F) ((SCR.access (slotR i)).write (Elt F) g (pay x1 x2 x3) Finset.univ))) Finset.univ
abbrev landedT3 (c : Dev nD) (i : grid1.Coords) (h3 : k1_cond3 i = 1#1) (x1 : Vec F S64x1024 .f32) (x2 : Vec F S64x3072 .f32) (x3 : Vec F S3072 .f32)
    (fd : Buf (Elt F) (V4.view.loc (thr c))) (g : Buf (Elt F) (SCR.view.loc (thr c))) : Buf (Elt F) (V4.view.loc (thr c)) :=
  (dstT3).view.write (Elt F) fd (ReadAs.same.apply ((srcT3 i h3).view.read (Elt F) ((SCR.access (slotR i)).write (Elt F) g (pay x1 x2 x3) Finset.univ))) Finset.univ

/-- What the body's run asks of the claim `GP` about written rows: it holds of what each copy lands — the six of a full
    tile, the four of the tail — and asks nothing of the tail's two row ranges past the array. -/
structure GPOk (c : Dev nD)
    (GP : Fin 33 → Fin 6 → Vec F S64x1024 .f32 → Vec F S64x3072 .f32 → Vec F S3072 .f32 → Buf (Elt F) (V4.view.loc (thr c)) → Prop) : Prop where
  full : ∀ (i : grid1.Coords) (h2 : k1_cond2 i = 1#1) x1 x2 x3 fd g,
    GP (tOf i) 0 x1 x2 x3 (landed0 c i h2 x1 x2 x3 fd g) ∧ GP (tOf i) 1 x1 x2 x3 (landed1 c i h2 x1 x2 x3 fd g) ∧ GP (tOf i) 2 x1 x2 x3 (landed2 c i h2 x1 x2 x3 fd g) ∧ GP (tOf i) 3 x1 x2 x3 (landed3 c i h2 x1 x2 x3 fd g) ∧ GP (tOf i) 4 x1 x2 x3 (landed4 c i h2 x1 x2 x3 fd g) ∧ GP (tOf i) 5 x1 x2 x3 (landed5 c i h2 x1 x2 x3 fd g)
  tail : ∀ (i : grid1.Coords) (h3 : k1_cond3 i = 1#1) x1 x2 x3 fd g,
    GP 32 0 x1 x2 x3 (landedT0 c i h3 x1 x2 x3 fd g) ∧ GP 32 1 x1 x2 x3 (landedT1 c i h3 x1 x2 x3 fd g) ∧ GP 32 2 x1 x2 x3 (landedT2 c i h3 x1 x2 x3 fd g) ∧ GP 32 3 x1 x2 x3 (landedT3 c i h3 x1 x2 x3 fd g)
  past : ∀ x1 x2 x3 f, GP 32 4 x1 x2 x3 f ∧ GP 32 5 x1 x2 x3 f

end Cert.KernelIdeal.Region

end
-- ==== Proof.RegionBody.lean ====
/-
  The TensorCore kernel's body, run once per case of the grid point at symbolic operands, by the rules for the core's
  own transfers: a wait takes its copy's `Flight` and hands back what it delivers and the semaphore at zero; the
  three staged blocks are loaded; the tile is stored into the slot, held whole; the slot is dealt out into the six
  chunks the copies read, and each copy is started from its chunk, its row range of the result and its semaphore at
  zero, leaving its `Flight`. The chunks, ranges and semaphores are in the body's own spelling here; the deliveries of
  the waited copies are parameters, and so is what is claimed of the rows a copy lands.
-/
import proofs.«204125_g1194000908950_cont_fleet_528_33_alg».proof.Proof.RegionTail
import Idealize.ShloMosaic.Lib.Transfers
import Idealize.ShloMosaic.Lib.Writes
import Idealize.ShloMosaic.Lib.Pipeline.FrameBody
import Idealize.ShloMosaic.Lib.Tactic

noncomputable section

namespace Cert.KernelIdeal.Region

open Cert.KernelIdeal Cert.KernelIdeal.Gen Cert.KernelIdeal.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MM F

section Body

variable (c : Dev nD) (i : grid1.Coords)
  (M1 : Memref sig .tc .vmem S64x1024 .f32) (hM1 : M1.IsWhole) (M2 : Memref sig .tc .vmem S64x3072 .f32) (hM2 : M2.IsWhole)
  (M3 : Memref sig .tc .vmem S3072 .f32) (hM3 : M3.IsWhole)
  (x1 : Vec F S64x1024 .f32) (x2 : Vec F S64x3072 .f32) (x3 : Vec F S3072 .f32)
  (O : CellTallies nD τ sig (HIx 1)) (W : Waits sig (HIx 1))
  (dS0 dS1 dS2 dS3 dS4 dS5 : Finset (Idx (V4.view.loc (thr c))))
  (Gd0 Gd1 Gd2 Gd3 Gd4 Gd5 : Buf (Elt F) (V4.view.loc (thr c)) → Prop)

/-- The copy of chunk `r` started at point `i`, in flight: it delivers the chunk's rows of the result, at contents the
    certificate's predicate holds of, and the chunk's rows of the slot. -/
abbrev flightI0 (h2 : k1_cond2 i = 1#1) (dS : Finset (Idx (V4.view.loc (thr c)))) (Gd : Buf (Elt F) (V4.view.loc (thr c)) → Prop) : sProp 𝕄 :=
  Transfers.Flight countersEmb (thr c) (SemLoc.dma (semI0 i h2)) (none : HIx 1) 65536
    iprop((∃ f, ⌜Gd f⌝ ∗ V4.view.loc (thr c) ↦[dS]{fullShare} f) ∗ ∃ g, own c (srcI0 i h2) g)
abbrev flightI1 (h2 : k1_cond2 i = 1#1) (dS : Finset (Idx (V4.view.loc (thr c)))) (Gd : Buf (Elt F) (V4.view.loc (thr c)) → Prop) : sProp 𝕄 :=
  Transfers.Flight countersEmb (thr c) (SemLoc.dma (semI1 i h2)) (none : HIx 1) 65536
    iprop((∃ f, ⌜Gd f⌝ ∗ V4.view.loc (thr c) ↦[dS]{fullShare} f) ∗ ∃ g, own c (srcI1 i h2) g)
abbrev flightI2 (h2 : k1_cond2 i = 1#1) (dS : Finset (Idx (V4.view.loc (thr c)))) (Gd : Buf (Elt F) (V4.view.loc (thr c)) → Prop) : sProp 𝕄 :=
  Transfers.Flight countersEmb (thr c) (SemLoc.dma (semI2 i h2)) (none : HIx 1) 65536
    iprop((∃ f, ⌜Gd f⌝ ∗ V4.view.loc (thr c) ↦[dS]{fullShare} f) ∗ ∃ g, own c (srcI2 i h2) g)
abbrev flightI3 (h2 : k1_cond2 i = 1#1) (dS : Finset (Idx (V4.view.loc (thr c)))) (Gd : Buf (Elt F) (V4.view.loc (thr c)) → Prop) : sProp 𝕄 :=
  Transfers.Flight countersEmb (thr c) (SemLoc.dma (semI3 i h2)) (none : HIx 1) 65536
    iprop((∃ f, ⌜Gd f⌝ ∗ V4.view.loc (thr c) ↦[dS]{fullShare} f) ∗ ∃ g, own c (srcI3 i h2) g)
abbrev flightI4 (h2 : k1_cond2 i = 1#1) (dS : Finset (Idx (V4.view.loc (thr c)))) (Gd : Buf (Elt F) (V4.view.loc (thr c)) → Prop) : sProp 𝕄 :=
  Transfers.Flight countersEmb (thr c) (SemLoc.dma (semI4 i h2)) (none : HIx 1) 65536
    iprop((∃ f, ⌜Gd f⌝ ∗ V4.view.loc (thr c) ↦[dS]{fullShare} f) ∗ ∃ g, own c (srcI4 i h2) g)
abbrev flightI5 (h2 : k1_cond2 i = 1#1) (dS : Finset (Idx (V4.view.loc (thr c)))) (Gd : Buf (Elt F) (V4.view.loc (thr c)) → Prop) : sProp 𝕄 :=
  Transfers.Flight countersEmb (thr c) (SemLoc.dma (semI5 i h2)) (none : HIx 1) 65536
    iprop((∃ f, ⌜Gd f⌝ ∗ V4.view.loc (thr c) ↦[dS]{fullShare} f) ∗ ∃ g, own c (srcI5 i h2) g)

set_option maxHeartbeats 4000000 in
/-- A point `2 ≤ i < 32`: wait the six copies started from this slot two points ago, store the tile, start its six copies. -/
theorem body_mid (h1 : k1_cond1 i = 1#1) (h2 : k1_cond2 i = 1#1) (h3 : ¬ k1_cond3 i = 1#1)
    (Dd0 Dd1 Dd2 Dd3 Dd4 Dd5 : sProp 𝕄)
    (hdS0 : (dstI0 i h2).view.set ⊆ dS0) (hG0 : ∀ fd g, Gd0 (landed0 c i h2 x1 x2 x3 fd g))
    (hdS1 : (dstI1 i h2).view.set ⊆ dS1) (hG1 : ∀ fd g, Gd1 (landed1 c i h2 x1 x2 x3 fd g))
    (hdS2 : (dstI2 i h2).view.set ⊆ dS2) (hG2 : ∀ fd g, Gd2 (landed2 c i h2 x1 x2 x3 fd g))
    (hdS3 : (dstI3 i h2).view.set ⊆ dS3) (hG3 : ∀ fd g, Gd3 (landed3 c i h2 x1 x2 x3 fd g))
    (hdS4 : (dstI4 i h2).view.set ⊆ dS4) (hG4 : ∀ fd g, Gd4 (landed4 c i h2 x1 x2 x3 fd g))
    (hdS5 : (dstI5 i h2).view.set ⊆ dS5) (hG5 : ∀ fd g, Gd5 (landed5 c i h2 x1 x2 x3 fd g))
    (Q : PUnit → sProp 𝕄) :
    iprop(owns (thr c) M1 fullShare x1 ∗ owns (thr c) M2 fullShare x2 ∗ owns (thr c) M3 fullShare x3
      ∗ Transfers.Flight countersEmb (thr c) (SemLoc.dma (semW0 i h1)) (none : HIx 1) 65536 iprop(Dd0 ∗ ∃ g, own c (srcW0 i h1) g)
      ∗ Transfers.Flight countersEmb (thr c) (SemLoc.dma (semW1 i h1)) (none : HIx 1) 65536 iprop(Dd1 ∗ ∃ g, own c (srcW1 i h1) g)
      ∗ Transfers.Flight countersEmb (thr c) (SemLoc.dma (semW2 i h1)) (none : HIx 1) 65536 iprop(Dd2 ∗ ∃ g, own c (srcW2 i h1) g)
      ∗ Transfers.Flight countersEmb (thr c) (SemLoc.dma (semW3 i h1)) (none : HIx 1) 65536 iprop(Dd3 ∗ ∃ g, own c (srcW3 i h1) g)
      ∗ Transfers.Flight countersEmb (thr c) (SemLoc.dma (semW4 i h1)) (none : HIx 1) 65536 iprop(Dd4 ∗ ∃ g, own c (srcW4 i h1) g)
      ∗ Transfers.Flight countersEmb (thr c) (SemLoc.dma (semW5 i h1)) (none : HIx 1) 65536 iprop(Dd5 ∗ ∃ g, own c (srcW5 i h1) g)
      ∗ (∃ f, V4.view.loc (thr c) ↦[dS0]{fullShare} f)
      ∗ (∃ f, V4.view.loc (thr c) ↦[dS1]{fullShare} f)
      ∗ (∃ f, V4.view.loc (thr c) ↦[dS2]{fullShare} f)
      ∗ (∃ f, V4.view.loc (thr c) ↦[dS3]{fullShare} f)
      ∗ (∃ f, V4.view.loc (thr c) ↦[dS4]{fullShare} f)
      ∗ (∃ f, V4.view.loc (thr c) ↦[dS5]{fullShare} f)
      ∗ owes (thr c) O W ∗ Transfers.MayWaits (thr c) (none : HIx 1) O
      ∗ (iprop(owns (thr c) M1 fullShare x1 ∗ owns (thr c) M2 fullShare x2 ∗ owns (thr c) M3 fullShare x3
          ∗ Dd0 ∗ Dd1 ∗ Dd2 ∗ Dd3 ∗ Dd4 ∗ Dd5
          ∗ flightI0 c i h2 dS0 Gd0 ∗ flightI1 c i h2 dS1 Gd1 ∗ flightI2 c i h2 dS2 Gd2 ∗ flightI3 c i h2 dS3 Gd3 ∗ flightI4 c i h2 dS4 Gd4 ∗ flightI5 c i h2 dS5 Gd5
          ∗ ∃ W', ⌜∀ p ∈ W', p ∈ W ∨ p.2 = none⌝ ∗ owes (thr c) O W') -∗ Q ⟨⟩))
      ⊢ wp frame (wpE (defs₀ (F := F)) Variants.none (thr c) none) Set.univ
          (cc1_body i M1 hM1 M2 hM2 M3 hM3 V4 (Memref.isWhole_whole _) SCR (Memref.isWhole_whole _) cc1_scratch1) Q := by
  unfold owns
  iintro ⟨⟨%f1, %hf1, H1⟩, ⟨%f2, %hf2, H2⟩, ⟨%f3, %hf3, H3⟩, HFW0, HFW1, HFW2, HFW3, HFW4, HFW5, ⟨%e0, Hd0⟩, ⟨%e1, Hd1⟩, ⟨%e2, Hd2⟩, ⟨%e3, Hd3⟩, ⟨%e4, Hd4⟩, ⟨%e5, Hd5⟩, HO, #HM, Hk⟩
  subst hf1 hf2 hf3
  rw [cc1_body_eq_skeleton]; unfold cc1_body_skel
  rw [dif_pos h1, dif_pos h2, dif_neg h3, k1_part1_eq_skeleton, k1_part2_eq_skeleton]; unfold k1_part1_skel k1_part2_skel
  sl_exec
  iapply (Transfers.wp_waitLocalO countersEmb Variants.none (thr c) none (none : HIx 1) (N := 65536) rfl) $$ [HFW0 HO]
  · isplitl [HFW0]; · iexact HFW0
    isplitl [HO]; · iexact HO
    iapply (Transfers.MayWaits.elim (SemLoc.dma (semW0 i h1))); iexact HM
  iintro ⟨⟨HD0, HS0⟩, Hv0, HO⟩
  sl_exec
  iapply (Transfers.wp_waitLocalO countersEmb Variants.none (thr c) none (none : HIx 1) (N := 65536) rfl) $$ [HFW1 HO]
  · isplitl [HFW1]; · iexact HFW1
    isplitl [HO]; · iexact HO
    iapply (Transfers.MayWaits.elim (SemLoc.dma (semW1 i h1))); iexact HM
  iintro ⟨⟨HD1, HS1⟩, Hv1, HO⟩
  sl_exec
  iapply (Transfers.wp_waitLocalO countersEmb Variants.none (thr c) none (none : HIx 1) (N := 65536) rfl) $$ [HFW2 HO]
  · isplitl [HFW2]; · iexact HFW2
    isplitl [HO]; · iexact HO
    iapply (Transfers.MayWaits.elim (SemLoc.dma (semW2 i h1))); iexact HM
  iintro ⟨⟨HD2, HS2⟩, Hv2, HO⟩
  sl_exec
  iapply (Transfers.wp_waitLocalO countersEmb Variants.none (thr c) none (none : HIx 1) (N := 65536) rfl) $$ [HFW3 HO]
  · isplitl [HFW3]; · iexact HFW3
    isplitl [HO]; · iexact HO
    iapply (Transfers.MayWaits.elim (SemLoc.dma (semW3 i h1))); iexact HM
  iintro ⟨⟨HD3, HS3⟩, Hv3, HO⟩
  sl_exec
  iapply (Transfers.wp_waitLocalO countersEmb Variants.none (thr c) none (none : HIx 1) (N := 65536) rfl) $$ [HFW4 HO]
  · isplitl [HFW4]; · iexact HFW4
    isplitl [HO]; · iexact HO
    iapply (Transfers.MayWaits.elim (SemLoc.dma (semW4 i h1))); iexact HM
  iintro ⟨⟨HD4, HS4⟩, Hv4, HO⟩
  sl_exec
  iapply (Transfers.wp_waitLocalO countersEmb Variants.none (thr c) none (none : HIx 1) (N := 65536) rfl) $$ [HFW5 HO]
  · isplitl [HFW5]; · iexact HFW5
    isplitl [HO]; · iexact HO
    iapply (Transfers.MayWaits.elim (SemLoc.dma (semW5 i h1))); iexact HM
  iintro ⟨⟨HD5, HS5⟩, Hv5, HO⟩
  sl_exec

  ihave Hg := (slot_join c i h1) $$ [HS0 HS1 HS2 HS3 HS4 HS5]
  · isplitl [HS0]; · iexact HS0
    isplitl [HS1]; · iexact HS1
    isplitl [HS2]; · iexact HS2
    isplitl [HS3]; · iexact HS3
    isplitl [HS4]; · iexact HS4
    iexact HS5
  icases Hg with ⟨%g, Hg⟩
  iapply (wp_load Variants.none (thr c) none Set.univ (Memref.setOn_subset_of_access_subset (c := thr c) (m := SCR) (r := slotR i) (Finset.Subset.refl _))) $$ Hg
  iintro Hg
  iapply (wp_store Variants.none (thr c) none Set.univ (m := SCR) (r := slotR i) (Mk := Finset.univ) (show (SCR.access (slotR i)).setOn Finset.univ ⊆ (SCR.access (slotR i)).set from Finset.Subset.refl _)) $$ Hg
  iintro Hg
  rw [Prog.bind.eq_1]
  ihave Hs := (slot_split c i h2 _) $$ Hg
  icases Hs with ⟨HS0, HS1, HS2, HS3, HS4, HS5⟩
  sl_exec
  iapply (Transfers.wp_dmaLocal countersEmb Variants.none (thr c) none (none : HIx 1) 65536 rfl (by decide) hdS0) $$ [HS0 Hd0 Hv0]
  · isplitl [HS0]; · iexact HS0
    isplitl [Hd0]; · iexact Hd0
    iapply (Entails.of_eq (show (semVal (thr c, SemLoc.dma (semW0 i h1)) 0 : sProp 𝕄) = semVal (thr c, SemLoc.dma (semI0 i h2)) 0 from by rw [semW0_eq, semI0_eq])); iexact Hv0
  iintro HFI0
  ihave HFI0 := (Transfers.Flight_mono countersEmb (thr c) (D' := iprop((∃ f, ⌜Gd0 f⌝ ∗ V4.view.loc (thr c) ↦[dS0]{fullShare} f) ∗ ∃ g, own c (srcI0 i h2) g)) ?_) $$ HFI0
  · iintro ⟨Hd, Hs⟩
    isplitl [Hd]
    · iexists _; isplitr; · ipureintro; exact hG0 e0 g
      iexact Hd
    · iexists _; iexact Hs
  sl_exec
  iapply (Transfers.wp_dmaLocal countersEmb Variants.none (thr c) none (none : HIx 1) 65536 rfl (by decide) hdS1) $$ [HS1 Hd1 Hv1]
  · isplitl [HS1]; · iexact HS1
    isplitl [Hd1]; · iexact Hd1
    iapply (Entails.of_eq (show (semVal (thr c, SemLoc.dma (semW1 i h1)) 0 : sProp 𝕄) = semVal (thr c, SemLoc.dma (semI1 i h2)) 0 from by rw [semW1_eq, semI1_eq])); iexact Hv1
  iintro HFI1
  ihave HFI1 := (Transfers.Flight_mono countersEmb (thr c) (D' := iprop((∃ f, ⌜Gd1 f⌝ ∗ V4.view.loc (thr c) ↦[dS1]{fullShare} f) ∗ ∃ g, own c (srcI1 i h2) g)) ?_) $$ HFI1
  · iintro ⟨Hd, Hs⟩
    isplitl [Hd]
    · iexists _; isplitr; · ipureintro; exact hG1 e1 g
      iexact Hd
    · iexists _; iexact Hs
  sl_exec
  iapply (Transfers.wp_dmaLocal countersEmb Variants.none (thr c) none (none : HIx 1) 65536 rfl (by decide) hdS2) $$ [HS2 Hd2 Hv2]
  · isplitl [HS2]; · iexact HS2
    isplitl [Hd2]; · iexact Hd2
    iapply (Entails.of_eq (show (semVal (thr c, SemLoc.dma (semW2 i h1)) 0 : sProp 𝕄) = semVal (thr c, SemLoc.dma (semI2 i h2)) 0 from by rw [semW2_eq, semI2_eq])); iexact Hv2
  iintro HFI2
  ihave HFI2 := (Transfers.Flight_mono countersEmb (thr c) (D' := iprop((∃ f, ⌜Gd2 f⌝ ∗ V4.view.loc (thr c) ↦[dS2]{fullShare} f) ∗ ∃ g, own c (srcI2 i h2) g)) ?_) $$ HFI2
  · iintro ⟨Hd, Hs⟩
    isplitl [Hd]
    · iexists _; isplitr; · ipureintro; exact hG2 e2 g
      iexact Hd
    · iexists _; iexact Hs
  sl_exec
  iapply (Transfers.wp_dmaLocal countersEmb Variants.none (thr c) none (none : HIx 1) 65536 rfl (by decide) hdS3) $$ [HS3 Hd3 Hv3]
  · isplitl [HS3]; · iexact HS3
    isplitl [Hd3]; · iexact Hd3
    iapply (Entails.of_eq (show (semVal (thr c, SemLoc.dma (semW3 i h1)) 0 : sProp 𝕄) = semVal (thr c, SemLoc.dma (semI3 i h2)) 0 from by rw [semW3_eq, semI3_eq])); iexact Hv3
  iintro HFI3
  ihave HFI3 := (Transfers.Flight_mono countersEmb (thr c) (D' := iprop((∃ f, ⌜Gd3 f⌝ ∗ V4.view.loc (thr c) ↦[dS3]{fullShare} f) ∗ ∃ g, own c (srcI3 i h2) g)) ?_) $$ HFI3
  · iintro ⟨Hd, Hs⟩
    isplitl [Hd]
    · iexists _; isplitr; · ipureintro; exact hG3 e3 g
      iexact Hd
    · iexists _; iexact Hs
  sl_exec
  iapply (Transfers.wp_dmaLocal countersEmb Variants.none (thr c) none (none : HIx 1) 65536 rfl (by decide) hdS4) $$ [HS4 Hd4 Hv4]
  · isplitl [HS4]; · iexact HS4
    isplitl [Hd4]; · iexact Hd4
    iapply (Entails.of_eq (show (semVal (thr c, SemLoc.dma (semW4 i h1)) 0 : sProp 𝕄) = semVal (thr c, SemLoc.dma (semI4 i h2)) 0 from by rw [semW4_eq, semI4_eq])); iexact Hv4
  iintro HFI4
  ihave HFI4 := (Transfers.Flight_mono countersEmb (thr c) (D' := iprop((∃ f, ⌜Gd4 f⌝ ∗ V4.view.loc (thr c) ↦[dS4]{fullShare} f) ∗ ∃ g, own c (srcI4 i h2) g)) ?_) $$ HFI4
  · iintro ⟨Hd, Hs⟩
    isplitl [Hd]
    · iexists _; isplitr; · ipureintro; exact hG4 e4 g
      iexact Hd
    · iexists _; iexact Hs
  sl_exec
  iapply (Transfers.wp_dmaLocal countersEmb Variants.none (thr c) none (none : HIx 1) 65536 rfl (by decide) hdS5) $$ [HS5 Hd5 Hv5]
  · isplitl [HS5]; · iexact HS5
    isplitl [Hd5]; · iexact Hd5
    iapply (Entails.of_eq (show (semVal (thr c, SemLoc.dma (semW5 i h1)) 0 : sProp 𝕄) = semVal (thr c, SemLoc.dma (semI5 i h2)) 0 from by rw [semW5_eq, semI5_eq])); iexact Hv5
  iintro HFI5
  ihave HFI5 := (Transfers.Flight_mono countersEmb (thr c) (D' := iprop((∃ f, ⌜Gd5 f⌝ ∗ V4.view.loc (thr c) ↦[dS5]{fullShare} f) ∗ ∃ g, own c (srcI5 i h2) g)) ?_) $$ HFI5
  · iintro ⟨Hd, Hs⟩
    isplitl [Hd]
    · iexists _; isplitr; · ipureintro; exact hG5 e5 g
      iexact Hd
    · iexists _; iexact Hs
  sl_exec

  sl_step
  iapply Hk
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HD0]; · iexact HD0
  isplitl [HD1]; · iexact HD1
  isplitl [HD2]; · iexact HD2
  isplitl [HD3]; · iexact HD3
  isplitl [HD4]; · iexact HD4
  isplitl [HD5]; · iexact HD5
  isplitl [HFI0]; · iexact HFI0
  isplitl [HFI1]; · iexact HFI1
  isplitl [HFI2]; · iexact HFI2
  isplitl [HFI3]; · iexact HFI3
  isplitl [HFI4]; · iexact HFI4
  isplitl [HFI5]; · iexact HFI5
  iexists _
  isplitr
  rotate_left
  · iexact HO
  · ipureintro; intro p hp; simp only [Finset.mem_insert] at hp
    rcases hp with rfl | rfl | rfl | rfl | rfl | rfl | hp <;> first | exact Or.inr rfl | exact Or.inl hp

set_option maxHeartbeats 4000000 in
/-- Points 0 and 1: the slot and its semaphores are in hand; store the tile, start its six copies. -/
theorem body_lo (h1 : ¬ k1_cond1 i = 1#1) (h2 : k1_cond2 i = 1#1) (h3 : ¬ k1_cond3 i = 1#1)
    (hdS0 : (dstI0 i h2).view.set ⊆ dS0) (hG0 : ∀ fd g, Gd0 (landed0 c i h2 x1 x2 x3 fd g))
    (hdS1 : (dstI1 i h2).view.set ⊆ dS1) (hG1 : ∀ fd g, Gd1 (landed1 c i h2 x1 x2 x3 fd g))
    (hdS2 : (dstI2 i h2).view.set ⊆ dS2) (hG2 : ∀ fd g, Gd2 (landed2 c i h2 x1 x2 x3 fd g))
    (hdS3 : (dstI3 i h2).view.set ⊆ dS3) (hG3 : ∀ fd g, Gd3 (landed3 c i h2 x1 x2 x3 fd g))
    (hdS4 : (dstI4 i h2).view.set ⊆ dS4) (hG4 : ∀ fd g, Gd4 (landed4 c i h2 x1 x2 x3 fd g))
    (hdS5 : (dstI5 i h2).view.set ⊆ dS5) (hG5 : ∀ fd g, Gd5 (landed5 c i h2 x1 x2 x3 fd g))
    (Q : PUnit → sProp 𝕄) :
    iprop(owns (thr c) M1 fullShare x1 ∗ owns (thr c) M2 fullShare x2 ∗ owns (thr c) M3 fullShare x3
      ∗ (∃ g, SCR.view.loc (thr c) ↦[(SCR.access (slotR i)).set]{fullShare} g)
      ∗ semVal (thr c, SemLoc.dma (semI0 i h2)) 0
      ∗ semVal (thr c, SemLoc.dma (semI1 i h2)) 0
      ∗ semVal (thr c, SemLoc.dma (semI2 i h2)) 0
      ∗ semVal (thr c, SemLoc.dma (semI3 i h2)) 0
      ∗ semVal (thr c, SemLoc.dma (semI4 i h2)) 0
      ∗ semVal (thr c, SemLoc.dma (semI5 i h2)) 0
      ∗ (∃ f, V4.view.loc (thr c) ↦[dS0]{fullShare} f)
      ∗ (∃ f, V4.view.loc (thr c) ↦[dS1]{fullShare} f)
      ∗ (∃ f, V4.view.loc (thr c) ↦[dS2]{fullShare} f)
      ∗ (∃ f, V4.view.loc (thr c) ↦[dS3]{fullShare} f)
      ∗ (∃ f, V4.view.loc (thr c) ↦[dS4]{fullShare} f)
      ∗ (∃ f, V4.view.loc (thr c) ↦[dS5]{fullShare} f)
      ∗ owes (thr c) O W
      ∗ (iprop(owns (thr c) M1 fullShare x1 ∗ owns (thr c) M2 fullShare x2 ∗ owns (thr c) M3 fullShare x3
          ∗ flightI0 c i h2 dS0 Gd0 ∗ flightI1 c i h2 dS1 Gd1 ∗ flightI2 c i h2 dS2 Gd2 ∗ flightI3 c i h2 dS3 Gd3 ∗ flightI4 c i h2 dS4 Gd4 ∗ flightI5 c i h2 dS5 Gd5
          ∗ owes (thr c) O W) -∗ Q ⟨⟩))
      ⊢ wp frame (wpE (defs₀ (F := F)) Variants.none (thr c) none) Set.univ
          (cc1_body i M1 hM1 M2 hM2 M3 hM3 V4 (Memref.isWhole_whole _) SCR (Memref.isWhole_whole _) cc1_scratch1) Q := by
  unfold owns
  iintro ⟨⟨%f1, %hf1, H1⟩, ⟨%f2, %hf2, H2⟩, ⟨%f3, %hf3, H3⟩, ⟨%g, Hg⟩, Hv0, Hv1, Hv2, Hv3, Hv4, Hv5, ⟨%e0, Hd0⟩, ⟨%e1, Hd1⟩, ⟨%e2, Hd2⟩, ⟨%e3, Hd3⟩, ⟨%e4, Hd4⟩, ⟨%e5, Hd5⟩, HO, Hk⟩
  subst hf1 hf2 hf3
  rw [cc1_body_eq_skeleton]; unfold cc1_body_skel
  rw [dif_neg h1, dif_pos h2, dif_neg h3, k1_part2_eq_skeleton]; unfold k1_part2_skel
  sl_exec
  iapply (wp_load Variants.none (thr c) none Set.univ (Memref.setOn_subset_of_access_subset (c := thr c) (m := SCR) (r := slotR i) (Finset.Subset.refl _))) $$ Hg
  iintro Hg
  iapply (wp_store Variants.none (thr c) none Set.univ (m := SCR) (r := slotR i) (Mk := Finset.univ) (show (SCR.access (slotR i)).setOn Finset.univ ⊆ (SCR.access (slotR i)).set from Finset.Subset.refl _)) $$ Hg
  iintro Hg
  rw [Prog.bind.eq_1]
  ihave Hs := (slot_split c i h2 _) $$ Hg
  icases Hs with ⟨HS0, HS1, HS2, HS3, HS4, HS5⟩
  sl_exec
  iapply (Transfers.wp_dmaLocal countersEmb Variants.none (thr c) none (none : HIx 1) 65536 rfl (by decide) hdS0) $$ [HS0 Hd0 Hv0]
  · isplitl [HS0]; · iexact HS0
    isplitl [Hd0]; · iexact Hd0
    iexact Hv0
  iintro HFI0
  ihave HFI0 := (Transfers.Flight_mono countersEmb (thr c) (D' := iprop((∃ f, ⌜Gd0 f⌝ ∗ V4.view.loc (thr c) ↦[dS0]{fullShare} f) ∗ ∃ g, own c (srcI0 i h2) g)) ?_) $$ HFI0
  · iintro ⟨Hd, Hs⟩
    isplitl [Hd]
    · iexists _; isplitr; · ipureintro; exact hG0 e0 g
      iexact Hd
    · iexists _; iexact Hs
  sl_exec
  iapply (Transfers.wp_dmaLocal countersEmb Variants.none (thr c) none (none : HIx 1) 65536 rfl (by decide) hdS1) $$ [HS1 Hd1 Hv1]
  · isplitl [HS1]; · iexact HS1
    isplitl [Hd1]; · iexact Hd1
    iexact Hv1
  iintro HFI1
  ihave HFI1 := (Transfers.Flight_mono countersEmb (thr c) (D' := iprop((∃ f, ⌜Gd1 f⌝ ∗ V4.view.loc (thr c) ↦[dS1]{fullShare} f) ∗ ∃ g, own c (srcI1 i h2) g)) ?_) $$ HFI1
  · iintro ⟨Hd, Hs⟩
    isplitl [Hd]
    · iexists _; isplitr; · ipureintro; exact hG1 e1 g
      iexact Hd
    · iexists _; iexact Hs
  sl_exec
  iapply (Transfers.wp_dmaLocal countersEmb Variants.none (thr c) none (none : HIx 1) 65536 rfl (by decide) hdS2) $$ [HS2 Hd2 Hv2]
  · isplitl [HS2]; · iexact HS2
    isplitl [Hd2]; · iexact Hd2
    iexact Hv2
  iintro HFI2
  ihave HFI2 := (Transfers.Flight_mono countersEmb (thr c) (D' := iprop((∃ f, ⌜Gd2 f⌝ ∗ V4.view.loc (thr c) ↦[dS2]{fullShare} f) ∗ ∃ g, own c (srcI2 i h2) g)) ?_) $$ HFI2
  · iintro ⟨Hd, Hs⟩
    isplitl [Hd]
    · iexists _; isplitr; · ipureintro; exact hG2 e2 g
      iexact Hd
    · iexists _; iexact Hs
  sl_exec
  iapply (Transfers.wp_dmaLocal countersEmb Variants.none (thr c) none (none : HIx 1) 65536 rfl (by decide) hdS3) $$ [HS3 Hd3 Hv3]
  · isplitl [HS3]; · iexact HS3
    isplitl [Hd3]; · iexact Hd3
    iexact Hv3
  iintro HFI3
  ihave HFI3 := (Transfers.Flight_mono countersEmb (thr c) (D' := iprop((∃ f, ⌜Gd3 f⌝ ∗ V4.view.loc (thr c) ↦[dS3]{fullShare} f) ∗ ∃ g, own c (srcI3 i h2) g)) ?_) $$ HFI3
  · iintro ⟨Hd, Hs⟩
    isplitl [Hd]
    · iexists _; isplitr; · ipureintro; exact hG3 e3 g
      iexact Hd
    · iexists _; iexact Hs
  sl_exec
  iapply (Transfers.wp_dmaLocal countersEmb Variants.none (thr c) none (none : HIx 1) 65536 rfl (by decide) hdS4) $$ [HS4 Hd4 Hv4]
  · isplitl [HS4]; · iexact HS4
    isplitl [Hd4]; · iexact Hd4
    iexact Hv4
  iintro HFI4
  ihave HFI4 := (Transfers.Flight_mono countersEmb (thr c) (D' := iprop((∃ f, ⌜Gd4 f⌝ ∗ V4.view.loc (thr c) ↦[dS4]{fullShare} f) ∗ ∃ g, own c (srcI4 i h2) g)) ?_) $$ HFI4
  · iintro ⟨Hd, Hs⟩
    isplitl [Hd]
    · iexists _; isplitr; · ipureintro; exact hG4 e4 g
      iexact Hd
    · iexists _; iexact Hs
  sl_exec
  iapply (Transfers.wp_dmaLocal countersEmb Variants.none (thr c) none (none : HIx 1) 65536 rfl (by decide) hdS5) $$ [HS5 Hd5 Hv5]
  · isplitl [HS5]; · iexact HS5
    isplitl [Hd5]; · iexact Hd5
    iexact Hv5
  iintro HFI5
  ihave HFI5 := (Transfers.Flight_mono countersEmb (thr c) (D' := iprop((∃ f, ⌜Gd5 f⌝ ∗ V4.view.loc (thr c) ↦[dS5]{fullShare} f) ∗ ∃ g, own c (srcI5 i h2) g)) ?_) $$ HFI5
  · iintro ⟨Hd, Hs⟩
    isplitl [Hd]
    · iexists _; isplitr; · ipureintro; exact hG5 e5 g
      iexact Hd
    · iexists _; iexact Hs
  sl_exec

  sl_step
  iapply Hk
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HFI0]; · iexact HFI0
  isplitl [HFI1]; · iexact HFI1
  isplitl [HFI2]; · iexact HFI2
  isplitl [HFI3]; · iexact HFI3
  isplitl [HFI4]; · iexact HFI4
  isplitl [HFI5]; · iexact HFI5
  iexact HO

set_option maxHeartbeats 8000000 in
/-- The last point: wait slot 0's six copies of two points ago, store the tail tile, start its four copies, wait slot
    1's six copies of the point before and the four just started: every copy is back. -/
theorem body_last (h1 : k1_cond1 i = 1#1) (h2 : ¬ k1_cond2 i = 1#1) (h3 : k1_cond3 i = 1#1)
    (Dd0 Dd1 Dd2 Dd3 Dd4 Dd5 De0 De1 De2 De3 De4 De5 : sProp 𝕄)
    (hdT0 : (dstT0).view.set ⊆ dS0) (hGT0 : ∀ fd g, Gd0 (landedT0 c i h3 x1 x2 x3 fd g))
    (hdT1 : (dstT1).view.set ⊆ dS1) (hGT1 : ∀ fd g, Gd1 (landedT1 c i h3 x1 x2 x3 fd g))
    (hdT2 : (dstT2).view.set ⊆ dS2) (hGT2 : ∀ fd g, Gd2 (landedT2 c i h3 x1 x2 x3 fd g))
    (hdT3 : (dstT3).view.set ⊆ dS3) (hGT3 : ∀ fd g, Gd3 (landedT3 c i h3 x1 x2 x3 fd g))
    (Q : PUnit → sProp 𝕄) :
    iprop(owns (thr c) M1 fullShare x1 ∗ owns (thr c) M2 fullShare x2 ∗ owns (thr c) M3 fullShare x3
      ∗ Transfers.Flight countersEmb (thr c) (SemLoc.dma (semW0 i h1)) (none : HIx 1) 65536 iprop(Dd0 ∗ ∃ g, own c (srcW0 i h1) g)
      ∗ Transfers.Flight countersEmb (thr c) (SemLoc.dma (semW1 i h1)) (none : HIx 1) 65536 iprop(Dd1 ∗ ∃ g, own c (srcW1 i h1) g)
      ∗ Transfers.Flight countersEmb (thr c) (SemLoc.dma (semW2 i h1)) (none : HIx 1) 65536 iprop(Dd2 ∗ ∃ g, own c (srcW2 i h1) g)
      ∗ Transfers.Flight countersEmb (thr c) (SemLoc.dma (semW3 i h1)) (none : HIx 1) 65536 iprop(Dd3 ∗ ∃ g, own c (srcW3 i h1) g)
      ∗ Transfers.Flight countersEmb (thr c) (SemLoc.dma (semW4 i h1)) (none : HIx 1) 65536 iprop(Dd4 ∗ ∃ g, own c (srcW4 i h1) g)
      ∗ Transfers.Flight countersEmb (thr c) (SemLoc.dma (semW5 i h1)) (none : HIx 1) 65536 iprop(Dd5 ∗ ∃ g, own c (srcW5 i h1) g)
      ∗ Transfers.Flight countersEmb (thr c) (SemLoc.dma semL0) (none : HIx 1) 65536 iprop(De0 ∗ scrC c 1 0)
      ∗ Transfers.Flight countersEmb (thr c) (SemLoc.dma semL1) (none : HIx 1) 65536 iprop(De1 ∗ scrC c 1 1)
      ∗ Transfers.Flight countersEmb (thr c) (SemLoc.dma semL2) (none : HIx 1) 65536 iprop(De2 ∗ scrC c 1 2)
      ∗ Transfers.Flight countersEmb (thr c) (SemLoc.dma semL3) (none : HIx 1) 65536 iprop(De3 ∗ scrC c 1 3)
      ∗ Transfers.Flight countersEmb (thr c) (SemLoc.dma semL4) (none : HIx 1) 65536 iprop(De4 ∗ scrC c 1 4)
      ∗ Transfers.Flight countersEmb (thr c) (SemLoc.dma semL5) (none : HIx 1) 65536 iprop(De5 ∗ scrC c 1 5)
      ∗ (∃ f, V4.view.loc (thr c) ↦[dS0]{fullShare} f)
      ∗ (∃ f, V4.view.loc (thr c) ↦[dS1]{fullShare} f)
      ∗ (∃ f, V4.view.loc (thr c) ↦[dS2]{fullShare} f)
      ∗ (∃ f, V4.view.loc (thr c) ↦[dS3]{fullShare} f)
      ∗ owes (thr c) O W ∗ Transfers.MayWaits (thr c) (none : HIx 1) O
      ∗ (iprop(owns (thr c) M1 fullShare x1 ∗ owns (thr c) M2 fullShare x2 ∗ owns (thr c) M3 fullShare x3
          ∗ Dd0 ∗ Dd1 ∗ Dd2 ∗ Dd3 ∗ Dd4 ∗ Dd5
          ∗ De0 ∗ De1 ∗ De2 ∗ De3 ∗ De4 ∗ De5
          ∗ (∃ f, ⌜Gd0 f⌝ ∗ V4.view.loc (thr c) ↦[dS0]{fullShare} f) ∗ (∃ f, ⌜Gd1 f⌝ ∗ V4.view.loc (thr c) ↦[dS1]{fullShare} f) ∗ (∃ f, ⌜Gd2 f⌝ ∗ V4.view.loc (thr c) ↦[dS2]{fullShare} f) ∗ (∃ f, ⌜Gd3 f⌝ ∗ V4.view.loc (thr c) ↦[dS3]{fullShare} f)
          ∗ (bigSep Finset.univ fun r : Fin 6 => scrC c (sOf i) r)
          ∗ semVal (thr c, SemLoc.dma (semT0 i h3)) 0 ∗ semVal (thr c, SemLoc.dma (semT1 i h3)) 0 ∗ semVal (thr c, SemLoc.dma (semT2 i h3)) 0 ∗ semVal (thr c, SemLoc.dma (semT3 i h3)) 0 ∗ semVal (thr c, SemLoc.dma (semW4 i h1)) 0 ∗ semVal (thr c, SemLoc.dma (semW5 i h1)) 0
          ∗ semVal (thr c, SemLoc.dma semL0) 0 ∗ semVal (thr c, SemLoc.dma semL1) 0 ∗ semVal (thr c, SemLoc.dma semL2) 0 ∗ semVal (thr c, SemLoc.dma semL3) 0 ∗ semVal (thr c, SemLoc.dma semL4) 0 ∗ semVal (thr c, SemLoc.dma semL5) 0
          ∗ scrC c 1 0 ∗ scrC c 1 1 ∗ scrC c 1 2 ∗ scrC c 1 3 ∗ scrC c 1 4 ∗ scrC c 1 5
          ∗ ∃ W', ⌜∀ p ∈ W', p ∈ W ∨ p.2 = none⌝ ∗ owes (thr c) O W') -∗ Q ⟨⟩))
      ⊢ wp frame (wpE (defs₀ (F := F)) Variants.none (thr c) none) Set.univ
          (cc1_body i M1 hM1 M2 hM2 M3 hM3 V4 (Memref.isWhole_whole _) SCR (Memref.isWhole_whole _) cc1_scratch1) Q := by
  unfold owns
  iintro ⟨⟨%f1, %hf1, H1⟩, ⟨%f2, %hf2, H2⟩, ⟨%f3, %hf3, H3⟩, HFW0, HFW1, HFW2, HFW3, HFW4, HFW5, HFL0, HFL1, HFL2, HFL3, HFL4, HFL5, ⟨%e0, Hd0⟩, ⟨%e1, Hd1⟩, ⟨%e2, Hd2⟩, ⟨%e3, Hd3⟩, HO, #HM, Hk⟩
  subst hf1 hf2 hf3
  rw [cc1_body_eq_skeleton]; unfold cc1_body_skel
  rw [dif_pos h1, dif_neg h2, dif_pos h3, k1_part1_eq_skeleton, k1_part3_eq_skeleton, k1_part4_eq_skeleton]; unfold k1_part1_skel k1_part3_skel k1_part4_skel
  sl_exec
  iapply (Transfers.wp_waitLocalO countersEmb Variants.none (thr c) none (none : HIx 1) (N := 65536) rfl) $$ [HFW0 HO]
  · isplitl [HFW0]; · iexact HFW0
    isplitl [HO]; · iexact HO
    iapply (Transfers.MayWaits.elim (SemLoc.dma (semW0 i h1))); iexact HM
  iintro ⟨⟨HD0, HS0⟩, Hv0, HO⟩
  sl_exec
  iapply (Transfers.wp_waitLocalO countersEmb Variants.none (thr c) none (none : HIx 1) (N := 65536) rfl) $$ [HFW1 HO]
  · isplitl [HFW1]; · iexact HFW1
    isplitl [HO]; · iexact HO
    iapply (Transfers.MayWaits.elim (SemLoc.dma (semW1 i h1))); iexact HM
  iintro ⟨⟨HD1, HS1⟩, Hv1, HO⟩
  sl_exec
  iapply (Transfers.wp_waitLocalO countersEmb Variants.none (thr c) none (none : HIx 1) (N := 65536) rfl) $$ [HFW2 HO]
  · isplitl [HFW2]; · iexact HFW2
    isplitl [HO]; · iexact HO
    iapply (Transfers.MayWaits.elim (SemLoc.dma (semW2 i h1))); iexact HM
  iintro ⟨⟨HD2, HS2⟩, Hv2, HO⟩
  sl_exec
  iapply (Transfers.wp_waitLocalO countersEmb Variants.none (thr c) none (none : HIx 1) (N := 65536) rfl) $$ [HFW3 HO]
  · isplitl [HFW3]; · iexact HFW3
    isplitl [HO]; · iexact HO
    iapply (Transfers.MayWaits.elim (SemLoc.dma (semW3 i h1))); iexact HM
  iintro ⟨⟨HD3, HS3⟩, Hv3, HO⟩
  sl_exec
  iapply (Transfers.wp_waitLocalO countersEmb Variants.none (thr c) none (none : HIx 1) (N := 65536) rfl) $$ [HFW4 HO]
  · isplitl [HFW4]; · iexact HFW4
    isplitl [HO]; · iexact HO
    iapply (Transfers.MayWaits.elim (SemLoc.dma (semW4 i h1))); iexact HM
  iintro ⟨⟨HD4, HS4⟩, Hv4, HO⟩
  sl_exec
  iapply (Transfers.wp_waitLocalO countersEmb Variants.none (thr c) none (none : HIx 1) (N := 65536) rfl) $$ [HFW5 HO]
  · isplitl [HFW5]; · iexact HFW5
    isplitl [HO]; · iexact HO
    iapply (Transfers.MayWaits.elim (SemLoc.dma (semW5 i h1))); iexact HM
  iintro ⟨⟨HD5, HS5⟩, Hv5, HO⟩
  sl_exec

  ihave Hg := (slot_join c i h1) $$ [HS0 HS1 HS2 HS3 HS4 HS5]
  · isplitl [HS0]; · iexact HS0
    isplitl [HS1]; · iexact HS1
    isplitl [HS2]; · iexact HS2
    isplitl [HS3]; · iexact HS3
    isplitl [HS4]; · iexact HS4
    iexact HS5
  icases Hg with ⟨%g, Hg⟩
  iapply (wp_load Variants.none (thr c) none Set.univ (Memref.setOn_subset_of_access_subset (c := thr c) (m := SCR) (r := slotR i) (Finset.Subset.refl _))) $$ Hg
  iintro Hg
  iapply (wp_store Variants.none (thr c) none Set.univ (m := SCR) (r := slotR i) (Mk := Finset.univ) (show (SCR.access (slotR i)).setOn Finset.univ ⊆ (SCR.access (slotR i)).set from Finset.Subset.refl _)) $$ Hg
  iintro Hg
  rw [Prog.bind.eq_1]
  ihave Hs := (tail_split c i h3 _) $$ Hg
  icases Hs with ⟨HS0, HS1, HS2, HS3, HR3, HR4, HR5⟩
  sl_exec
  iapply (Transfers.wp_dmaLocal countersEmb Variants.none (thr c) none (none : HIx 1) 65536 rfl (by decide) hdT0) $$ [HS0 Hd0 Hv0]
  · isplitl [HS0]; · iexact HS0
    isplitl [Hd0]; · iexact Hd0
    iapply (Entails.of_eq (show (semVal (thr c, SemLoc.dma (semW0 i h1)) 0 : sProp 𝕄) = semVal (thr c, SemLoc.dma (semT0 i h3)) 0 from by rw [semW0_eq, semT0_eq])); iexact Hv0
  iintro HFT0
  ihave HFT0 := (Transfers.Flight_mono countersEmb (thr c) (D' := iprop((∃ f, ⌜Gd0 f⌝ ∗ V4.view.loc (thr c) ↦[dS0]{fullShare} f) ∗ ∃ g, own c (srcT0 i h3) g)) ?_) $$ HFT0
  · iintro ⟨Hd, Hs⟩
    isplitl [Hd]
    · iexists _; isplitr; · ipureintro; exact hGT0 e0 g
      iexact Hd
    · iexists _; iexact Hs
  sl_exec
  iapply (Transfers.wp_dmaLocal countersEmb Variants.none (thr c) none (none : HIx 1) 65536 rfl (by decide) hdT1) $$ [HS1 Hd1 Hv1]
  · isplitl [HS1]; · iexact HS1
    isplitl [Hd1]; · iexact Hd1
    iapply (Entails.of_eq (show (semVal (thr c, SemLoc.dma (semW1 i h1)) 0 : sProp 𝕄) = semVal (thr c, SemLoc.dma (semT1 i h3)) 0 from by rw [semW1_eq, semT1_eq])); iexact Hv1
  iintro HFT1
  ihave HFT1 := (Transfers.Flight_mono countersEmb (thr c) (D' := iprop((∃ f, ⌜Gd1 f⌝ ∗ V4.view.loc (thr c) ↦[dS1]{fullShare} f) ∗ ∃ g, own c (srcT1 i h3) g)) ?_) $$ HFT1
  · iintro ⟨Hd, Hs⟩
    isplitl [Hd]
    · iexists _; isplitr; · ipureintro; exact hGT1 e1 g
      iexact Hd
    · iexists _; iexact Hs
  sl_exec
  iapply (Transfers.wp_dmaLocal countersEmb Variants.none (thr c) none (none : HIx 1) 65536 rfl (by decide) hdT2) $$ [HS2 Hd2 Hv2]
  · isplitl [HS2]; · iexact HS2
    isplitl [Hd2]; · iexact Hd2
    iapply (Entails.of_eq (show (semVal (thr c, SemLoc.dma (semW2 i h1)) 0 : sProp 𝕄) = semVal (thr c, SemLoc.dma (semT2 i h3)) 0 from by rw [semW2_eq, semT2_eq])); iexact Hv2
  iintro HFT2
  ihave HFT2 := (Transfers.Flight_mono countersEmb (thr c) (D' := iprop((∃ f, ⌜Gd2 f⌝ ∗ V4.view.loc (thr c) ↦[dS2]{fullShare} f) ∗ ∃ g, own c (srcT2 i h3) g)) ?_) $$ HFT2
  · iintro ⟨Hd, Hs⟩
    isplitl [Hd]
    · iexists _; isplitr; · ipureintro; exact hGT2 e2 g
      iexact Hd
    · iexists _; iexact Hs
  sl_exec
  iapply (Transfers.wp_dmaLocal countersEmb Variants.none (thr c) none (none : HIx 1) 20480 rfl (by decide) hdT3) $$ [HS3 Hd3 Hv3]
  · isplitl [HS3]; · iexact HS3
    isplitl [Hd3]; · iexact Hd3
    iapply (Entails.of_eq (show (semVal (thr c, SemLoc.dma (semW3 i h1)) 0 : sProp 𝕄) = semVal (thr c, SemLoc.dma (semT3 i h3)) 0 from by rw [semW3_eq, semT3_eq])); iexact Hv3
  iintro HFT3
  ihave HFT3 := (Transfers.Flight_mono countersEmb (thr c) (D' := iprop((∃ f, ⌜Gd3 f⌝ ∗ V4.view.loc (thr c) ↦[dS3]{fullShare} f) ∗ ∃ g, own c (srcT3 i h3) g)) ?_) $$ HFT3
  · iintro ⟨Hd, Hs⟩
    isplitl [Hd]
    · iexists _; isplitr; · ipureintro; exact hGT3 e3 g
      iexact Hd
    · iexists _; iexact Hs
  sl_exec
  iapply (Transfers.wp_waitLocalO countersEmb Variants.none (thr c) none (none : HIx 1) (N := 65536) rfl) $$ [HFL0 HO]
  · isplitl [HFL0]; · iexact HFL0
    isplitl [HO]; · iexact HO
    iapply (Transfers.MayWaits.elim (SemLoc.dma semL0)); iexact HM
  iintro ⟨⟨HE0, HC0⟩, Hu0, HO⟩
  sl_exec
  iapply (Transfers.wp_waitLocalO countersEmb Variants.none (thr c) none (none : HIx 1) (N := 65536) rfl) $$ [HFL1 HO]
  · isplitl [HFL1]; · iexact HFL1
    isplitl [HO]; · iexact HO
    iapply (Transfers.MayWaits.elim (SemLoc.dma semL1)); iexact HM
  iintro ⟨⟨HE1, HC1⟩, Hu1, HO⟩
  sl_exec
  iapply (Transfers.wp_waitLocalO countersEmb Variants.none (thr c) none (none : HIx 1) (N := 65536) rfl) $$ [HFL2 HO]
  · isplitl [HFL2]; · iexact HFL2
    isplitl [HO]; · iexact HO
    iapply (Transfers.MayWaits.elim (SemLoc.dma semL2)); iexact HM
  iintro ⟨⟨HE2, HC2⟩, Hu2, HO⟩
  sl_exec
  iapply (Transfers.wp_waitLocalO countersEmb Variants.none (thr c) none (none : HIx 1) (N := 65536) rfl) $$ [HFL3 HO]
  · isplitl [HFL3]; · iexact HFL3
    isplitl [HO]; · iexact HO
    iapply (Transfers.MayWaits.elim (SemLoc.dma semL3)); iexact HM
  iintro ⟨⟨HE3, HC3⟩, Hu3, HO⟩
  sl_exec
  iapply (Transfers.wp_waitLocalO countersEmb Variants.none (thr c) none (none : HIx 1) (N := 65536) rfl) $$ [HFL4 HO]
  · isplitl [HFL4]; · iexact HFL4
    isplitl [HO]; · iexact HO
    iapply (Transfers.MayWaits.elim (SemLoc.dma semL4)); iexact HM
  iintro ⟨⟨HE4, HC4⟩, Hu4, HO⟩
  sl_exec
  iapply (Transfers.wp_waitLocalO countersEmb Variants.none (thr c) none (none : HIx 1) (N := 65536) rfl) $$ [HFL5 HO]
  · isplitl [HFL5]; · iexact HFL5
    isplitl [HO]; · iexact HO
    iapply (Transfers.MayWaits.elim (SemLoc.dma semL5)); iexact HM
  iintro ⟨⟨HE5, HC5⟩, Hu5, HO⟩
  sl_exec
  iapply (Transfers.wp_waitLocalO countersEmb Variants.none (thr c) none (none : HIx 1) (N := 65536) rfl) $$ [HFT0 HO]
  · isplitl [HFT0]; · iexact HFT0
    isplitl [HO]; · iexact HO
    iapply (Transfers.MayWaits.elim (SemLoc.dma (semT0 i h3))); iexact HM
  iintro ⟨⟨Hd0, ⟨%gg0, HS0⟩⟩, Hv0, HO⟩
  sl_exec
  iapply (Transfers.wp_waitLocalO countersEmb Variants.none (thr c) none (none : HIx 1) (N := 65536) rfl) $$ [HFT1 HO]
  · isplitl [HFT1]; · iexact HFT1
    isplitl [HO]; · iexact HO
    iapply (Transfers.MayWaits.elim (SemLoc.dma (semT1 i h3))); iexact HM
  iintro ⟨⟨Hd1, ⟨%gg1, HS1⟩⟩, Hv1, HO⟩
  sl_exec
  iapply (Transfers.wp_waitLocalO countersEmb Variants.none (thr c) none (none : HIx 1) (N := 65536) rfl) $$ [HFT2 HO]
  · isplitl [HFT2]; · iexact HFT2
    isplitl [HO]; · iexact HO
    iapply (Transfers.MayWaits.elim (SemLoc.dma (semT2 i h3))); iexact HM
  iintro ⟨⟨Hd2, ⟨%gg2, HS2⟩⟩, Hv2, HO⟩
  sl_exec
  iapply (Transfers.wp_waitLocalO countersEmb Variants.none (thr c) none (none : HIx 1) (N := 20480) rfl) $$ [HFT3 HO]
  · isplitl [HFT3]; · iexact HFT3
    isplitl [HO]; · iexact HO
    iapply (Transfers.MayWaits.elim (SemLoc.dma (semT3 i h3))); iexact HM
  iintro ⟨⟨Hd3, ⟨%gg3, HS3⟩⟩, Hv3, HO⟩
  sl_step
  iapply Hk
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HD0]; · iexact HD0
  isplitl [HD1]; · iexact HD1
  isplitl [HD2]; · iexact HD2
  isplitl [HD3]; · iexact HD3
  isplitl [HD4]; · iexact HD4
  isplitl [HD5]; · iexact HD5
  isplitl [HE0]; · iexact HE0
  isplitl [HE1]; · iexact HE1
  isplitl [HE2]; · iexact HE2
  isplitl [HE3]; · iexact HE3
  isplitl [HE4]; · iexact HE4
  isplitl [HE5]; · iexact HE5
  isplitl [Hd0]; · iexact Hd0
  isplitl [Hd1]; · iexact Hd1
  isplitl [Hd2]; · iexact Hd2
  isplitl [Hd3]; · iexact Hd3
  isplitl [HS0 HS1 HS2 HS3 HR3 HR4 HR5]
  · iapply (tail_join c i h3 _ _ _ _ _ _ _)
    isplitl [HS0]; · iexact HS0
    isplitl [HS1]; · iexact HS1
    isplitl [HS2]; · iexact HS2
    isplitl [HS3]; · iexact HS3
    isplitl [HR3]; · iexact HR3
    isplitl [HR4] <;> iassumption
  isplitl [Hv0]; · iexact Hv0
  isplitl [Hv1]; · iexact Hv1
  isplitl [Hv2]; · iexact Hv2
  isplitl [Hv3]; · iexact Hv3
  isplitl [Hv4]; · iexact Hv4
  isplitl [Hv5]; · iexact Hv5
  isplitl [Hu0]; · iexact Hu0
  isplitl [Hu1]; · iexact Hu1
  isplitl [Hu2]; · iexact Hu2
  isplitl [Hu3]; · iexact Hu3
  isplitl [Hu4]; · iexact Hu4
  isplitl [Hu5]; · iexact Hu5
  isplitl [HC0]; · iexact HC0
  isplitl [HC1]; · iexact HC1
  isplitl [HC2]; · iexact HC2
  isplitl [HC3]; · iexact HC3
  isplitl [HC4]; · iexact HC4
  isplitl [HC5]; · iexact HC5
  iexists _
  isplitr
  rotate_left
  · iexact HO
  · ipureintro; intro p hp; simp only [Finset.mem_insert] at hp
    rcases hp with rfl | rfl | rfl | rfl | rfl | rfl | rfl | rfl | rfl | rfl | rfl | rfl | rfl | rfl | rfl | rfl | hp <;> first | exact Or.inr rfl | exact Or.inl hp

end Body

end Cert.KernelIdeal.Region

end
-- ==== Proof.RegionSteps.lean ====
/-
  The three cases of the TensorCore kernel's body over the invariant's pieces: the body's own spelling of each
  semaphore, chunk and row range is exchanged for the one the invariant uses (the two are equal by the offsets' closed
  forms), the slot is assembled from its chunks before a point that finds it free, and the claim about written rows
  is discharged from what each copy lands.
-/
import proofs.«204125_g1194000908950_cont_fleet_528_33_alg».proof.Proof.RegionBody
import Idealize.ShloMosaic.Lib.Transfers
import Idealize.ShloMosaic.Lib.Writes
import Idealize.ShloMosaic.Lib.Pipeline.FrameBody
import Idealize.ShloMosaic.Lib.Tactic

noncomputable section

namespace Cert.KernelIdeal.Region

open Cert.KernelIdeal Cert.KernelIdeal.Gen Cert.KernelIdeal.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MM F

/-! ## The conditions by point -/

theorem cond1_iff : ∀ t : Fin grid1.N, k1_cond1 (grid1.coords t) = 1#1 ↔ 2 ≤ t.val := by decide +kernel
theorem cond2_iff : ∀ t : Fin grid1.N, k1_cond2 (grid1.coords t) = 1#1 ↔ t.val < 32 := by decide +kernel
theorem cond3_iff : ∀ t : Fin grid1.N, k1_cond3 (grid1.coords t) = 1#1 ↔ t.val = 32 := by decide +kernel
theorem tOf_coords : ∀ t : Fin grid1.N, tOf (grid1.coords t) = ⟨t.val, t.isLt⟩ := by decide +kernel
theorem sOf_coords : ∀ t : Fin grid1.N, sOf (grid1.coords t) = sN ⟨t.val, t.isLt⟩ := by decide +kernel

/-! ## The flights in the two spellings -/

section Conv

variable (c : Dev nD) (i : grid1.Coords)

theorem flightW0_eq (h1 : k1_cond1 i = 1#1) (D : sProp 𝕄) :
    Transfers.Flight countersEmb (thr c) (SemLoc.dma (semW0 i h1)) (none : HIx 1) 65536 iprop(D ∗ ∃ g, own c (srcW0 i h1) g) = flightC c (sOf i) 0 D := by
  show Transfers.Flight countersEmb (thr c) (SemLoc.dma (semW0 i h1)) (none : HIx 1) 65536
    iprop(D ∗ ∃ g, (srcW0 i h1).view.loc (thr c) ↦[(srcW0 i h1).view.set]{fullShare} g) = _
  rw [semW0_eq i h1, srcW0_set i h1]
theorem flightI0_eq (h2 : k1_cond2 i = 1#1) (j : Fin 33) (G : Buf (Elt F) (V4.view.loc (thr c)) → Prop) :
    flightI0 c i h2 (dsetC j 0) G = flightC c (sOf i) 0 (doneC c j 0 G) := by
  show Transfers.Flight countersEmb (thr c) (SemLoc.dma (semI0 i h2)) (none : HIx 1) 65536
    iprop((∃ f, ⌜G f⌝ ∗ V4.view.loc (thr c) ↦[dsetC j 0]{fullShare} f) ∗ ∃ g, (srcI0 i h2).view.loc (thr c) ↦[(srcI0 i h2).view.set]{fullShare} g) = _
  rw [semI0_eq i h2, srcI0_set i h2]
theorem cellI0_eq (h2 : k1_cond2 i = 1#1) : (semVal (thr c, SemLoc.dma (semI0 i h2)) 0 : sProp 𝕄) = cellC c (sOf i) 0 := by
  rw [semI0_eq i h2]
theorem flightW1_eq (h1 : k1_cond1 i = 1#1) (D : sProp 𝕄) :
    Transfers.Flight countersEmb (thr c) (SemLoc.dma (semW1 i h1)) (none : HIx 1) 65536 iprop(D ∗ ∃ g, own c (srcW1 i h1) g) = flightC c (sOf i) 1 D := by
  show Transfers.Flight countersEmb (thr c) (SemLoc.dma (semW1 i h1)) (none : HIx 1) 65536
    iprop(D ∗ ∃ g, (srcW1 i h1).view.loc (thr c) ↦[(srcW1 i h1).view.set]{fullShare} g) = _
  rw [semW1_eq i h1, srcW1_set i h1]
theorem flightI1_eq (h2 : k1_cond2 i = 1#1) (j : Fin 33) (G : Buf (Elt F) (V4.view.loc (thr c)) → Prop) :
    flightI1 c i h2 (dsetC j 1) G = flightC c (sOf i) 1 (doneC c j 1 G) := by
  show Transfers.Flight countersEmb (thr c) (SemLoc.dma (semI1 i h2)) (none : HIx 1) 65536
    iprop((∃ f, ⌜G f⌝ ∗ V4.view.loc (thr c) ↦[dsetC j 1]{fullShare} f) ∗ ∃ g, (srcI1 i h2).view.loc (thr c) ↦[(srcI1 i h2).view.set]{fullShare} g) = _
  rw [semI1_eq i h2, srcI1_set i h2]
theorem cellI1_eq (h2 : k1_cond2 i = 1#1) : (semVal (thr c, SemLoc.dma (semI1 i h2)) 0 : sProp 𝕄) = cellC c (sOf i) 1 := by
  rw [semI1_eq i h2]
theorem flightW2_eq (h1 : k1_cond1 i = 1#1) (D : sProp 𝕄) :
    Transfers.Flight countersEmb (thr c) (SemLoc.dma (semW2 i h1)) (none : HIx 1) 65536 iprop(D ∗ ∃ g, own c (srcW2 i h1) g) = flightC c (sOf i) 2 D := by
  show Transfers.Flight countersEmb (thr c) (SemLoc.dma (semW2 i h1)) (none : HIx 1) 65536
    iprop(D ∗ ∃ g, (srcW2 i h1).view.loc (thr c) ↦[(srcW2 i h1).view.set]{fullShare} g) = _
  rw [semW2_eq i h1, srcW2_set i h1]
theorem flightI2_eq (h2 : k1_cond2 i = 1#1) (j : Fin 33) (G : Buf (Elt F) (V4.view.loc (thr c)) → Prop) :
    flightI2 c i h2 (dsetC j 2) G = flightC c (sOf i) 2 (doneC c j 2 G) := by
  show Transfers.Flight countersEmb (thr c) (SemLoc.dma (semI2 i h2)) (none : HIx 1) 65536
    iprop((∃ f, ⌜G f⌝ ∗ V4.view.loc (thr c) ↦[dsetC j 2]{fullShare} f) ∗ ∃ g, (srcI2 i h2).view.loc (thr c) ↦[(srcI2 i h2).view.set]{fullShare} g) = _
  rw [semI2_eq i h2, srcI2_set i h2]
theorem cellI2_eq (h2 : k1_cond2 i = 1#1) : (semVal (thr c, SemLoc.dma (semI2 i h2)) 0 : sProp 𝕄) = cellC c (sOf i) 2 := by
  rw [semI2_eq i h2]
theorem flightW3_eq (h1 : k1_cond1 i = 1#1) (D : sProp 𝕄) :
    Transfers.Flight countersEmb (thr c) (SemLoc.dma (semW3 i h1)) (none : HIx 1) 65536 iprop(D ∗ ∃ g, own c (srcW3 i h1) g) = flightC c (sOf i) 3 D := by
  show Transfers.Flight countersEmb (thr c) (SemLoc.dma (semW3 i h1)) (none : HIx 1) 65536
    iprop(D ∗ ∃ g, (srcW3 i h1).view.loc (thr c) ↦[(srcW3 i h1).view.set]{fullShare} g) = _
  rw [semW3_eq i h1, srcW3_set i h1]
theorem flightI3_eq (h2 : k1_cond2 i = 1#1) (j : Fin 33) (G : Buf (Elt F) (V4.view.loc (thr c)) → Prop) :
    flightI3 c i h2 (dsetC j 3) G = flightC c (sOf i) 3 (doneC c j 3 G) := by
  show Transfers.Flight countersEmb (thr c) (SemLoc.dma (semI3 i h2)) (none : HIx 1) 65536
    iprop((∃ f, ⌜G f⌝ ∗ V4.view.loc (thr c) ↦[dsetC j 3]{fullShare} f) ∗ ∃ g, (srcI3 i h2).view.loc (thr c) ↦[(srcI3 i h2).view.set]{fullShare} g) = _
  rw [semI3_eq i h2, srcI3_set i h2]
theorem cellI3_eq (h2 : k1_cond2 i = 1#1) : (semVal (thr c, SemLoc.dma (semI3 i h2)) 0 : sProp 𝕄) = cellC c (sOf i) 3 := by
  rw [semI3_eq i h2]
theorem flightW4_eq (h1 : k1_cond1 i = 1#1) (D : sProp 𝕄) :
    Transfers.Flight countersEmb (thr c) (SemLoc.dma (semW4 i h1)) (none : HIx 1) 65536 iprop(D ∗ ∃ g, own c (srcW4 i h1) g) = flightC c (sOf i) 4 D := by
  show Transfers.Flight countersEmb (thr c) (SemLoc.dma (semW4 i h1)) (none : HIx 1) 65536
    iprop(D ∗ ∃ g, (srcW4 i h1).view.loc (thr c) ↦[(srcW4 i h1).view.set]{fullShare} g) = _
  rw [semW4_eq i h1, srcW4_set i h1]
theorem flightI4_eq (h2 : k1_cond2 i = 1#1) (j : Fin 33) (G : Buf (Elt F) (V4.view.loc (thr c)) → Prop) :
    flightI4 c i h2 (dsetC j 4) G = flightC c (sOf i) 4 (doneC c j 4 G) := by
  show Transfers.Flight countersEmb (thr c) (SemLoc.dma (semI4 i h2)) (none : HIx 1) 65536
    iprop((∃ f, ⌜G f⌝ ∗ V4.view.loc (thr c) ↦[dsetC j 4]{fullShare} f) ∗ ∃ g, (srcI4 i h2).view.loc (thr c) ↦[(srcI4 i h2).view.set]{fullShare} g) = _
  rw [semI4_eq i h2, srcI4_set i h2]
theorem cellI4_eq (h2 : k1_cond2 i = 1#1) : (semVal (thr c, SemLoc.dma (semI4 i h2)) 0 : sProp 𝕄) = cellC c (sOf i) 4 := by
  rw [semI4_eq i h2]
theorem flightW5_eq (h1 : k1_cond1 i = 1#1) (D : sProp 𝕄) :
    Transfers.Flight countersEmb (thr c) (SemLoc.dma (semW5 i h1)) (none : HIx 1) 65536 iprop(D ∗ ∃ g, own c (srcW5 i h1) g) = flightC c (sOf i) 5 D := by
  show Transfers.Flight countersEmb (thr c) (SemLoc.dma (semW5 i h1)) (none : HIx 1) 65536
    iprop(D ∗ ∃ g, (srcW5 i h1).view.loc (thr c) ↦[(srcW5 i h1).view.set]{fullShare} g) = _
  rw [semW5_eq i h1, srcW5_set i h1]
theorem flightI5_eq (h2 : k1_cond2 i = 1#1) (j : Fin 33) (G : Buf (Elt F) (V4.view.loc (thr c)) → Prop) :
    flightI5 c i h2 (dsetC j 5) G = flightC c (sOf i) 5 (doneC c j 5 G) := by
  show Transfers.Flight countersEmb (thr c) (SemLoc.dma (semI5 i h2)) (none : HIx 1) 65536
    iprop((∃ f, ⌜G f⌝ ∗ V4.view.loc (thr c) ↦[dsetC j 5]{fullShare} f) ∗ ∃ g, (srcI5 i h2).view.loc (thr c) ↦[(srcI5 i h2).view.set]{fullShare} g) = _
  rw [semI5_eq i h2, srcI5_set i h2]
theorem cellI5_eq (h2 : k1_cond2 i = 1#1) : (semVal (thr c, SemLoc.dma (semI5 i h2)) 0 : sProp 𝕄) = cellC c (sOf i) 5 := by
  rw [semI5_eq i h2]

/-- The slot's six chunks, joined into the slot as the body's store spells it. -/
theorem slot_joinC : (bigSep Finset.univ fun r : Fin 6 => scrC c (sOf i) r : sProp 𝕄)
      ⊢ iprop(∃ g, SCR.view.loc (thr c) ↦[(SCR.access (slotR i)).set]{fullShare} g) := by
  rw [bigSep_fin6]
  iintro ⟨⟨%g0, H0⟩, ⟨%g1, H1⟩, ⟨%g2, H2⟩, ⟨%g3, H3⟩, ⟨%g4, H4⟩, ⟨%g5, H5⟩⟩
  ihave H := (pointsTo_biUnion_join (ℓ := SCR.view.loc (thr c)) (q := fullShare) Finset.univ (fun r => (chunkR (sOf i) r).set)
      (![g0, g1, g2, g3, g4, g5] : Fin 6 → Buf (Elt F) (SCR.view.loc (thr c))) g0 (fun r _ r' _ h => chunk_disjoint _ r r' h)) $$ [H0 H1 H2 H3 H4 H5]
  · rw [bigSep_fin6]
    isplitl [H0]; · iexact H0
    isplitl [H1]; · iexact H1
    isplitl [H2]; · iexact H2
    isplitl [H3]; · iexact H3
    isplitl [H4]; · iexact H4
    iexact H5
  icases H with ⟨%g, -, H⟩
  iexists g
  rw [slotR_set, ← slot_cover]; iexact H

end Conv

/-! ## The cases over the pieces -/

section Cases

variable (c : Dev nD) (O : CellTallies nD τ sig (HIx 1))
  (GP : Fin 33 → Fin 6 → Vec F S64x1024 .f32 → Vec F S64x3072 .f32 → Vec F S3072 .f32 → Buf (Elt F) (V4.view.loc (thr c)) → Prop)

theorem stepMid (hGP : GPOk c GP) : StepMid c O GP := by
  intro t ht2 ht x1 x2 x3 W Dd
  have h1 : k1_cond1 (grid1.coords t) = 1#1 := (cond1_iff t).mpr ht2
  have h2 : k1_cond2 (grid1.coords t) = 1#1 := (cond2_iff t).mpr ht
  have h3 : ¬ k1_cond3 (grid1.coords t) = 1#1 := fun h => by have := (cond3_iff t).mp h; omega
  rw [bigSep_fin6, bigSep_fin6]
  iintro ⟨H1, H2, H3, ⟨F0, F1, F2, F3, F4, F5⟩, ⟨D0, D1, D2, D3, D4, D5⟩, HO, #HM⟩
  iapply (body_mid c (grid1.coords t) _ _ _ _ _ _ x1 x2 x3 O W (dsetC (tOf (grid1.coords t)) 0) (dsetC (tOf (grid1.coords t)) 1) (dsetC (tOf (grid1.coords t)) 2) (dsetC (tOf (grid1.coords t)) 3) (dsetC (tOf (grid1.coords t)) 4) (dsetC (tOf (grid1.coords t)) 5)
    (GP (tOf (grid1.coords t)) 0 x1 x2 x3) (GP (tOf (grid1.coords t)) 1 x1 x2 x3) (GP (tOf (grid1.coords t)) 2 x1 x2 x3) (GP (tOf (grid1.coords t)) 3 x1 x2 x3) (GP (tOf (grid1.coords t)) 4 x1 x2 x3) (GP (tOf (grid1.coords t)) 5 x1 x2 x3) h1 h2 h3 (Dd 0) (Dd 1) (Dd 2) (Dd 3) (Dd 4) (Dd 5)
    (dstI0_sub _ h2) (fun fd g => (hGP.full _ h2 x1 x2 x3 fd g).1)
    (dstI1_sub _ h2) (fun fd g => (hGP.full _ h2 x1 x2 x3 fd g).2.1)
    (dstI2_sub _ h2) (fun fd g => (hGP.full _ h2 x1 x2 x3 fd g).2.2.1)
    (dstI3_sub _ h2) (fun fd g => (hGP.full _ h2 x1 x2 x3 fd g).2.2.2.1)
    (dstI4_sub _ h2) (fun fd g => (hGP.full _ h2 x1 x2 x3 fd g).2.2.2.2.1)
    (dstI5_sub _ h2) (fun fd g => (hGP.full _ h2 x1 x2 x3 fd g).2.2.2.2.2))
  isplitl [H1]; · iexact H1
  isplitl [H2]; · iexact H2
  isplitl [H3]; · iexact H3
  isplitl [F0]; · rw [flightW0_eq]; iexact F0
  isplitl [F1]; · rw [flightW1_eq]; iexact F1
  isplitl [F2]; · rw [flightW2_eq]; iexact F2
  isplitl [F3]; · rw [flightW3_eq]; iexact F3
  isplitl [F4]; · rw [flightW4_eq]; iexact F4
  isplitl [F5]; · rw [flightW5_eq]; iexact F5
  isplitl [D0]; · iexact D0
  isplitl [D1]; · iexact D1
  isplitl [D2]; · iexact D2
  isplitl [D3]; · iexact D3
  isplitl [D4]; · iexact D4
  isplitl [D5]; · iexact D5
  isplitl [HO]; · iexact HO
  isplitr; · iexact HM
  iintro ⟨H1, H2, H3, D0, D1, D2, D3, D4, D5, F0, F1, F2, F3, F4, F5, HO⟩
  isplitl [H1]; · iexact H1
  isplitl [H2]; · iexact H2
  isplitl [H3]; · iexact H3
  isplitr [HO]
  · rw [bigSep_fin6, bigSep_fin6]
    isplitl [D0 D1 D2 D3 D4 D5]
    · isplitl [D0]; · iexact D0
      isplitl [D1]; · iexact D1
      isplitl [D2]; · iexact D2
      isplitl [D3]; · iexact D3
      isplitl [D4]; · iexact D4
      iexact D5
    · isplitl [F0]; · rw [← flightI0_eq]; iexact F0
      isplitl [F1]; · rw [← flightI1_eq]; iexact F1
      isplitl [F2]; · rw [← flightI2_eq]; iexact F2
      isplitl [F3]; · rw [← flightI3_eq]; iexact F3
      isplitl [F4]; · rw [← flightI4_eq]; iexact F4
      rw [← flightI5_eq]; iexact F5
  · iexact HO

theorem stepLo (hGP : GPOk c GP) : StepLo c O GP := by
  intro t ht x1 x2 x3 W
  have h1 : ¬ k1_cond1 (grid1.coords t) = 1#1 := fun h => by have := (cond1_iff t).mp h; omega
  have h2 : k1_cond2 (grid1.coords t) = 1#1 := (cond2_iff t).mpr (by omega)
  have h3 : ¬ k1_cond3 (grid1.coords t) = 1#1 := fun h => by have := (cond3_iff t).mp h; omega
  rw [bigSep_sep', bigSep_fin6 (fun r => cellC c (sOf (grid1.coords t)) r), bigSep_fin6 (fun r => freshC c (tOf (grid1.coords t)) r)]
  iintro ⟨H1, H2, H3, ⟨⟨V0, V1, V2, V3, V4, V5⟩, HS⟩, ⟨D0, D1, D2, D3, D4, D5⟩, HO⟩
  ihave Hg := (slot_joinC c (grid1.coords t)) $$ HS
  iapply (body_lo c (grid1.coords t) _ _ _ _ _ _ x1 x2 x3 O W (dsetC (tOf (grid1.coords t)) 0) (dsetC (tOf (grid1.coords t)) 1) (dsetC (tOf (grid1.coords t)) 2) (dsetC (tOf (grid1.coords t)) 3) (dsetC (tOf (grid1.coords t)) 4) (dsetC (tOf (grid1.coords t)) 5)
    (GP (tOf (grid1.coords t)) 0 x1 x2 x3) (GP (tOf (grid1.coords t)) 1 x1 x2 x3) (GP (tOf (grid1.coords t)) 2 x1 x2 x3) (GP (tOf (grid1.coords t)) 3 x1 x2 x3) (GP (tOf (grid1.coords t)) 4 x1 x2 x3) (GP (tOf (grid1.coords t)) 5 x1 x2 x3) h1 h2 h3
    (dstI0_sub _ h2) (fun fd g => (hGP.full _ h2 x1 x2 x3 fd g).1)
    (dstI1_sub _ h2) (fun fd g => (hGP.full _ h2 x1 x2 x3 fd g).2.1)
    (dstI2_sub _ h2) (fun fd g => (hGP.full _ h2 x1 x2 x3 fd g).2.2.1)
    (dstI3_sub _ h2) (fun fd g => (hGP.full _ h2 x1 x2 x3 fd g).2.2.2.1)
    (dstI4_sub _ h2) (fun fd g => (hGP.full _ h2 x1 x2 x3 fd g).2.2.2.2.1)
    (dstI5_sub _ h2) (fun fd g => (hGP.full _ h2 x1 x2 x3 fd g).2.2.2.2.2))
  isplitl [H1]; · iexact H1
  isplitl [H2]; · iexact H2
  isplitl [H3]; · iexact H3
  isplitl [Hg]; · iexact Hg
  isplitl [V0]; · rw [cellI0_eq]; iexact V0
  isplitl [V1]; · rw [cellI1_eq]; iexact V1
  isplitl [V2]; · rw [cellI2_eq]; iexact V2
  isplitl [V3]; · rw [cellI3_eq]; iexact V3
  isplitl [V4]; · rw [cellI4_eq]; iexact V4
  isplitl [V5]; · rw [cellI5_eq]; iexact V5
  isplitl [D0]; · iexact D0
  isplitl [D1]; · iexact D1
  isplitl [D2]; · iexact D2
  isplitl [D3]; · iexact D3
  isplitl [D4]; · iexact D4
  isplitl [D5]; · iexact D5
  isplitl [HO]; · iexact HO
  iintro ⟨H1, H2, H3, F0, F1, F2, F3, F4, F5, HO⟩
  isplitl [H1]; · iexact H1
  isplitl [H2]; · iexact H2
  isplitl [H3]; · iexact H3
  isplitr [HO]
  · rw [bigSep_fin6]
    isplitl [F0]; · rw [← flightI0_eq]; iexact F0
    isplitl [F1]; · rw [← flightI1_eq]; iexact F1
    isplitl [F2]; · rw [← flightI2_eq]; iexact F2
    isplitl [F3]; · rw [← flightI3_eq]; iexact F3
    isplitl [F4]; · rw [← flightI4_eq]; iexact F4
    rw [← flightI5_eq]; iexact F5
  · iexists W; isplitr; (· ipureintro; exact fun p hp => Or.inl hp); iexact HO

end Cases

section Last

variable (c : Dev nD) (O : CellTallies nD τ sig (HIx 1))
  (GP : Fin 33 → Fin 6 → Vec F S64x1024 .f32 → Vec F S64x3072 .f32 → Vec F S3072 .f32 → Buf (Elt F) (V4.view.loc (thr c)) → Prop)

theorem sOf_last : ∀ t : Fin grid1.N, t.val = 32 → sOf (grid1.coords t) = 0 := by decide +kernel

theorem flightL0_eq (D : sProp 𝕄) :
    Transfers.Flight countersEmb (thr c) (SemLoc.dma semL0) (none : HIx 1) 65536 iprop(D ∗ scrC c 1 0) = flightC c 1 0 D := by
  rw [semL0_eq]
theorem cellL0_eq : (semVal (thr c, SemLoc.dma semL0) 0 : sProp 𝕄) = cellC c 1 0 := by rw [semL0_eq]
theorem cellW0_eq (i : grid1.Coords) (h1 : k1_cond1 i = 1#1) : (semVal (thr c, SemLoc.dma (semW0 i h1)) 0 : sProp 𝕄) = cellC c (sOf i) 0 := by rw [semW0_eq i h1]
theorem flightL1_eq (D : sProp 𝕄) :
    Transfers.Flight countersEmb (thr c) (SemLoc.dma semL1) (none : HIx 1) 65536 iprop(D ∗ scrC c 1 1) = flightC c 1 1 D := by
  rw [semL1_eq]
theorem cellL1_eq : (semVal (thr c, SemLoc.dma semL1) 0 : sProp 𝕄) = cellC c 1 1 := by rw [semL1_eq]
theorem cellW1_eq (i : grid1.Coords) (h1 : k1_cond1 i = 1#1) : (semVal (thr c, SemLoc.dma (semW1 i h1)) 0 : sProp 𝕄) = cellC c (sOf i) 1 := by rw [semW1_eq i h1]
theorem flightL2_eq (D : sProp 𝕄) :
    Transfers.Flight countersEmb (thr c) (SemLoc.dma semL2) (none : HIx 1) 65536 iprop(D ∗ scrC c 1 2) = flightC c 1 2 D := by
  rw [semL2_eq]
theorem cellL2_eq : (semVal (thr c, SemLoc.dma semL2) 0 : sProp 𝕄) = cellC c 1 2 := by rw [semL2_eq]
theorem cellW2_eq (i : grid1.Coords) (h1 : k1_cond1 i = 1#1) : (semVal (thr c, SemLoc.dma (semW2 i h1)) 0 : sProp 𝕄) = cellC c (sOf i) 2 := by rw [semW2_eq i h1]
theorem flightL3_eq (D : sProp 𝕄) :
    Transfers.Flight countersEmb (thr c) (SemLoc.dma semL3) (none : HIx 1) 65536 iprop(D ∗ scrC c 1 3) = flightC c 1 3 D := by
  rw [semL3_eq]
theorem cellL3_eq : (semVal (thr c, SemLoc.dma semL3) 0 : sProp 𝕄) = cellC c 1 3 := by rw [semL3_eq]
theorem cellW3_eq (i : grid1.Coords) (h1 : k1_cond1 i = 1#1) : (semVal (thr c, SemLoc.dma (semW3 i h1)) 0 : sProp 𝕄) = cellC c (sOf i) 3 := by rw [semW3_eq i h1]
theorem flightL4_eq (D : sProp 𝕄) :
    Transfers.Flight countersEmb (thr c) (SemLoc.dma semL4) (none : HIx 1) 65536 iprop(D ∗ scrC c 1 4) = flightC c 1 4 D := by
  rw [semL4_eq]
theorem cellL4_eq : (semVal (thr c, SemLoc.dma semL4) 0 : sProp 𝕄) = cellC c 1 4 := by rw [semL4_eq]
theorem cellW4_eq (i : grid1.Coords) (h1 : k1_cond1 i = 1#1) : (semVal (thr c, SemLoc.dma (semW4 i h1)) 0 : sProp 𝕄) = cellC c (sOf i) 4 := by rw [semW4_eq i h1]
theorem flightL5_eq (D : sProp 𝕄) :
    Transfers.Flight countersEmb (thr c) (SemLoc.dma semL5) (none : HIx 1) 65536 iprop(D ∗ scrC c 1 5) = flightC c 1 5 D := by
  rw [semL5_eq]
theorem cellL5_eq : (semVal (thr c, SemLoc.dma semL5) 0 : sProp 𝕄) = cellC c 1 5 := by rw [semL5_eq]
theorem cellW5_eq (i : grid1.Coords) (h1 : k1_cond1 i = 1#1) : (semVal (thr c, SemLoc.dma (semW5 i h1)) 0 : sProp 𝕄) = cellC c (sOf i) 5 := by rw [semW5_eq i h1]
theorem cellT0_eq (i : grid1.Coords) (h3 : k1_cond3 i = 1#1) : (semVal (thr c, SemLoc.dma (semT0 i h3)) 0 : sProp 𝕄) = cellC c (sOf i) 0 := by rw [semT0_eq i h3]
theorem cellT1_eq (i : grid1.Coords) (h3 : k1_cond3 i = 1#1) : (semVal (thr c, SemLoc.dma (semT1 i h3)) 0 : sProp 𝕄) = cellC c (sOf i) 1 := by rw [semT1_eq i h3]
theorem cellT2_eq (i : grid1.Coords) (h3 : k1_cond3 i = 1#1) : (semVal (thr c, SemLoc.dma (semT2 i h3)) 0 : sProp 𝕄) = cellC c (sOf i) 2 := by rw [semT2_eq i h3]
theorem cellT3_eq (i : grid1.Coords) (h3 : k1_cond3 i = 1#1) : (semVal (thr c, SemLoc.dma (semT3 i h3)) 0 : sProp 𝕄) = cellC c (sOf i) 3 := by rw [semT3_eq i h3]

theorem cells_all :
    iprop((cellC c 0 0 ∗ cellC c 0 1 ∗ cellC c 0 2 ∗ cellC c 0 3 ∗ cellC c 0 4 ∗ cellC c 0 5) ∗ (bigSep Finset.univ fun r : Fin 6 => scrC c 0 r)
        ∗ (cellC c 1 0 ∗ cellC c 1 1 ∗ cellC c 1 2 ∗ cellC c 1 3 ∗ cellC c 1 4 ∗ cellC c 1 5) ∗ (scrC c 1 0 ∗ scrC c 1 1 ∗ scrC c 1 2 ∗ scrC c 1 3 ∗ scrC c 1 4 ∗ scrC c 1 5))
      ⊢ (bigSep Finset.univ fun s : Fin 2 => bigSep Finset.univ fun r : Fin 6 => iprop(cellC c s r ∗ scrC c s r) : sProp 𝕄) := by
  rw [bigSep_univ_two, bigSep_sep', bigSep_sep', bigSep_fin6 (fun r => cellC c 0 r), bigSep_fin6 (fun r => cellC c 1 r), bigSep_fin6 (fun r => scrC c 1 r)]
  iintro ⟨A, B, C, D⟩
  isplitl [A B]; · isplitl [A] <;> iassumption
  isplitl [C] <;> iassumption

theorem stepLast (hGP : GPOk c GP) : StepLast c O GP := by
  intro t ht x1 x2 x3 W Dd De
  have h1 : k1_cond1 (grid1.coords t) = 1#1 := (cond1_iff t).mpr (by omega)
  have h2 : ¬ k1_cond2 (grid1.coords t) = 1#1 := fun h => by have := (cond2_iff t).mp h; omega
  have h3 : k1_cond3 (grid1.coords t) = 1#1 := (cond3_iff t).mpr ht
  have hs : sOf (grid1.coords t) = 0 := sOf_last t ht
  rw [bigSep_fin6, bigSep_fin6, bigSep_fin6]
  iintro ⟨H1, H2, H3, ⟨F0, F1, F2, F3, F4, F5⟩, ⟨L0, L1, L2, L3, L4, L5⟩, ⟨D0, D1, D2, D3, D4, D5⟩, HO, #HM⟩
  iapply (body_last c (grid1.coords t) _ _ _ _ _ _ x1 x2 x3 O W (dsetC 32 0) (dsetC 32 1) (dsetC 32 2) (dsetC 32 3)
    (GP 32 0 x1 x2 x3) (GP 32 1 x1 x2 x3) (GP 32 2 x1 x2 x3) (GP 32 3 x1 x2 x3) h1 h2 h3 (Dd 0) (Dd 1) (Dd 2) (Dd 3) (Dd 4) (Dd 5) (De 0) (De 1) (De 2) (De 3) (De 4) (De 5)
    dstT0_sub (fun fd g => (hGP.tail _ h3 x1 x2 x3 fd g).1)
    dstT1_sub (fun fd g => (hGP.tail _ h3 x1 x2 x3 fd g).2.1)
    dstT2_sub (fun fd g => (hGP.tail _ h3 x1 x2 x3 fd g).2.2.1)
    dstT3_sub (fun fd g => (hGP.tail _ h3 x1 x2 x3 fd g).2.2.2))
  isplitl [H1]; · iexact H1
  isplitl [H2]; · iexact H2
  isplitl [H3]; · iexact H3
  isplitl [F0]; · rw [flightW0_eq, hs]; iexact F0
  isplitl [F1]; · rw [flightW1_eq, hs]; iexact F1
  isplitl [F2]; · rw [flightW2_eq, hs]; iexact F2
  isplitl [F3]; · rw [flightW3_eq, hs]; iexact F3
  isplitl [F4]; · rw [flightW4_eq, hs]; iexact F4
  isplitl [F5]; · rw [flightW5_eq, hs]; iexact F5
  isplitl [L0]; · rw [flightL0_eq]; iexact L0
  isplitl [L1]; · rw [flightL1_eq]; iexact L1
  isplitl [L2]; · rw [flightL2_eq]; iexact L2
  isplitl [L3]; · rw [flightL3_eq]; iexact L3
  isplitl [L4]; · rw [flightL4_eq]; iexact L4
  isplitl [L5]; · rw [flightL5_eq]; iexact L5
  isplitl [D0]; · iexact D0
  isplitl [D1]; · iexact D1
  isplitl [D2]; · iexact D2
  isplitl [D3]; · iexact D3
  isplitl [HO]; · iexact HO
  isplitr; · iexact HM
  iintro ⟨H1, H2, H3, A0, A1, A2, A3, A4, A5, B0, B1, B2, B3, B4, B5, G0, G1, G2, G3, HS, V0, V1, V2, V3, V4, V5, U0, U1, U2, U3, U4, U5, C0, C1, C2, C3, C4, C5, HO⟩
  isplitl [H1]; · iexact H1
  isplitl [H2]; · iexact H2
  isplitl [H3]; · iexact H3
  isplitr [HO]
  · isplitl [A0 A1 A2 A3 A4 A5]
    · rw [bigSep_fin6]
      isplitl [A0]; · iexact A0
      isplitl [A1]; · iexact A1
      isplitl [A2]; · iexact A2
      isplitl [A3]; · iexact A3
      isplitl [A4]; · iexact A4
      iexact A5
    isplitl [B0 B1 B2 B3 B4 B5]
    · rw [bigSep_fin6]
      isplitl [B0]; · iexact B0
      isplitl [B1]; · iexact B1
      isplitl [B2]; · iexact B2
      isplitl [B3]; · iexact B3
      isplitl [B4]; · iexact B4
      iexact B5
    isplitl [G0 G1 G2 G3 D4 D5]
    · rw [bigSep_fin6]
      isplitl [G0]; · iexact G0
      isplitl [G1]; · iexact G1
      isplitl [G2]; · iexact G2
      isplitl [G3]; · iexact G3
      isplitl [D4]
      · icases D4 with ⟨%f, D4⟩; iexists f; isplitr; (· ipureintro; exact (hGP.past x1 x2 x3 f).1); iexact D4
      · icases D5 with ⟨%f, D5⟩; iexists f; isplitr; (· ipureintro; exact (hGP.past x1 x2 x3 f).2); iexact D5
    · iapply (cells_all c)
      isplitl [V0 V1 V2 V3 V4 V5]
      · isplitl [V0]; · rw [← hs, ← cellT0_eq c _ h3]; iexact V0
        isplitl [V1]; · rw [← hs, ← cellT1_eq c _ h3]; iexact V1
        isplitl [V2]; · rw [← hs, ← cellT2_eq c _ h3]; iexact V2
        isplitl [V3]; · rw [← hs, ← cellT3_eq c _ h3]; iexact V3
        isplitl [V4]; · rw [← hs, ← cellW4_eq c _ h1]; iexact V4
        rw [← hs, ← cellW5_eq c _ h1]; iexact V5
      isplitl [HS]; · rw [← hs]; iexact HS
      isplitl [U0 U1 U2 U3 U4 U5]
      · isplitl [U0]; · rw [← cellL0_eq]; iexact U0
        isplitl [U1]; · rw [← cellL1_eq]; iexact U1
        isplitl [U2]; · rw [← cellL2_eq]; iexact U2
        isplitl [U3]; · rw [← cellL3_eq]; iexact U3
        isplitl [U4]; · rw [← cellL4_eq]; iexact U4
        rw [← cellL5_eq]; iexact U5
      · isplitl [C0]; · iexact C0
        isplitl [C1]; · iexact C1
        isplitl [C2]; · iexact C2
        isplitl [C3]; · iexact C3
        isplitl [C4]; · iexact C4
        iexact C5
  · iexact HO

end Last

end Cert.KernelIdeal.Region

end
-- ==== Proof.RegionEnds.lean ====
/-
  The two ends of the TensorCore kernel's invariant. Before point 0 the result held whole (at any contents) is its
  (tile, chunk) row ranges, each untouched, and the scratch held whole is its (slot, chunk) pieces, every semaphore at
  zero in the core's hand: the invariant at 0. At 33 every row range is written and every slot is back: the ranges,
  each at contents of its own of which the tile's claim holds, join into the result whole at ONE contents that agrees
  with each range's on the range, and the claim, which only looks at its range, moves along.
-/
import proofs.«204125_g1194000908950_cont_fleet_528_33_alg».proof.Proof.RegionInv

noncomputable section

namespace Cert.KernelIdeal.Region

open Cert.KernelIdeal Cert.KernelIdeal.Gen Cert.KernelIdeal.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MM F

section Ends

variable (c : Dev nD)

/-- The result held whole is its row ranges, tile by tile and chunk by chunk. -/
theorem v4_parts (q : PosShare TreeShare) (f : Buf (Elt F) (V4.view.loc (thr c))) :
    (V4.view.loc (thr c) ↦{q} f : sProp 𝕄)
      = bigSep Finset.univ fun j : Fin 33 => bigSep Finset.univ fun r : Fin 6 => V4.view.loc (thr c) ↦[dsetC j r]{q} f := by
  rw [← bigSep_univ_prod (fun p : Fin 33 × Fin 6 => (V4.view.loc (thr c) ↦[dsetC p.1 p.2]{q} f : sProp 𝕄)),
    ← pointsTo_biUnion Finset.univ (ℓ := V4.view.loc (thr c)) (fun p : Fin 33 × Fin 6 => dsetC p.1 p.2) (fun p _ p' _ h => dsetC_disjoint p p' h), dsetC_cover]

/-- The scratch held whole is its pieces, slot by slot and chunk by chunk. -/
theorem scr_parts (q : PosShare TreeShare) (g : Buf (Elt F) (SCR.view.loc (thr c))) :
    (SCR.view.loc (thr c) ↦{q} g : sProp 𝕄)
      = bigSep Finset.univ fun s : Fin 2 => bigSep Finset.univ fun r : Fin 6 => SCR.view.loc (thr c) ↦[(chunkR s r).set]{q} g := by
  rw [← bigSep_univ_prod (fun p : Fin 2 × Fin 6 => (SCR.view.loc (thr c) ↦[(chunkR p.1 p.2).set]{q} g : sProp 𝕄)),
    ← pointsTo_biUnion Finset.univ (ℓ := SCR.view.loc (thr c)) (fun p : Fin 2 × Fin 6 => (chunkR p.1 p.2).set) (fun p _ p' _ h => chunkR_disjoint p p' h), chunkR_cover]

/-- Two families over (slot, chunk) side by side are one family of pairs. -/
theorem bigSep2_sep (A B : Fin 2 → Fin 6 → sProp 𝕄) :
    (bigSep Finset.univ fun s : Fin 2 => bigSep Finset.univ fun r : Fin 6 => iprop(A s r ∗ B s r))
      = iprop((bigSep Finset.univ fun s : Fin 2 => bigSep Finset.univ fun r : Fin 6 => A s r)
          ∗ bigSep Finset.univ fun s : Fin 2 => bigSep Finset.univ fun r : Fin 6 => B s r) := by
  rw [← bigSep_sep']
  exact bigSep_congr fun s _ => bigSep_sep' _ _ _

theorem not_busy_zero (s : Fin 2) : ¬ busy 0 s := by
  unfold busy; omega
theorem not_busy_last (s : Fin 2) : ¬ busy 33 s := by
  unfold busy; omega

variable (vA : Buf (Elt F) ((thr c).loc main_v2)) (vW : Buf (Elt F) ((thr c).loc main_v3)) (vB : Buf (Elt F) ((thr c).loc main_arg3))
  (GP : Fin 33 → Fin 6 → Vec F S64x1024 .f32 → Vec F S64x3072 .f32 → Vec F S3072 .f32 → Buf (Elt F) (V4.view.loc (thr c)) → Prop)

/-- The invariant before the first point. -/
theorem inv_zero :
    iprop(levAts (K (F := F)).L (K (F := F)).lev ∗ (∃ f, V4.view.loc (thr c) ↦{fullShare} f) ∗ (∃ g, SCR.view.loc (thr c) ↦{fullShare} g)
        ∗ bigSep Finset.univ fun s : Fin 2 => bigSep Finset.univ fun r : Fin 6 => cellC c s r)
      ⊢ Inv c vA vW vB GP 0 := by
  unfold Inv
  iintro ⟨Hlv, ⟨%f, Hv⟩, ⟨%g, Hs⟩, Hc⟩
  have hout : ∀ (j : Fin 33) (r : Fin 6) (G : Buf (Elt F) (V4.view.loc (thr c)) → Prop),
      (V4.view.loc (thr c) ↦[dsetC j r]{fullShare} f : sProp 𝕄) ⊢ OutSt c 0 j r G := fun j r G => by
    unfold OutSt
    rw [if_pos (Nat.zero_le _)]
    iintro H; iexists f; iexact H
  have htile : ∀ j : Fin 33,
      (bigSep Finset.univ fun r : Fin 6 => (V4.view.loc (thr c) ↦[dsetC j r]{fullShare} f : sProp 𝕄)) ⊢ TileSt c vA vW vB GP 0 j := fun j => by
    unfold TileSt
    iintro H
    iexists (Classical.arbitrary (Vec F S64x3072 .f32)), (Classical.arbitrary (Vec F S3072 .f32))
    isplitr
    · ipureintro; intro h; exact absurd h (Nat.not_lt_zero _)
    have hm : (bigSep Finset.univ fun r : Fin 6 => (V4.view.loc (thr c) ↦[dsetC j r]{fullShare} f : sProp 𝕄))
        ⊢ bigSep Finset.univ fun r : Fin 6 => OutSt c 0 j r (GP j r vA (Classical.arbitrary (Vec F S64x3072 .f32)) (Classical.arbitrary (Vec F S3072 .f32))) :=
      bigSep_mono fun r _ => hout j r _
    iapply hm; iexact H
  have htiles : (bigSep Finset.univ fun j : Fin 33 => bigSep Finset.univ fun r : Fin 6 => (V4.view.loc (thr c) ↦[dsetC j r]{fullShare} f : sProp 𝕄))
      ⊢ bigSep Finset.univ fun j : Fin 33 => TileSt c vA vW vB GP 0 j := bigSep_mono fun j _ => htile j
  have hslot : ∀ (s : Fin 2) (r : Fin 6),
      iprop(cellC c s r ∗ (SCR.view.loc (thr c) ↦[(chunkR s r).set]{fullShare} g)) ⊢ SlotSt c 0 s r := fun s r => by
    unfold SlotSt
    rw [if_neg (not_busy_zero s)]
    iintro ⟨H1, H2⟩
    isplitl [H1]; · iexact H1
    iexists g; iexact H2
  have hslots : (bigSep Finset.univ fun s : Fin 2 => bigSep Finset.univ fun r : Fin 6 => iprop(cellC c s r ∗ (SCR.view.loc (thr c) ↦[(chunkR s r).set]{fullShare} g)))
      ⊢ bigSep Finset.univ fun s : Fin 2 => bigSep Finset.univ fun r : Fin 6 => SlotSt c 0 s r :=
    bigSep_mono fun s _ => bigSep_mono fun r _ => hslot s r
  isplitl [Hlv]; · iexact Hlv
  isplitl [Hv]
  · iapply htiles
    iapply (Entails.of_eq (v4_parts c fullShare f)); iexact Hv
  · iapply hslots
    rw [bigSep2_sep]
    isplitl [Hc]; · iexact Hc
    iapply (Entails.of_eq (scr_parts c fullShare g)); iexact Hs

omit [FloatOps F] [Named F] [∀ e, Nonempty (Elt F e)] in
/-- Disjoint parts that cover a buffer, each held at contents of its own of which a fact holds, are the buffer held whole
    at ONE contents that agrees with each part's on the part. -/
theorem join_parts {ℓ : Loc nD τ sig} (hne : Nonempty (Buf (Elt F) ℓ)) {Tt : Type} [Fintype Tt] [DecidableEq Tt] (t₀ : Tt)
    (Kk : Tt → Finset (Idx ℓ))
    (hd : ∀ t ∈ (Finset.univ : Finset Tt), ∀ t' ∈ (Finset.univ : Finset Tt), t ≠ t' → Disjoint (Kk t) (Kk t'))
    (hc : (Finset.univ : Finset Tt).biUnion Kk = Finset.univ) (q : PosShare TreeShare) (G : Tt → Buf (Elt F) ℓ → Prop) :
    (bigSep Finset.univ fun t : Tt => iprop(∃ f, ⌜G t f⌝ ∗ ℓ ↦[Kk t]{q} f) : sProp 𝕄)
      ⊢ iprop(∃ g, ⌜∀ t, ∃ f, G t f ∧ ∀ i ∈ Kk t, g i = f i⌝ ∗ ℓ ↦{q} g) := by
  haveI : ∀ _ : Tt, Nonempty (Buf (Elt F) ℓ) := fun _ => hne
  refine (bigSep_exists_pi (Finset.univ : Finset Tt) (fun t (f : Buf (Elt F) ℓ) => iprop(⌜G t f⌝ ∗ ℓ ↦[Kk t]{q} f))).trans ?_
  iintro ⟨%fs, H⟩
  ihave H' := (bigSep_pure_sep (Finset.univ : Finset Tt) (fun t => G t (fs t)) (fun t => (ℓ ↦[Kk t]{q} fs t : sProp 𝕄))) $$ H
  icases H' with ⟨%hG, H⟩
  ihave H2 := (pointsTo_biUnion_join (Finset.univ : Finset Tt) Kk fs (fs t₀) hd) $$ H
  icases H2 with ⟨%g, %hg, Hg⟩
  rw [hc]
  iexists g
  isplitr
  · ipureintro; exact fun t => ⟨fs t, hG t (Finset.mem_univ _), hg t (Finset.mem_univ t)⟩
  iexact Hg

theorem outSt_last (j : Fin 33) (r : Fin 6) (G : Buf (Elt F) (V4.view.loc (thr c)) → Prop) : OutSt c 33 j r G = doneC c j r G := by
  unfold OutSt
  rw [if_neg (by have := j.isLt; omega), if_neg (by omega)]

theorem slotSt_last (s : Fin 2) (r : Fin 6) : (SlotSt (F := F) c 33 s r : sProp 𝕄) = iprop(cellC (F := F) c s r ∗ scrC (F := F) c s r) := by
  unfold SlotSt
  exact if_neg (not_busy_last s)

/-- The invariant after the last point gives the result whole, every tile's claim holding of it, the scratch whole and
    every semaphore at zero. -/
theorem inv_last (hloc : ∀ j r a w b (f g : Buf (Elt F) (V4.view.loc (thr c))), (∀ x ∈ dsetC j r, g x = f x) → GP j r a w b f → GP j r a w b g) :
    Inv c vA vW vB GP 33
      ⊢ iprop(levAts (K (F := F)).L (K (F := F)).lev
        ∗ (∃ out, ⌜∀ j : Fin 33, ∃ wblk bblk, Cert.Spec.WAgrees vW j wblk ∧ Cert.Spec.BAgrees vB j bblk ∧ ∀ r : Fin 6, GP j r vA wblk bblk out⌝
            ∗ V4.view.loc (thr c) ↦{fullShare} out)
        ∗ (∃ g, SCR.view.loc (thr c) ↦{fullShare} g)
        ∗ bigSep Finset.univ fun s : Fin 2 => bigSep Finset.univ fun r : Fin 6 => cellC c s r) := by
  unfold Inv
  iintro ⟨Hlv, Ht, Hs⟩
  isplitl [Hlv]; · iexact Hlv
  isplitl [Ht]
  · -- each tile's two operand blocks chosen, their agreement with the arrays set aside
    have htile : ∀ j : Fin 33, TileSt c vA vW vB GP 33 j
        ⊢ iprop(∃ y : Vec F S64x3072 .f32 × Vec F S3072 .f32, ⌜Cert.Spec.WAgrees vW j y.1 ∧ Cert.Spec.BAgrees vB j y.2⌝
            ∗ bigSep Finset.univ fun r : Fin 6 => doneC c j r (GP j r vA y.1 y.2)) := fun j => by
      unfold TileSt
      iintro ⟨%wblk, %bblk, %h, H⟩
      iexists (wblk, bblk)
      isplitr
      · ipureintro; exact h j.isLt
      have hm : (bigSep Finset.univ fun r : Fin 6 => OutSt c 33 j r (GP j r vA wblk bblk))
          ⊢ bigSep Finset.univ fun r : Fin 6 => doneC c j r (GP j r vA wblk bblk) :=
        Entails.of_eq (bigSep_congr fun r _ => outSt_last c j r (GP j r vA wblk bblk))
      iapply hm; iexact H
    have htiles : (bigSep Finset.univ fun j : Fin 33 => TileSt c vA vW vB GP 33 j)
        ⊢ bigSep Finset.univ fun j : Fin 33 => iprop(∃ y : Vec F S64x3072 .f32 × Vec F S3072 .f32, ⌜Cert.Spec.WAgrees vW j y.1 ∧ Cert.Spec.BAgrees vB j y.2⌝
            ∗ bigSep Finset.univ fun r : Fin 6 => doneC c j r (GP j r vA y.1 y.2)) := bigSep_mono fun j _ => htile j
    ihave Ht1 := htiles $$ Ht
    ihave Ht2 := (bigSep_exists_pi (Finset.univ : Finset (Fin 33)) (fun j (y : Vec F S64x3072 .f32 × Vec F S3072 .f32) =>
      iprop(⌜Cert.Spec.WAgrees vW j y.1 ∧ Cert.Spec.BAgrees vB j y.2⌝ ∗ bigSep Finset.univ fun r : Fin 6 => doneC c j r (GP j r vA y.1 y.2)))) $$ Ht1
    icases Ht2 with ⟨%ys, Ht2⟩
    ihave Ht3 := (bigSep_pure_sep (Finset.univ : Finset (Fin 33)) (fun j => Cert.Spec.WAgrees vW j (ys j).1 ∧ Cert.Spec.BAgrees vB j (ys j).2)
      (fun j => bigSep Finset.univ fun r : Fin 6 => doneC c j r (GP j r vA (ys j).1 (ys j).2))) $$ Ht2
    icases Ht3 with ⟨%hAg, Ht3⟩
    -- the row ranges joined
    ihave Ht4 := (Entails.of_eq (bigSep_univ_prod (fun p : Fin 33 × Fin 6 => doneC c p.1 p.2 (GP p.1 p.2 vA (ys p.1).1 (ys p.1).2))).symm) $$ Ht3
    ihave Ht5 := (join_parts (F := F) (ℓ := V4.view.loc (thr c)) ⟨fun _ => Classical.arbitrary (Elt F .f32)⟩ ((0 : Fin 33), (0 : Fin 6))
      (fun p : Fin 33 × Fin 6 => dsetC p.1 p.2) (fun p _ p' _ h => dsetC_disjoint p p' h) dsetC_cover fullShare
      (fun p f => GP p.1 p.2 vA (ys p.1).1 (ys p.1).2 f)) $$ Ht4
    icases Ht5 with ⟨%out, %hout, Hout⟩
    iexists out
    isplitr
    · ipureintro
      intro j
      refine ⟨(ys j).1, (ys j).2, (hAg j (Finset.mem_univ _)).1, (hAg j (Finset.mem_univ _)).2, fun r => ?_⟩
      obtain ⟨f, hf, hfg⟩ := hout (j, r)
      exact hloc j r vA (ys j).1 (ys j).2 f out hfg hf
    iexact Hout
  · -- the slots back, their pieces joined
    have hslots : (bigSep Finset.univ fun s : Fin 2 => bigSep Finset.univ fun r : Fin 6 => SlotSt c 33 s r)
        ⊢ bigSep Finset.univ fun s : Fin 2 => bigSep Finset.univ fun r : Fin 6 => iprop(cellC c s r ∗ scrC c s r) :=
      Entails.of_eq (bigSep_congr fun s _ => bigSep_congr fun r _ => slotSt_last (F := F) c s r)
    ihave Hs1 := hslots $$ Hs
    ihave Hs2 := (Entails.of_eq (bigSep2_sep (F := F) (fun s r => cellC c s r) (fun s r => scrC c s r))) $$ Hs1
    icases Hs2 with ⟨Hc, Hscr⟩
    isplitl [Hscr]
    · have hpure : ∀ p : Fin 2 × Fin 6, scrC (F := F) c p.1 p.2 ⊢ iprop(∃ g, ⌜True⌝ ∗ SCR.view.loc (thr c) ↦[(chunkR p.1 p.2).set]{fullShare} g) := fun p => by
        iintro ⟨%g, H⟩; iexists g; isplitr; · ipureintro; trivial
        iexact H
      have hpures : (bigSep Finset.univ fun p : Fin 2 × Fin 6 => scrC (F := F) c p.1 p.2)
          ⊢ bigSep Finset.univ fun p : Fin 2 × Fin 6 => iprop(∃ g, ⌜True⌝ ∗ SCR.view.loc (thr c) ↦[(chunkR p.1 p.2).set]{fullShare} g) :=
        bigSep_mono fun p _ => hpure p
      ihave H1 := (Entails.of_eq (bigSep_univ_prod (fun p : Fin 2 × Fin 6 => scrC (F := F) c p.1 p.2)).symm) $$ Hscr
      ihave H2 := hpures $$ H1
      ihave H3 := (join_parts (F := F) (ℓ := SCR.view.loc (thr c)) ⟨fun _ => Classical.arbitrary (Elt F .f32)⟩ ((0 : Fin 2), (0 : Fin 6))
        (fun p : Fin 2 × Fin 6 => (chunkR p.1 p.2).set) (fun p _ p' _ h => chunkR_disjoint p p' h) chunkR_cover fullShare (fun _ _ => True)) $$ H2
      icases H3 with ⟨%g, -, Hg⟩
      iexists g; iexact Hg
    · iexact Hc

end Ends

end Cert.KernelIdeal.Region

end
-- ==== Proof.RegionLocal.lean ====
/-
  The claim about a chunk of the result reads only the chunk's rows: contents that agree on the rows of chunk (j, r) carry
  the claim from one to the other.
-/
import proofs.«204125_g1194000908950_cont_fleet_528_33_alg».proof.Proof.RegionBlocks
import proofs.«204125_g1194000908950_cont_fleet_528_33_alg».proof.Proof.RegionSets

noncomputable section

namespace Cert.KernelIdeal.Region

open Cert.KernelIdeal Cert.KernelIdeal.Gen Cert.KernelIdeal.Common
open Idealize.ShloMosaic Idealize.ShloMosaic.ValueIdx Idealize.ShloMosaic.TcCoe
open Idealize.SL.Sem

variable {F : FTy → Type} [FloatOps F] [Named F]

theorem goodOn_hloc (c : Dev nD) : ∀ (j : Fin 33) (r : Fin 6) (a : Vec F S64x1024 .f32) (w : Vec F S64x3072 .f32) (b : Vec F S3072 .f32)
    (f g : Buf (Elt F) (V4.view.loc (thr c))), (∀ x ∈ dsetC j r, g x = f x) → GoodOn j r a w b f → GoodOn j r a w b g :=
  fun j r a w b f g hfg hf =>
    GoodOn.local (fun ρ col h => hfg _ (mem_dsetC.mpr
      ⟨by show 3072 * j.val + 512 * r.val ≤ 3072 * j.val + 512 * r.val + ρ.val; omega,
        by show 3072 * j.val + 512 * r.val + ρ.val < 3072 * j.val + 512 * r.val + 512; have := ρ.isLt; omega⟩)) hf

end Cert.KernelIdeal.Region

end
-- ==== Proof.RegionValueN.lean ====
/-
  A chunk's copy of the stored slot into the result, for a chunk of any number of rows: the last tile's fourth chunk
  has 160 rows, the array's end falling inside it.
-/
import proofs.«204125_g1194000908950_cont_fleet_528_33_alg».proof.Proof.RegionValue

noncomputable section

namespace Cert.KernelIdeal.Region

open Cert.KernelIdeal Cert.KernelIdeal.Gen Cert.KernelIdeal.Common
open Idealize.ShloMosaic Idealize.ShloMosaic.ValueIdx Idealize.ShloMosaic.TcCoe
open Idealize.SL.Sem

variable {F : FTy → Type} [FloatOps F] [Named F] [∀ e, Nonempty (Elt F e)]

/-- Row `ρ` of a chunk of `n` rows of the result that starts at row `R0` is row `R0 + ρ` of the result. -/
theorem dst_embN (n R0 : ℕ) (inb16 : ∀ a, (![R0, 0] : Fin 2 → ℕ) a + (⟨2, ![n, 1024]⟩ : Shape).size a ≤ S100000x1024.size a)
    (ρ : Fin n) (col : Fin 1024) (hR : R0 + ρ.val < 100000) :
    (V4.slice (Rect.unit (s := S100000x1024) ![R0, 0] (⟨2, ![n, 1024]⟩ : Shape).size inb16) (fun _ => rfl)).view.emb (ix2 ρ col)
      = ix2 ⟨R0 + ρ.val, hR⟩ col := by
  funext a; apply Fin.ext
  show ((Rect.unit (s := S100000x1024) ![R0, 0] (⟨2, ![n, 1024]⟩ : Shape).size inb16).emb (ix2 ρ col) a).val = _
  rw [Rect.emb_apply]
  match a with
  | ⟨0, _⟩ => show R0 + 1 * ρ.val = R0 + ρ.val; omega
  | ⟨1, _⟩ => show 0 + 1 * col.val = col.val; omega

/-- Row `ρ` of the chunk of a slot that starts at the slot's row `q`, the chunk's leading unit axis dropped, is row
    `q + ρ` of the slot. -/
theorem src_embN (n s q : ℕ) (hsq : (⟨3, ![1, n, 1024]⟩ : Shape).Squeezes ⟨2, ![n, 1024]⟩)
    (inb17 : ∀ a, (![s, q, 0] : Fin 3 → ℕ) a + (⟨3, ![1, n, 1024]⟩ : Shape).size a ≤ S2x3072x1024.size a)
    (inb14 : ∀ a, (![s, 0, 0] : Fin 3 → ℕ) a + S1x3072x1024.size a ≤ S2x3072x1024.size a)
    (ρ : Fin n) (col : Fin 1024) (hq : q + ρ.val < 3072) :
    ((SCR.slice (Rect.unit (s := S2x3072x1024) ![s, q, 0] (⟨3, ![1, n, 1024]⟩ : Shape).size inb17) (fun _ => rfl)).squeeze
          ⟨2, ![n, 1024]⟩ hsq).view.emb (ix2 ρ col)
      = (SCR.access (Rect.unit (s := S2x3072x1024) ![s, 0, 0] S1x3072x1024.size inb14)).emb (ix3 (0 : Fin 1) ⟨q + ρ.val, hq⟩ col) := by
  have h1 : ((SCR.slice (Rect.unit (s := S2x3072x1024) ![s, q, 0] (⟨3, ![1, n, 1024]⟩ : Shape).size inb17) (fun _ => rfl)).squeeze
        ⟨2, ![n, 1024]⟩ hsq).view.emb (ix2 ρ col)
      = (Rect.unit (s := S2x3072x1024) ![s, q, 0] (⟨3, ![1, n, 1024]⟩ : Shape).size inb17).emb
          (Shape.reshapeEquiv hsq.numel_eq (ix2 ρ col)) := rfl
  rw [h1, Shape.reshapeEquiv_cons_one]
  funext a; apply Fin.ext
  show _ = ((Rect.unit (s := S2x3072x1024) ![s, 0, 0] S1x3072x1024.size inb14).emb (ix3 (0 : Fin 1) ⟨q + ρ.val, hq⟩ col) a).val
  rw [Rect.emb_apply, Rect.emb_apply]
  match a with
  | ⟨0, _⟩ => show s + 1 * 0 = s + 1 * 0; rfl
  | ⟨1, _⟩ => show q + 1 * ρ.val = 0 + 1 * (q + ρ.val); omega
  | ⟨2, _⟩ => show 0 + 1 * col.val = 0 + 1 * col.val; rfl

/-- The result array after: the payload `P` stored over the slot at `off14`, whole; the chunk of `n` rows at `off17` of
    the scratch read; and that written over the `n` rows at `off16` of the result. -/
def landedGenN (n : ℕ) (hsq : (⟨3, ![1, n, 1024]⟩ : Shape).Squeezes ⟨2, ![n, 1024]⟩) (c : Dev nD)
    (off16 : Fin 2 → ℕ) (off17 off14 : Fin 3 → ℕ)
    (inb16 : ∀ a, off16 a + (⟨2, ![n, 1024]⟩ : Shape).size a ≤ S100000x1024.size a)
    (inb17 : ∀ a, off17 a + (⟨3, ![1, n, 1024]⟩ : Shape).size a ≤ S2x3072x1024.size a)
    (inb14 : ∀ a, off14 a + S1x3072x1024.size a ≤ S2x3072x1024.size a)
    (P : S1x3072x1024.Idx → Elt F .f32) (fd : Buf (Elt F) (V4.view.loc (thr c))) (g : Buf (Elt F) (SCR.view.loc (thr c))) :
    FVec F S100000x1024 .f32 :=
  (V4.slice (Rect.unit (s := S100000x1024) off16 (⟨2, ![n, 1024]⟩ : Shape).size inb16) (fun _ => rfl)).view.write (Elt F) fd
    ((ReadAs.same : ReadAs (Elt F) ⟨2, ![n, 1024]⟩ .f32 ⟨2, ![n, 1024]⟩ .f32).apply
      (((SCR.slice (Rect.unit (s := S2x3072x1024) off17 (⟨3, ![1, n, 1024]⟩ : Shape).size inb17) (fun _ => rfl)).squeeze
          ⟨2, ![n, 1024]⟩ hsq).view.read (Elt F)
        ((SCR.access (Rect.unit (s := S2x3072x1024) off14 S1x3072x1024.size inb14)).write (Elt F) g P Finset.univ))) Finset.univ

set_option maxHeartbeats 100000 in
/-- The slot stored whole, a chunk of `n` rows of it copied to rows of the result: read at a row of the chunk, the
    result holds the stored payload at the chunk's row. -/
theorem landed_val_genN (n : ℕ) (hsq : (⟨3, ![1, n, 1024]⟩ : Shape).Squeezes ⟨2, ![n, 1024]⟩) (c : Dev nD)
    (off16 : Fin 2 → ℕ) (off17 off14 : Fin 3 → ℕ) (R0 s q : ℕ)
    (h16 : off16 = ![R0, 0]) (h17 : off17 = ![s, q, 0]) (h14 : off14 = ![s, 0, 0])
    (inb16 : ∀ a, off16 a + (⟨2, ![n, 1024]⟩ : Shape).size a ≤ S100000x1024.size a)
    (inb17 : ∀ a, off17 a + (⟨3, ![1, n, 1024]⟩ : Shape).size a ≤ S2x3072x1024.size a)
    (inb14 : ∀ a, off14 a + S1x3072x1024.size a ≤ S2x3072x1024.size a)
    (P : S1x3072x1024.Idx → Elt F .f32) (fd : Buf (Elt F) (V4.view.loc (thr c))) (g : Buf (Elt F) (SCR.view.loc (thr c)))
    (ρ : Fin n) (col : Fin 1024) (hR : R0 + ρ.val < 100000) (hq : q + ρ.val < 3072) :
    landedGenN n hsq c off16 off17 off14 inb16 inb17 inb14 P fd g (ix2 ⟨R0 + ρ.val, hR⟩ col)
      = P (ix3 (0 : Fin 1) ⟨q + ρ.val, hq⟩ col) := by
  subst h16 h17 h14
  unfold landedGenN
  refine (write_at (V4.slice (Rect.unit (s := S100000x1024) ![R0, 0] (⟨2, ![n, 1024]⟩ : Shape).size inb16) (fun _ => rfl)).view (ix2 ρ col)
    (dst_embN n R0 inb16 ρ col hR) (Finset.mem_univ _)).trans ?_
  refine (cast_eq _ _).trans ?_
  refine (read_at ((SCR.slice (Rect.unit (s := S2x3072x1024) ![s, q, 0] (⟨3, ![1, n, 1024]⟩ : Shape).size inb17) (fun _ => rfl)).squeeze
          ⟨2, ![n, 1024]⟩ hsq).view (ix2 ρ col) (src_embN n s q hsq inb17 inb14 ρ col hq)).trans ?_
  refine (cast_eq _ _).trans ?_
  refine (write_at (SCR.access (Rect.unit (s := S2x3072x1024) ![s, 0, 0] S1x3072x1024.size inb14)) (ix3 (0 : Fin 1) ⟨q + ρ.val, hq⟩ col) rfl
    (Finset.mem_univ _)).trans ?_
  exact cast_eq _ _

end Cert.KernelIdeal.Region

end
-- ==== Proof.RegionValueTail.lean ====
/-
  The last tile's copies, and the claim about written rows assembled.

  The last tile has 1696 rows inside the array: three chunks of 512 rows and the first 160 rows of the fourth leave
  its slot for the result's last rows, at literal offsets; the fourth chunk's remaining rows and the last two chunks
  lie past the array's end, where nothing is claimed. With the six chunks of a full tile, every copy the body makes
  lands rows that are the tile function's.
-/
import proofs.«204125_g1194000908950_cont_fleet_528_33_alg».proof.Proof.RegionTail
import proofs.«204125_g1194000908950_cont_fleet_528_33_alg».proof.Proof.RegionValueN

noncomputable section

namespace Cert.KernelIdeal.Region

open Cert.KernelIdeal Cert.KernelIdeal.Gen Cert.KernelIdeal.Common
open Idealize.ShloMosaic Idealize.ShloMosaic.ValueIdx Idealize.ShloMosaic.TcCoe
open Idealize.SL.Sem

variable {F : FTy → Type} [FloatOps F] [Named F] [∀ e, Nonempty (Elt F e)]

/-! ## The last tile's four copies -/

set_option maxHeartbeats 100000 in
/-- The last tile's chunk 0: its rows are the tile function's. -/
theorem landedT0_good (c : Dev nD) (i : grid1.Coords) (h3 : k1_cond3 i = 1#1) (x1 : Vec F S64x1024 .f32) (x2 : Vec F S64x3072 .f32)
    (x3 : Vec F S3072 .f32) (fd : Buf (Elt F) (V4.view.loc (thr c))) (g : Buf (Elt F) (SCR.view.loc (thr c))) :
    GoodOn (32 : Fin 33) (0 : Fin 6) x1 x2 x3 (landedT0 c i h3 x1 x2 x3 fd g) := by
  intro ρ col h
  have h' : 98304 + ρ.val < 100000 := h
  have hq : 0 + ρ.val < 3072 := by have := ρ.isLt; omega
  refine (landed_val_gen c ![98304, 0] (k1_off29 i) (k1_off14 i) 98304 ((i 0).val % 2) 0
    rfl (k1_off29_eq i) (k1_off14_eq i) inb_S100000x1024_S512x1024_98304_0 (k1_off29_inb i h3) (k1_off14_inb i)
    (pay x1 x2 x3) fd g ρ col h' hq).trans ?_
  exact pay_apply x1 x2 x3 0 _ col

set_option maxHeartbeats 100000 in
/-- The last tile's chunk 1: its rows are the tile function's. -/
theorem landedT1_good (c : Dev nD) (i : grid1.Coords) (h3 : k1_cond3 i = 1#1) (x1 : Vec F S64x1024 .f32) (x2 : Vec F S64x3072 .f32)
    (x3 : Vec F S3072 .f32) (fd : Buf (Elt F) (V4.view.loc (thr c))) (g : Buf (Elt F) (SCR.view.loc (thr c))) :
    GoodOn (32 : Fin 33) (1 : Fin 6) x1 x2 x3 (landedT1 c i h3 x1 x2 x3 fd g) := by
  intro ρ col h
  have h' : 98816 + ρ.val < 100000 := h
  have hq : 512 + ρ.val < 3072 := by have := ρ.isLt; omega
  refine (landed_val_gen c ![98816, 0] (k1_off31 i) (k1_off14 i) 98816 ((i 0).val % 2) 512
    rfl (k1_off31_eq i) (k1_off14_eq i) inb_S100000x1024_S512x1024_98816_0 (k1_off31_inb i h3) (k1_off14_inb i)
    (pay x1 x2 x3) fd g ρ col h' hq).trans ?_
  exact pay_apply x1 x2 x3 0 _ col

set_option maxHeartbeats 100000 in
/-- The last tile's chunk 2: its rows are the tile function's. -/
theorem landedT2_good (c : Dev nD) (i : grid1.Coords) (h3 : k1_cond3 i = 1#1) (x1 : Vec F S64x1024 .f32) (x2 : Vec F S64x3072 .f32)
    (x3 : Vec F S3072 .f32) (fd : Buf (Elt F) (V4.view.loc (thr c))) (g : Buf (Elt F) (SCR.view.loc (thr c))) :
    GoodOn (32 : Fin 33) (2 : Fin 6) x1 x2 x3 (landedT2 c i h3 x1 x2 x3 fd g) := by
  intro ρ col h
  have h' : 99328 + ρ.val < 100000 := h
  have hq : 1024 + ρ.val < 3072 := by have := ρ.isLt; omega
  refine (landed_val_gen c ![99328, 0] (k1_off33 i) (k1_off14 i) 99328 ((i 0).val % 2) 1024
    rfl (k1_off33_eq i) (k1_off14_eq i) inb_S100000x1024_S512x1024_99328_0 (k1_off33_inb i h3) (k1_off14_inb i)
    (pay x1 x2 x3) fd g ρ col h' hq).trans ?_
  exact pay_apply x1 x2 x3 0 _ col

set_option maxHeartbeats 100000 in
/-- The last tile's chunk 3: its first 160 rows, the ones inside the array, are the tile function's. -/
theorem landedT3_good (c : Dev nD) (i : grid1.Coords) (h3 : k1_cond3 i = 1#1) (x1 : Vec F S64x1024 .f32) (x2 : Vec F S64x3072 .f32)
    (x3 : Vec F S3072 .f32) (fd : Buf (Elt F) (V4.view.loc (thr c))) (g : Buf (Elt F) (SCR.view.loc (thr c))) :
    GoodOn (32 : Fin 33) (3 : Fin 6) x1 x2 x3 (landedT3 c i h3 x1 x2 x3 fd g) := by
  intro ρ col h
  have h' : 99840 + ρ.val < 100000 := h
  have hρ : ρ.val < 160 := by omega
  have hq : 1536 + (⟨ρ.val, hρ⟩ : Fin 160).val < 3072 := by show 1536 + ρ.val < 3072; omega
  refine (landed_val_genN 160 squeezes_S1x160x1024_S160x1024 c ![99840, 0] (k1_off35 i) (k1_off14 i) 99840 ((i 0).val % 2) 1536
    rfl (k1_off35_eq i) (k1_off14_eq i) inb_S100000x1024_S160x1024_99840_0 (k1_off35_inb i h3) (k1_off14_inb i)
    (pay x1 x2 x3) fd g ⟨ρ.val, hρ⟩ col h' hq).trans ?_
  exact pay_apply x1 x2 x3 0 _ col

/-! ## The claim about written rows -/

/-- Every copy the body makes lands rows that are the tile function's; past the array's end nothing is claimed. -/
theorem gpOk (c : Dev nD) : GPOk (F := F) c (fun j r a w b f => GoodOn j r a w b f) where
  full := fun i h2 x1 x2 x3 fd g =>
    ⟨landed0_good c i h2 x1 x2 x3 fd g, landed1_good c i h2 x1 x2 x3 fd g, landed2_good c i h2 x1 x2 x3 fd g,
      landed3_good c i h2 x1 x2 x3 fd g, landed4_good c i h2 x1 x2 x3 fd g, landed5_good c i h2 x1 x2 x3 fd g⟩
  tail := fun i h3 x1 x2 x3 fd g =>
    ⟨landedT0_good c i h3 x1 x2 x3 fd g, landedT1_good c i h3 x1 x2 x3 fd g, landedT2_good c i h3 x1 x2 x3 fd g,
      landedT3_good c i h3 x1 x2 x3 fd g⟩
  past := fun x1 x2 x3 f =>
    ⟨fun ρ col h => by have h' : 98304 + 2048 + ρ.val < 100000 := h; omega,
      fun ρ col h => by have h' : 98304 + 2560 + ρ.val < 100000 := h; omega⟩

/-- The claim about a chunk reads the chunk's rows only. -/
theorem goodOn_local' (c : Dev nD) (j : Fin 33) (r : Fin 6) (a : Vec F S64x1024 .f32) (w : Vec F S64x3072 .f32) (b : Vec F S3072 .f32)
    (f g : Buf (Elt F) (V4.view.loc (thr c))) (hfg : ∀ x ∈ dsetC j r, g x = f x) (hf : GoodOn j r a w b f) :
    GoodOn j r a w b g :=
  GoodOn.local (fun ρ col h => hfg _ (mem_dsetC.mpr
    ⟨by show 3072 * j.val + 512 * r.val ≤ 3072 * j.val + 512 * r.val + ρ.val; omega,
      by show 3072 * j.val + 512 * r.val + ρ.val < 3072 * j.val + 512 * r.val + 512; have := ρ.isLt; omega⟩)) hf

end Cert.KernelIdeal.Region

end
-- ==== Proof.RegionFinal.lean ====
/-
  The TensorCore region's line of @main, with nothing left open: the record of the region over the body's three cases,
  the invariant's two ends, and the fact that what a tile's copies land is the tile function of the blocks the body
  found.
-/
import proofs.«204125_g1194000908950_cont_fleet_528_33_alg».proof.Proof.RegionRecord
import proofs.«204125_g1194000908950_cont_fleet_528_33_alg».proof.Proof.RegionSteps
import proofs.«204125_g1194000908950_cont_fleet_528_33_alg».proof.Proof.RegionEnds
import proofs.«204125_g1194000908950_cont_fleet_528_33_alg».proof.Proof.RegionLocal
import proofs.«204125_g1194000908950_cont_fleet_528_33_alg».proof.Proof.RegionValueTail

noncomputable section

namespace Cert.KernelIdeal.Region

open Cert.KernelIdeal Cert.KernelIdeal.Gen Cert.KernelIdeal.Common
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MM F

theorem region_wp (vA : (c : Dev nD) → Buf (Elt F) ((thr c).loc main_v2)) (vW : (c : Dev nD) → Buf (Elt F) ((thr c).loc main_v3))
    (vB : (c : Dev nD) → Buf (Elt F) ((thr c).loc main_arg3)) (d : Dev nD) (W : Waits sig (HIx 1)) (Φ : PUnit → sProp 𝕄) :
    iprop((iprop(boundary (SparseCore.T d)
          ∗ (inArrs vA vW vB d ∗ (∃ out, ⌜Cert.Spec.IsOut (tileF (F := F)) (vA d) (vW d) (vB d) out⌝ ∗ (thr d).loc main_v4 ↦{fullShare} out)
              ∗ ∃ W', ⌜∀ p ∈ W', p ∈ W ∨ p.2 = none⌝ ∗ owes (thr d) (0 : CellTallies nD τ sig (HIx 1)) W')) -∗ Φ ⟨⟩)
        ∗ boundary (SparseCore.T d)
        ∗ (inArrs vA vW vB d ∗ (∃ f, (thr d).loc main_v4 ↦{fullShare} f) ∗ owes (thr d) (0 : CellTallies nD τ sig (HIx 1)) W)
        ∗ levAts (K (F := F)).L (K (F := F)).lev
        ∗ Pipeline.cellsGhost (Pipeline.pin (pcfgs (F := F)) (adm (F := F))) EP (0 : Fin 1) d ∗ Pipeline.toksInit (Pipeline.pin (pcfgs (F := F)) (adm (F := F))) EP (0 : Fin 1) d)
      ⊢ wp frame (wpE ((K (F := F)).defs (Pipeline.defs pcfgs defs₀)) Variants.none.lift (SparseCore.T d) none) Set.univ
          (Prog.lift (.customCall (SparseCore.inner (Pipeline.entry (0 : Fin 1))) ())) Φ :=
  region_wp_of vA vW vB W (fun c => stepLo c (0 : CellTallies nD τ sig (HIx 1)) (GPg c) (gpOk c)) (fun c => stepMid c (0 : CellTallies nD τ sig (HIx 1)) (GPg c) (gpOk c))
    (fun c => stepLast c (0 : CellTallies nD τ sig (HIx 1)) (GPg c) (gpOk c))
    (fun c => inv_zero c (vA c) (vW c) (vB c) (GPg c)) (fun c => inv_last c (vA c) (vW c) (vB c) (GPg c) (goodOn_hloc c)) d Φ

end Cert.KernelIdeal.Region

end
-- ==== Proof.RunAll.lean ====
/-
  The whole program's run, every weakly fair execution: the vector-subcore task's obligation and the TensorCore
  region's line put into the run stated over them. Under the precondition the program terminates without a fault, the
  four arguments end as launched, and the result is the transpose of an array whose rows are, tile by tile, the tile
  function of the context means and of blocks agreeing with the transposed weights and the bias.
-/
import proofs.«204125_g1194000908950_cont_fleet_528_33_alg».proof.Proof.Run
import proofs.«204125_g1194000908950_cont_fleet_528_33_alg».proof.Proof.ScTile
import proofs.«204125_g1194000908950_cont_fleet_528_33_alg».proof.Proof.RegionFinal

noncomputable section

namespace Cert.KernelIdeal.Run

open Cert.KernelIdeal Cert.KernelIdeal.Gen Cert.KernelIdeal.Common Cert.KernelIdeal.Main

open Idealize.ShloMosaic Idealize.SL.Sem

variable {F : FTy → Type} [FloatOps F] [Named F]

theorem run [∀ e, Nonempty (Elt F e)] (m : (ℓ : Loc nD τ sig) → Buf (Elt F) ℓ) (ρ : Dev nD → PrngReg) (hpre : PreOK m) :
    θ_run (Cert.KernelIdeal.defs (F := F)) (Cert.KernelIdeal.threads (F := F)) ⟨m, fun _ => 0, ρ⟩ (QC m) :=
  run_of m ρ (ScCall.tileObl (vI m) (vE m) (hin_vI m hpre)) (fun d W Φ => Region.region_wp (vA m) (vW m) (vB m) d W Φ)

end Cert.KernelIdeal.Run

end
-- ==== Proof.W.Common.lean ====
/-
  The set-up shared by the proof's modules, at any float instance: the program as the SparseCore launch theorem sees
  it (its label signature, launch configuration, body table and variants), and the resource algebra — the launch
  handshakes' rounds, the TensorCore pipeline's staging cells' rounds, and the transfer counters for the kernels'
  own copies, side by side.
-/
import proofs.«204125_g1194000908950_cont_fleet_528_33_alg».proof.Defs
import proofs.«204125_g1194000908950_cont_fleet_528_33_alg».proof.Proof.Spec
import proofs.«204125_g1194000908950_cont_fleet_528_33_alg».proof.Proof.Gen.Kernel
import proofs.«204125_g1194000908950_cont_fleet_528_33_alg».proof.Proof.Gen.Kernel.Skeleton
import proofs.«204125_g1194000908950_cont_fleet_528_33_alg».proof.Proof.Gen.Kernel.Launch
import proofs.«204125_g1194000908950_cont_fleet_528_33_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.Common

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The pipeline's admissibility witnesses: no prefetched tables. -/
abbrev adm [FloatOps F] : (p : Fin 1) → (pcfgs (F := F) p).Adm := fun q => (cfgs q).toPCfg_adm

/-! ## The host transposes, the scale and the tile function -/

abbrev tr0 [FloatOps F] : (⟨S1024x20, .i32⟩ : BufTy).Contents (Elt F) → (⟨S20x1024, .i32⟩ : BufTy).Contents (Elt F) :=
  (transpose S20x1024 [1, 0] · transposes_S1024x20_S20x1024_1_0)
abbrev tr1 [FloatOps F] : (⟨S100000x64, .f32⟩ : BufTy).Contents (Elt F) → (⟨S64x100000, .f32⟩ : BufTy).Contents (Elt F) :=
  (transpose S64x100000 [1, 0] · transposes_S100000x64_S64x100000_1_0)
abbrev tr3 [FloatOps F] : (⟨S100000x1024, .f32⟩ : BufTy).Contents (Elt F) → (⟨S1024x100000, .f32⟩ : BufTy).Contents (Elt F) :=
  (transpose S1024x100000 [1, 0] · transposes_S100000x1024_S1024x100000_1_0)

/-- The scale the first kernel multiplies its sums by. -/
abbrev scale [FloatOps F] : F .f32 := Scalar.ofBits .f32 0x3D4CCCCD#32

/-- What a tile of the second kernel computes from its three blocks. -/
def tileF [FloatOps F] (avg : FVec F S64x1024 .f32) (wblk : FVec F S64x3072 .f32) (bblk : FVec F S3072 .f32) : FVec F S3072x1024 .f32 :=
  addf (matmul dot_S64x3072_S64x1024_S3072x1024_0_0_1_1_n_n none wblk avg (constant S3072x1024 .f32 0x00000000#32))
    (broadcastTo S3072x1024 (shapeCast S3072x1 bblk shapeCasts_S3072_S3072x1) broadcasts_S3072x1_S3072x1024)

/-! ## The resource algebra -/

/-- The launch handshakes' rounds. -/
abbrev UH : Type := URounds (GSem nD τ sig) ℕ
/-- The pipeline's staging cells' rounds. -/
abbrev UP : Type := URounds (GSem nD τ sig) Unit
/-- Handshakes, staging cells, and the counters of the kernels' own transfers. -/
abbrev UU : Type := UH × (UP × Counters)

/-- The machine's resource algebra for this program at instance `F`. -/
abbrev MM (F : FTy → Type) : Type := MT nD τ sig (HIx 1) (Elt F) ℕ UU ℕ

abbrev EH : Emb UH (MM F) := embL
def EP : Emb UP (MM F) :=
  (Emb.inl : Emb UP (UP × Counters)).trans
    ((Emb.inr : Emb (UP × Counters) UU).trans (uEmb (nD := nD) (sig := sig) (Ix := HIx 1) (Val := Elt F) (Name := ℕ) (U := UU) (Lvl := ℕ)).toEmb)

instance EP_landsIn : (EP : Emb UP (MM F)).LandsIn (upEmb : UEmb _ (MM F)) := by unfold EP; infer_instance

end Cert.Kernel.Common

end
-- ==== Proof.W.Main.lean ====
/-
  @main on the TensorCore, line by line, and the run of the whole program from it.

  @main is: two transposes (the indices to [20, 1024], the table to [64, 100000]); the call of the vector-subcore
  kernel, which takes those two arrays and the [64, 1024] array of context means; a transpose of the weights to
  [64, 100000]; the TensorCore region, which takes the means, the transposed weights and the bias and writes the
  [100000, 1024] result; and the result's transpose to [1024, 100000]. The arrays are tracked as one valuation of
  the TensorCore's ten unscoped buffers; each line moves it on. What the two kernels do enters as their records:
  the call's payloads and the region's entry and exit states.
-/
import proofs.«204125_g1194000908950_cont_fleet_528_33_alg».proof.Proof.W.Common
import proofs.«204125_g1194000908950_cont_fleet_528_33_alg».proof.Proof.LibScRegion

noncomputable section

namespace Cert.Kernel.Main

open Cert.Kernel Cert.Kernel.Gen Cert.Kernel.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MM F

/-! ## The TensorCore's ten arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev S10 : Finset (DevRef τ sig) := {a0', a1', a2', a3', v0', v1', v2', v3', v4', v5'}

abbrev locOf (d : Dev nD) (b : Ref sig .tc) : Loc nD τ sig := (SparseCore.T d).loc b

omit [FloatOps F] in
theorem held_S10 (d : Dev nD) (W : Valuation τ sig (Elt F)) :
    (held (T d) S10 W : sProp 𝕄) = iprop((locOf d main_arg0 ↦{fullShare} W a0') ∗ (locOf d main_arg1 ↦{fullShare} W a1') ∗ (locOf d main_arg2 ↦{fullShare} W a2')
      ∗ (locOf d main_arg3 ↦{fullShare} W a3') ∗ (locOf d main_v0 ↦{fullShare} W v0') ∗ (locOf d main_v1 ↦{fullShare} W v1') ∗ (locOf d main_v2 ↦{fullShare} W v2')
      ∗ (locOf d main_v3 ↦{fullShare} W v3') ∗ (locOf d main_v4 ↦{fullShare} W v4') ∗ (locOf d main_v5 ↦{fullShare} W v5')) := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((locOf d main_arg0 ↦{fullShare} W main_arg0) ∗ (locOf d main_arg1 ↦{fullShare} W main_arg1) ∗ (locOf d main_arg2 ↦{fullShare} W main_arg2)
      ∗ (locOf d main_arg3 ↦{fullShare} W main_arg3) ∗ (locOf d main_v0 ↦{fullShare} W main_v0) ∗ (locOf d main_v1 ↦{fullShare} W main_v1) ∗ (locOf d main_v2 ↦{fullShare} W main_v2)
      ∗ (locOf d main_v3 ↦{fullShare} W main_v3) ∗ (locOf d main_v4 ↦{fullShare} W main_v4) ∗ (locOf d main_v5 ↦{fullShare} W main_v5)) := by
  unfold unscopedBufs
  rw [show (Finset.univ.filter fun b : Ref sig .tc => ¬ b.isScoped) = {main_arg0, main_arg1, main_arg2, main_arg3, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable (m : (ℓ : Loc nD τ sig) → Buf (Elt F) ℓ) (ρ : Dev nD → PrngReg)

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S10 (V0 m d) := by
  rw [unscopedBufs_eq, held_S10]; rfl

/-! ## The host lines and the arrays they make -/

abbrev op0 : HloOp τ sig (Elt F) := StableHlo.unary main_arg0 main_v0 (tr0 (F := F))
abbrev op1 : HloOp τ sig (Elt F) := StableHlo.unary main_arg1 main_v1 (tr1 (F := F))
abbrev op2 : HloOp τ sig (Elt F) := StableHlo.unary main_arg2 main_v3 (tr1 (F := F))
abbrev op3 : HloOp τ sig (Elt F) := StableHlo.unary main_v4 main_v5 (tr3 (F := F))

/-- The transposed indices, the transposed table, the transposed weights, the bias: what the kernels are handed. -/
def vI (d : Dev nD) : Buf (Elt F) (locOf d main_v0) := tr0 (F := F) (m (locOf d main_arg0))
def vE (d : Dev nD) : Buf (Elt F) (locOf d main_v1) := tr1 (F := F) (m (locOf d main_arg1))
def vW (d : Dev nD) : Buf (Elt F) (locOf d main_v3) := tr1 (F := F) (m (locOf d main_arg2))
abbrev vB (d : Dev nD) : Buf (Elt F) (locOf d main_arg3) := m (locOf d main_arg3)

/-- The context means the first kernel leaves. -/
def vA (d : Dev nD) : Buf (Elt F) (locOf d main_v2) := Cert.Spec.avgT (scale (F := F)) (vI m d) (vE m d)

theorem op0_sub : (op0 (F := F)).bufs ⊆ S10 := show ({a0', v0'} : Finset (DevRef τ sig)) ⊆ S10 by decide
theorem op1_sub : (op1 (F := F)).bufs ⊆ S10 := show ({a1', v1'} : Finset (DevRef τ sig)) ⊆ S10 by decide
theorem op2_sub : (op2 (F := F)).bufs ⊆ ({a2', v3'} : Finset (DevRef τ sig)) := show ({a2', v3'} : Finset (DevRef τ sig)) ⊆ {a2', v3'} from subset_rfl
theorem op3_sub : (op3 (F := F)).bufs ⊆ ({v4', v5'} : Finset (DevRef τ sig)) := show ({v4', v5'} : Finset (DevRef τ sig)) ⊆ {v4', v5'} from subset_rfl

/-- The valuations after the two leading transposes. -/
abbrev V1 (d : Dev nD) : Valuation τ sig (Elt F) := (op0 (F := F)).result (V0 m d)
abbrev V2 (d : Dev nD) : Valuation τ sig (Elt F) := (op1 (F := F)).result (V1 m d)

theorem V2_v0 (d : Dev nD) : V2 m d v0' = vI m d := by
  unfold V2 V1
  rw [StableHlo.unary_result_ne (τ := τ) (h := show (main_v0 : Ref sig .tc) ≠ main_v1 by decide), StableHlo.unary_result]; rfl
theorem V2_v1 (d : Dev nD) : V2 m d v1' = vE m d := by
  unfold V2 V1
  rw [StableHlo.unary_result, StableHlo.unary_result_ne (τ := τ) (h := show (main_arg1 : Ref sig .tc) ≠ main_v0 by decide)]; rfl
theorem V2_other (d : Dev nD) {r : Ref sig .tc} (h0 : r ≠ main_v0) (h1 : r ≠ main_v1) : V2 m d (Proc.devRef .tc r) = m (locOf d r) := by
  unfold V2 V1
  rw [StableHlo.unary_result_ne (τ := τ) (h := h1), StableHlo.unary_result_ne (τ := τ) (h := h0)]; rfl

omit [FloatOps F] in
theorem held_pair (d : Dev nD) {x y : DevRef τ sig} (h : x ≠ y) (W : Valuation τ sig (Elt F)) :
    (held (T d) {x, y} W : sProp 𝕄) = iprop((((d, x) : Loc nD τ sig) ↦{fullShare} W x) ∗ (((d, y) : Loc nD τ sig) ↦{fullShare} W y)) := by
  unfold held
  rw [SparseCore.bigSep_insert' (by rw [Finset.mem_singleton]; exact h), bigSep_singleton]

theorem held_V2 (d : Dev nD) :
    (held (T d) S10 (V2 m d) : sProp 𝕄) = iprop((locOf d main_arg0 ↦{fullShare} m (locOf d main_arg0)) ∗ (locOf d main_arg1 ↦{fullShare} m (locOf d main_arg1))
      ∗ (locOf d main_arg2 ↦{fullShare} m (locOf d main_arg2)) ∗ (locOf d main_arg3 ↦{fullShare} m (locOf d main_arg3))
      ∗ (locOf d main_v0 ↦{fullShare} vI m d) ∗ (locOf d main_v1 ↦{fullShare} vE m d) ∗ (locOf d main_v2 ↦{fullShare} m (locOf d main_v2))
      ∗ (locOf d main_v3 ↦{fullShare} m (locOf d main_v3)) ∗ (locOf d main_v4 ↦{fullShare} m (locOf d main_v4)) ∗ (locOf d main_v5 ↦{fullShare} m (locOf d main_v5))) := by
  rw [held_S10, V2_v0, V2_v1, V2_other m d (r := main_arg0) (by decide) (by decide), V2_other m d (r := main_arg1) (by decide) (by decide),
    V2_other m d (r := main_arg2) (by decide) (by decide), V2_other m d (r := main_arg3) (by decide) (by decide),
    V2_other m d (r := main_v2) (by decide) (by decide), V2_other m d (r := main_v3) (by decide) (by decide),
    V2_other m d (r := main_v4) (by decide) (by decide), V2_other m d (r := main_v5) (by decide) (by decide)]

/-- The weights' transpose: the line's two arrays before and after. -/
theorem held_op2 (d : Dev nD) :
    (held (T d) {a2', v3'} ((op2 (F := F)).result (V0 m d)) : sProp 𝕄)
      = iprop((locOf d main_arg2 ↦{fullShare} m (locOf d main_arg2)) ∗ (locOf d main_v3 ↦{fullShare} vW m d)) := by
  rw [held_pair d (by decide), StableHlo.unary_result_ne (τ := τ) (h := show (main_arg2 : Ref sig .tc) ≠ main_v3 by decide), StableHlo.unary_result]; rfl

/-- The result's transpose: the line's two arrays before and after, the region's result at `out`. -/
def V5 (d : Dev nD) (out : Buf (Elt F) (locOf d main_v4)) : Valuation τ sig (Elt F) := Function.update (V0 m d) v4' out

theorem held_V5 (d : Dev nD) (out : Buf (Elt F) (locOf d main_v4)) :
    (held (T d) {v4', v5'} (V5 m d out) : sProp 𝕄) = iprop((locOf d main_v4 ↦{fullShare} out) ∗ (locOf d main_v5 ↦{fullShare} m (locOf d main_v5))) := by
  rw [held_pair d (by decide)]; unfold V5
  rw [Function.update_self, Function.update_of_ne (show v5' ≠ v4' by decide)]; rfl

theorem held_op3 (d : Dev nD) (out : Buf (Elt F) (locOf d main_v4)) :
    (held (T d) {v4', v5'} ((op3 (F := F)).result (V5 m d out)) : sProp 𝕄)
      = iprop((locOf d main_v4 ↦{fullShare} out) ∗ (locOf d main_v5 ↦{fullShare} tr3 (F := F) out)) := by
  rw [held_pair d (by decide), StableHlo.unary_result_ne (τ := τ) (h := show (main_v4 : Ref sig .tc) ≠ main_v5 by decide), StableHlo.unary_result]
  unfold V5; rw [Function.update_self]

omit [FloatOps F] in
/-- After the one call the TensorCore owes nothing; its `owes` can be taken out of its state and put back. -/
theorem tcSt_owes [FloatOps F] (P : (K (F := F)).Pay (nD := nD) (Val := Elt F) (Name := ℕ) (U := UU)) (d : Dev nD) :
    ((K (F := F)).tcSt EH d 1 : sProp 𝕄)
      ⊢ iprop((∃ W, ⌜(K (F := F)).WBelow (SparseCore.T d) W (8 * 1)⌝ ∗ owes (SparseCore.T d) (0 : CellTallies nD τ sig (HIx 1)) W)
        ∗ ((∃ W, ⌜(K (F := F)).WBelow (SparseCore.T d) W (8 * 1)⌝ ∗ owes (SparseCore.T d) (0 : CellTallies nD τ sig (HIx 1)) W)
            -∗ (K (F := F)).tcSt EH d 1)) := by
  unfold SparseCore.Cfg.tcSt
  rw [(K (F := F)).Otc_end d (le_refl 1)]
  iintro ⟨HO, Hrest⟩
  isplitl [HO]; · iexact HO
  iintro HO
  isplitl [HO]; · iexact HO
  iexact Hrest

/-! ## The kernels' records, as @main meets them -/

section MainProof

variable (P : (K (F := F)).Pay (nD := nD) (Val := Elt F) (Name := ℕ) (U := UU))

/-- What the vector-subcore call takes: the transposed indices and table, and the means' array at any contents; -/
abbrev ST (d : Dev nD) : sProp 𝕄 :=
  iprop((locOf d main_v0 ↦{fullShare} vI m d) ∗ (locOf d main_v1 ↦{fullShare} vE m d) ∗ ∃ f, locOf d main_v2 ↦{fullShare} f)
/-- and what it gives back: the same two, and the means. -/
abbrev DN (d : Dev nD) : sProp 𝕄 :=
  iprop((locOf d main_v0 ↦{fullShare} vI m d) ∗ (locOf d main_v1 ↦{fullShare} vE m d) ∗ locOf d main_v2 ↦{fullShare} vA m d)

/-- The region's three operand arrays. -/
abbrev inArrs (d : Dev nD) : sProp 𝕄 :=
  iprop((locOf d main_v2 ↦{fullShare} vA m d) ∗ (locOf d main_v3 ↦{fullShare} vW m d) ∗ (locOf d main_arg3 ↦{fullShare} vB m d))
/-- The TensorCore region is entered from its operands, the result array at any contents, and the core owing nothing; -/
abbrev RPRE (d : Dev nD) (W : Waits sig (HIx 1)) : sProp 𝕄 :=
  iprop(inArrs m d ∗ (∃ f, locOf d main_v4 ↦{fullShare} f) ∗ owes (SparseCore.T d) (0 : CellTallies nD τ sig (HIx 1)) W)
/-- it leaves the operands as they were and the result array at contents that are, tile by tile, the tile function of
    blocks agreeing with the operands. -/
abbrev RPOST (d : Dev nD) (W : Waits sig (HIx 1)) : sProp 𝕄 :=
  iprop(inArrs m d ∗ (∃ out, ⌜Cert.Spec.IsOut (tileF (F := F)) (vA m d) (vW m d) (vB m d) out⌝ ∗ locOf d main_v4 ↦{fullShare} out)
    ∗ ∃ W', ⌜∀ p ∈ W', p ∈ W ∨ p.2 = none⌝ ∗ owes (SparseCore.T d) (0 : CellTallies nD τ sig (HIx 1)) W')

/-- The pipeline's staging cells' ghost state, as the launch deals it. -/
abbrev G (d : Dev nD) : sProp 𝕄 :=
  iprop(Pipeline.cellsGhost (Pipeline.pin (pcfgs (F := F)) (adm (F := F))) EP (0 : Fin 1) d ∗ Pipeline.toksInit (Pipeline.pin (pcfgs (F := F)) (adm (F := F))) EP (0 : Fin 1) d)

/-- What @main leaves the claim: the four arguments at their launch contents, and the result the transpose of a
    region result. -/
abbrev FIN (d : Dev nD) : sProp 𝕄 :=
  iprop((locOf d main_arg0 ↦{fullShare} m (locOf d main_arg0)) ∗ (locOf d main_arg1 ↦{fullShare} m (locOf d main_arg1))
    ∗ (locOf d main_arg2 ↦{fullShare} m (locOf d main_arg2)) ∗ (locOf d main_arg3 ↦{fullShare} m (locOf d main_arg3))
    ∗ ∃ out, ⌜Cert.Spec.IsOut (tileF (F := F)) (vA m d) (vW m d) (vB m d) out⌝ ∗ locOf d main_v5 ↦{fullShare} tr3 (F := F) out)

theorem hmain
    (hst : ∀ d, ST m d ⊢ bigSep Finset.univ fun c : Fin ((K (F := F)).nCore 0) => P.st 0 d c)
    (hdn : ∀ d, (bigSep Finset.univ fun c : Fin ((K (F := F)).nCore 0) => P.dn 0 d c) ⊢ DN m d)
    (hregion : ∀ (d : Dev nD) (W : Waits sig (HIx 1)) (Φ : PUnit → sProp 𝕄),
      iprop((iprop(boundary (SparseCore.T d) ∗ RPOST m d W) -∗ Φ ⟨⟩) ∗ boundary (SparseCore.T d) ∗ RPRE m d W
          ∗ levAts (K (F := F)).L (K (F := F)).lev ∗ G d)
        ⊢ wp frame (wpE ((K (F := F)).defs (Pipeline.defs pcfgs defs₀)) 𝒱₀.lift (SparseCore.T d) none) Set.univ
            (Prog.lift (.customCall (SparseCore.inner (Pipeline.entry (0 : Fin 1))) ())) Φ)
    (κ : GSem nD τ sig → ℕ) (d : Dev nD) :
    iprop((K (F := F)).ctx EH P κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  -- the two leading transposes
  iapply (wp_hlo_within 𝒱 (SparseCore.T d) none Set.univ (op := op0 (F := F)) (S := S10) op0_sub (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1 (F := F)) (S := S10) op1_sub (V := V1 m d)) $$ [Hb Hheld]
  · isplitl [Hb]; · iexact Hb
    iexact Hheld
  iintro ⟨Hb, Hheld⟩
  rw [wp_ret]; imodintro
  ihave Hh := (Entails.of_eq (held_V2 m d)) $$ Hheld
  icases Hh with ⟨Ha0, Ha1, Ha2, Ha3, Hv0, Hv1, Hv2, Hv3, Hv4, Hv5⟩
  -- the call of the vector-subcore kernel
  iapply ((K (F := F)).wp_run (D (F := F)) 𝒱 (EH := EH) (P := P) κ d 0) $$ [Hst Hv0 Hv1 Hv2 Hb Ha0 Ha1 Ha2 Ha3 Hv3 Hv4 Hv5 HG]
  isplitr; · iexact Hctx
  isplitl [Hst]; · iexact Hst
  isplitl [Hv0 Hv1 Hv2]
  · iapply (hst d)
    isplitl [Hv0]; · iexact Hv0
    isplitl [Hv1]; · iexact Hv1
    iexists _; iexact Hv2
  iintro ⟨Hst, Hdn⟩
  ihave Hdn' := (hdn d) $$ Hdn
  icases Hdn' with ⟨Hv0, Hv1, Hv2⟩
  -- the weights' transpose
  iapply (wp_hlo_within 𝒱 (SparseCore.T d) none Set.univ (op := op2 (F := F)) (S := ({a2', v3'} : Finset (DevRef τ sig))) op2_sub (V := V0 m d)) $$ [Hb Ha2 Hv3]
  · isplitl [Hb]; · iexact Hb
    rw [held_pair d (by decide)]
    isplitl [Ha2]; · iexact Ha2
    iexact Hv3
  iintro ⟨Hb, Hheld⟩
  rw [wp_ret]; imodintro
  ihave Hh := (Entails.of_eq (held_op2 m d)) $$ Hheld
  icases Hh with ⟨Ha2, Hv3⟩
  -- the TensorCore region
  ihave Hst1 := (Entails.of_eq (show ((K (F := F)).tcSt EH d ((0 : Fin 1).val + 1) : sProp 𝕄) = (K (F := F)).tcSt EH d 1 from rfl)) $$ Hst
  ihave Hst' := (tcSt_owes (F := F) P d) $$ Hst1
  icases Hst' with ⟨⟨%W, %hW, HO⟩, Hback⟩
  ihave Hlev := (SparseCore.Cfg.ctx_levAts (K := K (F := F)) κ) $$ Hctx
  iapply (hregion d W _) $$ [Hlev Hb Hv2 Hv3 Ha3 Hv4 HO HG Ha0 Ha1 Ha2 Hv0 Hv1 Hv5 Hback]
  isplitl [Ha0 Ha1 Ha2 Hv0 Hv1 Hv5 Hback]
  · iintro ⟨Hb, ⟨Hv2, Hv3, Ha3⟩, ⟨%out, %hout, Hv4⟩, %W', %hW', HO⟩
    -- the result's transpose
    iapply (wp_hlo_within 𝒱 (SparseCore.T d) none Set.univ (op := op3 (F := F)) (S := ({v4', v5'} : Finset (DevRef τ sig))) op3_sub (V := V5 m d out)) $$ [Hb Hv4 Hv5]
    · isplitl [Hb]; · iexact Hb
      rw [held_V5]
      isplitl [Hv4]; · iexact Hv4
      iexact Hv5
    iintro ⟨Hb, Hheld⟩
    rw [wp_ret]; imodintro; imodintro
    ihave Hh := (Entails.of_eq (held_op3 m d out)) $$ Hheld
    icases Hh with ⟨Hv4, Hv5⟩
    isplitl [Hback HO]
    · iapply Hback
      iexists W'; isplitr
      · ipureintro; exact fun p hp => (hW' p hp).elim (hW p) (fun h => by rw [h]; exact Nat.zero_le _)
      · iexact HO
    isplitl [Ha0]; · iexact Ha0
    isplitl [Ha1]; · iexact Ha1
    isplitl [Ha2]; · iexact Ha2
    isplitl [Ha3]; · iexact Ha3
    iexists out; isplitr
    · ipureintro; exact hout
    · iexact Hv5
  isplitl [Hb]; · iexact Hb
  isplitl [Hv2 Hv3 Ha3 Hv4 HO]
  · isplitl [Hv2 Hv3 Ha3]
    · isplitl [Hv2]; · iexact Hv2
      isplitl [Hv3]; · iexact Hv3
      iexact Ha3
    isplitl [Hv4]; · iexists _; iexact Hv4
    iexact HO
  isplitl [Hlev]; · iexact Hlev
  iexact HG

/-! ## The launch element: the handshakes' rounds, the staging cells' rounds, counters at their unit -/

def u₀ : UU :=
  (initOf (K (F := F)).hsCells (K (F := F)).hsToks,
    (initOf (Pipeline.cells (nD := nD) (τ := τ) cfgs Gen.cellOf_inj) (Pipeline.launchToks (nD := nD) (τ := τ) cfgs Gen.cellOf_inj), 1))

omit [FloatOps F] in
theorem bigSep_emp' {I : Type} (s : Finset I) : (bigSep s fun _ => iprop(emp)) = (iprop(emp) : sProp 𝕄) := bigSep_emp_const s

omit [FloatOps F] in
theorem EP_eq (x : UP) : ((Emb.inl : Emb UP (UP × Counters)).trans (embR : Emb (UP × Counters) (MM F))) x = EP (F := F) x := rfl

theorem ghost_deal :
    iprop((bigSep Finset.univ fun c : Dev nD => bigSep Finset.univ fun p : Fin 1 => Pipeline.cellsGhost cfgs (EP (F := F)) p c)
        ∗ (bigSep Finset.univ fun c : Dev nD => bigSep Finset.univ fun p : Fin 1 => (Pipeline.toksInit cfgs (EP (F := F)) p c : sProp 𝕄)))
      ⊢ bigSep Finset.univ fun d : Dev nD => G (F := F) d := by
  rw [bigSep_congr (fun c _ => bigSep_univ_of_subsingleton (0 : Fin 1)), bigSep_congr (fun c _ => bigSep_univ_of_subsingleton (0 : Fin 1)), ← bigSep_sep']

theorem hu₀ (hx : ∀ q thr, P.x q thr = iprop(emp)) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => P.x q thr) := by
  unfold u₀
  iintro Hu
  ihave H := (ownU_pair _ _) $$ Hu
  icases H with ⟨HH, HR⟩
  ihave HR' := (own_pair_emb embR _ _) $$ HR
  icases HR' with ⟨HP, -⟩
  ihave HP' := (Entails.of_eq (congrArg BI.own (EP_eq (F := F) _))) $$ HP
  imod (Pipeline.fund_ghost (nD := nD) (τ := τ) cfgs (EP (F := F)) Gen.cellOf_inj) $$ HP' with Hg
  imodintro
  isplitl [HH]; · iexact HH
  isplitl [Hg]; · iapply ghost_deal; iexact Hg
  simp only [hx]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What the final memory holds -/

def fq (d : Dev nD) (s' : Phys nD τ sig (Elt F)) : Prop :=
  s'.mem.mem (locOf d main_arg0) = m (locOf d main_arg0) ∧ s'.mem.mem (locOf d main_arg1) = m (locOf d main_arg1)
    ∧ s'.mem.mem (locOf d main_arg2) = m (locOf d main_arg2) ∧ s'.mem.mem (locOf d main_arg3) = m (locOf d main_arg3)
    ∧ ∃ out, Cert.Spec.IsOut (tileF (F := F)) (vA m d) (vW m d) (vB m d) out ∧ s'.mem.mem (locOf d main_v5) = tr3 (F := F) out

theorem hfin (d : Dev nD) (s' : Phys nD τ sig (Elt F)) : iprop(FIN m d ∗ SI s') ⊢ (⌜fq m d s'⌝ : sProp 𝕄) := by
  iintro ⟨⟨Ha0, Ha1, Ha2, Ha3, %out, %hout, Hv5⟩, HSI⟩
  icombine HSI Ha0 gives %h0
  icombine HSI Ha1 gives %h1
  icombine HSI Ha2 gives %h2
  icombine HSI Ha3 gives %h3
  icombine HSI Hv5 gives %h5
  ipureintro
  exact ⟨funext fun i => h0 i (Finset.mem_univ i), funext fun i => h1 i (Finset.mem_univ i), funext fun i => h2 i (Finset.mem_univ i),
    funext fun i => h3 i (Finset.mem_univ i), out, hout, funext fun i => h5 i (Finset.mem_univ i)⟩

/-! ## The program's run -/

/-- The run's postcondition: on every device the four arguments as launched, and the result the transpose of an array that
    is, tile by tile, the tile function of blocks agreeing with the transposed weights and the bias. -/
def QC : PUnit × MemSt nD τ sig (Elt F) → Prop := fun r => ∀ c : Dev nD,
  r.2.mem (locOf c main_arg0) = m (locOf c main_arg0) ∧ r.2.mem (locOf c main_arg1) = m (locOf c main_arg1)
    ∧ r.2.mem (locOf c main_arg2) = m (locOf c main_arg2) ∧ r.2.mem (locOf c main_arg3) = m (locOf c main_arg3)
    ∧ ∃ out, Cert.Spec.IsOut (tileF (F := F)) (vA m c) (vW m c) (vB m c) out ∧ r.2.mem (locOf c main_v5) = tr3 (F := F) out

theorem run_main [∀ e, Nonempty (Elt F e)] [P.IsStorable] (hx : ∀ q thr, P.x q thr = iprop(emp)) (hheld : P.held = ∅)
    (hst : ∀ d, ST m d ⊢ bigSep Finset.univ fun c : Fin ((K (F := F)).nCore 0) => P.st 0 d c)
    (hdn : ∀ d, (bigSep Finset.univ fun c : Fin ((K (F := F)).nCore 0) => P.dn 0 d c) ⊢ DN m d)
    (htile : (K (F := F)).TileObl (D (F := F)) 𝒱 P v₀ 0) (hvec : (K (F := F)).VecSplit' P 0)
    (hregion : ∀ (d : Dev nD) (W : Waits sig (HIx 1)) (Φ : PUnit → sProp 𝕄),
      iprop((iprop(boundary (SparseCore.T d) ∗ RPOST m d W) -∗ Φ ⟨⟩) ∗ boundary (SparseCore.T d) ∗ RPRE m d W
          ∗ levAts (K (F := F)).L (K (F := F)).lev ∗ G d)
        ⊢ wp frame (wpE ((K (F := F)).defs (Pipeline.defs pcfgs defs₀)) 𝒱₀.lift (SparseCore.T d) none) Set.univ
            (Prog.lift (.customCall (SparseCore.inner (Pipeline.entry (0 : Fin 1))) ())) Φ) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => SparseCore.Cfg.VecSplit.of_plain hvec)
    m ρ main (fun d => G (F := F) d) (FIN m) (u₀ (F := F)) (sep_elim_left.trans (hu₀ P hx)) (hmain m ρ P hst hdn hregion) (fq m) (hfin m) (QC m) (fun _ h => h) (hheld := hheld)

end MainProof

end Cert.Kernel.Main

end
-- ==== Proof.W.ScPay.lean ====
/-
  The SparseCore call's payloads. The call takes the transposed index array `[20, 1024]`, the transposed table
  `[64, 100000]` and the result `[64, 1024]` from the TensorCore and brings them back, the result holding the scaled
  context sums. Vector subcore number `2 s + c` (task `s` of SparseCore `c`) reads the whole index array, and rows `2 (2 s + c)` and
  `2 (2 s + c) + 1` of the table, and writes the same two rows of the result. So the index array goes out as read shares
  (a half to each SparseCore, sixteen read tokens of the half to its tasks), the table as its sixty-four rows, the
  result as its thirty-two row pairs; each task hands its pair back holding the ONE whole-array function at those rows,
  so the pairs join into the whole result at that function.
-/
import proofs.«204125_g1194000908950_cont_fleet_528_33_alg».proof.Proof.W.Common
import Idealize.ShloMosaic.Lib.Transfers
import Idealize.ShloMosaic.Lib.Writes

noncomputable section

namespace Cert.Kernel.ScCall

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-! ## The call's operands and result, as the TensorCore names them -/

abbrev iLoc (d : Dev nD) : Loc nD τ sig := (SparseCore.T d).loc main_v0
abbrev eLoc (d : Dev nD) : Loc nD τ sig := (SparseCore.T d).loc main_v1
abbrev oLoc (d : Dev nD) : Loc nD τ sig := (SparseCore.T d).loc main_v2

/-- The scale the sums are multiplied by: the named constant one twentieth. -/
abbrev scale : F .f32 := Scalar.ofBits .f32 0x3D4CCCCD#32

/-- What the call leaves in its result: the scaled context sums of the transposed table's rows. -/
abbrev res (vI : (d : Dev nD) → Buf (Elt F) (iLoc d)) (vE : (d : Dev nD) → Buf (Elt F) (eLoc d)) (d : Dev nD) : Buf (Elt F) (oLoc d) :=
  Cert.Spec.avgT (scale (F := F)) (vI d) (vE d)

/-! ## Which rows go to which task

Task `s` of SparseCore `c` is vector subcore number `2 s + c`; it reads rows `2 (2 s + c)` and `2 (2 s + c) + 1` of the table and writes
the same two rows of the result. -/

theorem hdivO : 32 ∣ S64x1024.size 0 := ⟨2, rfl⟩
theorem hdivE : 64 ∣ S64x100000.size 0 := ⟨1, rfl⟩

def wid (c : Fin 2) (s : Fin 16) : Fin 32 := ⟨2 * s.val + c.val, by omega⟩
def erow (c : Fin 2) (s : Fin 16) (k : Fin 2) : Fin 64 := ⟨2 * (2 * s.val + c.val) + k.val, by omega⟩

/-- The two rows of the result that are vector subcore number `2 s + c`'s. -/
abbrev oSet (c : Fin 2) (s : Fin 16) : Finset S64x1024.Idx := (Rect.part (s := S64x1024) (a₀ := 0) hdivO (wid c s)).set
/-- Row `2 (2 s + c) + k` of the table. -/
abbrev eSet (c : Fin 2) (s : Fin 16) (k : Fin 2) : Finset S64x100000.Idx := (Rect.part (s := S64x100000) (a₀ := 0) hdivE (erow c s k)).set

theorem wid_inj {c c' : Fin 2} {s s' : Fin 16} (h : wid c s = wid c' s') : c = c' ∧ s = s' := by
  have h' : 2 * s.val + c.val = 2 * s'.val + c'.val := congrArg Fin.val h
  exact ⟨Fin.ext (by omega), Fin.ext (by omega)⟩
theorem wid_surj (j : Fin 32) : ∃ (c : Fin 2) (s : Fin 16), wid c s = j :=
  ⟨⟨j.val % 2, by omega⟩, ⟨j.val / 2, by omega⟩, Fin.ext (by show 2 * (j.val / 2) + j.val % 2 = j.val; omega)⟩
theorem erow_inj {c c' : Fin 2} {s s' : Fin 16} {k k' : Fin 2} (h : erow c s k = erow c' s' k') : c = c' ∧ s = s' ∧ k = k' := by
  have h' : 2 * (2 * s.val + c.val) + k.val = 2 * (2 * s'.val + c'.val) + k'.val := congrArg Fin.val h
  exact ⟨Fin.ext (by omega), Fin.ext (by omega), Fin.ext (by omega)⟩
theorem erow_surj (j : Fin 64) : ∃ (c : Fin 2) (s : Fin 16) (k : Fin 2), erow c s k = j :=
  ⟨⟨j.val / 2 % 2, by omega⟩, ⟨j.val / 4, by omega⟩, ⟨j.val % 2, by omega⟩,
    Fin.ext (by show 2 * (2 * (j.val / 4) + j.val / 2 % 2) + j.val % 2 = j.val; omega)⟩

/-! ## The parts of the result and of the table -/

omit [FloatOps F] in
theorem oSets_disjoint : ∀ p ∈ (Finset.univ : Finset (Fin 2 × Fin 16)), ∀ p' ∈ (Finset.univ : Finset (Fin 2 × Fin 16)), p ≠ p' →
    Disjoint (oSet p.1 p.2) (oSet p'.1 p'.2) :=
  fun p _ p' _ h => Rect.part_disjoint hdivO fun e => h (Prod.ext (wid_inj e).1 (wid_inj e).2)
omit [FloatOps F] in
theorem oSets_cover : (Finset.univ : Finset (Fin 2 × Fin 16)).biUnion (fun p => oSet p.1 p.2) = Finset.univ :=
  Finset.eq_univ_iff_forall.mpr fun i => by
    obtain ⟨j, hj⟩ := Rect.exists_mem_part hdivO i
    obtain ⟨c, s, rfl⟩ := wid_surj j
    exact Finset.mem_biUnion.mpr ⟨(c, s), Finset.mem_univ _, hj⟩
omit [FloatOps F] in
theorem eSets_disjoint : ∀ p ∈ (Finset.univ : Finset (Fin 2 × Fin 16 × Fin 2)), ∀ p' ∈ (Finset.univ : Finset (Fin 2 × Fin 16 × Fin 2)), p ≠ p' →
    Disjoint (eSet p.1 p.2.1 p.2.2) (eSet p'.1 p'.2.1 p'.2.2) :=
  fun p _ p' _ h => Rect.part_disjoint hdivE fun e => h (Prod.ext (erow_inj e).1 (Prod.ext (erow_inj e).2.1 (erow_inj e).2.2))
omit [FloatOps F] in
theorem eSets_cover : (Finset.univ : Finset (Fin 2 × Fin 16 × Fin 2)).biUnion (fun p => eSet p.1 p.2.1 p.2.2) = Finset.univ :=
  Finset.eq_univ_iff_forall.mpr fun i => by
    obtain ⟨j, hj⟩ := Rect.exists_mem_part hdivE i
    obtain ⟨c, s, k, rfl⟩ := erow_surj j
    exact Finset.mem_biUnion.mpr ⟨(c, s, k), Finset.mem_univ _, hj⟩

omit [FloatOps F] in
/-- The result held whole is its thirty-two row pairs, SparseCore by SparseCore and task by task. -/
theorem oPts_parts (d : Dev nD) (q : PosShare TreeShare) (f : Buf (Elt F) (oLoc d)) :
    (oLoc d ↦{q} f : sProp 𝕄) = bigSep Finset.univ fun c : Fin 2 => bigSep Finset.univ fun s : Fin 16 => oLoc d ↦[oSet c s]{q} f := by
  rw [← bigSep_univ_prod (fun p : Fin 2 × Fin 16 => (oLoc d ↦[oSet p.1 p.2]{q} f : sProp 𝕄)),
    ← pointsTo_biUnion Finset.univ (ℓ := oLoc d) (fun p : Fin 2 × Fin 16 => oSet p.1 p.2) oSets_disjoint, oSets_cover]
omit [FloatOps F] in
/-- The table held whole is its sixty-four rows, SparseCore by SparseCore, task by task and row by row of the task's two. -/
theorem ePts_parts (d : Dev nD) (q : PosShare TreeShare) (f : Buf (Elt F) (eLoc d)) :
    (eLoc d ↦{q} f : sProp 𝕄)
      = bigSep Finset.univ fun c : Fin 2 => bigSep Finset.univ fun s : Fin 16 => bigSep Finset.univ fun k : Fin 2 => eLoc d ↦[eSet c s k]{q} f := by
  rw [show (bigSep Finset.univ fun c : Fin 2 => bigSep Finset.univ fun s : Fin 16 => bigSep Finset.univ fun k : Fin 2 => (eLoc d ↦[eSet c s k]{q} f : sProp 𝕄))
      = bigSep Finset.univ fun c : Fin 2 => bigSep Finset.univ fun p : Fin 16 × Fin 2 => (eLoc d ↦[eSet c p.1 p.2]{q} f : sProp 𝕄) from
    bigSep_congr fun c _ => (bigSep_univ_prod (fun p : Fin 16 × Fin 2 => (eLoc d ↦[eSet c p.1 p.2]{q} f : sProp 𝕄))).symm,
    ← bigSep_univ_prod (fun p : Fin 2 × Fin 16 × Fin 2 => (eLoc d ↦[eSet p.1 p.2.1 p.2.2]{q} f : sProp 𝕄)),
    ← pointsTo_biUnion Finset.univ (ℓ := eLoc d) (fun p : Fin 2 × Fin 16 × Fin 2 => eSet p.1 p.2.1 p.2.2) eSets_disjoint, eSets_cover]

/-! ## The read shares of the index array -/

/-- SparseCore `c`'s share of the index array: a half each. -/
def coreShare (c : Fin 2) : PosShare TreeShare := if c = 0 then fullShare.left else fullShare.right
/-- Task `s` of SparseCore `c`'s share: one of sixteen read tokens of the SparseCore's half. -/
abbrev tileShare (c : Fin 2) (s : Fin 16) : PosShare TreeShare := Transfers.shareTok (coreShare c) 16 s

omit [FloatOps F] in
theorem iPts_cores (d : Dev nD) (f : Buf (Elt F) (iLoc d)) :
    (iLoc d ↦{fullShare} f : sProp 𝕄) ⊣⊢ bigSep Finset.univ fun c : Fin 2 => iLoc d ↦{coreShare c} f := by
  rw [bigSep_univ_two]
  exact pointsTo_share (PosShare.mem_left_op_right fullShare)

/-! ## What the handshakes carry -/

variable (vI : (d : Dev nD) → Buf (Elt F) (iLoc d)) (vE : (d : Dev nD) → Buf (Elt F) (eLoc d))

/-- A task's two rows of the table. -/
abbrev eRows (d : Dev nD) (c : Fin 2) (s : Fin 16) : sProp 𝕄 := bigSep Finset.univ fun k : Fin 2 => eLoc d ↦[eSet c s k]{fullShare} vE d

/-- What a task is handed: a read share of the index array, its two rows of the table, its two rows of the result. -/
def goT (d : Dev nD) (c : Fin 2) (s : Fin 16) : sProp 𝕄 :=
  iprop((iLoc d ↦{tileShare c s} vI d) ∗ eRows vE d c s ∗ ∃ f, oLoc d ↦[oSet c s]{fullShare} f)
/-- What it hands back: the same, its rows of the result at the call's value. -/
def tdT (d : Dev nD) (c : Fin 2) (s : Fin 16) : sProp 𝕄 :=
  iprop((iLoc d ↦{tileShare c s} vI d) ∗ eRows vE d c s ∗ oLoc d ↦[oSet c s]{fullShare} res vI vE d)
/-- What a SparseCore is handed: its half share of the index array, its tasks' rows of the table and of the result. -/
def stC (d : Dev nD) (c : Fin 2) : sProp 𝕄 :=
  iprop((iLoc d ↦{coreShare c} vI d) ∗ (bigSep Finset.univ fun s : Fin 16 => eRows vE d c s) ∗ bigSep Finset.univ fun s : Fin 16 => iprop(∃ f, oLoc d ↦[oSet c s]{fullShare} f))
def dnC (d : Dev nD) (c : Fin 2) : sProp 𝕄 :=
  iprop((iLoc d ↦{coreShare c} vI d) ∗ (bigSep Finset.univ fun s : Fin 16 => eRows vE d c s) ∗ bigSep Finset.univ fun s : Fin 16 => oLoc d ↦[oSet c s]{fullShare} res vI vE d)

/-- The call's payloads; the kernel's proof consumes nothing of the launch's ghost state. -/
def P : (K (F := F)).Pay (nD := nD) (Val := Elt F) (Name := ℕ) (U := UU) where
  st := fun q d c => match q with | 0 => stC vI vE d c
  dn := fun q d c => match q with | 0 => dnC vI vE d c
  go := fun q d c s => match q with | 0 => goT vI vE d c s
  td := fun q d c s => match q with | 0 => tdT vI vE d c s
  x := fun _ _ => iprop(emp)

theorem P_st (d : Dev nD) (c : Fin ((K (F := F)).nCore 0)) : (P vI vE).st 0 d c = stC vI vE d c := rfl
theorem P_dn (d : Dev nD) (c : Fin ((K (F := F)).nCore 0)) : (P vI vE).dn 0 d c = dnC vI vE d c := rfl
theorem P_go (d : Dev nD) (c : Fin ((K (F := F)).nCore 0)) (s : Fin ((K (F := F)).nSub 0)) : (P vI vE).go 0 d c s = goT vI vE d c s := rfl
theorem P_td (d : Dev nD) (c : Fin ((K (F := F)).nCore 0)) (s : Fin ((K (F := F)).nSub 0)) : (P vI vE).td 0 d c s = tdT vI vE d c s := rfl
theorem P_x (q : Fin 1) (thr : Thread nD τ) : (P vI vE).x q thr = iprop(emp) := rfl

instance P_storable : (P (F := F) vI vE).IsStorable where
  st q d c := match q with | 0 => by rw [P_st]; unfold stC; infer_instance
  dn q d c := match q with | 0 => by rw [P_dn]; unfold dnC; infer_instance
  go q d c s := match q with | 0 => by rw [P_go]; unfold goT; infer_instance
  td q d c s := match q with | 0 => by rw [P_td]; unfold tdT; infer_instance

/-! ## The call's operands split among the SparseCores and their tasks, and the result gathered back -/

/-- What @main hands the call, split between the two SparseCores. -/
theorem st_of (d : Dev nD) :
    iprop((iLoc d ↦{fullShare} vI d) ∗ (eLoc d ↦{fullShare} vE d) ∗ ∃ f, oLoc d ↦{fullShare} f)
      ⊢ bigSep Finset.univ fun c : Fin ((K (F := F)).nCore 0) => (P vI vE).st 0 d c := by
  show _ ⊢ bigSep (Finset.univ : Finset (Fin 2)) fun c => stC vI vE d c
  unfold stC
  rw [bigSep_sep', bigSep_sep']
  iintro ⟨Hi, He, %f, Ho⟩
  isplitl [Hi]; · iapply (iPts_cores d (vI d)).1; iexact Hi
  isplitl [He]; · iapply (Entails.of_eq (ePts_parts d fullShare (vE d))); iexact He
  have hone : ∀ (c : Fin 2) (s : Fin 16), (oLoc d ↦[oSet c s]{fullShare} f : sProp 𝕄) ⊢ iprop(∃ f, oLoc d ↦[oSet c s]{fullShare} f) :=
    fun c s => by iintro H; iexists f; iexact H
  have hmono : (bigSep Finset.univ fun c : Fin 2 => bigSep Finset.univ fun s : Fin 16 => (oLoc d ↦[oSet c s]{fullShare} f : sProp 𝕄))
      ⊢ bigSep Finset.univ fun c : Fin 2 => bigSep Finset.univ fun s : Fin 16 => iprop(∃ f, oLoc d ↦[oSet c s]{fullShare} f) :=
    bigSep_mono fun c _ => bigSep_mono fun s _ => hone c s
  iapply hmono
  iapply (Entails.of_eq (oPts_parts d fullShare f)); iexact Ho

/-- What the two SparseCores hand back, joined: the operands whole again and the result whole at the call's value. -/
theorem dn_to (d : Dev nD) :
    (bigSep Finset.univ fun c : Fin ((K (F := F)).nCore 0) => (P vI vE).dn 0 d c)
      ⊢ iprop((iLoc d ↦{fullShare} vI d) ∗ (eLoc d ↦{fullShare} vE d) ∗ oLoc d ↦{fullShare} res vI vE d) := by
  show (bigSep (Finset.univ : Finset (Fin 2)) fun c => dnC vI vE d c) ⊢ _
  unfold dnC
  rw [bigSep_sep', bigSep_sep']
  iintro ⟨Hi, He, Ho⟩
  isplitl [Hi]; · iapply (iPts_cores d (vI d)).2; iexact Hi
  isplitl [He]; · iapply (Entails.of_eq (ePts_parts d fullShare (vE d)).symm); iexact He
  iapply (Entails.of_eq (oPts_parts d fullShare (res vI vE d)).symm); iexact Ho

/-- A SparseCore's operands split among its sixteen tasks (the index array by read tokens, the remainder of the
    SparseCore's share kept aside meanwhile), and their results gathered. -/
theorem vecSplit : (K (F := F)).VecSplit' (P vI vE) 0 := by
  intro d c
  show stC vI vE d c ⊢ |={Set.univ}=> iprop((bigSep (Finset.univ : Finset (Fin 16)) fun s => goT vI vE d c s)
    ∗ ((bigSep (Finset.univ : Finset (Fin 16)) fun s => tdT vI vE d c s) -∗ dnC vI vE d c))
  unfold stC dnC goT tdT
  rw [bigSep_sep', bigSep_sep', bigSep_sep', bigSep_sep']
  iintro ⟨Hi, He, Ho⟩
  ihave Hi' := (Transfers.pointsTo_toks_split (coreShare c) 16) $$ Hi
  icases Hi' with ⟨Hrem, Htoks⟩
  imodintro
  isplitl [Htoks He Ho]
  · isplitl [Htoks]; · iexact Htoks
    isplitl [He]; · iexact He
    iexact Ho
  iintro ⟨Htoks, He, Ho⟩
  isplitl [Hrem Htoks]
  · iapply (Transfers.pointsTo_toks_join (coreShare c) 16)
    isplitl [Hrem]; · iexact Hrem
    iexact Htoks
  isplitl [He]; · iexact He
  iexact Ho

end Cert.Kernel.ScCall
end
-- ==== Proof.W.Run.lean ====
/-
  The whole program's run from the two kernels' records: the vector-subcore call's payloads are the ones stated with
  the call, the index words it gathers at are in range by the precondition (a transpose only re-indexes them), and what
  remains open here is named as two hypotheses — the task's obligation and the TensorCore region's line.
-/
import proofs.«204125_g1194000908950_cont_fleet_528_33_alg».proof.Proof.W.Main
import proofs.«204125_g1194000908950_cont_fleet_528_33_alg».proof.Proof.W.ScPay
import proofs.«204125_g1194000908950_cont_fleet_528_33_alg».proof.Proof.PreIdx
import proofs.«204125_g1194000908950_cont_fleet_528_33_alg».proof.Proof.Gen.Pre_input_domain

noncomputable section

namespace Cert.Kernel.Run

open Cert.Kernel Cert.Kernel.Gen Cert.Kernel.Common Cert.Kernel.Main

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (m : (ℓ : Loc nD τ sig) → Buf (Elt F) ℓ) (ρ : Dev nD → PrngReg)

/-- The precondition, as a statement about the launch memory at any float instance. -/
def PreOK : Prop := ∀ c : Dev nD,
  Cert.Pre_input_domain.fn (F := F) (m (locOf c main_arg0)) (m (locOf c main_arg1)) (m (locOf c main_arg2)) (m (locOf c main_arg3)) = (fun _ => 1#1)

/-- Every index word the first kernel gathers at names a column of the table: the transposed index array holds the
    argument's words. -/
theorem hin_vI (hpre : PreOK m) : ∀ d i, (vI m d i).toNat < 100000 :=
  fun d _ => (Cert.Pre_input_domain.idx_of_pre (F := F) _ _ _ _ (hpre d) _).1

theorem run_of [∀ e, Nonempty (Elt F e)]
    (htile : (K (F := F)).TileObl (D (F := F)) 𝒱 (ScCall.P (vI m) (vE m)) v₀ 0)
    (hregion : ∀ (d : Dev nD) (W : Waits sig (HIx 1)) (Φ : PUnit → sProp 𝕄),
      iprop((iprop(boundary (SparseCore.T d) ∗ RPOST m d W) -∗ Φ ⟨⟩) ∗ boundary (SparseCore.T d) ∗ RPRE m d W
          ∗ levAts (K (F := F)).L (K (F := F)).lev ∗ G d)
        ⊢ wp frame (wpE ((K (F := F)).defs (Pipeline.defs pcfgs defs₀)) 𝒱₀.lift (SparseCore.T d) none) Set.univ
            (Prog.lift (.customCall (SparseCore.inner (Pipeline.entry (0 : Fin 1))) ())) Φ) :
    θ_run (Cert.Kernel.defs (F := F)) (Cert.Kernel.threads (F := F)) ⟨m, fun _ => 0, ρ⟩ (QC m) :=
  run_main m ρ (ScCall.P (vI m) (vE m)) (fun _ _ => rfl) rfl (fun d => ScCall.st_of (vI m) (vE m) d) (fun d => ScCall.dn_to (vI m) (vE m) d)
    htile (ScCall.vecSplit (vI m) (vE m)) hregion

end Cert.Kernel.Run

end
-- ==== Proof.W.ScVal.lean ====
/-
  Two readings the vector-subcore kernel's proof uses, with no program run in them.

  The averaged look-ups at an index, on index words inside the table: the twenty table entries added from the left,
  written out, times the scale. And a row of the transposed table read through the kernel's own view of it — the
  one-row slice at the row a subcore's place and the row's number name, its leading unit axis dropped — is that row.
-/
import proofs.«204125_g1194000908950_cont_fleet_528_33_alg».proof.Proof.W.Common

noncomputable section

namespace Cert.Kernel.ScCall

open Cert.Kernel Cert.Kernel.Gen Idealize.ShloMosaic Idealize.ShloMosaic.ValueIdx

variable {F : FTy → Type} [FloatOps F]

/-- The sum of twenty terms, from the left. -/
def sum20 (g : Fin 20 → F .f32) : F .f32 :=
  FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (g 0) (g 1)) (g 2)) (g 3)) (g 4)) (g 5)) (g 6)) (g 7)) (g 8)) (g 9)) (g 10)) (g 11)) (g 12)) (g 13)) (g 14)) (g 15)) (g 16)) (g 17)) (g 18)) (g 19)

/-- The fold over the nineteen later positions from the first term is that sum. -/
theorem foldl_eq_sum20 (g : Fin 20 → F .f32) :
    (List.finRange 19).foldl (fun acc t => FloatOps.addf acc (g ⟨t.val + 1, by omega⟩)) (g ⟨0, by decide⟩) = sum20 g := by
  have hl : List.finRange 19 = [0, 1, 2, 3, 4, 5, 6, 7, 8, 9, 10, 11, 12, 13, 14, 15, 16, 17, 18] := by decide
  rw [hl]
  rfl

/-- The averaged look-ups at an index, on index words inside the table. -/
theorem avgT_apply (sc : F .f32) (idxT : IVec Cert.Spec.SIdxT 32) (et : FVec F Cert.Spec.SEt .f32)
    (hin : ∀ i, (idxT i).toNat < 100000) (row : Fin 64) (b : Fin 1024) :
    Cert.Spec.avgT sc idxT et (ix2 row b)
      = FloatOps.mulf (sum20 fun t => et (ix2 row ⟨(idxT (ix2 t b)).toNat, hin (ix2 t b)⟩)) sc := by
  have hrow : ∀ t : Fin 20, Cert.Spec.rowAt et row (idxT (ix2 t b)) = et (ix2 row ⟨(idxT (ix2 t b)).toNat, hin (ix2 t b)⟩) :=
    fun t => dif_pos (hin (ix2 t b))
  show FloatOps.mulf (Cert.Spec.sumCtx idxT et row b) sc = _
  refine congrArg (fun s => FloatOps.mulf s sc) ?_
  unfold Cert.Spec.sumCtx
  simp only [hrow]
  exact foldl_eq_sum20 fun t => et (ix2 row ⟨(idxT (ix2 t b)).toNat, hin (ix2 t b)⟩)

/-- A one-row slice of a two-axis array at row `row`, its leading unit axis dropped, reads that row. -/
theorem row_read {sig : RefSig} {κ : Kind} {sp : Space} {n m : ℕ} {Val : EltTy → Type} {e : EltTy}
    (M : Memref sig κ sp ⟨2, ![n, m]⟩ e) (off : Fin 2 → ℕ) (row : Fin n) (h : off = ![row.val, 0])
    (inb : ∀ a, off a + (⟨2, ![1, m]⟩ : Shape).size a ≤ (⟨2, ![n, m]⟩ : Shape).size a) (hr)
    (hq : (⟨2, ![1, m]⟩ : Shape).Squeezes ⟨1, ![m]⟩) (f : M.view.ty.Contents Val) (x : Fin m) :
    ((M.slice (Rect.unit (s := ⟨2, ![n, m]⟩) off (⟨2, ![1, m]⟩ : Shape).size inb) hr).squeeze ⟨1, ![m]⟩ hq).view.read Val f (ix1 x)
      = M.view.read Val f (ix2 row x) := by
  subst h
  have h1 : ((M.slice (Rect.unit (s := ⟨2, ![n, m]⟩) ![row.val, 0] (⟨2, ![1, m]⟩ : Shape).size inb) hr).squeeze ⟨1, ![m]⟩ hq).view.read Val f (ix1 x)
      = M.view.read Val f ((Rect.unit (s := ⟨2, ![n, m]⟩) ![row.val, 0] (⟨2, ![1, m]⟩ : Shape).size inb).emb
          (Shape.reshapeEquiv hq.numel_eq (ix1 x))) := rfl
  rw [h1, Shape.reshapeEquiv_cons_one]
  congr 1
  funext a
  apply Fin.ext
  rw [Rect.emb_apply]
  match a with
  | ⟨0, _⟩ => show row.val + 1 * 0 = row.val; omega
  | ⟨1, _⟩ => show 0 + 1 * x.val = x.val; omega

/-- A subcore's place and a row's number name one of the sixty-four rows. -/
theorem row_lt (L : grid0.Coords) (r : Fin 2) : 4 * (L 1).val + 2 * (L 0).val + r.val < 64 := by
  have h1 : (L 1).val < 16 := (L 1).isLt
  have h0 : (L 0).val < 2 := (L 0).isLt
  have := r.isLt
  omega

/-- The kernel's view of row `r` of a subcore's two rows of the transposed table reads that row of the table. -/
theorem eRow_read (L : grid0.Coords) (r : Fin 2) (f : FVec F S64x100000 .f32) (x : Fin 100000) :
    ((((Memref.whole main_v1_scv : Memref sig .scVector .hbm S64x100000 .f32).slice
        (Rect.unit (s := S64x100000) (k0_off1 L (BitVec.ofNat 32 r.val)) S1x100000.size (k0_off1_inb L r)) (fun _ => rfl)).squeeze
        S100000 squeezes_S1x100000_S100000).view.read (Elt F) f) (ix1 x)
      = f (ix2 (⟨4 * (L 1).val + 2 * (L 0).val + r.val, row_lt L r⟩ : Fin 64) x) :=
  (row_read (Val := Elt F) (Memref.whole main_v1_scv : Memref sig .scVector .hbm S64x100000 .f32)
    (k0_off1 L (BitVec.ofNat 32 r.val)) ⟨4 * (L 1).val + 2 * (L 0).val + r.val, row_lt L r⟩ (k0_off1_eq L r) (k0_off1_inb L r)
    (fun _ => rfl) squeezes_S1x100000_S100000 f x).trans rfl

end Cert.Kernel.ScCall

end
-- ==== Proof.W.ScTile.lean ====
/-
  The vector-subcore task of the SparseCore call, at any place `(c, s)` of its grid. Vector subcore number `2 s + c` copies the whole
  transposed index array into its index scratch; then, for each of its two rows `2 (2 s + c) + r` of the transposed table,
  copies the row into its row scratch and, in sixty-four trips of sixteen columns each, loads the sixteen index words of
  each of the twenty context positions, gathers the row scratch at them, adds the twenty gathered vectors from the left,
  multiplies by the scale and stores the sixteen lanes into row `r` of its result scratch; finally it copies the result
  scratch out to rows `2 (2 s + c)`, `2 (2 s + c) + 1` of the result.

  The index words are below the table's width (the hypothesis `hin`), so every check of a gather's indices passes.
  Each loop's invariant carries the VALUE: before trip `k` the result scratch's row holds, at the columns below `16 k`,
  the scaled left-to-right sum of the row scratch at the column's twenty index words (`laneVal`); a trip's store is read
  back entry by entry (`acc_write`). After both loops the scratch, read through the task's view of its two result rows,
  is the call's value there (`lane_res`: the averaged look-ups written out, the fetched row read through the task's
  one-row view), so the rows go back holding the ONE whole-array function.
-/
import proofs.«204125_g1194000908950_cont_fleet_528_33_alg».proof.Proof.W.ScPay
import proofs.«204125_g1194000908950_cont_fleet_528_33_alg».proof.Proof.W.ScVal
import Idealize.ShloMosaic.Lib.ValueLayout
import Idealize.ShloMosaic.Lib.Transfers
import Idealize.ShloMosaic.Lib.Writes

noncomputable section

namespace Cert.Kernel.ScCall

open Cert.Kernel Cert.Kernel.Gen Cert.Kernel.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
open Idealize.ShloMosaic.ValueIdx

local notation "𝕄" => MM F

/-- What a trip leaves at column `b` of the result scratch: the row scratch read at the twenty index words of column `b`,
    summed from the left, times the scale. -/
def laneVal (fI : IVec S20x1024 32) (fR : FVec F S100000 .f32) (hI : ∀ i, (fI i).toNat < 100000) (b : Fin 1024) : F .f32 :=
  FloatOps.mulf (sum20 fun t => fR (ix1 (⟨(fI (ix2 t b)).toNat, hI _⟩ : Fin 100000))) (scale (F := F))

/-! ## The task's thread, memrefs and cells -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

abbrev iV : Memref sig .scVector .hbm S20x1024 .i32 := Memref.whole main_v0_scv
abbrev eV : Memref sig .scVector .hbm S64x100000 .f32 := Memref.whole main_v1_scv
abbrev oV : Memref sig .scVector .hbm S64x1024 .f32 := Memref.whole main_v2_scv
/-- A task's scratch: the fetched table row, the fetched index array, the two result rows. -/
abbrev rowV : Memref sig .scVector .vmem S100000 .f32 := Memref.whole cc0_scratch0
abbrev idxV : Memref sig .scVector .vmem S20x1024 .i32 := Memref.whole cc0_scratch1
abbrev accV : Memref sig .scVector .vmem S2x1024 .f32 := Memref.whole cc0_scratch2

/-- Row `2 (2 s + c) + r` of the table as the task slices it. -/
abbrev eRowK (L : grid0.Coords) (r : Fin 2) : Memref sig .scVector .hbm S100000 .f32 :=
  ((eV : Memref sig .scVector .hbm S64x100000 .f32).slice (Rect.unit (s := S64x100000) (k0_off1 L (BitVec.ofNat 32 r.val)) S1x100000.size (k0_off1_inb L r)) (fun _ => rfl)).squeeze S100000 squeezes_S1x100000_S100000
/-- The task's two rows of the result as it slices them. -/
abbrev oRowK (L : grid0.Coords) : Memref sig .scVector .hbm S2x1024 .f32 :=
  (oV : Memref sig .scVector .hbm S64x1024 .f32).slice (Rect.unit (s := S64x1024) (k0_off44 L) S2x1024.size (k0_off44_inb L)) (fun _ => rfl)

abbrev cell3 (d : Dev nD) (c : Fin τ.nSC) (i : Fin τ.nSub) : GSem nD τ sig := (V d c i, .dma cc0_scratch3.sem)
abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)

/-- One store of sixteen lanes into the result scratch, read back at any entry: the lane under the store, else what
    was there. -/
theorem acc_write (f : FVec F S2x1024 .f32) (off : Fin 2 → ℕ) (r' : Fin 2) (k : ℕ) (hk : k < 64) (hoff : off = ![r'.val, 16 * k])
    (inb : ∀ a, off a + S1x16.size a ≤ S2x1024.size a) (w : S1x16.Idx → F .f32) (a : Fin 2) (b : Fin 1024) :
    (accV : Memref sig .scVector .vmem S2x1024 .f32).view.writes (Elt F) f [⟨Rect.unit (s := S2x1024) off S1x16.size inb, w⟩] (ix2 a b)
      = if h : a = r' ∧ 16 * k ≤ b.val ∧ b.val < 16 * k + 16 then w (ix2 (0 : Fin 1) ⟨b.val - 16 * k, by omega⟩) else f (ix2 a b) := by
  subst hoff
  split
  · next h =>
    obtain ⟨rfl, h1, h2⟩ := h
    have e : ix2 a b = (Rect.unit (s := S2x1024) ![a.val, 16 * k] S1x16.size inb).emb (ix2 (0 : Fin 1) ⟨b.val - 16 * k, by omega⟩) := by
      funext i
      match i with
      | 0 => exact Fin.ext (by simp [ix2])
      | 1 => exact Fin.ext (by simp [ix2]; omega)
    rw [e]
    exact View.read_writes_cons_emb (Val := Elt F) (v := (accV : Memref sig .scVector .vmem S2x1024 .f32).view) f
      (Rect.unit (s := S2x1024) ![a.val, 16 * k] S1x16.size inb) w [] (ix2 (0 : Fin 1) ⟨b.val - 16 * k, by omega⟩)
  · next h =>
    refine View.read_writes_apply_of_forall_not_mem (Val := Elt F) (v := (accV : Memref sig .scVector .vmem S2x1024 .f32).view) f (ix2 a b)
      [⟨Rect.unit (s := S2x1024) ![r'.val, 16 * k] S1x16.size inb, w⟩] ?_
    intro p hp
    rw [List.mem_singleton] at hp; subst hp
    rw [Rect.mem_set_unit]
    intro hm
    have h0 := hm 0
    have h1 := hm 1
    simp [ix2] at h0 h1
    exact h ⟨Fin.ext (by omega), by omega, by omega⟩

/-- A gather of the row scratch at the sixteen index words of context position `t`, columns `16 k ‥ 16 k + 15`, read at
    lane `x`: the row scratch at the word of column `16 k + x`. -/
theorem gather_word (fI : IVec S20x1024 32) (fR : FVec F S100000 .f32) (hI : ∀ i, (fI i).toNat < 100000)
    (off : Fin 2 → ℕ) (t : Fin 20) (k : ℕ) (hk : k < 64) (hoff : off = ![t.val, 16 * k])
    (inb : ∀ a, off a + S1x16.size a ≤ S20x1024.size a)
    (h : ∀ a x, ((![shapeCast S16 ((idxV : Memref sig .scVector .vmem S20x1024 .i32).view.readAt (Elt F) (Rect.unit (s := S20x1024) off S1x16.size inb).toLoadRect fI) shapeCasts_S1x16_S16] : Fin 1 → IVec S16 32) a x).toNat < S100000.size a)
    (x : Fin 16) :
    loadIdx (View.read (Elt F) ((rowV : Memref sig .scVector .vmem S100000 .f32).access (Rect.whole S100000)) fR)
        ![shapeCast S16 ((idxV : Memref sig .scVector .vmem S20x1024 .i32).view.readAt (Elt F) (Rect.unit (s := S20x1024) off S1x16.size inb).toLoadRect fI) shapeCasts_S1x16_S16] h (ix1 x)
      = fR (ix1 (⟨(fI (ix2 t ⟨16 * k + x.val, by have := x.isLt; omega⟩)).toNat, hI _⟩ : Fin 100000)) := by
  subst hoff
  have hw : shapeCast S16 ((idxV : Memref sig .scVector .vmem S20x1024 .i32).view.readAt (Elt F) (Rect.unit (s := S20x1024) ![t.val, 16 * k] S1x16.size inb).toLoadRect fI) shapeCasts_S1x16_S16 (ix1 x)
      = fI (ix2 t ⟨16 * k + x.val, by have := x.isLt; omega⟩) := by
    rw [shapeCast_1a_a_apply]
    show fI ((Rect.unit (s := S20x1024) ![t.val, 16 * k] S1x16.size inb).toLoadRect.idx (ix2 (0 : Fin 1) x)) = _
    congr 1
    funext i
    match i with
    | 0 => exact Fin.ext (by simp [ix2])
    | 1 => exact Fin.ext (by simp [ix2])
  rw [show View.read (Elt F) ((rowV : Memref sig .scVector .vmem S100000 .f32).access (Rect.whole S100000)) fR = fR from
    Memref.read_access_whole (Elt F) cc0_scratch0 fR]
  show fR (idxAt _ h (ix1 x)) = _
  congr 1
  funext a
  obtain rfl : a = 0 := Subsingleton.elim _ _
  refine Fin.ext ?_
  have hw' := congrArg (fun v : BitVec 32 => v.toNat) hw
  exact hw'

/-! ## What the loops have done before trip `k` -/

/-- Before trip `k` of the first loop: row 0 of the result scratch holds the lane values at the columns below `16 k`. -/
def Done1 (fI : IVec S20x1024 32) (fR0 : FVec F S100000 .f32) (hI : ∀ i, (fI i).toNat < 100000) (k : ℕ) (f : FVec F S2x1024 .f32) : Prop :=
  ∀ b : Fin 1024, b.val < 16 * k → f (ix2 (0 : Fin 2) b) = laneVal fI fR0 hI b
/-- Before trip `k` of the second loop: row 0 whole, row 1 at the columns below `16 k`. -/
def Done2 (fI : IVec S20x1024 32) (fR0 fR1 : FVec F S100000 .f32) (hI : ∀ i, (fI i).toNat < 100000) (k : ℕ) (f : FVec F S2x1024 .f32) : Prop :=
  (∀ b : Fin 1024, f (ix2 (0 : Fin 2) b) = laneVal fI fR0 hI b) ∧ ∀ b : Fin 1024, b.val < 16 * k → f (ix2 (1 : Fin 2) b) = laneVal fI fR1 hI b

theorem done1_step (fI : IVec S20x1024 32) (fR0 : FVec F S100000 .f32) (hI : ∀ i, (fI i).toNat < 100000)
    (k : Fin k0_t1_loop.trips) (f : FVec F S2x1024 .f32) (w : S1x16.Idx → F .f32) (hD : Done1 fI fR0 hI k.val f)
    (hw : ∀ x : Fin 16, w (ix2 (0 : Fin 1) x) = laneVal fI fR0 hI ⟨16 * k.val + x.val, by have := k.isLt; have := x.isLt; have := k0_t1_abs.2.1; omega⟩) :
    Done1 fI fR0 hI (k.val + 1) ((accV : Memref sig .scVector .vmem S2x1024 .f32).view.writes (Elt F) f [⟨Rect.unit (s := S2x1024) (k0_off22 k) S1x16.size (k0_off22_inb k), w⟩]) := by
  have hk : k.val < 64 := lt_of_lt_of_le k.isLt k0_t1_abs.2.1
  intro b hb
  rw [acc_write f (k0_off22 k) 0 k.val hk (k0_off22_eq k) (k0_off22_inb k) w 0 b]
  split
  · next h =>
    rw [hw ⟨b.val - 16 * k.val, by omega⟩]
    congr 1
    exact Fin.ext (by show 16 * k.val + (b.val - 16 * k.val) = b.val; omega)
  · next h =>
    exact hD b (by have : ¬(16 * k.val ≤ b.val ∧ b.val < 16 * k.val + 16) := fun h' => h ⟨rfl, h'⟩; omega)

theorem done2_step (fI : IVec S20x1024 32) (fR0 fR1 : FVec F S100000 .f32) (hI : ∀ i, (fI i).toNat < 100000)
    (k : Fin k0_t2_loop.trips) (f : FVec F S2x1024 .f32) (w : S1x16.Idx → F .f32) (hD : Done2 fI fR0 fR1 hI k.val f)
    (hw : ∀ x : Fin 16, w (ix2 (0 : Fin 1) x) = laneVal fI fR1 hI ⟨16 * k.val + x.val, by have := k.isLt; have := x.isLt; have := k0_t2_abs.2.1; omega⟩) :
    Done2 fI fR0 fR1 hI (k.val + 1) ((accV : Memref sig .scVector .vmem S2x1024 .f32).view.writes (Elt F) f [⟨Rect.unit (s := S2x1024) (k0_off43 k) S1x16.size (k0_off43_inb k), w⟩]) := by
  have hk : k.val < 64 := lt_of_lt_of_le k.isLt k0_t2_abs.2.1
  refine ⟨fun b => ?_, fun b hb => ?_⟩
  · rw [acc_write f (k0_off43 k) 1 k.val hk (k0_off43_eq k) (k0_off43_inb k) w 0 b, dif_neg (fun h => absurd h.1 (by decide))]
    exact hD.1 b
  · rw [acc_write f (k0_off43 k) 1 k.val hk (k0_off43_eq k) (k0_off43_inb k) w 1 b]
    split
    · next h =>
      rw [hw ⟨b.val - 16 * k.val, by omega⟩]
      congr 1
      exact Fin.ext (by show 16 * k.val + (b.val - 16 * k.val) = b.val; omega)
    · next h =>
      exact hD.2 b (by have : ¬(16 * k.val ≤ b.val ∧ b.val < 16 * k.val + 16) := fun h' => h ⟨rfl, h'⟩; omega)

section Tile

variable (d : Dev nD) (L : grid0.Coords)

omit [FloatOps F] in
theorem ownSems0_V :
    (ownSems0 (V d (cV L) (jV L)) : sProp 𝕄)
      = iprop(semVal (cell3 d (cV L) (jV L)) 0 ∗ semVal (cell0 d (cV L) (jV L)) 0 ∗ semVal (cell1 d (cV L) (jV L)) 0
          ∗ bigSep ((((ownCells (V d (cV L) (jV L))).erase (cell3 d (cV L) (jV L))).erase (cell0 d (cV L) (jV L))).erase (cell1 d (cV L) (jV L)))
              fun g => semVal g 0) := by
  unfold SparseCore.Cfg.ownSems0
  rw [SparseCore.bigSep_erase' ((mem_ownCells (g := cell3 d (cV L) (jV L))).mpr ⟨rfl, by
      show (SemLoc.dma cc0_scratch3.sem : SemLoc sig).isScoped .scVector = true; decide⟩),
    SparseCore.bigSep_erase' (Finset.mem_erase.mpr ⟨by simp [cell3, cell0]; decide, (mem_ownCells (g := cell0 d (cV L) (jV L))).mpr ⟨rfl, by
      show (SemLoc.dma cc0_scoped0.sem : SemLoc sig).isScoped .scVector = true; decide⟩⟩),
    SparseCore.bigSep_erase' (Finset.mem_erase.mpr ⟨by simp [cell0, cell1]; decide, Finset.mem_erase.mpr ⟨by simp [cell3, cell1]; decide,
      (mem_ownCells (g := cell1 d (cV L) (jV L))).mpr ⟨rfl, by show (SemLoc.dma cc0_scoped1.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
theorem rectE_eq (r : Fin 2) : Rect.unit (s := S64x100000) (k0_off1 L (BitVec.ofNat 32 r.val)) S1x100000.size (k0_off1_inb L r)
    = Rect.part (s := S64x100000) (a₀ := 0) hdivE (erow (cL L) (sL L) r) := by
  unfold Rect.part Rect.block
  congr 1 <;> funext a
  · rw [k0_off1_eq]
    match a with
    | 0 => simp [Shape.partIx, Shape.partSize, erow]; omega
    | 1 => simp [Shape.partIx, Shape.partSize]
  · match a with
    | 0 => simp [Shape.partSize]
    | 1 => simp [Shape.partSize]
omit [FloatOps F] in
theorem rectO_eq : Rect.unit (s := S64x1024) (k0_off44 L) S2x1024.size (k0_off44_inb L)
    = Rect.part (s := S64x1024) (a₀ := 0) hdivO (wid (cL L) (sL L)) := by
  unfold Rect.part Rect.block
  congr 1 <;> funext a
  · rw [k0_off44_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_eRowK (r : Fin 2) : (eRowK L r).view.set = eSet (cL L) (sL L) r := by
  show (((View.whole (main_v1_scv : Ref sig .scVector)).slice (Rect.unit (s := S64x100000) (k0_off1 L (BitVec.ofNat 32 r.val)) S1x100000.size (k0_off1_inb L r))).reshape S100000 squeezes_S1x100000_S100000.numel_eq).set = _
  rw [View.set_reshape, View.set_slice]
  exact Finset.map_refl.trans (congrArg (fun R : Rect S64x100000 => R.set) (rectE_eq L r))
omit [FloatOps F] in
theorem set_oRowK : (oRowK L).view.set = oSet (cL L) (sL L) := by
  show ((View.whole (main_v2_scv : Ref sig .scVector)).slice (Rect.unit (s := S64x1024) (k0_off44 L) S2x1024.size (k0_off44_inb L))).set = _
  rw [View.set_slice]
  exact Finset.map_refl.trans (congrArg (fun R : Rect S64x1024 => R.set) (rectO_eq L))

omit [FloatOps F] in
theorem pts_eRowK (r : Fin 2) (q : PosShare TreeShare) (f : Buf (Elt F) (eLoc d)) :
    ((eRowK L r).view.loc (V d (cV L) (jV L)) ↦[(eRowK L r).view.set]{q} f : sProp 𝕄) = eLoc d ↦[eSet (cL L) (sL L) r]{q} f := by
  rw [set_eRowK]
omit [FloatOps F] in
theorem pts_oRowK (q : PosShare TreeShare) (f : Buf (Elt F) (oLoc d)) :
    ((oRowK L).view.loc (V d (cV L) (jV L)) ↦[(oRowK L).view.set]{q} f : sProp 𝕄) = oLoc d ↦[oSet (cL L) (sL L)]{q} f := by
  rw [set_oRowK]
omit [FloatOps F] in
theorem pts_iV (q : PosShare TreeShare) (f : Buf (Elt F) (iLoc d)) :
    ((iV : Memref sig .scVector .hbm S20x1024 .i32).view.loc (V d (cV L) (jV L)) ↦{q} f : sProp 𝕄) = iLoc d ↦{q} f := rfl
omit [FloatOps F] in
theorem pts_rowV (f : Buf (Elt F) ((V d (cV L) (jV L)).loc cc0_scratch0)) :
    ((rowV : Memref sig .scVector .vmem S100000 .f32).view.loc (V d (cV L) (jV L)) ↦{fullShare} f : sProp 𝕄) = (V d (cV L) (jV L)).loc cc0_scratch0 ↦{fullShare} f := rfl
omit [FloatOps F] in
theorem pts_idxV (f : Buf (Elt F) ((V d (cV L) (jV L)).loc cc0_scratch1)) :
    ((idxV : Memref sig .scVector .vmem S20x1024 .i32).view.loc (V d (cV L) (jV L)) ↦{fullShare} f : sProp 𝕄) = (V d (cV L) (jV L)).loc cc0_scratch1 ↦{fullShare} f := rfl
omit [FloatOps F] in
theorem pts_accV (f : Buf (Elt F) ((V d (cV L) (jV L)).loc cc0_scratch2)) :
    ((accV : Memref sig .scVector .vmem S2x1024 .f32).view.loc (V d (cV L) (jV L)) ↦{fullShare} f : sProp 𝕄) = (V d (cV L) (jV L)).loc cc0_scratch2 ↦{fullShare} f := rfl
omit [FloatOps F] in
theorem pts_rowV_access (f : Buf (Elt F) ((V d (cV L) (jV L)).loc cc0_scratch0)) :
    (((rowV : Memref sig .scVector .vmem S100000 .f32).access (.whole S100000)).loc (V d (cV L) (jV L)) ↦{fullShare} f : sProp 𝕄) = (V d (cV L) (jV L)).loc cc0_scratch0 ↦{fullShare} f := rfl

variable (vI : (d : Dev nD) → Buf (Elt F) (iLoc d)) (vE : (d : Dev nD) → Buf (Elt F) (eLoc d))

/-- The thread of the task at grid point `L` of device `d`. -/
abbrev thr : Thread nD τ := V d (cV L) (jV L)

theorem hin_thr (hin : ∀ d i, (vI d i).toNat < 100000) : ∀ i : S20x1024.Idx, ((vI d : IVec S20x1024 32) i).toNat < 100000 := fun i => hin d i

/-- What the first loop holds before trip `k`: the index scratch and the row scratch at fixed contents, the result scratch at some. -/
def inv1 (fI : Buf (Elt F) ((thr d L).loc cc0_scratch1)) (fR : Buf (Elt F) ((thr d L).loc cc0_scratch0))
    (Done : ℕ → Buf (Elt F) ((thr d L).loc cc0_scratch2) → Prop) (k : Nat) (_ : PUnit) : sProp 𝕄 :=
  iprop(((idxV : Memref sig .scVector .vmem S20x1024 .i32).view.loc (thr d L) ↦{fullShare} fI)
    ∗ (((rowV : Memref sig .scVector .vmem S100000 .f32).access (.whole S100000)).loc (thr d L) ↦{fullShare} fR)
    ∗ ∃ f, ((accV : Memref sig .scVector .vmem S2x1024 .f32).view.loc (thr d L) ↦{fullShare} f) ∗ ⌜Done k f⌝)

set_option hygiene false in
/-- One gather of the row scratch at the index words just loaded, then the run on to the next one. -/
local macro "gather_step" : tactic => `(tactic| (
  iapply (SparseCore.wp_vectorLoadIdx 𝒱₀ (thr d L) none Set.univ (base := (rowV : Memref sig .scVector .vmem S100000 .f32)) (S := Finset.univ) (q := fullShare) (Finset.subset_univ _)) $$ Hrow
  iintro Hrow
  sl_exec (disch := (intro a x; obtain rfl : a = 0 := Subsingleton.elim _ _; exact hI _))))

set_option maxHeartbeats 8000000 in
/-- Loop 1's region at trip `k`: twenty index loads, checks and gathers, summed from the left and scaled, stored into the
    result scratch's row 0 at columns `16 k ‥ 16 k + 15`; the invariant's fact about the result scratch goes from `k` to
    `k + 1` by `hstep`. -/
theorem region1 (fI : Buf (Elt F) ((thr d L).loc cc0_scratch1)) (fR : Buf (Elt F) ((thr d L).loc cc0_scratch0))
    (hI : ∀ i, (fI i).toNat < 100000) (Done : ℕ → Buf (Elt F) ((thr d L).loc cc0_scratch2) → Prop)
    (hstep : ∀ (k : Fin k0_t1_loop.trips) (f : Buf (Elt F) ((thr d L).loc cc0_scratch2)) (w : S1x16.Idx → F .f32), Done k.val f →
      (∀ x : Fin 16, w (ix2 (0 : Fin 1) x) = laneVal fI fR hI ⟨16 * k.val + x.val, by have := k.isLt; have := x.isLt; have := (k0_t1_abs).2.1; omega⟩) →
      Done (k.val + 1) ((accV : Memref sig .scVector .vmem S2x1024 .f32).view.writes (Elt F) f [⟨Rect.unit (s := S2x1024) (k0_off22 k) S1x16.size (k0_off22_inb k), w⟩]))
    (k : Fin k0_t1_loop.trips) (acc : Unit) :
    inv1 d L fI fR Done k.val acc
      ⊢ wp frame (wpE (defs₀ (F := F)) 𝒱₀ (thr d L) none) Set.univ
          (k0_t1_body L iV (Memref.isWhole_whole _) eV (Memref.isWhole_whole _) oV (Memref.isWhole_whole _)
            rowV (Memref.isWhole_whole _) idxV (Memref.isWhole_whole _) accV (Memref.isWhole_whole _) cc0_scratch3 cc0_scoped0 cc0_scoped1 k acc)
          (inv1 d L fI fR Done (k.val + 1)) := by
  unfold inv1 k0_t1_body
  iintro ⟨Hidx, Hrow, %f, Hacc, %hD⟩
  sl_exec (disch := (intro a x; obtain rfl : a = 0 := Subsingleton.elim _ _; exact hI _))
  gather_step; gather_step; gather_step; gather_step; gather_step
  gather_step; gather_step; gather_step; gather_step; gather_step
  gather_step; gather_step; gather_step; gather_step; gather_step
  gather_step; gather_step; gather_step; gather_step; gather_step
  sl_step
  isplitl [Hidx]; · iexact Hidx
  isplitl [Hrow]; · iexact Hrow
  iexists _
  isplitl [Hacc]; · iexact Hacc
  ipureintro
  refine hstep k f _ hD fun x => ?_
  have hk : k.val < 64 := lt_of_lt_of_le k.isLt (k0_t1_abs).2.1
  sl_unfold_run_names
  rw [shapeCast_a_1a_apply]
  simp only [k0_pay1, k0_pay2, k0_pay5, laneVal, sum20, Idealize.ShloMosaic.mulf, Idealize.ShloMosaic.addf, broadcast]
  rw [gather_word fI fR hI _ 0 k.val hk (k0_off2_eq k),
    gather_word fI fR hI _ 1 k.val hk (k0_off3_eq k),
    gather_word fI fR hI _ 2 k.val hk (k0_off4_eq k),
    gather_word fI fR hI _ 3 k.val hk (k0_off5_eq k),
    gather_word fI fR hI _ 4 k.val hk (k0_off6_eq k),
    gather_word fI fR hI _ 5 k.val hk (k0_off7_eq k),
    gather_word fI fR hI _ 6 k.val hk (k0_off8_eq k),
    gather_word fI fR hI _ 7 k.val hk (k0_off9_eq k),
    gather_word fI fR hI _ 8 k.val hk (k0_off10_eq k),
    gather_word fI fR hI _ 9 k.val hk (k0_off11_eq k),
    gather_word fI fR hI _ 10 k.val hk (k0_off12_eq k),
    gather_word fI fR hI _ 11 k.val hk (k0_off13_eq k),
    gather_word fI fR hI _ 12 k.val hk (k0_off14_eq k),
    gather_word fI fR hI _ 13 k.val hk (k0_off15_eq k),
    gather_word fI fR hI _ 14 k.val hk (k0_off16_eq k),
    gather_word fI fR hI _ 15 k.val hk (k0_off17_eq k),
    gather_word fI fR hI _ 16 k.val hk (k0_off18_eq k),
    gather_word fI fR hI _ 17 k.val hk (k0_off19_eq k),
    gather_word fI fR hI _ 18 k.val hk (k0_off20_eq k),
    gather_word fI fR hI _ 19 k.val hk (k0_off21_eq k)]

set_option maxHeartbeats 8000000 in
/-- Loop 2's region at trip `k`: twenty index loads, checks and gathers, summed from the left and scaled, stored into the
    result scratch's row 1 at columns `16 k ‥ 16 k + 15`; the invariant's fact about the result scratch goes from `k` to
    `k + 1` by `hstep`. -/
theorem region2 (fI : Buf (Elt F) ((thr d L).loc cc0_scratch1)) (fR : Buf (Elt F) ((thr d L).loc cc0_scratch0))
    (hI : ∀ i, (fI i).toNat < 100000) (Done : ℕ → Buf (Elt F) ((thr d L).loc cc0_scratch2) → Prop)
    (hstep : ∀ (k : Fin k0_t2_loop.trips) (f : Buf (Elt F) ((thr d L).loc cc0_scratch2)) (w : S1x16.Idx → F .f32), Done k.val f →
      (∀ x : Fin 16, w (ix2 (0 : Fin 1) x) = laneVal fI fR hI ⟨16 * k.val + x.val, by have := k.isLt; have := x.isLt; have := (k0_t2_abs).2.1; omega⟩) →
      Done (k.val + 1) ((accV : Memref sig .scVector .vmem S2x1024 .f32).view.writes (Elt F) f [⟨Rect.unit (s := S2x1024) (k0_off43 k) S1x16.size (k0_off43_inb k), w⟩]))
    (k : Fin k0_t2_loop.trips) (acc : Unit) :
    inv1 d L fI fR Done k.val acc
      ⊢ wp frame (wpE (defs₀ (F := F)) 𝒱₀ (thr d L) none) Set.univ
          (k0_t2_body L iV (Memref.isWhole_whole _) eV (Memref.isWhole_whole _) oV (Memref.isWhole_whole _)
            rowV (Memref.isWhole_whole _) idxV (Memref.isWhole_whole _) accV (Memref.isWhole_whole _) cc0_scratch3 cc0_scoped0 cc0_scoped1 k acc)
          (inv1 d L fI fR Done (k.val + 1)) := by
  unfold inv1 k0_t2_body
  iintro ⟨Hidx, Hrow, %f, Hacc, %hD⟩
  sl_exec (disch := (intro a x; obtain rfl : a = 0 := Subsingleton.elim _ _; exact hI _))
  gather_step; gather_step; gather_step; gather_step; gather_step
  gather_step; gather_step; gather_step; gather_step; gather_step
  gather_step; gather_step; gather_step; gather_step; gather_step
  gather_step; gather_step; gather_step; gather_step; gather_step
  sl_step
  isplitl [Hidx]; · iexact Hidx
  isplitl [Hrow]; · iexact Hrow
  iexists _
  isplitl [Hacc]; · iexact Hacc
  ipureintro
  refine hstep k f _ hD fun x => ?_
  have hk : k.val < 64 := lt_of_lt_of_le k.isLt (k0_t2_abs).2.1
  sl_unfold_run_names
  rw [shapeCast_a_1a_apply]
  simp only [k0_pay3, k0_pay4, k0_pay6, laneVal, sum20, Idealize.ShloMosaic.mulf, Idealize.ShloMosaic.addf, broadcast]
  rw [gather_word fI fR hI _ 0 k.val hk (k0_off23_eq k),
    gather_word fI fR hI _ 1 k.val hk (k0_off24_eq k),
    gather_word fI fR hI _ 2 k.val hk (k0_off25_eq k),
    gather_word fI fR hI _ 3 k.val hk (k0_off26_eq k),
    gather_word fI fR hI _ 4 k.val hk (k0_off27_eq k),
    gather_word fI fR hI _ 5 k.val hk (k0_off28_eq k),
    gather_word fI fR hI _ 6 k.val hk (k0_off29_eq k),
    gather_word fI fR hI _ 7 k.val hk (k0_off30_eq k),
    gather_word fI fR hI _ 8 k.val hk (k0_off31_eq k),
    gather_word fI fR hI _ 9 k.val hk (k0_off32_eq k),
    gather_word fI fR hI _ 10 k.val hk (k0_off33_eq k),
    gather_word fI fR hI _ 11 k.val hk (k0_off34_eq k),
    gather_word fI fR hI _ 12 k.val hk (k0_off35_eq k),
    gather_word fI fR hI _ 13 k.val hk (k0_off36_eq k),
    gather_word fI fR hI _ 14 k.val hk (k0_off37_eq k),
    gather_word fI fR hI _ 15 k.val hk (k0_off38_eq k),
    gather_word fI fR hI _ 16 k.val hk (k0_off39_eq k),
    gather_word fI fR hI _ 17 k.val hk (k0_off40_eq k),
    gather_word fI fR hI _ 18 k.val hk (k0_off41_eq k),
    gather_word fI fR hI _ 19 k.val hk (k0_off42_eq k)]

/-- The lane value over the fetched index array and the fetched row `2 (2 s + c) + r` of the table is the call's value
    at that row. -/
theorem lane_res (hin : ∀ d i, (vI d i).toNat < 100000) (r : Fin 2) (b : Fin 1024) :
    laneVal (vI d) ((eRowK L r).view.read (Elt F) (vE d)) (hin_thr d vI hin) b
      = res vI vE d (ix2 (⟨4 * (L 1).val + 2 * (L 0).val + r.val, row_lt L r⟩ : Fin 64) b) := by
  unfold laneVal res
  rw [avgT_apply (scale (F := F)) (vI d) (vE d) (hin_thr d vI hin) _ b]
  refine congrArg (fun z => FloatOps.mulf z (scale (F := F))) (congrArg sum20 (funext fun t => ?_))
  exact eRow_read L r (vE d) _

omit [FloatOps F] in
/-- Where the task's view of its two result rows puts entry `(a, b)`. -/
theorem oRowK_emb (a : Fin 2) (b : Fin 1024) :
    (oRowK L).view.emb (ix2 a b) = ix2 (⟨4 * (L 1).val + 2 * (L 0).val + a.val, row_lt L a⟩ : Fin 64) b := by
  show (Rect.unit (s := S64x1024) (k0_off44 L) S2x1024.size (k0_off44_inb L)).emb (ix2 a b) = _
  funext i
  match i with
  | 0 => exact Fin.ext (by simp [ix2, k0_off44_eq])
  | 1 => exact Fin.ext (by simp [ix2, k0_off44_eq])

omit [FloatOps F] in
/-- A view's elements after one write of the whole view's shape are the view's elements of any contents that read as
    the payload through the view. -/
theorem pts_writes_whole_congr {sp : Space} {s : Shape} {e : EltTy} (c : Thread nD τ) (v : View sig c.2.kind sp s e) (q : PosShare TreeShare)
    (f g : Buf (Elt F) (v.loc c)) (X : s.Idx → Elt F e) (h : ∀ j, v.read (Elt F) g j = X j) :
    (v.loc c ↦[v.set]{q} v.writes (Elt F) f [⟨Rect.whole s, X⟩] : sProp 𝕄) = v.loc c ↦[v.set]{q} g :=
  pointsTo_congr fun i hi => by
    obtain ⟨j, -, rfl⟩ := Finset.mem_map.mp hi
    have h1 := View.read_writes_cons_emb (Val := Elt F) (v := v) f (Rect.whole s) X [] j
    rw [Rect.emb_whole_apply] at h1
    have h2 := h j
    rw [View.read_apply] at h1 h2
    have key : ∀ {α β : Type} (hh : α = β) (a b : α), cast hh a = cast hh b → a = b := by
      intro α β hh a b hab; subst hh; exact hab
    exact key _ _ _ (h1.trans h2.symm)

/-- The call's value, read through the task's view of its two result rows, is the result scratch after both loops. -/
theorem out_rows (hin : ∀ d i, (vI d i).toNat < 100000) (f2 : FVec F S2x1024 .f32)
    (hD2 : Done2 (vI d) ((eRowK L 0).view.read (Elt F) (vE d)) ((eRowK L 1).view.read (Elt F) (vE d)) (hin_thr d vI hin) 64 f2)
    (X : S2x1024.Idx → F .f32) (hX : X = f2) :
    ∀ j, (oRowK L).view.read (Elt F) (res vI vE d) j = X j := by
  subst hX
  intro j
  obtain ⟨a, b, rfl⟩ : ∃ (a : Fin 2) (b : Fin 1024), j = ix2 a b := ⟨j 0, j 1, ValueIdx.eq_ix2 j⟩
  show res vI vE d ((oRowK L).view.emb (ix2 a b)) = X (ix2 a b)
  rw [oRowK_emb]
  have h01 : a = (0 : Fin 2) ∨ a = (1 : Fin 2) := by
    have := a.isLt
    rcases Nat.lt_or_ge a.val 1 with h | h
    · exact .inl (Fin.ext (by show a.val = 0; omega))
    · exact .inr (Fin.ext (by show a.val = 1; omega))
  rcases h01 with rfl | rfl
  · rw [hD2.1 b]; exact (lane_res d L vI vE hin 0 b).symm
  · rw [hD2.2 b (by have := b.isLt; omega)]; exact (lane_res d L vI vE hin 1 b).symm

set_option pp.maxSteps 20000 in
set_option pp.deepTerms false in
set_option maxHeartbeats 8000000 in
theorem tile_body (hF : (K (F := F)).Facts) (hin : ∀ d i, (vI d i).toNat < 100000) (O : CellTallies nD τ sig (HIx 1)) (W : Waits sig (HIx 1)) (hO : ∀ g, O g none = 0) :
    iprop(levAts (K (F := F)).L (K (F := F)).lev ∗ emp ∗ goT vI vE d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_mean_t L iV (Memref.isWhole_whole _) eV (Memref.isWhole_whole _) oV (Memref.isWhole_whole _)
            rowV (Memref.isWhole_whole _) idxV (Memref.isWhole_whole _) accV (Memref.isWhole_whole _) cc0_scratch3 cc0_scoped0 cc0_scoped1)
          fun _ => iprop(tdT vI vE d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_mean_t_eq_skeleton]; unfold cc0_gather_mean_t_skel
  rw [(K (F := F)).scopedBufs_V hF d (cV L) (jV L), SparseCore.Cfg.scopedSems0_V (Val := Elt F) d (cV L) (jV L), ownSems0_V, ownBufs_V]
  unfold goT
  iintro ⟨#Hlv, -, ⟨Hi, He, %fo, Ho⟩, ⟨⟨%frow, Hrow⟩, ⟨%fidx, Hidx⟩, ⟨%facc, Hacc⟩, Hbufs⟩, ⟨Hs3, Hs0, Hs1, Hsems⟩, HO⟩
  ihave Hmw := ((K (F := F)).mayWaits_none (thr := V d (cV L) (jV L)) hO) $$ Hlv
  ihave He' := (Entails.of_eq (bigSep_univ_two (fun k : Fin 2 => (eLoc d ↦[eSet (cL L) (sL L) k]{fullShare} vE d : sProp 𝕄)))) $$ He
  icases He' with ⟨He0, He1⟩
  ihave He0' := (Entails.of_eq (pts_eRowK (F := F) d L 0 fullShare _).symm) $$ He0
  ihave He1' := (Entails.of_eq (pts_eRowK (F := F) d L 1 fullShare _).symm) $$ He1
  ihave Ho' := (Entails.of_eq (pts_oRowK (F := F) d L fullShare _).symm) $$ Ho
  ihave Hi' := (Entails.of_eq (pts_iV (F := F) d L _ _).symm) $$ Hi
  ihave Hrow' := (Entails.of_eq (pts_rowV (F := F) d L _).symm) $$ Hrow
  ihave Hidx' := (Entails.of_eq (pts_idxV (F := F) d L _).symm) $$ Hidx
  ihave Hacc' := (Entails.of_eq (pts_accV (F := F) d L _).symm) $$ Hacc
  -- the index array and row `2 (2 s + c)` of the table fetched
  sl_exec
  have hfI : View.write (Elt F) (idxV : Memref sig .scVector .vmem S20x1024 .i32).view fidx (tile_body.sl.dma0 d vI) Finset.univ = vI d := by
    sl_unfold_run_names
    exact View.write_whole_univ _ _ _
  have hfR0 : View.write (Elt F) (rowV : Memref sig .scVector .vmem S100000 .f32).view frow (tile_body.sl.dma0_1 d L vE) Finset.univ
      = (eRowK L 0).view.read (Elt F) (vE d) := by
    sl_unfold_run_names
    exact View.write_whole_univ _ _ _
  rw [hfI, hfR0]
  ihave Hrow'' := (Entails.of_eq ((pts_rowV (F := F) d L _).trans (pts_rowV_access (F := F) d L _).symm)) $$ Hrow'
  sl_for (inv1 d L (vI d) ((eRowK L 0).view.read (Elt F) (vE d)) (Done1 (vI d) ((eRowK L 0).view.read (Elt F) (vE d)) (hin_thr d vI hin))) $$ [Hidx' Hrow'' Hacc']
  case region =>
    exact region1 d L (vI d) ((eRowK L 0).view.read (Elt F) (vE d)) (hin_thr d vI hin) _
      (fun k f w hD hw => done1_step (vI d) _ (hin_thr d vI hin) k f w hD hw)
  · unfold inv1
    isplitl [Hidx']; · iexact Hidx'
    isplitl [Hrow'']; · iexact Hrow''
    iexists _
    isplitl [Hacc']; · iexact Hacc'
    ipureintro
    intro b hb
    exact absurd hb (by omega)
  iintro %acc1 HI
  unfold inv1
  icases HI with ⟨Hidx, Hrow, %f1, Hacc, %hD1⟩
  ihave Hrow' := (Entails.of_eq ((pts_rowV_access (F := F) d L _).trans (pts_rowV (F := F) d L _).symm)) $$ Hrow
  -- row `2 (2 s + c) + 1` of the table fetched
  sl_exec
  have hfR1 : View.write (Elt F) (rowV : Memref sig .scVector .vmem S100000 .f32).view ((eRowK L 0).view.read (Elt F) (vE d)) (tile_body.sl.dma0_2 d L vE) Finset.univ
      = (eRowK L 1).view.read (Elt F) (vE d) := by
    sl_unfold_run_names
    exact View.write_whole_univ _ _ _
  rw [hfR1]
  ihave Hrow'' := (Entails.of_eq ((pts_rowV (F := F) d L _).trans (pts_rowV_access (F := F) d L _).symm)) $$ Hrow'
  have ht1 : Scf.trips k0_t1_loop.lb k0_t1_loop.ub k0_t1_loop.st = 64 := by decide
  rw [ht1] at hD1
  sl_for (inv1 d L (vI d) ((eRowK L 1).view.read (Elt F) (vE d))
    (Done2 (vI d) ((eRowK L 0).view.read (Elt F) (vE d)) ((eRowK L 1).view.read (Elt F) (vE d)) (hin_thr d vI hin))) $$ [Hidx Hrow'' Hacc]
  case region =>
    exact region2 d L (vI d) ((eRowK L 1).view.read (Elt F) (vE d)) (hin_thr d vI hin) _
      (fun k f w hD hw => done2_step (vI d) _ _ (hin_thr d vI hin) k f w hD hw)
  · unfold inv1
    isplitl [Hidx]; · iexact Hidx
    isplitl [Hrow'']; · iexact Hrow''
    iexists _
    isplitl [Hacc]; · iexact Hacc
    ipureintro
    exact ⟨fun b => hD1 b (by have := b.isLt; omega), fun b hb => absurd hb (by omega)⟩
  iintro %acc2 HI
  unfold inv1
  icases HI with ⟨Hidx, Hrow, %f2, Hacc, %hD2⟩
  have ht2 : Scf.trips k0_t2_loop.lb k0_t2_loop.ub k0_t2_loop.st = 64 := by decide
  rw [ht2] at hD2
  -- the two result rows written out
  sl_exec
  have hX : tile_body.sl.dma0_3 d L f2 = f2 := by
    sl_unfold_run_names
    rfl
  ihave Ho2 := (Entails.of_eq (pts_writes_whole_congr (F := F) (V d (cV L) (jV L)) (oRowK L).view fullShare fo (res vI vE d) _ (out_rows d L vI vE hin f2 hD2 _ hX))) $$ Ho'
  sl_step
  unfold tdT
  isplitl [Hi' He0' He1' Ho2]
  · isplitl [Hi']; · iapply (Entails.of_eq (pts_iV (F := F) d L _ _)); iexact Hi'
    isplitl [He0' He1']
    · iapply (Entails.of_eq (bigSep_univ_two (fun k : Fin 2 => (eLoc d ↦[eSet (cL L) (sL L) k]{fullShare} vE d : sProp 𝕄))).symm)
      isplitl [He0']
      · iapply (Entails.of_eq (pts_eRowK (F := F) d L 0 fullShare _)); iexact He0'
      · iapply (Entails.of_eq (pts_eRowK (F := F) d L 1 fullShare _)); iexact He1'
    · iapply (Entails.of_eq (pts_oRowK (F := F) d L fullShare _)); iexact Ho2
  isplitl [Hidx Hrow Hacc Hbufs]
  · isplitl [Hrow]; · iexists _; iapply (Entails.of_eq (pts_rowV_access (F := F) d L _)); iexact Hrow
    isplitl [Hidx]; · iexists _; iapply (Entails.of_eq (pts_idxV (F := F) d L _)); iexact Hidx
    isplitl [Hacc]; · iexists _; iapply (Entails.of_eq (pts_accV (F := F) d L _)); iexact Hacc
    iexact Hbufs
  isplitl [Hs3 Hs0 Hs1 Hsems]
  · isplitl [Hs3]; · iexact Hs3
    isplitl [Hs0]; · iexact Hs0
    isplitl [Hs1]; · iexact Hs1
    iexact Hsems
  iexists (insert (SemLoc.dma cc0_scoped1.sem, (default : HIx 1)) (insert (SemLoc.dma cc0_scratch3.sem, (default : HIx 1))
    (insert (SemLoc.dma cc0_scratch3.sem, (default : HIx 1)) (insert (SemLoc.dma cc0_scoped0.sem, (default : HIx 1)) W)))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

/-! ## The launch theorem's obligation for the task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_mean_t (coordsV c s)
          iV (Memref.isWhole_whole _) eV (Memref.isWhole_whole _) oV (Memref.isWhole_whole _)
          rowV (Memref.isWhole_whole _) idxV (Memref.isWhole_whole _) accV (Memref.isWhole_whole _) cc0_scratch3 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (vI : (d : Dev nD) → Buf (Elt F) (iLoc d)) (vE : (d : Dev nD) → Buf (Elt F) (eLoc d))

/-- Every task of the call, at any place of the grid: from its operands to its results, its rows of the result at the
    call's value. -/
theorem tileObl (hin : ∀ d i, (vI d i).toNat < 100000) : (K (F := F)).TileObl (D (F := F)) 𝒱 (P vI vE) v₀ 0 := by
  intro d c i O W hO _ _
  -- this kernel owes nothing for a protocol of its own
  simp only [show (P vI vE).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) vI vE facts hin O W hO).trans (wp_mono frame _ _ fun _ => obl_post)

end Cert.Kernel.ScCall
end
-- ==== Proof.W.RegionViews.lean ====
/-
  The views the TensorCore kernel's body moves data through, as the body itself spells them, and their geometry in
  closed form. The body at grid point i works on slot i mod 2 of its scratch [2, 3072, 1024]: it stores a whole tile
  there and copies it out to the result's rows 3072 i ‥ in six chunks of 512 rows, chunk r on semaphore (i mod 2, r).
  Each chunk's source, destination and semaphore appears in the body twice, once where the copy is started and once
  (two points later) where it is waited for, through different offset functions with the same closed form: here
  both spellings are named, the semaphores are computed, the chunks' element sets are brought to one rectangle per
  (slot, chunk), and a slot is shown to be the disjoint union of its six chunks.
-/
import proofs.«204125_g1194000908950_cont_fleet_528_33_alg».proof.Proof.W.Common
import Idealize.ShloMosaic.Lib.Transfers
import Idealize.ShloMosaic.Lib.Writes
import Idealize.ShloMosaic.Lib.Pipeline.FrameBody
import Idealize.ShloMosaic.Lib.Tactic

noncomputable section

namespace Cert.Kernel.Region

open Cert.Kernel Cert.Kernel.Gen Cert.Kernel.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

/-! ## The views the body moves through, as the body spells them -/

abbrev V4 : Memref sig .tc .hbm S100000x1024 .f32 := Memref.whole main_v4
abbrev SCR : Memref sig .tc .vmem S2x3072x1024 .f32 := Memref.whole cc1_scratch0
abbrev thr (c : Dev nD) : Thread nD τ := (c.tc : Thread nD τ)

abbrev semW0 (i : grid1.Coords) (h : k1_cond1 i = 1#1) : DmaSem sig := ((cc1_scratch1.slice (Rect.unit (s := S2x6) (k1_off1 i) S1x1.size (k1_off1_inb i h))).squeeze S_ squeezes_S1x1_S_).sem
abbrev srcW0 (i : grid1.Coords) (h : k1_cond1 i = 1#1) : Memref sig .tc .vmem S512x1024 .f32 := (SCR.slice (Rect.unit (s := S2x3072x1024) (k1_off3 i) S1x512x1024.size (k1_off3_inb i h)) (fun _ => rfl)).squeeze S512x1024 squeezes_S1x512x1024_S512x1024
abbrev dstW0 (i : grid1.Coords) (h : k1_cond1 i = 1#1) : Memref sig .tc .hbm S512x1024 .f32 := V4.slice (Rect.unit (s := S100000x1024) (k1_off2 i 0#32) S512x1024.size (k1_off2_inb i h 0)) (fun _ => rfl)
abbrev semI0 (i : grid1.Coords) (h : k1_cond2 i = 1#1) : DmaSem sig := ((cc1_scratch1.slice (Rect.unit (s := S2x6) (k1_off15 i) S1x1.size (k1_off15_inb i h))).squeeze S_ squeezes_S1x1_S_).sem
abbrev srcI0 (i : grid1.Coords) (h : k1_cond2 i = 1#1) : Memref sig .tc .vmem S512x1024 .f32 := (SCR.slice (Rect.unit (s := S2x3072x1024) (k1_off17 i) S1x512x1024.size (k1_off17_inb i h)) (fun _ => rfl)).squeeze S512x1024 squeezes_S1x512x1024_S512x1024
abbrev dstI0 (i : grid1.Coords) (h : k1_cond2 i = 1#1) : Memref sig .tc .hbm S512x1024 .f32 := V4.slice (Rect.unit (s := S100000x1024) (k1_off16 i 0#32) S512x1024.size (k1_off16_inb i h 0)) (fun _ => rfl)
abbrev semW1 (i : grid1.Coords) (h : k1_cond1 i = 1#1) : DmaSem sig := ((cc1_scratch1.slice (Rect.unit (s := S2x6) (k1_off4 i) S1x1.size (k1_off4_inb i h))).squeeze S_ squeezes_S1x1_S_).sem
abbrev srcW1 (i : grid1.Coords) (h : k1_cond1 i = 1#1) : Memref sig .tc .vmem S512x1024 .f32 := (SCR.slice (Rect.unit (s := S2x3072x1024) (k1_off5 i) S1x512x1024.size (k1_off5_inb i h)) (fun _ => rfl)).squeeze S512x1024 squeezes_S1x512x1024_S512x1024
abbrev dstW1 (i : grid1.Coords) (h : k1_cond1 i = 1#1) : Memref sig .tc .hbm S512x1024 .f32 := V4.slice (Rect.unit (s := S100000x1024) (k1_off2 i 512#32) S512x1024.size (k1_off2_inb i h 1)) (fun _ => rfl)
abbrev semI1 (i : grid1.Coords) (h : k1_cond2 i = 1#1) : DmaSem sig := ((cc1_scratch1.slice (Rect.unit (s := S2x6) (k1_off18 i) S1x1.size (k1_off18_inb i h))).squeeze S_ squeezes_S1x1_S_).sem
abbrev srcI1 (i : grid1.Coords) (h : k1_cond2 i = 1#1) : Memref sig .tc .vmem S512x1024 .f32 := (SCR.slice (Rect.unit (s := S2x3072x1024) (k1_off19 i) S1x512x1024.size (k1_off19_inb i h)) (fun _ => rfl)).squeeze S512x1024 squeezes_S1x512x1024_S512x1024
abbrev dstI1 (i : grid1.Coords) (h : k1_cond2 i = 1#1) : Memref sig .tc .hbm S512x1024 .f32 := V4.slice (Rect.unit (s := S100000x1024) (k1_off16 i 512#32) S512x1024.size (k1_off16_inb i h 1)) (fun _ => rfl)
abbrev semW2 (i : grid1.Coords) (h : k1_cond1 i = 1#1) : DmaSem sig := ((cc1_scratch1.slice (Rect.unit (s := S2x6) (k1_off6 i) S1x1.size (k1_off6_inb i h))).squeeze S_ squeezes_S1x1_S_).sem
abbrev srcW2 (i : grid1.Coords) (h : k1_cond1 i = 1#1) : Memref sig .tc .vmem S512x1024 .f32 := (SCR.slice (Rect.unit (s := S2x3072x1024) (k1_off7 i) S1x512x1024.size (k1_off7_inb i h)) (fun _ => rfl)).squeeze S512x1024 squeezes_S1x512x1024_S512x1024
abbrev dstW2 (i : grid1.Coords) (h : k1_cond1 i = 1#1) : Memref sig .tc .hbm S512x1024 .f32 := V4.slice (Rect.unit (s := S100000x1024) (k1_off2 i 1024#32) S512x1024.size (k1_off2_inb i h 2)) (fun _ => rfl)
abbrev semI2 (i : grid1.Coords) (h : k1_cond2 i = 1#1) : DmaSem sig := ((cc1_scratch1.slice (Rect.unit (s := S2x6) (k1_off20 i) S1x1.size (k1_off20_inb i h))).squeeze S_ squeezes_S1x1_S_).sem
abbrev srcI2 (i : grid1.Coords) (h : k1_cond2 i = 1#1) : Memref sig .tc .vmem S512x1024 .f32 := (SCR.slice (Rect.unit (s := S2x3072x1024) (k1_off21 i) S1x512x1024.size (k1_off21_inb i h)) (fun _ => rfl)).squeeze S512x1024 squeezes_S1x512x1024_S512x1024
abbrev dstI2 (i : grid1.Coords) (h : k1_cond2 i = 1#1) : Memref sig .tc .hbm S512x1024 .f32 := V4.slice (Rect.unit (s := S100000x1024) (k1_off16 i 1024#32) S512x1024.size (k1_off16_inb i h 2)) (fun _ => rfl)
abbrev semW3 (i : grid1.Coords) (h : k1_cond1 i = 1#1) : DmaSem sig := ((cc1_scratch1.slice (Rect.unit (s := S2x6) (k1_off8 i) S1x1.size (k1_off8_inb i h))).squeeze S_ squeezes_S1x1_S_).sem
abbrev srcW3 (i : grid1.Coords) (h : k1_cond1 i = 1#1) : Memref sig .tc .vmem S512x1024 .f32 := (SCR.slice (Rect.unit (s := S2x3072x1024) (k1_off9 i) S1x512x1024.size (k1_off9_inb i h)) (fun _ => rfl)).squeeze S512x1024 squeezes_S1x512x1024_S512x1024
abbrev dstW3 (i : grid1.Coords) (h : k1_cond1 i = 1#1) : Memref sig .tc .hbm S512x1024 .f32 := V4.slice (Rect.unit (s := S100000x1024) (k1_off2 i 1536#32) S512x1024.size (k1_off2_inb i h 3)) (fun _ => rfl)
abbrev semI3 (i : grid1.Coords) (h : k1_cond2 i = 1#1) : DmaSem sig := ((cc1_scratch1.slice (Rect.unit (s := S2x6) (k1_off22 i) S1x1.size (k1_off22_inb i h))).squeeze S_ squeezes_S1x1_S_).sem
abbrev srcI3 (i : grid1.Coords) (h : k1_cond2 i = 1#1) : Memref sig .tc .vmem S512x1024 .f32 := (SCR.slice (Rect.unit (s := S2x3072x1024) (k1_off23 i) S1x512x1024.size (k1_off23_inb i h)) (fun _ => rfl)).squeeze S512x1024 squeezes_S1x512x1024_S512x1024
abbrev dstI3 (i : grid1.Coords) (h : k1_cond2 i = 1#1) : Memref sig .tc .hbm S512x1024 .f32 := V4.slice (Rect.unit (s := S100000x1024) (k1_off16 i 1536#32) S512x1024.size (k1_off16_inb i h 3)) (fun _ => rfl)
abbrev semW4 (i : grid1.Coords) (h : k1_cond1 i = 1#1) : DmaSem sig := ((cc1_scratch1.slice (Rect.unit (s := S2x6) (k1_off10 i) S1x1.size (k1_off10_inb i h))).squeeze S_ squeezes_S1x1_S_).sem
abbrev srcW4 (i : grid1.Coords) (h : k1_cond1 i = 1#1) : Memref sig .tc .vmem S512x1024 .f32 := (SCR.slice (Rect.unit (s := S2x3072x1024) (k1_off11 i) S1x512x1024.size (k1_off11_inb i h)) (fun _ => rfl)).squeeze S512x1024 squeezes_S1x512x1024_S512x1024
abbrev dstW4 (i : grid1.Coords) (h : k1_cond1 i = 1#1) : Memref sig .tc .hbm S512x1024 .f32 := V4.slice (Rect.unit (s := S100000x1024) (k1_off2 i 2048#32) S512x1024.size (k1_off2_inb i h 4)) (fun _ => rfl)
abbrev semI4 (i : grid1.Coords) (h : k1_cond2 i = 1#1) : DmaSem sig := ((cc1_scratch1.slice (Rect.unit (s := S2x6) (k1_off24 i) S1x1.size (k1_off24_inb i h))).squeeze S_ squeezes_S1x1_S_).sem
abbrev srcI4 (i : grid1.Coords) (h : k1_cond2 i = 1#1) : Memref sig .tc .vmem S512x1024 .f32 := (SCR.slice (Rect.unit (s := S2x3072x1024) (k1_off25 i) S1x512x1024.size (k1_off25_inb i h)) (fun _ => rfl)).squeeze S512x1024 squeezes_S1x512x1024_S512x1024
abbrev dstI4 (i : grid1.Coords) (h : k1_cond2 i = 1#1) : Memref sig .tc .hbm S512x1024 .f32 := V4.slice (Rect.unit (s := S100000x1024) (k1_off16 i 2048#32) S512x1024.size (k1_off16_inb i h 4)) (fun _ => rfl)
abbrev semW5 (i : grid1.Coords) (h : k1_cond1 i = 1#1) : DmaSem sig := ((cc1_scratch1.slice (Rect.unit (s := S2x6) (k1_off12 i) S1x1.size (k1_off12_inb i h))).squeeze S_ squeezes_S1x1_S_).sem
abbrev srcW5 (i : grid1.Coords) (h : k1_cond1 i = 1#1) : Memref sig .tc .vmem S512x1024 .f32 := (SCR.slice (Rect.unit (s := S2x3072x1024) (k1_off13 i) S1x512x1024.size (k1_off13_inb i h)) (fun _ => rfl)).squeeze S512x1024 squeezes_S1x512x1024_S512x1024
abbrev dstW5 (i : grid1.Coords) (h : k1_cond1 i = 1#1) : Memref sig .tc .hbm S512x1024 .f32 := V4.slice (Rect.unit (s := S100000x1024) (k1_off2 i 2560#32) S512x1024.size (k1_off2_inb i h 5)) (fun _ => rfl)
abbrev semI5 (i : grid1.Coords) (h : k1_cond2 i = 1#1) : DmaSem sig := ((cc1_scratch1.slice (Rect.unit (s := S2x6) (k1_off26 i) S1x1.size (k1_off26_inb i h))).squeeze S_ squeezes_S1x1_S_).sem
abbrev srcI5 (i : grid1.Coords) (h : k1_cond2 i = 1#1) : Memref sig .tc .vmem S512x1024 .f32 := (SCR.slice (Rect.unit (s := S2x3072x1024) (k1_off27 i) S1x512x1024.size (k1_off27_inb i h)) (fun _ => rfl)).squeeze S512x1024 squeezes_S1x512x1024_S512x1024
abbrev dstI5 (i : grid1.Coords) (h : k1_cond2 i = 1#1) : Memref sig .tc .hbm S512x1024 .f32 := V4.slice (Rect.unit (s := S100000x1024) (k1_off16 i 2560#32) S512x1024.size (k1_off16_inb i h 5)) (fun _ => rfl)

/-- A memref's elements held by themselves. -/
abbrev own (c : Dev nD) {sp : Space} {S : Shape} {e : EltTy} (M : Memref sig .tc sp S e) (f : Buf (Elt F) (M.view.loc (thr c))) : sProp 𝕄 :=
  M.view.loc (thr c) ↦[M.view.set]{fullShare} f

/-- The rectangle of the scratch the body loads and stores at point `i`: its slot, whole. -/
abbrev slotR (i : grid1.Coords) : Rect S2x3072x1024 := Rect.unit (s := S2x3072x1024) (k1_off14 i) S1x3072x1024.size (k1_off14_inb i)

/-! ## The slot, the semaphores and the chunk rectangles in closed form -/

/-- The scratch slot of a grid point. -/
abbrev sOf (i : grid1.Coords) : Fin 2 := ⟨(i 0).val % 2, Nat.mod_lt _ (by decide)⟩

/-- Semaphore `r` of slot `s`. -/
abbrev semC (s : Fin 2) (r : Fin 6) : DmaSem sig := ⟨8 + 6 * s.val + r.val, by have := s.isLt; have := r.isLt; show _ < 20; omega⟩

theorem chunk_inb : ∀ (s : Fin 2) (r : Fin 6) a, (![s.val, 512 * r.val, 0] : Fin 3 → ℕ) a + S1x512x1024.size a ≤ S2x3072x1024.size a := by decide +kernel
theorem slot_inb : ∀ (s : Fin 2) a, (![s.val, 0, 0] : Fin 3 → ℕ) a + S1x3072x1024.size a ≤ S2x3072x1024.size a := by decide +kernel

/-- Rows `512 r ‥ 512 r + 511` of slot `s` of the scratch. -/
abbrev chunkR (s : Fin 2) (r : Fin 6) : Rect S2x3072x1024 := Rect.unit (s := S2x3072x1024) ![s.val, 512 * r.val, 0] S1x512x1024.size (chunk_inb s r)
/-- Slot `s` of the scratch. -/
abbrev slotC (s : Fin 2) : Rect S2x3072x1024 := Rect.unit (s := S2x3072x1024) ![s.val, 0, 0] S1x3072x1024.size (slot_inb s)

theorem unit_set_congr {s : Shape} {off off' size : Fin s.rank → ℕ} {inb inb'} (h : off = off') :
    (Rect.unit (s := s) off size inb).set = (Rect.unit (s := s) off' size inb').set := by subst h; rfl

theorem semW0_eq : ∀ (i : grid1.Coords) (h : k1_cond1 i = 1#1), semW0 i h = semC (sOf i) 0 := by decide +kernel
theorem semI0_eq : ∀ (i : grid1.Coords) (h : k1_cond2 i = 1#1), semI0 i h = semC (sOf i) 0 := by decide +kernel
theorem srcW0_set (i : grid1.Coords) (h : k1_cond1 i = 1#1) : (srcW0 i h).view.set = (chunkR (sOf i) 0).set := by
  show ((View.whole (cc1_scratch0 : Ref sig .tc)).slice _ |>.reshape _ _).set = _
  rw [View.set_reshape, View.set_slice_whole]; exact unit_set_congr (by rw [k1_off3_eq]; rfl)
theorem srcI0_set (i : grid1.Coords) (h : k1_cond2 i = 1#1) : (srcI0 i h).view.set = (chunkR (sOf i) 0).set := by
  show ((View.whole (cc1_scratch0 : Ref sig .tc)).slice _ |>.reshape _ _).set = _
  rw [View.set_reshape, View.set_slice_whole]; exact unit_set_congr (by rw [k1_off17_eq]; rfl)
theorem semW1_eq : ∀ (i : grid1.Coords) (h : k1_cond1 i = 1#1), semW1 i h = semC (sOf i) 1 := by decide +kernel
theorem semI1_eq : ∀ (i : grid1.Coords) (h : k1_cond2 i = 1#1), semI1 i h = semC (sOf i) 1 := by decide +kernel
theorem srcW1_set (i : grid1.Coords) (h : k1_cond1 i = 1#1) : (srcW1 i h).view.set = (chunkR (sOf i) 1).set := by
  show ((View.whole (cc1_scratch0 : Ref sig .tc)).slice _ |>.reshape _ _).set = _
  rw [View.set_reshape, View.set_slice_whole]; exact unit_set_congr (by rw [k1_off5_eq]; rfl)
theorem srcI1_set (i : grid1.Coords) (h : k1_cond2 i = 1#1) : (srcI1 i h).view.set = (chunkR (sOf i) 1).set := by
  show ((View.whole (cc1_scratch0 : Ref sig .tc)).slice _ |>.reshape _ _).set = _
  rw [View.set_reshape, View.set_slice_whole]; exact unit_set_congr (by rw [k1_off19_eq]; rfl)
theorem semW2_eq : ∀ (i : grid1.Coords) (h : k1_cond1 i = 1#1), semW2 i h = semC (sOf i) 2 := by decide +kernel
theorem semI2_eq : ∀ (i : grid1.Coords) (h : k1_cond2 i = 1#1), semI2 i h = semC (sOf i) 2 := by decide +kernel
theorem srcW2_set (i : grid1.Coords) (h : k1_cond1 i = 1#1) : (srcW2 i h).view.set = (chunkR (sOf i) 2).set := by
  show ((View.whole (cc1_scratch0 : Ref sig .tc)).slice _ |>.reshape _ _).set = _
  rw [View.set_reshape, View.set_slice_whole]; exact unit_set_congr (by rw [k1_off7_eq]; rfl)
theorem srcI2_set (i : grid1.Coords) (h : k1_cond2 i = 1#1) : (srcI2 i h).view.set = (chunkR (sOf i) 2).set := by
  show ((View.whole (cc1_scratch0 : Ref sig .tc)).slice _ |>.reshape _ _).set = _
  rw [View.set_reshape, View.set_slice_whole]; exact unit_set_congr (by rw [k1_off21_eq]; rfl)
theorem semW3_eq : ∀ (i : grid1.Coords) (h : k1_cond1 i = 1#1), semW3 i h = semC (sOf i) 3 := by decide +kernel
theorem semI3_eq : ∀ (i : grid1.Coords) (h : k1_cond2 i = 1#1), semI3 i h = semC (sOf i) 3 := by decide +kernel
theorem srcW3_set (i : grid1.Coords) (h : k1_cond1 i = 1#1) : (srcW3 i h).view.set = (chunkR (sOf i) 3).set := by
  show ((View.whole (cc1_scratch0 : Ref sig .tc)).slice _ |>.reshape _ _).set = _
  rw [View.set_reshape, View.set_slice_whole]; exact unit_set_congr (by rw [k1_off9_eq]; rfl)
theorem srcI3_set (i : grid1.Coords) (h : k1_cond2 i = 1#1) : (srcI3 i h).view.set = (chunkR (sOf i) 3).set := by
  show ((View.whole (cc1_scratch0 : Ref sig .tc)).slice _ |>.reshape _ _).set = _
  rw [View.set_reshape, View.set_slice_whole]; exact unit_set_congr (by rw [k1_off23_eq]; rfl)
theorem semW4_eq : ∀ (i : grid1.Coords) (h : k1_cond1 i = 1#1), semW4 i h = semC (sOf i) 4 := by decide +kernel
theorem semI4_eq : ∀ (i : grid1.Coords) (h : k1_cond2 i = 1#1), semI4 i h = semC (sOf i) 4 := by decide +kernel
theorem srcW4_set (i : grid1.Coords) (h : k1_cond1 i = 1#1) : (srcW4 i h).view.set = (chunkR (sOf i) 4).set := by
  show ((View.whole (cc1_scratch0 : Ref sig .tc)).slice _ |>.reshape _ _).set = _
  rw [View.set_reshape, View.set_slice_whole]; exact unit_set_congr (by rw [k1_off11_eq]; rfl)
theorem srcI4_set (i : grid1.Coords) (h : k1_cond2 i = 1#1) : (srcI4 i h).view.set = (chunkR (sOf i) 4).set := by
  show ((View.whole (cc1_scratch0 : Ref sig .tc)).slice _ |>.reshape _ _).set = _
  rw [View.set_reshape, View.set_slice_whole]; exact unit_set_congr (by rw [k1_off25_eq]; rfl)
theorem semW5_eq : ∀ (i : grid1.Coords) (h : k1_cond1 i = 1#1), semW5 i h = semC (sOf i) 5 := by decide +kernel
theorem semI5_eq : ∀ (i : grid1.Coords) (h : k1_cond2 i = 1#1), semI5 i h = semC (sOf i) 5 := by decide +kernel
theorem srcW5_set (i : grid1.Coords) (h : k1_cond1 i = 1#1) : (srcW5 i h).view.set = (chunkR (sOf i) 5).set := by
  show ((View.whole (cc1_scratch0 : Ref sig .tc)).slice _ |>.reshape _ _).set = _
  rw [View.set_reshape, View.set_slice_whole]; exact unit_set_congr (by rw [k1_off13_eq]; rfl)
theorem srcI5_set (i : grid1.Coords) (h : k1_cond2 i = 1#1) : (srcI5 i h).view.set = (chunkR (sOf i) 5).set := by
  show ((View.whole (cc1_scratch0 : Ref sig .tc)).slice _ |>.reshape _ _).set = _
  rw [View.set_reshape, View.set_slice_whole]; exact unit_set_congr (by rw [k1_off27_eq]; rfl)

theorem slotR_set (i : grid1.Coords) : (SCR.access (slotR i)).set = (slotC (sOf i)).set := by
  show ((View.whole (cc1_scratch0 : Ref sig .tc)).slice _).set = _
  rw [View.set_slice_whole]; exact unit_set_congr (by rw [k1_off14_eq])

/-- A slot is its six chunks, -/
theorem slot_cover (s : Fin 2) : (Finset.univ : Finset (Fin 6)).biUnion (fun r => (chunkR s r).set) = (slotC s).set := by
  ext x
  simp only [Finset.mem_biUnion, Finset.mem_univ, true_and, Rect.mem_set_unit]
  constructor
  · rintro ⟨r, hr⟩ a
    have := hr a; have hr' := r.isLt
    fin_cases a <;> simp at this ⊢ <;> omega
  · intro hx
    have h1 := hx 1; simp at h1
    refine ⟨⟨(x 1).val / 512, by omega⟩, fun a => ?_⟩
    have := hx a
    fin_cases a <;> simp at this ⊢ <;> omega
/-- pairwise disjoint. -/
theorem chunk_disjoint (s : Fin 2) (r r' : Fin 6) (h : r ≠ r') : Disjoint (chunkR s r).set (chunkR s r').set := by
  rw [Finset.disjoint_left]
  intro x hx hx'
  have h1 := (Rect.mem_set_unit.mp hx) 1; have h2 := (Rect.mem_set_unit.mp hx') 1
  simp at h1 h2
  have : r.val ≠ r'.val := fun e => h (Fin.ext e)
  omega

theorem bigSep_fin6 {M : Type} [URA M] (Φ : Fin 6 → sProp M) :
    bigSep Finset.univ Φ = iprop(Φ (0 : Fin 6) ∗ Φ (1 : Fin 6) ∗ Φ (2 : Fin 6) ∗ Φ (3 : Fin 6) ∗ Φ (4 : Fin 6) ∗ Φ (5 : Fin 6)) :=
  bigSep_univ_eq_bigSepL [(0 : Fin 6), (1 : Fin 6), (2 : Fin 6), (3 : Fin 6), (4 : Fin 6), (5 : Fin 6)] (by decide) (by decide) Φ

/-- The slot just stored, dealt out as the six chunks the copies read. -/
theorem slot_split (c : Dev nD) (i : grid1.Coords) (h2 : k1_cond2 i = 1#1) (g : Buf (Elt F) (SCR.view.loc (thr c))) :
    (SCR.view.loc (thr c) ↦[(SCR.access (slotR i)).set]{fullShare} g : sProp 𝕄)
      ⊢ iprop(own c (srcI0 i h2) g ∗ own c (srcI1 i h2) g ∗ own c (srcI2 i h2) g ∗ own c (srcI3 i h2) g ∗ own c (srcI4 i h2) g ∗ own c (srcI5 i h2) g) := by
  rw [slotR_set, ← slot_cover, pointsTo_biUnion Finset.univ _ (fun r _ r' _ h => chunk_disjoint _ r r' h), bigSep_fin6,
    ← srcI0_set i h2, ← srcI1_set i h2, ← srcI2_set i h2, ← srcI3_set i h2, ← srcI4_set i h2, ← srcI5_set i h2]

/-- The six chunks the waits hand back, joined into the slot. -/
theorem slot_join (c : Dev nD) (i : grid1.Coords) (h1 : k1_cond1 i = 1#1) :
    iprop((∃ g, own (F := F) c (srcW0 i h1) g) ∗ (∃ g, own (F := F) c (srcW1 i h1) g) ∗ (∃ g, own (F := F) c (srcW2 i h1) g) ∗ (∃ g, own (F := F) c (srcW3 i h1) g) ∗ (∃ g, own (F := F) c (srcW4 i h1) g) ∗ (∃ g, own (F := F) c (srcW5 i h1) g))
      ⊢ (iprop(∃ g, SCR.view.loc (thr c) ↦[(SCR.access (slotR i)).set]{fullShare} g) : sProp 𝕄) := by
  iintro ⟨⟨%g0, H0⟩, ⟨%g1, H1⟩, ⟨%g2, H2⟩, ⟨%g3, H3⟩, ⟨%g4, H4⟩, ⟨%g5, H5⟩⟩
  ihave H := (pointsTo_biUnion_join (ℓ := SCR.view.loc (thr c)) (q := fullShare) Finset.univ (fun r => (chunkR (sOf i) r).set)
      (![g0, g1, g2, g3, g4, g5] : Fin 6 → Buf (Elt F) (SCR.view.loc (thr c))) g0 (fun r _ r' _ h => chunk_disjoint _ r r' h)) $$ [H0 H1 H2 H3 H4 H5]
  · rw [bigSep_fin6]
    isplitl [H0]; · rw [← srcW0_set i h1]; iexact H0
    isplitl [H1]; · rw [← srcW1_set i h1]; iexact H1
    isplitl [H2]; · rw [← srcW2_set i h1]; iexact H2
    isplitl [H3]; · rw [← srcW3_set i h1]; iexact H3
    isplitl [H4]; · rw [← srcW4_set i h1]; iexact H4
    rw [← srcW5_set i h1]; iexact H5
  icases H with ⟨%g, -, H⟩
  iexists g
  rw [slotR_set, ← slot_cover]; iexact H

end Cert.Kernel.Region

end
-- ==== Proof.W.RegionSets.lean ====
/-
  The result array [100000, 1024] as the disjoint union of its row ranges by (tile, chunk) — rows 3072 j + 512 r ‥
  + 511, cut off at the array's end, so that the last tile's short and missing chunks need no case of their own —,
  the rows each copy's destination lies in, and the scratch as the disjoint union of its twelve (slot, chunk) pieces.
-/
import proofs.«204125_g1194000908950_cont_fleet_528_33_alg».proof.Proof.W.RegionViews
import Idealize.ShloMosaic.Lib.Transfers
import Idealize.ShloMosaic.Lib.Writes
import Idealize.ShloMosaic.Lib.Pipeline.FrameBody
import Idealize.ShloMosaic.Lib.Tactic

noncomputable section

namespace Cert.Kernel.Region

open Cert.Kernel Cert.Kernel.Gen Cert.Kernel.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

/-! ## The result's rows by (tile, chunk) -/

/-- The tile of a grid point. -/
abbrev tOf (i : grid1.Coords) : Fin 33 := ⟨(i 0).val, (i 0).isLt⟩

/-- Rows `3072 j + 512 r ‥ 3072 j + 512 r + 511` of the result (those the array has). -/
def dsetC (j : Fin 33) (r : Fin 6) : Finset S100000x1024.Idx :=
  Finset.univ.filter fun x => 3072 * j.val + 512 * r.val ≤ (x 0).val ∧ (x 0).val < 3072 * j.val + 512 * r.val + 512

theorem mem_dsetC {j : Fin 33} {r : Fin 6} {x : S100000x1024.Idx} :
    x ∈ dsetC j r ↔ 3072 * j.val + 512 * r.val ≤ (x 0).val ∧ (x 0).val < 3072 * j.val + 512 * r.val + 512 := by
  simp [dsetC]

theorem dsetC_disjoint (p p' : Fin 33 × Fin 6) (h : p ≠ p') : Disjoint (dsetC p.1 p.2) (dsetC p'.1 p'.2) := by
  rw [Finset.disjoint_left]
  intro x hx hx'
  rw [mem_dsetC] at hx hx'
  have h1 := p.2.isLt; have h2 := p'.2.isLt
  exact h (Prod.ext (Fin.ext (by omega)) (Fin.ext (by omega)))

theorem dsetC_cover : (Finset.univ : Finset (Fin 33 × Fin 6)).biUnion (fun p => dsetC p.1 p.2) = Finset.univ := by
  ext x
  simp only [Finset.mem_biUnion, Finset.mem_univ, true_and, iff_true]
  have hx : (x 0).val < 100000 := (x 0).isLt
  refine ⟨(⟨(x 0).val / 512 / 6, by omega⟩, ⟨(x 0).val / 512 % 6, Nat.mod_lt _ (by decide)⟩), ?_⟩
  rw [mem_dsetC]; simp only; omega

theorem dstI0_sub (i : grid1.Coords) (h2 : k1_cond2 i = 1#1) : (dstI0 i h2).view.set ⊆ dsetC (tOf i) 0 := by
  intro x hx
  have hx' : x ∈ (Rect.unit (s := S100000x1024) (k1_off16 i 0#32) S512x1024.size (k1_off16_inb i h2 0)).set := by
    rw [← View.set_slice_whole (main_v4 : Ref sig .tc)]; exact hx
  have h0 := (Rect.mem_set_unit.mp hx') 0
  rw [show k1_off16 i 0#32 = ![3072 * (i 0).val + 512 * (0 : Fin 6).val, 0] from k1_off16_eq i 0] at h0
  rw [mem_dsetC]
  simpa using h0
theorem dstI1_sub (i : grid1.Coords) (h2 : k1_cond2 i = 1#1) : (dstI1 i h2).view.set ⊆ dsetC (tOf i) 1 := by
  intro x hx
  have hx' : x ∈ (Rect.unit (s := S100000x1024) (k1_off16 i 512#32) S512x1024.size (k1_off16_inb i h2 1)).set := by
    rw [← View.set_slice_whole (main_v4 : Ref sig .tc)]; exact hx
  have h0 := (Rect.mem_set_unit.mp hx') 0
  rw [show k1_off16 i 512#32 = ![3072 * (i 0).val + 512 * (1 : Fin 6).val, 0] from k1_off16_eq i 1] at h0
  rw [mem_dsetC]
  simpa using h0
theorem dstI2_sub (i : grid1.Coords) (h2 : k1_cond2 i = 1#1) : (dstI2 i h2).view.set ⊆ dsetC (tOf i) 2 := by
  intro x hx
  have hx' : x ∈ (Rect.unit (s := S100000x1024) (k1_off16 i 1024#32) S512x1024.size (k1_off16_inb i h2 2)).set := by
    rw [← View.set_slice_whole (main_v4 : Ref sig .tc)]; exact hx
  have h0 := (Rect.mem_set_unit.mp hx') 0
  rw [show k1_off16 i 1024#32 = ![3072 * (i 0).val + 512 * (2 : Fin 6).val, 0] from k1_off16_eq i 2] at h0
  rw [mem_dsetC]
  simpa using h0
theorem dstI3_sub (i : grid1.Coords) (h2 : k1_cond2 i = 1#1) : (dstI3 i h2).view.set ⊆ dsetC (tOf i) 3 := by
  intro x hx
  have hx' : x ∈ (Rect.unit (s := S100000x1024) (k1_off16 i 1536#32) S512x1024.size (k1_off16_inb i h2 3)).set := by
    rw [← View.set_slice_whole (main_v4 : Ref sig .tc)]; exact hx
  have h0 := (Rect.mem_set_unit.mp hx') 0
  rw [show k1_off16 i 1536#32 = ![3072 * (i 0).val + 512 * (3 : Fin 6).val, 0] from k1_off16_eq i 3] at h0
  rw [mem_dsetC]
  simpa using h0
theorem dstI4_sub (i : grid1.Coords) (h2 : k1_cond2 i = 1#1) : (dstI4 i h2).view.set ⊆ dsetC (tOf i) 4 := by
  intro x hx
  have hx' : x ∈ (Rect.unit (s := S100000x1024) (k1_off16 i 2048#32) S512x1024.size (k1_off16_inb i h2 4)).set := by
    rw [← View.set_slice_whole (main_v4 : Ref sig .tc)]; exact hx
  have h0 := (Rect.mem_set_unit.mp hx') 0
  rw [show k1_off16 i 2048#32 = ![3072 * (i 0).val + 512 * (4 : Fin 6).val, 0] from k1_off16_eq i 4] at h0
  rw [mem_dsetC]
  simpa using h0
theorem dstI5_sub (i : grid1.Coords) (h2 : k1_cond2 i = 1#1) : (dstI5 i h2).view.set ⊆ dsetC (tOf i) 5 := by
  intro x hx
  have hx' : x ∈ (Rect.unit (s := S100000x1024) (k1_off16 i 2560#32) S512x1024.size (k1_off16_inb i h2 5)).set := by
    rw [← View.set_slice_whole (main_v4 : Ref sig .tc)]; exact hx
  have h0 := (Rect.mem_set_unit.mp hx') 0
  rw [show k1_off16 i 2560#32 = ![3072 * (i 0).val + 512 * (5 : Fin 6).val, 0] from k1_off16_eq i 5] at h0
  rw [mem_dsetC]
  simpa using h0

/-! ## The scratch by (slot, chunk) -/

theorem chunkR_disjoint (p p' : Fin 2 × Fin 6) (h : p ≠ p') : Disjoint (chunkR p.1 p.2).set (chunkR p'.1 p'.2).set := by
  rw [Finset.disjoint_left]
  intro x hx hx'
  have h0 := (Rect.mem_set_unit.mp hx) 0; have h0' := (Rect.mem_set_unit.mp hx') 0
  have h1 := (Rect.mem_set_unit.mp hx) 1; have h1' := (Rect.mem_set_unit.mp hx') 1
  simp at h0 h0' h1 h1'
  have h2 := p.2.isLt; have h2' := p'.2.isLt; have h3 := p.1.isLt; have h3' := p'.1.isLt
  exact h (Prod.ext (Fin.ext (by omega)) (Fin.ext (by omega)))

theorem chunkR_cover : (Finset.univ : Finset (Fin 2 × Fin 6)).biUnion (fun p => (chunkR p.1 p.2).set) = Finset.univ := by
  ext x
  simp only [Finset.mem_biUnion, Finset.mem_univ, true_and, iff_true]
  have hx0 : (x 0).val < 2 := (x 0).isLt
  have hx1 : (x 1).val < 3072 := (x 1).isLt
  have hx2 : (x 2).val < 1024 := (x 2).isLt
  refine ⟨(⟨(x 0).val, hx0⟩, ⟨(x 1).val / 512, by omega⟩), Rect.mem_set_unit.mpr fun a => ?_⟩
  fin_cases a <;> simp <;> omega

end Cert.Kernel.Region

end
-- ==== Proof.W.RegionBlocks.lean ====
/-
  What the TensorCore pipeline hands a tile's body, and what the tiles' results make of the result array.

  The weights' window and the bias's window are fetched at every tile: the body finds the array's block where the
  block lies inside the array (the last tile's block runs past the array's end; there nothing is known). The averaged
  look-ups' window is fetched once, whole, and a body that leaves it as found finds it at every tile. Every row of the
  result lies in one tile, in one of the tile's six chunks of 512 rows; if every chunk's rows inside the array are the
  tile function of the tile's blocks, the result array is the specification's.
-/
import proofs.«204125_g1194000908950_cont_fleet_528_33_alg».proof.Proof.W.Common

noncomputable section

namespace Cert.Kernel.Region

open Cert.Kernel Cert.Kernel.Gen Cert.Kernel.Common
open Idealize.ShloMosaic Idealize.ShloMosaic.ValueIdx Idealize.ShloMosaic.TcCoe
open Idealize.ShloMosaic.SparseCore.Cfg (HIx)
open Idealize.SL.Sem

variable {F : FTy → Type} [FloatOps F]

/-! ## A chunk's rows -/

/-- Chunk `r` of tile `j`: its rows that lie inside the array are the tile function of the blocks. -/
def GoodOn (j : Fin 33) (r : Fin 6) (avg : FVec F S64x1024 .f32) (wblk : FVec F S64x3072 .f32) (bblk : FVec F S3072 .f32)
    (f : FVec F S100000x1024 .f32) : Prop :=
  ∀ (ρ : Fin 512) (col : Fin 1024) (h : 3072 * j.val + 512 * r.val + ρ.val < 100000),
    f (ix2 ⟨3072 * j.val + 512 * r.val + ρ.val, h⟩ col)
      = tileF avg wblk bblk (ix2 ⟨512 * r.val + ρ.val, by have := r.isLt; have := ρ.isLt; omega⟩ col)

/-- The property reads the chunk's rows only. -/
theorem GoodOn.local {j : Fin 33} {r : Fin 6} {avg : FVec F S64x1024 .f32} {wblk : FVec F S64x3072 .f32} {bblk : FVec F S3072 .f32}
    {f g : FVec F S100000x1024 .f32}
    (hfg : ∀ (ρ : Fin 512) (col : Fin 1024) (h : 3072 * j.val + 512 * r.val + ρ.val < 100000),
      g (ix2 ⟨3072 * j.val + 512 * r.val + ρ.val, h⟩ col) = f (ix2 ⟨3072 * j.val + 512 * r.val + ρ.val, h⟩ col))
    (hf : GoodOn j r avg wblk bblk f) : GoodOn j r avg wblk bblk g :=
  fun ρ col h => (hfg ρ col h).trans (hf ρ col h)

/-- Every chunk of every tile good, over blocks that agree with the operands: the result array is the specification's. -/
theorem isOut_of_good (avg : FVec F S64x1024 .f32) (wt : FVec F S64x100000 .f32) (b : FVec F S100000 .f32)
    (out : FVec F S100000x1024 .f32) (wb : Fin 33 → FVec F S64x3072 .f32) (bb : Fin 33 → FVec F S3072 .f32)
    (hW : ∀ j, Cert.Spec.WAgrees wt j (wb j)) (hB : ∀ j, Cert.Spec.BAgrees b j (bb j))
    (hG : ∀ (j : Fin 33) (r : Fin 6), GoodOn j r avg (wb j) (bb j) out) :
    Cert.Spec.IsOut (tileF (F := F)) avg wt b out := by
  intro j
  refine ⟨wb j, bb j, hW j, hB j, fun r col h => ?_⟩
  have hq : r.val / 512 < 6 := by have := r.isLt; omega
  have hm : r.val % 512 < 512 := Nat.mod_lt _ (by decide)
  have hr : 512 * (r.val / 512) + r.val % 512 = r.val := Nat.div_add_mod _ _
  have h' : 3072 * j.val + 512 * (⟨r.val / 512, hq⟩ : Fin 6).val + (⟨r.val % 512, hm⟩ : Fin 512).val < 100000 := by
    show 3072 * j.val + 512 * (r.val / 512) + r.val % 512 < 100000
    omega
  have e := hG j ⟨r.val / 512, hq⟩ ⟨r.val % 512, hm⟩ col h'
  have e1 : (⟨3072 * j.val + r.val, h⟩ : Fin 100000)
      = ⟨3072 * j.val + 512 * (⟨r.val / 512, hq⟩ : Fin 6).val + (⟨r.val % 512, hm⟩ : Fin 512).val, h'⟩ :=
    Fin.ext (by show 3072 * j.val + r.val = 3072 * j.val + 512 * (r.val / 512) + r.val % 512; omega)
  have e2 : r = ⟨512 * (⟨r.val / 512, hq⟩ : Fin 6).val + (⟨r.val % 512, hm⟩ : Fin 512).val, by
      show 512 * (r.val / 512) + r.val % 512 < 3072; have := r.isLt; omega⟩ := Fin.ext hr.symm
  rw [e1, e]
  exact congrArg (fun q => tileF avg (wb j) (bb j) (ix2 q col)) e2.symm

/-! ## The pipeline's schedule, in closed form -/

theorem coords1 : ∀ t : Fin grid1.N, (grid1.coords t 0).val = t.val := by decide +kernel
theorem transform1_1 : ∀ i : grid1.Coords, cc1_transform_1 i = ![0, (i 0).val] := by decide +kernel
theorem transform1_2 : ∀ i : grid1.Coords, cc1_transform_2 i = ![(i 0).val] := by decide +kernel
theorem transform1_0 : ∀ i : grid1.Coords, cc1_transform_0 i = ![0, 0] := by decide +kernel
/-- The averaged look-ups' window is never written back. -/
theorem flush1_0 : ∀ t : Fin cfg1.N, (cfg1.win 0).flush t = false :=
  (by decide +kernel : ∀ t : Fin grid1.N, win1_0.flush t = false)

/-- A fetch fills the coordinates below the cut sizes with what it read. -/
theorem fill_apply {G : Pipeline.Grid} (w : Pipeline.Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Pipeline.Window.fill
  rw [dif_pos ((w.moved_iff i j).mpr h)]

/-! ## What the body finds -/

/-- The weights' block a tile's body finds agrees with the transposed weights where they have columns. -/
theorem finds_W (c : Dev nD) (rd : Pipeline.RDat τ (Elt F) (HIx 1) ℕ UU ℕ cfg1 c)
    (vW : Buf (Elt F) ((c.tc : Thread nD τ).loc main_v3)) (hA1 : rd.A 1 = vW) (t : Fin cfg1.N)
    (Y : (cfg1.win 1).block.Idx → Elt F (cfg1.win 1).elt) (hY : rd.Finds 1 t Y) :
    Cert.Spec.WAgrees (F := F) vW ⟨t.val, t.isLt⟩ Y := by
  obtain ⟨d0, rfl⟩ := (rd.finds_of_fetch (fetch1_1 t) Y).mp hY
  intro d r h
  have h' : 3072 * t.val + r.val < 100000 := h
  have hc : (grid1.coords t 0).val = t.val := coords1 t
  have hlt : ∀ a, ((ix2 d r : (cfg1.win 1).block.Idx) a).val < (cfg1.win 1).xsize (cfg1.grid.coords t) a := by
    intro a
    match a with
    | ⟨0, _⟩ =>
      show d.val < (Pipeline.Clip.of (cc1_transform_1 (grid1.coords t) 0) 64 64).extent 64
      rw [transform1_1]
      exact d.isLt
    | ⟨1, _⟩ =>
      show r.val < (Pipeline.Clip.of (cc1_transform_1 (grid1.coords t) 1) 3072 100000).extent 3072
      rw [transform1_1]
      show r.val < (Pipeline.Clip.of (grid1.coords t 0).val 3072 100000).extent 3072
      rw [hc]
      unfold Pipeline.Clip.of
      split
      · exact r.isLt
      · show r.val < 100000 - t.val * 3072
        omega
  have e1 : rd.fetched 1 t d0 (ix2 d r)
      = rd.A 1 (((cfg1.win 1).rect t).emb fun a => ⟨((ix2 d r : (cfg1.win 1).block.Idx) a).val, hlt a⟩) :=
    fill_apply (cfg1.win 1) (cfg1.grid.coords t) d0 (rd.blockOf 1 t) (ix2 d r) hlt
  rw [e1, hA1]
  refine congrArg vW (funext fun a => Fin.ext ?_)
  rw [Rect.emb_apply]
  match a with
  | ⟨0, _⟩ =>
    show cc1_transform_1 (grid1.coords t) 0 * 64 + 1 * d.val = d.val
    rw [transform1_1]
    show 0 * 64 + 1 * d.val = d.val
    omega
  | ⟨1, _⟩ =>
    show cc1_transform_1 (grid1.coords t) 1 * 3072 + 1 * r.val = 3072 * t.val + r.val
    rw [transform1_1]
    show (grid1.coords t 0).val * 3072 + 1 * r.val = 3072 * t.val + r.val
    rw [hc]
    omega

/-- The bias's block a tile's body finds agrees with the bias where it has entries. -/
theorem finds_B (c : Dev nD) (rd : Pipeline.RDat τ (Elt F) (HIx 1) ℕ UU ℕ cfg1 c)
    (vB : Buf (Elt F) ((c.tc : Thread nD τ).loc main_arg3)) (hA2 : rd.A 2 = vB) (t : Fin cfg1.N)
    (Y : (cfg1.win 2).block.Idx → Elt F (cfg1.win 2).elt) (hY : rd.Finds 2 t Y) :
    Cert.Spec.BAgrees (F := F) vB ⟨t.val, t.isLt⟩ Y := by
  obtain ⟨d0, rfl⟩ := (rd.finds_of_fetch (fetch1_2 t) Y).mp hY
  intro r h
  have h' : 3072 * t.val + r.val < 100000 := h
  have hc : (grid1.coords t 0).val = t.val := coords1 t
  have hlt : ∀ a, ((ix1 r : (cfg1.win 2).block.Idx) a).val < (cfg1.win 2).xsize (cfg1.grid.coords t) a := by
    intro a
    match a with
    | ⟨0, _⟩ =>
      show r.val < (Pipeline.Clip.of (cc1_transform_2 (grid1.coords t) 0) 3072 100000).extent 3072
      rw [transform1_2]
      show r.val < (Pipeline.Clip.of (grid1.coords t 0).val 3072 100000).extent 3072
      rw [hc]
      unfold Pipeline.Clip.of
      split
      · exact r.isLt
      · show r.val < 100000 - t.val * 3072
        omega
  have e1 : rd.fetched 2 t d0 (ix1 r)
      = rd.A 2 (((cfg1.win 2).rect t).emb fun a => ⟨((ix1 r : (cfg1.win 2).block.Idx) a).val, hlt a⟩) :=
    fill_apply (cfg1.win 2) (cfg1.grid.coords t) d0 (rd.blockOf 2 t) (ix1 r) hlt
  rw [e1, hA2]
  refine congrArg vB (funext fun a => Fin.ext ?_)
  rw [Rect.emb_apply]
  match a with
  | ⟨0, _⟩ =>
    show cc1_transform_2 (grid1.coords t) 0 * 3072 + 1 * r.val = 3072 * t.val + r.val
    rw [transform1_2]
    show (grid1.coords t 0).val * 3072 + 1 * r.val = 3072 * t.val + r.val
    rw [hc]
    omega

/-- A body that leaves the averaged look-ups' buffer as found finds the whole array there at every tile. -/
theorem finds_A (c : Dev nD) (rd : Pipeline.RDat τ (Elt F) (HIx 1) ℕ UU ℕ cfg1 c)
    (vA : Buf (Elt F) ((c.tc : Thread nD τ).loc main_v2)) (hA0 : rd.A 0 = vA)
    (hafter : ∀ t Y X, rd.after 0 t Y X → X = Y) (t : Fin cfg1.N)
    (Y : (cfg1.win 0).block.Idx → Elt F (cfg1.win 0).elt) (hY : rd.Finds 0 t Y) : Y = vA := by
  obtain ⟨n, hn⟩ := t
  induction n generalizing Y with
  | zero =>
    obtain ⟨d0, rfl⟩ := (rd.finds_of_fetch ((fetch1_0 ⟨0, hn⟩).mpr rfl) Y).mp hY
    funext x
    have hlt : ∀ a, (x a).val < (cfg1.win 0).xsize (cfg1.grid.coords ⟨0, hn⟩) a := fun a => (x a).isLt
    have e1 : rd.fetched 0 ⟨0, hn⟩ d0 x = rd.A 0 (((cfg1.win 0).rect ⟨0, hn⟩).emb fun a => ⟨(x a).val, hlt a⟩) :=
      fill_apply (cfg1.win 0) (cfg1.grid.coords ⟨0, hn⟩) d0 (rd.blockOf 0 ⟨0, hn⟩) x hlt
    rw [e1, hA0]
    refine congrArg vA (funext fun a => Fin.ext ?_)
    rw [Rect.emb_apply]
    match a with
    | ⟨0, _⟩ =>
      show cc1_transform_0 (grid1.coords ⟨0, hn⟩) 0 * 64 + 1 * (x 0).val = (x 0).val
      rw [transform1_0]
      show 0 * 64 + 1 * (x 0).val = (x 0).val
      omega
    | ⟨1, _⟩ =>
      show cc1_transform_0 (grid1.coords ⟨0, hn⟩) 1 * 1024 + 1 * (x 1).val = (x 1).val
      rw [transform1_0]
      show 0 * 1024 + 1 * (x 1).val = (x 1).val
      omega
  | succ n ih =>
    have hn33 : n + 1 < 33 := hn
    have hf : (cfg1.win 0).fetch ⟨n + 1, hn⟩ = false := by
      cases hb : (cfg1.win 0).fetch ⟨n + 1, hn⟩ with
      | false => rfl
      | true =>
        have := (fetch1_0 ⟨n + 1, hn⟩).mp hb
        have : (n + 1) % 33 = 0 := this
        omega
    rcases (rd.finds_of_pos hf (Nat.succ_ne_zero n) Y).mp hY with hfl | ⟨Y', hY', hR⟩
    · rw [flush1_0] at hfl
      exact absurd hfl (by decide)
    · obtain rfl := hafter _ _ _ hR
      exact ih Y (Nat.lt_of_succ_lt hn) hY'

end Cert.Kernel.Region

end
-- ==== Proof.W.RegionValue.lean ====
/-
  What a chunk's copy leaves in the result array: the tile function's rows.

  At a grid point the body stores the tile's payload into its slot of the scratch, whole, and copies the slot out in
  six chunks of 512 rows. Read at a row of chunk `r`, the result array after that chunk's copy has landed is the
  payload at the same row of the tile; the payload is the tile function of the three blocks behind a leading unit axis.
-/
import proofs.«204125_g1194000908950_cont_fleet_528_33_alg».proof.Proof.W.RegionViews
import proofs.«204125_g1194000908950_cont_fleet_528_33_alg».proof.Proof.W.RegionBlocks
import Idealize.ShloMosaic.Lib.ValueLayout

noncomputable section

namespace Cert.Kernel.Region

open Cert.Kernel Cert.Kernel.Gen Cert.Kernel.Common
open Idealize.ShloMosaic Idealize.ShloMosaic.ValueIdx Idealize.ShloMosaic.TcCoe
open Idealize.SL.Sem

variable {F : FTy → Type} [FloatOps F] [∀ e, Nonempty (Elt F e)]

/-! ## The payload -/

abbrev rA : Rect S64x1024 := Rect.unit (s := S64x1024) ![0, 0] S64x1024.size inb_S64x1024_S64x1024_0_0
abbrev rW : Rect S64x3072 := Rect.unit (s := S64x3072) ![0, 0] S64x3072.size inb_S64x3072_S64x3072_0_0
abbrev rB : Rect S3072 := Rect.unit (s := S3072) ![0] S3072.size inb_S3072_S3072_0
abbrev pay (x1 : Vec F S64x1024 .f32) (x2 : Vec F S64x3072 .f32) (x3 : Vec F S3072 .f32) : S1x3072x1024.Idx → Elt F .f32 :=
  k1_pay1 (View.ld x2 rW) (View.ld x1 rA) (View.ld x3 rB)

/-- The payload is the tile function behind a leading unit axis. -/
theorem pay_apply (x1 : Vec F S64x1024 .f32) (x2 : Vec F S64x3072 .f32) (x3 : Vec F S3072 .f32) (u : Fin 1) (r : Fin 3072) (col : Fin 1024) :
    pay x1 x2 x3 (ix3 u r col) = tileF x1 x2 x3 (ix2 r col) := by
  have h1 : View.ld x1 rA = x1 := View.ld_unit_zero (by funext a; fin_cases a <;> rfl) _ x1
  have h2 : View.ld x2 rW = x2 := View.ld_unit_zero (by funext a; fin_cases a <;> rfl) _ x2
  have h3 : View.ld x3 rB = x3 := View.ld_unit_zero (by funext a; fin_cases a <;> rfl) _ x3
  show k1_pay1 (View.ld x2 rW) (View.ld x1 rA) (View.ld x3 rB) (ix3 u r col) = _
  rw [h1, h2, h3]
  unfold k1_pay1 tileF
  rw [shapeCast_ab_1ab_apply, shapeCast_self, shapeCast_self]

/-! ## Reading through a view at a named element -/

/-- A store through a view, read at the element a stored index of the view names. -/
theorem write_at {sig : RefSig} {κ : Kind} {sp : Space} {s : Shape} {e : EltTy} {Val : EltTy → Type}
    (v : View sig κ sp s e) {f : v.ty.Contents Val} {w : s.Idx → Val e} {M : Finset s.Idx} (x : s.Idx) {i : v.ty.Idx}
    (h : v.emb x = i) (hx : x ∈ M) :
    v.write Val f w M i = _root_.cast (congrArg Val v.elt_eq.symm) (w x) := by
  subst h; exact View.write_emb_of_mem f w hx

/-- A read through a view at an index is the buffer's element that index names. -/
theorem read_at {sig : RefSig} {κ : Kind} {sp : Space} {s : Shape} {e : EltTy} {Val : EltTy → Type}
    (v : View sig κ sp s e) {f : v.ty.Contents Val} (x : s.Idx) {i : v.ty.Idx} (h : v.emb x = i) :
    v.read Val f x = _root_.cast (congrArg Val v.elt_eq) (f i) := by
  subst h; rfl

/-- Row `ρ` of a chunk of 512 rows of the result that starts at row `R0` is row `R0 + ρ` of the result. -/
theorem dst_emb (R0 : ℕ) (inb16 : ∀ a, (![R0, 0] : Fin 2 → ℕ) a + S512x1024.size a ≤ S100000x1024.size a)
    (ρ : Fin 512) (col : Fin 1024) (hR : R0 + ρ.val < 100000) :
    (V4.slice (Rect.unit (s := S100000x1024) ![R0, 0] S512x1024.size inb16) (fun _ => rfl)).view.emb (ix2 ρ col)
      = ix2 ⟨R0 + ρ.val, hR⟩ col := by
  funext a; apply Fin.ext
  show ((Rect.unit (s := S100000x1024) ![R0, 0] S512x1024.size inb16).emb (ix2 ρ col) a).val = _
  rw [Rect.emb_apply]
  match a with
  | ⟨0, _⟩ => show R0 + 1 * ρ.val = R0 + ρ.val; omega
  | ⟨1, _⟩ => show 0 + 1 * col.val = col.val; omega

/-- Row `ρ` of the chunk of a slot that starts at the slot's row `q`, the chunk's leading unit axis dropped, is row
    `q + ρ` of the slot. -/
theorem src_emb (s q : ℕ) (inb17 : ∀ a, (![s, q, 0] : Fin 3 → ℕ) a + S1x512x1024.size a ≤ S2x3072x1024.size a)
    (inb14 : ∀ a, (![s, 0, 0] : Fin 3 → ℕ) a + S1x3072x1024.size a ≤ S2x3072x1024.size a)
    (ρ : Fin 512) (col : Fin 1024) (hq : q + ρ.val < 3072) :
    ((SCR.slice (Rect.unit (s := S2x3072x1024) ![s, q, 0] S1x512x1024.size inb17) (fun _ => rfl)).squeeze S512x1024
          squeezes_S1x512x1024_S512x1024).view.emb (ix2 ρ col)
      = (SCR.access (Rect.unit (s := S2x3072x1024) ![s, 0, 0] S1x3072x1024.size inb14)).emb (ix3 (0 : Fin 1) ⟨q + ρ.val, hq⟩ col) := by
  have h1 : ((SCR.slice (Rect.unit (s := S2x3072x1024) ![s, q, 0] S1x512x1024.size inb17) (fun _ => rfl)).squeeze S512x1024
        squeezes_S1x512x1024_S512x1024).view.emb (ix2 ρ col)
      = (Rect.unit (s := S2x3072x1024) ![s, q, 0] S1x512x1024.size inb17).emb
          (Shape.reshapeEquiv squeezes_S1x512x1024_S512x1024.numel_eq (ix2 ρ col)) := rfl
  rw [h1, Shape.reshapeEquiv_cons_one]
  funext a; apply Fin.ext
  show _ = ((Rect.unit (s := S2x3072x1024) ![s, 0, 0] S1x3072x1024.size inb14).emb (ix3 (0 : Fin 1) ⟨q + ρ.val, hq⟩ col) a).val
  rw [Rect.emb_apply, Rect.emb_apply]
  match a with
  | ⟨0, _⟩ => show s + 1 * 0 = s + 1 * 0; rfl
  | ⟨1, _⟩ => show q + 1 * ρ.val = 0 + 1 * (q + ρ.val); omega
  | ⟨2, _⟩ => show 0 + 1 * col.val = 0 + 1 * col.val; rfl

/-! ## A chunk's copy, at any offsets of the body's form -/

/-- The result array after: the payload `P` stored over the slot at `off14`, whole; the chunk at `off17` of the scratch
    read; and that written over the rows at `off16` of the result. -/
def landedGen (c : Dev nD) (off16 : Fin 2 → ℕ) (off17 off14 : Fin 3 → ℕ)
    (inb16 : ∀ a, off16 a + S512x1024.size a ≤ S100000x1024.size a)
    (inb17 : ∀ a, off17 a + S1x512x1024.size a ≤ S2x3072x1024.size a)
    (inb14 : ∀ a, off14 a + S1x3072x1024.size a ≤ S2x3072x1024.size a)
    (P : S1x3072x1024.Idx → Elt F .f32) (fd : Buf (Elt F) (V4.view.loc (thr c))) (g : Buf (Elt F) (SCR.view.loc (thr c))) :
    FVec F S100000x1024 .f32 :=
  (V4.slice (Rect.unit (s := S100000x1024) off16 S512x1024.size inb16) (fun _ => rfl)).view.write (Elt F) fd
    ((ReadAs.same : ReadAs (Elt F) S512x1024 .f32 S512x1024 .f32).apply
      (((SCR.slice (Rect.unit (s := S2x3072x1024) off17 S1x512x1024.size inb17) (fun _ => rfl)).squeeze S512x1024
          squeezes_S1x512x1024_S512x1024).view.read (Elt F)
        ((SCR.access (Rect.unit (s := S2x3072x1024) off14 S1x3072x1024.size inb14)).write (Elt F) g P Finset.univ))) Finset.univ

set_option maxHeartbeats 100000 in
/-- The slot stored whole, a chunk of it copied to rows of the result: read at a row of the chunk, the result holds
    the stored payload at the chunk's row. -/
theorem landed_val_gen (c : Dev nD) (off16 : Fin 2 → ℕ) (off17 off14 : Fin 3 → ℕ) (R0 s q : ℕ)
    (h16 : off16 = ![R0, 0]) (h17 : off17 = ![s, q, 0]) (h14 : off14 = ![s, 0, 0])
    (inb16 : ∀ a, off16 a + S512x1024.size a ≤ S100000x1024.size a)
    (inb17 : ∀ a, off17 a + S1x512x1024.size a ≤ S2x3072x1024.size a)
    (inb14 : ∀ a, off14 a + S1x3072x1024.size a ≤ S2x3072x1024.size a)
    (P : S1x3072x1024.Idx → Elt F .f32) (fd : Buf (Elt F) (V4.view.loc (thr c))) (g : Buf (Elt F) (SCR.view.loc (thr c)))
    (ρ : Fin 512) (col : Fin 1024) (hR : R0 + ρ.val < 100000) (hq : q + ρ.val < 3072) :
    landedGen c off16 off17 off14 inb16 inb17 inb14 P fd g (ix2 ⟨R0 + ρ.val, hR⟩ col)
      = P (ix3 (0 : Fin 1) ⟨q + ρ.val, hq⟩ col) := by
  subst h16 h17 h14
  unfold landedGen
  refine (write_at (V4.slice (Rect.unit (s := S100000x1024) ![R0, 0] S512x1024.size inb16) (fun _ => rfl)).view (ix2 ρ col)
    (dst_emb R0 inb16 ρ col hR) (Finset.mem_univ _)).trans ?_
  refine (cast_eq _ _).trans ?_
  refine (read_at ((SCR.slice (Rect.unit (s := S2x3072x1024) ![s, q, 0] S1x512x1024.size inb17) (fun _ => rfl)).squeeze S512x1024
          squeezes_S1x512x1024_S512x1024).view (ix2 ρ col) (src_emb s q inb17 inb14 ρ col hq)).trans ?_
  refine (cast_eq _ _).trans ?_
  refine (write_at (SCR.access (Rect.unit (s := S2x3072x1024) ![s, 0, 0] S1x3072x1024.size inb14)) (ix3 (0 : Fin 1) ⟨q + ρ.val, hq⟩ col) rfl
    (Finset.mem_univ _)).trans ?_
  exact cast_eq _ _

/-! ## The six chunks, as the body spells them -/

/-- The result array once chunk 0's copy of the freshly stored slot has landed. -/
abbrev landed0 (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    Buf (Elt F) (V4.view.loc (thr c)) :=
  (dstI0 i h2).view.write (Elt F) fd (ReadAs.same.apply ((srcI0 i h2).view.read (Elt F)
    ((SCR.access (slotR i)).write (Elt F) g (pay x1 x2 x3) Finset.univ))) Finset.univ

set_option maxHeartbeats 100000 in
/-- Chunk 0's rows inside the array are then the tile function's. -/
theorem landed0_good (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    GoodOn ⟨(i 0).val, (i 0).isLt⟩ (0 : Fin 6) x1 x2 x3 (landed0 c i h2 x1 x2 x3 fd g) := by
  intro ρ col h
  have hq : 0 + ρ.val < 3072 := by have := ρ.isLt; omega
  refine (landed_val_gen c (k1_off16 i 0#32) (k1_off17 i) (k1_off14 i) (3072 * (i 0).val + 512 * (0 : Fin 6).val) ((i 0).val % 2) 0
    (k1_off16_eq i 0) (k1_off17_eq i) (k1_off14_eq i) (k1_off16_inb i h2 0) (k1_off17_inb i h2) (k1_off14_inb i)
    (pay x1 x2 x3) fd g ρ col h hq).trans ?_
  exact pay_apply x1 x2 x3 0 _ col

/-- Off the chunk's rows the array is as it was. -/
theorem landed0_off (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c)))
    (x : (dstI0 i h2).view.ty.Idx) (hx : x ∉ (dstI0 i h2).view.set) : landed0 c i h2 x1 x2 x3 fd g x = fd x :=
  View.write_of_not_mem fd _ Finset.univ hx

/-- The result array once chunk 1's copy of the freshly stored slot has landed. -/
abbrev landed1 (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    Buf (Elt F) (V4.view.loc (thr c)) :=
  (dstI1 i h2).view.write (Elt F) fd (ReadAs.same.apply ((srcI1 i h2).view.read (Elt F)
    ((SCR.access (slotR i)).write (Elt F) g (pay x1 x2 x3) Finset.univ))) Finset.univ

set_option maxHeartbeats 100000 in
/-- Chunk 1's rows inside the array are then the tile function's. -/
theorem landed1_good (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    GoodOn ⟨(i 0).val, (i 0).isLt⟩ (1 : Fin 6) x1 x2 x3 (landed1 c i h2 x1 x2 x3 fd g) := by
  intro ρ col h
  have hq : 512 + ρ.val < 3072 := by have := ρ.isLt; omega
  refine (landed_val_gen c (k1_off16 i 512#32) (k1_off19 i) (k1_off14 i) (3072 * (i 0).val + 512 * (1 : Fin 6).val) ((i 0).val % 2) 512
    (k1_off16_eq i 1) (k1_off19_eq i) (k1_off14_eq i) (k1_off16_inb i h2 1) (k1_off19_inb i h2) (k1_off14_inb i)
    (pay x1 x2 x3) fd g ρ col h hq).trans ?_
  exact pay_apply x1 x2 x3 0 _ col

/-- Off the chunk's rows the array is as it was. -/
theorem landed1_off (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c)))
    (x : (dstI1 i h2).view.ty.Idx) (hx : x ∉ (dstI1 i h2).view.set) : landed1 c i h2 x1 x2 x3 fd g x = fd x :=
  View.write_of_not_mem fd _ Finset.univ hx

/-- The result array once chunk 2's copy of the freshly stored slot has landed. -/
abbrev landed2 (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    Buf (Elt F) (V4.view.loc (thr c)) :=
  (dstI2 i h2).view.write (Elt F) fd (ReadAs.same.apply ((srcI2 i h2).view.read (Elt F)
    ((SCR.access (slotR i)).write (Elt F) g (pay x1 x2 x3) Finset.univ))) Finset.univ

set_option maxHeartbeats 100000 in
/-- Chunk 2's rows inside the array are then the tile function's. -/
theorem landed2_good (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    GoodOn ⟨(i 0).val, (i 0).isLt⟩ (2 : Fin 6) x1 x2 x3 (landed2 c i h2 x1 x2 x3 fd g) := by
  intro ρ col h
  have hq : 1024 + ρ.val < 3072 := by have := ρ.isLt; omega
  refine (landed_val_gen c (k1_off16 i 1024#32) (k1_off21 i) (k1_off14 i) (3072 * (i 0).val + 512 * (2 : Fin 6).val) ((i 0).val % 2) 1024
    (k1_off16_eq i 2) (k1_off21_eq i) (k1_off14_eq i) (k1_off16_inb i h2 2) (k1_off21_inb i h2) (k1_off14_inb i)
    (pay x1 x2 x3) fd g ρ col h hq).trans ?_
  exact pay_apply x1 x2 x3 0 _ col

/-- Off the chunk's rows the array is as it was. -/
theorem landed2_off (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c)))
    (x : (dstI2 i h2).view.ty.Idx) (hx : x ∉ (dstI2 i h2).view.set) : landed2 c i h2 x1 x2 x3 fd g x = fd x :=
  View.write_of_not_mem fd _ Finset.univ hx

/-- The result array once chunk 3's copy of the freshly stored slot has landed. -/
abbrev landed3 (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    Buf (Elt F) (V4.view.loc (thr c)) :=
  (dstI3 i h2).view.write (Elt F) fd (ReadAs.same.apply ((srcI3 i h2).view.read (Elt F)
    ((SCR.access (slotR i)).write (Elt F) g (pay x1 x2 x3) Finset.univ))) Finset.univ

set_option maxHeartbeats 100000 in
/-- Chunk 3's rows inside the array are then the tile function's. -/
theorem landed3_good (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    GoodOn ⟨(i 0).val, (i 0).isLt⟩ (3 : Fin 6) x1 x2 x3 (landed3 c i h2 x1 x2 x3 fd g) := by
  intro ρ col h
  have hq : 1536 + ρ.val < 3072 := by have := ρ.isLt; omega
  refine (landed_val_gen c (k1_off16 i 1536#32) (k1_off23 i) (k1_off14 i) (3072 * (i 0).val + 512 * (3 : Fin 6).val) ((i 0).val % 2) 1536
    (k1_off16_eq i 3) (k1_off23_eq i) (k1_off14_eq i) (k1_off16_inb i h2 3) (k1_off23_inb i h2) (k1_off14_inb i)
    (pay x1 x2 x3) fd g ρ col h hq).trans ?_
  exact pay_apply x1 x2 x3 0 _ col

/-- Off the chunk's rows the array is as it was. -/
theorem landed3_off (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c)))
    (x : (dstI3 i h2).view.ty.Idx) (hx : x ∉ (dstI3 i h2).view.set) : landed3 c i h2 x1 x2 x3 fd g x = fd x :=
  View.write_of_not_mem fd _ Finset.univ hx

/-- The result array once chunk 4's copy of the freshly stored slot has landed. -/
abbrev landed4 (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    Buf (Elt F) (V4.view.loc (thr c)) :=
  (dstI4 i h2).view.write (Elt F) fd (ReadAs.same.apply ((srcI4 i h2).view.read (Elt F)
    ((SCR.access (slotR i)).write (Elt F) g (pay x1 x2 x3) Finset.univ))) Finset.univ

set_option maxHeartbeats 100000 in
/-- Chunk 4's rows inside the array are then the tile function's. -/
theorem landed4_good (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    GoodOn ⟨(i 0).val, (i 0).isLt⟩ (4 : Fin 6) x1 x2 x3 (landed4 c i h2 x1 x2 x3 fd g) := by
  intro ρ col h
  have hq : 2048 + ρ.val < 3072 := by have := ρ.isLt; omega
  refine (landed_val_gen c (k1_off16 i 2048#32) (k1_off25 i) (k1_off14 i) (3072 * (i 0).val + 512 * (4 : Fin 6).val) ((i 0).val % 2) 2048
    (k1_off16_eq i 4) (k1_off25_eq i) (k1_off14_eq i) (k1_off16_inb i h2 4) (k1_off25_inb i h2) (k1_off14_inb i)
    (pay x1 x2 x3) fd g ρ col h hq).trans ?_
  exact pay_apply x1 x2 x3 0 _ col

/-- Off the chunk's rows the array is as it was. -/
theorem landed4_off (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c)))
    (x : (dstI4 i h2).view.ty.Idx) (hx : x ∉ (dstI4 i h2).view.set) : landed4 c i h2 x1 x2 x3 fd g x = fd x :=
  View.write_of_not_mem fd _ Finset.univ hx

/-- The result array once chunk 5's copy of the freshly stored slot has landed. -/
abbrev landed5 (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    Buf (Elt F) (V4.view.loc (thr c)) :=
  (dstI5 i h2).view.write (Elt F) fd (ReadAs.same.apply ((srcI5 i h2).view.read (Elt F)
    ((SCR.access (slotR i)).write (Elt F) g (pay x1 x2 x3) Finset.univ))) Finset.univ

set_option maxHeartbeats 100000 in
/-- Chunk 5's rows inside the array are then the tile function's. -/
theorem landed5_good (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c))) :
    GoodOn ⟨(i 0).val, (i 0).isLt⟩ (5 : Fin 6) x1 x2 x3 (landed5 c i h2 x1 x2 x3 fd g) := by
  intro ρ col h
  have hq : 2560 + ρ.val < 3072 := by have := ρ.isLt; omega
  refine (landed_val_gen c (k1_off16 i 2560#32) (k1_off27 i) (k1_off14 i) (3072 * (i 0).val + 512 * (5 : Fin 6).val) ((i 0).val % 2) 2560
    (k1_off16_eq i 5) (k1_off27_eq i) (k1_off14_eq i) (k1_off16_inb i h2 5) (k1_off27_inb i h2) (k1_off14_inb i)
    (pay x1 x2 x3) fd g ρ col h hq).trans ?_
  exact pay_apply x1 x2 x3 0 _ col

/-- Off the chunk's rows the array is as it was. -/
theorem landed5_off (c : Dev nD) (i : grid1.Coords) (h2 : k1_cond2 i = 1#1) (x1 : Vec F S64x1024 .f32) (x2 : Vec F S64x3072 .f32)
    (x3 : Vec F S3072 .f32) (fd : Buf (Elt F) (V4.view.loc (thr c))) (g : Buf (Elt F) (SCR.view.loc (thr c)))
    (x : (dstI5 i h2).view.ty.Idx) (hx : x ∉ (dstI5 i h2).view.set) : landed5 c i h2 x1 x2 x3 fd g x = fd x :=
  View.write_of_not_mem fd _ Finset.univ hx

end Cert.Kernel.Region

end
-- ==== Proof.W.RegionInv.lean ====
/-
  The TensorCore kernel's invariant between grid points. The result [100000, 1024] is held by its (tile, chunk)
  row ranges and the scratch by its (slot, chunk) pieces. Before point t: the ranges of tiles t and later are untouched;
  those of tiles t − 2 and t − 1 are lent to the copies in flight from the two slots, each copy's `Flight` delivering
  its range written and its chunk of the scratch; those of earlier tiles are written. A slot whose copies are in
  flight is lent whole with its six semaphores; otherwise its semaphores are at zero in the core's hand. What is
  claimed of a written range is a parameter, stated of the tile's operand blocks as the body found them. The body's
  run at a point is stated by case (points 0 and 1; 2 ‥ 31; the last) over these pieces.
-/
import proofs.«204125_g1194000908950_cont_fleet_528_33_alg».proof.Proof.W.RegionSets
import proofs.«204125_g1194000908950_cont_fleet_528_33_alg».proof.Proof.W.RegionValue
import Idealize.ShloMosaic.Lib.Transfers
import Idealize.ShloMosaic.Lib.Writes
import Idealize.ShloMosaic.Lib.Pipeline.FrameBody
import Idealize.ShloMosaic.Lib.Tactic

noncomputable section

namespace Cert.Kernel.Region

open Cert.Kernel Cert.Kernel.Gen Cert.Kernel.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

/-! ## The pieces between points, in one spelling -/

section Pieces

variable (c : Dev nD)

/-- Semaphore `r` of slot `s` at zero in the core's hand. -/
abbrev cellC (s : Fin 2) (r : Fin 6) : sProp 𝕄 := semVal (thr c, SemLoc.dma (semC s r)) 0
/-- Chunk `r` of slot `s` of the scratch, at some contents. -/
abbrev scrC (s : Fin 2) (r : Fin 6) : sProp 𝕄 := iprop(∃ g, SCR.view.loc (thr c) ↦[(chunkR s r).set]{fullShare} g)
/-- Rows (j, r) of the result, at some contents: not yet written. -/
abbrev freshC (j : Fin 33) (r : Fin 6) : sProp 𝕄 := iprop(∃ f, V4.view.loc (thr c) ↦[dsetC j r]{fullShare} f)
/-- Rows (j, r) of the result, at contents `G` holds of: written. -/
abbrev doneC (j : Fin 33) (r : Fin 6) (G : Buf (Elt F) (V4.view.loc (thr c)) → Prop) : sProp 𝕄 :=
  iprop(∃ f, ⌜G f⌝ ∗ V4.view.loc (thr c) ↦[dsetC j r]{fullShare} f)
/-- A copy in flight on semaphore (s, r): it delivers `D` and chunk (s, r) of the scratch. -/
abbrev flightC (s : Fin 2) (r : Fin 6) (D : sProp 𝕄) : sProp 𝕄 :=
  Transfers.Flight countersEmb (thr c) (SemLoc.dma (semC s r)) (none : HIx 1) 65536 iprop(D ∗ scrC c s r)

end Pieces

/-! ## The invariant between points -/

section Inv

variable (c : Dev nD)
  (vA : Buf (Elt F) ((thr c).loc main_v2)) (vW : Buf (Elt F) ((thr c).loc main_v3)) (vB : Buf (Elt F) ((thr c).loc main_arg3))
  /- what is claimed of rows (j, r) of the result once written, of the tile's three operand blocks -/
  (GP : Fin 33 → Fin 6 → Vec F S64x1024 .f32 → Vec F S64x3072 .f32 → Vec F S3072 .f32 → Buf (Elt F) (V4.view.loc (thr c)) → Prop)

/-- The slot of tile `j`. -/
abbrev sN (j : Fin 33) : Fin 2 := ⟨j.val % 2, Nat.mod_lt _ (by decide)⟩

/-- Rows (j, r) of the result before point `t`: untouched up to point j; in flight from slot j mod 2 after points j and
    j + 1 (the last point, 32, drains everything); written from then on. -/
def OutSt (t : ℕ) (j : Fin 33) (r : Fin 6) (G : Buf (Elt F) (V4.view.loc (thr c)) → Prop) : sProp 𝕄 :=
  if t ≤ j.val then freshC c j r
  else if t ≤ j.val + 2 ∧ t ≤ 32 then flightC c (sN j) r (doneC c j r G)
  else doneC c j r G

/-- Tile `j` before point `t`: once its point has run, the two operand blocks the body found there agree with the
    arrays where the arrays have entries, and its six row ranges are in flight or written with what `GP` says of them. -/
def TileSt (t : ℕ) (j : Fin 33) : sProp 𝕄 :=
  iprop(∃ (wblk : Vec F S64x3072 .f32) (bblk : Vec F S3072 .f32), ⌜j.val < t → Cert.Spec.WAgrees vW j wblk ∧ Cert.Spec.BAgrees vB j bblk⌝
    ∗ bigSep Finset.univ fun r : Fin 6 => OutSt c t j r (GP j r vA wblk bblk))

/-- Slot `s` is lent to copies in flight before point `t`. -/
def busy (t : ℕ) (s : Fin 2) : Prop := (1 ≤ t ∧ t ≤ 32 ∧ (t - 1) % 2 = s.val) ∨ (2 ≤ t ∧ t ≤ 32 ∧ (t - 2) % 2 = s.val)
instance (t : ℕ) (s : Fin 2) : Decidable (busy t s) := by unfold busy; infer_instance

/-- Semaphore and chunk (s, r) before point `t`: in the core's hand unless the slot is lent. -/
def SlotSt (t : ℕ) (s : Fin 2) (r : Fin 6) : sProp 𝕄 := if busy t s then iprop(emp) else iprop(cellC c s r ∗ scrC c s r)

/-- The body's invariant before point `t`. -/
def Inv (t : ℕ) : sProp 𝕄 :=
  iprop(levAts (K (F := F)).L (K (F := F)).lev
    ∗ (bigSep Finset.univ fun j : Fin 33 => TileSt c vA vW vB GP t j)
    ∗ bigSep Finset.univ fun s : Fin 2 => bigSep Finset.univ fun r : Fin 6 => SlotSt c t s r)

end Inv

/-! ## The body's run at a point, by case, over the pieces -/

section Steps

variable (c : Dev nD) (O : CellTallies nD τ sig (HIx 1))

/-- The post every case ends in: the staged blocks as found, and the core's `owes` with the body's waits recorded. -/
abbrev stepPost (t : Fin cfg1.N) (x1 : Vec F S64x1024 .f32) (x2 : Vec F S64x3072 .f32) (x3 : Vec F S3072 .f32) (W : Waits sig (HIx 1)) (P : sProp 𝕄) : sProp 𝕄 :=
  iprop(owns (thr c) (st1_0 t) fullShare x1 ∗ owns (thr c) (st1_1 t) fullShare x2 ∗ owns (thr c) (st1_2 t) fullShare x3 ∗ P
    ∗ ∃ W', ⌜∀ p ∈ W', p ∈ W ∨ p.2 = none⌝ ∗ owes (thr c) O W')

/-- Points 0 and 1: the slot is free; store the tile, start its six copies. -/
def StepLo (GP : Fin 33 → Fin 6 → Vec F S64x1024 .f32 → Vec F S64x3072 .f32 → Vec F S3072 .f32 → Buf (Elt F) (V4.view.loc (thr c)) → Prop) : Prop :=
  ∀ (t : Fin cfg1.N) (_ : t.val < 2) x1 x2 x3 (W : Waits sig (HIx 1)),
    iprop(owns (thr c) (st1_0 t) fullShare x1 ∗ owns (thr c) (st1_1 t) fullShare x2 ∗ owns (thr c) (st1_2 t) fullShare x3
      ∗ (bigSep Finset.univ fun r : Fin 6 => iprop(cellC c (sOf (grid1.coords t)) r ∗ scrC c (sOf (grid1.coords t)) r))
      ∗ (bigSep Finset.univ fun r : Fin 6 => freshC c (tOf (grid1.coords t)) r)
      ∗ owes (thr c) O W)
    ⊢ wp frame (wpE (defs₀ (F := F)) Variants.none (thr c) none) Set.univ (bodyAt1 t) fun _ =>
        stepPost c O t x1 x2 x3 W
          (bigSep Finset.univ fun r : Fin 6 => flightC c (sOf (grid1.coords t)) r (doneC c (tOf (grid1.coords t)) r (GP (tOf (grid1.coords t)) r x1 x2 x3)))

/-- Points 2 ‥ 31: wait the slot's six copies of two points ago (delivering `Dd r`), store, start six. -/
def StepMid (GP : Fin 33 → Fin 6 → Vec F S64x1024 .f32 → Vec F S64x3072 .f32 → Vec F S3072 .f32 → Buf (Elt F) (V4.view.loc (thr c)) → Prop) : Prop :=
  ∀ (t : Fin cfg1.N) (_ : 2 ≤ t.val) (_ : t.val < 32) x1 x2 x3 (W : Waits sig (HIx 1)) (Dd : Fin 6 → sProp 𝕄),
    iprop(owns (thr c) (st1_0 t) fullShare x1 ∗ owns (thr c) (st1_1 t) fullShare x2 ∗ owns (thr c) (st1_2 t) fullShare x3
      ∗ (bigSep Finset.univ fun r : Fin 6 => flightC c (sOf (grid1.coords t)) r (Dd r))
      ∗ (bigSep Finset.univ fun r : Fin 6 => freshC c (tOf (grid1.coords t)) r)
      ∗ owes (thr c) O W ∗ Transfers.MayWaits (thr c) (none : HIx 1) O)
    ⊢ wp frame (wpE (defs₀ (F := F)) Variants.none (thr c) none) Set.univ (bodyAt1 t) fun _ =>
        stepPost c O t x1 x2 x3 W
          iprop((bigSep Finset.univ fun r : Fin 6 => Dd r)
            ∗ bigSep Finset.univ fun r : Fin 6 => flightC c (sOf (grid1.coords t)) r (doneC c (tOf (grid1.coords t)) r (GP (tOf (grid1.coords t)) r x1 x2 x3)))

/-- Point 32: wait slot 0's copies of point 30 (`Dd`), store, start the tail's four copies, wait slot 1's of point 31
    (`De`) and the tail's: everything is back. -/
def StepLast (GP : Fin 33 → Fin 6 → Vec F S64x1024 .f32 → Vec F S64x3072 .f32 → Vec F S3072 .f32 → Buf (Elt F) (V4.view.loc (thr c)) → Prop) : Prop :=
  ∀ (t : Fin cfg1.N) (_ : t.val = 32) x1 x2 x3 (W : Waits sig (HIx 1)) (Dd De : Fin 6 → sProp 𝕄),
    iprop(owns (thr c) (st1_0 t) fullShare x1 ∗ owns (thr c) (st1_1 t) fullShare x2 ∗ owns (thr c) (st1_2 t) fullShare x3
      ∗ (bigSep Finset.univ fun r : Fin 6 => flightC c 0 r (Dd r))
      ∗ (bigSep Finset.univ fun r : Fin 6 => flightC c 1 r (De r))
      ∗ (bigSep Finset.univ fun r : Fin 6 => freshC c 32 r)
      ∗ owes (thr c) O W ∗ Transfers.MayWaits (thr c) (none : HIx 1) O)
    ⊢ wp frame (wpE (defs₀ (F := F)) Variants.none (thr c) none) Set.univ (bodyAt1 t) fun _ =>
        stepPost c O t x1 x2 x3 W
          iprop((bigSep Finset.univ fun r : Fin 6 => Dd r) ∗ (bigSep Finset.univ fun r : Fin 6 => De r)
            ∗ (bigSep Finset.univ fun r : Fin 6 => doneC c 32 r (GP 32 r x1 x2 x3))
            ∗ bigSep Finset.univ fun s : Fin 2 => bigSep Finset.univ fun r : Fin 6 => iprop(cellC c s r ∗ scrC c s r))

end Steps

end Cert.Kernel.Region

end
-- ==== Proof.W.RegionRecord.lean ====
/-
  The TensorCore region's record: the proof data for the pipeline's loop (the three operand arrays as entered and left
  as found; the kernel's invariant between points; nothing owed), the body obligation at every point assembled from
  the body's three cases by sorting the invariant's pieces — which tile's rows are untouched, in flight or written, which
  slot is lent —, and the four entailments around the region: the result array and the kernel's twelve semaphores go
  in as untouched rows and free slots, and come out as rows all written, which say, tile by tile, that the result's
  rows are the tile function of blocks agreeing with the operands.
-/
import proofs.«204125_g1194000908950_cont_fleet_528_33_alg».proof.Proof.W.RegionInv
import proofs.«204125_g1194000908950_cont_fleet_528_33_alg».proof.Proof.W.RegionBlocks
import proofs.«204125_g1194000908950_cont_fleet_528_33_alg».proof.Proof.LibScRegion

noncomputable section

namespace Cert.Kernel.Region

open Cert.Kernel Cert.Kernel.Gen Cert.Kernel.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

/-! ## How the invariant's pieces move from one point to the next -/

section Sorting

variable (c : Dev nD) (vA' : Buf (Elt F) ((thr c).loc main_v2)) (vW' : Buf (Elt F) ((thr c).loc main_v3)) (vB' : Buf (Elt F) ((thr c).loc main_arg3))
  (GP : Fin 33 → Fin 6 → Vec F S64x1024 .f32 → Vec F S64x3072 .f32 → Vec F S3072 .f32 → Buf (Elt F) (V4.view.loc (thr c)) → Prop)

theorem OutSt_succ (t : ℕ) (j : Fin 33) (r : Fin 6) (G : Buf (Elt F) (V4.view.loc (thr c)) → Prop) (h1 : j.val ≠ t) (h2 : j.val + 2 ≠ t) (h3 : t < 32) :
    OutSt c (t + 1) j r G = OutSt c t j r G := by
  unfold OutSt; split_ifs <;> first | rfl | (exfalso; omega)
theorem OutSt_fresh {t : ℕ} {j : Fin 33} (r : Fin 6) (G : Buf (Elt F) (V4.view.loc (thr c)) → Prop) (h : t ≤ j.val) : OutSt c t j r G = freshC c j r := by unfold OutSt; exact if_pos h
theorem OutSt_flight {t : ℕ} {j : Fin 33} (r : Fin 6) (G : Buf (Elt F) (V4.view.loc (thr c)) → Prop) (h1 : j.val < t) (h2 : t ≤ j.val + 2) (h3 : t ≤ 32) :
    OutSt c t j r G = flightC c (sN j) r (doneC c j r G) := by
  unfold OutSt; rw [if_neg (by omega), if_pos ⟨h2, h3⟩]
theorem OutSt_done {t : ℕ} {j : Fin 33} (r : Fin 6) (G : Buf (Elt F) (V4.view.loc (thr c)) → Prop) (h1 : j.val < t) (h : j.val + 2 < t ∨ 32 < t) :
    OutSt c t j r G = doneC c j r G := by
  unfold OutSt; rw [if_neg (by omega), if_neg (by omega)]

theorem TileSt_succ (t : ℕ) (j : Fin 33) (h1 : j.val ≠ t) (h2 : j.val + 2 ≠ t) (h3 : t < 32) :
    TileSt c vA' vW' vB' GP (t + 1) j = TileSt c vA' vW' vB' GP t j := by
  unfold TileSt
  have e : (j.val < t + 1) = (j.val < t) := propext ⟨fun h => by omega, fun h => by omega⟩
  simp only [OutSt_succ c t j _ _ h1 h2 h3, e]

omit [FloatOps F] [∀ e, Nonempty (Elt F e)] in
theorem busy_succ : ∀ (t : Fin 32) (s : Fin 2), s.val ≠ t.val % 2 → (busy (t.val + 1) s ↔ busy t.val s) := by decide

theorem SlotSt_succ (t : ℕ) (s : Fin 2) (r : Fin 6) (hs : s.val ≠ t % 2) (ht : t < 32) : SlotSt (F := F) c (t + 1) s r = SlotSt (F := F) c t s r := by
  have h := busy_succ ⟨t, ht⟩ s hs
  unfold SlotSt
  by_cases hb : busy t s
  · rw [if_pos hb, if_pos (h.mpr hb)]
  · rw [if_neg hb, if_neg (fun h' => hb (h.mp h'))]
theorem SlotSt_free {t : ℕ} {s : Fin 2} (r : Fin 6) (h : ¬ busy t s) : SlotSt (F := F) c t s r = iprop(cellC (F := F) c s r ∗ scrC (F := F) c s r) := by unfold SlotSt; exact if_neg h
theorem SlotSt_busy {t : ℕ} {s : Fin 2} (r : Fin 6) (h : busy t s) : SlotSt (F := F) c t s r = (iprop(emp) : sProp 𝕄) := by unfold SlotSt; exact if_pos h

omit [FloatOps F] [∀ e, Nonempty (Elt F e)] in
theorem bigSep_fin2 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

omit [FloatOps F] [∀ e, Nonempty (Elt F e)] in
theorem busy_mid : ∀ (t : Fin 33) (s : Fin 2), 2 ≤ t.val → busy t.val s := by decide
omit [FloatOps F] [∀ e, Nonempty (Elt F e)] in
theorem free_lo : ∀ (t : Fin 2), ¬ busy t.val (⟨t.val % 2, Nat.mod_lt _ (by decide)⟩ : Fin 2) := by decide
omit [FloatOps F] [∀ e, Nonempty (Elt F e)] in
theorem busy_own : ∀ (t : Fin 32), busy (t.val + 1) (⟨t.val % 2, Nat.mod_lt _ (by decide)⟩ : Fin 2) := by decide
omit [FloatOps F] [∀ e, Nonempty (Elt F e)] in
theorem free_end : ∀ (s : Fin 2), ¬ busy 33 s := by decide

/-- A tile whose point has not run: its six row ranges are untouched. -/
theorem tile_fresh {t : ℕ} {j : Fin 33} (h : t ≤ j.val) :
    TileSt c vA' vW' vB' GP t j ⊢ bigSep Finset.univ fun r : Fin 6 => freshC c j r := by
  unfold TileSt
  simp only [OutSt_fresh c _ _ h]
  iintro ⟨%wblk, %bblk, -, H⟩
  iexact H

/-- A tile whose copies are in flight, from the flights and the blocks the body found. -/
theorem tile_flight {t : ℕ} {j : Fin 33} (h1 : j.val < t) (h2 : t ≤ j.val + 2) (h3 : t ≤ 32) (x2 : Vec F S64x3072 .f32) (x3 : Vec F S3072 .f32)
    (hw : Cert.Spec.WAgrees vW' j x2) (hb : Cert.Spec.BAgrees vB' j x3) :
    (bigSep Finset.univ fun r : Fin 6 => flightC c (sN j) r (doneC c j r (GP j r vA' x2 x3))) ⊢ TileSt c vA' vW' vB' GP t j := by
  unfold TileSt
  simp only [OutSt_flight c _ _ h1 h2 h3]
  iintro H; iexists x2, x3; isplitr
  · ipureintro; exact fun _ => ⟨hw, hb⟩
  · iexact H

/-- The same read the other way. -/
theorem tile_flight_elim {t : ℕ} {j : Fin 33} (h1 : j.val < t) (h2 : t ≤ j.val + 2) (h3 : t ≤ 32) :
    TileSt c vA' vW' vB' GP t j ⊢ iprop(∃ (x2 : Vec F S64x3072 .f32) (x3 : Vec F S3072 .f32), ⌜Cert.Spec.WAgrees vW' j x2 ∧ Cert.Spec.BAgrees vB' j x3⌝
      ∗ bigSep Finset.univ fun r : Fin 6 => flightC c (sN j) r (doneC c j r (GP j r vA' x2 x3))) := by
  unfold TileSt
  simp only [OutSt_flight c _ _ h1 h2 h3]
  iintro ⟨%x2, %x3, %h, H⟩
  iexists x2, x3; isplitr
  · ipureintro; exact h h1
  · iexact H

/-- A tile all of whose rows are written. -/
theorem tile_done {t : ℕ} {j : Fin 33} (h1 : j.val < t) (h : j.val + 2 < t ∨ 32 < t) (x2 : Vec F S64x3072 .f32) (x3 : Vec F S3072 .f32)
    (hw : Cert.Spec.WAgrees vW' j x2) (hb : Cert.Spec.BAgrees vB' j x3) :
    (bigSep Finset.univ fun r : Fin 6 => doneC c j r (GP j r vA' x2 x3)) ⊢ TileSt c vA' vW' vB' GP t j := by
  unfold TileSt
  simp only [OutSt_done c _ _ h1 h]
  iintro H; iexists x2, x3; isplitr
  · ipureintro; exact fun _ => ⟨hw, hb⟩
  · iexact H

/-- An early tile is written before the last point and after it alike. -/
theorem TileSt_end (j : Fin 33) (h : j.val < 30) : TileSt c vA' vW' vB' GP 33 j = TileSt c vA' vW' vB' GP 32 j := by
  unfold TileSt
  have e : (j.val < 33) = (j.val < 32) := propext ⟨fun _ => by omega, fun _ => by omega⟩
  simp only [OutSt_done c _ _ (show j.val < 33 by omega) (Or.inr (by omega)), OutSt_done c _ _ (show j.val < 32 by omega) (Or.inl (by omega)), e]

/-! ## The body's three cases, from the invariant before a point to the invariant after it -/

omit [FloatOps F] [∀ e, Nonempty (Elt F e)] in
theorem lt33 (t : Fin cfg1.N) : t.val < 33 := t.isLt
/-- The tile of a grid point. -/
abbrev jOf (t : Fin cfg1.N) : Fin 33 := ⟨t.val, lt33 t⟩

omit [FloatOps F] [∀ e, Nonempty (Elt F e)] in
theorem tOf_pt (t : Fin cfg1.N) : tOf (grid1.coords t) = jOf t := Fin.ext (coords1 t)
omit [FloatOps F] [∀ e, Nonempty (Elt F e)] in
theorem sOf_pt (t : Fin cfg1.N) : sOf (grid1.coords t) = sN (jOf t) :=
  Fin.ext (by show (grid1.coords t 0).val % 2 = t.val % 2; rw [coords1 t])

omit [FloatOps F] in
theorem bigSep_emp'' {I : Type} (s : Finset I) : (bigSep s fun _ => iprop(emp)) = (iprop(emp) : sProp 𝕄) := bigSep_emp_const s

/-- Points 0 and 1. -/
theorem inv_step_lo (hlo : StepLo (F := F) c (0 : CellTallies nD τ sig (HIx 1)) GP) (t : Fin cfg1.N) (h2 : t.val < 2)
    (x2 : Vec F S64x3072 .f32) (x3 : Vec F S3072 .f32) (W1 : Waits sig (HIx 1))
    (hw : Cert.Spec.WAgrees vW' (jOf t) x2) (hb : Cert.Spec.BAgrees vB' (jOf t) x3) :
    iprop(Inv c vA' vW' vB' GP t.val ∗ owes (thr c) (0 : CellTallies nD τ sig (HIx 1)) W1
        ∗ owns (thr c) (st1_0 t) fullShare vA' ∗ owns (thr c) (st1_1 t) fullShare x2 ∗ owns (thr c) (st1_2 t) fullShare x3)
      ⊢ wp frame (wpE (defs₀ (F := F)) Variants.none (thr c) none) Set.univ (bodyAt1 t) fun _ =>
          iprop(Inv c vA' vW' vB' GP (t.val + 1) ∗ (∃ W', ⌜∀ p ∈ W', p ∈ W1 ∨ p.2 = none⌝ ∗ owes (thr c) (0 : CellTallies nD τ sig (HIx 1)) W')
            ∗ owns (thr c) (st1_0 t) fullShare vA' ∗ owns (thr c) (st1_1 t) fullShare x2 ∗ owns (thr c) (st1_2 t) fullShare x3) := by
  have hstep := hlo t h2 vA' x2 x3 W1
  rw [tOf_pt, sOf_pt] at hstep
  have k1 : (jOf t).val < t.val + 1 := Nat.lt_succ_self _
  have k2 : t.val + 1 ≤ (jOf t).val + 2 := by show t.val + 1 ≤ t.val + 2; omega
  have k3 : t.val + 1 ≤ 32 := by omega
  have k4 : t.val < 32 := by omega
  have eT : (bigSep (Finset.univ.erase (jOf t)) fun j => TileSt c vA' vW' vB' GP (t.val + 1) j)
      = bigSep (Finset.univ.erase (jOf t)) fun j => TileSt c vA' vW' vB' GP t.val j :=
    bigSep_congr fun j hj => TileSt_succ c vA' vW' vB' GP t.val j (fun e => (Finset.ne_of_mem_erase hj) (Fin.ext e)) (by omega) k4
  have eS : (bigSep (Finset.univ.erase (sN (jOf t))) fun s => bigSep Finset.univ fun r : Fin 6 => SlotSt (F := F) c (t.val + 1) s r)
      = bigSep (Finset.univ.erase (sN (jOf t))) fun s => bigSep Finset.univ fun r : Fin 6 => SlotSt (F := F) c t.val s r :=
    bigSep_congr fun s hs => bigSep_congr fun r _ => SlotSt_succ c t.val s r (fun e => (Finset.ne_of_mem_erase hs) (Fin.ext e)) k4
  have eB : (bigSep Finset.univ fun r : Fin 6 => SlotSt (F := F) c (t.val + 1) (sN (jOf t)) r) = (iprop(emp) : sProp 𝕄) :=
    (bigSep_congr fun r _ => SlotSt_busy (F := F) c r (busy_own ⟨t.val, k4⟩)).trans (bigSep_emp'' _)
  unfold Inv
  iintro ⟨⟨#Hlev, Htiles, Hslots⟩, HO, Hy0, Hy1, Hy2⟩
  ihave Ht := (Entails.of_eq (SparseCore.bigSep_erase' (Finset.mem_univ (jOf t)))) $$ Htiles
  icases Ht with ⟨Htile, Hothers⟩
  ihave Hfresh := (tile_fresh c vA' vW' vB' GP (j := jOf t) (le_refl t.val)) $$ Htile
  ihave Hs := (Entails.of_eq (SparseCore.bigSep_erase' (Finset.mem_univ (sN (jOf t))))) $$ Hslots
  icases Hs with ⟨Hslot, Hsl'⟩
  ihave Hslot' := (Entails.of_eq (bigSep_congr fun r _ => SlotSt_free (F := F) c r (free_lo ⟨t.val, h2⟩))) $$ Hslot
  iapply (wp_wand_r frame _ _) $$ [Hy0 Hy1 Hy2 Hslot' Hfresh HO Hothers Hsl']
  isplitl [Hy0 Hy1 Hy2 Hslot' Hfresh HO]
  · iapply hstep
    isplitl [Hy0]; · iexact Hy0
    isplitl [Hy1]; · iexact Hy1
    isplitl [Hy2]; · iexact Hy2
    isplitl [Hslot']; · iexact Hslot'
    isplitl [Hfresh]; · iexact Hfresh
    iexact HO
  iintro %_ ⟨Hy0, Hy1, Hy2, Hfl, HO⟩
  isplitl [Hfl Hothers Hsl']
  · isplitr; · iexact Hlev
    isplitl [Hfl Hothers]
    · iapply (Entails.of_eq (SparseCore.bigSep_erase' (Finset.mem_univ (jOf t))).symm)
      isplitl [Hfl]
      · iapply (tile_flight c vA' vW' vB' GP (j := jOf t) k1 k2 k3 x2 x3 hw hb)
        iexact Hfl
      · iapply (Entails.of_eq eT.symm); iexact Hothers
    · iapply (Entails.of_eq (SparseCore.bigSep_erase' (Finset.mem_univ (sN (jOf t)))).symm)
      isplitr
      · iapply (Entails.of_eq eB.symm); iempintro
      · iapply (Entails.of_eq eS.symm); iexact Hsl'
  isplitl [HO]; · iexact HO
  isplitl [Hy0]; · iexact Hy0
  isplitl [Hy1]; · iexact Hy1
  iexact Hy2

omit [FloatOps F] [∀ e, Nonempty (Elt F e)] in
theorem lt33' (t : Fin cfg1.N) : t.val - 2 < 33 := by have := lt33 t; omega
/-- The tile two points back. -/
abbrev jOf2 (t : Fin cfg1.N) : Fin 33 := ⟨t.val - 2, lt33' t⟩

/-- Points 2 to 31. -/
theorem inv_step_mid (hmid : StepMid (F := F) c (0 : CellTallies nD τ sig (HIx 1)) GP) (t : Fin cfg1.N) (h2 : 2 ≤ t.val) (h32 : t.val < 32)
    (x2 : Vec F S64x3072 .f32) (x3 : Vec F S3072 .f32) (W1 : Waits sig (HIx 1))
    (hw : Cert.Spec.WAgrees vW' (jOf t) x2) (hb : Cert.Spec.BAgrees vB' (jOf t) x3) :
    iprop(Inv c vA' vW' vB' GP t.val ∗ owes (thr c) (0 : CellTallies nD τ sig (HIx 1)) W1
        ∗ owns (thr c) (st1_0 t) fullShare vA' ∗ owns (thr c) (st1_1 t) fullShare x2 ∗ owns (thr c) (st1_2 t) fullShare x3)
      ⊢ wp frame (wpE (defs₀ (F := F)) Variants.none (thr c) none) Set.univ (bodyAt1 t) fun _ =>
          iprop(Inv c vA' vW' vB' GP (t.val + 1) ∗ (∃ W', ⌜∀ p ∈ W', p ∈ W1 ∨ p.2 = none⌝ ∗ owes (thr c) (0 : CellTallies nD τ sig (HIx 1)) W')
            ∗ owns (thr c) (st1_0 t) fullShare vA' ∗ owns (thr c) (st1_1 t) fullShare x2 ∗ owns (thr c) (st1_2 t) fullShare x3) := by
  have k1 : (jOf t).val < t.val + 1 := Nat.lt_succ_self _
  have k2 : t.val + 1 ≤ (jOf t).val + 2 := by show t.val + 1 ≤ t.val + 2; omega
  have k3 : t.val + 1 ≤ 32 := by omega
  have m1 : (jOf2 t).val < t.val := by show t.val - 2 < t.val; omega
  have m2 : t.val ≤ (jOf2 t).val + 2 := by show t.val ≤ t.val - 2 + 2; omega
  have m3 : t.val ≤ 32 := by omega
  have m4 : (jOf2 t).val < t.val + 1 := by show t.val - 2 < t.val + 1; omega
  have m5 : (jOf2 t).val + 2 < t.val + 1 ∨ 32 < t.val + 1 := Or.inl (by show t.val - 2 + 2 < t.val + 1; omega)
  have hne : jOf2 t ≠ jOf t := fun e => by have := congrArg Fin.val e; simp only at this; omega
  have hsl : sN (jOf2 t) = sN (jOf t) := Fin.ext (by show (t.val - 2) % 2 = t.val % 2; omega)
  have eT : (bigSep ((Finset.univ.erase (jOf t)).erase (jOf2 t)) fun j => TileSt c vA' vW' vB' GP (t.val + 1) j)
      = bigSep ((Finset.univ.erase (jOf t)).erase (jOf2 t)) fun j => TileSt c vA' vW' vB' GP t.val j :=
    bigSep_congr fun j hj => TileSt_succ c vA' vW' vB' GP t.val j
      (fun e => (Finset.ne_of_mem_erase (Finset.mem_of_mem_erase hj)) (Fin.ext e))
      (fun e => (Finset.ne_of_mem_erase hj) (Fin.ext (by show j.val = t.val - 2; omega))) h32
  have eS : (bigSep Finset.univ fun s : Fin 2 => bigSep Finset.univ fun r : Fin 6 => SlotSt (F := F) c (t.val + 1) s r) = (iprop(emp) : sProp 𝕄) :=
    (bigSep_congr fun s _ => (bigSep_congr fun r _ => SlotSt_busy (F := F) c r (busy_mid ⟨t.val + 1, by omega⟩ s (by show 2 ≤ t.val + 1; omega))).trans (bigSep_emp'' _)).trans (bigSep_emp'' _)
  have hmem2 : jOf2 t ∈ Finset.univ.erase (jOf t) := Finset.mem_erase.mpr ⟨hne, Finset.mem_univ _⟩
  unfold Inv
  iintro ⟨⟨#Hlev, Htiles, -⟩, HO, Hy0, Hy1, Hy2⟩
  ihave Hmw := ((K (F := F)).mayWaits_none (thr := thr c) (O := (0 : CellTallies nD τ sig (HIx 1))) (fun _ => rfl)) $$ Hlev
  ihave Ht := (Entails.of_eq (SparseCore.bigSep_erase' (Finset.mem_univ (jOf t)))) $$ Htiles
  icases Ht with ⟨Htile, Hrest⟩
  ihave Hfresh := (tile_fresh c vA' vW' vB' GP (j := jOf t) (le_refl t.val)) $$ Htile
  ihave Ht2 := (Entails.of_eq (SparseCore.bigSep_erase' hmem2)) $$ Hrest
  icases Ht2 with ⟨Htile2, Hothers⟩
  ihave Hfl2 := (tile_flight_elim c vA' vW' vB' GP (j := jOf2 t) m1 m2 m3) $$ Htile2
  icases Hfl2 with ⟨%y2, %y3, %hy, Hfl2⟩
  have hstep := hmid t h2 h32 vA' x2 x3 W1 (fun r => doneC c (jOf2 t) r (GP (jOf2 t) r vA' y2 y3))
  rw [tOf_pt, sOf_pt, ← hsl] at hstep
  iapply (wp_wand_r frame _ _) $$ [Hy0 Hy1 Hy2 Hfl2 Hfresh HO Hothers Hmw]
  isplitl [Hy0 Hy1 Hy2 Hfl2 Hfresh HO Hmw]
  · iapply hstep
    isplitl [Hy0]; · iexact Hy0
    isplitl [Hy1]; · iexact Hy1
    isplitl [Hy2]; · iexact Hy2
    isplitl [Hfl2]; · iexact Hfl2
    isplitl [Hfresh]; · iexact Hfresh
    isplitl [HO]; · iexact HO
    iexact Hmw
  iintro %_ ⟨Hy0, Hy1, Hy2, ⟨Hdone, Hfl⟩, HO⟩
  isplitl [Hfl Hdone Hothers]
  · isplitr; · iexact Hlev
    isplitl [Hfl Hdone Hothers]
    · iapply (Entails.of_eq (SparseCore.bigSep_erase' (Finset.mem_univ (jOf t))).symm)
      isplitl [Hfl]
      · iapply (tile_flight c vA' vW' vB' GP (j := jOf t) k1 k2 k3 x2 x3 hw hb)
        rw [hsl]; iexact Hfl
      · iapply (Entails.of_eq (SparseCore.bigSep_erase' hmem2).symm)
        isplitl [Hdone]
        · iapply (tile_done c vA' vW' vB' GP (j := jOf2 t) m4 m5 y2 y3 hy.1 hy.2); iexact Hdone
        · iapply (Entails.of_eq eT.symm); iexact Hothers
    · iapply (Entails.of_eq eS.symm); iempintro
  isplitl [HO]; · iexact HO
  isplitl [Hy0]; · iexact Hy0
  isplitl [Hy1]; · iexact Hy1
  iexact Hy2

/-- The last point. -/
theorem inv_step_last (hlast : StepLast (F := F) c (0 : CellTallies nD τ sig (HIx 1)) GP) (t : Fin cfg1.N) (h32 : t.val = 32)
    (x2 : Vec F S64x3072 .f32) (x3 : Vec F S3072 .f32) (W1 : Waits sig (HIx 1))
    (hw : Cert.Spec.WAgrees vW' (jOf t) x2) (hb : Cert.Spec.BAgrees vB' (jOf t) x3) :
    iprop(Inv c vA' vW' vB' GP t.val ∗ owes (thr c) (0 : CellTallies nD τ sig (HIx 1)) W1
        ∗ owns (thr c) (st1_0 t) fullShare vA' ∗ owns (thr c) (st1_1 t) fullShare x2 ∗ owns (thr c) (st1_2 t) fullShare x3)
      ⊢ wp frame (wpE (defs₀ (F := F)) Variants.none (thr c) none) Set.univ (bodyAt1 t) fun _ =>
          iprop(Inv c vA' vW' vB' GP (t.val + 1) ∗ (∃ W', ⌜∀ p ∈ W', p ∈ W1 ∨ p.2 = none⌝ ∗ owes (thr c) (0 : CellTallies nD τ sig (HIx 1)) W')
            ∗ owns (thr c) (st1_0 t) fullShare vA' ∗ owns (thr c) (st1_1 t) fullShare x2 ∗ owns (thr c) (st1_2 t) fullShare x3) := by
  have hjt : jOf t = (32 : Fin 33) := Fin.ext h32
  rw [hjt] at hw hb
  have e32 : Inv c vA' vW' vB' GP t.val = Inv c vA' vW' vB' GP 32 := by rw [h32]
  have e33 : Inv c vA' vW' vB' GP (t.val + 1) = Inv c vA' vW' vB' GP 33 := by rw [h32]
  rw [e32, e33]
  have m30 : (30 : Fin 33) ∈ (Finset.univ.erase (32 : Fin 33)).erase (31 : Fin 33) := by decide
  have m31 : (31 : Fin 33) ∈ Finset.univ.erase (32 : Fin 33) := by decide
  have eT : (bigSep (((Finset.univ.erase (32 : Fin 33)).erase (31 : Fin 33)).erase (30 : Fin 33)) fun j => TileSt c vA' vW' vB' GP 33 j)
      = bigSep (((Finset.univ.erase (32 : Fin 33)).erase (31 : Fin 33)).erase (30 : Fin 33)) fun j => TileSt c vA' vW' vB' GP 32 j :=
    bigSep_congr fun j hj => TileSt_end c vA' vW' vB' GP j (by
      have h30 : j.val ≠ 30 := fun e => (Finset.ne_of_mem_erase hj) (Fin.ext e)
      have h31 : j.val ≠ 31 := fun e => (Finset.ne_of_mem_erase (Finset.mem_of_mem_erase hj)) (Fin.ext e)
      have h32' : j.val ≠ 32 := fun e => (Finset.ne_of_mem_erase (Finset.mem_of_mem_erase (Finset.mem_of_mem_erase hj))) (Fin.ext e)
      have := j.isLt; omega)
  have eS : (bigSep Finset.univ fun s : Fin 2 => bigSep Finset.univ fun r : Fin 6 => SlotSt (F := F) c 33 s r)
      = bigSep Finset.univ fun s : Fin 2 => bigSep Finset.univ fun r : Fin 6 => iprop(cellC (F := F) c s r ∗ scrC (F := F) c s r) :=
    bigSep_congr fun s _ => bigSep_congr fun r _ => SlotSt_free (F := F) c r (free_end s)
  unfold Inv
  iintro ⟨⟨#Hlev, Htiles, -⟩, HO, Hy0, Hy1, Hy2⟩
  ihave Hmw := ((K (F := F)).mayWaits_none (thr := thr c) (O := (0 : CellTallies nD τ sig (HIx 1))) (fun _ => rfl)) $$ Hlev
  ihave Ht := (Entails.of_eq (SparseCore.bigSep_erase' (Finset.mem_univ (32 : Fin 33)))) $$ Htiles
  icases Ht with ⟨Htile, Hrest⟩
  ihave Hfresh := (tile_fresh c vA' vW' vB' GP (t := 32) (j := (32 : Fin 33)) (le_refl 32)) $$ Htile
  ihave Ht1 := (Entails.of_eq (SparseCore.bigSep_erase' m31)) $$ Hrest
  icases Ht1 with ⟨Htile1, Hrest1⟩
  ihave Hfl1 := (tile_flight_elim c vA' vW' vB' GP (t := 32) (j := (31 : Fin 33)) (by decide) (by decide) (le_refl 32)) $$ Htile1
  icases Hfl1 with ⟨%z2, %z3, %hz, Hfl1⟩
  ihave Ht0 := (Entails.of_eq (SparseCore.bigSep_erase' m30)) $$ Hrest1
  icases Ht0 with ⟨Htile0, Hothers⟩
  ihave Hfl0 := (tile_flight_elim c vA' vW' vB' GP (t := 32) (j := (30 : Fin 33)) (by decide) (by decide) (le_refl 32)) $$ Htile0
  icases Hfl0 with ⟨%y2, %y3, %hy, Hfl0⟩
  have hstep := hlast t h32 vA' x2 x3 W1 (fun r => doneC c (30 : Fin 33) r (GP 30 r vA' y2 y3)) (fun r => doneC c (31 : Fin 33) r (GP 31 r vA' z2 z3))
  iapply (wp_wand_r frame _ _) $$ [Hy0 Hy1 Hy2 Hfl0 Hfl1 Hfresh HO Hothers Hmw]
  isplitl [Hy0 Hy1 Hy2 Hfl0 Hfl1 Hfresh HO Hmw]
  · iapply hstep
    isplitl [Hy0]; · iexact Hy0
    isplitl [Hy1]; · iexact Hy1
    isplitl [Hy2]; · iexact Hy2
    isplitl [Hfl0]; · iexact Hfl0
    isplitl [Hfl1]; · iexact Hfl1
    isplitl [Hfresh]; · iexact Hfresh
    isplitl [HO]; · iexact HO
    iexact Hmw
  iintro %_ ⟨Hy0, Hy1, Hy2, ⟨Hd0, Hd1, Hd2, Hcells⟩, HO⟩
  isplitl [Hd0 Hd1 Hd2 Hcells Hothers]
  · isplitr; · iexact Hlev
    isplitl [Hd0 Hd1 Hd2 Hothers]
    · iapply (Entails.of_eq (SparseCore.bigSep_erase' (Finset.mem_univ (32 : Fin 33))).symm)
      isplitl [Hd2]
      · iapply (tile_done c vA' vW' vB' GP (t := 33) (j := (32 : Fin 33)) (by decide) (Or.inr (by decide)) x2 x3 hw hb); iexact Hd2
      · iapply (Entails.of_eq (SparseCore.bigSep_erase' m31).symm)
        isplitl [Hd1]
        · iapply (tile_done c vA' vW' vB' GP (t := 33) (j := (31 : Fin 33)) (by decide) (Or.inr (by decide)) z2 z3 hz.1 hz.2); iexact Hd1
        · iapply (Entails.of_eq (SparseCore.bigSep_erase' m30).symm)
          isplitl [Hd0]
          · iapply (tile_done c vA' vW' vB' GP (t := 33) (j := (30 : Fin 33)) (by decide) (Or.inr (by decide)) y2 y3 hy.1 hy.2); iexact Hd0
          · iapply (Entails.of_eq eT.symm); iexact Hothers
    · iapply (Entails.of_eq eS.symm); iexact Hcells
  isplitl [HO]; · iexact HO
  isplitl [Hy0]; · iexact Hy0
  isplitl [Hy1]; · iexact Hy1
  iexact Hy2

end Sorting

section Record

variable (vA : (c : Dev nD) → Buf (Elt F) ((thr c).loc main_v2)) (vW : (c : Dev nD) → Buf (Elt F) ((thr c).loc main_v3))
  (vB : (c : Dev nD) → Buf (Elt F) ((thr c).loc main_arg3)) (W : Waits sig (HIx 1))

/-- What is claimed of a written row range: its rows inside the array are the tile function of the three blocks. -/
abbrev GPg (c : Dev nD) : Fin 33 → Fin 6 → Vec F S64x1024 .f32 → Vec F S64x3072 .f32 → Vec F S3072 .f32 → Buf (Elt F) (V4.view.loc (thr c)) → Prop :=
  fun j r a w b f => GoodOn j r a w b f

/-- The pipeline's proof data on core `c`. -/
def rdat (c : Dev nD) : Pipeline.RDat τ (Elt F) (HIx 1) ℕ UU ℕ cfg1 c where
  A := fun | 0 => vA c | 1 => vW c | 2 => vB c | ⟨_ + 3, h⟩ => absurd h (Nat.not_lt.2 (Nat.le_add_left _ _))
  after := fun _ _ Y X => X = Y
  Φ := fun t => Inv c (vA c) (vW c) (vB c) (GPg c) t.val
  q := fun _ => fullShare
  owed := fun _ => 0
  recorded := fun _ => {p | p ∈ W ∨ p.2 = none}

theorem bound_sub (c : Dev nD) (t : Fin (cfg1.N + 1)) : (rdat vA vW vB W c).bound (none : HIx 1) t ⊆ {p | p ∈ W ∨ p.2 = none} := by
  rintro p (hp | ⟨w, s, rfl⟩)
  · exact hp
  · exact Or.inr rfl

theorem hbody (c : Dev nD) (hlo : StepLo (F := F) c (0 : CellTallies nD τ sig (HIx 1)) (GPg c)) (hmid : StepMid (F := F) c (0 : CellTallies nD τ sig (HIx 1)) (GPg c))
    (hlast : StepLast (F := F) c (0 : CellTallies nD τ sig (HIx 1)) (GPg c)) :
    (rdat vA vW vB W c).BodyObligation (defs₀ (F := F)) Variants.none (none : HIx 1) Set.univ := by
  intro t Y hY
  rw [Gen.bigSep_W1, Gen.bigSep_W1]
  have hx1 : Y 0 = vA c := finds_A c _ (vA c) rfl (fun _ _ _ h => h) t (Y 0) (hY 0)
  have hw : Cert.Spec.WAgrees (vW c) (jOf t) (Y 1) := finds_W c _ (vW c) rfl t (Y 1) (hY 1)
  have hb : Cert.Spec.BAgrees (vB c) (jOf t) (Y 2) := finds_B c _ (vB c) rfl t (Y 2) (hY 2)
  have key : ∀ W1 : Waits sig (HIx 1),
      iprop(Inv c (vA c) (vW c) (vB c) (GPg c) t.val ∗ owes (thr c) (0 : CellTallies nD τ sig (HIx 1)) W1
          ∗ owns (thr c) (st1_0 t) fullShare (vA c) ∗ owns (thr c) (st1_1 t) fullShare (Y 1) ∗ owns (thr c) (st1_2 t) fullShare (Y 2))
        ⊢ wp frame (wpE (defs₀ (F := F)) Variants.none (thr c) none) Set.univ (bodyAt1 t) fun _ =>
            iprop(Inv c (vA c) (vW c) (vB c) (GPg c) (t.val + 1) ∗ (∃ W', ⌜∀ p ∈ W', p ∈ W1 ∨ p.2 = none⌝ ∗ owes (thr c) (0 : CellTallies nD τ sig (HIx 1)) W')
              ∗ owns (thr c) (st1_0 t) fullShare (vA c) ∗ owns (thr c) (st1_1 t) fullShare (Y 1) ∗ owns (thr c) (st1_2 t) fullShare (Y 2)) := by
    intro W1
    rcases Nat.lt_or_ge t.val 2 with h | h
    · exact inv_step_lo c (vA c) (vW c) (vB c) (GPg c) hlo t h (Y 1) (Y 2) W1 hw hb
    · rcases Nat.lt_or_ge t.val 32 with h' | h'
      · exact inv_step_mid c (vA c) (vW c) (vB c) (GPg c) hmid t h h' (Y 1) (Y 2) W1 hw hb
      · exact inv_step_last c (vA c) (vW c) (vB c) (GPg c) hlast t (by have := lt33 t; omega) (Y 1) (Y 2) W1 hw hb
  have eΦ0 : (rdat vA vW vB W c).Φ t.castSucc = Inv c (vA c) (vW c) (vB c) (GPg c) t.val :=
    (show (rdat vA vW vB W c).Φ t.castSucc = Inv c (vA c) (vW c) (vB c) (GPg c) t.castSucc.val from rfl).trans
      (congrArg (Inv c (vA c) (vW c) (vB c) (GPg c)) (Fin.coe_castSucc t))
  have eΦ1 : (rdat vA vW vB W c).Φ t.succ = Inv c (vA c) (vW c) (vB c) (GPg c) (t.val + 1) :=
    (show (rdat vA vW vB W c).Φ t.succ = Inv c (vA c) (vW c) (vB c) (GPg c) t.succ.val from rfl).trans
      (congrArg (Inv c (vA c) (vW c) (vB c) (GPg c)) (Fin.val_succ t))
  iintro ⟨HΦ, ⟨%W1, %hW1, HO⟩, Hy0, Hy1, Hy2⟩
  ihave HΦ := (Entails.of_eq eΦ0) $$ HΦ
  iapply (wp_wand_r frame _ _) $$ [HΦ HO Hy0 Hy1 Hy2]
  isplitl [HΦ HO Hy0 Hy1 Hy2]
  · iapply (key W1)
    isplitl [HΦ]; · iexact HΦ
    isplitl [HO]; · iexact HO
    isplitl [Hy0]; · rw [← hx1]; iexact Hy0
    isplitl [Hy1]; · iexact Hy1
    iexact Hy2
  iintro %_ ⟨HΦ, ⟨%W', %hW', HO⟩, Hy0, Hy1, Hy2⟩
  isplitl [HΦ]; · iapply (Entails.of_eq eΦ1.symm); iexact HΦ
  isplitl [HO]
  · iexists W'; isplitr
    · ipureintro
      intro p hp
      exact Or.inl ((hW' p hp).elim (fun h => bound_sub vA vW vB W c _ (hW1 h)) Or.inr)
    · iexact HO
  isplitl [Hy0]
  · iexists (Y 0); isplitr
    · ipureintro; rfl
    · rw [hx1]; iexact Hy0
  isplitl [Hy1]
  · iexists (Y 1); isplitr
    · ipureintro; rfl
    · iexact Hy1
  iexists (Y 2); isplitr
  · ipureintro; rfl
  · iexact Hy2

/-! ## The record -/

/-- The kernel's own semaphores: one per slot and chunk. -/
abbrev KK : Type := Fin 2 × Fin 6
abbrev osem : KK → SemLoc sig := fun k => SemLoc.dma (semC k.1 k.2)

omit [FloatOps F] [∀ e, Nonempty (Elt F e)] in
theorem ho : Pipeline.OwnSemFacts spec1 osem := by decide

omit [FloatOps F] in
theorem ownSems0_cells (c : Dev nD) :
    (Pipeline.ownSems0 osem c : sProp 𝕄) = bigSep Finset.univ fun s : Fin 2 => bigSep Finset.univ fun r : Fin 6 => cellC (F := F) c s r := by
  unfold Pipeline.ownSems0
  rw [bigSep_univ_prod]

/-- The proof data, per pipeline and core. -/
abbrev rdats : (p : Fin 1) → (c : Dev nD) → Pipeline.RDat τ (Elt F) (HIx 1) ℕ UU ℕ (Pipeline.pin (pcfgs (F := F)) (adm (F := F)) p) c :=
  fun _ c => rdat vA vW vB W c

/-- The region's three operand arrays, held whole. -/
abbrev inArrs (c : Dev nD) : sProp 𝕄 :=
  iprop(((thr c).loc main_v2 ↦{fullShare} vA c) ∗ ((thr c).loc main_v3 ↦{fullShare} vW c) ∗ ((thr c).loc main_arg3 ↦{fullShare} vB c))

theorem share_full (c : Dev nD) (w : Fin cfg1.W) : (rdat vA vW vB W c).share w = fullShare := by
  unfold Pipeline.RDat.share; split <;> rfl

theorem arrays_eq (c : Dev nD) : ((rdat vA vW vB W c).arrays (rdat vA vW vB W c).A : sProp 𝕄) = inArrs vA vW vB c := by
  rw [Pipeline.RDat.arrays_eq (pcfgs (F := F)) (adm (F := F)) (rdats vA vW vB W) 0 c Gen.launch1.arr_whole (share_full vA vW vB W c), Gen.bigSep_W1]
  rfl

theorem pts_arr (c : Dev nD) (b : Ref sig .tc) (q : PosShare TreeShare) (f : Buf (Elt F) ((Memref.whole b).view.loc (thr c))) :
    (((Memref.whole b).view.loc (thr c)) ↦[(Memref.whole b).view.set]{q} f : sProp 𝕄) = ((thr c).loc b ↦{q} f) := by
  simp only [Memref.view_whole, View.set_whole]

/-- At the region's exit the three operand arrays are as they were entered. -/
theorem arraysAt_elim (c : Dev nD) (n : ℕ) : ((rdat vA vW vB W c).arraysAt n : sProp 𝕄) ⊢ inArrs vA vW vB c := by
  unfold Pipeline.RDat.arraysAt
  rw [Gen.bigSep_W1]
  simp only [share_full vA vW vB W c]
  rw [(rdat vA vW vB W c).ArrAt_in 0 rfl n, (rdat vA vW vB W c).ArrAt_in 1 rfl n, (rdat vA vW vB W c).ArrAt_in 2 rfl n]
  iintro ⟨⟨%F0, %h0, H0⟩, ⟨%F1, %h1, H1⟩, ⟨%F2, %h2, H2⟩⟩
  subst h0 h1 h2
  isplitl [H0]; · iapply (Entails.of_eq (pts_arr c main_v2 fullShare _)); iexact H0
  isplitl [H1]; · iapply (Entails.of_eq (pts_arr c main_v3 fullShare _)); iexact H1
  iapply (Entails.of_eq (pts_arr c main_arg3 fullShare _)); iexact H2

/-! ## The record, from the body's three cases and the invariant's two ends -/

section Reg

variable (hlo : ∀ c : Dev nD, StepLo (F := F) c (0 : CellTallies nD τ sig (HIx 1)) (GPg c))
  (hmid : ∀ c : Dev nD, StepMid (F := F) c (0 : CellTallies nD τ sig (HIx 1)) (GPg c))
  (hlast : ∀ c : Dev nD, StepLast (F := F) c (0 : CellTallies nD τ sig (HIx 1)) (GPg c))
  (hzero : ∀ c : Dev nD, iprop(levAts (K (F := F)).L (K (F := F)).lev ∗ (∃ f, V4.view.loc (thr c) ↦{fullShare} f) ∗ (∃ g, SCR.view.loc (thr c) ↦{fullShare} g)
      ∗ bigSep Finset.univ fun s : Fin 2 => bigSep Finset.univ fun r : Fin 6 => cellC (F := F) c s r) ⊢ Inv c (vA c) (vW c) (vB c) (GPg c) 0)
  (hend : ∀ c : Dev nD, Inv c (vA c) (vW c) (vB c) (GPg c) 33 ⊢ iprop(levAts (K (F := F)).L (K (F := F)).lev
      ∗ (∃ out, ⌜∀ j : Fin 33, ∃ (wblk : Vec F S64x3072 .f32) (bblk : Vec F S3072 .f32), Cert.Spec.WAgrees (vW c) j wblk ∧ Cert.Spec.BAgrees (vB c) j bblk ∧ ∀ r : Fin 6, GPg c j r (vA c) wblk bblk out⌝
          ∗ V4.view.loc (thr c) ↦{fullShare} out)
      ∗ (∃ g, SCR.view.loc (thr c) ↦{fullShare} g)
      ∗ bigSep Finset.univ fun s : Fin 2 => bigSep Finset.univ fun r : Fin 6 => cellC (F := F) c s r))

include hzero in
theorem reg_hin (c : Dev nD) :
    iprop((levAts (K (F := F)).L (K (F := F)).lev ∗ (∃ f, (thr c).loc main_v4 ↦{fullShare} f) ∗ Pipeline.ownSems0 osem c)
        ∗ Pipeline.prefHeld (pcfgs (F := F) 0).pre c (fun _ => fullShare) (adm (F := F) 0).1
        ∗ (∃ f : Buf (Elt F) ((c : Thread nD τ).loc cc1_scratch0), ((c : Thread nD τ).loc cc1_scratch0) ↦{fullShare} f))
      ⊢ Inv c (vA c) (vW c) (vB c) (GPg c) 0 := by
  iintro ⟨⟨#Hlev, Hv4, Hsems⟩, -, Hscr⟩
  iapply (hzero c)
  isplitr; · iexact Hlev
  isplitl [Hv4]; · iexact Hv4
  isplitl [Hscr]; · iexact Hscr
  iapply (Entails.of_eq (ownSems0_cells c)); iexact Hsems

include hend in
theorem reg_hout (c : Dev nD) :
    Inv c (vA c) (vW c) (vB c) (GPg c) 33
      ⊢ iprop((∃ out, ⌜Cert.Spec.IsOut (tileF (F := F)) (vA c) (vW c) (vB c) out⌝ ∗ (thr c).loc main_v4 ↦{fullShare} out) ∗ Pipeline.ownSems0 osem c
        ∗ (∃ f : Buf (Elt F) ((c : Thread nD τ).loc cc1_scratch0), ((c : Thread nD τ).loc cc1_scratch0) ↦{fullShare} f)) := by
  have h1 : iprop(levAts (K (F := F)).L (K (F := F)).lev
      ∗ (∃ out, ⌜∀ j : Fin 33, ∃ (wblk : Vec F S64x3072 .f32) (bblk : Vec F S3072 .f32), Cert.Spec.WAgrees (vW c) j wblk ∧ Cert.Spec.BAgrees (vB c) j bblk ∧ ∀ r : Fin 6, GPg c j r (vA c) wblk bblk out⌝
          ∗ V4.view.loc (thr c) ↦{fullShare} out)
      ∗ (∃ g, SCR.view.loc (thr c) ↦{fullShare} g)
      ∗ bigSep Finset.univ fun s : Fin 2 => bigSep Finset.univ fun r : Fin 6 => cellC (F := F) c s r)
      ⊢ iprop((∃ out, ⌜Cert.Spec.IsOut (tileF (F := F)) (vA c) (vW c) (vB c) out⌝ ∗ (thr c).loc main_v4 ↦{fullShare} out) ∗ Pipeline.ownSems0 osem c
        ∗ (∃ f : Buf (Elt F) ((c : Thread nD τ).loc cc1_scratch0), ((c : Thread nD τ).loc cc1_scratch0) ↦{fullShare} f)) := by
    iintro ⟨-, ⟨%out, %hout, Hv4⟩, Hscr, Hcells⟩
    choose wb bb h using hout
    isplitl [Hv4]
    · iexists out; isplitr
      · ipureintro
        exact isOut_of_good (vA c) (vW c) (vB c) out wb bb (fun j => (h j).1) (fun j => (h j).2.1) (fun j r => (h j).2.2 r)
      · iexact Hv4
    isplitl [Hcells]; · iapply (Entails.of_eq (ownSems0_cells c).symm); iexact Hcells
    iexact Hscr
  exact (hend c).trans h1

/-- The region's record. -/
def reg : Pipeline.RDat.RegionSeg (pcfgs (F := F)) (adm (F := F)) (rdats vA vW vB W) (none : HIx 1) (defs₀ (F := F)) Variants.none
    (K (F := F)).L (K (F := F)).lev (0 : Fin 1) where
  win := Gen.launch1.win.to₀
  block_pos := Gen.launch1.block_pos
  stage_whole := Gen.launch1.stage_whole
  K := KK
  osem := osem
  ho := ho
  hbody c := hbody vA vW vB W c (hlo c) (hmid c) (hlast c)
  hwaits c := (show (levAts (K (F := F)).L (K (F := F)).lev : sProp 𝕄) ⊢ BI.emp from by iintro -; iempintro).trans
    (Pipeline.RDat.cellsWaits_of_owed_zero (Pipeline.pin (pcfgs (F := F)) (adm (F := F))) (rdats vA vW vB W) (none : HIx 1) 0 c (fun _ => rfl))
  pre c := iprop(inArrs vA vW vB c ∗ (∃ f, (thr c).loc main_v4 ↦{fullShare} f) ∗ owes (thr c) (0 : CellTallies nD τ sig (HIx 1)) W)
  post c := iprop(inArrs vA vW vB c ∗ (∃ out, ⌜Cert.Spec.IsOut (tileF (F := F)) (vA c) (vW c) (vB c) out⌝ ∗ (thr c).loc main_v4 ↦{fullShare} out)
    ∗ ∃ W', ⌜∀ p ∈ W', p ∈ W ∨ p.2 = none⌝ ∗ owes (thr c) (0 : CellTallies nD τ sig (HIx 1)) W')
  X c := iprop(levAts (K (F := F)).L (K (F := F)).lev ∗ (∃ f, (thr c).loc main_v4 ↦{fullShare} f) ∗ Pipeline.ownSems0 osem c)
  Y c := iprop(∃ out, ⌜Cert.Spec.IsOut (tileF (F := F)) (vA c) (vW c) (vB c) out⌝ ∗ (thr c).loc main_v4 ↦{fullShare} out)
  Z _ := iprop(emp)
  hentry c := by
    rw [show ((rdats vA vW vB W 0 c).arrays (rdats vA vW vB W 0 c).A : sProp 𝕄) = inArrs vA vW vB c from arrays_eq vA vW vB W c]
    iintro ⟨⟨Ha, Hv4, HO⟩, Hsems, #Hlev⟩
    imodintro
    isplitl [Ha]; · iexact Ha
    isplitr
    · unfold Pipeline.prefHeld; rw [show (Finset.univ : Finset (Fin 0)) = ∅ from rfl, BI.bigSep_empty]; iempintro
    isplitl [HO]
    · iexists W; isplitr
      · ipureintro; exact fun p hp => Or.inl (Or.inl hp)
      · iexact HO
    isplitl [Hv4 Hsems]
    · isplitr; · iexact Hlev
      isplitl [Hv4]; · iexact Hv4
      iexact Hsems
    iempintro
  hin c := by
    rw [Gen.scopedRest1_eq]
    exact (reg_hin vA vW vB hzero c).trans (Entails.of_eq (show Inv c (vA c) (vW c) (vB c) (GPg c) 0 = (rdats vA vW vB W 0 c).Φ 0 from rfl))
  hout c := by
    rw [Gen.scopedRest1_eq]
    exact (Entails.of_eq (show (rdats vA vW vB W 0 c).Φ (Fin.last (Pipeline.pin (pcfgs (F := F)) (adm (F := F)) 0).N) = Inv c (vA c) (vW c) (vB c) (GPg c) 33 from rfl)).trans
      (reg_hout vA vW vB hend c)
  hexit c := by
    iintro ⟨Harr, ⟨%W', %hW', HO⟩, Hy, -⟩
    imodintro
    isplitl [Harr]; · iapply (arraysAt_elim vA vW vB W c _); iexact Harr
    isplitl [Hy]; · iexact Hy
    iexists W'; isplitr
    · ipureintro; exact fun p hp => bound_sub vA vW vB W c _ (hW' (Finset.mem_coe.mpr hp))
    · iexact HO

/-- The region's line of @main. -/
theorem region_wp_of (d : Dev nD) (Φ : PUnit → sProp 𝕄) :
    iprop((iprop(boundary (SparseCore.T d) ∗ (reg vA vW vB W hlo hmid hlast hzero hend).post d) -∗ Φ ⟨⟩) ∗ boundary (SparseCore.T d)
        ∗ (reg vA vW vB W hlo hmid hlast hzero hend).pre d ∗ levAts (K (F := F)).L (K (F := F)).lev
        ∗ Pipeline.cellsGhost (Pipeline.pin (pcfgs (F := F)) (adm (F := F))) EP (0 : Fin 1) d ∗ Pipeline.toksInit (Pipeline.pin (pcfgs (F := F)) (adm (F := F))) EP (0 : Fin 1) d)
      ⊢ wp frame (wpE ((K (F := F)).defs (Pipeline.defs pcfgs defs₀)) Variants.none.lift (SparseCore.T d) none) Set.univ
          (Prog.lift (.customCall (SparseCore.inner (Pipeline.entry (0 : Fin 1))) ())) Φ :=
  Cert.LibScRegion.region_line (pcfgs (F := F)) (adm (F := F)) (K (F := F)) (rdats vA vW vB W) Gen.cellOf_inj EP (defs₀ (F := F)) Variants.none
    (K (F := F)).lev (reg vA vW vB W hlo hmid hlast hzero hend) d Φ

end Reg

end Record

end Cert.Kernel.Region

end
-- ==== Proof.W.RegionTail.lean ====
/-
  The last grid point's views. The tail tile has 1696 rows: three copies of 512 rows and one of 160 leave slot 0 for
  the result's last rows, at literal offsets, on the slot's first four semaphores; slot 1's six copies of the point
  before are waited for through literal slices. The tail's sources are brought to the slot's chunks: three chunks
  whole, and the first 160 rows of the fourth.
-/
import proofs.«204125_g1194000908950_cont_fleet_528_33_alg».proof.Proof.W.RegionInv
import Idealize.ShloMosaic.Lib.Transfers
import Idealize.ShloMosaic.Lib.Writes
import Idealize.ShloMosaic.Lib.Pipeline.FrameBody
import Idealize.ShloMosaic.Lib.Tactic

noncomputable section

namespace Cert.Kernel.Region

open Cert.Kernel Cert.Kernel.Gen Cert.Kernel.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

/-! ## The last point's views: the tail's four copies from slot 0, and slot 1's six waits, at literal places -/

abbrev semT0 (i : grid1.Coords) (h : k1_cond3 i = 1#1) : DmaSem sig := ((cc1_scratch1.slice (Rect.unit (s := S2x6) (k1_off28 i) S1x1.size (k1_off28_inb i h))).squeeze S_ squeezes_S1x1_S_).sem
theorem semT0_eq : ∀ (i : grid1.Coords) (h : k1_cond3 i = 1#1), semT0 i h = semC (sOf i) 0 := by decide +kernel
abbrev semT1 (i : grid1.Coords) (h : k1_cond3 i = 1#1) : DmaSem sig := ((cc1_scratch1.slice (Rect.unit (s := S2x6) (k1_off30 i) S1x1.size (k1_off30_inb i h))).squeeze S_ squeezes_S1x1_S_).sem
theorem semT1_eq : ∀ (i : grid1.Coords) (h : k1_cond3 i = 1#1), semT1 i h = semC (sOf i) 1 := by decide +kernel
abbrev semT2 (i : grid1.Coords) (h : k1_cond3 i = 1#1) : DmaSem sig := ((cc1_scratch1.slice (Rect.unit (s := S2x6) (k1_off32 i) S1x1.size (k1_off32_inb i h))).squeeze S_ squeezes_S1x1_S_).sem
theorem semT2_eq : ∀ (i : grid1.Coords) (h : k1_cond3 i = 1#1), semT2 i h = semC (sOf i) 2 := by decide +kernel
abbrev semT3 (i : grid1.Coords) (h : k1_cond3 i = 1#1) : DmaSem sig := ((cc1_scratch1.slice (Rect.unit (s := S2x6) (k1_off34 i) S1x1.size (k1_off34_inb i h))).squeeze S_ squeezes_S1x1_S_).sem
theorem semT3_eq : ∀ (i : grid1.Coords) (h : k1_cond3 i = 1#1), semT3 i h = semC (sOf i) 3 := by decide +kernel
abbrev srcT0 (i : grid1.Coords) (h : k1_cond3 i = 1#1) : Memref sig .tc .vmem S512x1024 .f32 := (SCR.slice (Rect.unit (s := S2x3072x1024) (k1_off29 i) S1x512x1024.size (k1_off29_inb i h)) (fun _ => rfl)).squeeze S512x1024 squeezes_S1x512x1024_S512x1024
abbrev dstT0 : Memref sig .tc .hbm S512x1024 .f32 := V4.slice (Rect.unit (s := S100000x1024) ![98304, 0] S512x1024.size inb_S100000x1024_S512x1024_98304_0) (fun _ => rfl)
theorem srcT0_set (i : grid1.Coords) (h : k1_cond3 i = 1#1) : (srcT0 i h).view.set = (chunkR (sOf i) 0).set := by
  show ((View.whole (cc1_scratch0 : Ref sig .tc)).slice _ |>.reshape _ _).set = _
  rw [View.set_reshape, View.set_slice_whole]; exact unit_set_congr (by rw [k1_off29_eq]; rfl)
theorem dstT0_sub : (dstT0).view.set ⊆ dsetC 32 0 := by
  intro x hx
  have hx' : x ∈ (Rect.unit (s := S100000x1024) ![98304, 0] S512x1024.size inb_S100000x1024_S512x1024_98304_0).set := by
    rw [← View.set_slice_whole (main_v4 : Ref sig .tc)]; exact hx
  have h0 := (Rect.mem_set_unit.mp hx') 0
  rw [mem_dsetC]
  simpa using h0
abbrev srcT1 (i : grid1.Coords) (h : k1_cond3 i = 1#1) : Memref sig .tc .vmem S512x1024 .f32 := (SCR.slice (Rect.unit (s := S2x3072x1024) (k1_off31 i) S1x512x1024.size (k1_off31_inb i h)) (fun _ => rfl)).squeeze S512x1024 squeezes_S1x512x1024_S512x1024
abbrev dstT1 : Memref sig .tc .hbm S512x1024 .f32 := V4.slice (Rect.unit (s := S100000x1024) ![98816, 0] S512x1024.size inb_S100000x1024_S512x1024_98816_0) (fun _ => rfl)
theorem srcT1_set (i : grid1.Coords) (h : k1_cond3 i = 1#1) : (srcT1 i h).view.set = (chunkR (sOf i) 1).set := by
  show ((View.whole (cc1_scratch0 : Ref sig .tc)).slice _ |>.reshape _ _).set = _
  rw [View.set_reshape, View.set_slice_whole]; exact unit_set_congr (by rw [k1_off31_eq]; rfl)
theorem dstT1_sub : (dstT1).view.set ⊆ dsetC 32 1 := by
  intro x hx
  have hx' : x ∈ (Rect.unit (s := S100000x1024) ![98816, 0] S512x1024.size inb_S100000x1024_S512x1024_98816_0).set := by
    rw [← View.set_slice_whole (main_v4 : Ref sig .tc)]; exact hx
  have h0 := (Rect.mem_set_unit.mp hx') 0
  rw [mem_dsetC]
  simpa using h0
abbrev srcT2 (i : grid1.Coords) (h : k1_cond3 i = 1#1) : Memref sig .tc .vmem S512x1024 .f32 := (SCR.slice (Rect.unit (s := S2x3072x1024) (k1_off33 i) S1x512x1024.size (k1_off33_inb i h)) (fun _ => rfl)).squeeze S512x1024 squeezes_S1x512x1024_S512x1024
abbrev dstT2 : Memref sig .tc .hbm S512x1024 .f32 := V4.slice (Rect.unit (s := S100000x1024) ![99328, 0] S512x1024.size inb_S100000x1024_S512x1024_99328_0) (fun _ => rfl)
theorem srcT2_set (i : grid1.Coords) (h : k1_cond3 i = 1#1) : (srcT2 i h).view.set = (chunkR (sOf i) 2).set := by
  show ((View.whole (cc1_scratch0 : Ref sig .tc)).slice _ |>.reshape _ _).set = _
  rw [View.set_reshape, View.set_slice_whole]; exact unit_set_congr (by rw [k1_off33_eq]; rfl)
theorem dstT2_sub : (dstT2).view.set ⊆ dsetC 32 2 := by
  intro x hx
  have hx' : x ∈ (Rect.unit (s := S100000x1024) ![99328, 0] S512x1024.size inb_S100000x1024_S512x1024_99328_0).set := by
    rw [← View.set_slice_whole (main_v4 : Ref sig .tc)]; exact hx
  have h0 := (Rect.mem_set_unit.mp hx') 0
  rw [mem_dsetC]
  simpa using h0
abbrev srcT3 (i : grid1.Coords) (h : k1_cond3 i = 1#1) : Memref sig .tc .vmem S160x1024 .f32 := (SCR.slice (Rect.unit (s := S2x3072x1024) (k1_off35 i) S1x160x1024.size (k1_off35_inb i h)) (fun _ => rfl)).squeeze S160x1024 squeezes_S1x160x1024_S160x1024
abbrev dstT3 : Memref sig .tc .hbm S160x1024 .f32 := V4.slice (Rect.unit (s := S100000x1024) ![99840, 0] S160x1024.size inb_S100000x1024_S160x1024_99840_0) (fun _ => rfl)
theorem srcT3_sub (i : grid1.Coords) (h : k1_cond3 i = 1#1) : (srcT3 i h).view.set ⊆ (chunkR (sOf i) 3).set := by
  intro x hx
  have hx' : x ∈ (Rect.unit (s := S2x3072x1024) (k1_off35 i) S1x160x1024.size (k1_off35_inb i h)).set := by
    rw [← View.set_slice_whole (cc1_scratch0 : Ref sig .tc), ← View.set_reshape (h := (squeezes_S1x160x1024_S160x1024).numel_eq)]; exact hx
  refine Rect.mem_set_unit.mpr fun a => ?_
  have ha := (Rect.mem_set_unit.mp hx') a
  rw [k1_off35_eq] at ha
  fin_cases a <;> simp at ha ⊢ <;> omega
theorem dstT3_sub : (dstT3).view.set ⊆ dsetC 32 3 := by
  intro x hx
  have hx' : x ∈ (Rect.unit (s := S100000x1024) ![99840, 0] S160x1024.size inb_S100000x1024_S160x1024_99840_0).set := by
    rw [← View.set_slice_whole (main_v4 : Ref sig .tc)]; exact hx
  have h0 := (Rect.mem_set_unit.mp hx') 0
  rw [mem_dsetC]
  simp at h0 ⊢; omega

abbrev semL0 : DmaSem sig := ((cc1_scratch1.slice (Rect.unit (s := S2x6) ![1, 0] S1x1.size inb_S2x6_S1x1_1_0)).squeeze S_ squeezes_S1x1_S_).sem
theorem semL0_eq : semL0 = semC 1 0 := by decide +kernel
abbrev semL1 : DmaSem sig := ((cc1_scratch1.slice (Rect.unit (s := S2x6) ![1, 1] S1x1.size inb_S2x6_S1x1_1_1)).squeeze S_ squeezes_S1x1_S_).sem
theorem semL1_eq : semL1 = semC 1 1 := by decide +kernel
abbrev semL2 : DmaSem sig := ((cc1_scratch1.slice (Rect.unit (s := S2x6) ![1, 2] S1x1.size inb_S2x6_S1x1_1_2)).squeeze S_ squeezes_S1x1_S_).sem
theorem semL2_eq : semL2 = semC 1 2 := by decide +kernel
abbrev semL3 : DmaSem sig := ((cc1_scratch1.slice (Rect.unit (s := S2x6) ![1, 3] S1x1.size inb_S2x6_S1x1_1_3)).squeeze S_ squeezes_S1x1_S_).sem
theorem semL3_eq : semL3 = semC 1 3 := by decide +kernel
abbrev semL4 : DmaSem sig := ((cc1_scratch1.slice (Rect.unit (s := S2x6) ![1, 4] S1x1.size inb_S2x6_S1x1_1_4)).squeeze S_ squeezes_S1x1_S_).sem
theorem semL4_eq : semL4 = semC 1 4 := by decide +kernel
abbrev semL5 : DmaSem sig := ((cc1_scratch1.slice (Rect.unit (s := S2x6) ![1, 5] S1x1.size inb_S2x6_S1x1_1_5)).squeeze S_ squeezes_S1x1_S_).sem
theorem semL5_eq : semL5 = semC 1 5 := by decide +kernel

/-- The slot, dealt out as the last point's copies read it: three whole chunks, the first 160 rows of the fourth and
    that chunk's rest, and the two chunks no copy reads. -/
theorem tail_split (c : Dev nD) (i : grid1.Coords) (h3 : k1_cond3 i = 1#1) (g : Buf (Elt F) (SCR.view.loc (thr c))) :
    (SCR.view.loc (thr c) ↦[(SCR.access (slotR i)).set]{fullShare} g : sProp 𝕄)
      ⊢ iprop(own c (srcT0 i h3) g ∗ own c (srcT1 i h3) g ∗ own c (srcT2 i h3) g ∗ own c (srcT3 i h3) g
          ∗ (SCR.view.loc (thr c) ↦[(chunkR (sOf i) 3).set \ (srcT3 i h3).view.set]{fullShare} g)
          ∗ (SCR.view.loc (thr c) ↦[(chunkR (sOf i) 4).set]{fullShare} g) ∗ (SCR.view.loc (thr c) ↦[(chunkR (sOf i) 5).set]{fullShare} g)) := by
  rw [slotR_set, ← slot_cover, pointsTo_biUnion Finset.univ _ (fun r _ r' _ h => chunk_disjoint _ r r' h), bigSep_fin6,
    ← srcT0_set i h3, ← srcT1_set i h3, ← srcT2_set i h3]
  iintro ⟨H0, H1, H2, H3, H4, H5⟩
  isplitl [H0]; · iexact H0
  isplitl [H1]; · iexact H1
  isplitl [H2]; · iexact H2
  ihave H3' := (pointsTo_split_subset (ℓ := SCR.view.loc (thr c)) (q := fullShare) (f := g) (srcT3_sub i h3)).1 $$ H3
  icases H3' with ⟨H3a, H3b⟩
  isplitl [H3a]; · iexact H3a
  isplitl [H3b]; · iexact H3b
  isplitl [H4] <;> iassumption

/-- and back: the pieces, at whatever contents, make the six chunks. -/
theorem tail_join (c : Dev nD) (i : grid1.Coords) (h3 : k1_cond3 i = 1#1) (g0 g1 g2 g3 gR g4 g5 : Buf (Elt F) (SCR.view.loc (thr c))) :
    iprop(own c (srcT0 i h3) g0 ∗ own c (srcT1 i h3) g1 ∗ own c (srcT2 i h3) g2 ∗ own c (srcT3 i h3) g3
          ∗ (SCR.view.loc (thr c) ↦[(chunkR (sOf i) 3).set \ (srcT3 i h3).view.set]{fullShare} gR)
          ∗ (SCR.view.loc (thr c) ↦[(chunkR (sOf i) 4).set]{fullShare} g4) ∗ (SCR.view.loc (thr c) ↦[(chunkR (sOf i) 5).set]{fullShare} g5))
      ⊢ (bigSep Finset.univ fun r : Fin 6 => scrC c (sOf i) r : sProp 𝕄) := by
  rw [bigSep_fin6]
  iintro ⟨H0, H1, H2, H3, H3', H4, H5⟩
  isplitl [H0]; · iexists g0; rw [← srcT0_set i h3]; iexact H0
  isplitl [H1]; · iexists g1; rw [← srcT1_set i h3]; iexact H1
  isplitl [H2]; · iexists g2; rw [← srcT2_set i h3]; iexact H2
  isplitl [H3 H3']
  · iexists _; iapply (pointsTo_join_subset (ℓ := SCR.view.loc (thr c)) (q := fullShare) (srcT3_sub i h3)); isplitl [H3] <;> iassumption
  isplitl [H4]; · iexists g4; iexact H4
  iexists g5; iexact H5

/-- What the tail's copy `r` lands in the result, over prior contents `fd`, the slot holding `g` with the tile stored. -/
abbrev landedT0 (c : Dev nD) (i : grid1.Coords) (h3 : k1_cond3 i = 1#1) (x1 : Vec F S64x1024 .f32) (x2 : Vec F S64x3072 .f32) (x3 : Vec F S3072 .f32)
    (fd : Buf (Elt F) (V4.view.loc (thr c))) (g : Buf (Elt F) (SCR.view.loc (thr c))) : Buf (Elt F) (V4.view.loc (thr c)) :=
  (dstT0).view.write (Elt F) fd (ReadAs.same.apply ((srcT0 i h3).view.read (Elt F) ((SCR.access (slotR i)).write (Elt F) g (pay x1 x2 x3) Finset.univ))) Finset.univ
abbrev landedT1 (c : Dev nD) (i : grid1.Coords) (h3 : k1_cond3 i = 1#1) (x1 : Vec F S64x1024 .f32) (x2 : Vec F S64x3072 .f32) (x3 : Vec F S3072 .f32)
    (fd : Buf (Elt F) (V4.view.loc (thr c))) (g : Buf (Elt F) (SCR.view.loc (thr c))) : Buf (Elt F) (V4.view.loc (thr c)) :=
  (dstT1).view.write (Elt F) fd (ReadAs.same.apply ((srcT1 i h3).view.read (Elt F) ((SCR.access (slotR i)).write (Elt F) g (pay x1 x2 x3) Finset.univ))) Finset.univ
abbrev landedT2 (c : Dev nD) (i : grid1.Coords) (h3 : k1_cond3 i = 1#1) (x1 : Vec F S64x1024 .f32) (x2 : Vec F S64x3072 .f32) (x3 : Vec F S3072 .f32)
    (fd : Buf (Elt F) (V4.view.loc (thr c))) (g : Buf (Elt F) (SCR.view.loc (thr c))) : Buf (Elt F) (V4.view.loc (thr c)) :=
  (dstT2).view.write (Elt F) fd (ReadAs.same.apply ((srcT2 i h3).view.read (Elt F) ((SCR.access (slotR i)).write (Elt F) g (pay x1 x2 x3) Finset.univ))) Finset.univ
abbrev landedT3 (c : Dev nD) (i : grid1.Coords) (h3 : k1_cond3 i = 1#1) (x1 : Vec F S64x1024 .f32) (x2 : Vec F S64x3072 .f32) (x3 : Vec F S3072 .f32)
    (fd : Buf (Elt F) (V4.view.loc (thr c))) (g : Buf (Elt F) (SCR.view.loc (thr c))) : Buf (Elt F) (V4.view.loc (thr c)) :=
  (dstT3).view.write (Elt F) fd (ReadAs.same.apply ((srcT3 i h3).view.read (Elt F) ((SCR.access (slotR i)).write (Elt F) g (pay x1 x2 x3) Finset.univ))) Finset.univ

/-- What the body's run asks of the claim `GP` about written rows: it holds of what each copy lands — the six of a full
    tile, the four of the tail — and asks nothing of the tail's two row ranges past the array. -/
structure GPOk (c : Dev nD)
    (GP : Fin 33 → Fin 6 → Vec F S64x1024 .f32 → Vec F S64x3072 .f32 → Vec F S3072 .f32 → Buf (Elt F) (V4.view.loc (thr c)) → Prop) : Prop where
  full : ∀ (i : grid1.Coords) (h2 : k1_cond2 i = 1#1) x1 x2 x3 fd g,
    GP (tOf i) 0 x1 x2 x3 (landed0 c i h2 x1 x2 x3 fd g) ∧ GP (tOf i) 1 x1 x2 x3 (landed1 c i h2 x1 x2 x3 fd g) ∧ GP (tOf i) 2 x1 x2 x3 (landed2 c i h2 x1 x2 x3 fd g) ∧ GP (tOf i) 3 x1 x2 x3 (landed3 c i h2 x1 x2 x3 fd g) ∧ GP (tOf i) 4 x1 x2 x3 (landed4 c i h2 x1 x2 x3 fd g) ∧ GP (tOf i) 5 x1 x2 x3 (landed5 c i h2 x1 x2 x3 fd g)
  tail : ∀ (i : grid1.Coords) (h3 : k1_cond3 i = 1#1) x1 x2 x3 fd g,
    GP 32 0 x1 x2 x3 (landedT0 c i h3 x1 x2 x3 fd g) ∧ GP 32 1 x1 x2 x3 (landedT1 c i h3 x1 x2 x3 fd g) ∧ GP 32 2 x1 x2 x3 (landedT2 c i h3 x1 x2 x3 fd g) ∧ GP 32 3 x1 x2 x3 (landedT3 c i h3 x1 x2 x3 fd g)
  past : ∀ x1 x2 x3 f, GP 32 4 x1 x2 x3 f ∧ GP 32 5 x1 x2 x3 f

end Cert.Kernel.Region

end
-- ==== Proof.W.RegionBody.lean ====
/-
  The TensorCore kernel's body, run once per case of the grid point at symbolic operands, by the rules for the core's
  own transfers: a wait takes its copy's `Flight` and hands back what it delivers and the semaphore at zero; the
  three staged blocks are loaded; the tile is stored into the slot, held whole; the slot is dealt out into the six
  chunks the copies read, and each copy is started from its chunk, its row range of the result and its semaphore at
  zero, leaving its `Flight`. The chunks, ranges and semaphores are in the body's own spelling here; the deliveries of
  the waited copies are parameters, and so is what is claimed of the rows a copy lands.
-/
import proofs.«204125_g1194000908950_cont_fleet_528_33_alg».proof.Proof.W.RegionTail
import Idealize.ShloMosaic.Lib.Transfers
import Idealize.ShloMosaic.Lib.Writes
import Idealize.ShloMosaic.Lib.Pipeline.FrameBody
import Idealize.ShloMosaic.Lib.Tactic

noncomputable section

namespace Cert.Kernel.Region

open Cert.Kernel Cert.Kernel.Gen Cert.Kernel.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

section Body

variable (c : Dev nD) (i : grid1.Coords)
  (M1 : Memref sig .tc .vmem S64x1024 .f32) (hM1 : M1.IsWhole) (M2 : Memref sig .tc .vmem S64x3072 .f32) (hM2 : M2.IsWhole)
  (M3 : Memref sig .tc .vmem S3072 .f32) (hM3 : M3.IsWhole)
  (x1 : Vec F S64x1024 .f32) (x2 : Vec F S64x3072 .f32) (x3 : Vec F S3072 .f32)
  (O : CellTallies nD τ sig (HIx 1)) (W : Waits sig (HIx 1))
  (dS0 dS1 dS2 dS3 dS4 dS5 : Finset (Idx (V4.view.loc (thr c))))
  (Gd0 Gd1 Gd2 Gd3 Gd4 Gd5 : Buf (Elt F) (V4.view.loc (thr c)) → Prop)

/-- The copy of chunk `r` started at point `i`, in flight: it delivers the chunk's rows of the result, at contents the
    certificate's predicate holds of, and the chunk's rows of the slot. -/
abbrev flightI0 (h2 : k1_cond2 i = 1#1) (dS : Finset (Idx (V4.view.loc (thr c)))) (Gd : Buf (Elt F) (V4.view.loc (thr c)) → Prop) : sProp 𝕄 :=
  Transfers.Flight countersEmb (thr c) (SemLoc.dma (semI0 i h2)) (none : HIx 1) 65536
    iprop((∃ f, ⌜Gd f⌝ ∗ V4.view.loc (thr c) ↦[dS]{fullShare} f) ∗ ∃ g, own c (srcI0 i h2) g)
abbrev flightI1 (h2 : k1_cond2 i = 1#1) (dS : Finset (Idx (V4.view.loc (thr c)))) (Gd : Buf (Elt F) (V4.view.loc (thr c)) → Prop) : sProp 𝕄 :=
  Transfers.Flight countersEmb (thr c) (SemLoc.dma (semI1 i h2)) (none : HIx 1) 65536
    iprop((∃ f, ⌜Gd f⌝ ∗ V4.view.loc (thr c) ↦[dS]{fullShare} f) ∗ ∃ g, own c (srcI1 i h2) g)
abbrev flightI2 (h2 : k1_cond2 i = 1#1) (dS : Finset (Idx (V4.view.loc (thr c)))) (Gd : Buf (Elt F) (V4.view.loc (thr c)) → Prop) : sProp 𝕄 :=
  Transfers.Flight countersEmb (thr c) (SemLoc.dma (semI2 i h2)) (none : HIx 1) 65536
    iprop((∃ f, ⌜Gd f⌝ ∗ V4.view.loc (thr c) ↦[dS]{fullShare} f) ∗ ∃ g, own c (srcI2 i h2) g)
abbrev flightI3 (h2 : k1_cond2 i = 1#1) (dS : Finset (Idx (V4.view.loc (thr c)))) (Gd : Buf (Elt F) (V4.view.loc (thr c)) → Prop) : sProp 𝕄 :=
  Transfers.Flight countersEmb (thr c) (SemLoc.dma (semI3 i h2)) (none : HIx 1) 65536
    iprop((∃ f, ⌜Gd f⌝ ∗ V4.view.loc (thr c) ↦[dS]{fullShare} f) ∗ ∃ g, own c (srcI3 i h2) g)
abbrev flightI4 (h2 : k1_cond2 i = 1#1) (dS : Finset (Idx (V4.view.loc (thr c)))) (Gd : Buf (Elt F) (V4.view.loc (thr c)) → Prop) : sProp 𝕄 :=
  Transfers.Flight countersEmb (thr c) (SemLoc.dma (semI4 i h2)) (none : HIx 1) 65536
    iprop((∃ f, ⌜Gd f⌝ ∗ V4.view.loc (thr c) ↦[dS]{fullShare} f) ∗ ∃ g, own c (srcI4 i h2) g)
abbrev flightI5 (h2 : k1_cond2 i = 1#1) (dS : Finset (Idx (V4.view.loc (thr c)))) (Gd : Buf (Elt F) (V4.view.loc (thr c)) → Prop) : sProp 𝕄 :=
  Transfers.Flight countersEmb (thr c) (SemLoc.dma (semI5 i h2)) (none : HIx 1) 65536
    iprop((∃ f, ⌜Gd f⌝ ∗ V4.view.loc (thr c) ↦[dS]{fullShare} f) ∗ ∃ g, own c (srcI5 i h2) g)

set_option maxHeartbeats 4000000 in
/-- A point `2 ≤ i < 32`: wait the six copies started from this slot two points ago, store the tile, start its six copies. -/
theorem body_mid (h1 : k1_cond1 i = 1#1) (h2 : k1_cond2 i = 1#1) (h3 : ¬ k1_cond3 i = 1#1)
    (Dd0 Dd1 Dd2 Dd3 Dd4 Dd5 : sProp 𝕄)
    (hdS0 : (dstI0 i h2).view.set ⊆ dS0) (hG0 : ∀ fd g, Gd0 (landed0 c i h2 x1 x2 x3 fd g))
    (hdS1 : (dstI1 i h2).view.set ⊆ dS1) (hG1 : ∀ fd g, Gd1 (landed1 c i h2 x1 x2 x3 fd g))
    (hdS2 : (dstI2 i h2).view.set ⊆ dS2) (hG2 : ∀ fd g, Gd2 (landed2 c i h2 x1 x2 x3 fd g))
    (hdS3 : (dstI3 i h2).view.set ⊆ dS3) (hG3 : ∀ fd g, Gd3 (landed3 c i h2 x1 x2 x3 fd g))
    (hdS4 : (dstI4 i h2).view.set ⊆ dS4) (hG4 : ∀ fd g, Gd4 (landed4 c i h2 x1 x2 x3 fd g))
    (hdS5 : (dstI5 i h2).view.set ⊆ dS5) (hG5 : ∀ fd g, Gd5 (landed5 c i h2 x1 x2 x3 fd g))
    (Q : PUnit → sProp 𝕄) :
    iprop(owns (thr c) M1 fullShare x1 ∗ owns (thr c) M2 fullShare x2 ∗ owns (thr c) M3 fullShare x3
      ∗ Transfers.Flight countersEmb (thr c) (SemLoc.dma (semW0 i h1)) (none : HIx 1) 65536 iprop(Dd0 ∗ ∃ g, own c (srcW0 i h1) g)
      ∗ Transfers.Flight countersEmb (thr c) (SemLoc.dma (semW1 i h1)) (none : HIx 1) 65536 iprop(Dd1 ∗ ∃ g, own c (srcW1 i h1) g)
      ∗ Transfers.Flight countersEmb (thr c) (SemLoc.dma (semW2 i h1)) (none : HIx 1) 65536 iprop(Dd2 ∗ ∃ g, own c (srcW2 i h1) g)
      ∗ Transfers.Flight countersEmb (thr c) (SemLoc.dma (semW3 i h1)) (none : HIx 1) 65536 iprop(Dd3 ∗ ∃ g, own c (srcW3 i h1) g)
      ∗ Transfers.Flight countersEmb (thr c) (SemLoc.dma (semW4 i h1)) (none : HIx 1) 65536 iprop(Dd4 ∗ ∃ g, own c (srcW4 i h1) g)
      ∗ Transfers.Flight countersEmb (thr c) (SemLoc.dma (semW5 i h1)) (none : HIx 1) 65536 iprop(Dd5 ∗ ∃ g, own c (srcW5 i h1) g)
      ∗ (∃ f, V4.view.loc (thr c) ↦[dS0]{fullShare} f)
      ∗ (∃ f, V4.view.loc (thr c) ↦[dS1]{fullShare} f)
      ∗ (∃ f, V4.view.loc (thr c) ↦[dS2]{fullShare} f)
      ∗ (∃ f, V4.view.loc (thr c) ↦[dS3]{fullShare} f)
      ∗ (∃ f, V4.view.loc (thr c) ↦[dS4]{fullShare} f)
      ∗ (∃ f, V4.view.loc (thr c) ↦[dS5]{fullShare} f)
      ∗ owes (thr c) O W ∗ Transfers.MayWaits (thr c) (none : HIx 1) O
      ∗ (iprop(owns (thr c) M1 fullShare x1 ∗ owns (thr c) M2 fullShare x2 ∗ owns (thr c) M3 fullShare x3
          ∗ Dd0 ∗ Dd1 ∗ Dd2 ∗ Dd3 ∗ Dd4 ∗ Dd5
          ∗ flightI0 c i h2 dS0 Gd0 ∗ flightI1 c i h2 dS1 Gd1 ∗ flightI2 c i h2 dS2 Gd2 ∗ flightI3 c i h2 dS3 Gd3 ∗ flightI4 c i h2 dS4 Gd4 ∗ flightI5 c i h2 dS5 Gd5
          ∗ ∃ W', ⌜∀ p ∈ W', p ∈ W ∨ p.2 = none⌝ ∗ owes (thr c) O W') -∗ Q ⟨⟩))
      ⊢ wp frame (wpE (defs₀ (F := F)) Variants.none (thr c) none) Set.univ
          (cc1_body i M1 hM1 M2 hM2 M3 hM3 V4 (Memref.isWhole_whole _) SCR (Memref.isWhole_whole _) cc1_scratch1) Q := by
  unfold owns
  iintro ⟨⟨%f1, %hf1, H1⟩, ⟨%f2, %hf2, H2⟩, ⟨%f3, %hf3, H3⟩, HFW0, HFW1, HFW2, HFW3, HFW4, HFW5, ⟨%e0, Hd0⟩, ⟨%e1, Hd1⟩, ⟨%e2, Hd2⟩, ⟨%e3, Hd3⟩, ⟨%e4, Hd4⟩, ⟨%e5, Hd5⟩, HO, #HM, Hk⟩
  subst hf1 hf2 hf3
  rw [cc1_body_eq_skeleton]; unfold cc1_body_skel
  rw [dif_pos h1, dif_pos h2, dif_neg h3, k1_part1_eq_skeleton, k1_part2_eq_skeleton]; unfold k1_part1_skel k1_part2_skel
  sl_exec
  iapply (Transfers.wp_waitLocalO countersEmb Variants.none (thr c) none (none : HIx 1) (N := 65536) rfl) $$ [HFW0 HO]
  · isplitl [HFW0]; · iexact HFW0
    isplitl [HO]; · iexact HO
    iapply (Transfers.MayWaits.elim (SemLoc.dma (semW0 i h1))); iexact HM
  iintro ⟨⟨HD0, HS0⟩, Hv0, HO⟩
  sl_exec
  iapply (Transfers.wp_waitLocalO countersEmb Variants.none (thr c) none (none : HIx 1) (N := 65536) rfl) $$ [HFW1 HO]
  · isplitl [HFW1]; · iexact HFW1
    isplitl [HO]; · iexact HO
    iapply (Transfers.MayWaits.elim (SemLoc.dma (semW1 i h1))); iexact HM
  iintro ⟨⟨HD1, HS1⟩, Hv1, HO⟩
  sl_exec
  iapply (Transfers.wp_waitLocalO countersEmb Variants.none (thr c) none (none : HIx 1) (N := 65536) rfl) $$ [HFW2 HO]
  · isplitl [HFW2]; · iexact HFW2
    isplitl [HO]; · iexact HO
    iapply (Transfers.MayWaits.elim (SemLoc.dma (semW2 i h1))); iexact HM
  iintro ⟨⟨HD2, HS2⟩, Hv2, HO⟩
  sl_exec
  iapply (Transfers.wp_waitLocalO countersEmb Variants.none (thr c) none (none : HIx 1) (N := 65536) rfl) $$ [HFW3 HO]
  · isplitl [HFW3]; · iexact HFW3
    isplitl [HO]; · iexact HO
    iapply (Transfers.MayWaits.elim (SemLoc.dma (semW3 i h1))); iexact HM
  iintro ⟨⟨HD3, HS3⟩, Hv3, HO⟩
  sl_exec
  iapply (Transfers.wp_waitLocalO countersEmb Variants.none (thr c) none (none : HIx 1) (N := 65536) rfl) $$ [HFW4 HO]
  · isplitl [HFW4]; · iexact HFW4
    isplitl [HO]; · iexact HO
    iapply (Transfers.MayWaits.elim (SemLoc.dma (semW4 i h1))); iexact HM
  iintro ⟨⟨HD4, HS4⟩, Hv4, HO⟩
  sl_exec
  iapply (Transfers.wp_waitLocalO countersEmb Variants.none (thr c) none (none : HIx 1) (N := 65536) rfl) $$ [HFW5 HO]
  · isplitl [HFW5]; · iexact HFW5
    isplitl [HO]; · iexact HO
    iapply (Transfers.MayWaits.elim (SemLoc.dma (semW5 i h1))); iexact HM
  iintro ⟨⟨HD5, HS5⟩, Hv5, HO⟩
  sl_exec

  ihave Hg := (slot_join c i h1) $$ [HS0 HS1 HS2 HS3 HS4 HS5]
  · isplitl [HS0]; · iexact HS0
    isplitl [HS1]; · iexact HS1
    isplitl [HS2]; · iexact HS2
    isplitl [HS3]; · iexact HS3
    isplitl [HS4]; · iexact HS4
    iexact HS5
  icases Hg with ⟨%g, Hg⟩
  iapply (wp_load Variants.none (thr c) none Set.univ (Memref.setOn_subset_of_access_subset (c := thr c) (m := SCR) (r := slotR i) (Finset.Subset.refl _))) $$ Hg
  iintro Hg
  iapply (wp_store Variants.none (thr c) none Set.univ (m := SCR) (r := slotR i) (Mk := Finset.univ) (show (SCR.access (slotR i)).setOn Finset.univ ⊆ (SCR.access (slotR i)).set from Finset.Subset.refl _)) $$ Hg
  iintro Hg
  rw [Prog.bind.eq_1]
  ihave Hs := (slot_split c i h2 _) $$ Hg
  icases Hs with ⟨HS0, HS1, HS2, HS3, HS4, HS5⟩
  sl_exec
  iapply (Transfers.wp_dmaLocal countersEmb Variants.none (thr c) none (none : HIx 1) 65536 rfl (by decide) hdS0) $$ [HS0 Hd0 Hv0]
  · isplitl [HS0]; · iexact HS0
    isplitl [Hd0]; · iexact Hd0
    iapply (Entails.of_eq (show (semVal (thr c, SemLoc.dma (semW0 i h1)) 0 : sProp 𝕄) = semVal (thr c, SemLoc.dma (semI0 i h2)) 0 from by rw [semW0_eq, semI0_eq])); iexact Hv0
  iintro HFI0
  ihave HFI0 := (Transfers.Flight_mono countersEmb (thr c) (D' := iprop((∃ f, ⌜Gd0 f⌝ ∗ V4.view.loc (thr c) ↦[dS0]{fullShare} f) ∗ ∃ g, own c (srcI0 i h2) g)) ?_) $$ HFI0
  · iintro ⟨Hd, Hs⟩
    isplitl [Hd]
    · iexists _; isplitr; · ipureintro; exact hG0 e0 g
      iexact Hd
    · iexists _; iexact Hs
  sl_exec
  iapply (Transfers.wp_dmaLocal countersEmb Variants.none (thr c) none (none : HIx 1) 65536 rfl (by decide) hdS1) $$ [HS1 Hd1 Hv1]
  · isplitl [HS1]; · iexact HS1
    isplitl [Hd1]; · iexact Hd1
    iapply (Entails.of_eq (show (semVal (thr c, SemLoc.dma (semW1 i h1)) 0 : sProp 𝕄) = semVal (thr c, SemLoc.dma (semI1 i h2)) 0 from by rw [semW1_eq, semI1_eq])); iexact Hv1
  iintro HFI1
  ihave HFI1 := (Transfers.Flight_mono countersEmb (thr c) (D' := iprop((∃ f, ⌜Gd1 f⌝ ∗ V4.view.loc (thr c) ↦[dS1]{fullShare} f) ∗ ∃ g, own c (srcI1 i h2) g)) ?_) $$ HFI1
  · iintro ⟨Hd, Hs⟩
    isplitl [Hd]
    · iexists _; isplitr; · ipureintro; exact hG1 e1 g
      iexact Hd
    · iexists _; iexact Hs
  sl_exec
  iapply (Transfers.wp_dmaLocal countersEmb Variants.none (thr c) none (none : HIx 1) 65536 rfl (by decide) hdS2) $$ [HS2 Hd2 Hv2]
  · isplitl [HS2]; · iexact HS2
    isplitl [Hd2]; · iexact Hd2
    iapply (Entails.of_eq (show (semVal (thr c, SemLoc.dma (semW2 i h1)) 0 : sProp 𝕄) = semVal (thr c, SemLoc.dma (semI2 i h2)) 0 from by rw [semW2_eq, semI2_eq])); iexact Hv2
  iintro HFI2
  ihave HFI2 := (Transfers.Flight_mono countersEmb (thr c) (D' := iprop((∃ f, ⌜Gd2 f⌝ ∗ V4.view.loc (thr c) ↦[dS2]{fullShare} f) ∗ ∃ g, own c (srcI2 i h2) g)) ?_) $$ HFI2
  · iintro ⟨Hd, Hs⟩
    isplitl [Hd]
    · iexists _; isplitr; · ipureintro; exact hG2 e2 g
      iexact Hd
    · iexists _; iexact Hs
  sl_exec
  iapply (Transfers.wp_dmaLocal countersEmb Variants.none (thr c) none (none : HIx 1) 65536 rfl (by decide) hdS3) $$ [HS3 Hd3 Hv3]
  · isplitl [HS3]; · iexact HS3
    isplitl [Hd3]; · iexact Hd3
    iapply (Entails.of_eq (show (semVal (thr c, SemLoc.dma (semW3 i h1)) 0 : sProp 𝕄) = semVal (thr c, SemLoc.dma (semI3 i h2)) 0 from by rw [semW3_eq, semI3_eq])); iexact Hv3
  iintro HFI3
  ihave HFI3 := (Transfers.Flight_mono countersEmb (thr c) (D' := iprop((∃ f, ⌜Gd3 f⌝ ∗ V4.view.loc (thr c) ↦[dS3]{fullShare} f) ∗ ∃ g, own c (srcI3 i h2) g)) ?_) $$ HFI3
  · iintro ⟨Hd, Hs⟩
    isplitl [Hd]
    · iexists _; isplitr; · ipureintro; exact hG3 e3 g
      iexact Hd
    · iexists _; iexact Hs
  sl_exec
  iapply (Transfers.wp_dmaLocal countersEmb Variants.none (thr c) none (none : HIx 1) 65536 rfl (by decide) hdS4) $$ [HS4 Hd4 Hv4]
  · isplitl [HS4]; · iexact HS4
    isplitl [Hd4]; · iexact Hd4
    iapply (Entails.of_eq (show (semVal (thr c, SemLoc.dma (semW4 i h1)) 0 : sProp 𝕄) = semVal (thr c, SemLoc.dma (semI4 i h2)) 0 from by rw [semW4_eq, semI4_eq])); iexact Hv4
  iintro HFI4
  ihave HFI4 := (Transfers.Flight_mono countersEmb (thr c) (D' := iprop((∃ f, ⌜Gd4 f⌝ ∗ V4.view.loc (thr c) ↦[dS4]{fullShare} f) ∗ ∃ g, own c (srcI4 i h2) g)) ?_) $$ HFI4
  · iintro ⟨Hd, Hs⟩
    isplitl [Hd]
    · iexists _; isplitr; · ipureintro; exact hG4 e4 g
      iexact Hd
    · iexists _; iexact Hs
  sl_exec
  iapply (Transfers.wp_dmaLocal countersEmb Variants.none (thr c) none (none : HIx 1) 65536 rfl (by decide) hdS5) $$ [HS5 Hd5 Hv5]
  · isplitl [HS5]; · iexact HS5
    isplitl [Hd5]; · iexact Hd5
    iapply (Entails.of_eq (show (semVal (thr c, SemLoc.dma (semW5 i h1)) 0 : sProp 𝕄) = semVal (thr c, SemLoc.dma (semI5 i h2)) 0 from by rw [semW5_eq, semI5_eq])); iexact Hv5
  iintro HFI5
  ihave HFI5 := (Transfers.Flight_mono countersEmb (thr c) (D' := iprop((∃ f, ⌜Gd5 f⌝ ∗ V4.view.loc (thr c) ↦[dS5]{fullShare} f) ∗ ∃ g, own c (srcI5 i h2) g)) ?_) $$ HFI5
  · iintro ⟨Hd, Hs⟩
    isplitl [Hd]
    · iexists _; isplitr; · ipureintro; exact hG5 e5 g
      iexact Hd
    · iexists _; iexact Hs
  sl_exec

  sl_step
  iapply Hk
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HD0]; · iexact HD0
  isplitl [HD1]; · iexact HD1
  isplitl [HD2]; · iexact HD2
  isplitl [HD3]; · iexact HD3
  isplitl [HD4]; · iexact HD4
  isplitl [HD5]; · iexact HD5
  isplitl [HFI0]; · iexact HFI0
  isplitl [HFI1]; · iexact HFI1
  isplitl [HFI2]; · iexact HFI2
  isplitl [HFI3]; · iexact HFI3
  isplitl [HFI4]; · iexact HFI4
  isplitl [HFI5]; · iexact HFI5
  iexists _
  isplitr
  rotate_left
  · iexact HO
  · ipureintro; intro p hp; simp only [Finset.mem_insert] at hp
    rcases hp with rfl | rfl | rfl | rfl | rfl | rfl | hp <;> first | exact Or.inr rfl | exact Or.inl hp

set_option maxHeartbeats 4000000 in
/-- Points 0 and 1: the slot and its semaphores are in hand; store the tile, start its six copies. -/
theorem body_lo (h1 : ¬ k1_cond1 i = 1#1) (h2 : k1_cond2 i = 1#1) (h3 : ¬ k1_cond3 i = 1#1)
    (hdS0 : (dstI0 i h2).view.set ⊆ dS0) (hG0 : ∀ fd g, Gd0 (landed0 c i h2 x1 x2 x3 fd g))
    (hdS1 : (dstI1 i h2).view.set ⊆ dS1) (hG1 : ∀ fd g, Gd1 (landed1 c i h2 x1 x2 x3 fd g))
    (hdS2 : (dstI2 i h2).view.set ⊆ dS2) (hG2 : ∀ fd g, Gd2 (landed2 c i h2 x1 x2 x3 fd g))
    (hdS3 : (dstI3 i h2).view.set ⊆ dS3) (hG3 : ∀ fd g, Gd3 (landed3 c i h2 x1 x2 x3 fd g))
    (hdS4 : (dstI4 i h2).view.set ⊆ dS4) (hG4 : ∀ fd g, Gd4 (landed4 c i h2 x1 x2 x3 fd g))
    (hdS5 : (dstI5 i h2).view.set ⊆ dS5) (hG5 : ∀ fd g, Gd5 (landed5 c i h2 x1 x2 x3 fd g))
    (Q : PUnit → sProp 𝕄) :
    iprop(owns (thr c) M1 fullShare x1 ∗ owns (thr c) M2 fullShare x2 ∗ owns (thr c) M3 fullShare x3
      ∗ (∃ g, SCR.view.loc (thr c) ↦[(SCR.access (slotR i)).set]{fullShare} g)
      ∗ semVal (thr c, SemLoc.dma (semI0 i h2)) 0
      ∗ semVal (thr c, SemLoc.dma (semI1 i h2)) 0
      ∗ semVal (thr c, SemLoc.dma (semI2 i h2)) 0
      ∗ semVal (thr c, SemLoc.dma (semI3 i h2)) 0
      ∗ semVal (thr c, SemLoc.dma (semI4 i h2)) 0
      ∗ semVal (thr c, SemLoc.dma (semI5 i h2)) 0
      ∗ (∃ f, V4.view.loc (thr c) ↦[dS0]{fullShare} f)
      ∗ (∃ f, V4.view.loc (thr c) ↦[dS1]{fullShare} f)
      ∗ (∃ f, V4.view.loc (thr c) ↦[dS2]{fullShare} f)
      ∗ (∃ f, V4.view.loc (thr c) ↦[dS3]{fullShare} f)
      ∗ (∃ f, V4.view.loc (thr c) ↦[dS4]{fullShare} f)
      ∗ (∃ f, V4.view.loc (thr c) ↦[dS5]{fullShare} f)
      ∗ owes (thr c) O W
      ∗ (iprop(owns (thr c) M1 fullShare x1 ∗ owns (thr c) M2 fullShare x2 ∗ owns (thr c) M3 fullShare x3
          ∗ flightI0 c i h2 dS0 Gd0 ∗ flightI1 c i h2 dS1 Gd1 ∗ flightI2 c i h2 dS2 Gd2 ∗ flightI3 c i h2 dS3 Gd3 ∗ flightI4 c i h2 dS4 Gd4 ∗ flightI5 c i h2 dS5 Gd5
          ∗ owes (thr c) O W) -∗ Q ⟨⟩))
      ⊢ wp frame (wpE (defs₀ (F := F)) Variants.none (thr c) none) Set.univ
          (cc1_body i M1 hM1 M2 hM2 M3 hM3 V4 (Memref.isWhole_whole _) SCR (Memref.isWhole_whole _) cc1_scratch1) Q := by
  unfold owns
  iintro ⟨⟨%f1, %hf1, H1⟩, ⟨%f2, %hf2, H2⟩, ⟨%f3, %hf3, H3⟩, ⟨%g, Hg⟩, Hv0, Hv1, Hv2, Hv3, Hv4, Hv5, ⟨%e0, Hd0⟩, ⟨%e1, Hd1⟩, ⟨%e2, Hd2⟩, ⟨%e3, Hd3⟩, ⟨%e4, Hd4⟩, ⟨%e5, Hd5⟩, HO, Hk⟩
  subst hf1 hf2 hf3
  rw [cc1_body_eq_skeleton]; unfold cc1_body_skel
  rw [dif_neg h1, dif_pos h2, dif_neg h3, k1_part2_eq_skeleton]; unfold k1_part2_skel
  sl_exec
  iapply (wp_load Variants.none (thr c) none Set.univ (Memref.setOn_subset_of_access_subset (c := thr c) (m := SCR) (r := slotR i) (Finset.Subset.refl _))) $$ Hg
  iintro Hg
  iapply (wp_store Variants.none (thr c) none Set.univ (m := SCR) (r := slotR i) (Mk := Finset.univ) (show (SCR.access (slotR i)).setOn Finset.univ ⊆ (SCR.access (slotR i)).set from Finset.Subset.refl _)) $$ Hg
  iintro Hg
  rw [Prog.bind.eq_1]
  ihave Hs := (slot_split c i h2 _) $$ Hg
  icases Hs with ⟨HS0, HS1, HS2, HS3, HS4, HS5⟩
  sl_exec
  iapply (Transfers.wp_dmaLocal countersEmb Variants.none (thr c) none (none : HIx 1) 65536 rfl (by decide) hdS0) $$ [HS0 Hd0 Hv0]
  · isplitl [HS0]; · iexact HS0
    isplitl [Hd0]; · iexact Hd0
    iexact Hv0
  iintro HFI0
  ihave HFI0 := (Transfers.Flight_mono countersEmb (thr c) (D' := iprop((∃ f, ⌜Gd0 f⌝ ∗ V4.view.loc (thr c) ↦[dS0]{fullShare} f) ∗ ∃ g, own c (srcI0 i h2) g)) ?_) $$ HFI0
  · iintro ⟨Hd, Hs⟩
    isplitl [Hd]
    · iexists _; isplitr; · ipureintro; exact hG0 e0 g
      iexact Hd
    · iexists _; iexact Hs
  sl_exec
  iapply (Transfers.wp_dmaLocal countersEmb Variants.none (thr c) none (none : HIx 1) 65536 rfl (by decide) hdS1) $$ [HS1 Hd1 Hv1]
  · isplitl [HS1]; · iexact HS1
    isplitl [Hd1]; · iexact Hd1
    iexact Hv1
  iintro HFI1
  ihave HFI1 := (Transfers.Flight_mono countersEmb (thr c) (D' := iprop((∃ f, ⌜Gd1 f⌝ ∗ V4.view.loc (thr c) ↦[dS1]{fullShare} f) ∗ ∃ g, own c (srcI1 i h2) g)) ?_) $$ HFI1
  · iintro ⟨Hd, Hs⟩
    isplitl [Hd]
    · iexists _; isplitr; · ipureintro; exact hG1 e1 g
      iexact Hd
    · iexists _; iexact Hs
  sl_exec
  iapply (Transfers.wp_dmaLocal countersEmb Variants.none (thr c) none (none : HIx 1) 65536 rfl (by decide) hdS2) $$ [HS2 Hd2 Hv2]
  · isplitl [HS2]; · iexact HS2
    isplitl [Hd2]; · iexact Hd2
    iexact Hv2
  iintro HFI2
  ihave HFI2 := (Transfers.Flight_mono countersEmb (thr c) (D' := iprop((∃ f, ⌜Gd2 f⌝ ∗ V4.view.loc (thr c) ↦[dS2]{fullShare} f) ∗ ∃ g, own c (srcI2 i h2) g)) ?_) $$ HFI2
  · iintro ⟨Hd, Hs⟩
    isplitl [Hd]
    · iexists _; isplitr; · ipureintro; exact hG2 e2 g
      iexact Hd
    · iexists _; iexact Hs
  sl_exec
  iapply (Transfers.wp_dmaLocal countersEmb Variants.none (thr c) none (none : HIx 1) 65536 rfl (by decide) hdS3) $$ [HS3 Hd3 Hv3]
  · isplitl [HS3]; · iexact HS3
    isplitl [Hd3]; · iexact Hd3
    iexact Hv3
  iintro HFI3
  ihave HFI3 := (Transfers.Flight_mono countersEmb (thr c) (D' := iprop((∃ f, ⌜Gd3 f⌝ ∗ V4.view.loc (thr c) ↦[dS3]{fullShare} f) ∗ ∃ g, own c (srcI3 i h2) g)) ?_) $$ HFI3
  · iintro ⟨Hd, Hs⟩
    isplitl [Hd]
    · iexists _; isplitr; · ipureintro; exact hG3 e3 g
      iexact Hd
    · iexists _; iexact Hs
  sl_exec
  iapply (Transfers.wp_dmaLocal countersEmb Variants.none (thr c) none (none : HIx 1) 65536 rfl (by decide) hdS4) $$ [HS4 Hd4 Hv4]
  · isplitl [HS4]; · iexact HS4
    isplitl [Hd4]; · iexact Hd4
    iexact Hv4
  iintro HFI4
  ihave HFI4 := (Transfers.Flight_mono countersEmb (thr c) (D' := iprop((∃ f, ⌜Gd4 f⌝ ∗ V4.view.loc (thr c) ↦[dS4]{fullShare} f) ∗ ∃ g, own c (srcI4 i h2) g)) ?_) $$ HFI4
  · iintro ⟨Hd, Hs⟩
    isplitl [Hd]
    · iexists _; isplitr; · ipureintro; exact hG4 e4 g
      iexact Hd
    · iexists _; iexact Hs
  sl_exec
  iapply (Transfers.wp_dmaLocal countersEmb Variants.none (thr c) none (none : HIx 1) 65536 rfl (by decide) hdS5) $$ [HS5 Hd5 Hv5]
  · isplitl [HS5]; · iexact HS5
    isplitl [Hd5]; · iexact Hd5
    iexact Hv5
  iintro HFI5
  ihave HFI5 := (Transfers.Flight_mono countersEmb (thr c) (D' := iprop((∃ f, ⌜Gd5 f⌝ ∗ V4.view.loc (thr c) ↦[dS5]{fullShare} f) ∗ ∃ g, own c (srcI5 i h2) g)) ?_) $$ HFI5
  · iintro ⟨Hd, Hs⟩
    isplitl [Hd]
    · iexists _; isplitr; · ipureintro; exact hG5 e5 g
      iexact Hd
    · iexists _; iexact Hs
  sl_exec

  sl_step
  iapply Hk
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HFI0]; · iexact HFI0
  isplitl [HFI1]; · iexact HFI1
  isplitl [HFI2]; · iexact HFI2
  isplitl [HFI3]; · iexact HFI3
  isplitl [HFI4]; · iexact HFI4
  isplitl [HFI5]; · iexact HFI5
  iexact HO

set_option maxHeartbeats 8000000 in
/-- The last point: wait slot 0's six copies of two points ago, store the tail tile, start its four copies, wait slot
    1's six copies of the point before and the four just started: every copy is back. -/
theorem body_last (h1 : k1_cond1 i = 1#1) (h2 : ¬ k1_cond2 i = 1#1) (h3 : k1_cond3 i = 1#1)
    (Dd0 Dd1 Dd2 Dd3 Dd4 Dd5 De0 De1 De2 De3 De4 De5 : sProp 𝕄)
    (hdT0 : (dstT0).view.set ⊆ dS0) (hGT0 : ∀ fd g, Gd0 (landedT0 c i h3 x1 x2 x3 fd g))
    (hdT1 : (dstT1).view.set ⊆ dS1) (hGT1 : ∀ fd g, Gd1 (landedT1 c i h3 x1 x2 x3 fd g))
    (hdT2 : (dstT2).view.set ⊆ dS2) (hGT2 : ∀ fd g, Gd2 (landedT2 c i h3 x1 x2 x3 fd g))
    (hdT3 : (dstT3).view.set ⊆ dS3) (hGT3 : ∀ fd g, Gd3 (landedT3 c i h3 x1 x2 x3 fd g))
    (Q : PUnit → sProp 𝕄) :
    iprop(owns (thr c) M1 fullShare x1 ∗ owns (thr c) M2 fullShare x2 ∗ owns (thr c) M3 fullShare x3
      ∗ Transfers.Flight countersEmb (thr c) (SemLoc.dma (semW0 i h1)) (none : HIx 1) 65536 iprop(Dd0 ∗ ∃ g, own c (srcW0 i h1) g)
      ∗ Transfers.Flight countersEmb (thr c) (SemLoc.dma (semW1 i h1)) (none : HIx 1) 65536 iprop(Dd1 ∗ ∃ g, own c (srcW1 i h1) g)
      ∗ Transfers.Flight countersEmb (thr c) (SemLoc.dma (semW2 i h1)) (none : HIx 1) 65536 iprop(Dd2 ∗ ∃ g, own c (srcW2 i h1) g)
      ∗ Transfers.Flight countersEmb (thr c) (SemLoc.dma (semW3 i h1)) (none : HIx 1) 65536 iprop(Dd3 ∗ ∃ g, own c (srcW3 i h1) g)
      ∗ Transfers.Flight countersEmb (thr c) (SemLoc.dma (semW4 i h1)) (none : HIx 1) 65536 iprop(Dd4 ∗ ∃ g, own c (srcW4 i h1) g)
      ∗ Transfers.Flight countersEmb (thr c) (SemLoc.dma (semW5 i h1)) (none : HIx 1) 65536 iprop(Dd5 ∗ ∃ g, own c (srcW5 i h1) g)
      ∗ Transfers.Flight countersEmb (thr c) (SemLoc.dma semL0) (none : HIx 1) 65536 iprop(De0 ∗ scrC c 1 0)
      ∗ Transfers.Flight countersEmb (thr c) (SemLoc.dma semL1) (none : HIx 1) 65536 iprop(De1 ∗ scrC c 1 1)
      ∗ Transfers.Flight countersEmb (thr c) (SemLoc.dma semL2) (none : HIx 1) 65536 iprop(De2 ∗ scrC c 1 2)
      ∗ Transfers.Flight countersEmb (thr c) (SemLoc.dma semL3) (none : HIx 1) 65536 iprop(De3 ∗ scrC c 1 3)
      ∗ Transfers.Flight countersEmb (thr c) (SemLoc.dma semL4) (none : HIx 1) 65536 iprop(De4 ∗ scrC c 1 4)
      ∗ Transfers.Flight countersEmb (thr c) (SemLoc.dma semL5) (none : HIx 1) 65536 iprop(De5 ∗ scrC c 1 5)
      ∗ (∃ f, V4.view.loc (thr c) ↦[dS0]{fullShare} f)
      ∗ (∃ f, V4.view.loc (thr c) ↦[dS1]{fullShare} f)
      ∗ (∃ f, V4.view.loc (thr c) ↦[dS2]{fullShare} f)
      ∗ (∃ f, V4.view.loc (thr c) ↦[dS3]{fullShare} f)
      ∗ owes (thr c) O W ∗ Transfers.MayWaits (thr c) (none : HIx 1) O
      ∗ (iprop(owns (thr c) M1 fullShare x1 ∗ owns (thr c) M2 fullShare x2 ∗ owns (thr c) M3 fullShare x3
          ∗ Dd0 ∗ Dd1 ∗ Dd2 ∗ Dd3 ∗ Dd4 ∗ Dd5
          ∗ De0 ∗ De1 ∗ De2 ∗ De3 ∗ De4 ∗ De5
          ∗ (∃ f, ⌜Gd0 f⌝ ∗ V4.view.loc (thr c) ↦[dS0]{fullShare} f) ∗ (∃ f, ⌜Gd1 f⌝ ∗ V4.view.loc (thr c) ↦[dS1]{fullShare} f) ∗ (∃ f, ⌜Gd2 f⌝ ∗ V4.view.loc (thr c) ↦[dS2]{fullShare} f) ∗ (∃ f, ⌜Gd3 f⌝ ∗ V4.view.loc (thr c) ↦[dS3]{fullShare} f)
          ∗ (bigSep Finset.univ fun r : Fin 6 => scrC c (sOf i) r)
          ∗ semVal (thr c, SemLoc.dma (semT0 i h3)) 0 ∗ semVal (thr c, SemLoc.dma (semT1 i h3)) 0 ∗ semVal (thr c, SemLoc.dma (semT2 i h3)) 0 ∗ semVal (thr c, SemLoc.dma (semT3 i h3)) 0 ∗ semVal (thr c, SemLoc.dma (semW4 i h1)) 0 ∗ semVal (thr c, SemLoc.dma (semW5 i h1)) 0
          ∗ semVal (thr c, SemLoc.dma semL0) 0 ∗ semVal (thr c, SemLoc.dma semL1) 0 ∗ semVal (thr c, SemLoc.dma semL2) 0 ∗ semVal (thr c, SemLoc.dma semL3) 0 ∗ semVal (thr c, SemLoc.dma semL4) 0 ∗ semVal (thr c, SemLoc.dma semL5) 0
          ∗ scrC c 1 0 ∗ scrC c 1 1 ∗ scrC c 1 2 ∗ scrC c 1 3 ∗ scrC c 1 4 ∗ scrC c 1 5
          ∗ ∃ W', ⌜∀ p ∈ W', p ∈ W ∨ p.2 = none⌝ ∗ owes (thr c) O W') -∗ Q ⟨⟩))
      ⊢ wp frame (wpE (defs₀ (F := F)) Variants.none (thr c) none) Set.univ
          (cc1_body i M1 hM1 M2 hM2 M3 hM3 V4 (Memref.isWhole_whole _) SCR (Memref.isWhole_whole _) cc1_scratch1) Q := by
  unfold owns
  iintro ⟨⟨%f1, %hf1, H1⟩, ⟨%f2, %hf2, H2⟩, ⟨%f3, %hf3, H3⟩, HFW0, HFW1, HFW2, HFW3, HFW4, HFW5, HFL0, HFL1, HFL2, HFL3, HFL4, HFL5, ⟨%e0, Hd0⟩, ⟨%e1, Hd1⟩, ⟨%e2, Hd2⟩, ⟨%e3, Hd3⟩, HO, #HM, Hk⟩
  subst hf1 hf2 hf3
  rw [cc1_body_eq_skeleton]; unfold cc1_body_skel
  rw [dif_pos h1, dif_neg h2, dif_pos h3, k1_part1_eq_skeleton, k1_part3_eq_skeleton, k1_part4_eq_skeleton]; unfold k1_part1_skel k1_part3_skel k1_part4_skel
  sl_exec
  iapply (Transfers.wp_waitLocalO countersEmb Variants.none (thr c) none (none : HIx 1) (N := 65536) rfl) $$ [HFW0 HO]
  · isplitl [HFW0]; · iexact HFW0
    isplitl [HO]; · iexact HO
    iapply (Transfers.MayWaits.elim (SemLoc.dma (semW0 i h1))); iexact HM
  iintro ⟨⟨HD0, HS0⟩, Hv0, HO⟩
  sl_exec
  iapply (Transfers.wp_waitLocalO countersEmb Variants.none (thr c) none (none : HIx 1) (N := 65536) rfl) $$ [HFW1 HO]
  · isplitl [HFW1]; · iexact HFW1
    isplitl [HO]; · iexact HO
    iapply (Transfers.MayWaits.elim (SemLoc.dma (semW1 i h1))); iexact HM
  iintro ⟨⟨HD1, HS1⟩, Hv1, HO⟩
  sl_exec
  iapply (Transfers.wp_waitLocalO countersEmb Variants.none (thr c) none (none : HIx 1) (N := 65536) rfl) $$ [HFW2 HO]
  · isplitl [HFW2]; · iexact HFW2
    isplitl [HO]; · iexact HO
    iapply (Transfers.MayWaits.elim (SemLoc.dma (semW2 i h1))); iexact HM
  iintro ⟨⟨HD2, HS2⟩, Hv2, HO⟩
  sl_exec
  iapply (Transfers.wp_waitLocalO countersEmb Variants.none (thr c) none (none : HIx 1) (N := 65536) rfl) $$ [HFW3 HO]
  · isplitl [HFW3]; · iexact HFW3
    isplitl [HO]; · iexact HO
    iapply (Transfers.MayWaits.elim (SemLoc.dma (semW3 i h1))); iexact HM
  iintro ⟨⟨HD3, HS3⟩, Hv3, HO⟩
  sl_exec
  iapply (Transfers.wp_waitLocalO countersEmb Variants.none (thr c) none (none : HIx 1) (N := 65536) rfl) $$ [HFW4 HO]
  · isplitl [HFW4]; · iexact HFW4
    isplitl [HO]; · iexact HO
    iapply (Transfers.MayWaits.elim (SemLoc.dma (semW4 i h1))); iexact HM
  iintro ⟨⟨HD4, HS4⟩, Hv4, HO⟩
  sl_exec
  iapply (Transfers.wp_waitLocalO countersEmb Variants.none (thr c) none (none : HIx 1) (N := 65536) rfl) $$ [HFW5 HO]
  · isplitl [HFW5]; · iexact HFW5
    isplitl [HO]; · iexact HO
    iapply (Transfers.MayWaits.elim (SemLoc.dma (semW5 i h1))); iexact HM
  iintro ⟨⟨HD5, HS5⟩, Hv5, HO⟩
  sl_exec

  ihave Hg := (slot_join c i h1) $$ [HS0 HS1 HS2 HS3 HS4 HS5]
  · isplitl [HS0]; · iexact HS0
    isplitl [HS1]; · iexact HS1
    isplitl [HS2]; · iexact HS2
    isplitl [HS3]; · iexact HS3
    isplitl [HS4]; · iexact HS4
    iexact HS5
  icases Hg with ⟨%g, Hg⟩
  iapply (wp_load Variants.none (thr c) none Set.univ (Memref.setOn_subset_of_access_subset (c := thr c) (m := SCR) (r := slotR i) (Finset.Subset.refl _))) $$ Hg
  iintro Hg
  iapply (wp_store Variants.none (thr c) none Set.univ (m := SCR) (r := slotR i) (Mk := Finset.univ) (show (SCR.access (slotR i)).setOn Finset.univ ⊆ (SCR.access (slotR i)).set from Finset.Subset.refl _)) $$ Hg
  iintro Hg
  rw [Prog.bind.eq_1]
  ihave Hs := (tail_split c i h3 _) $$ Hg
  icases Hs with ⟨HS0, HS1, HS2, HS3, HR3, HR4, HR5⟩
  sl_exec
  iapply (Transfers.wp_dmaLocal countersEmb Variants.none (thr c) none (none : HIx 1) 65536 rfl (by decide) hdT0) $$ [HS0 Hd0 Hv0]
  · isplitl [HS0]; · iexact HS0
    isplitl [Hd0]; · iexact Hd0
    iapply (Entails.of_eq (show (semVal (thr c, SemLoc.dma (semW0 i h1)) 0 : sProp 𝕄) = semVal (thr c, SemLoc.dma (semT0 i h3)) 0 from by rw [semW0_eq, semT0_eq])); iexact Hv0
  iintro HFT0
  ihave HFT0 := (Transfers.Flight_mono countersEmb (thr c) (D' := iprop((∃ f, ⌜Gd0 f⌝ ∗ V4.view.loc (thr c) ↦[dS0]{fullShare} f) ∗ ∃ g, own c (srcT0 i h3) g)) ?_) $$ HFT0
  · iintro ⟨Hd, Hs⟩
    isplitl [Hd]
    · iexists _; isplitr; · ipureintro; exact hGT0 e0 g
      iexact Hd
    · iexists _; iexact Hs
  sl_exec
  iapply (Transfers.wp_dmaLocal countersEmb Variants.none (thr c) none (none : HIx 1) 65536 rfl (by decide) hdT1) $$ [HS1 Hd1 Hv1]
  · isplitl [HS1]; · iexact HS1
    isplitl [Hd1]; · iexact Hd1
    iapply (Entails.of_eq (show (semVal (thr c, SemLoc.dma (semW1 i h1)) 0 : sProp 𝕄) = semVal (thr c, SemLoc.dma (semT1 i h3)) 0 from by rw [semW1_eq, semT1_eq])); iexact Hv1
  iintro HFT1
  ihave HFT1 := (Transfers.Flight_mono countersEmb (thr c) (D' := iprop((∃ f, ⌜Gd1 f⌝ ∗ V4.view.loc (thr c) ↦[dS1]{fullShare} f) ∗ ∃ g, own c (srcT1 i h3) g)) ?_) $$ HFT1
  · iintro ⟨Hd, Hs⟩
    isplitl [Hd]
    · iexists _; isplitr; · ipureintro; exact hGT1 e1 g
      iexact Hd
    · iexists _; iexact Hs
  sl_exec
  iapply (Transfers.wp_dmaLocal countersEmb Variants.none (thr c) none (none : HIx 1) 65536 rfl (by decide) hdT2) $$ [HS2 Hd2 Hv2]
  · isplitl [HS2]; · iexact HS2
    isplitl [Hd2]; · iexact Hd2
    iapply (Entails.of_eq (show (semVal (thr c, SemLoc.dma (semW2 i h1)) 0 : sProp 𝕄) = semVal (thr c, SemLoc.dma (semT2 i h3)) 0 from by rw [semW2_eq, semT2_eq])); iexact Hv2
  iintro HFT2
  ihave HFT2 := (Transfers.Flight_mono countersEmb (thr c) (D' := iprop((∃ f, ⌜Gd2 f⌝ ∗ V4.view.loc (thr c) ↦[dS2]{fullShare} f) ∗ ∃ g, own c (srcT2 i h3) g)) ?_) $$ HFT2
  · iintro ⟨Hd, Hs⟩
    isplitl [Hd]
    · iexists _; isplitr; · ipureintro; exact hGT2 e2 g
      iexact Hd
    · iexists _; iexact Hs
  sl_exec
  iapply (Transfers.wp_dmaLocal countersEmb Variants.none (thr c) none (none : HIx 1) 20480 rfl (by decide) hdT3) $$ [HS3 Hd3 Hv3]
  · isplitl [HS3]; · iexact HS3
    isplitl [Hd3]; · iexact Hd3
    iapply (Entails.of_eq (show (semVal (thr c, SemLoc.dma (semW3 i h1)) 0 : sProp 𝕄) = semVal (thr c, SemLoc.dma (semT3 i h3)) 0 from by rw [semW3_eq, semT3_eq])); iexact Hv3
  iintro HFT3
  ihave HFT3 := (Transfers.Flight_mono countersEmb (thr c) (D' := iprop((∃ f, ⌜Gd3 f⌝ ∗ V4.view.loc (thr c) ↦[dS3]{fullShare} f) ∗ ∃ g, own c (srcT3 i h3) g)) ?_) $$ HFT3
  · iintro ⟨Hd, Hs⟩
    isplitl [Hd]
    · iexists _; isplitr; · ipureintro; exact hGT3 e3 g
      iexact Hd
    · iexists _; iexact Hs
  sl_exec
  iapply (Transfers.wp_waitLocalO countersEmb Variants.none (thr c) none (none : HIx 1) (N := 65536) rfl) $$ [HFL0 HO]
  · isplitl [HFL0]; · iexact HFL0
    isplitl [HO]; · iexact HO
    iapply (Transfers.MayWaits.elim (SemLoc.dma semL0)); iexact HM
  iintro ⟨⟨HE0, HC0⟩, Hu0, HO⟩
  sl_exec
  iapply (Transfers.wp_waitLocalO countersEmb Variants.none (thr c) none (none : HIx 1) (N := 65536) rfl) $$ [HFL1 HO]
  · isplitl [HFL1]; · iexact HFL1
    isplitl [HO]; · iexact HO
    iapply (Transfers.MayWaits.elim (SemLoc.dma semL1)); iexact HM
  iintro ⟨⟨HE1, HC1⟩, Hu1, HO⟩
  sl_exec
  iapply (Transfers.wp_waitLocalO countersEmb Variants.none (thr c) none (none : HIx 1) (N := 65536) rfl) $$ [HFL2 HO]
  · isplitl [HFL2]; · iexact HFL2
    isplitl [HO]; · iexact HO
    iapply (Transfers.MayWaits.elim (SemLoc.dma semL2)); iexact HM
  iintro ⟨⟨HE2, HC2⟩, Hu2, HO⟩
  sl_exec
  iapply (Transfers.wp_waitLocalO countersEmb Variants.none (thr c) none (none : HIx 1) (N := 65536) rfl) $$ [HFL3 HO]
  · isplitl [HFL3]; · iexact HFL3
    isplitl [HO]; · iexact HO
    iapply (Transfers.MayWaits.elim (SemLoc.dma semL3)); iexact HM
  iintro ⟨⟨HE3, HC3⟩, Hu3, HO⟩
  sl_exec
  iapply (Transfers.wp_waitLocalO countersEmb Variants.none (thr c) none (none : HIx 1) (N := 65536) rfl) $$ [HFL4 HO]
  · isplitl [HFL4]; · iexact HFL4
    isplitl [HO]; · iexact HO
    iapply (Transfers.MayWaits.elim (SemLoc.dma semL4)); iexact HM
  iintro ⟨⟨HE4, HC4⟩, Hu4, HO⟩
  sl_exec
  iapply (Transfers.wp_waitLocalO countersEmb Variants.none (thr c) none (none : HIx 1) (N := 65536) rfl) $$ [HFL5 HO]
  · isplitl [HFL5]; · iexact HFL5
    isplitl [HO]; · iexact HO
    iapply (Transfers.MayWaits.elim (SemLoc.dma semL5)); iexact HM
  iintro ⟨⟨HE5, HC5⟩, Hu5, HO⟩
  sl_exec
  iapply (Transfers.wp_waitLocalO countersEmb Variants.none (thr c) none (none : HIx 1) (N := 65536) rfl) $$ [HFT0 HO]
  · isplitl [HFT0]; · iexact HFT0
    isplitl [HO]; · iexact HO
    iapply (Transfers.MayWaits.elim (SemLoc.dma (semT0 i h3))); iexact HM
  iintro ⟨⟨Hd0, ⟨%gg0, HS0⟩⟩, Hv0, HO⟩
  sl_exec
  iapply (Transfers.wp_waitLocalO countersEmb Variants.none (thr c) none (none : HIx 1) (N := 65536) rfl) $$ [HFT1 HO]
  · isplitl [HFT1]; · iexact HFT1
    isplitl [HO]; · iexact HO
    iapply (Transfers.MayWaits.elim (SemLoc.dma (semT1 i h3))); iexact HM
  iintro ⟨⟨Hd1, ⟨%gg1, HS1⟩⟩, Hv1, HO⟩
  sl_exec
  iapply (Transfers.wp_waitLocalO countersEmb Variants.none (thr c) none (none : HIx 1) (N := 65536) rfl) $$ [HFT2 HO]
  · isplitl [HFT2]; · iexact HFT2
    isplitl [HO]; · iexact HO
    iapply (Transfers.MayWaits.elim (SemLoc.dma (semT2 i h3))); iexact HM
  iintro ⟨⟨Hd2, ⟨%gg2, HS2⟩⟩, Hv2, HO⟩
  sl_exec
  iapply (Transfers.wp_waitLocalO countersEmb Variants.none (thr c) none (none : HIx 1) (N := 20480) rfl) $$ [HFT3 HO]
  · isplitl [HFT3]; · iexact HFT3
    isplitl [HO]; · iexact HO
    iapply (Transfers.MayWaits.elim (SemLoc.dma (semT3 i h3))); iexact HM
  iintro ⟨⟨Hd3, ⟨%gg3, HS3⟩⟩, Hv3, HO⟩
  sl_step
  iapply Hk
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HD0]; · iexact HD0
  isplitl [HD1]; · iexact HD1
  isplitl [HD2]; · iexact HD2
  isplitl [HD3]; · iexact HD3
  isplitl [HD4]; · iexact HD4
  isplitl [HD5]; · iexact HD5
  isplitl [HE0]; · iexact HE0
  isplitl [HE1]; · iexact HE1
  isplitl [HE2]; · iexact HE2
  isplitl [HE3]; · iexact HE3
  isplitl [HE4]; · iexact HE4
  isplitl [HE5]; · iexact HE5
  isplitl [Hd0]; · iexact Hd0
  isplitl [Hd1]; · iexact Hd1
  isplitl [Hd2]; · iexact Hd2
  isplitl [Hd3]; · iexact Hd3
  isplitl [HS0 HS1 HS2 HS3 HR3 HR4 HR5]
  · iapply (tail_join c i h3 _ _ _ _ _ _ _)
    isplitl [HS0]; · iexact HS0
    isplitl [HS1]; · iexact HS1
    isplitl [HS2]; · iexact HS2
    isplitl [HS3]; · iexact HS3
    isplitl [HR3]; · iexact HR3
    isplitl [HR4] <;> iassumption
  isplitl [Hv0]; · iexact Hv0
  isplitl [Hv1]; · iexact Hv1
  isplitl [Hv2]; · iexact Hv2
  isplitl [Hv3]; · iexact Hv3
  isplitl [Hv4]; · iexact Hv4
  isplitl [Hv5]; · iexact Hv5
  isplitl [Hu0]; · iexact Hu0
  isplitl [Hu1]; · iexact Hu1
  isplitl [Hu2]; · iexact Hu2
  isplitl [Hu3]; · iexact Hu3
  isplitl [Hu4]; · iexact Hu4
  isplitl [Hu5]; · iexact Hu5
  isplitl [HC0]; · iexact HC0
  isplitl [HC1]; · iexact HC1
  isplitl [HC2]; · iexact HC2
  isplitl [HC3]; · iexact HC3
  isplitl [HC4]; · iexact HC4
  isplitl [HC5]; · iexact HC5
  iexists _
  isplitr
  rotate_left
  · iexact HO
  · ipureintro; intro p hp; simp only [Finset.mem_insert] at hp
    rcases hp with rfl | rfl | rfl | rfl | rfl | rfl | rfl | rfl | rfl | rfl | rfl | rfl | rfl | rfl | rfl | rfl | hp <;> first | exact Or.inr rfl | exact Or.inl hp

end Body

end Cert.Kernel.Region

end
-- ==== Proof.W.RegionSteps.lean ====
/-
  The three cases of the TensorCore kernel's body over the invariant's pieces: the body's own spelling of each
  semaphore, chunk and row range is exchanged for the one the invariant uses (the two are equal by the offsets' closed
  forms), the slot is assembled from its chunks before a point that finds it free, and the claim about written rows
  is discharged from what each copy lands.
-/
import proofs.«204125_g1194000908950_cont_fleet_528_33_alg».proof.Proof.W.RegionBody
import Idealize.ShloMosaic.Lib.Transfers
import Idealize.ShloMosaic.Lib.Writes
import Idealize.ShloMosaic.Lib.Pipeline.FrameBody
import Idealize.ShloMosaic.Lib.Tactic

noncomputable section

namespace Cert.Kernel.Region

open Cert.Kernel Cert.Kernel.Gen Cert.Kernel.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

/-! ## The conditions by point -/

theorem cond1_iff : ∀ t : Fin grid1.N, k1_cond1 (grid1.coords t) = 1#1 ↔ 2 ≤ t.val := by decide +kernel
theorem cond2_iff : ∀ t : Fin grid1.N, k1_cond2 (grid1.coords t) = 1#1 ↔ t.val < 32 := by decide +kernel
theorem cond3_iff : ∀ t : Fin grid1.N, k1_cond3 (grid1.coords t) = 1#1 ↔ t.val = 32 := by decide +kernel
theorem tOf_coords : ∀ t : Fin grid1.N, tOf (grid1.coords t) = ⟨t.val, t.isLt⟩ := by decide +kernel
theorem sOf_coords : ∀ t : Fin grid1.N, sOf (grid1.coords t) = sN ⟨t.val, t.isLt⟩ := by decide +kernel

/-! ## The flights in the two spellings -/

section Conv

variable (c : Dev nD) (i : grid1.Coords)

theorem flightW0_eq (h1 : k1_cond1 i = 1#1) (D : sProp 𝕄) :
    Transfers.Flight countersEmb (thr c) (SemLoc.dma (semW0 i h1)) (none : HIx 1) 65536 iprop(D ∗ ∃ g, own c (srcW0 i h1) g) = flightC c (sOf i) 0 D := by
  show Transfers.Flight countersEmb (thr c) (SemLoc.dma (semW0 i h1)) (none : HIx 1) 65536
    iprop(D ∗ ∃ g, (srcW0 i h1).view.loc (thr c) ↦[(srcW0 i h1).view.set]{fullShare} g) = _
  rw [semW0_eq i h1, srcW0_set i h1]
theorem flightI0_eq (h2 : k1_cond2 i = 1#1) (j : Fin 33) (G : Buf (Elt F) (V4.view.loc (thr c)) → Prop) :
    flightI0 c i h2 (dsetC j 0) G = flightC c (sOf i) 0 (doneC c j 0 G) := by
  show Transfers.Flight countersEmb (thr c) (SemLoc.dma (semI0 i h2)) (none : HIx 1) 65536
    iprop((∃ f, ⌜G f⌝ ∗ V4.view.loc (thr c) ↦[dsetC j 0]{fullShare} f) ∗ ∃ g, (srcI0 i h2).view.loc (thr c) ↦[(srcI0 i h2).view.set]{fullShare} g) = _
  rw [semI0_eq i h2, srcI0_set i h2]
theorem cellI0_eq (h2 : k1_cond2 i = 1#1) : (semVal (thr c, SemLoc.dma (semI0 i h2)) 0 : sProp 𝕄) = cellC c (sOf i) 0 := by
  rw [semI0_eq i h2]
theorem flightW1_eq (h1 : k1_cond1 i = 1#1) (D : sProp 𝕄) :
    Transfers.Flight countersEmb (thr c) (SemLoc.dma (semW1 i h1)) (none : HIx 1) 65536 iprop(D ∗ ∃ g, own c (srcW1 i h1) g) = flightC c (sOf i) 1 D := by
  show Transfers.Flight countersEmb (thr c) (SemLoc.dma (semW1 i h1)) (none : HIx 1) 65536
    iprop(D ∗ ∃ g, (srcW1 i h1).view.loc (thr c) ↦[(srcW1 i h1).view.set]{fullShare} g) = _
  rw [semW1_eq i h1, srcW1_set i h1]
theorem flightI1_eq (h2 : k1_cond2 i = 1#1) (j : Fin 33) (G : Buf (Elt F) (V4.view.loc (thr c)) → Prop) :
    flightI1 c i h2 (dsetC j 1) G = flightC c (sOf i) 1 (doneC c j 1 G) := by
  show Transfers.Flight countersEmb (thr c) (SemLoc.dma (semI1 i h2)) (none : HIx 1) 65536
    iprop((∃ f, ⌜G f⌝ ∗ V4.view.loc (thr c) ↦[dsetC j 1]{fullShare} f) ∗ ∃ g, (srcI1 i h2).view.loc (thr c) ↦[(srcI1 i h2).view.set]{fullShare} g) = _
  rw [semI1_eq i h2, srcI1_set i h2]
theorem cellI1_eq (h2 : k1_cond2 i = 1#1) : (semVal (thr c, SemLoc.dma (semI1 i h2)) 0 : sProp 𝕄) = cellC c (sOf i) 1 := by
  rw [semI1_eq i h2]
theorem flightW2_eq (h1 : k1_cond1 i = 1#1) (D : sProp 𝕄) :
    Transfers.Flight countersEmb (thr c) (SemLoc.dma (semW2 i h1)) (none : HIx 1) 65536 iprop(D ∗ ∃ g, own c (srcW2 i h1) g) = flightC c (sOf i) 2 D := by
  show Transfers.Flight countersEmb (thr c) (SemLoc.dma (semW2 i h1)) (none : HIx 1) 65536
    iprop(D ∗ ∃ g, (srcW2 i h1).view.loc (thr c) ↦[(srcW2 i h1).view.set]{fullShare} g) = _
  rw [semW2_eq i h1, srcW2_set i h1]
theorem flightI2_eq (h2 : k1_cond2 i = 1#1) (j : Fin 33) (G : Buf (Elt F) (V4.view.loc (thr c)) → Prop) :
    flightI2 c i h2 (dsetC j 2) G = flightC c (sOf i) 2 (doneC c j 2 G) := by
  show Transfers.Flight countersEmb (thr c) (SemLoc.dma (semI2 i h2)) (none : HIx 1) 65536
    iprop((∃ f, ⌜G f⌝ ∗ V4.view.loc (thr c) ↦[dsetC j 2]{fullShare} f) ∗ ∃ g, (srcI2 i h2).view.loc (thr c) ↦[(srcI2 i h2).view.set]{fullShare} g) = _
  rw [semI2_eq i h2, srcI2_set i h2]
theorem cellI2_eq (h2 : k1_cond2 i = 1#1) : (semVal (thr c, SemLoc.dma (semI2 i h2)) 0 : sProp 𝕄) = cellC c (sOf i) 2 := by
  rw [semI2_eq i h2]
theorem flightW3_eq (h1 : k1_cond1 i = 1#1) (D : sProp 𝕄) :
    Transfers.Flight countersEmb (thr c) (SemLoc.dma (semW3 i h1)) (none : HIx 1) 65536 iprop(D ∗ ∃ g, own c (srcW3 i h1) g) = flightC c (sOf i) 3 D := by
  show Transfers.Flight countersEmb (thr c) (SemLoc.dma (semW3 i h1)) (none : HIx 1) 65536
    iprop(D ∗ ∃ g, (srcW3 i h1).view.loc (thr c) ↦[(srcW3 i h1).view.set]{fullShare} g) = _
  rw [semW3_eq i h1, srcW3_set i h1]
theorem flightI3_eq (h2 : k1_cond2 i = 1#1) (j : Fin 33) (G : Buf (Elt F) (V4.view.loc (thr c)) → Prop) :
    flightI3 c i h2 (dsetC j 3) G = flightC c (sOf i) 3 (doneC c j 3 G) := by
  show Transfers.Flight countersEmb (thr c) (SemLoc.dma (semI3 i h2)) (none : HIx 1) 65536
    iprop((∃ f, ⌜G f⌝ ∗ V4.view.loc (thr c) ↦[dsetC j 3]{fullShare} f) ∗ ∃ g, (srcI3 i h2).view.loc (thr c) ↦[(srcI3 i h2).view.set]{fullShare} g) = _
  rw [semI3_eq i h2, srcI3_set i h2]
theorem cellI3_eq (h2 : k1_cond2 i = 1#1) : (semVal (thr c, SemLoc.dma (semI3 i h2)) 0 : sProp 𝕄) = cellC c (sOf i) 3 := by
  rw [semI3_eq i h2]
theorem flightW4_eq (h1 : k1_cond1 i = 1#1) (D : sProp 𝕄) :
    Transfers.Flight countersEmb (thr c) (SemLoc.dma (semW4 i h1)) (none : HIx 1) 65536 iprop(D ∗ ∃ g, own c (srcW4 i h1) g) = flightC c (sOf i) 4 D := by
  show Transfers.Flight countersEmb (thr c) (SemLoc.dma (semW4 i h1)) (none : HIx 1) 65536
    iprop(D ∗ ∃ g, (srcW4 i h1).view.loc (thr c) ↦[(srcW4 i h1).view.set]{fullShare} g) = _
  rw [semW4_eq i h1, srcW4_set i h1]
theorem flightI4_eq (h2 : k1_cond2 i = 1#1) (j : Fin 33) (G : Buf (Elt F) (V4.view.loc (thr c)) → Prop) :
    flightI4 c i h2 (dsetC j 4) G = flightC c (sOf i) 4 (doneC c j 4 G) := by
  show Transfers.Flight countersEmb (thr c) (SemLoc.dma (semI4 i h2)) (none : HIx 1) 65536
    iprop((∃ f, ⌜G f⌝ ∗ V4.view.loc (thr c) ↦[dsetC j 4]{fullShare} f) ∗ ∃ g, (srcI4 i h2).view.loc (thr c) ↦[(srcI4 i h2).view.set]{fullShare} g) = _
  rw [semI4_eq i h2, srcI4_set i h2]
theorem cellI4_eq (h2 : k1_cond2 i = 1#1) : (semVal (thr c, SemLoc.dma (semI4 i h2)) 0 : sProp 𝕄) = cellC c (sOf i) 4 := by
  rw [semI4_eq i h2]
theorem flightW5_eq (h1 : k1_cond1 i = 1#1) (D : sProp 𝕄) :
    Transfers.Flight countersEmb (thr c) (SemLoc.dma (semW5 i h1)) (none : HIx 1) 65536 iprop(D ∗ ∃ g, own c (srcW5 i h1) g) = flightC c (sOf i) 5 D := by
  show Transfers.Flight countersEmb (thr c) (SemLoc.dma (semW5 i h1)) (none : HIx 1) 65536
    iprop(D ∗ ∃ g, (srcW5 i h1).view.loc (thr c) ↦[(srcW5 i h1).view.set]{fullShare} g) = _
  rw [semW5_eq i h1, srcW5_set i h1]
theorem flightI5_eq (h2 : k1_cond2 i = 1#1) (j : Fin 33) (G : Buf (Elt F) (V4.view.loc (thr c)) → Prop) :
    flightI5 c i h2 (dsetC j 5) G = flightC c (sOf i) 5 (doneC c j 5 G) := by
  show Transfers.Flight countersEmb (thr c) (SemLoc.dma (semI5 i h2)) (none : HIx 1) 65536
    iprop((∃ f, ⌜G f⌝ ∗ V4.view.loc (thr c) ↦[dsetC j 5]{fullShare} f) ∗ ∃ g, (srcI5 i h2).view.loc (thr c) ↦[(srcI5 i h2).view.set]{fullShare} g) = _
  rw [semI5_eq i h2, srcI5_set i h2]
theorem cellI5_eq (h2 : k1_cond2 i = 1#1) : (semVal (thr c, SemLoc.dma (semI5 i h2)) 0 : sProp 𝕄) = cellC c (sOf i) 5 := by
  rw [semI5_eq i h2]

/-- The slot's six chunks, joined into the slot as the body's store spells it. -/
theorem slot_joinC : (bigSep Finset.univ fun r : Fin 6 => scrC c (sOf i) r : sProp 𝕄)
      ⊢ iprop(∃ g, SCR.view.loc (thr c) ↦[(SCR.access (slotR i)).set]{fullShare} g) := by
  rw [bigSep_fin6]
  iintro ⟨⟨%g0, H0⟩, ⟨%g1, H1⟩, ⟨%g2, H2⟩, ⟨%g3, H3⟩, ⟨%g4, H4⟩, ⟨%g5, H5⟩⟩
  ihave H := (pointsTo_biUnion_join (ℓ := SCR.view.loc (thr c)) (q := fullShare) Finset.univ (fun r => (chunkR (sOf i) r).set)
      (![g0, g1, g2, g3, g4, g5] : Fin 6 → Buf (Elt F) (SCR.view.loc (thr c))) g0 (fun r _ r' _ h => chunk_disjoint _ r r' h)) $$ [H0 H1 H2 H3 H4 H5]
  · rw [bigSep_fin6]
    isplitl [H0]; · iexact H0
    isplitl [H1]; · iexact H1
    isplitl [H2]; · iexact H2
    isplitl [H3]; · iexact H3
    isplitl [H4]; · iexact H4
    iexact H5
  icases H with ⟨%g, -, H⟩
  iexists g
  rw [slotR_set, ← slot_cover]; iexact H

end Conv

/-! ## The cases over the pieces -/

section Cases

variable (c : Dev nD) (O : CellTallies nD τ sig (HIx 1))
  (GP : Fin 33 → Fin 6 → Vec F S64x1024 .f32 → Vec F S64x3072 .f32 → Vec F S3072 .f32 → Buf (Elt F) (V4.view.loc (thr c)) → Prop)

theorem stepMid (hGP : GPOk c GP) : StepMid c O GP := by
  intro t ht2 ht x1 x2 x3 W Dd
  have h1 : k1_cond1 (grid1.coords t) = 1#1 := (cond1_iff t).mpr ht2
  have h2 : k1_cond2 (grid1.coords t) = 1#1 := (cond2_iff t).mpr ht
  have h3 : ¬ k1_cond3 (grid1.coords t) = 1#1 := fun h => by have := (cond3_iff t).mp h; omega
  rw [bigSep_fin6, bigSep_fin6]
  iintro ⟨H1, H2, H3, ⟨F0, F1, F2, F3, F4, F5⟩, ⟨D0, D1, D2, D3, D4, D5⟩, HO, #HM⟩
  iapply (body_mid c (grid1.coords t) _ _ _ _ _ _ x1 x2 x3 O W (dsetC (tOf (grid1.coords t)) 0) (dsetC (tOf (grid1.coords t)) 1) (dsetC (tOf (grid1.coords t)) 2) (dsetC (tOf (grid1.coords t)) 3) (dsetC (tOf (grid1.coords t)) 4) (dsetC (tOf (grid1.coords t)) 5)
    (GP (tOf (grid1.coords t)) 0 x1 x2 x3) (GP (tOf (grid1.coords t)) 1 x1 x2 x3) (GP (tOf (grid1.coords t)) 2 x1 x2 x3) (GP (tOf (grid1.coords t)) 3 x1 x2 x3) (GP (tOf (grid1.coords t)) 4 x1 x2 x3) (GP (tOf (grid1.coords t)) 5 x1 x2 x3) h1 h2 h3 (Dd 0) (Dd 1) (Dd 2) (Dd 3) (Dd 4) (Dd 5)
    (dstI0_sub _ h2) (fun fd g => (hGP.full _ h2 x1 x2 x3 fd g).1)
    (dstI1_sub _ h2) (fun fd g => (hGP.full _ h2 x1 x2 x3 fd g).2.1)
    (dstI2_sub _ h2) (fun fd g => (hGP.full _ h2 x1 x2 x3 fd g).2.2.1)
    (dstI3_sub _ h2) (fun fd g => (hGP.full _ h2 x1 x2 x3 fd g).2.2.2.1)
    (dstI4_sub _ h2) (fun fd g => (hGP.full _ h2 x1 x2 x3 fd g).2.2.2.2.1)
    (dstI5_sub _ h2) (fun fd g => (hGP.full _ h2 x1 x2 x3 fd g).2.2.2.2.2))
  isplitl [H1]; · iexact H1
  isplitl [H2]; · iexact H2
  isplitl [H3]; · iexact H3
  isplitl [F0]; · rw [flightW0_eq]; iexact F0
  isplitl [F1]; · rw [flightW1_eq]; iexact F1
  isplitl [F2]; · rw [flightW2_eq]; iexact F2
  isplitl [F3]; · rw [flightW3_eq]; iexact F3
  isplitl [F4]; · rw [flightW4_eq]; iexact F4
  isplitl [F5]; · rw [flightW5_eq]; iexact F5
  isplitl [D0]; · iexact D0
  isplitl [D1]; · iexact D1
  isplitl [D2]; · iexact D2
  isplitl [D3]; · iexact D3
  isplitl [D4]; · iexact D4
  isplitl [D5]; · iexact D5
  isplitl [HO]; · iexact HO
  isplitr; · iexact HM
  iintro ⟨H1, H2, H3, D0, D1, D2, D3, D4, D5, F0, F1, F2, F3, F4, F5, HO⟩
  isplitl [H1]; · iexact H1
  isplitl [H2]; · iexact H2
  isplitl [H3]; · iexact H3
  isplitr [HO]
  · rw [bigSep_fin6, bigSep_fin6]
    isplitl [D0 D1 D2 D3 D4 D5]
    · isplitl [D0]; · iexact D0
      isplitl [D1]; · iexact D1
      isplitl [D2]; · iexact D2
      isplitl [D3]; · iexact D3
      isplitl [D4]; · iexact D4
      iexact D5
    · isplitl [F0]; · rw [← flightI0_eq]; iexact F0
      isplitl [F1]; · rw [← flightI1_eq]; iexact F1
      isplitl [F2]; · rw [← flightI2_eq]; iexact F2
      isplitl [F3]; · rw [← flightI3_eq]; iexact F3
      isplitl [F4]; · rw [← flightI4_eq]; iexact F4
      rw [← flightI5_eq]; iexact F5
  · iexact HO

theorem stepLo (hGP : GPOk c GP) : StepLo c O GP := by
  intro t ht x1 x2 x3 W
  have h1 : ¬ k1_cond1 (grid1.coords t) = 1#1 := fun h => by have := (cond1_iff t).mp h; omega
  have h2 : k1_cond2 (grid1.coords t) = 1#1 := (cond2_iff t).mpr (by omega)
  have h3 : ¬ k1_cond3 (grid1.coords t) = 1#1 := fun h => by have := (cond3_iff t).mp h; omega
  rw [bigSep_sep', bigSep_fin6 (fun r => cellC c (sOf (grid1.coords t)) r), bigSep_fin6 (fun r => freshC c (tOf (grid1.coords t)) r)]
  iintro ⟨H1, H2, H3, ⟨⟨V0, V1, V2, V3, V4, V5⟩, HS⟩, ⟨D0, D1, D2, D3, D4, D5⟩, HO⟩
  ihave Hg := (slot_joinC c (grid1.coords t)) $$ HS
  iapply (body_lo c (grid1.coords t) _ _ _ _ _ _ x1 x2 x3 O W (dsetC (tOf (grid1.coords t)) 0) (dsetC (tOf (grid1.coords t)) 1) (dsetC (tOf (grid1.coords t)) 2) (dsetC (tOf (grid1.coords t)) 3) (dsetC (tOf (grid1.coords t)) 4) (dsetC (tOf (grid1.coords t)) 5)
    (GP (tOf (grid1.coords t)) 0 x1 x2 x3) (GP (tOf (grid1.coords t)) 1 x1 x2 x3) (GP (tOf (grid1.coords t)) 2 x1 x2 x3) (GP (tOf (grid1.coords t)) 3 x1 x2 x3) (GP (tOf (grid1.coords t)) 4 x1 x2 x3) (GP (tOf (grid1.coords t)) 5 x1 x2 x3) h1 h2 h3
    (dstI0_sub _ h2) (fun fd g => (hGP.full _ h2 x1 x2 x3 fd g).1)
    (dstI1_sub _ h2) (fun fd g => (hGP.full _ h2 x1 x2 x3 fd g).2.1)
    (dstI2_sub _ h2) (fun fd g => (hGP.full _ h2 x1 x2 x3 fd g).2.2.1)
    (dstI3_sub _ h2) (fun fd g => (hGP.full _ h2 x1 x2 x3 fd g).2.2.2.1)
    (dstI4_sub _ h2) (fun fd g => (hGP.full _ h2 x1 x2 x3 fd g).2.2.2.2.1)
    (dstI5_sub _ h2) (fun fd g => (hGP.full _ h2 x1 x2 x3 fd g).2.2.2.2.2))
  isplitl [H1]; · iexact H1
  isplitl [H2]; · iexact H2
  isplitl [H3]; · iexact H3
  isplitl [Hg]; · iexact Hg
  isplitl [V0]; · rw [cellI0_eq]; iexact V0
  isplitl [V1]; · rw [cellI1_eq]; iexact V1
  isplitl [V2]; · rw [cellI2_eq]; iexact V2
  isplitl [V3]; · rw [cellI3_eq]; iexact V3
  isplitl [V4]; · rw [cellI4_eq]; iexact V4
  isplitl [V5]; · rw [cellI5_eq]; iexact V5
  isplitl [D0]; · iexact D0
  isplitl [D1]; · iexact D1
  isplitl [D2]; · iexact D2
  isplitl [D3]; · iexact D3
  isplitl [D4]; · iexact D4
  isplitl [D5]; · iexact D5
  isplitl [HO]; · iexact HO
  iintro ⟨H1, H2, H3, F0, F1, F2, F3, F4, F5, HO⟩
  isplitl [H1]; · iexact H1
  isplitl [H2]; · iexact H2
  isplitl [H3]; · iexact H3
  isplitr [HO]
  · rw [bigSep_fin6]
    isplitl [F0]; · rw [← flightI0_eq]; iexact F0
    isplitl [F1]; · rw [← flightI1_eq]; iexact F1
    isplitl [F2]; · rw [← flightI2_eq]; iexact F2
    isplitl [F3]; · rw [← flightI3_eq]; iexact F3
    isplitl [F4]; · rw [← flightI4_eq]; iexact F4
    rw [← flightI5_eq]; iexact F5
  · iexists W; isplitr; (· ipureintro; exact fun p hp => Or.inl hp); iexact HO

end Cases

section Last

variable (c : Dev nD) (O : CellTallies nD τ sig (HIx 1))
  (GP : Fin 33 → Fin 6 → Vec F S64x1024 .f32 → Vec F S64x3072 .f32 → Vec F S3072 .f32 → Buf (Elt F) (V4.view.loc (thr c)) → Prop)

theorem sOf_last : ∀ t : Fin grid1.N, t.val = 32 → sOf (grid1.coords t) = 0 := by decide +kernel

theorem flightL0_eq (D : sProp 𝕄) :
    Transfers.Flight countersEmb (thr c) (SemLoc.dma semL0) (none : HIx 1) 65536 iprop(D ∗ scrC c 1 0) = flightC c 1 0 D := by
  rw [semL0_eq]
theorem cellL0_eq : (semVal (thr c, SemLoc.dma semL0) 0 : sProp 𝕄) = cellC c 1 0 := by rw [semL0_eq]
theorem cellW0_eq (i : grid1.Coords) (h1 : k1_cond1 i = 1#1) : (semVal (thr c, SemLoc.dma (semW0 i h1)) 0 : sProp 𝕄) = cellC c (sOf i) 0 := by rw [semW0_eq i h1]
theorem flightL1_eq (D : sProp 𝕄) :
    Transfers.Flight countersEmb (thr c) (SemLoc.dma semL1) (none : HIx 1) 65536 iprop(D ∗ scrC c 1 1) = flightC c 1 1 D := by
  rw [semL1_eq]
theorem cellL1_eq : (semVal (thr c, SemLoc.dma semL1) 0 : sProp 𝕄) = cellC c 1 1 := by rw [semL1_eq]
theorem cellW1_eq (i : grid1.Coords) (h1 : k1_cond1 i = 1#1) : (semVal (thr c, SemLoc.dma (semW1 i h1)) 0 : sProp 𝕄) = cellC c (sOf i) 1 := by rw [semW1_eq i h1]
theorem flightL2_eq (D : sProp 𝕄) :
    Transfers.Flight countersEmb (thr c) (SemLoc.dma semL2) (none : HIx 1) 65536 iprop(D ∗ scrC c 1 2) = flightC c 1 2 D := by
  rw [semL2_eq]
theorem cellL2_eq : (semVal (thr c, SemLoc.dma semL2) 0 : sProp 𝕄) = cellC c 1 2 := by rw [semL2_eq]
theorem cellW2_eq (i : grid1.Coords) (h1 : k1_cond1 i = 1#1) : (semVal (thr c, SemLoc.dma (semW2 i h1)) 0 : sProp 𝕄) = cellC c (sOf i) 2 := by rw [semW2_eq i h1]
theorem flightL3_eq (D : sProp 𝕄) :
    Transfers.Flight countersEmb (thr c) (SemLoc.dma semL3) (none : HIx 1) 65536 iprop(D ∗ scrC c 1 3) = flightC c 1 3 D := by
  rw [semL3_eq]
theorem cellL3_eq : (semVal (thr c, SemLoc.dma semL3) 0 : sProp 𝕄) = cellC c 1 3 := by rw [semL3_eq]
theorem cellW3_eq (i : grid1.Coords) (h1 : k1_cond1 i = 1#1) : (semVal (thr c, SemLoc.dma (semW3 i h1)) 0 : sProp 𝕄) = cellC c (sOf i) 3 := by rw [semW3_eq i h1]
theorem flightL4_eq (D : sProp 𝕄) :
    Transfers.Flight countersEmb (thr c) (SemLoc.dma semL4) (none : HIx 1) 65536 iprop(D ∗ scrC c 1 4) = flightC c 1 4 D := by
  rw [semL4_eq]
theorem cellL4_eq : (semVal (thr c, SemLoc.dma semL4) 0 : sProp 𝕄) = cellC c 1 4 := by rw [semL4_eq]
theorem cellW4_eq (i : grid1.Coords) (h1 : k1_cond1 i = 1#1) : (semVal (thr c, SemLoc.dma (semW4 i h1)) 0 : sProp 𝕄) = cellC c (sOf i) 4 := by rw [semW4_eq i h1]
theorem flightL5_eq (D : sProp 𝕄) :
    Transfers.Flight countersEmb (thr c) (SemLoc.dma semL5) (none : HIx 1) 65536 iprop(D ∗ scrC c 1 5) = flightC c 1 5 D := by
  rw [semL5_eq]
theorem cellL5_eq : (semVal (thr c, SemLoc.dma semL5) 0 : sProp 𝕄) = cellC c 1 5 := by rw [semL5_eq]
theorem cellW5_eq (i : grid1.Coords) (h1 : k1_cond1 i = 1#1) : (semVal (thr c, SemLoc.dma (semW5 i h1)) 0 : sProp 𝕄) = cellC c (sOf i) 5 := by rw [semW5_eq i h1]
theorem cellT0_eq (i : grid1.Coords) (h3 : k1_cond3 i = 1#1) : (semVal (thr c, SemLoc.dma (semT0 i h3)) 0 : sProp 𝕄) = cellC c (sOf i) 0 := by rw [semT0_eq i h3]
theorem cellT1_eq (i : grid1.Coords) (h3 : k1_cond3 i = 1#1) : (semVal (thr c, SemLoc.dma (semT1 i h3)) 0 : sProp 𝕄) = cellC c (sOf i) 1 := by rw [semT1_eq i h3]
theorem cellT2_eq (i : grid1.Coords) (h3 : k1_cond3 i = 1#1) : (semVal (thr c, SemLoc.dma (semT2 i h3)) 0 : sProp 𝕄) = cellC c (sOf i) 2 := by rw [semT2_eq i h3]
theorem cellT3_eq (i : grid1.Coords) (h3 : k1_cond3 i = 1#1) : (semVal (thr c, SemLoc.dma (semT3 i h3)) 0 : sProp 𝕄) = cellC c (sOf i) 3 := by rw [semT3_eq i h3]

theorem cells_all :
    iprop((cellC c 0 0 ∗ cellC c 0 1 ∗ cellC c 0 2 ∗ cellC c 0 3 ∗ cellC c 0 4 ∗ cellC c 0 5) ∗ (bigSep Finset.univ fun r : Fin 6 => scrC c 0 r)
        ∗ (cellC c 1 0 ∗ cellC c 1 1 ∗ cellC c 1 2 ∗ cellC c 1 3 ∗ cellC c 1 4 ∗ cellC c 1 5) ∗ (scrC c 1 0 ∗ scrC c 1 1 ∗ scrC c 1 2 ∗ scrC c 1 3 ∗ scrC c 1 4 ∗ scrC c 1 5))
      ⊢ (bigSep Finset.univ fun s : Fin 2 => bigSep Finset.univ fun r : Fin 6 => iprop(cellC c s r ∗ scrC c s r) : sProp 𝕄) := by
  rw [bigSep_univ_two, bigSep_sep', bigSep_sep', bigSep_fin6 (fun r => cellC c 0 r), bigSep_fin6 (fun r => cellC c 1 r), bigSep_fin6 (fun r => scrC c 1 r)]
  iintro ⟨A, B, C, D⟩
  isplitl [A B]; · isplitl [A] <;> iassumption
  isplitl [C] <;> iassumption

theorem stepLast (hGP : GPOk c GP) : StepLast c O GP := by
  intro t ht x1 x2 x3 W Dd De
  have h1 : k1_cond1 (grid1.coords t) = 1#1 := (cond1_iff t).mpr (by omega)
  have h2 : ¬ k1_cond2 (grid1.coords t) = 1#1 := fun h => by have := (cond2_iff t).mp h; omega
  have h3 : k1_cond3 (grid1.coords t) = 1#1 := (cond3_iff t).mpr ht
  have hs : sOf (grid1.coords t) = 0 := sOf_last t ht
  rw [bigSep_fin6, bigSep_fin6, bigSep_fin6]
  iintro ⟨H1, H2, H3, ⟨F0, F1, F2, F3, F4, F5⟩, ⟨L0, L1, L2, L3, L4, L5⟩, ⟨D0, D1, D2, D3, D4, D5⟩, HO, #HM⟩
  iapply (body_last c (grid1.coords t) _ _ _ _ _ _ x1 x2 x3 O W (dsetC 32 0) (dsetC 32 1) (dsetC 32 2) (dsetC 32 3)
    (GP 32 0 x1 x2 x3) (GP 32 1 x1 x2 x3) (GP 32 2 x1 x2 x3) (GP 32 3 x1 x2 x3) h1 h2 h3 (Dd 0) (Dd 1) (Dd 2) (Dd 3) (Dd 4) (Dd 5) (De 0) (De 1) (De 2) (De 3) (De 4) (De 5)
    dstT0_sub (fun fd g => (hGP.tail _ h3 x1 x2 x3 fd g).1)
    dstT1_sub (fun fd g => (hGP.tail _ h3 x1 x2 x3 fd g).2.1)
    dstT2_sub (fun fd g => (hGP.tail _ h3 x1 x2 x3 fd g).2.2.1)
    dstT3_sub (fun fd g => (hGP.tail _ h3 x1 x2 x3 fd g).2.2.2))
  isplitl [H1]; · iexact H1
  isplitl [H2]; · iexact H2
  isplitl [H3]; · iexact H3
  isplitl [F0]; · rw [flightW0_eq, hs]; iexact F0
  isplitl [F1]; · rw [flightW1_eq, hs]; iexact F1
  isplitl [F2]; · rw [flightW2_eq, hs]; iexact F2
  isplitl [F3]; · rw [flightW3_eq, hs]; iexact F3
  isplitl [F4]; · rw [flightW4_eq, hs]; iexact F4
  isplitl [F5]; · rw [flightW5_eq, hs]; iexact F5
  isplitl [L0]; · rw [flightL0_eq]; iexact L0
  isplitl [L1]; · rw [flightL1_eq]; iexact L1
  isplitl [L2]; · rw [flightL2_eq]; iexact L2
  isplitl [L3]; · rw [flightL3_eq]; iexact L3
  isplitl [L4]; · rw [flightL4_eq]; iexact L4
  isplitl [L5]; · rw [flightL5_eq]; iexact L5
  isplitl [D0]; · iexact D0
  isplitl [D1]; · iexact D1
  isplitl [D2]; · iexact D2
  isplitl [D3]; · iexact D3
  isplitl [HO]; · iexact HO
  isplitr; · iexact HM
  iintro ⟨H1, H2, H3, A0, A1, A2, A3, A4, A5, B0, B1, B2, B3, B4, B5, G0, G1, G2, G3, HS, V0, V1, V2, V3, V4, V5, U0, U1, U2, U3, U4, U5, C0, C1, C2, C3, C4, C5, HO⟩
  isplitl [H1]; · iexact H1
  isplitl [H2]; · iexact H2
  isplitl [H3]; · iexact H3
  isplitr [HO]
  · isplitl [A0 A1 A2 A3 A4 A5]
    · rw [bigSep_fin6]
      isplitl [A0]; · iexact A0
      isplitl [A1]; · iexact A1
      isplitl [A2]; · iexact A2
      isplitl [A3]; · iexact A3
      isplitl [A4]; · iexact A4
      iexact A5
    isplitl [B0 B1 B2 B3 B4 B5]
    · rw [bigSep_fin6]
      isplitl [B0]; · iexact B0
      isplitl [B1]; · iexact B1
      isplitl [B2]; · iexact B2
      isplitl [B3]; · iexact B3
      isplitl [B4]; · iexact B4
      iexact B5
    isplitl [G0 G1 G2 G3 D4 D5]
    · rw [bigSep_fin6]
      isplitl [G0]; · iexact G0
      isplitl [G1]; · iexact G1
      isplitl [G2]; · iexact G2
      isplitl [G3]; · iexact G3
      isplitl [D4]
      · icases D4 with ⟨%f, D4⟩; iexists f; isplitr; (· ipureintro; exact (hGP.past x1 x2 x3 f).1); iexact D4
      · icases D5 with ⟨%f, D5⟩; iexists f; isplitr; (· ipureintro; exact (hGP.past x1 x2 x3 f).2); iexact D5
    · iapply (cells_all c)
      isplitl [V0 V1 V2 V3 V4 V5]
      · isplitl [V0]; · rw [← hs, ← cellT0_eq c _ h3]; iexact V0
        isplitl [V1]; · rw [← hs, ← cellT1_eq c _ h3]; iexact V1
        isplitl [V2]; · rw [← hs, ← cellT2_eq c _ h3]; iexact V2
        isplitl [V3]; · rw [← hs, ← cellT3_eq c _ h3]; iexact V3
        isplitl [V4]; · rw [← hs, ← cellW4_eq c _ h1]; iexact V4
        rw [← hs, ← cellW5_eq c _ h1]; iexact V5
      isplitl [HS]; · rw [← hs]; iexact HS
      isplitl [U0 U1 U2 U3 U4 U5]
      · isplitl [U0]; · rw [← cellL0_eq]; iexact U0
        isplitl [U1]; · rw [← cellL1_eq]; iexact U1
        isplitl [U2]; · rw [← cellL2_eq]; iexact U2
        isplitl [U3]; · rw [← cellL3_eq]; iexact U3
        isplitl [U4]; · rw [← cellL4_eq]; iexact U4
        rw [← cellL5_eq]; iexact U5
      · isplitl [C0]; · iexact C0
        isplitl [C1]; · iexact C1
        isplitl [C2]; · iexact C2
        isplitl [C3]; · iexact C3
        isplitl [C4]; · iexact C4
        iexact C5
  · iexact HO

end Last

end Cert.Kernel.Region

end
-- ==== Proof.W.RegionEnds.lean ====
/-
  The two ends of the TensorCore kernel's invariant. Before point 0 the result held whole (at any contents) is its
  (tile, chunk) row ranges, each untouched, and the scratch held whole is its (slot, chunk) pieces, every semaphore at
  zero in the core's hand: the invariant at 0. At 33 every row range is written and every slot is back: the ranges,
  each at contents of its own of which the tile's claim holds, join into the result whole at ONE contents that agrees
  with each range's on the range, and the claim, which only looks at its range, moves along.
-/
import proofs.«204125_g1194000908950_cont_fleet_528_33_alg».proof.Proof.W.RegionInv

noncomputable section

namespace Cert.Kernel.Region

open Cert.Kernel Cert.Kernel.Gen Cert.Kernel.Common
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MM F

section Ends

variable (c : Dev nD)

/-- The result held whole is its row ranges, tile by tile and chunk by chunk. -/
theorem v4_parts (q : PosShare TreeShare) (f : Buf (Elt F) (V4.view.loc (thr c))) :
    (V4.view.loc (thr c) ↦{q} f : sProp 𝕄)
      = bigSep Finset.univ fun j : Fin 33 => bigSep Finset.univ fun r : Fin 6 => V4.view.loc (thr c) ↦[dsetC j r]{q} f := by
  rw [← bigSep_univ_prod (fun p : Fin 33 × Fin 6 => (V4.view.loc (thr c) ↦[dsetC p.1 p.2]{q} f : sProp 𝕄)),
    ← pointsTo_biUnion Finset.univ (ℓ := V4.view.loc (thr c)) (fun p : Fin 33 × Fin 6 => dsetC p.1 p.2) (fun p _ p' _ h => dsetC_disjoint p p' h), dsetC_cover]

/-- The scratch held whole is its pieces, slot by slot and chunk by chunk. -/
theorem scr_parts (q : PosShare TreeShare) (g : Buf (Elt F) (SCR.view.loc (thr c))) :
    (SCR.view.loc (thr c) ↦{q} g : sProp 𝕄)
      = bigSep Finset.univ fun s : Fin 2 => bigSep Finset.univ fun r : Fin 6 => SCR.view.loc (thr c) ↦[(chunkR s r).set]{q} g := by
  rw [← bigSep_univ_prod (fun p : Fin 2 × Fin 6 => (SCR.view.loc (thr c) ↦[(chunkR p.1 p.2).set]{q} g : sProp 𝕄)),
    ← pointsTo_biUnion Finset.univ (ℓ := SCR.view.loc (thr c)) (fun p : Fin 2 × Fin 6 => (chunkR p.1 p.2).set) (fun p _ p' _ h => chunkR_disjoint p p' h), chunkR_cover]

/-- Two families over (slot, chunk) side by side are one family of pairs. -/
theorem bigSep2_sep (A B : Fin 2 → Fin 6 → sProp 𝕄) :
    (bigSep Finset.univ fun s : Fin 2 => bigSep Finset.univ fun r : Fin 6 => iprop(A s r ∗ B s r))
      = iprop((bigSep Finset.univ fun s : Fin 2 => bigSep Finset.univ fun r : Fin 6 => A s r)
          ∗ bigSep Finset.univ fun s : Fin 2 => bigSep Finset.univ fun r : Fin 6 => B s r) := by
  rw [← bigSep_sep']
  exact bigSep_congr fun s _ => bigSep_sep' _ _ _

theorem not_busy_zero (s : Fin 2) : ¬ busy 0 s := by
  unfold busy; omega
theorem not_busy_last (s : Fin 2) : ¬ busy 33 s := by
  unfold busy; omega

variable (vA : Buf (Elt F) ((thr c).loc main_v2)) (vW : Buf (Elt F) ((thr c).loc main_v3)) (vB : Buf (Elt F) ((thr c).loc main_arg3))
  (GP : Fin 33 → Fin 6 → Vec F S64x1024 .f32 → Vec F S64x3072 .f32 → Vec F S3072 .f32 → Buf (Elt F) (V4.view.loc (thr c)) → Prop)

/-- The invariant before the first point. -/
theorem inv_zero :
    iprop(levAts (K (F := F)).L (K (F := F)).lev ∗ (∃ f, V4.view.loc (thr c) ↦{fullShare} f) ∗ (∃ g, SCR.view.loc (thr c) ↦{fullShare} g)
        ∗ bigSep Finset.univ fun s : Fin 2 => bigSep Finset.univ fun r : Fin 6 => cellC c s r)
      ⊢ Inv c vA vW vB GP 0 := by
  unfold Inv
  iintro ⟨Hlv, ⟨%f, Hv⟩, ⟨%g, Hs⟩, Hc⟩
  have hout : ∀ (j : Fin 33) (r : Fin 6) (G : Buf (Elt F) (V4.view.loc (thr c)) → Prop),
      (V4.view.loc (thr c) ↦[dsetC j r]{fullShare} f : sProp 𝕄) ⊢ OutSt c 0 j r G := fun j r G => by
    unfold OutSt
    rw [if_pos (Nat.zero_le _)]
    iintro H; iexists f; iexact H
  have htile : ∀ j : Fin 33,
      (bigSep Finset.univ fun r : Fin 6 => (V4.view.loc (thr c) ↦[dsetC j r]{fullShare} f : sProp 𝕄)) ⊢ TileSt c vA vW vB GP 0 j := fun j => by
    unfold TileSt
    iintro H
    iexists (Classical.arbitrary (Vec F S64x3072 .f32)), (Classical.arbitrary (Vec F S3072 .f32))
    isplitr
    · ipureintro; intro h; exact absurd h (Nat.not_lt_zero _)
    have hm : (bigSep Finset.univ fun r : Fin 6 => (V4.view.loc (thr c) ↦[dsetC j r]{fullShare} f : sProp 𝕄))
        ⊢ bigSep Finset.univ fun r : Fin 6 => OutSt c 0 j r (GP j r vA (Classical.arbitrary (Vec F S64x3072 .f32)) (Classical.arbitrary (Vec F S3072 .f32))) :=
      bigSep_mono fun r _ => hout j r _
    iapply hm; iexact H
  have htiles : (bigSep Finset.univ fun j : Fin 33 => bigSep Finset.univ fun r : Fin 6 => (V4.view.loc (thr c) ↦[dsetC j r]{fullShare} f : sProp 𝕄))
      ⊢ bigSep Finset.univ fun j : Fin 33 => TileSt c vA vW vB GP 0 j := bigSep_mono fun j _ => htile j
  have hslot : ∀ (s : Fin 2) (r : Fin 6),
      iprop(cellC c s r ∗ (SCR.view.loc (thr c) ↦[(chunkR s r).set]{fullShare} g)) ⊢ SlotSt c 0 s r := fun s r => by
    unfold SlotSt
    rw [if_neg (not_busy_zero s)]
    iintro ⟨H1, H2⟩
    isplitl [H1]; · iexact H1
    iexists g; iexact H2
  have hslots : (bigSep Finset.univ fun s : Fin 2 => bigSep Finset.univ fun r : Fin 6 => iprop(cellC c s r ∗ (SCR.view.loc (thr c) ↦[(chunkR s r).set]{fullShare} g)))
      ⊢ bigSep Finset.univ fun s : Fin 2 => bigSep Finset.univ fun r : Fin 6 => SlotSt c 0 s r :=
    bigSep_mono fun s _ => bigSep_mono fun r _ => hslot s r
  isplitl [Hlv]; · iexact Hlv
  isplitl [Hv]
  · iapply htiles
    iapply (Entails.of_eq (v4_parts c fullShare f)); iexact Hv
  · iapply hslots
    rw [bigSep2_sep]
    isplitl [Hc]; · iexact Hc
    iapply (Entails.of_eq (scr_parts c fullShare g)); iexact Hs

omit [FloatOps F] [∀ e, Nonempty (Elt F e)] in
/-- Disjoint parts that cover a buffer, each held at contents of its own of which a fact holds, are the buffer held whole
    at ONE contents that agrees with each part's on the part. -/
theorem join_parts {ℓ : Loc nD τ sig} (hne : Nonempty (Buf (Elt F) ℓ)) {Tt : Type} [Fintype Tt] [DecidableEq Tt] (t₀ : Tt)
    (Kk : Tt → Finset (Idx ℓ))
    (hd : ∀ t ∈ (Finset.univ : Finset Tt), ∀ t' ∈ (Finset.univ : Finset Tt), t ≠ t' → Disjoint (Kk t) (Kk t'))
    (hc : (Finset.univ : Finset Tt).biUnion Kk = Finset.univ) (q : PosShare TreeShare) (G : Tt → Buf (Elt F) ℓ → Prop) :
    (bigSep Finset.univ fun t : Tt => iprop(∃ f, ⌜G t f⌝ ∗ ℓ ↦[Kk t]{q} f) : sProp 𝕄)
      ⊢ iprop(∃ g, ⌜∀ t, ∃ f, G t f ∧ ∀ i ∈ Kk t, g i = f i⌝ ∗ ℓ ↦{q} g) := by
  haveI : ∀ _ : Tt, Nonempty (Buf (Elt F) ℓ) := fun _ => hne
  refine (bigSep_exists_pi (Finset.univ : Finset Tt) (fun t (f : Buf (Elt F) ℓ) => iprop(⌜G t f⌝ ∗ ℓ ↦[Kk t]{q} f))).trans ?_
  iintro ⟨%fs, H⟩
  ihave H' := (bigSep_pure_sep (Finset.univ : Finset Tt) (fun t => G t (fs t)) (fun t => (ℓ ↦[Kk t]{q} fs t : sProp 𝕄))) $$ H
  icases H' with ⟨%hG, H⟩
  ihave H2 := (pointsTo_biUnion_join (Finset.univ : Finset Tt) Kk fs (fs t₀) hd) $$ H
  icases H2 with ⟨%g, %hg, Hg⟩
  rw [hc]
  iexists g
  isplitr
  · ipureintro; exact fun t => ⟨fs t, hG t (Finset.mem_univ _), hg t (Finset.mem_univ t)⟩
  iexact Hg

theorem outSt_last (j : Fin 33) (r : Fin 6) (G : Buf (Elt F) (V4.view.loc (thr c)) → Prop) : OutSt c 33 j r G = doneC c j r G := by
  unfold OutSt
  rw [if_neg (by have := j.isLt; omega), if_neg (by omega)]

theorem slotSt_last (s : Fin 2) (r : Fin 6) : (SlotSt (F := F) c 33 s r : sProp 𝕄) = iprop(cellC (F := F) c s r ∗ scrC (F := F) c s r) := by
  unfold SlotSt
  exact if_neg (not_busy_last s)

/-- The invariant after the last point gives the result whole, every tile's claim holding of it, the scratch whole and
    every semaphore at zero. -/
theorem inv_last (hloc : ∀ j r a w b (f g : Buf (Elt F) (V4.view.loc (thr c))), (∀ x ∈ dsetC j r, g x = f x) → GP j r a w b f → GP j r a w b g) :
    Inv c vA vW vB GP 33
      ⊢ iprop(levAts (K (F := F)).L (K (F := F)).lev
        ∗ (∃ out, ⌜∀ j : Fin 33, ∃ wblk bblk, Cert.Spec.WAgrees vW j wblk ∧ Cert.Spec.BAgrees vB j bblk ∧ ∀ r : Fin 6, GP j r vA wblk bblk out⌝
            ∗ V4.view.loc (thr c) ↦{fullShare} out)
        ∗ (∃ g, SCR.view.loc (thr c) ↦{fullShare} g)
        ∗ bigSep Finset.univ fun s : Fin 2 => bigSep Finset.univ fun r : Fin 6 => cellC c s r) := by
  unfold Inv
  iintro ⟨Hlv, Ht, Hs⟩
  isplitl [Hlv]; · iexact Hlv
  isplitl [Ht]
  · -- each tile's two operand blocks chosen, their agreement with the arrays set aside
    have htile : ∀ j : Fin 33, TileSt c vA vW vB GP 33 j
        ⊢ iprop(∃ y : Vec F S64x3072 .f32 × Vec F S3072 .f32, ⌜Cert.Spec.WAgrees vW j y.1 ∧ Cert.Spec.BAgrees vB j y.2⌝
            ∗ bigSep Finset.univ fun r : Fin 6 => doneC c j r (GP j r vA y.1 y.2)) := fun j => by
      unfold TileSt
      iintro ⟨%wblk, %bblk, %h, H⟩
      iexists (wblk, bblk)
      isplitr
      · ipureintro; exact h j.isLt
      have hm : (bigSep Finset.univ fun r : Fin 6 => OutSt c 33 j r (GP j r vA wblk bblk))
          ⊢ bigSep Finset.univ fun r : Fin 6 => doneC c j r (GP j r vA wblk bblk) :=
        Entails.of_eq (bigSep_congr fun r _ => outSt_last c j r (GP j r vA wblk bblk))
      iapply hm; iexact H
    have htiles : (bigSep Finset.univ fun j : Fin 33 => TileSt c vA vW vB GP 33 j)
        ⊢ bigSep Finset.univ fun j : Fin 33 => iprop(∃ y : Vec F S64x3072 .f32 × Vec F S3072 .f32, ⌜Cert.Spec.WAgrees vW j y.1 ∧ Cert.Spec.BAgrees vB j y.2⌝
            ∗ bigSep Finset.univ fun r : Fin 6 => doneC c j r (GP j r vA y.1 y.2)) := bigSep_mono fun j _ => htile j
    ihave Ht1 := htiles $$ Ht
    ihave Ht2 := (bigSep_exists_pi (Finset.univ : Finset (Fin 33)) (fun j (y : Vec F S64x3072 .f32 × Vec F S3072 .f32) =>
      iprop(⌜Cert.Spec.WAgrees vW j y.1 ∧ Cert.Spec.BAgrees vB j y.2⌝ ∗ bigSep Finset.univ fun r : Fin 6 => doneC c j r (GP j r vA y.1 y.2)))) $$ Ht1
    icases Ht2 with ⟨%ys, Ht2⟩
    ihave Ht3 := (bigSep_pure_sep (Finset.univ : Finset (Fin 33)) (fun j => Cert.Spec.WAgrees vW j (ys j).1 ∧ Cert.Spec.BAgrees vB j (ys j).2)
      (fun j => bigSep Finset.univ fun r : Fin 6 => doneC c j r (GP j r vA (ys j).1 (ys j).2))) $$ Ht2
    icases Ht3 with ⟨%hAg, Ht3⟩
    -- the row ranges joined
    ihave Ht4 := (Entails.of_eq (bigSep_univ_prod (fun p : Fin 33 × Fin 6 => doneC c p.1 p.2 (GP p.1 p.2 vA (ys p.1).1 (ys p.1).2))).symm) $$ Ht3
    ihave Ht5 := (join_parts (F := F) (ℓ := V4.view.loc (thr c)) ⟨fun _ => Classical.arbitrary (Elt F .f32)⟩ ((0 : Fin 33), (0 : Fin 6))
      (fun p : Fin 33 × Fin 6 => dsetC p.1 p.2) (fun p _ p' _ h => dsetC_disjoint p p' h) dsetC_cover fullShare
      (fun p f => GP p.1 p.2 vA (ys p.1).1 (ys p.1).2 f)) $$ Ht4
    icases Ht5 with ⟨%out, %hout, Hout⟩
    iexists out
    isplitr
    · ipureintro
      intro j
      refine ⟨(ys j).1, (ys j).2, (hAg j (Finset.mem_univ _)).1, (hAg j (Finset.mem_univ _)).2, fun r => ?_⟩
      obtain ⟨f, hf, hfg⟩ := hout (j, r)
      exact hloc j r vA (ys j).1 (ys j).2 f out hfg hf
    iexact Hout
  · -- the slots back, their pieces joined
    have hslots : (bigSep Finset.univ fun s : Fin 2 => bigSep Finset.univ fun r : Fin 6 => SlotSt c 33 s r)
        ⊢ bigSep Finset.univ fun s : Fin 2 => bigSep Finset.univ fun r : Fin 6 => iprop(cellC c s r ∗ scrC c s r) :=
      Entails.of_eq (bigSep_congr fun s _ => bigSep_congr fun r _ => slotSt_last (F := F) c s r)
    ihave Hs1 := hslots $$ Hs
    ihave Hs2 := (Entails.of_eq (bigSep2_sep (F := F) (fun s r => cellC c s r) (fun s r => scrC c s r))) $$ Hs1
    icases Hs2 with ⟨Hc, Hscr⟩
    isplitl [Hscr]
    · have hpure : ∀ p : Fin 2 × Fin 6, scrC (F := F) c p.1 p.2 ⊢ iprop(∃ g, ⌜True⌝ ∗ SCR.view.loc (thr c) ↦[(chunkR p.1 p.2).set]{fullShare} g) := fun p => by
        iintro ⟨%g, H⟩; iexists g; isplitr; · ipureintro; trivial
        iexact H
      have hpures : (bigSep Finset.univ fun p : Fin 2 × Fin 6 => scrC (F := F) c p.1 p.2)
          ⊢ bigSep Finset.univ fun p : Fin 2 × Fin 6 => iprop(∃ g, ⌜True⌝ ∗ SCR.view.loc (thr c) ↦[(chunkR p.1 p.2).set]{fullShare} g) :=
        bigSep_mono fun p _ => hpure p
      ihave H1 := (Entails.of_eq (bigSep_univ_prod (fun p : Fin 2 × Fin 6 => scrC (F := F) c p.1 p.2)).symm) $$ Hscr
      ihave H2 := hpures $$ H1
      ihave H3 := (join_parts (F := F) (ℓ := SCR.view.loc (thr c)) ⟨fun _ => Classical.arbitrary (Elt F .f32)⟩ ((0 : Fin 2), (0 : Fin 6))
        (fun p : Fin 2 × Fin 6 => (chunkR p.1 p.2).set) (fun p _ p' _ h => chunkR_disjoint p p' h) chunkR_cover fullShare (fun _ _ => True)) $$ H2
      icases H3 with ⟨%g, -, Hg⟩
      iexists g; iexact Hg
    · iexact Hc

end Ends

end Cert.Kernel.Region

end
-- ==== Proof.W.RegionLocal.lean ====
/-
  The claim about a chunk of the result reads only the chunk's rows: contents that agree on the rows of chunk (j, r) carry
  the claim from one to the other.
-/
import proofs.«204125_g1194000908950_cont_fleet_528_33_alg».proof.Proof.W.RegionBlocks
import proofs.«204125_g1194000908950_cont_fleet_528_33_alg».proof.Proof.W.RegionSets

noncomputable section

namespace Cert.Kernel.Region

open Cert.Kernel Cert.Kernel.Gen Cert.Kernel.Common
open Idealize.ShloMosaic Idealize.ShloMosaic.ValueIdx Idealize.ShloMosaic.TcCoe
open Idealize.SL.Sem

variable {F : FTy → Type} [FloatOps F]

theorem goodOn_hloc (c : Dev nD) : ∀ (j : Fin 33) (r : Fin 6) (a : Vec F S64x1024 .f32) (w : Vec F S64x3072 .f32) (b : Vec F S3072 .f32)
    (f g : Buf (Elt F) (V4.view.loc (thr c))), (∀ x ∈ dsetC j r, g x = f x) → GoodOn j r a w b f → GoodOn j r a w b g :=
  fun j r a w b f g hfg hf =>
    GoodOn.local (fun ρ col h => hfg _ (mem_dsetC.mpr
      ⟨by show 3072 * j.val + 512 * r.val ≤ 3072 * j.val + 512 * r.val + ρ.val; omega,
        by show 3072 * j.val + 512 * r.val + ρ.val < 3072 * j.val + 512 * r.val + 512; have := ρ.isLt; omega⟩)) hf

end Cert.Kernel.Region

end
-- ==== Proof.W.RegionValueN.lean ====
/-
  A chunk's copy of the stored slot into the result, for a chunk of any number of rows: the last tile's fourth chunk
  has 160 rows, the array's end falling inside it.
-/
import proofs.«204125_g1194000908950_cont_fleet_528_33_alg».proof.Proof.W.RegionValue

noncomputable section

namespace Cert.Kernel.Region

open Cert.Kernel Cert.Kernel.Gen Cert.Kernel.Common
open Idealize.ShloMosaic Idealize.ShloMosaic.ValueIdx Idealize.ShloMosaic.TcCoe
open Idealize.SL.Sem

variable {F : FTy → Type} [FloatOps F] [∀ e, Nonempty (Elt F e)]

/-- Row `ρ` of a chunk of `n` rows of the result that starts at row `R0` is row `R0 + ρ` of the result. -/
theorem dst_embN (n R0 : ℕ) (inb16 : ∀ a, (![R0, 0] : Fin 2 → ℕ) a + (⟨2, ![n, 1024]⟩ : Shape).size a ≤ S100000x1024.size a)
    (ρ : Fin n) (col : Fin 1024) (hR : R0 + ρ.val < 100000) :
    (V4.slice (Rect.unit (s := S100000x1024) ![R0, 0] (⟨2, ![n, 1024]⟩ : Shape).size inb16) (fun _ => rfl)).view.emb (ix2 ρ col)
      = ix2 ⟨R0 + ρ.val, hR⟩ col := by
  funext a; apply Fin.ext
  show ((Rect.unit (s := S100000x1024) ![R0, 0] (⟨2, ![n, 1024]⟩ : Shape).size inb16).emb (ix2 ρ col) a).val = _
  rw [Rect.emb_apply]
  match a with
  | ⟨0, _⟩ => show R0 + 1 * ρ.val = R0 + ρ.val; omega
  | ⟨1, _⟩ => show 0 + 1 * col.val = col.val; omega

/-- Row `ρ` of the chunk of a slot that starts at the slot's row `q`, the chunk's leading unit axis dropped, is row
    `q + ρ` of the slot. -/
theorem src_embN (n s q : ℕ) (hsq : (⟨3, ![1, n, 1024]⟩ : Shape).Squeezes ⟨2, ![n, 1024]⟩)
    (inb17 : ∀ a, (![s, q, 0] : Fin 3 → ℕ) a + (⟨3, ![1, n, 1024]⟩ : Shape).size a ≤ S2x3072x1024.size a)
    (inb14 : ∀ a, (![s, 0, 0] : Fin 3 → ℕ) a + S1x3072x1024.size a ≤ S2x3072x1024.size a)
    (ρ : Fin n) (col : Fin 1024) (hq : q + ρ.val < 3072) :
    ((SCR.slice (Rect.unit (s := S2x3072x1024) ![s, q, 0] (⟨3, ![1, n, 1024]⟩ : Shape).size inb17) (fun _ => rfl)).squeeze
          ⟨2, ![n, 1024]⟩ hsq).view.emb (ix2 ρ col)
      = (SCR.access (Rect.unit (s := S2x3072x1024) ![s, 0, 0] S1x3072x1024.size inb14)).emb (ix3 (0 : Fin 1) ⟨q + ρ.val, hq⟩ col) := by
  have h1 : ((SCR.slice (Rect.unit (s := S2x3072x1024) ![s, q, 0] (⟨3, ![1, n, 1024]⟩ : Shape).size inb17) (fun _ => rfl)).squeeze
        ⟨2, ![n, 1024]⟩ hsq).view.emb (ix2 ρ col)
      = (Rect.unit (s := S2x3072x1024) ![s, q, 0] (⟨3, ![1, n, 1024]⟩ : Shape).size inb17).emb
          (Shape.reshapeEquiv hsq.numel_eq (ix2 ρ col)) := rfl
  rw [h1, Shape.reshapeEquiv_cons_one]
  funext a; apply Fin.ext
  show _ = ((Rect.unit (s := S2x3072x1024) ![s, 0, 0] S1x3072x1024.size inb14).emb (ix3 (0 : Fin 1) ⟨q + ρ.val, hq⟩ col) a).val
  rw [Rect.emb_apply, Rect.emb_apply]
  match a with
  | ⟨0, _⟩ => show s + 1 * 0 = s + 1 * 0; rfl
  | ⟨1, _⟩ => show q + 1 * ρ.val = 0 + 1 * (q + ρ.val); omega
  | ⟨2, _⟩ => show 0 + 1 * col.val = 0 + 1 * col.val; rfl

/-- The result array after: the payload `P` stored over the slot at `off14`, whole; the chunk of `n` rows at `off17` of
    the scratch read; and that written over the `n` rows at `off16` of the result. -/
def landedGenN (n : ℕ) (hsq : (⟨3, ![1, n, 1024]⟩ : Shape).Squeezes ⟨2, ![n, 1024]⟩) (c : Dev nD)
    (off16 : Fin 2 → ℕ) (off17 off14 : Fin 3 → ℕ)
    (inb16 : ∀ a, off16 a + (⟨2, ![n, 1024]⟩ : Shape).size a ≤ S100000x1024.size a)
    (inb17 : ∀ a, off17 a + (⟨3, ![1, n, 1024]⟩ : Shape).size a ≤ S2x3072x1024.size a)
    (inb14 : ∀ a, off14 a + S1x3072x1024.size a ≤ S2x3072x1024.size a)
    (P : S1x3072x1024.Idx → Elt F .f32) (fd : Buf (Elt F) (V4.view.loc (thr c))) (g : Buf (Elt F) (SCR.view.loc (thr c))) :
    FVec F S100000x1024 .f32 :=
  (V4.slice (Rect.unit (s := S100000x1024) off16 (⟨2, ![n, 1024]⟩ : Shape).size inb16) (fun _ => rfl)).view.write (Elt F) fd
    ((ReadAs.same : ReadAs (Elt F) ⟨2, ![n, 1024]⟩ .f32 ⟨2, ![n, 1024]⟩ .f32).apply
      (((SCR.slice (Rect.unit (s := S2x3072x1024) off17 (⟨3, ![1, n, 1024]⟩ : Shape).size inb17) (fun _ => rfl)).squeeze
          ⟨2, ![n, 1024]⟩ hsq).view.read (Elt F)
        ((SCR.access (Rect.unit (s := S2x3072x1024) off14 S1x3072x1024.size inb14)).write (Elt F) g P Finset.univ))) Finset.univ

set_option maxHeartbeats 100000 in
/-- The slot stored whole, a chunk of `n` rows of it copied to rows of the result: read at a row of the chunk, the
    result holds the stored payload at the chunk's row. -/
theorem landed_val_genN (n : ℕ) (hsq : (⟨3, ![1, n, 1024]⟩ : Shape).Squeezes ⟨2, ![n, 1024]⟩) (c : Dev nD)
    (off16 : Fin 2 → ℕ) (off17 off14 : Fin 3 → ℕ) (R0 s q : ℕ)
    (h16 : off16 = ![R0, 0]) (h17 : off17 = ![s, q, 0]) (h14 : off14 = ![s, 0, 0])
    (inb16 : ∀ a, off16 a + (⟨2, ![n, 1024]⟩ : Shape).size a ≤ S100000x1024.size a)
    (inb17 : ∀ a, off17 a + (⟨3, ![1, n, 1024]⟩ : Shape).size a ≤ S2x3072x1024.size a)
    (inb14 : ∀ a, off14 a + S1x3072x1024.size a ≤ S2x3072x1024.size a)
    (P : S1x3072x1024.Idx → Elt F .f32) (fd : Buf (Elt F) (V4.view.loc (thr c))) (g : Buf (Elt F) (SCR.view.loc (thr c)))
    (ρ : Fin n) (col : Fin 1024) (hR : R0 + ρ.val < 100000) (hq : q + ρ.val < 3072) :
    landedGenN n hsq c off16 off17 off14 inb16 inb17 inb14 P fd g (ix2 ⟨R0 + ρ.val, hR⟩ col)
      = P (ix3 (0 : Fin 1) ⟨q + ρ.val, hq⟩ col) := by
  subst h16 h17 h14
  unfold landedGenN
  refine (write_at (V4.slice (Rect.unit (s := S100000x1024) ![R0, 0] (⟨2, ![n, 1024]⟩ : Shape).size inb16) (fun _ => rfl)).view (ix2 ρ col)
    (dst_embN n R0 inb16 ρ col hR) (Finset.mem_univ _)).trans ?_
  refine (cast_eq _ _).trans ?_
  refine (read_at ((SCR.slice (Rect.unit (s := S2x3072x1024) ![s, q, 0] (⟨3, ![1, n, 1024]⟩ : Shape).size inb17) (fun _ => rfl)).squeeze
          ⟨2, ![n, 1024]⟩ hsq).view (ix2 ρ col) (src_embN n s q hsq inb17 inb14 ρ col hq)).trans ?_
  refine (cast_eq _ _).trans ?_
  refine (write_at (SCR.access (Rect.unit (s := S2x3072x1024) ![s, 0, 0] S1x3072x1024.size inb14)) (ix3 (0 : Fin 1) ⟨q + ρ.val, hq⟩ col) rfl
    (Finset.mem_univ _)).trans ?_
  exact cast_eq _ _

end Cert.Kernel.Region

end
-- ==== Proof.W.RegionValueTail.lean ====
/-
  The last tile's copies, and the claim about written rows assembled.

  The last tile has 1696 rows inside the array: three chunks of 512 rows and the first 160 rows of the fourth leave
  its slot for the result's last rows, at literal offsets; the fourth chunk's remaining rows and the last two chunks
  lie past the array's end, where nothing is claimed. With the six chunks of a full tile, every copy the body makes
  lands rows that are the tile function's.
-/
import proofs.«204125_g1194000908950_cont_fleet_528_33_alg».proof.Proof.W.RegionTail
import proofs.«204125_g1194000908950_cont_fleet_528_33_alg».proof.Proof.W.RegionValueN

noncomputable section

namespace Cert.Kernel.Region

open Cert.Kernel Cert.Kernel.Gen Cert.Kernel.Common
open Idealize.ShloMosaic Idealize.ShloMosaic.ValueIdx Idealize.ShloMosaic.TcCoe
open Idealize.SL.Sem

variable {F : FTy → Type} [FloatOps F] [∀ e, Nonempty (Elt F e)]

/-! ## The last tile's four copies -/

set_option maxHeartbeats 100000 in
/-- The last tile's chunk 0: its rows are the tile function's. -/
theorem landedT0_good (c : Dev nD) (i : grid1.Coords) (h3 : k1_cond3 i = 1#1) (x1 : Vec F S64x1024 .f32) (x2 : Vec F S64x3072 .f32)
    (x3 : Vec F S3072 .f32) (fd : Buf (Elt F) (V4.view.loc (thr c))) (g : Buf (Elt F) (SCR.view.loc (thr c))) :
    GoodOn (32 : Fin 33) (0 : Fin 6) x1 x2 x3 (landedT0 c i h3 x1 x2 x3 fd g) := by
  intro ρ col h
  have h' : 98304 + ρ.val < 100000 := h
  have hq : 0 + ρ.val < 3072 := by have := ρ.isLt; omega
  refine (landed_val_gen c ![98304, 0] (k1_off29 i) (k1_off14 i) 98304 ((i 0).val % 2) 0
    rfl (k1_off29_eq i) (k1_off14_eq i) inb_S100000x1024_S512x1024_98304_0 (k1_off29_inb i h3) (k1_off14_inb i)
    (pay x1 x2 x3) fd g ρ col h' hq).trans ?_
  exact pay_apply x1 x2 x3 0 _ col

set_option maxHeartbeats 100000 in
/-- The last tile's chunk 1: its rows are the tile function's. -/
theorem landedT1_good (c : Dev nD) (i : grid1.Coords) (h3 : k1_cond3 i = 1#1) (x1 : Vec F S64x1024 .f32) (x2 : Vec F S64x3072 .f32)
    (x3 : Vec F S3072 .f32) (fd : Buf (Elt F) (V4.view.loc (thr c))) (g : Buf (Elt F) (SCR.view.loc (thr c))) :
    GoodOn (32 : Fin 33) (1 : Fin 6) x1 x2 x3 (landedT1 c i h3 x1 x2 x3 fd g) := by
  intro ρ col h
  have h' : 98816 + ρ.val < 100000 := h
  have hq : 512 + ρ.val < 3072 := by have := ρ.isLt; omega
  refine (landed_val_gen c ![98816, 0] (k1_off31 i) (k1_off14 i) 98816 ((i 0).val % 2) 512
    rfl (k1_off31_eq i) (k1_off14_eq i) inb_S100000x1024_S512x1024_98816_0 (k1_off31_inb i h3) (k1_off14_inb i)
    (pay x1 x2 x3) fd g ρ col h' hq).trans ?_
  exact pay_apply x1 x2 x3 0 _ col

set_option maxHeartbeats 100000 in
/-- The last tile's chunk 2: its rows are the tile function's. -/
theorem landedT2_good (c : Dev nD) (i : grid1.Coords) (h3 : k1_cond3 i = 1#1) (x1 : Vec F S64x1024 .f32) (x2 : Vec F S64x3072 .f32)
    (x3 : Vec F S3072 .f32) (fd : Buf (Elt F) (V4.view.loc (thr c))) (g : Buf (Elt F) (SCR.view.loc (thr c))) :
    GoodOn (32 : Fin 33) (2 : Fin 6) x1 x2 x3 (landedT2 c i h3 x1 x2 x3 fd g) := by
  intro ρ col h
  have h' : 99328 + ρ.val < 100000 := h
  have hq : 1024 + ρ.val < 3072 := by have := ρ.isLt; omega
  refine (landed_val_gen c ![99328, 0] (k1_off33 i) (k1_off14 i) 99328 ((i 0).val % 2) 1024
    rfl (k1_off33_eq i) (k1_off14_eq i) inb_S100000x1024_S512x1024_99328_0 (k1_off33_inb i h3) (k1_off14_inb i)
    (pay x1 x2 x3) fd g ρ col h' hq).trans ?_
  exact pay_apply x1 x2 x3 0 _ col

set_option maxHeartbeats 100000 in
/-- The last tile's chunk 3: its first 160 rows, the ones inside the array, are the tile function's. -/
theorem landedT3_good (c : Dev nD) (i : grid1.Coords) (h3 : k1_cond3 i = 1#1) (x1 : Vec F S64x1024 .f32) (x2 : Vec F S64x3072 .f32)
    (x3 : Vec F S3072 .f32) (fd : Buf (Elt F) (V4.view.loc (thr c))) (g : Buf (Elt F) (SCR.view.loc (thr c))) :
    GoodOn (32 : Fin 33) (3 : Fin 6) x1 x2 x3 (landedT3 c i h3 x1 x2 x3 fd g) := by
  intro ρ col h
  have h' : 99840 + ρ.val < 100000 := h
  have hρ : ρ.val < 160 := by omega
  have hq : 1536 + (⟨ρ.val, hρ⟩ : Fin 160).val < 3072 := by show 1536 + ρ.val < 3072; omega
  refine (landed_val_genN 160 squeezes_S1x160x1024_S160x1024 c ![99840, 0] (k1_off35 i) (k1_off14 i) 99840 ((i 0).val % 2) 1536
    rfl (k1_off35_eq i) (k1_off14_eq i) inb_S100000x1024_S160x1024_99840_0 (k1_off35_inb i h3) (k1_off14_inb i)
    (pay x1 x2 x3) fd g ⟨ρ.val, hρ⟩ col h' hq).trans ?_
  exact pay_apply x1 x2 x3 0 _ col

/-! ## The claim about written rows -/

/-- Every copy the body makes lands rows that are the tile function's; past the array's end nothing is claimed. -/
theorem gpOk (c : Dev nD) : GPOk (F := F) c (fun j r a w b f => GoodOn j r a w b f) where
  full := fun i h2 x1 x2 x3 fd g =>
    ⟨landed0_good c i h2 x1 x2 x3 fd g, landed1_good c i h2 x1 x2 x3 fd g, landed2_good c i h2 x1 x2 x3 fd g,
      landed3_good c i h2 x1 x2 x3 fd g, landed4_good c i h2 x1 x2 x3 fd g, landed5_good c i h2 x1 x2 x3 fd g⟩
  tail := fun i h3 x1 x2 x3 fd g =>
    ⟨landedT0_good c i h3 x1 x2 x3 fd g, landedT1_good c i h3 x1 x2 x3 fd g, landedT2_good c i h3 x1 x2 x3 fd g,
      landedT3_good c i h3 x1 x2 x3 fd g⟩
  past := fun x1 x2 x3 f =>
    ⟨fun ρ col h => by have h' : 98304 + 2048 + ρ.val < 100000 := h; omega,
      fun ρ col h => by have h' : 98304 + 2560 + ρ.val < 100000 := h; omega⟩

/-- The claim about a chunk reads the chunk's rows only. -/
theorem goodOn_local' (c : Dev nD) (j : Fin 33) (r : Fin 6) (a : Vec F S64x1024 .f32) (w : Vec F S64x3072 .f32) (b : Vec F S3072 .f32)
    (f g : Buf (Elt F) (V4.view.loc (thr c))) (hfg : ∀ x ∈ dsetC j r, g x = f x) (hf : GoodOn j r a w b f) :
    GoodOn j r a w b g :=
  GoodOn.local (fun ρ col h => hfg _ (mem_dsetC.mpr
    ⟨by show 3072 * j.val + 512 * r.val ≤ 3072 * j.val + 512 * r.val + ρ.val; omega,
      by show 3072 * j.val + 512 * r.val + ρ.val < 3072 * j.val + 512 * r.val + 512; have := ρ.isLt; omega⟩)) hf

end Cert.Kernel.Region

end
-- ==== Proof.W.RegionFinal.lean ====
/-
  The TensorCore region's line of @main, with nothing left open: the record of the region over the body's three cases,
  the invariant's two ends, and the fact that what a tile's copies land is the tile function of the blocks the body
  found.
-/
import proofs.«204125_g1194000908950_cont_fleet_528_33_alg».proof.Proof.W.RegionRecord
import proofs.«204125_g1194000908950_cont_fleet_528_33_alg».proof.Proof.W.RegionSteps
import proofs.«204125_g1194000908950_cont_fleet_528_33_alg».proof.Proof.W.RegionEnds
import proofs.«204125_g1194000908950_cont_fleet_528_33_alg».proof.Proof.W.RegionLocal
import proofs.«204125_g1194000908950_cont_fleet_528_33_alg».proof.Proof.W.RegionValueTail

noncomputable section

namespace Cert.Kernel.Region

open Cert.Kernel Cert.Kernel.Gen Cert.Kernel.Common
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MM F

theorem region_wp (vA : (c : Dev nD) → Buf (Elt F) ((thr c).loc main_v2)) (vW : (c : Dev nD) → Buf (Elt F) ((thr c).loc main_v3))
    (vB : (c : Dev nD) → Buf (Elt F) ((thr c).loc main_arg3)) (d : Dev nD) (W : Waits sig (HIx 1)) (Φ : PUnit → sProp 𝕄) :
    iprop((iprop(boundary (SparseCore.T d)
          ∗ (inArrs vA vW vB d ∗ (∃ out, ⌜Cert.Spec.IsOut (tileF (F := F)) (vA d) (vW d) (vB d) out⌝ ∗ (thr d).loc main_v4 ↦{fullShare} out)
              ∗ ∃ W', ⌜∀ p ∈ W', p ∈ W ∨ p.2 = none⌝ ∗ owes (thr d) (0 : CellTallies nD τ sig (HIx 1)) W')) -∗ Φ ⟨⟩)
        ∗ boundary (SparseCore.T d)
        ∗ (inArrs vA vW vB d ∗ (∃ f, (thr d).loc main_v4 ↦{fullShare} f) ∗ owes (thr d) (0 : CellTallies nD τ sig (HIx 1)) W)
        ∗ levAts (K (F := F)).L (K (F := F)).lev
        ∗ Pipeline.cellsGhost (Pipeline.pin (pcfgs (F := F)) (adm (F := F))) EP (0 : Fin 1) d ∗ Pipeline.toksInit (Pipeline.pin (pcfgs (F := F)) (adm (F := F))) EP (0 : Fin 1) d)
      ⊢ wp frame (wpE ((K (F := F)).defs (Pipeline.defs pcfgs defs₀)) Variants.none.lift (SparseCore.T d) none) Set.univ
          (Prog.lift (.customCall (SparseCore.inner (Pipeline.entry (0 : Fin 1))) ())) Φ :=
  region_wp_of vA vW vB W (fun c => stepLo c (0 : CellTallies nD τ sig (HIx 1)) (GPg c) (gpOk c)) (fun c => stepMid c (0 : CellTallies nD τ sig (HIx 1)) (GPg c) (gpOk c))
    (fun c => stepLast c (0 : CellTallies nD τ sig (HIx 1)) (GPg c) (gpOk c))
    (fun c => inv_zero c (vA c) (vW c) (vB c) (GPg c)) (fun c => inv_last c (vA c) (vW c) (vB c) (GPg c) (goodOn_hloc c)) d Φ

end Cert.Kernel.Region

end
-- ==== Proof.W.RunAll.lean ====
/-
  The whole program's run, every weakly fair execution: the vector-subcore task's obligation and the TensorCore
  region's line put into the run stated over them. Under the precondition the program terminates without a fault, the
  four arguments end as launched, and the result is the transpose of an array whose rows are, tile by tile, the tile
  function of the context means and of blocks agreeing with the transposed weights and the bias.
-/
import proofs.«204125_g1194000908950_cont_fleet_528_33_alg».proof.Proof.W.Run
import proofs.«204125_g1194000908950_cont_fleet_528_33_alg».proof.Proof.W.ScTile
import proofs.«204125_g1194000908950_cont_fleet_528_33_alg».proof.Proof.W.RegionFinal

noncomputable section

namespace Cert.Kernel.Run

open Cert.Kernel Cert.Kernel.Gen Cert.Kernel.Common Cert.Kernel.Main

open Idealize.ShloMosaic Idealize.SL.Sem

variable {F : FTy → Type} [FloatOps F]

theorem run [∀ e, Nonempty (Elt F e)] (m : (ℓ : Loc nD τ sig) → Buf (Elt F) ℓ) (ρ : Dev nD → PrngReg) (hpre : PreOK m) :
    θ_run (Cert.Kernel.defs (F := F)) (Cert.Kernel.threads (F := F)) ⟨m, fun _ => 0, ρ⟩ (QC m) :=
  run_of m ρ (ScCall.tileObl (vI m) (vE m) (hin_vI m hpre)) (fun d W Φ => Region.region_wp (vA m) (vW m) (vB m) d W Φ)

end Cert.Kernel.Run

end
-- ==== Proof.KernelValue.lean ====
/-
  The kernel side's value at the ideal instance, with no program in it.

  The result array is the transpose of an array `out` whose rows, tile by tile, are the tile function of blocks that
  agree with the transposed weights and the bias where those have entries. Row `v` lies in tile `v / 3072` at row
  `v % 3072`. There the tile function is the product, contracted over the sixty-four columns, of the weight block's
  column with the averaged look-ups, plus the bias entry; the averaged look-up is the left-to-right sum over the
  twenty context positions of the table's rows, times the scale 1/20. On the extended reals a sum taken from the left
  is the finite sum, so entry `(b, v)` is the specification's.
-/
import proofs.«204125_g1194000908950_cont_fleet_528_33_alg».proof.Proof.Common
import Idealize.ShloMosaic.Lib.IdealHost
import Idealize.ShloMosaic.Lib.ValueLayout

noncomputable section

namespace Cert.KernelIdeal.KValue

open Cert.KernelIdeal Cert.KernelIdeal.Gen Idealize.ShloMosaic Idealize.ShloMosaic.ValueIdx
open scoped BigOperators

/-! ## The scale -/

/-- The named scale denotes 1/20. -/
theorem scale_eq : Common.scale (F := Ideal) = ((1 / 20 : ℝ) : EReal) :=
  IdealRules.named_const.ideal_named_scalar _ _ _ _ rfl

/-! ## A sum taken from the left -/

/-- A left fold by addition from `a` is `a` plus the sum of the list. -/
theorem foldl_add_eq_add_sum {ι : Type} (g : ι → EReal) :
    ∀ (l : List ι) (a : EReal), l.foldl (fun acc t => acc + g t) a = a + (l.map g).sum
  | [], a => by simp
  | x :: l, a => by
    rw [List.foldl_cons, foldl_add_eq_add_sum g l, List.map_cons, List.sum_cons, add_assoc]

/-- The twenty terms added from the left, starting at the first, are their finite sum. -/
theorem foldl_ctx (f : Fin 20 → EReal) :
    (List.finRange 19).foldl (fun acc t => acc + f ⟨t.val + 1, by omega⟩) (f ⟨0, by decide⟩) = ∑ t : Fin 20, f t := by
  rw [foldl_add_eq_add_sum, ← Fin.sum_univ_def, Fin.sum_univ_succ]
  rfl

/-! ## The averaged look-ups -/

/-- On index words inside the table, the left-to-right context sum over the transposed operands is the finite sum of
    the table's rows the words name. -/
theorem sumCtx_eq (inputs : IVec S1024x20 32) (emb : FVec Ideal S100000x64 .f32)
    (hin : ∀ i, (inputs i).toNat < 100000 ∧ 0 ≤ (inputs i).toInt) (d : Fin 64) (b : Fin 1024) :
    Cert.Spec.sumCtx (F := Ideal) (Common.tr0 (F := Ideal) inputs) (Common.tr1 (F := Ideal) emb) d b
      = ∑ t : Fin 20, Cert.Spec.embAt emb (inputs (ix2 b t)) d := by
  have hrow : ∀ t : Fin 20, Cert.Spec.rowAt (F := Ideal) (Common.tr1 (F := Ideal) emb) d (Common.tr0 (F := Ideal) inputs (ix2 t b))
      = Cert.Spec.embAt emb (inputs (ix2 b t)) d := by
    intro t
    have ht : Common.tr0 (F := Ideal) inputs (ix2 t b) = inputs (ix2 b t) := transpose_ix2_apply _ _ _ _
    rw [ht]
    unfold Cert.Spec.rowAt Cert.Spec.embAt
    rw [dif_pos (hin _).1, dif_pos (hin _).1]
    exact transpose_ix2_apply _ _ _ _
  unfold Cert.Spec.sumCtx
  simp only [hrow]
  exact foldl_ctx fun t => Cert.Spec.embAt emb (inputs (ix2 b t)) d

/-! ## A tile -/

/-- The tile's product read at an index: the sum over the sixty-four columns. -/
theorem tile_matmul_apply (wblk : FVec Ideal S64x3072 .f32) (avg : FVec Ideal S64x1024 .f32) (r : Fin 3072) (c : Fin 1024) :
    matmul dot_S64x3072_S64x1024_S3072x1024_0_0_1_1_n_n none wblk avg (constant S3072x1024 .f32 0x00000000#32) (ix2 r c)
      = ∑ d : Fin 64, wblk (ix2 d r) * avg (ix2 d c) := by
  show FloatOps.matmul dot_S64x3072_S64x1024_S3072x1024_0_0_1_1_n_n none wblk avg (constant S3072x1024 .f32 0x00000000#32) (ix2 r c) = _
  rw [Ideal.matmul_constant_zero_apply,
    ← Equiv.sum_comp (contrEquiv1 dot_S64x3072_S64x1024_S3072x1024_0_0_1_1_n_n 64 rfl rfl).symm]
  refine Finset.sum_congr rfl fun d _ => ?_
  have c2 := contrEquiv1_symm_val dot_S64x3072_S64x1024_S3072x1024_0_0_1_1_n_n 64 rfl rfl d
  have l2 : dot_S64x3072_S64x1024_S3072x1024_0_0_1_1_n_n.lhsIdx (ix2 r c) ((contrEquiv1 _ 64 rfl rfl).symm d) = ix2 d r := by
    funext ax; apply Fin.ext
    match ax with
    | ⟨0, _⟩ => simp [DotDims.lhsIdx, dot_S64x3072_S64x1024_S3072x1024_0_0_1_1_n_n]; exact c2
    | ⟨1, _⟩ => simp [DotDims.lhsIdx, dot_S64x3072_S64x1024_S3072x1024_0_0_1_1_n_n]; rfl
  have r2 : dot_S64x3072_S64x1024_S3072x1024_0_0_1_1_n_n.rhsIdx (ix2 r c) ((contrEquiv1 _ 64 rfl rfl).symm d) = ix2 d c := by
    funext ax; apply Fin.ext
    match ax with
    | ⟨0, _⟩ => simp [DotDims.rhsIdx, dot_S64x3072_S64x1024_S3072x1024_0_0_1_1_n_n]; exact c2
    | ⟨1, _⟩ => simp [DotDims.rhsIdx, dot_S64x3072_S64x1024_S3072x1024_0_0_1_1_n_n]; rfl
  rw [l2, r2]

/-- The tile function read at an index: the product's sum plus the bias block's entry of the row. -/
theorem tileF_apply (avg : FVec Ideal S64x1024 .f32) (wblk : FVec Ideal S64x3072 .f32) (bblk : FVec Ideal S3072 .f32)
    (r : Fin 3072) (c : Fin 1024) :
    Common.tileF (F := Ideal) avg wblk bblk (ix2 r c) = (∑ d : Fin 64, wblk (ix2 d r) * avg (ix2 d c)) + bblk (ix1 r) := by
  unfold Common.tileF
  rw [addf_apply, tile_matmul_apply]
  refine congrArg (fun s => (∑ d : Fin 64, wblk (ix2 d r) * avg (ix2 d c)) + s) ?_
  refine (broadcastTo_apply _ _ (ix2 r c) (ix2 r (0 : Fin 1)) fun ax => match ax with | ⟨0, _⟩ => rfl | ⟨1, _⟩ => rfl).trans ?_
  exact shapeCast_apply _ _ _ (ix1 r) (by
    rw [Shape.rowMajor_val_one, Shape.rowMajor_val_two]; show r.val = r.val * 1 + 0; omega)

/-! ## The result -/

/-- The kernel side's result, for any array whose tiles are the tile function of blocks agreeing with the operands, is
    the specification. -/
theorem kernel_value (inputs : IVec S1024x20 32) (emb w : FVec Ideal S100000x64 .f32) (bias : FVec Ideal S100000 .f32)
    (hin : ∀ i, (inputs i).toNat < 100000 ∧ 0 ≤ (inputs i).toInt) (out : FVec Ideal S100000x1024 .f32)
    (h : Cert.Spec.IsOut (Common.tileF (F := Ideal))
      (Cert.Spec.avgT (Common.scale (F := Ideal)) (Common.tr0 (F := Ideal) inputs) (Common.tr1 (F := Ideal) emb))
      (Common.tr1 (F := Ideal) w) bias out) :
    Common.tr3 (F := Ideal) out = Cert.Spec.outIdeal inputs emb w bias := by
  funext jj
  obtain ⟨b, v, rfl⟩ : ∃ (b : Fin 1024) (v : Fin 100000), jj = ix2 b v := ⟨jj 0, jj 1, eq_ix2 jj⟩
  have htr : Common.tr3 (F := Ideal) out (ix2 b v) = out (ix2 v b) := transpose_ix2_apply _ _ _ _
  have hj : v.val / 3072 < 33 := by have := v.isLt; omega
  have hr : v.val % 3072 < 3072 := Nat.mod_lt _ (by decide)
  have hv : 3072 * (v.val / 3072) + v.val % 3072 < 100000 := by rw [Nat.div_add_mod]; exact v.isLt
  have hvv : (⟨3072 * (v.val / 3072) + v.val % 3072, hv⟩ : Fin 100000) = v := Fin.ext (Nat.div_add_mod _ _)
  obtain ⟨wblk, bblk, hW, hB, hO⟩ := h ⟨v.val / 3072, hj⟩
  have hout : out (ix2 v b) = Common.tileF (F := Ideal)
      (Cert.Spec.avgT (Common.scale (F := Ideal)) (Common.tr0 (F := Ideal) inputs) (Common.tr1 (F := Ideal) emb)) wblk bblk
      (ix2 ⟨v.val % 3072, hr⟩ b) :=
    (congrArg (fun q => out (ix2 q b)) hvv.symm).trans (hO ⟨v.val % 3072, hr⟩ b hv)
  have hw : ∀ d : Fin 64, wblk (ix2 d ⟨v.val % 3072, hr⟩) = w (ix2 v d) := fun d =>
    ((hW d ⟨v.val % 3072, hr⟩ hv).trans (congrArg (fun q => Common.tr1 (F := Ideal) w (ix2 d q)) hvv)).trans
      (transpose_ix2_apply _ _ _ _)
  have hb : bblk (ix1 ⟨v.val % 3072, hr⟩) = bias (ix1 v) :=
    (hB ⟨v.val % 3072, hr⟩ hv).trans (congrArg (fun q => bias (ix1 q)) hvv)
  have havg : ∀ d : Fin 64, Cert.Spec.avgT (Common.scale (F := Ideal)) (Common.tr0 (F := Ideal) inputs) (Common.tr1 (F := Ideal) emb) (ix2 d b)
      = (∑ t : Fin 20, Cert.Spec.embAt emb (inputs (ix2 b t)) d) * ((1 / 20 : ℝ) : EReal) := fun d => by
    show Cert.Spec.sumCtx (F := Ideal) (Common.tr0 (F := Ideal) inputs) (Common.tr1 (F := Ideal) emb) d b * Common.scale (F := Ideal) = _
    rw [sumCtx_eq inputs emb hin, scale_eq]
  rw [htr, hout, tileF_apply, hb]
  show _ = Cert.Spec.outAt inputs emb w bias b v
  unfold Cert.Spec.outAt
  refine congrArg (fun s => s + bias (ix1 v)) (Finset.sum_congr rfl fun d _ => ?_)
  rw [hw, havg]

end Cert.KernelIdeal.KValue

end
-- ==== Proof.RefRun.lean ====
/-
  The reference program's run. Its entry function is a straight line of host operations: the table look-up, a
  function of its own in the program (a look-up in fill mode: a negative index counted from the table's end, the rows gathered, and a
  row whose index lies outside the table replaced by a fill value), then the sum over the context axis, the division
  by the context length, the product with the transposed weights and the bias. The look-up's operations are listed
  in place over the buffers of its one call. Every weakly fair execution ends with the result buffer at the
  operations' composed term of the four argument arrays, `refOut`, and the arguments unchanged.
-/
import proofs.«204125_g1194000908950_cont_fleet_528_33_alg».proof.Defs
import proofs.«204125_g1194000908950_cont_fleet_528_33_alg».proof.Proof.Gen.ReferenceIdeal
import proofs.«204125_g1194000908950_cont_fleet_528_33_alg».proof.Proof.Gen.Pre_input_domain
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The index words with a negative one counted from the table's end. -/
def wrapIdx (inputs : IVec S1024x20 32) : IVec S1024x20 32 :=
  select (cmpi .slt inputs (broadcastInDim S1024x20 ![] bcast_S_S1024x20 (constantI S_ 32 0#32)))
    (addi inputs (broadcastInDim S1024x20 ![] bcast_S_S1024x20 (constantI S_ 32 100000#32))) inputs

/-- The same words as a column of one-component start indices. -/
def startIdx (inputs : IVec S1024x20 32) : IVec S1024x20x1 32 :=
  broadcastInDim S1024x20x1 ![0, 1] bcast_S1024x20_S1024x20x1_0_1 (wrapIdx inputs)

/-- The mark "the start index lies inside the table", per look-up. -/
def inTable (inputs : IVec S1024x20 32) : IVec S1024x20 1 :=
  Host.reduce IntOp.andi
    (andi (cmpi .sge (startIdx inputs) (broadcastInDim S1024x20x1 ![] bcast_S_S1024x20x1 (constantI S_ 32 0#32)))
      (cmpi .sle (startIdx inputs)
        (broadcastInDim S1024x20x1 ![0, 1, 2] bcast_S1x1x1_S1024x20x1_0_1_2
          (broadcastInDim S1x1x1 ![2] bcast_S1_S1x1x1_2 (constantI S1 32 99999#32)))))
    (constantI S_ 1 1#1) reducesTo_S1024x20x1_S1024x20_d2 h_S_

/-- The looked-up rows: the gathered row where the mark is set, the fill value elsewhere. -/
def taken (inputs : IVec S1024x20 32) (emb : FVec F S100000x64 .f32) : FVec F S1024x20x64 .f32 :=
  select (broadcastInDim S1024x20x64 ![0, 1] bcast_S1024x20_S1024x20x64_0_1 (inTable inputs))
    (Host.gather gather_S100000x64_S1024x20x1_S1024x20x64_2_0_n_n_0_2_164 emb (startIdx inputs))
    (broadcastInDim S1024x20x64 ![] bcast_S_S1024x20x64 (constant S_ .f32 0x7FC00000#32))

/-- The mean over the context axis: the sum from zero divided by twenty. -/
def meanCtx (inputs : IVec S1024x20 32) (emb : FVec F S100000x64 .f32) : FVec F S1024x64 .f32 :=
  Host.divf (Host.reduceAdd (taken inputs emb) (constant S_ .f32 0x00000000#32) reducesTo_S1024x20x64_S1024x64_d1 h_S_)
    (broadcastInDim S1024x64 ![] bcast_S_S1024x64 (constant S_ .f32 0x41A00000#32))

/-- The reference's result as a function of its four arguments: the host operations composed. -/
def refOut (inputs : IVec S1024x20 32) (emb w : FVec F S100000x64 .f32) (bias : FVec F S100000 .f32) : FVec F S1024x100000 .f32 :=
  addf
    (Host.dotGeneral dot_S1024x64_S64x100000_S1024x100000_1_0_0_1_n_n none (meanCtx inputs emb)
      (transpose S64x100000 [1, 0] w transposes_S100000x64_S64x100000_1_0))
    (broadcastInDim S1024x100000 ![0, 1] bcast_S1x100000_S1024x100000_0_1
      (broadcastInDim S1x100000 ![1] bcast_S100000_S1x100000_1 bias))

/-! ## The operations -/

/-- The entry function's operations in order, the look-up's twenty-three (its nested select among them) first, over
    the buffers of the call. -/
abbrev ops : List (HloOp τ sig (Elt F)) :=
  [ TRef.nullary main_call0.c (constantI S_ 32 0#32),
    TRef.unary main_call0.c main_call0.v0 (broadcastInDim S1024x20 ![] bcast_S_S1024x20),
    TRef.binary (.of main_arg0) main_call0.v0 main_call0.v1 (cmpi .slt),
    TRef.nullary main_call0.c_0 (constantI S_ 32 100000#32),
    TRef.unary main_call0.c_0 main_call0.v2 (broadcastInDim S1024x20 ![] bcast_S_S1024x20),
    TRef.binary (.of main_arg0) main_call0.v2 main_call0.v3 addi,
    TRef.ternary main_call0.v1 main_call0.v3 (.of main_arg0) main_call0.call0.v0 select,
    TRef.unary main_call0.call0.v0 main_call0.v5 (broadcastInDim S1024x20x1 ![0, 1] bcast_S1024x20_S1024x20x1_0_1),
    TRef.nullary main_call0.c_1 (constantI S1 32 99999#32),
    TRef.nullary main_call0.c_2 (constantI S_ 32 0#32),
    TRef.unary main_call0.c_2 main_call0.v6 (broadcastInDim S1024x20x1 ![] bcast_S_S1024x20x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x20x1 ![0, 1, 2] bcast_S1x1x1_S1024x20x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x20x1_S1024x20_d2 h_S_),
    TRef.binary (.of main_arg1) main_call0.v5 main_call0.v13 (fun x i => Host.gather gather_S100000x64_S1024x20x1_S1024x20x64_2_0_n_n_0_2_164 x i),
    TRef.unary main_call0.v12 main_call0.v14 (broadcastInDim S1024x20x64 ![0, 1] bcast_S1024x20_S1024x20x64_0_1),
    TRef.nullary main_call0.cst (constant S_ .f32 0x7FC00000#32),
    TRef.unary main_call0.cst main_call0.v15 (broadcastInDim S1024x20x64 ![] bcast_S_S1024x20x64),
    TRef.ternary main_call0.v14 main_call0.v13 main_call0.v15 main_call0.v16 select,
    nullary main_cst (constant S_ .f32 0x00000000#32),
    binary main_v0 main_cst main_v1 ((fun x v => Host.reduceAdd x v reducesTo_S1024x20x64_S1024x64_d1 h_S_) : (⟨S1024x20x64, .f32⟩ : BufTy).Contents (Elt F) → (⟨S_, .f32⟩ : BufTy).Contents (Elt F) → (⟨S1024x64, .f32⟩ : BufTy).Contents (Elt F)),
    nullary main_cst_0 (constant S_ .f32 0x41A00000#32),
    unary main_cst_0 main_v2 (broadcastInDim S1024x64 ![] bcast_S_S1024x64 : (⟨S_, .f32⟩ : BufTy).Contents (Elt F) → (⟨S1024x64, .f32⟩ : BufTy).Contents (Elt F)),
    binary main_v1 main_v2 main_v3 (Host.divf : (⟨S1024x64, .f32⟩ : BufTy).Contents (Elt F) → (⟨S1024x64, .f32⟩ : BufTy).Contents (Elt F) → (⟨S1024x64, .f32⟩ : BufTy).Contents (Elt F)),
    unary main_arg2 main_v4 ((transpose S64x100000 [1, 0] · transposes_S100000x64_S64x100000_1_0) : (⟨S100000x64, .f32⟩ : BufTy).Contents (Elt F) → (⟨S64x100000, .f32⟩ : BufTy).Contents (Elt F)),
    binary main_v3 main_v4 main_v5 ((fun l r => Host.dotGeneral dot_S1024x64_S64x100000_S1024x100000_1_0_0_1_n_n none l r) : (⟨S1024x64, .f32⟩ : BufTy).Contents (Elt F) → (⟨S64x100000, .f32⟩ : BufTy).Contents (Elt F) → (⟨S1024x100000, .f32⟩ : BufTy).Contents (Elt F)),
    unary main_arg3 main_v6 (broadcastInDim S1x100000 ![1] bcast_S100000_S1x100000_1 : (⟨S100000, .f32⟩ : BufTy).Contents (Elt F) → (⟨S1x100000, .f32⟩ : BufTy).Contents (Elt F)),
    unary main_v6 main_v7 (broadcastInDim S1024x100000 ![0, 1] bcast_S1x100000_S1024x100000_0_1 : (⟨S1x100000, .f32⟩ : BufTy).Contents (Elt F) → (⟨S1024x100000, .f32⟩ : BufTy).Contents (Elt F)),
    binary main_v5 main_v7 main_v8 (addf : (⟨S1024x100000, .f32⟩ : BufTy).Contents (Elt F) → (⟨S1024x100000, .f32⟩ : BufTy).Contents (Elt F) → (⟨S1024x100000, .f32⟩ : BufTy).Contents (Elt F)) ]

set_option maxRecDepth 1024 in
/-- The entry function is that straight line: the two outlined functions unfolded at their calls, both sides are one
    chain of steps once sequencing is reassociated. -/
theorem main_eq (c : Dev nD) : main (F := F) c = seq ops := by
  simp only [main, fn_take.body, fn_where.body, seq, bind_assoc, pure_bind]

attribute [local irreducible] Host.reduce Host.gather Host.reduceAdd transpose broadcastInDim in
set_option maxRecDepth 8192 in
set_option maxHeartbeats 400000 in
/-- The fold at the result buffer is the composed term, by computation: each operation's result decides whether the
    buffer read is the one it writes, and the typed references' casts are the identity at literal references. The
    array operations are kept folded meanwhile: the equation never looks inside them. -/
theorem out_eq (V : Valuation τ sig (Elt F)) :
    after ops V (main_v8 : DevRef τ sig)
      = refOut (V (main_arg0 : DevRef τ sig)) (V (main_arg1 : DevRef τ sig)) (V (main_arg2 : DevRef τ sig))
          (V (main_arg3 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., nullary_bufs_sub .., unary_bufs_sub .., binary_bufs_sub .., unary_bufs_sub ..,
    binary_bufs_sub .., unary_bufs_sub .., unary_bufs_sub .., binary_bufs_sub ..⟩

/-- At the compiled mesh, for any float values, from any memory with zero counters: every weakly fair execution of the
    entry function terminates with the result at the composed term of the arguments' launch contents and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v8)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v8).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

/-- The reference's frame: the run with the result's value dropped. -/
theorem frame : Cert.frame_ReferenceIdeal :=
  fun m g _ => (θ_run _ _ _).mono (fun _ h c => (h c).2) (run (F := Ideal) m g)

end Cert.ReferenceIdeal.RefValue

end
-- ==== Proof.LibFillTake.lean ====
/-
  Words of a table look-up in fill mode (`jnp.take` as jax lowers it), general lemmas about no particular program.

  The look-up counts a negative index from the end of the table, marks an index as in range by two signed
  comparisons joined by `and` and reduced by `and` along the index column, and selects on the mark.  Here: on an index
  word that is not negative the count-from-the-end select is the word itself (`wrap_of_nonneg`); on a word between 0
  and the bound the mark's bit is 1 (`mark_of_between`); and a reduction by `and`, from 1, of an array of 1s is 1
  everywhere (`Host.reduce_andi_one`, the converse of Lib/ReduceAll.lean's `Host.reduce_andi_eq_one`).
-/
import Idealize.ShloMosaic.Lib.ReduceAll
import Idealize.ShloMosaic.Lib.ValueIdx

namespace Cert.LibFillTake

open Idealize.ShloMosaic

/-- The signed value of the zero word. -/
theorem toInt_zero32 : (0#32 : BitVec 32).toInt = 0 := by decide

/-- On an index word that is not negative, "if negative then index + extent else index" is the index. -/
theorem wrap_of_nonneg {x n : BitVec 32} (h0 : 0 ≤ x.toInt) :
    Scalar.select (IntOp.cmpi .slt x 0#32) (IntOp.addi x n) x = x := by
  have hc : IntOp.cmpi .slt x 0#32 = 0#1 := ValueIdx.eq_zero_of_ne_one fun h => by
    have := IntOp.cmpi_slt.1 h
    rw [toInt_zero32] at this
    omega
  rw [hc]
  exact ValueIdx.select_zero _ _

/-- On an index word between 0 and `hi`, signed, the bit "0 ≤ x and x ≤ hi" is 1. -/
theorem mark_of_between {x hi : BitVec 32} (h0 : 0 ≤ x.toInt) (h1 : x.toInt ≤ hi.toInt) :
    IntOp.andi (IntOp.cmpi .sge x 0#32) (IntOp.cmpi .sle x hi) = 1#1 :=
  IntOp.andi_eq_one.2 ⟨IntOp.cmpi_sge.2 (by rw [toInt_zero32]; exact h0), IntOp.cmpi_sle.2 h1⟩

/-- A left fold by `and` from 1 over 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A `stablehlo.reduce` by `and`, from an initial value that is 1, of an array of 1s is 1 at every index. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hinit : ∀ k, init k = 1#1) :
    Host.reduce IntOp.andi x init h hu j = 1#1 := by
  rw [Host.reduce_eq_foldl, hinit]
  exact foldl_andi_one x _ fun n _ => hx n

end Cert.LibFillTake
-- ==== Proof.RefValue.lean ====
/-
  The reference's composed term, read at an index, at the ideal instance.

  On index words inside the table the look-up in fill mode is the plain look-up: a word that is not negative is not
  counted from the end, its mark "inside the table" is set, and the gather's clamp leaves it alone. So entry
  `(b, t, d)` of the looked-up rows is the table's row `inputs[b, t]` at column `d`. The sum over the context axis
  from zero is the finite sum; the quotient by the literal 20 is the product with 1/20 on every extended real; the
  product with the transposed weights is the finite sum over the sixty-four columns; the bias is added per result
  column. That is the specification's `outIdeal`.
-/
import proofs.«204125_g1194000908950_cont_fleet_528_33_alg».proof.Proof.RefRun
import proofs.«204125_g1194000908950_cont_fleet_528_33_alg».proof.Proof.Spec
import proofs.«204125_g1194000908950_cont_fleet_528_33_alg».proof.Proof.LibFillTake
import Idealize.ShloMosaic.Lib.IdealHost
import Idealize.ShloMosaic.Lib.ValueLayout
import Idealize.ShloMosaic.Lib.StackMember

noncomputable section

namespace Cert.ReferenceIdeal.RefValue

open Cert.ReferenceIdeal Cert.ReferenceIdeal.Gen Idealize.ShloMosaic Idealize.ShloMosaic.ValueIdx
open scoped BigOperators

/-! ## Words -/

/-- A 32-bit word that is not negative as a signed number and below 100000 as an unsigned one. -/
theorem toInt_eq_toNat_of_lt {x : BitVec 32} (h : x.toNat < 100000) : x.toInt = (x.toNat : Int) := by
  rw [BitVec.toInt_eq_toNat_cond]
  have : 2 * x.toNat < 2 ^ 32 := by omega
  rw [if_pos this]

theorem toInt_99999 : (99999#32 : BitVec 32).toInt = 99999 := by decide

/-! ## The look-up -/

/-- A word that is not negative is not counted from the table's end. -/
theorem wrapIdx_apply (inputs : IVec S1024x20 32) (i : S1024x20.Idx) (h0 : 0 ≤ (inputs i).toInt) :
    wrapIdx inputs i = inputs i :=
  Cert.LibFillTake.wrap_of_nonneg (n := 100000#32) h0

/-- The column of start indices reads the index array. -/
theorem startIdx_apply (inputs : IVec S1024x20 32) (b : Fin 1024) (t : Fin 20) (u : Fin 1) :
    startIdx inputs (ix3 b t u) = wrapIdx inputs (ix2 b t) :=
  broadcastInDim_apply _ _ _ _ (ix2 b t) fun a => match a with | ⟨0, _⟩ => rfl | ⟨1, _⟩ => rfl

/-- On index words inside the table every mark is set. -/
theorem inTable_apply (inputs : IVec S1024x20 32) (hin : ∀ i, (inputs i).toNat < 100000 ∧ 0 ≤ (inputs i).toInt)
    (j : S1024x20.Idx) : inTable inputs j = 1#1 := by
  unfold inTable
  refine Cert.LibFillTake.reduce_andi_one _ _ _ _ j (fun i => ?_) (fun _ => rfl)
  obtain ⟨b, t, u, rfl⟩ : ∃ (b : Fin 1024) (t : Fin 20) (u : Fin 1), i = ix3 b t u := ⟨i 0, i 1, i 2, eq_ix3 i⟩
  show IntOp.andi (IntOp.cmpi .sge (startIdx inputs (ix3 b t u)) 0#32) (IntOp.cmpi .sle (startIdx inputs (ix3 b t u)) 99999#32) = 1#1
  rw [startIdx_apply, wrapIdx_apply inputs _ (hin _).2]
  refine Cert.LibFillTake.mark_of_between (hin _).2 ?_
  rw [toInt_99999, toInt_eq_toNat_of_lt (hin _).1]
  have := (hin (ix2 b t)).1
  omega

/-- The gather of rows read at an index: the table's row at the start index, read signed and clamped into the table, at
    the result's column. -/
theorem gather_rows_apply {α : Type} (x : S100000x64.Idx → α) (idx : IVec S1024x20x1 32) (b : Fin 1024) (t : Fin 20) (d : Fin 64) :
    Host.gather gather_S100000x64_S1024x20x1_S1024x20x64_2_0_n_n_0_2_164 x idx (ix3 b t d)
      = x (ix2 ⟨min (idx (ix3 b t (0 : Fin 1))).toInt.toNat 99999, by omega⟩ d) := by
  unfold Host.gather
  congr 1
  funext a
  refine Fin.ext ?_
  match a with
  | ⟨0, _⟩ =>
    show gather_S100000x64_S1024x20x1_S1024x20x64_2_0_n_n_0_2_164.start (ix3 b t d) idx 0
        + gather_S100000x64_S1024x20x1_S1024x20x64_2_0_n_n_0_2_164.batchCoord (ix3 b t d) 0
        + gather_S100000x64_S1024x20x1_S1024x20x64_2_0_n_n_0_2_164.offCoord (ix3 b t d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x64_S1024x20x1_S1024x20x64_2_0_n_n_0_2_164.startIndexMap from List.mem_singleton.mpr rfl)]
    have hsi : gather_S100000x64_S1024x20x1_S1024x20x64_2_0_n_n_0_2_164.siIdx (ix3 b t d)
        ⟨List.idxOf (0 : Fin 2) gather_S100000x64_S1024x20x1_S1024x20x64_2_0_n_n_0_2_164.startIndexMap,
          List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S100000x64_S1024x20x1_S1024x20x64_2_0_n_n_0_2_164.start (ix3 b t d) idx 1
        + gather_S100000x64_S1024x20x1_S1024x20x64_2_0_n_n_0_2_164.batchCoord (ix3 b t d) 1
        + gather_S100000x64_S1024x20x1_S1024x20x64_2_0_n_n_0_2_164.offCoord (ix3 b t d) 1 = d.val
    rw [GatherDims.batchCoord_eq_zero _ _ _ List.not_mem_nil]
    have hs : gather_S100000x64_S1024x20x1_S1024x20x64_2_0_n_n_0_2_164.start (ix3 b t d) idx 1 = 0 := by
      unfold GatherDims.start
      rw [dif_neg (show (1 : Fin 2) ∉ gather_S100000x64_S1024x20x1_S1024x20x64_2_0_n_n_0_2_164.startIndexMap from by decide)]
    have ho : gather_S100000x64_S1024x20x1_S1024x20x64_2_0_n_n_0_2_164.offCoord (ix3 b t d) 1 = d.val := by
      unfold GatherDims.offCoord
      rw [dif_pos (show (1 : Fin 2) ∈ gather_S100000x64_S1024x20x1_S1024x20x64_2_0_n_n_0_2_164.sKept from by decide)]
      rfl
    rw [hs, ho, Nat.add_zero, Nat.zero_add]

/-- On index words inside the table, the looked-up rows are the table's rows the words name. -/
theorem taken_apply (inputs : IVec S1024x20 32) (emb : FVec Ideal S100000x64 .f32)
    (hin : ∀ i, (inputs i).toNat < 100000 ∧ 0 ≤ (inputs i).toInt) (b : Fin 1024) (t : Fin 20) (d : Fin 64) :
    taken inputs emb (ix3 b t d) = Cert.Spec.embAt emb (inputs (ix2 b t)) d := by
  have hm : broadcastInDim S1024x20x64 ![0, 1] bcast_S1024x20_S1024x20x64_0_1 (inTable inputs) (ix3 b t d) = 1#1 :=
    (broadcastInDim_apply _ _ _ _ (ix2 b t) fun a => match a with | ⟨0, _⟩ => rfl | ⟨1, _⟩ => rfl).trans
      (inTable_apply inputs hin _)
  unfold taken
  rw [select_apply, hm, select_one, gather_rows_apply]
  unfold Cert.Spec.embAt
  rw [dif_pos (hin (ix2 b t)).1]
  refine congrArg (fun r => emb (ix2 r d)) (Fin.ext ?_)
  show min (startIdx inputs (ix3 b t (0 : Fin 1))).toInt.toNat 99999 = (inputs (ix2 b t)).toNat
  rw [startIdx_apply, wrapIdx_apply inputs _ (hin _).2, toInt_eq_toNat_of_lt (hin _).1]
  have := (hin (ix2 b t)).1
  omega

/-! ## The mean -/

/-- The literal `20.0` denotes the real 20. -/
theorem ofBits_20 : Ideal.ofBits .f32 0x41A00000#32 = ((20 : ℝ) : EReal) := by
  simp [Ideal.ofBits, Ideal.ieee, -EReal.coe_mul]; norm_num

/-- The shape fact that names the index a context position is inserted at. -/
theorem reduces_ctx : S1024x20x64.Reduces [1] S1024x64 := by decide

theorem lift_ctx (b : Fin 1024) (d : Fin 64) (t : Fin 20) :
    reduces_ctx.lift (ix2 b d) t = ix3 b t d := by
  funext a; refine Fin.ext ?_
  match a with
  | ⟨0, _⟩ => rfl
  | ⟨1, _⟩ => rfl
  | ⟨2, _⟩ => rfl

/-- The mean over the context axis is the finite sum of the looked-up rows times 1/20. -/
theorem meanCtx_apply (inputs : IVec S1024x20 32) (emb : FVec Ideal S100000x64 .f32)
    (hin : ∀ i, (inputs i).toNat < 100000 ∧ 0 ≤ (inputs i).toInt) (b : Fin 1024) (d : Fin 64) :
    meanCtx inputs emb (ix2 b d)
      = (∑ t : Fin 20, Cert.Spec.embAt emb (inputs (ix2 b t)) d) * ((1 / 20 : ℝ) : EReal) := by
  show Ideal.div (Ideal.hostReduceAdd reducesTo_S1024x20x64_S1024x64_d1 (taken inputs emb) (Ideal.ofBits .f32 0x00000000#32) (ix2 b d))
      (Ideal.ofBits .f32 0x41A00000#32) = _
  rw [Ideal.hostReduceAdd_single _ reduces_ctx, Ideal.ofBits_zero_f32, zero_add, ofBits_20,
    Ideal.div_coe (by norm_num : (20 : ℝ) ≠ 0)]
  refine congrArg (fun s => s * ((1 / 20 : ℝ) : EReal)) (Finset.sum_congr rfl fun t _ => ?_)
  exact (congrArg (taken inputs emb) (lift_ctx b d t)).trans (taken_apply inputs emb hin b t d)

/-! ## The result -/

/-- On index words inside the table the reference's composed term is the specification. -/
theorem refOut_eq (inputs : IVec S1024x20 32) (emb w : FVec Ideal S100000x64 .f32) (bias : FVec Ideal S100000 .f32)
    (hin : ∀ i, (inputs i).toNat < 100000 ∧ 0 ≤ (inputs i).toInt) :
    refOut inputs emb w bias = Cert.Spec.outIdeal inputs emb w bias := by
  funext j
  obtain ⟨b, v, rfl⟩ : ∃ (b : Fin 1024) (v : Fin 100000), j = ix2 b v := ⟨j 0, j 1, eq_ix2 j⟩
  have hbias : broadcastInDim S1024x100000 ![0, 1] bcast_S1x100000_S1024x100000_0_1
      (broadcastInDim S1x100000 ![1] bcast_S100000_S1x100000_1 bias) (ix2 b v) = bias (ix1 v) :=
    (broadcastInDim_apply _ _ _ _ (ix2 (0 : Fin 1) v) fun a => match a with | ⟨0, _⟩ => rfl | ⟨1, _⟩ => rfl).trans
      (broadcastInDim_apply _ _ _ _ (ix1 v) fun a => match a with | ⟨0, _⟩ => rfl)
  have hD : dot_S1024x64_S64x100000_S1024x100000_1_0_0_1_n_n = DotDims.plain 1024 64 100000 := rfl
  show Host.dotGeneral dot_S1024x64_S64x100000_S1024x100000_1_0_0_1_n_n none (meanCtx inputs emb)
        (transpose S64x100000 [1, 0] w transposes_S100000x64_S64x100000_1_0) (ix2 b v)
      + broadcastInDim S1024x100000 ![0, 1] bcast_S1x100000_S1024x100000_0_1
        (broadcastInDim S1x100000 ![1] bcast_S100000_S1x100000_1 bias) (ix2 b v) = Cert.Spec.outAt inputs emb w bias b v
  rw [hbias, hD, Idealize.ShloMosaic.StackMember.dotGeneral_plain_apply]
  unfold Cert.Spec.outAt
  congr 1
  refine Finset.sum_congr rfl fun d _ => ?_
  rw [transpose_ix2_apply, meanCtx_apply inputs emb hin, mul_comm]

end Cert.ReferenceIdeal.RefValue

end
-- ==== Proof.RefAlgebra.lean ====
/-
  The reference's run stated against the specification: under the precondition the index words name rows of the
  table, so the composed term the run ends at is the specification's result.
-/
import proofs.«204125_g1194000908950_cont_fleet_528_33_alg».proof.Proof.RefValue
import proofs.«204125_g1194000908950_cont_fleet_528_33_alg».proof.Proof.PreIdx

noncomputable section

namespace Cert.ReferenceIdeal.RefValue

open Cert.ReferenceIdeal Cert.ReferenceIdeal.Gen Idealize.ShloMosaic Idealize.ShloMosaic.TcCoe Idealize.SL.Sem

/-- Under the reference's precondition every index word of every device names a row of the table. -/
theorem hin_of_pre (m : (ℓ : Loc nD τ sig) → Buf (Elt Ideal) ℓ) (hpre : Cert.Pre_ReferenceIdeal m) (c : Dev nD) :
    ∀ i, ((m ((c.tc : Thread nD τ).loc main_arg0)) i).toNat < 100000 ∧ 0 ≤ ((m ((c.tc : Thread nD τ).loc main_arg0)) i).toInt :=
  Cert.Pre_input_domain.idx_of_pre (F := Ideal) _ _ _ _ (hpre c)

/-- From a memory whose index words name rows of the table, every weakly fair execution of the reference ends with
    the result at the specification's function of the arguments, and the arguments unchanged. -/
theorem run_spec (m : (ℓ : Loc nD τ sig) → Buf (Elt Ideal) ℓ) (ρ : Dev nD → PrngReg)
    (hin : ∀ (c : Dev nD) i, ((m ((c.tc : Thread nD τ).loc main_arg0)) i).toNat < 100000
      ∧ 0 ≤ ((m ((c.tc : Thread nD τ).loc main_arg0)) i).toInt) :
    θ_run (defs (F := Ideal)) (onTc (τ := τ) (main (F := Ideal))) ⟨m, fun _ => 0, ρ⟩ (fun r => ∀ c : Dev nD,
      r.2.mem ((c.tc : Thread nD τ).loc main_v8)
          = Cert.Spec.outIdeal (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun _ h c => ⟨(h c).1.trans (refOut_eq _ _ _ _ (hin c)), (h c).2⟩) (run (F := Ideal) m ρ)

end Cert.ReferenceIdeal.RefValue

end
-- ==== Proof.lean ====
/-
  The certificate's five claims for the context-mean and linear-layer kernel against its reference.

  The kernel computes, transposed, what the reference computes: the mean over the twenty context positions of the looked-up
  table rows (a vector-subcore kernel: per embedding column the twenty gathered values summed from the left, times the
  constant one twentieth), then the linear layer (a TensorCore kernel over thirty-three row tiles: the transposed
  weights' block against the means, plus the bias, copied out to the result by the kernel's own transfers). Both
  programs' frames are their runs with the values dropped. At the ideal instance the kernel's result is, entry by
  entry, the sum over the sixty-four columns of a weight times the mean, plus the bias — the same closed form the
  reference's gather, sum, quotient by twenty, contraction and bias add are brought to; the quotient by twenty is the
  product with one twentieth on every extended real, the product and the finite sums commute, and no finiteness of the
  inputs is used. The one named constant's statement closes the idealization's ledger.
-/
import proofs.«204125_g1194000908950_cont_fleet_528_33_alg».proof.Defs
import proofs.«204125_g1194000908950_cont_fleet_528_33_alg».proof.Proof.RunAll
import proofs.«204125_g1194000908950_cont_fleet_528_33_alg».proof.Proof.W.RunAll
import proofs.«204125_g1194000908950_cont_fleet_528_33_alg».proof.Proof.KernelValue
import proofs.«204125_g1194000908950_cont_fleet_528_33_alg».proof.Proof.RefAlgebra
import proofs.«204125_g1194000908950_cont_fleet_528_33_alg».proof.Proof.Gen.Kernel
import proofs.«204125_g1194000908950_cont_fleet_528_33_alg».proof.Proof.Gen.KernelIdeal
import proofs.«204125_g1194000908950_cont_fleet_528_33_alg».proof.Proof.Gen.ReferenceIdeal
import proofs.«204125_g1194000908950_cont_fleet_528_33_alg».proof.Proof.Gen.Pre_input_domain
import Idealize.ShloMosaic.PureOps.IdealRules

noncomputable section

namespace Cert.Proof

open Idealize.ShloMosaic Idealize.SL.Sem

/-- The word-level program runs and leaves its arguments as launched. -/
theorem frame_k : Cert.frame_Kernel := fun m ρ hpre =>
  (θ_run Cert.Kernel.defs _ _).mono (fun _ h c => ⟨(h c).1, (h c).2.1, (h c).2.2.1, (h c).2.2.2.1⟩) (Cert.Kernel.Run.run (F := Bits) m ρ hpre)

/-- So does the idealized program. -/
theorem frame_ki : Cert.frame_KernelIdeal := fun m ρ hpre =>
  (θ_run Cert.KernelIdeal.defs _ _).mono (fun _ h c => ⟨(h c).1, (h c).2.1, (h c).2.2.1, (h c).2.2.2.1⟩) (Cert.KernelIdeal.Run.run (F := Ideal) m ρ hpre)

/-- The ledger's two entries are one: the table gives "inv_20" the value 1/20, and the printed constant is that value at
    the ideal instance. -/
theorem preserves : Cert.preserves_Kernel_KernelIdeal :=
  ⟨IdealRules.named_const.statement Cert.KernelIdeal.κ "inv_20" .f32 0x3D4CCCCD#32 ((1 / 20 : ℝ) : EReal) rfl,
   IdealRules.named_const.statement Cert.KernelIdeal.κ "inv_20" .f32 0x3D4CCCCD#32 ((1 / 20 : ℝ) : EReal) rfl⟩

/-- At the ideal instance both programs end with the one closed form of the arguments they agree on. -/
theorem algebraic : Cert.algebraic_KernelIdeal_ReferenceIdeal := by
  intro m ρ m' ρ' hpre hagree
  have hin : ∀ (c : Dev Cert.KernelIdeal.nD) i, ((m ((c.tc : Thread Cert.KernelIdeal.nD Cert.KernelIdeal.τ).loc Cert.KernelIdeal.main_arg0)) i).toNat < 100000
      ∧ 0 ≤ ((m ((c.tc : Thread Cert.KernelIdeal.nD Cert.KernelIdeal.τ).loc Cert.KernelIdeal.main_arg0)) i).toInt :=
    fun c => Cert.Pre_input_domain.idx_of_pre (F := Ideal) _ _ _ _ (hpre c)
  refine ⟨fun c => Cert.Spec.outIdeal (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Run.run (F := Ideal) m ρ hpre)
    obtain ⟨h0, h1, h2, h3, out, hout, h5⟩ := h c
    exact ⟨h5.trans (Cert.KernelIdeal.KValue.kernel_value _ _ _ _ (hin c) out hout), h0, h1, h2, h3⟩
  · have hin' : ∀ (c : Dev Cert.ReferenceIdeal.nD) i, ((m' ((c.tc : Thread Cert.ReferenceIdeal.nD Cert.ReferenceIdeal.τ).loc Cert.ReferenceIdeal.main_arg0)) i).toNat < 100000
        ∧ 0 ≤ ((m' ((c.tc : Thread Cert.ReferenceIdeal.nD Cert.ReferenceIdeal.τ).loc Cert.ReferenceIdeal.main_arg0)) i).toInt := by
      intro c i; rw [(hagree c).1]; exact hin c i
    refine (θ_run Cert.ReferenceIdeal.defs _ _).mono (fun r h c => ?_) (Cert.ReferenceIdeal.RefValue.run_spec m' ρ' hin')
    obtain ⟨h8, h0, h1, h2, h3⟩ := h c
    refine ⟨?_, h0, h1, h2, h3⟩
    rw [h8, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_input_domain.Gen.facts,
    frame_k, frame_ki, Cert.ReferenceIdeal.RefValue.frame, preserves, algebraic⟩

end Cert.Proof

end
